-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x13 : Shape := ⟨2, ![4096, 13]⟩
abbrev S4096x26 : Shape := ⟨2, ![4096, 26]⟩
abbrev S4096x200 : Shape := ⟨2, ![4096, 200]⟩
abbrev S2600000x1 : Shape := ⟨2, ![2600000, 1]⟩
abbrev S13x1 : Shape := ⟨2, ![13, 1]⟩
abbrev S100000x1 : Shape := ⟨2, ![100000, 1]⟩
abbrev S1 : Shape := ⟨1, ![1]⟩
abbrev S_ : Shape := ⟨0, ![]⟩

class Facts : Prop where
  bcast_S_S4096x13 : S_.BroadcastsInDim S4096x13 (![] : Fin 0 → Fin S4096x13.rank)
  reducesTo_S4096x13_S_d0_1 : S4096x13.ReducesTo [0, 1] S_
  h_S_ : 0 < S_.numel
  bcast_S_S2600000x1 : S_.BroadcastsInDim S2600000x1 (![] : Fin 0 → Fin S2600000x1.rank)
  reducesTo_S2600000x1_S_d0_1 : S2600000x1.ReducesTo [0, 1] S_
  bcast_S_S13x1 : S_.BroadcastsInDim S13x1 (![] : Fin 0 → Fin S13x1.rank)
  reducesTo_S13x1_S_d0_1 : S13x1.ReducesTo [0, 1] S_
  bcast_S_S100000x1 : S_.BroadcastsInDim S100000x1 (![] : Fin 0 → Fin S100000x1.rank)
  reducesTo_S100000x1_S_d0_1 : S100000x1.ReducesTo [0, 1] S_
  bcast_S_S1 : S_.BroadcastsInDim S1 (![] : Fin 0 → Fin S1.rank)
  reducesTo_S1_S_d0 : S1.ReducesTo [0] S_
  bcast_S_S4096x26 : S_.BroadcastsInDim S4096x26 (![] : Fin 0 → Fin S4096x26.rank)
  reducesTo_S4096x26_S_d0_1 : S4096x26.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn_part2 {F : FTy → Type} [FloatOps F] (main_arg2 : IVec S4096x200 32) (main_v30 : IVec S_ 1) (main_v32 : IVec S4096x200 1) (main_c_12 : IVec S_ 32) : IVec S_ 1 :=
  let main_v33 : IVec S4096x200 32 := broadcastInDim S4096x200 ![] bcast_S_S4096x200 main_c_12
  let main_v34 : IVec S4096x200 1 := cmpi .sle main_arg2 main_v33
  let main_v35 : IVec S4096x200 1 := andi main_v32 main_v34
  let main_c_13 : IVec S_ 1 := constantI S_ 1 1#1
  let main_v36 : IVec S_ 1 := (fun x v => Host.reduce IntOp.andi x v reducesTo_S4096x200_S_d0_1 h_S_) main_v35 main_c_13
  let main_v37 : IVec S_ 1 := andi main_v30 main_v36
  main_v37

def fn_part1 {F : FTy → Type} [FloatOps F] (main_arg1 : IVec S4096x26 32) (main_arg2 : IVec S4096x200 32) (main_arg6 : FVec F S1 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S4096x26 32 := broadcastInDim S4096x26 ![] bcast_S_S4096x26 main_c_8
  let main_v25 : IVec S4096x26 1 := cmpi .sge main_arg1 main_v24
  let main_c_9 : IVec S_ 32 := constantI S_ 32 99999#32
  let main_v26 : IVec S4096x26 32 := broadcastInDim S4096x26 ![] bcast_S_S4096x26 main_c_9
  let main_v27 : IVec S4096x26 1 := cmpi .sle main_arg1 main_v26
  let main_v28 : IVec S4096x26 1 := andi main_v25 main_v27
  let main_c_10 : IVec S_ 1 := constantI S_ 1 1#1
  let main_v29 : IVec S_ 1 := (fun x v => Host.reduce IntOp.andi x v reducesTo_S4096x26_S_d0_1 h_S_) main_v28 main_c_10
  let main_v30 : IVec S_ 1 := andi main_v23 main_v29
  let main_c_11 : IVec S_ 32 := constantI S_ 32 0#32
  let main_v31 : IVec S4096x200 32 := broadcastInDim S4096x200 ![] bcast_S_S4096x200 main_c_11
  let main_v32 : IVec S4096x200 1 := cmpi .sge main_arg2 main_v31
  let main_c_12 : IVec S_ 32 := constantI S_ 32 99999#32
  fn_part2 (F := F) main_arg2 main_v30 main_v32 main_c_12

def fn {F : FTy → Type} [FloatOps F] (main_arg0 : FVec F S4096x13 .f32) (main_arg1 : IVec S4096x26 32) (main_arg2 : IVec S4096x200 32) (main_arg3 : FVec F S2600000x1 .f32) (main_arg4 : FVec F S13x1 .f32) (main_arg5 : FVec F S100000x1 .f32) (main_arg6 : FVec F S1 .f32) : IVec S_ 1 :=
  let main_v0 : FVec F S4096x13 .f32 := Host.absf main_arg0
  let main_cst : FVec F S_ .f32 := constant S_ .f32 0x7F800000#32
  let main_v1 : FVec F S4096x13 .f32 := broadcastInDim S4096x13 ![] bcast_S_S4096x13 main_cst
  let main_v2 : IVec S4096x13 1 := cmpf .olt main_v0 main_v1
  let main_c : IVec S_ 1 := constantI S_ 1 1#1
  let main_v3 : IVec S_ 1 := (fun x v => Host.reduce IntOp.andi x v reducesTo_S4096x13_S_d0_1 h_S_) main_v2 main_c
  let main_v4 : FVec F S2600000x1 .f32 := Host.absf main_arg3
  let main_cst_0 : FVec F S_ .f32 := constant S_ .f32 0x7F800000#32
  let main_v5 : FVec F S2600000x1 .f32 := broadcastInDim S2600000x1 ![] bcast_S_S2600000x1 main_cst_0
  let main_v6 : IVec S2600000x1 1 := cmpf .olt main_v4 main_v5
  let main_c_1 : IVec S_ 1 := constantI S_ 1 1#1
  let main_v7 : IVec S_ 1 := (fun x v => Host.reduce IntOp.andi x v reducesTo_S2600000x1_S_d0_1 h_S_) main_v6 main_c_1
  let main_v8 : IVec S_ 1 := andi main_v3 main_v7
  let main_v9 : FVec F S13x1 .f32 := Host.absf main_arg4
  let main_cst_2 : FVec F S_ .f32 := constant S_ .f32 0x7F800000#32
  let main_v10 : FVec F S13x1 .f32 := broadcastInDim S13x1 ![] bcast_S_S13x1 main_cst_2
  let main_v11 : IVec S13x1 1 := cmpf .olt main_v9 main_v10
  let main_c_3 : IVec S_ 1 := constantI S_ 1 1#1
  let main_v12 : IVec S_ 1 := (fun x v => Host.reduce IntOp.andi x v reducesTo_S13x1_S_d0_1 h_S_) main_v11 main_c_3
  let main_v13 : IVec S_ 1 := andi main_v8 main_v12
  let main_v14 : FVec F S100000x1 .f32 := Host.absf main_arg5
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg1 main_arg2 main_arg6 main_v13 main_v16
-- ==== Kernel.lean ====
abbrev S4096x13 : Shape := ⟨2, ![4096, 13]⟩
abbrev S4096x26 : Shape := ⟨2, ![4096, 26]⟩
abbrev S4096x200 : Shape := ⟨2, ![4096, 200]⟩
abbrev S2600000x1 : Shape := ⟨2, ![2600000, 1]⟩
abbrev S13x1 : Shape := ⟨2, ![13, 1]⟩
abbrev S100000x1 : Shape := ⟨2, ![100000, 1]⟩
abbrev S1 : Shape := ⟨1, ![1]⟩
abbrev S26 : Shape := ⟨1, ![26]⟩
abbrev S_ : Shape := ⟨0, ![]⟩
abbrev S1x26 : Shape := ⟨2, ![1, 26]⟩
abbrev S32x128x26 : Shape := ⟨3, ![32, 128, 26]⟩
abbrev S32x26x128 : Shape := ⟨3, ![32, 26, 128]⟩
abbrev S106496 : Shape := ⟨1, ![106496]⟩
abbrev S32x128x200 : Shape := ⟨3, ![32, 128, 200]⟩
abbrev S32x200x128 : Shape := ⟨3, ![32, 200, 128]⟩
abbrev S819200 : Shape := ⟨1, ![819200]⟩
abbrev S32x128x13 : Shape := ⟨3, ![32, 128, 13]⟩
abbrev S32x13x128 : Shape := ⟨3, ![32, 13, 128]⟩
abbrev S53248 : Shape := ⟨1, ![53248]⟩
abbrev S2599936x1 : Shape := ⟨2, ![2599936, 1]⟩
abbrev S2599936 : Shape := ⟨1, ![2599936]⟩
abbrev S99968x1 : Shape := ⟨2, ![99968, 1]⟩
abbrev S99968 : Shape := ⟨1, ![99968]⟩
abbrev S64x1 : Shape := ⟨2, ![64, 1]⟩
abbrev S1x64 : Shape := ⟨2, ![1, 64]⟩
abbrev S32x1 : Shape := ⟨2, ![32, 1]⟩
abbrev S1x32 : Shape := ⟨2, ![1, 32]⟩
abbrev S1x13 : Shape := ⟨2, ![1, 13]⟩
abbrev S1x1 : Shape := ⟨2, ![1, 1]⟩
abbrev S1x18 : Shape := ⟨2, ![1, 18]⟩
abbrev S1x128 : Shape := ⟨2, ![1, 128]⟩
abbrev S4096 : Shape := ⟨1, ![4096]⟩
abbrev S3328 : Shape := ⟨1, ![3328]⟩
abbrev S100000 : Shape := ⟨1, ![100000]⟩
abbrev S3200 : Shape := ⟨1, ![3200]⟩
abbrev S1664 : Shape := ⟨1, ![1664]⟩
abbrev S128 : Shape := ⟨1, ![128]⟩
abbrev S16 : Shape := ⟨1, ![16]⟩
abbrev S49984 : Shape := ⟨1, ![49984]⟩
abbrev S4096x1 : Shape := ⟨2, ![4096, 1]⟩

abbrev nBuf : Table → Nat
  | .hbm => 41
  | .local .scVector .vmem => 9
  | _ => 0

abbrev bufTy : (tb : Table) → Fin (nBuf tb) → BufTy
  | .hbm, ⟨0, _⟩ => ⟨S4096x13, .f32⟩
  | .hbm, ⟨1, _⟩ => ⟨S4096x26, .i32⟩
  | .hbm, ⟨2, _⟩ => ⟨S4096x200, .i32⟩
  | .hbm, ⟨3, _⟩ => ⟨S2600000x1, .f32⟩
  | .hbm, ⟨4, _⟩ => ⟨S13x1, .f32⟩
  | .hbm, ⟨5, _⟩ => ⟨S100000x1, .f32⟩
  | .hbm, ⟨6, _⟩ => ⟨S1, .f32⟩
  | .hbm, ⟨7, _⟩ => ⟨S26, .i32⟩
  | .hbm, ⟨8, _⟩ => ⟨S_, .i32⟩
  | .hbm, ⟨9, _⟩ => ⟨S26, .i32⟩
  | .hbm, ⟨10, _⟩ => ⟨S26, .i32⟩
  | .hbm, ⟨11, _⟩ => ⟨S1x26, .i32⟩
  | .hbm, ⟨12, _⟩ => ⟨S4096x26, .i32⟩
  | .hbm, ⟨13, _⟩ => ⟨S4096x26, .i32⟩
  | .hbm, ⟨14, _⟩ => ⟨S32x128x26, .i32⟩
  | .hbm, ⟨15, _⟩ => ⟨S32x26x128, .i32⟩
  | .hbm, ⟨16, _⟩ => ⟨S106496, .i32⟩
  | .hbm, ⟨17, _⟩ => ⟨S_, .i32⟩
  | .hbm, ⟨18, _⟩ => ⟨S106496, .i32⟩
  | .hbm, ⟨19, _⟩ => ⟨S106496, .i32⟩
  | .hbm, ⟨20, _⟩ => ⟨S32x128x200, .i32⟩
  | .hbm, ⟨21, _⟩ => ⟨S32x200x128, .i32⟩
  | .hbm, ⟨22, _⟩ => ⟨S819200, .i32⟩
  | .hbm, ⟨23, _⟩ => ⟨S32x128x13, .f32⟩
  | .hbm, ⟨24, _⟩ => ⟨S32x13x128, .f32⟩
  | .hbm, ⟨25, _⟩ => ⟨S53248, .f32⟩
  | .hbm, ⟨26, _⟩ => ⟨S2599936x1, .f32⟩
  | .hbm, ⟨27, _⟩ => ⟨S2599936, .f32⟩
  | .hbm, ⟨28, _⟩ => ⟨S99968x1, .f32⟩
  | .hbm, ⟨29, _⟩ => ⟨S99968, .f32⟩
  | .hbm, ⟨30, _⟩ => ⟨S64x1, .f32⟩
  | .hbm, ⟨31, _⟩ => ⟨S1x64, .f32⟩
  | .hbm, ⟨32, _⟩ => ⟨S32x1, .f32⟩
  | .hbm, ⟨33, _⟩ => ⟨S1x32, .f32⟩
  | .hbm, ⟨34, _⟩ => ⟨S1x13, .f32⟩
  | .hbm, ⟨35, _⟩ => ⟨S1x1, .f32⟩
  | .hbm, ⟨36, _⟩ => ⟨S_, .f32⟩
  | .hbm, ⟨37, _⟩ => ⟨S1x18, .f32⟩
  | .hbm, ⟨38, _⟩ => ⟨S1x128, .f32⟩
  | .hbm, ⟨39, _⟩ => ⟨S4096, .f32⟩
  | .hbm, ⟨40, _⟩ => ⟨S4096x1, .f32⟩
  | .local .scVector .vmem, ⟨0, _⟩ => ⟨S3328, .i32⟩
  | .local .scVector .vmem, ⟨1, _⟩ => ⟨S3328, .i32⟩
  | .local .scVector .vmem, ⟨2, _⟩ => ⟨S3328, .f32⟩
  | .local .scVector .vmem, ⟨3, _⟩ => ⟨S100000, .f32⟩
  | .local .scVector .vmem, ⟨4, _⟩ => ⟨S3200, .i32⟩
  | .local .scVector .vmem, ⟨5, _⟩ => ⟨S3200, .i32⟩
  | .local .scVector .vmem, ⟨6, _⟩ => ⟨S1664, .f32⟩
  | .local .scVector .vmem, ⟨7, _⟩ => ⟨S1x128, .f32⟩
  | .local .scVector .vmem, ⟨8, _⟩ => ⟨S128, .f32⟩
  | _, _ => ⟨S4096x13, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v10_scv : Ref sig .scVector := ⟨.hbm, 19, rfl⟩
abbrev main_v8_scv : Ref sig .scVector := ⟨.hbm, 16, rfl⟩
abbrev main_v13_scv : Ref sig .scVector := ⟨.hbm, 22, rfl⟩
abbrev main_v16_scv : Ref sig .scVector := ⟨.hbm, 25, rfl⟩
abbrev main_v18_scv : Ref sig .scVector := ⟨.hbm, 27, rfl⟩
abbrev main_v20_scv : Ref sig .scVector := ⟨.hbm, 29, rfl⟩
abbrev main_v28_scv : Ref sig .scVector := ⟨.hbm, 38, rfl⟩
abbrev main_v29_scv : Ref sig .scVector := ⟨.hbm, 39, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c26_i32 : BitVec 32 := 26#32
  let v15 : BitVec 32 := Scalar.muli v3 c26_i32
  let c128_i32_8 : BitVec 32 := 128#32
  let v16 : BitVec 32 := Scalar.muli v15 c128_i32_8
  ![v16.toNat]
def k0_off2 (i : grid0.Coords) (c0_i32_10 : BitVec 32) : Fin 1 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c200_i32 : BitVec 32 := 200#32
  let v5 : BitVec 32 := Scalar.muli v3 c200_i32
  let c128_i32_0 : BitVec 32 := 128#32
  let v6 : BitVec 32 := Scalar.muli v5 c128_i32_0
  let v18 : BitVec 32 := Scalar.addi v6 c0_i32_10
  ![v18.toNat]
def k0_off3 (i : grid0.Coords) : Fin 1 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c13_i32 : BitVec 32 := 13#32
  let v26 : BitVec 32 := Scalar.muli v3 c13_i32
  let c128_i32_13 : BitVec 32 := 128#32
  let v27 : BitVec 32 := Scalar.muli v26 c128_i32_13
  ![v27.toNat]

def k0_chk1 (v1 : IVec S16 32) (v29 : IVec S16 32) : Prop :=
  (∀ a x, ((![v1, v29] : Fin 2 → IVec S16 32) a x).toNat < S1x128.size a)
instance k0_chk1.dec : ∀ (v1 : IVec S16 32) (v29 : IVec S16 32), Decidable (k0_chk1 v1 v29) := fun v1 v29 => decidable_of_iff' _ (Iff.of_eq (k0_chk1.eq_1 v1 v29))
theorem k0_idx1_inb : ∀ (v1 : IVec S16 32) (v29 : IVec S16 32) (k0_hw1 : k0_chk1 v1 v29), ∀ a x, ((![v1, v29] : Fin 2 → IVec S16 32) a x).toNat < S1x128.size a := fun v1 v29 k0_hw1 => k0_hw1

def k0_chk2 (v1 : IVec S16 32) (v33 : IVec S16 32) : Prop :=
  (∀ a x, ((![v1, v33] : Fin 2 → IVec S16 32) a x).toNat < S1x128.size a)
instance k0_chk2.dec : ∀ (v1 : IVec S16 32) (v33 : IVec S16 32), Decidable (k0_chk2 v1 v33) := fun v1 v33 => decidable_of_iff' _ (Iff.of_eq (k0_chk2.eq_1 v1 v33))
theorem k0_idx2_inb : ∀ (v1 : IVec S16 32) (v33 : IVec S16 32) (k0_hw2 : k0_chk2 v1 v33), ∀ a x, ((![v1, v33] : Fin 2 → IVec S16 32) a x).toNat < S1x128.size a := fun v1 v33 k0_hw2 => k0_hw2

def k0_chk3 (v1 : IVec S16 32) (v36 : IVec S16 32) : Prop :=
  (∀ a x, ((![v1, v36] : Fin 2 → IVec S16 32) a x).toNat < S1x128.size a)
instance k0_chk3.dec : ∀ (v1 : IVec S16 32) (v36 : IVec S16 32), Decidable (k0_chk3 v1 v36) := fun v1 v36 => decidable_of_iff' _ (Iff.of_eq (k0_chk3.eq_1 v1 v36))
theorem k0_idx3_inb : ∀ (v1 : IVec S16 32) (v36 : IVec S16 32) (k0_hw3 : k0_chk3 v1 v36), ∀ a x, ((![v1, v36] : Fin 2 → IVec S16 32) a x).toNat < S1x128.size a := fun v1 v36 k0_hw3 => k0_hw3

def k0_chk4 (v1 : IVec S16 32) (v38 : IVec S16 32) : Prop :=
  (∀ a x, ((![v1, v38] : Fin 2 → IVec S16 32) a x).toNat < S1x128.size a)
instance k0_chk4.dec : ∀ (v1 : IVec S16 32) (v38 : IVec S16 32), Decidable (k0_chk4 v1 v38) := fun v1 v38 => decidable_of_iff' _ (Iff.of_eq (k0_chk4.eq_1 v1 v38))
theorem k0_idx4_inb : ∀ (v1 : IVec S16 32) (v38 : IVec S16 32) (k0_hw4 : k0_chk4 v1 v38), ∀ a x, ((![v1, v38] : Fin 2 → IVec S16 32) a x).toNat < S1x128.size a := fun v1 v38 k0_hw4 => k0_hw4

def k0_chk5 (v1 : IVec S16 32) (v40 : IVec S16 32) : Prop :=
  (∀ a x, ((![v1, v40] : Fin 2 → IVec S16 32) a x).toNat < S1x128.size a)
instance k0_chk5.dec : ∀ (v1 : IVec S16 32) (v40 : IVec S16 32), Decidable (k0_chk5 v1 v40) := fun v1 v40 => decidable_of_iff' _ (Iff.of_eq (k0_chk5.eq_1 v1 v40))
theorem k0_idx5_inb : ∀ (v1 : IVec S16 32) (v40 : IVec S16 32) (k0_hw5 : k0_chk5 v1 v40), ∀ a x, ((![v1, v40] : Fin 2 → IVec S16 32) a x).toNat < S1x128.size a := fun v1 v40 k0_hw5 => k0_hw5

def k0_chk6 (v1 : IVec S16 32) (v42 : IVec S16 32) : Prop :=
  (∀ a x, ((![v1, v42] : Fin 2 → IVec S16 32) a x).toNat < S1x128.size a)
instance k0_chk6.dec : ∀ (v1 : IVec S16 32) (v42 : IVec S16 32), Decidable (k0_chk6 v1 v42) := fun v1 v42 => decidable_of_iff' _ (Iff.of_eq (k0_chk6.eq_1 v1 v42))
theorem k0_idx6_inb : ∀ (v1 : IVec S16 32) (v42 : IVec S16 32) (k0_hw6 : k0_chk6 v1 v42), ∀ a x, ((![v1, v42] : Fin 2 → IVec S16 32) a x).toNat < S1x128.size a := fun v1 v42 k0_hw6 => k0_hw6

def k0_chk7 (v1 : IVec S16 32) (v44 : IVec S16 32) : Prop :=
  (∀ a x, ((![v1, v44] : Fin 2 → IVec S16 32) a x).toNat < S1x128.size a)
instance k0_chk7.dec : ∀ (v1 : IVec S16 32) (v44 : IVec S16 32), Decidable (k0_chk7 v1 v44) := fun v1 v44 => decidable_of_iff' _ (Iff.of_eq (k0_chk7.eq_1 v1 v44))
theorem k0_idx7_inb : ∀ (v1 : IVec S16 32) (v44 : IVec S16 32) (k0_hw7 : k0_chk7 v1 v44), ∀ a x, ((![v1, v44] : Fin 2 → IVec S16 32) a x).toNat < S1x128.size a := fun v1 v44 k0_hw7 => k0_hw7

def k0_chk8 (v1 : IVec S16 32) (v46 : IVec S16 32) : Prop :=
  (∀ a x, ((![v1, v46] : Fin 2 → IVec S16 32) a x).toNat < S1x128.size a)
instance k0_chk8.dec : ∀ (v1 : IVec S16 32) (v46 : IVec S16 32), Decidable (k0_chk8 v1 v46) := fun v1 v46 => decidable_of_iff' _ (Iff.of_eq (k0_chk8.eq_1 v1 v46))
theorem k0_idx8_inb : ∀ (v1 : IVec S16 32) (v46 : IVec S16 32) (k0_hw8 : k0_chk8 v1 v46), ∀ a x, ((![v1, v46] : Fin 2 → IVec S16 32) a x).toNat < S1x128.size a := fun v1 v46 k0_hw8 => k0_hw8

def k0_chk9 (v1 : IVec S16 32) (v48 : IVec S16 32) : Prop :=
  (∀ a x, ((![v1, v48] : Fin 2 → IVec S16 32) a x).toNat < S1x128.size a)
instance k0_chk9.dec : ∀ (v1 : IVec S16 32) (v48 : IVec S16 32), Decidable (k0_chk9 v1 v48) := fun v1 v48 => decidable_of_iff' _ (Iff.of_eq (k0_chk9.eq_1 v1 v48))
theorem k0_idx9_inb : ∀ (v1 : IVec S16 32) (v48 : IVec S16 32) (k0_hw9 : k0_chk9 v1 v48), ∀ a x, ((![v1, v48] : Fin 2 → IVec S16 32) a x).toNat < S1x128.size a := fun v1 v48 k0_hw9 => k0_hw9

def k0_chk10 (v1 : IVec S16 32) (v50 : IVec S16 32) : Prop :=
  (∀ a x, ((![v1, v50] : Fin 2 → IVec S16 32) a x).toNat < S1x128.size a)
instance k0_chk10.dec : ∀ (v1 : IVec S16 32) (v50 : IVec S16 32), Decidable (k0_chk10 v1 v50) := fun v1 v50 => decidable_of_iff' _ (Iff.of_eq (k0_chk10.eq_1 v1 v50))
theorem k0_idx10_inb : ∀ (v1 : IVec S16 32) (v50 : IVec S16 32) (k0_hw10 : k0_chk10 v1 v50), ∀ a x, ((![v1, v50] : Fin 2 → IVec S16 32) a x).toNat < S1x128.size a := fun v1 v50 k0_hw10 => k0_hw10

def k0_chk11 (v1 : IVec S16 32) (v52 : IVec S16 32) : Prop :=
  (∀ a x, ((![v1, v52] : Fin 2 → IVec S16 32) a x).toNat < S1x128.size a)
instance k0_chk11.dec : ∀ (v1 : IVec S16 32) (v52 : IVec S16 32), Decidable (k0_chk11 v1 v52) := fun v1 v52 => decidable_of_iff' _ (Iff.of_eq (k0_chk11.eq_1 v1 v52))
theorem k0_idx11_inb : ∀ (v1 : IVec S16 32) (v52 : IVec S16 32) (k0_hw11 : k0_chk11 v1 v52), ∀ a x, ((![v1, v52] : Fin 2 → IVec S16 32) a x).toNat < S1x128.size a := fun v1 v52 k0_hw11 => k0_hw11

def k0_chk12 (v1 : IVec S16 32) (v54 : IVec S16 32) : Prop :=
  (∀ a x, ((![v1, v54] : Fin 2 → IVec S16 32) a x).toNat < S1x128.size a)
instance k0_chk12.dec : ∀ (v1 : IVec S16 32) (v54 : IVec S16 32), Decidable (k0_chk12 v1 v54) := fun v1 v54 => decidable_of_iff' _ (Iff.of_eq (k0_chk12.eq_1 v1 v54))
theorem k0_idx12_inb : ∀ (v1 : IVec S16 32) (v54 : IVec S16 32) (k0_hw12 : k0_chk12 v1 v54), ∀ a x, ((![v1, v54] : Fin 2 → IVec S16 32) a x).toNat < S1x128.size a := fun v1 v54 k0_hw12 => k0_hw12

def k0_chk13 (v1 : IVec S16 32) (v56 : IVec S16 32) : Prop :=
  (∀ a x, ((![v1, v56] : Fin 2 → IVec S16 32) a x).toNat < S1x128.size a)
instance k0_chk13.dec : ∀ (v1 : IVec S16 32) (v56 : IVec S16 32), Decidable (k0_chk13 v1 v56) := fun v1 v56 => decidable_of_iff' _ (Iff.of_eq (k0_chk13.eq_1 v1 v56))
theorem k0_idx13_inb : ∀ (v1 : IVec S16 32) (v56 : IVec S16 32) (k0_hw13 : k0_chk13 v1 v56), ∀ a x, ((![v1, v56] : Fin 2 → IVec S16 32) a x).toNat < S1x128.size a := fun v1 v56 k0_hw13 => k0_hw13

def k0_chk14 (v1 : IVec S16 32) (v58 : IVec S16 32) : Prop :=
  (∀ a x, ((![v1, v58] : Fin 2 → IVec S16 32) a x).toNat < S1x128.size a)
instance k0_chk14.dec : ∀ (v1 : IVec S16 32) (v58 : IVec S16 32), Decidable (k0_chk14 v1 v58) := fun v1 v58 => decidable_of_iff' _ (Iff.of_eq (k0_chk14.eq_1 v1 v58))
theorem k0_idx14_inb : ∀ (v1 : IVec S16 32) (v58 : IVec S16 32) (k0_hw14 : k0_chk14 v1 v58), ∀ a x, ((![v1, v58] : Fin 2 → IVec S16 32) a x).toNat < S1x128.size a := fun v1 v58 k0_hw14 => k0_hw14

def k0_chk15 (v1 : IVec S16 32) (v60 : IVec S16 32) : Prop :=
  (∀ a x, ((![v1, v60] : Fin 2 → IVec S16 32) a x).toNat < S1x128.size a)
instance k0_chk15.dec : ∀ (v1 : IVec S16 32) (v60 : IVec S16 32), Decidable (k0_chk15 v1 v60) := fun v1 v60 => decidable_of_iff' _ (Iff.of_eq (k0_chk15.eq_1 v1 v60))
theorem k0_idx15_inb : ∀ (v1 : IVec S16 32) (v60 : IVec S16 32) (k0_hw15 : k0_chk15 v1 v60), ∀ a x, ((![v1, v60] : Fin 2 → IVec S16 32) a x).toNat < S1x128.size a := fun v1 v60 k0_hw15 => k0_hw15

def k0_chk16 (v1 : IVec S16 32) (v62 : IVec S16 32) : Prop :=
  (∀ a x, ((![v1, v62] : Fin 2 → IVec S16 32) a x).toNat < S1x128.size a)
instance k0_chk16.dec : ∀ (v1 : IVec S16 32) (v62 : IVec S16 32), Decidable (k0_chk16 v1 v62) := fun v1 v62 => decidable_of_iff' _ (Iff.of_eq (k0_chk16.eq_1 v1 v62))
theorem k0_idx16_inb : ∀ (v1 : IVec S16 32) (v62 : IVec S16 32) (k0_hw16 : k0_chk16 v1 v62), ∀ a x, ((![v1, v62] : Fin 2 → IVec S16 32) a x).toNat < S1x128.size a := fun v1 v62 k0_hw16 => k0_hw16

def k0_chk17 (v1 : IVec S16 32) (v382 : IVec S16 32) : Prop :=
  (∀ a x, ((![v1, v382] : Fin 2 → IVec S16 32) a x).toNat < S1x128.size a)
instance k0_chk17.dec : ∀ (v1 : IVec S16 32) (v382 : IVec S16 32), Decidable (k0_chk17 v1 v382) := fun v1 v382 => decidable_of_iff' _ (Iff.of_eq (k0_chk17.eq_1 v1 v382))
theorem k0_idx17_inb : ∀ (v1 : IVec S16 32) (v382 : IVec S16 32) (k0_hw17 : k0_chk17 v1 v382), ∀ a x, ((![v1, v382] : Fin 2 → IVec S16 32) a x).toNat < S1x128.size a := fun v1 v382 k0_hw17 => k0_hw17

def k0_chk18 (v1 : IVec S16 32) (v393 : IVec S16 32) : Prop :=
  (∀ a x, ((![v1, v393] : Fin 2 → IVec S16 32) a x).toNat < S1x128.size a)
instance k0_chk18.dec : ∀ (v1 : IVec S16 32) (v393 : IVec S16 32), Decidable (k0_chk18 v1 v393) := fun v1 v393 => decidable_of_iff' _ (Iff.of_eq (k0_chk18.eq_1 v1 v393))
theorem k0_idx18_inb : ∀ (v1 : IVec S16 32) (v393 : IVec S16 32) (k0_hw18 : k0_chk18 v1 v393), ∀ a x, ((![v1, v393] : Fin 2 → IVec S16 32) a x).toNat < S1x128.size a := fun v1 v393 k0_hw18 => k0_hw18

def k0_chk19 (v1 : IVec S16 32) (v404 : IVec S16 32) : Prop :=
  (∀ a x, ((![v1, v404] : Fin 2 → IVec S16 32) a x).toNat < S1x128.size a)
instance k0_chk19.dec : ∀ (v1 : IVec S16 32) (v404 : IVec S16 32), Decidable (k0_chk19 v1 v404) := fun v1 v404 => decidable_of_iff' _ (Iff.of_eq (k0_chk19.eq_1 v1 v404))
theorem k0_idx19_inb : ∀ (v1 : IVec S16 32) (v404 : IVec S16 32) (k0_hw19 : k0_chk19 v1 v404), ∀ a x, ((![v1, v404] : Fin 2 → IVec S16 32) a x).toNat < S1x128.size a := fun v1 v404 k0_hw19 => k0_hw19

def k0_chk20 (v1 : IVec S16 32) (v415 : IVec S16 32) : Prop :=
  (∀ a x, ((![v1, v415] : Fin 2 → IVec S16 32) a x).toNat < S1x128.size a)
instance k0_chk20.dec : ∀ (v1 : IVec S16 32) (v415 : IVec S16 32), Decidable (k0_chk20 v1 v415) := fun v1 v415 => decidable_of_iff' _ (Iff.of_eq (k0_chk20.eq_1 v1 v415))
theorem k0_idx20_inb : ∀ (v1 : IVec S16 32) (v415 : IVec S16 32) (k0_hw20 : k0_chk20 v1 v415), ∀ a x, ((![v1, v415] : Fin 2 → IVec S16 32) a x).toNat < S1x128.size a := fun v1 v415 k0_hw20 => k0_hw20

def k0_chk21 (v1 : IVec S16 32) (v426 : IVec S16 32) : Prop :=
  (∀ a x, ((![v1, v426] : Fin 2 → IVec S16 32) a x).toNat < S1x128.size a)
instance k0_chk21.dec : ∀ (v1 : IVec S16 32) (v426 : IVec S16 32), Decidable (k0_chk21 v1 v426) := fun v1 v426 => decidable_of_iff' _ (Iff.of_eq (k0_chk21.eq_1 v1 v426))
theorem k0_idx21_inb : ∀ (v1 : IVec S16 32) (v426 : IVec S16 32) (k0_hw21 : k0_chk21 v1 v426), ∀ a x, ((![v1, v426] : Fin 2 → IVec S16 32) a x).toNat < S1x128.size a := fun v1 v426 k0_hw21 => k0_hw21

def k0_chk22 (v1 : IVec S16 32) (v437 : IVec S16 32) : Prop :=
  (∀ a x, ((![v1, v437] : Fin 2 → IVec S16 32) a x).toNat < S1x128.size a)
instance k0_chk22.dec : ∀ (v1 : IVec S16 32) (v437 : IVec S16 32), Decidable (k0_chk22 v1 v437) := fun v1 v437 => decidable_of_iff' _ (Iff.of_eq (k0_chk22.eq_1 v1 v437))
theorem k0_idx22_inb : ∀ (v1 : IVec S16 32) (v437 : IVec S16 32) (k0_hw22 : k0_chk22 v1 v437), ∀ a x, ((![v1, v437] : Fin 2 → IVec S16 32) a x).toNat < S1x128.size a := fun v1 v437 k0_hw22 => k0_hw22

def k0_chk23 (v1 : IVec S16 32) (v448 : IVec S16 32) : Prop :=
  (∀ a x, ((![v1, v448] : Fin 2 → IVec S16 32) a x).toNat < S1x128.size a)
instance k0_chk23.dec : ∀ (v1 : IVec S16 32) (v448 : IVec S16 32), Decidable (k0_chk23 v1 v448) := fun v1 v448 => decidable_of_iff' _ (Iff.of_eq (k0_chk23.eq_1 v1 v448))
theorem k0_idx23_inb : ∀ (v1 : IVec S16 32) (v448 : IVec S16 32) (k0_hw23 : k0_chk23 v1 v448), ∀ a x, ((![v1, v448] : Fin 2 → IVec S16 32) a x).toNat < S1x128.size a := fun v1 v448 k0_hw23 => k0_hw23

def k0_chk24 (v1 : IVec S16 32) (v459 : IVec S16 32) : Prop :=
  (∀ a x, ((![v1, v459] : Fin 2 → IVec S16 32) a x).toNat < S1x128.size a)
instance k0_chk24.dec : ∀ (v1 : IVec S16 32) (v459 : IVec S16 32), Decidable (k0_chk24 v1 v459) := fun v1 v459 => decidable_of_iff' _ (Iff.of_eq (k0_chk24.eq_1 v1 v459))
theorem k0_idx24_inb : ∀ (v1 : IVec S16 32) (v459 : IVec S16 32) (k0_hw24 : k0_chk24 v1 v459), ∀ a x, ((![v1, v459] : Fin 2 → IVec S16 32) a x).toNat < S1x128.size a := fun v1 v459 k0_hw24 => k0_hw24

def k0_chk25 (v1 : IVec S16 32) (v470 : IVec S16 32) : Prop :=
  (∀ a x, ((![v1, v470] : Fin 2 → IVec S16 32) a x).toNat < S1x128.size a)
instance k0_chk25.dec : ∀ (v1 : IVec S16 32) (v470 : IVec S16 32), Decidable (k0_chk25 v1 v470) := fun v1 v470 => decidable_of_iff' _ (Iff.of_eq (k0_chk25.eq_1 v1 v470))
theorem k0_idx25_inb : ∀ (v1 : IVec S16 32) (v470 : IVec S16 32) (k0_hw25 : k0_chk25 v1 v470), ∀ a x, ((![v1, v470] : Fin 2 → IVec S16 32) a x).toNat < S1x128.size a := fun v1 v470 k0_hw25 => k0_hw25

def k0_chk26 (v1 : IVec S16 32) (v481 : IVec S16 32) : Prop :=
  (∀ a x, ((![v1, v481] : Fin 2 → IVec S16 32) a x).toNat < S1x128.size a)
instance k0_chk26.dec : ∀ (v1 : IVec S16 32) (v481 : IVec S16 32), Decidable (k0_chk26 v1 v481) := fun v1 v481 => decidable_of_iff' _ (Iff.of_eq (k0_chk26.eq_1 v1 v481))
theorem k0_idx26_inb : ∀ (v1 : IVec S16 32) (v481 : IVec S16 32) (k0_hw26 : k0_chk26 v1 v481), ∀ a x, ((![v1, v481] : Fin 2 → IVec S16 32) a x).toNat < S1x128.size a := fun v1 v481 k0_hw26 => k0_hw26

def k0_chk27 (v1 : IVec S16 32) (v492 : IVec S16 32) : Prop :=
  (∀ a x, ((![v1, v492] : Fin 2 → IVec S16 32) a x).toNat < S1x128.size a)
instance k0_chk27.dec : ∀ (v1 : IVec S16 32) (v492 : IVec S16 32), Decidable (k0_chk27 v1 v492) := fun v1 v492 => decidable_of_iff' _ (Iff.of_eq (k0_chk27.eq_1 v1 v492))
theorem k0_idx27_inb : ∀ (v1 : IVec S16 32) (v492 : IVec S16 32) (k0_hw27 : k0_chk27 v1 v492), ∀ a x, ((![v1, v492] : Fin 2 → IVec S16 32) a x).toNat < S1x128.size a := fun v1 v492 k0_hw27 => k0_hw27

def k0_chk28 (v1 : IVec S16 32) (v503 : IVec S16 32) : Prop :=
  (∀ a x, ((![v1, v503] : Fin 2 → IVec S16 32) a x).toNat < S1x128.size a)
instance k0_chk28.dec : ∀ (v1 : IVec S16 32) (v503 : IVec S16 32), Decidable (k0_chk28 v1 v503) := fun v1 v503 => decidable_of_iff' _ (Iff.of_eq (k0_chk28.eq_1 v1 v503))
theorem k0_idx28_inb : ∀ (v1 : IVec S16 32) (v503 : IVec S16 32) (k0_hw28 : k0_chk28 v1 v503), ∀ a x, ((![v1, v503] : Fin 2 → IVec S16 32) a x).toNat < S1x128.size a := fun v1 v503 k0_hw28 => k0_hw28

def k0_chk29 (v1 : IVec S16 32) (v514 : IVec S16 32) : Prop :=
  (∀ a x, ((![v1, v514] : Fin 2 → IVec S16 32) a x).toNat < S1x128.size a)
instance k0_chk29.dec : ∀ (v1 : IVec S16 32) (v514 : IVec S16 32), Decidable (k0_chk29 v1 v514) := fun v1 v514 => decidable_of_iff' _ (Iff.of_eq (k0_chk29.eq_1 v1 v514))
theorem k0_idx29_inb : ∀ (v1 : IVec S16 32) (v514 : IVec S16 32) (k0_hw29 : k0_chk29 v1 v514), ∀ a x, ((![v1, v514] : Fin 2 → IVec S16 32) a x).toNat < S1x128.size a := fun v1 v514 k0_hw29 => k0_hw29

def k0_chk30 (v1 : IVec S16 32) (v525 : IVec S16 32) : Prop :=
  (∀ a x, ((![v1, v525] : Fin 2 → IVec S16 32) a x).toNat < S1x128.size a)
instance k0_chk30.dec : ∀ (v1 : IVec S16 32) (v525 : IVec S16 32), Decidable (k0_chk30 v1 v525) := fun v1 v525 => decidable_of_iff' _ (Iff.of_eq (k0_chk30.eq_1 v1 v525))
theorem k0_idx30_inb : ∀ (v1 : IVec S16 32) (v525 : IVec S16 32) (k0_hw30 : k0_chk30 v1 v525), ∀ a x, ((![v1, v525] : Fin 2 → IVec S16 32) a x).toNat < S1x128.size a := fun v1 v525 k0_hw30 => k0_hw30

def k0_chk31 (v1 : IVec S16 32) (v536 : IVec S16 32) : Prop :=
  (∀ a x, ((![v1, v536] : Fin 2 → IVec S16 32) a x).toNat < S1x128.size a)
instance k0_chk31.dec : ∀ (v1 : IVec S16 32) (v536 : IVec S16 32), Decidable (k0_chk31 v1 v536) := fun v1 v536 => decidable_of_iff' _ (Iff.of_eq (k0_chk31.eq_1 v1 v536))
theorem k0_idx31_inb : ∀ (v1 : IVec S16 32) (v536 : IVec S16 32) (k0_hw31 : k0_chk31 v1 v536), ∀ a x, ((![v1, v536] : Fin 2 → IVec S16 32) a x).toNat < S1x128.size a := fun v1 v536 k0_hw31 => k0_hw31

def k0_chk32 (v1 : IVec S16 32) (v547 : IVec S16 32) : Prop :=
  (∀ a x, ((![v1, v547] : Fin 2 → IVec S16 32) a x).toNat < S1x128.size a)
instance k0_chk32.dec : ∀ (v1 : IVec S16 32) (v547 : IVec S16 32), Decidable (k0_chk32 v1 v547) := fun v1 v547 => decidable_of_iff' _ (Iff.of_eq (k0_chk32.eq_1 v1 v547))
theorem k0_idx32_inb : ∀ (v1 : IVec S16 32) (v547 : IVec S16 32) (k0_hw32 : k0_chk32 v1 v547), ∀ a x, ((![v1, v547] : Fin 2 → IVec S16 32) a x).toNat < S1x128.size a := fun v1 v547 k0_hw32 => k0_hw32

def k0_chk33 (v1 : IVec S16 32) (v558 : IVec S16 32) : Prop :=
  (∀ a x, ((![v1, v558] : Fin 2 → IVec S16 32) a x).toNat < S1x128.size a)
instance k0_chk33.dec : ∀ (v1 : IVec S16 32) (v558 : IVec S16 32), Decidable (k0_chk33 v1 v558) := fun v1 v558 => decidable_of_iff' _ (Iff.of_eq (k0_chk33.eq_1 v1 v558))
theorem k0_idx33_inb : ∀ (v1 : IVec S16 32) (v558 : IVec S16 32) (k0_hw33 : k0_chk33 v1 v558), ∀ a x, ((![v1, v558] : Fin 2 → IVec S16 32) a x).toNat < S1x128.size a := fun v1 v558 k0_hw33 => k0_hw33

def k0_chk34 (v1 : IVec S16 32) (v569 : IVec S16 32) : Prop :=
  (∀ a x, ((![v1, v569] : Fin 2 → IVec S16 32) a x).toNat < S1x128.size a)
instance k0_chk34.dec : ∀ (v1 : IVec S16 32) (v569 : IVec S16 32), Decidable (k0_chk34 v1 v569) := fun v1 v569 => decidable_of_iff' _ (Iff.of_eq (k0_chk34.eq_1 v1 v569))
theorem k0_idx34_inb : ∀ (v1 : IVec S16 32) (v569 : IVec S16 32) (k0_hw34 : k0_chk34 v1 v569), ∀ a x, ((![v1, v569] : Fin 2 → IVec S16 32) a x).toNat < S1x128.size a := fun v1 v569 k0_hw34 => k0_hw34

def k0_chk35 (v1 : IVec S16 32) (v580 : IVec S16 32) : Prop :=
  (∀ a x, ((![v1, v580] : Fin 2 → IVec S16 32) a x).toNat < S1x128.size a)
instance k0_chk35.dec : ∀ (v1 : IVec S16 32) (v580 : IVec S16 32), Decidable (k0_chk35 v1 v580) := fun v1 v580 => decidable_of_iff' _ (Iff.of_eq (k0_chk35.eq_1 v1 v580))
theorem k0_idx35_inb : ∀ (v1 : IVec S16 32) (v580 : IVec S16 32) (k0_hw35 : k0_chk35 v1 v580), ∀ a x, ((![v1, v580] : Fin 2 → IVec S16 32) a x).toNat < S1x128.size a := fun v1 v580 k0_hw35 => k0_hw35

def k0_chk36 (v1 : IVec S16 32) (v591 : IVec S16 32) : Prop :=
  (∀ a x, ((![v1, v591] : Fin 2 → IVec S16 32) a x).toNat < S1x128.size a)
instance k0_chk36.dec : ∀ (v1 : IVec S16 32) (v591 : IVec S16 32), Decidable (k0_chk36 v1 v591) := fun v1 v591 => decidable_of_iff' _ (Iff.of_eq (k0_chk36.eq_1 v1 v591))
theorem k0_idx36_inb : ∀ (v1 : IVec S16 32) (v591 : IVec S16 32) (k0_hw36 : k0_chk36 v1 v591), ∀ a x, ((![v1, v591] : Fin 2 → IVec S16 32) a x).toNat < S1x128.size a := fun v1 v591 k0_hw36 => k0_hw36

def k0_chk37 (v1 : IVec S16 32) (v602 : IVec S16 32) : Prop :=
  (∀ a x, ((![v1, v602] : Fin 2 → IVec S16 32) a x).toNat < S1x128.size a)
instance k0_chk37.dec : ∀ (v1 : IVec S16 32) (v602 : IVec S16 32), Decidable (k0_chk37 v1 v602) := fun v1 v602 => decidable_of_iff' _ (Iff.of_eq (k0_chk37.eq_1 v1 v602))
theorem k0_idx37_inb : ∀ (v1 : IVec S16 32) (v602 : IVec S16 32) (k0_hw37 : k0_chk37 v1 v602), ∀ a x, ((![v1, v602] : Fin 2 → IVec S16 32) a x).toNat < S1x128.size a := fun v1 v602 k0_hw37 => k0_hw37

def k0_chk38 (v1 : IVec S16 32) (v613 : IVec S16 32) : Prop :=
  (∀ a x, ((![v1, v613] : Fin 2 → IVec S16 32) a x).toNat < S1x128.size a)
instance k0_chk38.dec : ∀ (v1 : IVec S16 32) (v613 : IVec S16 32), Decidable (k0_chk38 v1 v613) := fun v1 v613 => decidable_of_iff' _ (Iff.of_eq (k0_chk38.eq_1 v1 v613))
theorem k0_idx38_inb : ∀ (v1 : IVec S16 32) (v613 : IVec S16 32) (k0_hw38 : k0_chk38 v1 v613), ∀ a x, ((![v1, v613] : Fin 2 → IVec S16 32) a x).toNat < S1x128.size a := fun v1 v613 k0_hw38 => k0_hw38

def k0_chk39 (v1 : IVec S16 32) (v624 : IVec S16 32) : Prop :=
  (∀ a x, ((![v1, v624] : Fin 2 → IVec S16 32) a x).toNat < S1x128.size a)
instance k0_chk39.dec : ∀ (v1 : IVec S16 32) (v624 : IVec S16 32), Decidable (k0_chk39 v1 v624) := fun v1 v624 => decidable_of_iff' _ (Iff.of_eq (k0_chk39.eq_1 v1 v624))
theorem k0_idx39_inb : ∀ (v1 : IVec S16 32) (v624 : IVec S16 32) (k0_hw39 : k0_chk39 v1 v624), ∀ a x, ((![v1, v624] : Fin 2 → IVec S16 32) a x).toNat < S1x128.size a := fun v1 v624 k0_hw39 => k0_hw39

def k0_chk40 (v1 : IVec S16 32) (v635 : IVec S16 32) : Prop :=
  (∀ a x, ((![v1, v635] : Fin 2 → IVec S16 32) a x).toNat < S1x128.size a)
instance k0_chk40.dec : ∀ (v1 : IVec S16 32) (v635 : IVec S16 32), Decidable (k0_chk40 v1 v635) := fun v1 v635 => decidable_of_iff' _ (Iff.of_eq (k0_chk40.eq_1 v1 v635))
theorem k0_idx40_inb : ∀ (v1 : IVec S16 32) (v635 : IVec S16 32) (k0_hw40 : k0_chk40 v1 v635), ∀ a x, ((![v1, v635] : Fin 2 → IVec S16 32) a x).toNat < S1x128.size a := fun v1 v635 k0_hw40 => k0_hw40

def k0_chk41 (v1 : IVec S16 32) (v646 : IVec S16 32) : Prop :=
  (∀ a x, ((![v1, v646] : Fin 2 → IVec S16 32) a x).toNat < S1x128.size a)
instance k0_chk41.dec : ∀ (v1 : IVec S16 32) (v646 : IVec S16 32), Decidable (k0_chk41 v1 v646) := fun v1 v646 => decidable_of_iff' _ (Iff.of_eq (k0_chk41.eq_1 v1 v646))
theorem k0_idx41_inb : ∀ (v1 : IVec S16 32) (v646 : IVec S16 32) (k0_hw41 : k0_chk41 v1 v646), ∀ a x, ((![v1, v646] : Fin 2 → IVec S16 32) a x).toNat < S1x128.size a := fun v1 v646 k0_hw41 => k0_hw41

def k0_chk42 (v1 : IVec S16 32) (v657 : IVec S16 32) : Prop :=
  (∀ a x, ((![v1, v657] : Fin 2 → IVec S16 32) a x).toNat < S1x128.size a)
instance k0_chk42.dec : ∀ (v1 : IVec S16 32) (v657 : IVec S16 32), Decidable (k0_chk42 v1 v657) := fun v1 v657 => decidable_of_iff' _ (Iff.of_eq (k0_chk42.eq_1 v1 v657))
theorem k0_idx42_inb : ∀ (v1 : IVec S16 32) (v657 : IVec S16 32) (k0_hw42 : k0_chk42 v1 v657), ∀ a x, ((![v1, v657] : Fin 2 → IVec S16 32) a x).toNat < S1x128.size a := fun v1 v657 k0_hw42 => k0_hw42

def k0_chk43 (v1 : IVec S16 32) (v668 : IVec S16 32) : Prop :=
  (∀ a x, ((![v1, v668] : Fin 2 → IVec S16 32) a x).toNat < S1x128.size a)
instance k0_chk43.dec : ∀ (v1 : IVec S16 32) (v668 : IVec S16 32), Decidable (k0_chk43 v1 v668) := fun v1 v668 => decidable_of_iff' _ (Iff.of_eq (k0_chk43.eq_1 v1 v668))
theorem k0_idx43_inb : ∀ (v1 : IVec S16 32) (v668 : IVec S16 32) (k0_hw43 : k0_chk43 v1 v668), ∀ a x, ((![v1, v668] : Fin 2 → IVec S16 32) a x).toNat < S1x128.size a := fun v1 v668 k0_hw43 => k0_hw43

def k0_chk44 (v1 : IVec S16 32) (v679 : IVec S16 32) : Prop :=
  (∀ a x, ((![v1, v679] : Fin 2 → IVec S16 32) a x).toNat < S1x128.size a)
instance k0_chk44.dec : ∀ (v1 : IVec S16 32) (v679 : IVec S16 32), Decidable (k0_chk44 v1 v679) := fun v1 v679 => decidable_of_iff' _ (Iff.of_eq (k0_chk44.eq_1 v1 v679))
theorem k0_idx44_inb : ∀ (v1 : IVec S16 32) (v679 : IVec S16 32) (k0_hw44 : k0_chk44 v1 v679), ∀ a x, ((![v1, v679] : Fin 2 → IVec S16 32) a x).toNat < S1x128.size a := fun v1 v679 k0_hw44 => k0_hw44

def k0_chk45 (v1 : IVec S16 32) (v690 : IVec S16 32) : Prop :=
  (∀ a x, ((![v1, v690] : Fin 2 → IVec S16 32) a x).toNat < S1x128.size a)
instance k0_chk45.dec : ∀ (v1 : IVec S16 32) (v690 : IVec S16 32), Decidable (k0_chk45 v1 v690) := fun v1 v690 => decidable_of_iff' _ (Iff.of_eq (k0_chk45.eq_1 v1 v690))
theorem k0_idx45_inb : ∀ (v1 : IVec S16 32) (v690 : IVec S16 32) (k0_hw45 : k0_chk45 v1 v690), ∀ a x, ((![v1, v690] : Fin 2 → IVec S16 32) a x).toNat < S1x128.size a := fun v1 v690 k0_hw45 => k0_hw45

def k0_chk46 (v1 : IVec S16 32) (v701 : IVec S16 32) : Prop :=
  (∀ a x, ((![v1, v701] : Fin 2 → IVec S16 32) a x).toNat < S1x128.size a)
instance k0_chk46.dec : ∀ (v1 : IVec S16 32) (v701 : IVec S16 32), Decidable (k0_chk46 v1 v701) := fun v1 v701 => decidable_of_iff' _ (Iff.of_eq (k0_chk46.eq_1 v1 v701))
theorem k0_idx46_inb : ∀ (v1 : IVec S16 32) (v701 : IVec S16 32) (k0_hw46 : k0_chk46 v1 v701), ∀ a x, ((![v1, v701] : Fin 2 → IVec S16 32) a x).toNat < S1x128.size a := fun v1 v701 k0_hw46 => k0_hw46

def k0_chk47 (v1 : IVec S16 32) (v712 : IVec S16 32) : Prop :=
  (∀ a x, ((![v1, v712] : Fin 2 → IVec S16 32) a x).toNat < S1x128.size a)
instance k0_chk47.dec : ∀ (v1 : IVec S16 32) (v712 : IVec S16 32), Decidable (k0_chk47 v1 v712) := fun v1 v712 => decidable_of_iff' _ (Iff.of_eq (k0_chk47.eq_1 v1 v712))
theorem k0_idx47_inb : ∀ (v1 : IVec S16 32) (v712 : IVec S16 32) (k0_hw47 : k0_chk47 v1 v712), ∀ a x, ((![v1, v712] : Fin 2 → IVec S16 32) a x).toNat < S1x128.size a := fun v1 v712 k0_hw47 => k0_hw47

def k0_chk48 (v1 : IVec S16 32) (v723 : IVec S16 32) : Prop :=
  (∀ a x, ((![v1, v723] : Fin 2 → IVec S16 32) a x).toNat < S1x128.size a)
instance k0_chk48.dec : ∀ (v1 : IVec S16 32) (v723 : IVec S16 32), Decidable (k0_chk48 v1 v723) := fun v1 v723 => decidable_of_iff' _ (Iff.of_eq (k0_chk48.eq_1 v1 v723))
theorem k0_idx48_inb : ∀ (v1 : IVec S16 32) (v723 : IVec S16 32) (k0_hw48 : k0_chk48 v1 v723), ∀ a x, ((![v1, v723] : Fin 2 → IVec S16 32) a x).toNat < S1x128.size a := fun v1 v723 k0_hw48 => k0_hw48

def k0_chk49 (v1 : IVec S16 32) (v734 : IVec S16 32) : Prop :=
  (∀ a x, ((![v1, v734] : Fin 2 → IVec S16 32) a x).toNat < S1x128.size a)
instance k0_chk49.dec : ∀ (v1 : IVec S16 32) (v734 : IVec S16 32), Decidable (k0_chk49 v1 v734) := fun v1 v734 => decidable_of_iff' _ (Iff.of_eq (k0_chk49.eq_1 v1 v734))
theorem k0_idx49_inb : ∀ (v1 : IVec S16 32) (v734 : IVec S16 32) (k0_hw49 : k0_chk49 v1 v734), ∀ a x, ((![v1, v734] : Fin 2 → IVec S16 32) a x).toNat < S1x128.size a := fun v1 v734 k0_hw49 => k0_hw49

def k0_chk50 (v1 : IVec S16 32) (v745 : IVec S16 32) : Prop :=
  (∀ a x, ((![v1, v745] : Fin 2 → IVec S16 32) a x).toNat < S1x128.size a)
instance k0_chk50.dec : ∀ (v1 : IVec S16 32) (v745 : IVec S16 32), Decidable (k0_chk50 v1 v745) := fun v1 v745 => decidable_of_iff' _ (Iff.of_eq (k0_chk50.eq_1 v1 v745))
theorem k0_idx50_inb : ∀ (v1 : IVec S16 32) (v745 : IVec S16 32) (k0_hw50 : k0_chk50 v1 v745), ∀ a x, ((![v1, v745] : Fin 2 → IVec S16 32) a x).toNat < S1x128.size a := fun v1 v745 k0_hw50 => k0_hw50

def k0_chk51 (v1 : IVec S16 32) (v756 : IVec S16 32) : Prop :=
  (∀ a x, ((![v1, v756] : Fin 2 → IVec S16 32) a x).toNat < S1x128.size a)
instance k0_chk51.dec : ∀ (v1 : IVec S16 32) (v756 : IVec S16 32), Decidable (k0_chk51 v1 v756) := fun v1 v756 => decidable_of_iff' _ (Iff.of_eq (k0_chk51.eq_1 v1 v756))
theorem k0_idx51_inb : ∀ (v1 : IVec S16 32) (v756 : IVec S16 32) (k0_hw51 : k0_chk51 v1 v756), ∀ a x, ((![v1, v756] : Fin 2 → IVec S16 32) a x).toNat < S1x128.size a := fun v1 v756 k0_hw51 => k0_hw51

def k0_chk52 (v1 : IVec S16 32) (v767 : IVec S16 32) : Prop :=
  (∀ a x, ((![v1, v767] : Fin 2 → IVec S16 32) a x).toNat < S1x128.size a)
instance k0_chk52.dec : ∀ (v1 : IVec S16 32) (v767 : IVec S16 32), Decidable (k0_chk52 v1 v767) := fun v1 v767 => decidable_of_iff' _ (Iff.of_eq (k0_chk52.eq_1 v1 v767))
theorem k0_idx52_inb : ∀ (v1 : IVec S16 32) (v767 : IVec S16 32) (k0_hw52 : k0_chk52 v1 v767), ∀ a x, ((![v1, v767] : Fin 2 → IVec S16 32) a x).toNat < S1x128.size a := fun v1 v767 k0_hw52 => k0_hw52

def k0_chk53 (v1 : IVec S16 32) (v778 : IVec S16 32) : Prop :=
  (∀ a x, ((![v1, v778] : Fin 2 → IVec S16 32) a x).toNat < S1x128.size a)
instance k0_chk53.dec : ∀ (v1 : IVec S16 32) (v778 : IVec S16 32), Decidable (k0_chk53 v1 v778) := fun v1 v778 => decidable_of_iff' _ (Iff.of_eq (k0_chk53.eq_1 v1 v778))
theorem k0_idx53_inb : ∀ (v1 : IVec S16 32) (v778 : IVec S16 32) (k0_hw53 : k0_chk53 v1 v778), ∀ a x, ((![v1, v778] : Fin 2 → IVec S16 32) a x).toNat < S1x128.size a := fun v1 v778 k0_hw53 => k0_hw53

def k0_chk54 (v1 : IVec S16 32) (v789 : IVec S16 32) : Prop :=
  (∀ a x, ((![v1, v789] : Fin 2 → IVec S16 32) a x).toNat < S1x128.size a)
instance k0_chk54.dec : ∀ (v1 : IVec S16 32) (v789 : IVec S16 32), Decidable (k0_chk54 v1 v789) := fun v1 v789 => decidable_of_iff' _ (Iff.of_eq (k0_chk54.eq_1 v1 v789))
theorem k0_idx54_inb : ∀ (v1 : IVec S16 32) (v789 : IVec S16 32) (k0_hw54 : k0_chk54 v1 v789), ∀ a x, ((![v1, v789] : Fin 2 → IVec S16 32) a x).toNat < S1x128.size a := fun v1 v789 k0_hw54 => k0_hw54

def k0_chk55 (v1 : IVec S16 32) (v800 : IVec S16 32) : Prop :=
  (∀ a x, ((![v1, v800] : Fin 2 → IVec S16 32) a x).toNat < S1x128.size a)
instance k0_chk55.dec : ∀ (v1 : IVec S16 32) (v800 : IVec S16 32), Decidable (k0_chk55 v1 v800) := fun v1 v800 => decidable_of_iff' _ (Iff.of_eq (k0_chk55.eq_1 v1 v800))
theorem k0_idx55_inb : ∀ (v1 : IVec S16 32) (v800 : IVec S16 32) (k0_hw55 : k0_chk55 v1 v800), ∀ a x, ((![v1, v800] : Fin 2 → IVec S16 32) a x).toNat < S1x128.size a := fun v1 v800 k0_hw55 => k0_hw55

def k0_chk56 (v1 : IVec S16 32) (v811 : IVec S16 32) : Prop :=
  (∀ a x, ((![v1, v811] : Fin 2 → IVec S16 32) a x).toNat < S1x128.size a)
instance k0_chk56.dec : ∀ (v1 : IVec S16 32) (v811 : IVec S16 32), Decidable (k0_chk56 v1 v811) := fun v1 v811 => decidable_of_iff' _ (Iff.of_eq (k0_chk56.eq_1 v1 v811))
theorem k0_idx56_inb : ∀ (v1 : IVec S16 32) (v811 : IVec S16 32) (k0_hw56 : k0_chk56 v1 v811), ∀ a x, ((![v1, v811] : Fin 2 → IVec S16 32) a x).toNat < S1x128.size a := fun v1 v811 k0_hw56 => k0_hw56

def k0_chk57 (v1 : IVec S16 32) (v822 : IVec S16 32) : Prop :=
  (∀ a x, ((![v1, v822] : Fin 2 → IVec S16 32) a x).toNat < S1x128.size a)
instance k0_chk57.dec : ∀ (v1 : IVec S16 32) (v822 : IVec S16 32), Decidable (k0_chk57 v1 v822) := fun v1 v822 => decidable_of_iff' _ (Iff.of_eq (k0_chk57.eq_1 v1 v822))
theorem k0_idx57_inb : ∀ (v1 : IVec S16 32) (v822 : IVec S16 32) (k0_hw57 : k0_chk57 v1 v822), ∀ a x, ((![v1, v822] : Fin 2 → IVec S16 32) a x).toNat < S1x128.size a := fun v1 v822 k0_hw57 => k0_hw57

def k0_chk58 (v1 : IVec S16 32) (v833 : IVec S16 32) : Prop :=
  (∀ a x, ((![v1, v833] : Fin 2 → IVec S16 32) a x).toNat < S1x128.size a)
instance k0_chk58.dec : ∀ (v1 : IVec S16 32) (v833 : IVec S16 32), Decidable (k0_chk58 v1 v833) := fun v1 v833 => decidable_of_iff' _ (Iff.of_eq (k0_chk58.eq_1 v1 v833))
theorem k0_idx58_inb : ∀ (v1 : IVec S16 32) (v833 : IVec S16 32) (k0_hw58 : k0_chk58 v1 v833), ∀ a x, ((![v1, v833] : Fin 2 → IVec S16 32) a x).toNat < S1x128.size a := fun v1 v833 k0_hw58 => k0_hw58

def k0_chk59 (v1 : IVec S16 32) (v844 : IVec S16 32) : Prop :=
  (∀ a x, ((![v1, v844] : Fin 2 → IVec S16 32) a x).toNat < S1x128.size a)
instance k0_chk59.dec : ∀ (v1 : IVec S16 32) (v844 : IVec S16 32), Decidable (k0_chk59 v1 v844) := fun v1 v844 => decidable_of_iff' _ (Iff.of_eq (k0_chk59.eq_1 v1 v844))
theorem k0_idx59_inb : ∀ (v1 : IVec S16 32) (v844 : IVec S16 32) (k0_hw59 : k0_chk59 v1 v844), ∀ a x, ((![v1, v844] : Fin 2 → IVec S16 32) a x).toNat < S1x128.size a := fun v1 v844 k0_hw59 => k0_hw59

def k0_chk60 (v1 : IVec S16 32) (v855 : IVec S16 32) : Prop :=
  (∀ a x, ((![v1, v855] : Fin 2 → IVec S16 32) a x).toNat < S1x128.size a)
instance k0_chk60.dec : ∀ (v1 : IVec S16 32) (v855 : IVec S16 32), Decidable (k0_chk60 v1 v855) := fun v1 v855 => decidable_of_iff' _ (Iff.of_eq (k0_chk60.eq_1 v1 v855))
theorem k0_idx60_inb : ∀ (v1 : IVec S16 32) (v855 : IVec S16 32) (k0_hw60 : k0_chk60 v1 v855), ∀ a x, ((![v1, v855] : Fin 2 → IVec S16 32) a x).toNat < S1x128.size a := fun v1 v855 k0_hw60 => k0_hw60

def k0_chk61 (v1 : IVec S16 32) (v866 : IVec S16 32) : Prop :=
  (∀ a x, ((![v1, v866] : Fin 2 → IVec S16 32) a x).toNat < S1x128.size a)
instance k0_chk61.dec : ∀ (v1 : IVec S16 32) (v866 : IVec S16 32), Decidable (k0_chk61 v1 v866) := fun v1 v866 => decidable_of_iff' _ (Iff.of_eq (k0_chk61.eq_1 v1 v866))
theorem k0_idx61_inb : ∀ (v1 : IVec S16 32) (v866 : IVec S16 32) (k0_hw61 : k0_chk61 v1 v866), ∀ a x, ((![v1, v866] : Fin 2 → IVec S16 32) a x).toNat < S1x128.size a := fun v1 v866 k0_hw61 => k0_hw61

def k0_chk62 (v1 : IVec S16 32) (v877 : IVec S16 32) : Prop :=
  (∀ a x, ((![v1, v877] : Fin 2 → IVec S16 32) a x).toNat < S1x128.size a)
instance k0_chk62.dec : ∀ (v1 : IVec S16 32) (v877 : IVec S16 32), Decidable (k0_chk62 v1 v877) := fun v1 v877 => decidable_of_iff' _ (Iff.of_eq (k0_chk62.eq_1 v1 v877))
theorem k0_idx62_inb : ∀ (v1 : IVec S16 32) (v877 : IVec S16 32) (k0_hw62 : k0_chk62 v1 v877), ∀ a x, ((![v1, v877] : Fin 2 → IVec S16 32) a x).toNat < S1x128.size a := fun v1 v877 k0_hw62 => k0_hw62

def k0_chk63 (v1 : IVec S16 32) (v888 : IVec S16 32) : Prop :=
  (∀ a x, ((![v1, v888] : Fin 2 → IVec S16 32) a x).toNat < S1x128.size a)
instance k0_chk63.dec : ∀ (v1 : IVec S16 32) (v888 : IVec S16 32), Decidable (k0_chk63 v1 v888) := fun v1 v888 => decidable_of_iff' _ (Iff.of_eq (k0_chk63.eq_1 v1 v888))
theorem k0_idx63_inb : ∀ (v1 : IVec S16 32) (v888 : IVec S16 32) (k0_hw63 : k0_chk63 v1 v888), ∀ a x, ((![v1, v888] : Fin 2 → IVec S16 32) a x).toNat < S1x128.size a := fun v1 v888 k0_hw63 => k0_hw63

def k0_chk64 (v1 : IVec S16 32) (v899 : IVec S16 32) : Prop :=
  (∀ a x, ((![v1, v899] : Fin 2 → IVec S16 32) a x).toNat < S1x128.size a)
instance k0_chk64.dec : ∀ (v1 : IVec S16 32) (v899 : IVec S16 32), Decidable (k0_chk64 v1 v899) := fun v1 v899 => decidable_of_iff' _ (Iff.of_eq (k0_chk64.eq_1 v1 v899))
theorem k0_idx64_inb : ∀ (v1 : IVec S16 32) (v899 : IVec S16 32) (k0_hw64 : k0_chk64 v1 v899), ∀ a x, ((![v1, v899] : Fin 2 → IVec S16 32) a x).toNat < S1x128.size a := fun v1 v899 k0_hw64 => k0_hw64

def k0_chk65 (v1 : IVec S16 32) (v910 : IVec S16 32) : Prop :=
  (∀ a x, ((![v1, v910] : Fin 2 → IVec S16 32) a x).toNat < S1x128.size a)
instance k0_chk65.dec : ∀ (v1 : IVec S16 32) (v910 : IVec S16 32), Decidable (k0_chk65 v1 v910) := fun v1 v910 => decidable_of_iff' _ (Iff.of_eq (k0_chk65.eq_1 v1 v910))
theorem k0_idx65_inb : ∀ (v1 : IVec S16 32) (v910 : IVec S16 32) (k0_hw65 : k0_chk65 v1 v910), ∀ a x, ((![v1, v910] : Fin 2 → IVec S16 32) a x).toNat < S1x128.size a := fun v1 v910 k0_hw65 => k0_hw65

def k0_chk66 (v1 : IVec S16 32) (v921 : IVec S16 32) : Prop :=
  (∀ a x, ((![v1, v921] : Fin 2 → IVec S16 32) a x).toNat < S1x128.size a)
instance k0_chk66.dec : ∀ (v1 : IVec S16 32) (v921 : IVec S16 32), Decidable (k0_chk66 v1 v921) := fun v1 v921 => decidable_of_iff' _ (Iff.of_eq (k0_chk66.eq_1 v1 v921))
theorem k0_idx66_inb : ∀ (v1 : IVec S16 32) (v921 : IVec S16 32) (k0_hw66 : k0_chk66 v1 v921), ∀ a x, ((![v1, v921] : Fin 2 → IVec S16 32) a x).toNat < S1x128.size a := fun v1 v921 k0_hw66 => k0_hw66

def k0_chk67 (v1 : IVec S16 32) (v932 : IVec S16 32) : Prop :=
  (∀ a x, ((![v1, v932] : Fin 2 → IVec S16 32) a x).toNat < S1x128.size a)
instance k0_chk67.dec : ∀ (v1 : IVec S16 32) (v932 : IVec S16 32), Decidable (k0_chk67 v1 v932) := fun v1 v932 => decidable_of_iff' _ (Iff.of_eq (k0_chk67.eq_1 v1 v932))
theorem k0_idx67_inb : ∀ (v1 : IVec S16 32) (v932 : IVec S16 32) (k0_hw67 : k0_chk67 v1 v932), ∀ a x, ((![v1, v932] : Fin 2 → IVec S16 32) a x).toNat < S1x128.size a := fun v1 v932 k0_hw67 => k0_hw67

def k0_chk68 (v1 : IVec S16 32) (v943 : IVec S16 32) : Prop :=
  (∀ a x, ((![v1, v943] : Fin 2 → IVec S16 32) a x).toNat < S1x128.size a)
instance k0_chk68.dec : ∀ (v1 : IVec S16 32) (v943 : IVec S16 32), Decidable (k0_chk68 v1 v943) := fun v1 v943 => decidable_of_iff' _ (Iff.of_eq (k0_chk68.eq_1 v1 v943))
theorem k0_idx68_inb : ∀ (v1 : IVec S16 32) (v943 : IVec S16 32) (k0_hw68 : k0_chk68 v1 v943), ∀ a x, ((![v1, v943] : Fin 2 → IVec S16 32) a x).toNat < S1x128.size a := fun v1 v943 k0_hw68 => k0_hw68

def k0_chk69 (v1 : IVec S16 32) (v954 : IVec S16 32) : Prop :=
  (∀ a x, ((![v1, v954] : Fin 2 → IVec S16 32) a x).toNat < S1x128.size a)
instance k0_chk69.dec : ∀ (v1 : IVec S16 32) (v954 : IVec S16 32), Decidable (k0_chk69 v1 v954) := fun v1 v954 => decidable_of_iff' _ (Iff.of_eq (k0_chk69.eq_1 v1 v954))
theorem k0_idx69_inb : ∀ (v1 : IVec S16 32) (v954 : IVec S16 32) (k0_hw69 : k0_chk69 v1 v954), ∀ a x, ((![v1, v954] : Fin 2 → IVec S16 32) a x).toNat < S1x128.size a := fun v1 v954 k0_hw69 => k0_hw69

def k0_chk70 (v1 : IVec S16 32) (v965 : IVec S16 32) : Prop :=
  (∀ a x, ((![v1, v965] : Fin 2 → IVec S16 32) a x).toNat < S1x128.size a)
instance k0_chk70.dec : ∀ (v1 : IVec S16 32) (v965 : IVec S16 32), Decidable (k0_chk70 v1 v965) := fun v1 v965 => decidable_of_iff' _ (Iff.of_eq (k0_chk70.eq_1 v1 v965))
theorem k0_idx70_inb : ∀ (v1 : IVec S16 32) (v965 : IVec S16 32) (k0_hw70 : k0_chk70 v1 v965), ∀ a x, ((![v1, v965] : Fin 2 → IVec S16 32) a x).toNat < S1x128.size a := fun v1 v965 k0_hw70 => k0_hw70

def k0_chk71 (v1 : IVec S16 32) (v976 : IVec S16 32) : Prop :=
  (∀ a x, ((![v1, v976] : Fin 2 → IVec S16 32) a x).toNat < S1x128.size a)
instance k0_chk71.dec : ∀ (v1 : IVec S16 32) (v976 : IVec S16 32), Decidable (k0_chk71 v1 v976) := fun v1 v976 => decidable_of_iff' _ (Iff.of_eq (k0_chk71.eq_1 v1 v976))
theorem k0_idx71_inb : ∀ (v1 : IVec S16 32) (v976 : IVec S16 32) (k0_hw71 : k0_chk71 v1 v976), ∀ a x, ((![v1, v976] : Fin 2 → IVec S16 32) a x).toNat < S1x128.size a := fun v1 v976 k0_hw71 => k0_hw71

def k0_chk72 (v1 : IVec S16 32) (v987 : IVec S16 32) : Prop :=
  (∀ a x, ((![v1, v987] : Fin 2 → IVec S16 32) a x).toNat < S1x128.size a)
instance k0_chk72.dec : ∀ (v1 : IVec S16 32) (v987 : IVec S16 32), Decidable (k0_chk72 v1 v987) := fun v1 v987 => decidable_of_iff' _ (Iff.of_eq (k0_chk72.eq_1 v1 v987))
theorem k0_idx72_inb : ∀ (v1 : IVec S16 32) (v987 : IVec S16 32) (k0_hw72 : k0_chk72 v1 v987), ∀ a x, ((![v1, v987] : Fin 2 → IVec S16 32) a x).toNat < S1x128.size a := fun v1 v987 k0_hw72 => k0_hw72

def k0_chk73 (v1 : IVec S16 32) (v998 : IVec S16 32) : Prop :=
  (∀ a x, ((![v1, v998] : Fin 2 → IVec S16 32) a x).toNat < S1x128.size a)
instance k0_chk73.dec : ∀ (v1 : IVec S16 32) (v998 : IVec S16 32), Decidable (k0_chk73 v1 v998) := fun v1 v998 => decidable_of_iff' _ (Iff.of_eq (k0_chk73.eq_1 v1 v998))
theorem k0_idx73_inb : ∀ (v1 : IVec S16 32) (v998 : IVec S16 32) (k0_hw73 : k0_chk73 v1 v998), ∀ a x, ((![v1, v998] : Fin 2 → IVec S16 32) a x).toNat < S1x128.size a := fun v1 v998 k0_hw73 => k0_hw73

def k0_chk74 (v1 : IVec S16 32) (v1009 : IVec S16 32) : Prop :=
  (∀ a x, ((![v1, v1009] : Fin 2 → IVec S16 32) a x).toNat < S1x128.size a)
instance k0_chk74.dec : ∀ (v1 : IVec S16 32) (v1009 : IVec S16 32), Decidable (k0_chk74 v1 v1009) := fun v1 v1009 => decidable_of_iff' _ (Iff.of_eq (k0_chk74.eq_1 v1 v1009))
theorem k0_idx74_inb : ∀ (v1 : IVec S16 32) (v1009 : IVec S16 32) (k0_hw74 : k0_chk74 v1 v1009), ∀ a x, ((![v1, v1009] : Fin 2 → IVec S16 32) a x).toNat < S1x128.size a := fun v1 v1009 k0_hw74 => k0_hw74

def k0_chk75 (v1 : IVec S16 32) (v1020 : IVec S16 32) : Prop :=
  (∀ a x, ((![v1, v1020] : Fin 2 → IVec S16 32) a x).toNat < S1x128.size a)
instance k0_chk75.dec : ∀ (v1 : IVec S16 32) (v1020 : IVec S16 32), Decidable (k0_chk75 v1 v1020) := fun v1 v1020 => decidable_of_iff' _ (Iff.of_eq (k0_chk75.eq_1 v1 v1020))
theorem k0_idx75_inb : ∀ (v1 : IVec S16 32) (v1020 : IVec S16 32) (k0_hw75 : k0_chk75 v1 v1020), ∀ a x, ((![v1, v1020] : Fin 2 → IVec S16 32) a x).toNat < S1x128.size a := fun v1 v1020 k0_hw75 => k0_hw75

def k0_chk76 (v1 : IVec S16 32) (v1031 : IVec S16 32) : Prop :=
  (∀ a x, ((![v1, v1031] : Fin 2 → IVec S16 32) a x).toNat < S1x128.size a)
instance k0_chk76.dec : ∀ (v1 : IVec S16 32) (v1031 : IVec S16 32), Decidable (k0_chk76 v1 v1031) := fun v1 v1031 => decidable_of_iff' _ (Iff.of_eq (k0_chk76.eq_1 v1 v1031))
theorem k0_idx76_inb : ∀ (v1 : IVec S16 32) (v1031 : IVec S16 32) (k0_hw76 : k0_chk76 v1 v1031), ∀ a x, ((![v1, v1031] : Fin 2 → IVec S16 32) a x).toNat < S1x128.size a := fun v1 v1031 k0_hw76 => k0_hw76

def k0_chk77 (v1 : IVec S16 32) (v1042 : IVec S16 32) : Prop :=
  (∀ a x, ((![v1, v1042] : Fin 2 → IVec S16 32) a x).toNat < S1x128.size a)
instance k0_chk77.dec : ∀ (v1 : IVec S16 32) (v1042 : IVec S16 32), Decidable (k0_chk77 v1 v1042) := fun v1 v1042 => decidable_of_iff' _ (Iff.of_eq (k0_chk77.eq_1 v1 v1042))
theorem k0_idx77_inb : ∀ (v1 : IVec S16 32) (v1042 : IVec S16 32) (k0_hw77 : k0_chk77 v1 v1042), ∀ a x, ((![v1, v1042] : Fin 2 → IVec S16 32) a x).toNat < S1x128.size a := fun v1 v1042 k0_hw77 => k0_hw77

def k0_chk78 (v1 : IVec S16 32) (v1053 : IVec S16 32) : Prop :=
  (∀ a x, ((![v1, v1053] : Fin 2 → IVec S16 32) a x).toNat < S1x128.size a)
instance k0_chk78.dec : ∀ (v1 : IVec S16 32) (v1053 : IVec S16 32), Decidable (k0_chk78 v1 v1053) := fun v1 v1053 => decidable_of_iff' _ (Iff.of_eq (k0_chk78.eq_1 v1 v1053))
theorem k0_idx78_inb : ∀ (v1 : IVec S16 32) (v1053 : IVec S16 32) (k0_hw78 : k0_chk78 v1 v1053), ∀ a x, ((![v1, v1053] : Fin 2 → IVec S16 32) a x).toNat < S1x128.size a := fun v1 v1053 k0_hw78 => k0_hw78

def k0_chk79 (v1 : IVec S16 32) (v1064 : IVec S16 32) : Prop :=
  (∀ a x, ((![v1, v1064] : Fin 2 → IVec S16 32) a x).toNat < S1x128.size a)
instance k0_chk79.dec : ∀ (v1 : IVec S16 32) (v1064 : IVec S16 32), Decidable (k0_chk79 v1 v1064) := fun v1 v1064 => decidable_of_iff' _ (Iff.of_eq (k0_chk79.eq_1 v1 v1064))
theorem k0_idx79_inb : ∀ (v1 : IVec S16 32) (v1064 : IVec S16 32) (k0_hw79 : k0_chk79 v1 v1064), ∀ a x, ((![v1, v1064] : Fin 2 → IVec S16 32) a x).toNat < S1x128.size a := fun v1 v1064 k0_hw79 => k0_hw79

def k0_chk80 (v1 : IVec S16 32) (v1075 : IVec S16 32) : Prop :=
  (∀ a x, ((![v1, v1075] : Fin 2 → IVec S16 32) a x).toNat < S1x128.size a)
instance k0_chk80.dec : ∀ (v1 : IVec S16 32) (v1075 : IVec S16 32), Decidable (k0_chk80 v1 v1075) := fun v1 v1075 => decidable_of_iff' _ (Iff.of_eq (k0_chk80.eq_1 v1 v1075))
theorem k0_idx80_inb : ∀ (v1 : IVec S16 32) (v1075 : IVec S16 32) (k0_hw80 : k0_chk80 v1 v1075), ∀ a x, ((![v1, v1075] : Fin 2 → IVec S16 32) a x).toNat < S1x128.size a := fun v1 v1075 k0_hw80 => k0_hw80

def k0_chk81 (v1 : IVec S16 32) (v1086 : IVec S16 32) : Prop :=
  (∀ a x, ((![v1, v1086] : Fin 2 → IVec S16 32) a x).toNat < S1x128.size a)
instance k0_chk81.dec : ∀ (v1 : IVec S16 32) (v1086 : IVec S16 32), Decidable (k0_chk81 v1 v1086) := fun v1 v1086 => decidable_of_iff' _ (Iff.of_eq (k0_chk81.eq_1 v1 v1086))
theorem k0_idx81_inb : ∀ (v1 : IVec S16 32) (v1086 : IVec S16 32) (k0_hw81 : k0_chk81 v1 v1086), ∀ a x, ((![v1, v1086] : Fin 2 → IVec S16 32) a x).toNat < S1x128.size a := fun v1 v1086 k0_hw81 => k0_hw81

def k0_chk82 (v1 : IVec S16 32) (v1097 : IVec S16 32) : Prop :=
  (∀ a x, ((![v1, v1097] : Fin 2 → IVec S16 32) a x).toNat < S1x128.size a)
instance k0_chk82.dec : ∀ (v1 : IVec S16 32) (v1097 : IVec S16 32), Decidable (k0_chk82 v1 v1097) := fun v1 v1097 => decidable_of_iff' _ (Iff.of_eq (k0_chk82.eq_1 v1 v1097))
theorem k0_idx82_inb : ∀ (v1 : IVec S16 32) (v1097 : IVec S16 32) (k0_hw82 : k0_chk82 v1 v1097), ∀ a x, ((![v1, v1097] : Fin 2 → IVec S16 32) a x).toNat < S1x128.size a := fun v1 v1097 k0_hw82 => k0_hw82

def k0_chk83 (v1 : IVec S16 32) (v1108 : IVec S16 32) : Prop :=
  (∀ a x, ((![v1, v1108] : Fin 2 → IVec S16 32) a x).toNat < S1x128.size a)
instance k0_chk83.dec : ∀ (v1 : IVec S16 32) (v1108 : IVec S16 32), Decidable (k0_chk83 v1 v1108) := fun v1 v1108 => decidable_of_iff' _ (Iff.of_eq (k0_chk83.eq_1 v1 v1108))
theorem k0_idx83_inb : ∀ (v1 : IVec S16 32) (v1108 : IVec S16 32) (k0_hw83 : k0_chk83 v1 v1108), ∀ a x, ((![v1, v1108] : Fin 2 → IVec S16 32) a x).toNat < S1x128.size a := fun v1 v1108 k0_hw83 => k0_hw83

def k0_chk84 (v1 : IVec S16 32) (v1119 : IVec S16 32) : Prop :=
  (∀ a x, ((![v1, v1119] : Fin 2 → IVec S16 32) a x).toNat < S1x128.size a)
instance k0_chk84.dec : ∀ (v1 : IVec S16 32) (v1119 : IVec S16 32), Decidable (k0_chk84 v1 v1119) := fun v1 v1119 => decidable_of_iff' _ (Iff.of_eq (k0_chk84.eq_1 v1 v1119))
theorem k0_idx84_inb : ∀ (v1 : IVec S16 32) (v1119 : IVec S16 32) (k0_hw84 : k0_chk84 v1 v1119), ∀ a x, ((![v1, v1119] : Fin 2 → IVec S16 32) a x).toNat < S1x128.size a := fun v1 v1119 k0_hw84 => k0_hw84

def k0_chk85 (v1 : IVec S16 32) (v1130 : IVec S16 32) : Prop :=
  (∀ a x, ((![v1, v1130] : Fin 2 → IVec S16 32) a x).toNat < S1x128.size a)
instance k0_chk85.dec : ∀ (v1 : IVec S16 32) (v1130 : IVec S16 32), Decidable (k0_chk85 v1 v1130) := fun v1 v1130 => decidable_of_iff' _ (Iff.of_eq (k0_chk85.eq_1 v1 v1130))
theorem k0_idx85_inb : ∀ (v1 : IVec S16 32) (v1130 : IVec S16 32) (k0_hw85 : k0_chk85 v1 v1130), ∀ a x, ((![v1, v1130] : Fin 2 → IVec S16 32) a x).toNat < S1x128.size a := fun v1 v1130 k0_hw85 => k0_hw85

def k0_chk86 (v1 : IVec S16 32) (v1141 : IVec S16 32) : Prop :=
  (∀ a x, ((![v1, v1141] : Fin 2 → IVec S16 32) a x).toNat < S1x128.size a)
instance k0_chk86.dec : ∀ (v1 : IVec S16 32) (v1141 : IVec S16 32), Decidable (k0_chk86 v1 v1141) := fun v1 v1141 => decidable_of_iff' _ (Iff.of_eq (k0_chk86.eq_1 v1 v1141))
theorem k0_idx86_inb : ∀ (v1 : IVec S16 32) (v1141 : IVec S16 32) (k0_hw86 : k0_chk86 v1 v1141), ∀ a x, ((![v1, v1141] : Fin 2 → IVec S16 32) a x).toNat < S1x128.size a := fun v1 v1141 k0_hw86 => k0_hw86

def k0_chk87 (v1 : IVec S16 32) (v1152 : IVec S16 32) : Prop :=
  (∀ a x, ((![v1, v1152] : Fin 2 → IVec S16 32) a x).toNat < S1x128.size a)
instance k0_chk87.dec : ∀ (v1 : IVec S16 32) (v1152 : IVec S16 32), Decidable (k0_chk87 v1 v1152) := fun v1 v1152 => decidable_of_iff' _ (Iff.of_eq (k0_chk87.eq_1 v1 v1152))
theorem k0_idx87_inb : ∀ (v1 : IVec S16 32) (v1152 : IVec S16 32) (k0_hw87 : k0_chk87 v1 v1152), ∀ a x, ((![v1, v1152] : Fin 2 → IVec S16 32) a x).toNat < S1x128.size a := fun v1 v1152 k0_hw87 => k0_hw87

def k0_chk88 (v1 : IVec S16 32) (v1163 : IVec S16 32) : Prop :=
  (∀ a x, ((![v1, v1163] : Fin 2 → IVec S16 32) a x).toNat < S1x128.size a)
instance k0_chk88.dec : ∀ (v1 : IVec S16 32) (v1163 : IVec S16 32), Decidable (k0_chk88 v1 v1163) := fun v1 v1163 => decidable_of_iff' _ (Iff.of_eq (k0_chk88.eq_1 v1 v1163))
theorem k0_idx88_inb : ∀ (v1 : IVec S16 32) (v1163 : IVec S16 32) (k0_hw88 : k0_chk88 v1 v1163), ∀ a x, ((![v1, v1163] : Fin 2 → IVec S16 32) a x).toNat < S1x128.size a := fun v1 v1163 k0_hw88 => k0_hw88

def k0_chk89 (v1 : IVec S16 32) (v1174 : IVec S16 32) : Prop :=
  (∀ a x, ((![v1, v1174] : Fin 2 → IVec S16 32) a x).toNat < S1x128.size a)
instance k0_chk89.dec : ∀ (v1 : IVec S16 32) (v1174 : IVec S16 32), Decidable (k0_chk89 v1 v1174) := fun v1 v1174 => decidable_of_iff' _ (Iff.of_eq (k0_chk89.eq_1 v1 v1174))
theorem k0_idx89_inb : ∀ (v1 : IVec S16 32) (v1174 : IVec S16 32) (k0_hw89 : k0_chk89 v1 v1174), ∀ a x, ((![v1, v1174] : Fin 2 → IVec S16 32) a x).toNat < S1x128.size a := fun v1 v1174 k0_hw89 => k0_hw89

def k0_chk90 (v1 : IVec S16 32) (v1185 : IVec S16 32) : Prop :=
  (∀ a x, ((![v1, v1185] : Fin 2 → IVec S16 32) a x).toNat < S1x128.size a)
instance k0_chk90.dec : ∀ (v1 : IVec S16 32) (v1185 : IVec S16 32), Decidable (k0_chk90 v1 v1185) := fun v1 v1185 => decidable_of_iff' _ (Iff.of_eq (k0_chk90.eq_1 v1 v1185))
theorem k0_idx90_inb : ∀ (v1 : IVec S16 32) (v1185 : IVec S16 32) (k0_hw90 : k0_chk90 v1 v1185), ∀ a x, ((![v1, v1185] : Fin 2 → IVec S16 32) a x).toNat < S1x128.size a := fun v1 v1185 k0_hw90 => k0_hw90

def k0_chk91 (v1 : IVec S16 32) (v1196 : IVec S16 32) : Prop :=
  (∀ a x, ((![v1, v1196] : Fin 2 → IVec S16 32) a x).toNat < S1x128.size a)
instance k0_chk91.dec : ∀ (v1 : IVec S16 32) (v1196 : IVec S16 32), Decidable (k0_chk91 v1 v1196) := fun v1 v1196 => decidable_of_iff' _ (Iff.of_eq (k0_chk91.eq_1 v1 v1196))
theorem k0_idx91_inb : ∀ (v1 : IVec S16 32) (v1196 : IVec S16 32) (k0_hw91 : k0_chk91 v1 v1196), ∀ a x, ((![v1, v1196] : Fin 2 → IVec S16 32) a x).toNat < S1x128.size a := fun v1 v1196 k0_hw91 => k0_hw91

def k0_chk92 (v1 : IVec S16 32) (v1207 : IVec S16 32) : Prop :=
  (∀ a x, ((![v1, v1207] : Fin 2 → IVec S16 32) a x).toNat < S1x128.size a)
instance k0_chk92.dec : ∀ (v1 : IVec S16 32) (v1207 : IVec S16 32), Decidable (k0_chk92 v1 v1207) := fun v1 v1207 => decidable_of_iff' _ (Iff.of_eq (k0_chk92.eq_1 v1 v1207))
theorem k0_idx92_inb : ∀ (v1 : IVec S16 32) (v1207 : IVec S16 32) (k0_hw92 : k0_chk92 v1 v1207), ∀ a x, ((![v1, v1207] : Fin 2 → IVec S16 32) a x).toNat < S1x128.size a := fun v1 v1207 k0_hw92 => k0_hw92

def k0_chk93 (v1 : IVec S16 32) (v1218 : IVec S16 32) : Prop :=
  (∀ a x, ((![v1, v1218] : Fin 2 → IVec S16 32) a x).toNat < S1x128.size a)
instance k0_chk93.dec : ∀ (v1 : IVec S16 32) (v1218 : IVec S16 32), Decidable (k0_chk93 v1 v1218) := fun v1 v1218 => decidable_of_iff' _ (Iff.of_eq (k0_chk93.eq_1 v1 v1218))
theorem k0_idx93_inb : ∀ (v1 : IVec S16 32) (v1218 : IVec S16 32) (k0_hw93 : k0_chk93 v1 v1218), ∀ a x, ((![v1, v1218] : Fin 2 → IVec S16 32) a x).toNat < S1x128.size a := fun v1 v1218 k0_hw93 => k0_hw93

def k0_chk94 (v1 : IVec S16 32) (v1229 : IVec S16 32) : Prop :=
  (∀ a x, ((![v1, v1229] : Fin 2 → IVec S16 32) a x).toNat < S1x128.size a)
instance k0_chk94.dec : ∀ (v1 : IVec S16 32) (v1229 : IVec S16 32), Decidable (k0_chk94 v1 v1229) := fun v1 v1229 => decidable_of_iff' _ (Iff.of_eq (k0_chk94.eq_1 v1 v1229))
theorem k0_idx94_inb : ∀ (v1 : IVec S16 32) (v1229 : IVec S16 32) (k0_hw94 : k0_chk94 v1 v1229), ∀ a x, ((![v1, v1229] : Fin 2 → IVec S16 32) a x).toNat < S1x128.size a := fun v1 v1229 k0_hw94 => k0_hw94

def k0_chk95 (v1 : IVec S16 32) (v1240 : IVec S16 32) : Prop :=
  (∀ a x, ((![v1, v1240] : Fin 2 → IVec S16 32) a x).toNat < S1x128.size a)
instance k0_chk95.dec : ∀ (v1 : IVec S16 32) (v1240 : IVec S16 32), Decidable (k0_chk95 v1 v1240) := fun v1 v1240 => decidable_of_iff' _ (Iff.of_eq (k0_chk95.eq_1 v1 v1240))
theorem k0_idx95_inb : ∀ (v1 : IVec S16 32) (v1240 : IVec S16 32) (k0_hw95 : k0_chk95 v1 v1240), ∀ a x, ((![v1, v1240] : Fin 2 → IVec S16 32) a x).toNat < S1x128.size a := fun v1 v1240 k0_hw95 => k0_hw95

def k0_chk96 (v1 : IVec S16 32) (v1251 : IVec S16 32) : Prop :=
  (∀ a x, ((![v1, v1251] : Fin 2 → IVec S16 32) a x).toNat < S1x128.size a)
instance k0_chk96.dec : ∀ (v1 : IVec S16 32) (v1251 : IVec S16 32), Decidable (k0_chk96 v1 v1251) := fun v1 v1251 => decidable_of_iff' _ (Iff.of_eq (k0_chk96.eq_1 v1 v1251))
theorem k0_idx96_inb : ∀ (v1 : IVec S16 32) (v1251 : IVec S16 32) (k0_hw96 : k0_chk96 v1 v1251), ∀ a x, ((![v1, v1251] : Fin 2 → IVec S16 32) a x).toNat < S1x128.size a := fun v1 v1251 k0_hw96 => k0_hw96

def k0_chk97 (v1 : IVec S16 32) (v1262 : IVec S16 32) : Prop :=
  (∀ a x, ((![v1, v1262] : Fin 2 → IVec S16 32) a x).toNat < S1x128.size a)
instance k0_chk97.dec : ∀ (v1 : IVec S16 32) (v1262 : IVec S16 32), Decidable (k0_chk97 v1 v1262) := fun v1 v1262 => decidable_of_iff' _ (Iff.of_eq (k0_chk97.eq_1 v1 v1262))
theorem k0_idx97_inb : ∀ (v1 : IVec S16 32) (v1262 : IVec S16 32) (k0_hw97 : k0_chk97 v1 v1262), ∀ a x, ((![v1, v1262] : Fin 2 → IVec S16 32) a x).toNat < S1x128.size a := fun v1 v1262 k0_hw97 => k0_hw97

def k0_chk98 (v1 : IVec S16 32) (v1273 : IVec S16 32) : Prop :=
  (∀ a x, ((![v1, v1273] : Fin 2 → IVec S16 32) a x).toNat < S1x128.size a)
instance k0_chk98.dec : ∀ (v1 : IVec S16 32) (v1273 : IVec S16 32), Decidable (k0_chk98 v1 v1273) := fun v1 v1273 => decidable_of_iff' _ (Iff.of_eq (k0_chk98.eq_1 v1 v1273))
theorem k0_idx98_inb : ∀ (v1 : IVec S16 32) (v1273 : IVec S16 32) (k0_hw98 : k0_chk98 v1 v1273), ∀ a x, ((![v1, v1273] : Fin 2 → IVec S16 32) a x).toNat < S1x128.size a := fun v1 v1273 k0_hw98 => k0_hw98

def k0_chk99 (v1 : IVec S16 32) (v1284 : IVec S16 32) : Prop :=
  (∀ a x, ((![v1, v1284] : Fin 2 → IVec S16 32) a x).toNat < S1x128.size a)
instance k0_chk99.dec : ∀ (v1 : IVec S16 32) (v1284 : IVec S16 32), Decidable (k0_chk99 v1 v1284) := fun v1 v1284 => decidable_of_iff' _ (Iff.of_eq (k0_chk99.eq_1 v1 v1284))
theorem k0_idx99_inb : ∀ (v1 : IVec S16 32) (v1284 : IVec S16 32) (k0_hw99 : k0_chk99 v1 v1284), ∀ a x, ((![v1, v1284] : Fin 2 → IVec S16 32) a x).toNat < S1x128.size a := fun v1 v1284 k0_hw99 => k0_hw99

def k0_chk100 (v1 : IVec S16 32) (v1295 : IVec S16 32) : Prop :=
  (∀ a x, ((![v1, v1295] : Fin 2 → IVec S16 32) a x).toNat < S1x128.size a)
instance k0_chk100.dec : ∀ (v1 : IVec S16 32) (v1295 : IVec S16 32), Decidable (k0_chk100 v1 v1295) := fun v1 v1295 => decidable_of_iff' _ (Iff.of_eq (k0_chk100.eq_1 v1 v1295))
theorem k0_idx100_inb : ∀ (v1 : IVec S16 32) (v1295 : IVec S16 32) (k0_hw100 : k0_chk100 v1 v1295), ∀ a x, ((![v1, v1295] : Fin 2 → IVec S16 32) a x).toNat < S1x128.size a := fun v1 v1295 k0_hw100 => k0_hw100

def k0_chk101 (v1 : IVec S16 32) (v1306 : IVec S16 32) : Prop :=
  (∀ a x, ((![v1, v1306] : Fin 2 → IVec S16 32) a x).toNat < S1x128.size a)
instance k0_chk101.dec : ∀ (v1 : IVec S16 32) (v1306 : IVec S16 32), Decidable (k0_chk101 v1 v1306) := fun v1 v1306 => decidable_of_iff' _ (Iff.of_eq (k0_chk101.eq_1 v1 v1306))
theorem k0_idx101_inb : ∀ (v1 : IVec S16 32) (v1306 : IVec S16 32) (k0_hw101 : k0_chk101 v1 v1306), ∀ a x, ((![v1, v1306] : Fin 2 → IVec S16 32) a x).toNat < S1x128.size a := fun v1 v1306 k0_hw101 => k0_hw101

def k0_chk102 (v1 : IVec S16 32) (v1317 : IVec S16 32) : Prop :=
  (∀ a x, ((![v1, v1317] : Fin 2 → IVec S16 32) a x).toNat < S1x128.size a)
instance k0_chk102.dec : ∀ (v1 : IVec S16 32) (v1317 : IVec S16 32), Decidable (k0_chk102 v1 v1317) := fun v1 v1317 => decidable_of_iff' _ (Iff.of_eq (k0_chk102.eq_1 v1 v1317))
theorem k0_idx102_inb : ∀ (v1 : IVec S16 32) (v1317 : IVec S16 32) (k0_hw102 : k0_chk102 v1 v1317), ∀ a x, ((![v1, v1317] : Fin 2 → IVec S16 32) a x).toNat < S1x128.size a := fun v1 v1317 k0_hw102 => k0_hw102

def k0_chk103 (v1 : IVec S16 32) (v1328 : IVec S16 32) : Prop :=
  (∀ a x, ((![v1, v1328] : Fin 2 → IVec S16 32) a x).toNat < S1x128.size a)
instance k0_chk103.dec : ∀ (v1 : IVec S16 32) (v1328 : IVec S16 32), Decidable (k0_chk103 v1 v1328) := fun v1 v1328 => decidable_of_iff' _ (Iff.of_eq (k0_chk103.eq_1 v1 v1328))
theorem k0_idx103_inb : ∀ (v1 : IVec S16 32) (v1328 : IVec S16 32) (k0_hw103 : k0_chk103 v1 v1328), ∀ a x, ((![v1, v1328] : Fin 2 → IVec S16 32) a x).toNat < S1x128.size a := fun v1 v1328 k0_hw103 => k0_hw103

def k0_chk104 (v1 : IVec S16 32) (v1339 : IVec S16 32) : Prop :=
  (∀ a x, ((![v1, v1339] : Fin 2 → IVec S16 32) a x).toNat < S1x128.size a)
instance k0_chk104.dec : ∀ (v1 : IVec S16 32) (v1339 : IVec S16 32), Decidable (k0_chk104 v1 v1339) := fun v1 v1339 => decidable_of_iff' _ (Iff.of_eq (k0_chk104.eq_1 v1 v1339))
theorem k0_idx104_inb : ∀ (v1 : IVec S16 32) (v1339 : IVec S16 32) (k0_hw104 : k0_chk104 v1 v1339), ∀ a x, ((![v1, v1339] : Fin 2 → IVec S16 32) a x).toNat < S1x128.size a := fun v1 v1339 k0_hw104 => k0_hw104

def k0_chk105 (v1 : IVec S16 32) (v1350 : IVec S16 32) : Prop :=
  (∀ a x, ((![v1, v1350] : Fin 2 → IVec S16 32) a x).toNat < S1x128.size a)
instance k0_chk105.dec : ∀ (v1 : IVec S16 32) (v1350 : IVec S16 32), Decidable (k0_chk105 v1 v1350) := fun v1 v1350 => decidable_of_iff' _ (Iff.of_eq (k0_chk105.eq_1 v1 v1350))
theorem k0_idx105_inb : ∀ (v1 : IVec S16 32) (v1350 : IVec S16 32) (k0_hw105 : k0_chk105 v1 v1350), ∀ a x, ((![v1, v1350] : Fin 2 → IVec S16 32) a x).toNat < S1x128.size a := fun v1 v1350 k0_hw105 => k0_hw105

def k0_chk106 (v1 : IVec S16 32) (v1361 : IVec S16 32) : Prop :=
  (∀ a x, ((![v1, v1361] : Fin 2 → IVec S16 32) a x).toNat < S1x128.size a)
instance k0_chk106.dec : ∀ (v1 : IVec S16 32) (v1361 : IVec S16 32), Decidable (k0_chk106 v1 v1361) := fun v1 v1361 => decidable_of_iff' _ (Iff.of_eq (k0_chk106.eq_1 v1 v1361))
theorem k0_idx106_inb : ∀ (v1 : IVec S16 32) (v1361 : IVec S16 32) (k0_hw106 : k0_chk106 v1 v1361), ∀ a x, ((![v1, v1361] : Fin 2 → IVec S16 32) a x).toNat < S1x128.size a := fun v1 v1361 k0_hw106 => k0_hw106

def k0_chk107 (v1 : IVec S16 32) (v1372 : IVec S16 32) : Prop :=
  (∀ a x, ((![v1, v1372] : Fin 2 → IVec S16 32) a x).toNat < S1x128.size a)
instance k0_chk107.dec : ∀ (v1 : IVec S16 32) (v1372 : IVec S16 32), Decidable (k0_chk107 v1 v1372) := fun v1 v1372 => decidable_of_iff' _ (Iff.of_eq (k0_chk107.eq_1 v1 v1372))
theorem k0_idx107_inb : ∀ (v1 : IVec S16 32) (v1372 : IVec S16 32) (k0_hw107 : k0_chk107 v1 v1372), ∀ a x, ((![v1, v1372] : Fin 2 → IVec S16 32) a x).toNat < S1x128.size a := fun v1 v1372 k0_hw107 => k0_hw107

def k0_chk108 (v1 : IVec S16 32) (v1383 : IVec S16 32) : Prop :=
  (∀ a x, ((![v1, v1383] : Fin 2 → IVec S16 32) a x).toNat < S1x128.size a)
instance k0_chk108.dec : ∀ (v1 : IVec S16 32) (v1383 : IVec S16 32), Decidable (k0_chk108 v1 v1383) := fun v1 v1383 => decidable_of_iff' _ (Iff.of_eq (k0_chk108.eq_1 v1 v1383))
theorem k0_idx108_inb : ∀ (v1 : IVec S16 32) (v1383 : IVec S16 32) (k0_hw108 : k0_chk108 v1 v1383), ∀ a x, ((![v1, v1383] : Fin 2 → IVec S16 32) a x).toNat < S1x128.size a := fun v1 v1383 k0_hw108 => k0_hw108

def k0_chk109 (v1 : IVec S16 32) (v1394 : IVec S16 32) : Prop :=
  (∀ a x, ((![v1, v1394] : Fin 2 → IVec S16 32) a x).toNat < S1x128.size a)
instance k0_chk109.dec : ∀ (v1 : IVec S16 32) (v1394 : IVec S16 32), Decidable (k0_chk109 v1 v1394) := fun v1 v1394 => decidable_of_iff' _ (Iff.of_eq (k0_chk109.eq_1 v1 v1394))
theorem k0_idx109_inb : ∀ (v1 : IVec S16 32) (v1394 : IVec S16 32) (k0_hw109 : k0_chk109 v1 v1394), ∀ a x, ((![v1, v1394] : Fin 2 → IVec S16 32) a x).toNat < S1x128.size a := fun v1 v1394 k0_hw109 => k0_hw109

def k0_chk110 (v1 : IVec S16 32) (v1405 : IVec S16 32) : Prop :=
  (∀ a x, ((![v1, v1405] : Fin 2 → IVec S16 32) a x).toNat < S1x128.size a)
instance k0_chk110.dec : ∀ (v1 : IVec S16 32) (v1405 : IVec S16 32), Decidable (k0_chk110 v1 v1405) := fun v1 v1405 => decidable_of_iff' _ (Iff.of_eq (k0_chk110.eq_1 v1 v1405))
theorem k0_idx110_inb : ∀ (v1 : IVec S16 32) (v1405 : IVec S16 32) (k0_hw110 : k0_chk110 v1 v1405), ∀ a x, ((![v1, v1405] : Fin 2 → IVec S16 32) a x).toNat < S1x128.size a := fun v1 v1405 k0_hw110 => k0_hw110

def k0_chk111 (v1 : IVec S16 32) (v1416 : IVec S16 32) : Prop :=
  (∀ a x, ((![v1, v1416] : Fin 2 → IVec S16 32) a x).toNat < S1x128.size a)
instance k0_chk111.dec : ∀ (v1 : IVec S16 32) (v1416 : IVec S16 32), Decidable (k0_chk111 v1 v1416) := fun v1 v1416 => decidable_of_iff' _ (Iff.of_eq (k0_chk111.eq_1 v1 v1416))
theorem k0_idx111_inb : ∀ (v1 : IVec S16 32) (v1416 : IVec S16 32) (k0_hw111 : k0_chk111 v1 v1416), ∀ a x, ((![v1, v1416] : Fin 2 → IVec S16 32) a x).toNat < S1x128.size a := fun v1 v1416 k0_hw111 => k0_hw111

def k0_chk112 (v1 : IVec S16 32) (v1427 : IVec S16 32) : Prop :=
  (∀ a x, ((![v1, v1427] : Fin 2 → IVec S16 32) a x).toNat < S1x128.size a)
instance k0_chk112.dec : ∀ (v1 : IVec S16 32) (v1427 : IVec S16 32), Decidable (k0_chk112 v1 v1427) := fun v1 v1427 => decidable_of_iff' _ (Iff.of_eq (k0_chk112.eq_1 v1 v1427))
theorem k0_idx112_inb : ∀ (v1 : IVec S16 32) (v1427 : IVec S16 32) (k0_hw112 : k0_chk112 v1 v1427), ∀ a x, ((![v1, v1427] : Fin 2 → IVec S16 32) a x).toNat < S1x128.size a := fun v1 v1427 k0_hw112 => k0_hw112

def k0_chk113 (v1 : IVec S16 32) (v1438 : IVec S16 32) : Prop :=
  (∀ a x, ((![v1, v1438] : Fin 2 → IVec S16 32) a x).toNat < S1x128.size a)
instance k0_chk113.dec : ∀ (v1 : IVec S16 32) (v1438 : IVec S16 32), Decidable (k0_chk113 v1 v1438) := fun v1 v1438 => decidable_of_iff' _ (Iff.of_eq (k0_chk113.eq_1 v1 v1438))
theorem k0_idx113_inb : ∀ (v1 : IVec S16 32) (v1438 : IVec S16 32) (k0_hw113 : k0_chk113 v1 v1438), ∀ a x, ((![v1, v1438] : Fin 2 → IVec S16 32) a x).toNat < S1x128.size a := fun v1 v1438 k0_hw113 => k0_hw113

def k0_chk114 (v1 : IVec S16 32) (v1449 : IVec S16 32) : Prop :=
  (∀ a x, ((![v1, v1449] : Fin 2 → IVec S16 32) a x).toNat < S1x128.size a)
instance k0_chk114.dec : ∀ (v1 : IVec S16 32) (v1449 : IVec S16 32), Decidable (k0_chk114 v1 v1449) := fun v1 v1449 => decidable_of_iff' _ (Iff.of_eq (k0_chk114.eq_1 v1 v1449))
theorem k0_idx114_inb : ∀ (v1 : IVec S16 32) (v1449 : IVec S16 32) (k0_hw114 : k0_chk114 v1 v1449), ∀ a x, ((![v1, v1449] : Fin 2 → IVec S16 32) a x).toNat < S1x128.size a := fun v1 v1449 k0_hw114 => k0_hw114

def k0_chk115 (v1 : IVec S16 32) (v1460 : IVec S16 32) : Prop :=
  (∀ a x, ((![v1, v1460] : Fin 2 → IVec S16 32) a x).toNat < S1x128.size a)
instance k0_chk115.dec : ∀ (v1 : IVec S16 32) (v1460 : IVec S16 32), Decidable (k0_chk115 v1 v1460) := fun v1 v1460 => decidable_of_iff' _ (Iff.of_eq (k0_chk115.eq_1 v1 v1460))
theorem k0_idx115_inb : ∀ (v1 : IVec S16 32) (v1460 : IVec S16 32) (k0_hw115 : k0_chk115 v1 v1460), ∀ a x, ((![v1, v1460] : Fin 2 → IVec S16 32) a x).toNat < S1x128.size a := fun v1 v1460 k0_hw115 => k0_hw115

def k0_chk116 (v1 : IVec S16 32) (v1471 : IVec S16 32) : Prop :=
  (∀ a x, ((![v1, v1471] : Fin 2 → IVec S16 32) a x).toNat < S1x128.size a)
instance k0_chk116.dec : ∀ (v1 : IVec S16 32) (v1471 : IVec S16 32), Decidable (k0_chk116 v1 v1471) := fun v1 v1471 => decidable_of_iff' _ (Iff.of_eq (k0_chk116.eq_1 v1 v1471))
theorem k0_idx116_inb : ∀ (v1 : IVec S16 32) (v1471 : IVec S16 32) (k0_hw116 : k0_chk116 v1 v1471), ∀ a x, ((![v1, v1471] : Fin 2 → IVec S16 32) a x).toNat < S1x128.size a := fun v1 v1471 k0_hw116 => k0_hw116

def k0_chk117 (v1 : IVec S16 32) (v1482 : IVec S16 32) : Prop :=
  (∀ a x, ((![v1, v1482] : Fin 2 → IVec S16 32) a x).toNat < S1x128.size a)
instance k0_chk117.dec : ∀ (v1 : IVec S16 32) (v1482 : IVec S16 32), Decidable (k0_chk117 v1 v1482) := fun v1 v1482 => decidable_of_iff' _ (Iff.of_eq (k0_chk117.eq_1 v1 v1482))
theorem k0_idx117_inb : ∀ (v1 : IVec S16 32) (v1482 : IVec S16 32) (k0_hw117 : k0_chk117 v1 v1482), ∀ a x, ((![v1, v1482] : Fin 2 → IVec S16 32) a x).toNat < S1x128.size a := fun v1 v1482 k0_hw117 => k0_hw117

def k0_chk118 (v1 : IVec S16 32) (v1493 : IVec S16 32) : Prop :=
  (∀ a x, ((![v1, v1493] : Fin 2 → IVec S16 32) a x).toNat < S1x128.size a)
instance k0_chk118.dec : ∀ (v1 : IVec S16 32) (v1493 : IVec S16 32), Decidable (k0_chk118 v1 v1493) := fun v1 v1493 => decidable_of_iff' _ (Iff.of_eq (k0_chk118.eq_1 v1 v1493))
theorem k0_idx118_inb : ∀ (v1 : IVec S16 32) (v1493 : IVec S16 32) (k0_hw118 : k0_chk118 v1 v1493), ∀ a x, ((![v1, v1493] : Fin 2 → IVec S16 32) a x).toNat < S1x128.size a := fun v1 v1493 k0_hw118 => k0_hw118

def k0_chk119 (v1 : IVec S16 32) (v1504 : IVec S16 32) : Prop :=
  (∀ a x, ((![v1, v1504] : Fin 2 → IVec S16 32) a x).toNat < S1x128.size a)
instance k0_chk119.dec : ∀ (v1 : IVec S16 32) (v1504 : IVec S16 32), Decidable (k0_chk119 v1 v1504) := fun v1 v1504 => decidable_of_iff' _ (Iff.of_eq (k0_chk119.eq_1 v1 v1504))
theorem k0_idx119_inb : ∀ (v1 : IVec S16 32) (v1504 : IVec S16 32) (k0_hw119 : k0_chk119 v1 v1504), ∀ a x, ((![v1, v1504] : Fin 2 → IVec S16 32) a x).toNat < S1x128.size a := fun v1 v1504 k0_hw119 => k0_hw119

def k0_chk120 (v1 : IVec S16 32) (v1515 : IVec S16 32) : Prop :=
  (∀ a x, ((![v1, v1515] : Fin 2 → IVec S16 32) a x).toNat < S1x128.size a)
instance k0_chk120.dec : ∀ (v1 : IVec S16 32) (v1515 : IVec S16 32), Decidable (k0_chk120 v1 v1515) := fun v1 v1515 => decidable_of_iff' _ (Iff.of_eq (k0_chk120.eq_1 v1 v1515))
theorem k0_idx120_inb : ∀ (v1 : IVec S16 32) (v1515 : IVec S16 32) (k0_hw120 : k0_chk120 v1 v1515), ∀ a x, ((![v1, v1515] : Fin 2 → IVec S16 32) a x).toNat < S1x128.size a := fun v1 v1515 k0_hw120 => k0_hw120

def k0_chk121 (v1 : IVec S16 32) (v1526 : IVec S16 32) : Prop :=
  (∀ a x, ((![v1, v1526] : Fin 2 → IVec S16 32) a x).toNat < S1x128.size a)
instance k0_chk121.dec : ∀ (v1 : IVec S16 32) (v1526 : IVec S16 32), Decidable (k0_chk121 v1 v1526) := fun v1 v1526 => decidable_of_iff' _ (Iff.of_eq (k0_chk121.eq_1 v1 v1526))
theorem k0_idx121_inb : ∀ (v1 : IVec S16 32) (v1526 : IVec S16 32) (k0_hw121 : k0_chk121 v1 v1526), ∀ a x, ((![v1, v1526] : Fin 2 → IVec S16 32) a x).toNat < S1x128.size a := fun v1 v1526 k0_hw121 => k0_hw121

def k0_chk122 (v1 : IVec S16 32) (v1537 : IVec S16 32) : Prop :=
  (∀ a x, ((![v1, v1537] : Fin 2 → IVec S16 32) a x).toNat < S1x128.size a)
instance k0_chk122.dec : ∀ (v1 : IVec S16 32) (v1537 : IVec S16 32), Decidable (k0_chk122 v1 v1537) := fun v1 v1537 => decidable_of_iff' _ (Iff.of_eq (k0_chk122.eq_1 v1 v1537))
theorem k0_idx122_inb : ∀ (v1 : IVec S16 32) (v1537 : IVec S16 32) (k0_hw122 : k0_chk122 v1 v1537), ∀ a x, ((![v1, v1537] : Fin 2 → IVec S16 32) a x).toNat < S1x128.size a := fun v1 v1537 k0_hw122 => k0_hw122

def k0_chk123 (v1 : IVec S16 32) (v1548 : IVec S16 32) : Prop :=
  (∀ a x, ((![v1, v1548] : Fin 2 → IVec S16 32) a x).toNat < S1x128.size a)
instance k0_chk123.dec : ∀ (v1 : IVec S16 32) (v1548 : IVec S16 32), Decidable (k0_chk123 v1 v1548) := fun v1 v1548 => decidable_of_iff' _ (Iff.of_eq (k0_chk123.eq_1 v1 v1548))
theorem k0_idx123_inb : ∀ (v1 : IVec S16 32) (v1548 : IVec S16 32) (k0_hw123 : k0_chk123 v1 v1548), ∀ a x, ((![v1, v1548] : Fin 2 → IVec S16 32) a x).toNat < S1x128.size a := fun v1 v1548 k0_hw123 => k0_hw123

def k0_chk124 (v1 : IVec S16 32) (v1559 : IVec S16 32) : Prop :=
  (∀ a x, ((![v1, v1559] : Fin 2 → IVec S16 32) a x).toNat < S1x128.size a)
instance k0_chk124.dec : ∀ (v1 : IVec S16 32) (v1559 : IVec S16 32), Decidable (k0_chk124 v1 v1559) := fun v1 v1559 => decidable_of_iff' _ (Iff.of_eq (k0_chk124.eq_1 v1 v1559))
theorem k0_idx124_inb : ∀ (v1 : IVec S16 32) (v1559 : IVec S16 32) (k0_hw124 : k0_chk124 v1 v1559), ∀ a x, ((![v1, v1559] : Fin 2 → IVec S16 32) a x).toNat < S1x128.size a := fun v1 v1559 k0_hw124 => k0_hw124

def k0_chk125 (v1 : IVec S16 32) (v1570 : IVec S16 32) : Prop :=
  (∀ a x, ((![v1, v1570] : Fin 2 → IVec S16 32) a x).toNat < S1x128.size a)
instance k0_chk125.dec : ∀ (v1 : IVec S16 32) (v1570 : IVec S16 32), Decidable (k0_chk125 v1 v1570) := fun v1 v1570 => decidable_of_iff' _ (Iff.of_eq (k0_chk125.eq_1 v1 v1570))
theorem k0_idx125_inb : ∀ (v1 : IVec S16 32) (v1570 : IVec S16 32) (k0_hw125 : k0_chk125 v1 v1570), ∀ a x, ((![v1, v1570] : Fin 2 → IVec S16 32) a x).toNat < S1x128.size a := fun v1 v1570 k0_hw125 => k0_hw125

def k0_chk126 (v1 : IVec S16 32) (v1581 : IVec S16 32) : Prop :=
  (∀ a x, ((![v1, v1581] : Fin 2 → IVec S16 32) a x).toNat < S1x128.size a)
instance k0_chk126.dec : ∀ (v1 : IVec S16 32) (v1581 : IVec S16 32), Decidable (k0_chk126 v1 v1581) := fun v1 v1581 => decidable_of_iff' _ (Iff.of_eq (k0_chk126.eq_1 v1 v1581))
theorem k0_idx126_inb : ∀ (v1 : IVec S16 32) (v1581 : IVec S16 32) (k0_hw126 : k0_chk126 v1 v1581), ∀ a x, ((![v1, v1581] : Fin 2 → IVec S16 32) a x).toNat < S1x128.size a := fun v1 v1581 k0_hw126 => k0_hw126

def k0_chk127 (v1 : IVec S16 32) (v1592 : IVec S16 32) : Prop :=
  (∀ a x, ((![v1, v1592] : Fin 2 → IVec S16 32) a x).toNat < S1x128.size a)
instance k0_chk127.dec : ∀ (v1 : IVec S16 32) (v1592 : IVec S16 32), Decidable (k0_chk127 v1 v1592) := fun v1 v1592 => decidable_of_iff' _ (Iff.of_eq (k0_chk127.eq_1 v1 v1592))
theorem k0_idx127_inb : ∀ (v1 : IVec S16 32) (v1592 : IVec S16 32) (k0_hw127 : k0_chk127 v1 v1592), ∀ a x, ((![v1, v1592] : Fin 2 → IVec S16 32) a x).toNat < S1x128.size a := fun v1 v1592 k0_hw127 => k0_hw127

def k0_chk128 (v1 : IVec S16 32) (v1603 : IVec S16 32) : Prop :=
  (∀ a x, ((![v1, v1603] : Fin 2 → IVec S16 32) a x).toNat < S1x128.size a)
instance k0_chk128.dec : ∀ (v1 : IVec S16 32) (v1603 : IVec S16 32), Decidable (k0_chk128 v1 v1603) := fun v1 v1603 => decidable_of_iff' _ (Iff.of_eq (k0_chk128.eq_1 v1 v1603))
theorem k0_idx128_inb : ∀ (v1 : IVec S16 32) (v1603 : IVec S16 32) (k0_hw128 : k0_chk128 v1 v1603), ∀ a x, ((![v1, v1603] : Fin 2 → IVec S16 32) a x).toNat < S1x128.size a := fun v1 v1603 k0_hw128 => k0_hw128

def k0_chk129 (v1 : IVec S16 32) (v1614 : IVec S16 32) : Prop :=
  (∀ a x, ((![v1, v1614] : Fin 2 → IVec S16 32) a x).toNat < S1x128.size a)
instance k0_chk129.dec : ∀ (v1 : IVec S16 32) (v1614 : IVec S16 32), Decidable (k0_chk129 v1 v1614) := fun v1 v1614 => decidable_of_iff' _ (Iff.of_eq (k0_chk129.eq_1 v1 v1614))
theorem k0_idx129_inb : ∀ (v1 : IVec S16 32) (v1614 : IVec S16 32) (k0_hw129 : k0_chk129 v1 v1614), ∀ a x, ((![v1, v1614] : Fin 2 → IVec S16 32) a x).toNat < S1x128.size a := fun v1 v1614 k0_hw129 => k0_hw129

def k0_chk130 (v1 : IVec S16 32) (v1625 : IVec S16 32) : Prop :=
  (∀ a x, ((![v1, v1625] : Fin 2 → IVec S16 32) a x).toNat < S1x128.size a)
instance k0_chk130.dec : ∀ (v1 : IVec S16 32) (v1625 : IVec S16 32), Decidable (k0_chk130 v1 v1625) := fun v1 v1625 => decidable_of_iff' _ (Iff.of_eq (k0_chk130.eq_1 v1 v1625))
theorem k0_idx130_inb : ∀ (v1 : IVec S16 32) (v1625 : IVec S16 32) (k0_hw130 : k0_chk130 v1 v1625), ∀ a x, ((![v1, v1625] : Fin 2 → IVec S16 32) a x).toNat < S1x128.size a := fun v1 v1625 k0_hw130 => k0_hw130

def k0_chk131 (v1 : IVec S16 32) (v1636 : IVec S16 32) : Prop :=
  (∀ a x, ((![v1, v1636] : Fin 2 → IVec S16 32) a x).toNat < S1x128.size a)
instance k0_chk131.dec : ∀ (v1 : IVec S16 32) (v1636 : IVec S16 32), Decidable (k0_chk131 v1 v1636) := fun v1 v1636 => decidable_of_iff' _ (Iff.of_eq (k0_chk131.eq_1 v1 v1636))
theorem k0_idx131_inb : ∀ (v1 : IVec S16 32) (v1636 : IVec S16 32) (k0_hw131 : k0_chk131 v1 v1636), ∀ a x, ((![v1, v1636] : Fin 2 → IVec S16 32) a x).toNat < S1x128.size a := fun v1 v1636 k0_hw131 => k0_hw131

def k0_chk132 (v1 : IVec S16 32) (v1647 : IVec S16 32) : Prop :=
  (∀ a x, ((![v1, v1647] : Fin 2 → IVec S16 32) a x).toNat < S1x128.size a)
instance k0_chk132.dec : ∀ (v1 : IVec S16 32) (v1647 : IVec S16 32), Decidable (k0_chk132 v1 v1647) := fun v1 v1647 => decidable_of_iff' _ (Iff.of_eq (k0_chk132.eq_1 v1 v1647))
theorem k0_idx132_inb : ∀ (v1 : IVec S16 32) (v1647 : IVec S16 32) (k0_hw132 : k0_chk132 v1 v1647), ∀ a x, ((![v1, v1647] : Fin 2 → IVec S16 32) a x).toNat < S1x128.size a := fun v1 v1647 k0_hw132 => k0_hw132

def k0_chk133 (v1 : IVec S16 32) (v1658 : IVec S16 32) : Prop :=
  (∀ a x, ((![v1, v1658] : Fin 2 → IVec S16 32) a x).toNat < S1x128.size a)
instance k0_chk133.dec : ∀ (v1 : IVec S16 32) (v1658 : IVec S16 32), Decidable (k0_chk133 v1 v1658) := fun v1 v1658 => decidable_of_iff' _ (Iff.of_eq (k0_chk133.eq_1 v1 v1658))
theorem k0_idx133_inb : ∀ (v1 : IVec S16 32) (v1658 : IVec S16 32) (k0_hw133 : k0_chk133 v1 v1658), ∀ a x, ((![v1, v1658] : Fin 2 → IVec S16 32) a x).toNat < S1x128.size a := fun v1 v1658 k0_hw133 => k0_hw133

def k0_chk134 (v1 : IVec S16 32) (v1669 : IVec S16 32) : Prop :=
  (∀ a x, ((![v1, v1669] : Fin 2 → IVec S16 32) a x).toNat < S1x128.size a)
instance k0_chk134.dec : ∀ (v1 : IVec S16 32) (v1669 : IVec S16 32), Decidable (k0_chk134 v1 v1669) := fun v1 v1669 => decidable_of_iff' _ (Iff.of_eq (k0_chk134.eq_1 v1 v1669))
theorem k0_idx134_inb : ∀ (v1 : IVec S16 32) (v1669 : IVec S16 32) (k0_hw134 : k0_chk134 v1 v1669), ∀ a x, ((![v1, v1669] : Fin 2 → IVec S16 32) a x).toNat < S1x128.size a := fun v1 v1669 k0_hw134 => k0_hw134

def k0_chk135 (v1 : IVec S16 32) (v1680 : IVec S16 32) : Prop :=
  (∀ a x, ((![v1, v1680] : Fin 2 → IVec S16 32) a x).toNat < S1x128.size a)
instance k0_chk135.dec : ∀ (v1 : IVec S16 32) (v1680 : IVec S16 32), Decidable (k0_chk135 v1 v1680) := fun v1 v1680 => decidable_of_iff' _ (Iff.of_eq (k0_chk135.eq_1 v1 v1680))
theorem k0_idx135_inb : ∀ (v1 : IVec S16 32) (v1680 : IVec S16 32) (k0_hw135 : k0_chk135 v1 v1680), ∀ a x, ((![v1, v1680] : Fin 2 → IVec S16 32) a x).toNat < S1x128.size a := fun v1 v1680 k0_hw135 => k0_hw135

def k0_chk136 (v1 : IVec S16 32) (v1691 : IVec S16 32) : Prop :=
  (∀ a x, ((![v1, v1691] : Fin 2 → IVec S16 32) a x).toNat < S1x128.size a)
instance k0_chk136.dec : ∀ (v1 : IVec S16 32) (v1691 : IVec S16 32), Decidable (k0_chk136 v1 v1691) := fun v1 v1691 => decidable_of_iff' _ (Iff.of_eq (k0_chk136.eq_1 v1 v1691))
theorem k0_idx136_inb : ∀ (v1 : IVec S16 32) (v1691 : IVec S16 32) (k0_hw136 : k0_chk136 v1 v1691), ∀ a x, ((![v1, v1691] : Fin 2 → IVec S16 32) a x).toNat < S1x128.size a := fun v1 v1691 k0_hw136 => k0_hw136

def k0_chk137 (v1 : IVec S16 32) (v1702 : IVec S16 32) : Prop :=
  (∀ a x, ((![v1, v1702] : Fin 2 → IVec S16 32) a x).toNat < S1x128.size a)
instance k0_chk137.dec : ∀ (v1 : IVec S16 32) (v1702 : IVec S16 32), Decidable (k0_chk137 v1 v1702) := fun v1 v1702 => decidable_of_iff' _ (Iff.of_eq (k0_chk137.eq_1 v1 v1702))
theorem k0_idx137_inb : ∀ (v1 : IVec S16 32) (v1702 : IVec S16 32) (k0_hw137 : k0_chk137 v1 v1702), ∀ a x, ((![v1, v1702] : Fin 2 → IVec S16 32) a x).toNat < S1x128.size a := fun v1 v1702 k0_hw137 => k0_hw137

def k0_chk138 (v1 : IVec S16 32) (v1713 : IVec S16 32) : Prop :=
  (∀ a x, ((![v1, v1713] : Fin 2 → IVec S16 32) a x).toNat < S1x128.size a)
instance k0_chk138.dec : ∀ (v1 : IVec S16 32) (v1713 : IVec S16 32), Decidable (k0_chk138 v1 v1713) := fun v1 v1713 => decidable_of_iff' _ (Iff.of_eq (k0_chk138.eq_1 v1 v1713))
theorem k0_idx138_inb : ∀ (v1 : IVec S16 32) (v1713 : IVec S16 32) (k0_hw138 : k0_chk138 v1 v1713), ∀ a x, ((![v1, v1713] : Fin 2 → IVec S16 32) a x).toNat < S1x128.size a := fun v1 v1713 k0_hw138 => k0_hw138

def k0_chk139 (v1 : IVec S16 32) (v1724 : IVec S16 32) : Prop :=
  (∀ a x, ((![v1, v1724] : Fin 2 → IVec S16 32) a x).toNat < S1x128.size a)
instance k0_chk139.dec : ∀ (v1 : IVec S16 32) (v1724 : IVec S16 32), Decidable (k0_chk139 v1 v1724) := fun v1 v1724 => decidable_of_iff' _ (Iff.of_eq (k0_chk139.eq_1 v1 v1724))
theorem k0_idx139_inb : ∀ (v1 : IVec S16 32) (v1724 : IVec S16 32) (k0_hw139 : k0_chk139 v1 v1724), ∀ a x, ((![v1, v1724] : Fin 2 → IVec S16 32) a x).toNat < S1x128.size a := fun v1 v1724 k0_hw139 => k0_hw139

def k0_chk140 (v1 : IVec S16 32) (v1735 : IVec S16 32) : Prop :=
  (∀ a x, ((![v1, v1735] : Fin 2 → IVec S16 32) a x).toNat < S1x128.size a)
instance k0_chk140.dec : ∀ (v1 : IVec S16 32) (v1735 : IVec S16 32), Decidable (k0_chk140 v1 v1735) := fun v1 v1735 => decidable_of_iff' _ (Iff.of_eq (k0_chk140.eq_1 v1 v1735))
theorem k0_idx140_inb : ∀ (v1 : IVec S16 32) (v1735 : IVec S16 32) (k0_hw140 : k0_chk140 v1 v1735), ∀ a x, ((![v1, v1735] : Fin 2 → IVec S16 32) a x).toNat < S1x128.size a := fun v1 v1735 k0_hw140 => k0_hw140

def k0_chk141 (v1 : IVec S16 32) (v1746 : IVec S16 32) : Prop :=
  (∀ a x, ((![v1, v1746] : Fin 2 → IVec S16 32) a x).toNat < S1x128.size a)
instance k0_chk141.dec : ∀ (v1 : IVec S16 32) (v1746 : IVec S16 32), Decidable (k0_chk141 v1 v1746) := fun v1 v1746 => decidable_of_iff' _ (Iff.of_eq (k0_chk141.eq_1 v1 v1746))
theorem k0_idx141_inb : ∀ (v1 : IVec S16 32) (v1746 : IVec S16 32) (k0_hw141 : k0_chk141 v1 v1746), ∀ a x, ((![v1, v1746] : Fin 2 → IVec S16 32) a x).toNat < S1x128.size a := fun v1 v1746 k0_hw141 => k0_hw141

def k0_chk142 (v1 : IVec S16 32) (v1757 : IVec S16 32) : Prop :=
  (∀ a x, ((![v1, v1757] : Fin 2 → IVec S16 32) a x).toNat < S1x128.size a)
instance k0_chk142.dec : ∀ (v1 : IVec S16 32) (v1757 : IVec S16 32), Decidable (k0_chk142 v1 v1757) := fun v1 v1757 => decidable_of_iff' _ (Iff.of_eq (k0_chk142.eq_1 v1 v1757))
theorem k0_idx142_inb : ∀ (v1 : IVec S16 32) (v1757 : IVec S16 32) (k0_hw142 : k0_chk142 v1 v1757), ∀ a x, ((![v1, v1757] : Fin 2 → IVec S16 32) a x).toNat < S1x128.size a := fun v1 v1757 k0_hw142 => k0_hw142

def k0_chk143 (v1 : IVec S16 32) (v1768 : IVec S16 32) : Prop :=
  (∀ a x, ((![v1, v1768] : Fin 2 → IVec S16 32) a x).toNat < S1x128.size a)
instance k0_chk143.dec : ∀ (v1 : IVec S16 32) (v1768 : IVec S16 32), Decidable (k0_chk143 v1 v1768) := fun v1 v1768 => decidable_of_iff' _ (Iff.of_eq (k0_chk143.eq_1 v1 v1768))
theorem k0_idx143_inb : ∀ (v1 : IVec S16 32) (v1768 : IVec S16 32) (k0_hw143 : k0_chk143 v1 v1768), ∀ a x, ((![v1, v1768] : Fin 2 → IVec S16 32) a x).toNat < S1x128.size a := fun v1 v1768 k0_hw143 => k0_hw143

def k0_chk144 (v1 : IVec S16 32) (v1779 : IVec S16 32) : Prop :=
  (∀ a x, ((![v1, v1779] : Fin 2 → IVec S16 32) a x).toNat < S1x128.size a)
instance k0_chk144.dec : ∀ (v1 : IVec S16 32) (v1779 : IVec S16 32), Decidable (k0_chk144 v1 v1779) := fun v1 v1779 => decidable_of_iff' _ (Iff.of_eq (k0_chk144.eq_1 v1 v1779))
theorem k0_idx144_inb : ∀ (v1 : IVec S16 32) (v1779 : IVec S16 32) (k0_hw144 : k0_chk144 v1 v1779), ∀ a x, ((![v1, v1779] : Fin 2 → IVec S16 32) a x).toNat < S1x128.size a := fun v1 v1779 k0_hw144 => k0_hw144

def k0_chk145 (v1 : IVec S16 32) (v1790 : IVec S16 32) : Prop :=
  (∀ a x, ((![v1, v1790] : Fin 2 → IVec S16 32) a x).toNat < S1x128.size a)
instance k0_chk145.dec : ∀ (v1 : IVec S16 32) (v1790 : IVec S16 32), Decidable (k0_chk145 v1 v1790) := fun v1 v1790 => decidable_of_iff' _ (Iff.of_eq (k0_chk145.eq_1 v1 v1790))
theorem k0_idx145_inb : ∀ (v1 : IVec S16 32) (v1790 : IVec S16 32) (k0_hw145 : k0_chk145 v1 v1790), ∀ a x, ((![v1, v1790] : Fin 2 → IVec S16 32) a x).toNat < S1x128.size a := fun v1 v1790 k0_hw145 => k0_hw145

def k0_chk146 (v1 : IVec S16 32) (v1801 : IVec S16 32) : Prop :=
  (∀ a x, ((![v1, v1801] : Fin 2 → IVec S16 32) a x).toNat < S1x128.size a)
instance k0_chk146.dec : ∀ (v1 : IVec S16 32) (v1801 : IVec S16 32), Decidable (k0_chk146 v1 v1801) := fun v1 v1801 => decidable_of_iff' _ (Iff.of_eq (k0_chk146.eq_1 v1 v1801))
theorem k0_idx146_inb : ∀ (v1 : IVec S16 32) (v1801 : IVec S16 32) (k0_hw146 : k0_chk146 v1 v1801), ∀ a x, ((![v1, v1801] : Fin 2 → IVec S16 32) a x).toNat < S1x128.size a := fun v1 v1801 k0_hw146 => k0_hw146

def k0_chk147 (v1 : IVec S16 32) (v1812 : IVec S16 32) : Prop :=
  (∀ a x, ((![v1, v1812] : Fin 2 → IVec S16 32) a x).toNat < S1x128.size a)
instance k0_chk147.dec : ∀ (v1 : IVec S16 32) (v1812 : IVec S16 32), Decidable (k0_chk147 v1 v1812) := fun v1 v1812 => decidable_of_iff' _ (Iff.of_eq (k0_chk147.eq_1 v1 v1812))
theorem k0_idx147_inb : ∀ (v1 : IVec S16 32) (v1812 : IVec S16 32) (k0_hw147 : k0_chk147 v1 v1812), ∀ a x, ((![v1, v1812] : Fin 2 → IVec S16 32) a x).toNat < S1x128.size a := fun v1 v1812 k0_hw147 => k0_hw147

def k0_chk148 (v1 : IVec S16 32) (v1823 : IVec S16 32) : Prop :=
  (∀ a x, ((![v1, v1823] : Fin 2 → IVec S16 32) a x).toNat < S1x128.size a)
instance k0_chk148.dec : ∀ (v1 : IVec S16 32) (v1823 : IVec S16 32), Decidable (k0_chk148 v1 v1823) := fun v1 v1823 => decidable_of_iff' _ (Iff.of_eq (k0_chk148.eq_1 v1 v1823))
theorem k0_idx148_inb : ∀ (v1 : IVec S16 32) (v1823 : IVec S16 32) (k0_hw148 : k0_chk148 v1 v1823), ∀ a x, ((![v1, v1823] : Fin 2 → IVec S16 32) a x).toNat < S1x128.size a := fun v1 v1823 k0_hw148 => k0_hw148

def k0_chk149 (v1 : IVec S16 32) (v1834 : IVec S16 32) : Prop :=
  (∀ a x, ((![v1, v1834] : Fin 2 → IVec S16 32) a x).toNat < S1x128.size a)
instance k0_chk149.dec : ∀ (v1 : IVec S16 32) (v1834 : IVec S16 32), Decidable (k0_chk149 v1 v1834) := fun v1 v1834 => decidable_of_iff' _ (Iff.of_eq (k0_chk149.eq_1 v1 v1834))
theorem k0_idx149_inb : ∀ (v1 : IVec S16 32) (v1834 : IVec S16 32) (k0_hw149 : k0_chk149 v1 v1834), ∀ a x, ((![v1, v1834] : Fin 2 → IVec S16 32) a x).toNat < S1x128.size a := fun v1 v1834 k0_hw149 => k0_hw149

def k0_chk150 (v1 : IVec S16 32) (v1845 : IVec S16 32) : Prop :=
  (∀ a x, ((![v1, v1845] : Fin 2 → IVec S16 32) a x).toNat < S1x128.size a)
instance k0_chk150.dec : ∀ (v1 : IVec S16 32) (v1845 : IVec S16 32), Decidable (k0_chk150 v1 v1845) := fun v1 v1845 => decidable_of_iff' _ (Iff.of_eq (k0_chk150.eq_1 v1 v1845))
theorem k0_idx150_inb : ∀ (v1 : IVec S16 32) (v1845 : IVec S16 32) (k0_hw150 : k0_chk150 v1 v1845), ∀ a x, ((![v1, v1845] : Fin 2 → IVec S16 32) a x).toNat < S1x128.size a := fun v1 v1845 k0_hw150 => k0_hw150

def k0_chk151 (v1 : IVec S16 32) (v1856 : IVec S16 32) : Prop :=
  (∀ a x, ((![v1, v1856] : Fin 2 → IVec S16 32) a x).toNat < S1x128.size a)
instance k0_chk151.dec : ∀ (v1 : IVec S16 32) (v1856 : IVec S16 32), Decidable (k0_chk151 v1 v1856) := fun v1 v1856 => decidable_of_iff' _ (Iff.of_eq (k0_chk151.eq_1 v1 v1856))
theorem k0_idx151_inb : ∀ (v1 : IVec S16 32) (v1856 : IVec S16 32) (k0_hw151 : k0_chk151 v1 v1856), ∀ a x, ((![v1, v1856] : Fin 2 → IVec S16 32) a x).toNat < S1x128.size a := fun v1 v1856 k0_hw151 => k0_hw151

def k0_chk152 (v1 : IVec S16 32) (v1867 : IVec S16 32) : Prop :=
  (∀ a x, ((![v1, v1867] : Fin 2 → IVec S16 32) a x).toNat < S1x128.size a)
instance k0_chk152.dec : ∀ (v1 : IVec S16 32) (v1867 : IVec S16 32), Decidable (k0_chk152 v1 v1867) := fun v1 v1867 => decidable_of_iff' _ (Iff.of_eq (k0_chk152.eq_1 v1 v1867))
theorem k0_idx152_inb : ∀ (v1 : IVec S16 32) (v1867 : IVec S16 32) (k0_hw152 : k0_chk152 v1 v1867), ∀ a x, ((![v1, v1867] : Fin 2 → IVec S16 32) a x).toNat < S1x128.size a := fun v1 v1867 k0_hw152 => k0_hw152

def k0_chk153 (v1 : IVec S16 32) (v1878 : IVec S16 32) : Prop :=
  (∀ a x, ((![v1, v1878] : Fin 2 → IVec S16 32) a x).toNat < S1x128.size a)
instance k0_chk153.dec : ∀ (v1 : IVec S16 32) (v1878 : IVec S16 32), Decidable (k0_chk153 v1 v1878) := fun v1 v1878 => decidable_of_iff' _ (Iff.of_eq (k0_chk153.eq_1 v1 v1878))
theorem k0_idx153_inb : ∀ (v1 : IVec S16 32) (v1878 : IVec S16 32) (k0_hw153 : k0_chk153 v1 v1878), ∀ a x, ((![v1, v1878] : Fin 2 → IVec S16 32) a x).toNat < S1x128.size a := fun v1 v1878 k0_hw153 => k0_hw153

def k0_chk154 (v1 : IVec S16 32) (v1889 : IVec S16 32) : Prop :=
  (∀ a x, ((![v1, v1889] : Fin 2 → IVec S16 32) a x).toNat < S1x128.size a)
instance k0_chk154.dec : ∀ (v1 : IVec S16 32) (v1889 : IVec S16 32), Decidable (k0_chk154 v1 v1889) := fun v1 v1889 => decidable_of_iff' _ (Iff.of_eq (k0_chk154.eq_1 v1 v1889))
theorem k0_idx154_inb : ∀ (v1 : IVec S16 32) (v1889 : IVec S16 32) (k0_hw154 : k0_chk154 v1 v1889), ∀ a x, ((![v1, v1889] : Fin 2 → IVec S16 32) a x).toNat < S1x128.size a := fun v1 v1889 k0_hw154 => k0_hw154

def k0_chk155 (v1 : IVec S16 32) (v1900 : IVec S16 32) : Prop :=
  (∀ a x, ((![v1, v1900] : Fin 2 → IVec S16 32) a x).toNat < S1x128.size a)
instance k0_chk155.dec : ∀ (v1 : IVec S16 32) (v1900 : IVec S16 32), Decidable (k0_chk155 v1 v1900) := fun v1 v1900 => decidable_of_iff' _ (Iff.of_eq (k0_chk155.eq_1 v1 v1900))
theorem k0_idx155_inb : ∀ (v1 : IVec S16 32) (v1900 : IVec S16 32) (k0_hw155 : k0_chk155 v1 v1900), ∀ a x, ((![v1, v1900] : Fin 2 → IVec S16 32) a x).toNat < S1x128.size a := fun v1 v1900 k0_hw155 => k0_hw155

def k0_chk156 (v1 : IVec S16 32) (v1911 : IVec S16 32) : Prop :=
  (∀ a x, ((![v1, v1911] : Fin 2 → IVec S16 32) a x).toNat < S1x128.size a)
instance k0_chk156.dec : ∀ (v1 : IVec S16 32) (v1911 : IVec S16 32), Decidable (k0_chk156 v1 v1911) := fun v1 v1911 => decidable_of_iff' _ (Iff.of_eq (k0_chk156.eq_1 v1 v1911))
theorem k0_idx156_inb : ∀ (v1 : IVec S16 32) (v1911 : IVec S16 32) (k0_hw156 : k0_chk156 v1 v1911), ∀ a x, ((![v1, v1911] : Fin 2 → IVec S16 32) a x).toNat < S1x128.size a := fun v1 v1911 k0_hw156 => k0_hw156

def k0_chk157 (v1 : IVec S16 32) (v1922 : IVec S16 32) : Prop :=
  (∀ a x, ((![v1, v1922] : Fin 2 → IVec S16 32) a x).toNat < S1x128.size a)
instance k0_chk157.dec : ∀ (v1 : IVec S16 32) (v1922 : IVec S16 32), Decidable (k0_chk157 v1 v1922) := fun v1 v1922 => decidable_of_iff' _ (Iff.of_eq (k0_chk157.eq_1 v1 v1922))
theorem k0_idx157_inb : ∀ (v1 : IVec S16 32) (v1922 : IVec S16 32) (k0_hw157 : k0_chk157 v1 v1922), ∀ a x, ((![v1, v1922] : Fin 2 → IVec S16 32) a x).toNat < S1x128.size a := fun v1 v1922 k0_hw157 => k0_hw157

def k0_chk158 (v1 : IVec S16 32) (v1933 : IVec S16 32) : Prop :=
  (∀ a x, ((![v1, v1933] : Fin 2 → IVec S16 32) a x).toNat < S1x128.size a)
instance k0_chk158.dec : ∀ (v1 : IVec S16 32) (v1933 : IVec S16 32), Decidable (k0_chk158 v1 v1933) := fun v1 v1933 => decidable_of_iff' _ (Iff.of_eq (k0_chk158.eq_1 v1 v1933))
theorem k0_idx158_inb : ∀ (v1 : IVec S16 32) (v1933 : IVec S16 32) (k0_hw158 : k0_chk158 v1 v1933), ∀ a x, ((![v1, v1933] : Fin 2 → IVec S16 32) a x).toNat < S1x128.size a := fun v1 v1933 k0_hw158 => k0_hw158

def k0_chk159 (v1 : IVec S16 32) (v1944 : IVec S16 32) : Prop :=
  (∀ a x, ((![v1, v1944] : Fin 2 → IVec S16 32) a x).toNat < S1x128.size a)
instance k0_chk159.dec : ∀ (v1 : IVec S16 32) (v1944 : IVec S16 32), Decidable (k0_chk159 v1 v1944) := fun v1 v1944 => decidable_of_iff' _ (Iff.of_eq (k0_chk159.eq_1 v1 v1944))
theorem k0_idx159_inb : ∀ (v1 : IVec S16 32) (v1944 : IVec S16 32) (k0_hw159 : k0_chk159 v1 v1944), ∀ a x, ((![v1, v1944] : Fin 2 → IVec S16 32) a x).toNat < S1x128.size a := fun v1 v1944 k0_hw159 => k0_hw159

def k0_chk160 (v1 : IVec S16 32) (v1955 : IVec S16 32) : Prop :=
  (∀ a x, ((![v1, v1955] : Fin 2 → IVec S16 32) a x).toNat < S1x128.size a)
instance k0_chk160.dec : ∀ (v1 : IVec S16 32) (v1955 : IVec S16 32), Decidable (k0_chk160 v1 v1955) := fun v1 v1955 => decidable_of_iff' _ (Iff.of_eq (k0_chk160.eq_1 v1 v1955))
theorem k0_idx160_inb : ∀ (v1 : IVec S16 32) (v1955 : IVec S16 32) (k0_hw160 : k0_chk160 v1 v1955), ∀ a x, ((![v1, v1955] : Fin 2 → IVec S16 32) a x).toNat < S1x128.size a := fun v1 v1955 k0_hw160 => k0_hw160

def k0_chk161 (v1 : IVec S16 32) (v1966 : IVec S16 32) : Prop :=
  (∀ a x, ((![v1, v1966] : Fin 2 → IVec S16 32) a x).toNat < S1x128.size a)
instance k0_chk161.dec : ∀ (v1 : IVec S16 32) (v1966 : IVec S16 32), Decidable (k0_chk161 v1 v1966) := fun v1 v1966 => decidable_of_iff' _ (Iff.of_eq (k0_chk161.eq_1 v1 v1966))
theorem k0_idx161_inb : ∀ (v1 : IVec S16 32) (v1966 : IVec S16 32) (k0_hw161 : k0_chk161 v1 v1966), ∀ a x, ((![v1, v1966] : Fin 2 → IVec S16 32) a x).toNat < S1x128.size a := fun v1 v1966 k0_hw161 => k0_hw161

def k0_chk162 (v1 : IVec S16 32) (v1977 : IVec S16 32) : Prop :=
  (∀ a x, ((![v1, v1977] : Fin 2 → IVec S16 32) a x).toNat < S1x128.size a)
instance k0_chk162.dec : ∀ (v1 : IVec S16 32) (v1977 : IVec S16 32), Decidable (k0_chk162 v1 v1977) := fun v1 v1977 => decidable_of_iff' _ (Iff.of_eq (k0_chk162.eq_1 v1 v1977))
theorem k0_idx162_inb : ∀ (v1 : IVec S16 32) (v1977 : IVec S16 32) (k0_hw162 : k0_chk162 v1 v1977), ∀ a x, ((![v1, v1977] : Fin 2 → IVec S16 32) a x).toNat < S1x128.size a := fun v1 v1977 k0_hw162 => k0_hw162

def k0_chk163 (v1 : IVec S16 32) (v1988 : IVec S16 32) : Prop :=
  (∀ a x, ((![v1, v1988] : Fin 2 → IVec S16 32) a x).toNat < S1x128.size a)
instance k0_chk163.dec : ∀ (v1 : IVec S16 32) (v1988 : IVec S16 32), Decidable (k0_chk163 v1 v1988) := fun v1 v1988 => decidable_of_iff' _ (Iff.of_eq (k0_chk163.eq_1 v1 v1988))
theorem k0_idx163_inb : ∀ (v1 : IVec S16 32) (v1988 : IVec S16 32) (k0_hw163 : k0_chk163 v1 v1988), ∀ a x, ((![v1, v1988] : Fin 2 → IVec S16 32) a x).toNat < S1x128.size a := fun v1 v1988 k0_hw163 => k0_hw163

def k0_chk164 (v1 : IVec S16 32) (v1999 : IVec S16 32) : Prop :=
  (∀ a x, ((![v1, v1999] : Fin 2 → IVec S16 32) a x).toNat < S1x128.size a)
instance k0_chk164.dec : ∀ (v1 : IVec S16 32) (v1999 : IVec S16 32), Decidable (k0_chk164 v1 v1999) := fun v1 v1999 => decidable_of_iff' _ (Iff.of_eq (k0_chk164.eq_1 v1 v1999))
theorem k0_idx164_inb : ∀ (v1 : IVec S16 32) (v1999 : IVec S16 32) (k0_hw164 : k0_chk164 v1 v1999), ∀ a x, ((![v1, v1999] : Fin 2 → IVec S16 32) a x).toNat < S1x128.size a := fun v1 v1999 k0_hw164 => k0_hw164

def k0_chk165 (v1 : IVec S16 32) (v2010 : IVec S16 32) : Prop :=
  (∀ a x, ((![v1, v2010] : Fin 2 → IVec S16 32) a x).toNat < S1x128.size a)
instance k0_chk165.dec : ∀ (v1 : IVec S16 32) (v2010 : IVec S16 32), Decidable (k0_chk165 v1 v2010) := fun v1 v2010 => decidable_of_iff' _ (Iff.of_eq (k0_chk165.eq_1 v1 v2010))
theorem k0_idx165_inb : ∀ (v1 : IVec S16 32) (v2010 : IVec S16 32) (k0_hw165 : k0_chk165 v1 v2010), ∀ a x, ((![v1, v2010] : Fin 2 → IVec S16 32) a x).toNat < S1x128.size a := fun v1 v2010 k0_hw165 => k0_hw165

def k0_chk166 (v1 : IVec S16 32) (v2021 : IVec S16 32) : Prop :=
  (∀ a x, ((![v1, v2021] : Fin 2 → IVec S16 32) a x).toNat < S1x128.size a)
instance k0_chk166.dec : ∀ (v1 : IVec S16 32) (v2021 : IVec S16 32), Decidable (k0_chk166 v1 v2021) := fun v1 v2021 => decidable_of_iff' _ (Iff.of_eq (k0_chk166.eq_1 v1 v2021))
theorem k0_idx166_inb : ∀ (v1 : IVec S16 32) (v2021 : IVec S16 32) (k0_hw166 : k0_chk166 v1 v2021), ∀ a x, ((![v1, v2021] : Fin 2 → IVec S16 32) a x).toNat < S1x128.size a := fun v1 v2021 k0_hw166 => k0_hw166

def k0_chk167 (v1 : IVec S16 32) (v2032 : IVec S16 32) : Prop :=
  (∀ a x, ((![v1, v2032] : Fin 2 → IVec S16 32) a x).toNat < S1x128.size a)
instance k0_chk167.dec : ∀ (v1 : IVec S16 32) (v2032 : IVec S16 32), Decidable (k0_chk167 v1 v2032) := fun v1 v2032 => decidable_of_iff' _ (Iff.of_eq (k0_chk167.eq_1 v1 v2032))
theorem k0_idx167_inb : ∀ (v1 : IVec S16 32) (v2032 : IVec S16 32) (k0_hw167 : k0_chk167 v1 v2032), ∀ a x, ((![v1, v2032] : Fin 2 → IVec S16 32) a x).toNat < S1x128.size a := fun v1 v2032 k0_hw167 => k0_hw167

def k0_chk168 (v1 : IVec S16 32) (v2043 : IVec S16 32) : Prop :=
  (∀ a x, ((![v1, v2043] : Fin 2 → IVec S16 32) a x).toNat < S1x128.size a)
instance k0_chk168.dec : ∀ (v1 : IVec S16 32) (v2043 : IVec S16 32), Decidable (k0_chk168 v1 v2043) := fun v1 v2043 => decidable_of_iff' _ (Iff.of_eq (k0_chk168.eq_1 v1 v2043))
theorem k0_idx168_inb : ∀ (v1 : IVec S16 32) (v2043 : IVec S16 32) (k0_hw168 : k0_chk168 v1 v2043), ∀ a x, ((![v1, v2043] : Fin 2 → IVec S16 32) a x).toNat < S1x128.size a := fun v1 v2043 k0_hw168 => k0_hw168

def k0_chk169 (v1 : IVec S16 32) (v2054 : IVec S16 32) : Prop :=
  (∀ a x, ((![v1, v2054] : Fin 2 → IVec S16 32) a x).toNat < S1x128.size a)
instance k0_chk169.dec : ∀ (v1 : IVec S16 32) (v2054 : IVec S16 32), Decidable (k0_chk169 v1 v2054) := fun v1 v2054 => decidable_of_iff' _ (Iff.of_eq (k0_chk169.eq_1 v1 v2054))
theorem k0_idx169_inb : ∀ (v1 : IVec S16 32) (v2054 : IVec S16 32) (k0_hw169 : k0_chk169 v1 v2054), ∀ a x, ((![v1, v2054] : Fin 2 → IVec S16 32) a x).toNat < S1x128.size a := fun v1 v2054 k0_hw169 => k0_hw169

def k0_chk170 (v1 : IVec S16 32) (v2065 : IVec S16 32) : Prop :=
  (∀ a x, ((![v1, v2065] : Fin 2 → IVec S16 32) a x).toNat < S1x128.size a)
instance k0_chk170.dec : ∀ (v1 : IVec S16 32) (v2065 : IVec S16 32), Decidable (k0_chk170 v1 v2065) := fun v1 v2065 => decidable_of_iff' _ (Iff.of_eq (k0_chk170.eq_1 v1 v2065))
theorem k0_idx170_inb : ∀ (v1 : IVec S16 32) (v2065 : IVec S16 32) (k0_hw170 : k0_chk170 v1 v2065), ∀ a x, ((![v1, v2065] : Fin 2 → IVec S16 32) a x).toNat < S1x128.size a := fun v1 v2065 k0_hw170 => k0_hw170

def k0_chk171 (v1 : IVec S16 32) (v2076 : IVec S16 32) : Prop :=
  (∀ a x, ((![v1, v2076] : Fin 2 → IVec S16 32) a x).toNat < S1x128.size a)
instance k0_chk171.dec : ∀ (v1 : IVec S16 32) (v2076 : IVec S16 32), Decidable (k0_chk171 v1 v2076) := fun v1 v2076 => decidable_of_iff' _ (Iff.of_eq (k0_chk171.eq_1 v1 v2076))
theorem k0_idx171_inb : ∀ (v1 : IVec S16 32) (v2076 : IVec S16 32) (k0_hw171 : k0_chk171 v1 v2076), ∀ a x, ((![v1, v2076] : Fin 2 → IVec S16 32) a x).toNat < S1x128.size a := fun v1 v2076 k0_hw171 => k0_hw171

def k0_chk172 (v1 : IVec S16 32) (v2087 : IVec S16 32) : Prop :=
  (∀ a x, ((![v1, v2087] : Fin 2 → IVec S16 32) a x).toNat < S1x128.size a)
instance k0_chk172.dec : ∀ (v1 : IVec S16 32) (v2087 : IVec S16 32), Decidable (k0_chk172 v1 v2087) := fun v1 v2087 => decidable_of_iff' _ (Iff.of_eq (k0_chk172.eq_1 v1 v2087))
theorem k0_idx172_inb : ∀ (v1 : IVec S16 32) (v2087 : IVec S16 32) (k0_hw172 : k0_chk172 v1 v2087), ∀ a x, ((![v1, v2087] : Fin 2 → IVec S16 32) a x).toNat < S1x128.size a := fun v1 v2087 k0_hw172 => k0_hw172

def k0_chk173 (v1 : IVec S16 32) (v2098 : IVec S16 32) : Prop :=
  (∀ a x, ((![v1, v2098] : Fin 2 → IVec S16 32) a x).toNat < S1x128.size a)
instance k0_chk173.dec : ∀ (v1 : IVec S16 32) (v2098 : IVec S16 32), Decidable (k0_chk173 v1 v2098) := fun v1 v2098 => decidable_of_iff' _ (Iff.of_eq (k0_chk173.eq_1 v1 v2098))
theorem k0_idx173_inb : ∀ (v1 : IVec S16 32) (v2098 : IVec S16 32) (k0_hw173 : k0_chk173 v1 v2098), ∀ a x, ((![v1, v2098] : Fin 2 → IVec S16 32) a x).toNat < S1x128.size a := fun v1 v2098 k0_hw173 => k0_hw173

def k0_chk174 (v1 : IVec S16 32) (v2109 : IVec S16 32) : Prop :=
  (∀ a x, ((![v1, v2109] : Fin 2 → IVec S16 32) a x).toNat < S1x128.size a)
instance k0_chk174.dec : ∀ (v1 : IVec S16 32) (v2109 : IVec S16 32), Decidable (k0_chk174 v1 v2109) := fun v1 v2109 => decidable_of_iff' _ (Iff.of_eq (k0_chk174.eq_1 v1 v2109))
theorem k0_idx174_inb : ∀ (v1 : IVec S16 32) (v2109 : IVec S16 32) (k0_hw174 : k0_chk174 v1 v2109), ∀ a x, ((![v1, v2109] : Fin 2 → IVec S16 32) a x).toNat < S1x128.size a := fun v1 v2109 k0_hw174 => k0_hw174

def k0_chk175 (v1 : IVec S16 32) (v2120 : IVec S16 32) : Prop :=
  (∀ a x, ((![v1, v2120] : Fin 2 → IVec S16 32) a x).toNat < S1x128.size a)
instance k0_chk175.dec : ∀ (v1 : IVec S16 32) (v2120 : IVec S16 32), Decidable (k0_chk175 v1 v2120) := fun v1 v2120 => decidable_of_iff' _ (Iff.of_eq (k0_chk175.eq_1 v1 v2120))
theorem k0_idx175_inb : ∀ (v1 : IVec S16 32) (v2120 : IVec S16 32) (k0_hw175 : k0_chk175 v1 v2120), ∀ a x, ((![v1, v2120] : Fin 2 → IVec S16 32) a x).toNat < S1x128.size a := fun v1 v2120 k0_hw175 => k0_hw175

def k0_chk176 (v1 : IVec S16 32) (v2131 : IVec S16 32) : Prop :=
  (∀ a x, ((![v1, v2131] : Fin 2 → IVec S16 32) a x).toNat < S1x128.size a)
instance k0_chk176.dec : ∀ (v1 : IVec S16 32) (v2131 : IVec S16 32), Decidable (k0_chk176 v1 v2131) := fun v1 v2131 => decidable_of_iff' _ (Iff.of_eq (k0_chk176.eq_1 v1 v2131))
theorem k0_idx176_inb : ∀ (v1 : IVec S16 32) (v2131 : IVec S16 32) (k0_hw176 : k0_chk176 v1 v2131), ∀ a x, ((![v1, v2131] : Fin 2 → IVec S16 32) a x).toNat < S1x128.size a := fun v1 v2131 k0_hw176 => k0_hw176

def k0_chk177 (v1 : IVec S16 32) (v2142 : IVec S16 32) : Prop :=
  (∀ a x, ((![v1, v2142] : Fin 2 → IVec S16 32) a x).toNat < S1x128.size a)
instance k0_chk177.dec : ∀ (v1 : IVec S16 32) (v2142 : IVec S16 32), Decidable (k0_chk177 v1 v2142) := fun v1 v2142 => decidable_of_iff' _ (Iff.of_eq (k0_chk177.eq_1 v1 v2142))
theorem k0_idx177_inb : ∀ (v1 : IVec S16 32) (v2142 : IVec S16 32) (k0_hw177 : k0_chk177 v1 v2142), ∀ a x, ((![v1, v2142] : Fin 2 → IVec S16 32) a x).toNat < S1x128.size a := fun v1 v2142 k0_hw177 => k0_hw177

def k0_chk178 (v1 : IVec S16 32) (v2153 : IVec S16 32) : Prop :=
  (∀ a x, ((![v1, v2153] : Fin 2 → IVec S16 32) a x).toNat < S1x128.size a)
instance k0_chk178.dec : ∀ (v1 : IVec S16 32) (v2153 : IVec S16 32), Decidable (k0_chk178 v1 v2153) := fun v1 v2153 => decidable_of_iff' _ (Iff.of_eq (k0_chk178.eq_1 v1 v2153))
theorem k0_idx178_inb : ∀ (v1 : IVec S16 32) (v2153 : IVec S16 32) (k0_hw178 : k0_chk178 v1 v2153), ∀ a x, ((![v1, v2153] : Fin 2 → IVec S16 32) a x).toNat < S1x128.size a := fun v1 v2153 k0_hw178 => k0_hw178

def k0_chk179 (v1 : IVec S16 32) (v2164 : IVec S16 32) : Prop :=
  (∀ a x, ((![v1, v2164] : Fin 2 → IVec S16 32) a x).toNat < S1x128.size a)
instance k0_chk179.dec : ∀ (v1 : IVec S16 32) (v2164 : IVec S16 32), Decidable (k0_chk179 v1 v2164) := fun v1 v2164 => decidable_of_iff' _ (Iff.of_eq (k0_chk179.eq_1 v1 v2164))
theorem k0_idx179_inb : ∀ (v1 : IVec S16 32) (v2164 : IVec S16 32) (k0_hw179 : k0_chk179 v1 v2164), ∀ a x, ((![v1, v2164] : Fin 2 → IVec S16 32) a x).toNat < S1x128.size a := fun v1 v2164 k0_hw179 => k0_hw179

def k0_chk180 (v1 : IVec S16 32) (v2175 : IVec S16 32) : Prop :=
  (∀ a x, ((![v1, v2175] : Fin 2 → IVec S16 32) a x).toNat < S1x128.size a)
instance k0_chk180.dec : ∀ (v1 : IVec S16 32) (v2175 : IVec S16 32), Decidable (k0_chk180 v1 v2175) := fun v1 v2175 => decidable_of_iff' _ (Iff.of_eq (k0_chk180.eq_1 v1 v2175))
theorem k0_idx180_inb : ∀ (v1 : IVec S16 32) (v2175 : IVec S16 32) (k0_hw180 : k0_chk180 v1 v2175), ∀ a x, ((![v1, v2175] : Fin 2 → IVec S16 32) a x).toNat < S1x128.size a := fun v1 v2175 k0_hw180 => k0_hw180

def k0_chk181 (v1 : IVec S16 32) (v2186 : IVec S16 32) : Prop :=
  (∀ a x, ((![v1, v2186] : Fin 2 → IVec S16 32) a x).toNat < S1x128.size a)
instance k0_chk181.dec : ∀ (v1 : IVec S16 32) (v2186 : IVec S16 32), Decidable (k0_chk181 v1 v2186) := fun v1 v2186 => decidable_of_iff' _ (Iff.of_eq (k0_chk181.eq_1 v1 v2186))
theorem k0_idx181_inb : ∀ (v1 : IVec S16 32) (v2186 : IVec S16 32) (k0_hw181 : k0_chk181 v1 v2186), ∀ a x, ((![v1, v2186] : Fin 2 → IVec S16 32) a x).toNat < S1x128.size a := fun v1 v2186 k0_hw181 => k0_hw181

def k0_chk182 (v1 : IVec S16 32) (v2197 : IVec S16 32) : Prop :=
  (∀ a x, ((![v1, v2197] : Fin 2 → IVec S16 32) a x).toNat < S1x128.size a)
instance k0_chk182.dec : ∀ (v1 : IVec S16 32) (v2197 : IVec S16 32), Decidable (k0_chk182 v1 v2197) := fun v1 v2197 => decidable_of_iff' _ (Iff.of_eq (k0_chk182.eq_1 v1 v2197))
theorem k0_idx182_inb : ∀ (v1 : IVec S16 32) (v2197 : IVec S16 32) (k0_hw182 : k0_chk182 v1 v2197), ∀ a x, ((![v1, v2197] : Fin 2 → IVec S16 32) a x).toNat < S1x128.size a := fun v1 v2197 k0_hw182 => k0_hw182

def k0_chk183 (v1 : IVec S16 32) (v2208 : IVec S16 32) : Prop :=
  (∀ a x, ((![v1, v2208] : Fin 2 → IVec S16 32) a x).toNat < S1x128.size a)
instance k0_chk183.dec : ∀ (v1 : IVec S16 32) (v2208 : IVec S16 32), Decidable (k0_chk183 v1 v2208) := fun v1 v2208 => decidable_of_iff' _ (Iff.of_eq (k0_chk183.eq_1 v1 v2208))
theorem k0_idx183_inb : ∀ (v1 : IVec S16 32) (v2208 : IVec S16 32) (k0_hw183 : k0_chk183 v1 v2208), ∀ a x, ((![v1, v2208] : Fin 2 → IVec S16 32) a x).toNat < S1x128.size a := fun v1 v2208 k0_hw183 => k0_hw183

def k0_chk184 (v1 : IVec S16 32) (v2219 : IVec S16 32) : Prop :=
  (∀ a x, ((![v1, v2219] : Fin 2 → IVec S16 32) a x).toNat < S1x128.size a)
instance k0_chk184.dec : ∀ (v1 : IVec S16 32) (v2219 : IVec S16 32), Decidable (k0_chk184 v1 v2219) := fun v1 v2219 => decidable_of_iff' _ (Iff.of_eq (k0_chk184.eq_1 v1 v2219))
theorem k0_idx184_inb : ∀ (v1 : IVec S16 32) (v2219 : IVec S16 32) (k0_hw184 : k0_chk184 v1 v2219), ∀ a x, ((![v1, v2219] : Fin 2 → IVec S16 32) a x).toNat < S1x128.size a := fun v1 v2219 k0_hw184 => k0_hw184

def k0_chk185 (v1 : IVec S16 32) (v2230 : IVec S16 32) : Prop :=
  (∀ a x, ((![v1, v2230] : Fin 2 → IVec S16 32) a x).toNat < S1x128.size a)
instance k0_chk185.dec : ∀ (v1 : IVec S16 32) (v2230 : IVec S16 32), Decidable (k0_chk185 v1 v2230) := fun v1 v2230 => decidable_of_iff' _ (Iff.of_eq (k0_chk185.eq_1 v1 v2230))
theorem k0_idx185_inb : ∀ (v1 : IVec S16 32) (v2230 : IVec S16 32) (k0_hw185 : k0_chk185 v1 v2230), ∀ a x, ((![v1, v2230] : Fin 2 → IVec S16 32) a x).toNat < S1x128.size a := fun v1 v2230 k0_hw185 => k0_hw185

def k0_chk186 (v1 : IVec S16 32) (v2241 : IVec S16 32) : Prop :=
  (∀ a x, ((![v1, v2241] : Fin 2 → IVec S16 32) a x).toNat < S1x128.size a)
instance k0_chk186.dec : ∀ (v1 : IVec S16 32) (v2241 : IVec S16 32), Decidable (k0_chk186 v1 v2241) := fun v1 v2241 => decidable_of_iff' _ (Iff.of_eq (k0_chk186.eq_1 v1 v2241))
theorem k0_idx186_inb : ∀ (v1 : IVec S16 32) (v2241 : IVec S16 32) (k0_hw186 : k0_chk186 v1 v2241), ∀ a x, ((![v1, v2241] : Fin 2 → IVec S16 32) a x).toNat < S1x128.size a := fun v1 v2241 k0_hw186 => k0_hw186

def k0_chk187 (v1 : IVec S16 32) (v2252 : IVec S16 32) : Prop :=
  (∀ a x, ((![v1, v2252] : Fin 2 → IVec S16 32) a x).toNat < S1x128.size a)
instance k0_chk187.dec : ∀ (v1 : IVec S16 32) (v2252 : IVec S16 32), Decidable (k0_chk187 v1 v2252) := fun v1 v2252 => decidable_of_iff' _ (Iff.of_eq (k0_chk187.eq_1 v1 v2252))
theorem k0_idx187_inb : ∀ (v1 : IVec S16 32) (v2252 : IVec S16 32) (k0_hw187 : k0_chk187 v1 v2252), ∀ a x, ((![v1, v2252] : Fin 2 → IVec S16 32) a x).toNat < S1x128.size a := fun v1 v2252 k0_hw187 => k0_hw187

def k0_chk188 (v1 : IVec S16 32) (v2263 : IVec S16 32) : Prop :=
  (∀ a x, ((![v1, v2263] : Fin 2 → IVec S16 32) a x).toNat < S1x128.size a)
instance k0_chk188.dec : ∀ (v1 : IVec S16 32) (v2263 : IVec S16 32), Decidable (k0_chk188 v1 v2263) := fun v1 v2263 => decidable_of_iff' _ (Iff.of_eq (k0_chk188.eq_1 v1 v2263))
theorem k0_idx188_inb : ∀ (v1 : IVec S16 32) (v2263 : IVec S16 32) (k0_hw188 : k0_chk188 v1 v2263), ∀ a x, ((![v1, v2263] : Fin 2 → IVec S16 32) a x).toNat < S1x128.size a := fun v1 v2263 k0_hw188 => k0_hw188

def k0_chk189 (v1 : IVec S16 32) (v2274 : IVec S16 32) : Prop :=
  (∀ a x, ((![v1, v2274] : Fin 2 → IVec S16 32) a x).toNat < S1x128.size a)
instance k0_chk189.dec : ∀ (v1 : IVec S16 32) (v2274 : IVec S16 32), Decidable (k0_chk189 v1 v2274) := fun v1 v2274 => decidable_of_iff' _ (Iff.of_eq (k0_chk189.eq_1 v1 v2274))
theorem k0_idx189_inb : ∀ (v1 : IVec S16 32) (v2274 : IVec S16 32) (k0_hw189 : k0_chk189 v1 v2274), ∀ a x, ((![v1, v2274] : Fin 2 → IVec S16 32) a x).toNat < S1x128.size a := fun v1 v2274 k0_hw189 => k0_hw189

def k0_chk190 (v1 : IVec S16 32) (v2285 : IVec S16 32) : Prop :=
  (∀ a x, ((![v1, v2285] : Fin 2 → IVec S16 32) a x).toNat < S1x128.size a)
instance k0_chk190.dec : ∀ (v1 : IVec S16 32) (v2285 : IVec S16 32), Decidable (k0_chk190 v1 v2285) := fun v1 v2285 => decidable_of_iff' _ (Iff.of_eq (k0_chk190.eq_1 v1 v2285))
theorem k0_idx190_inb : ∀ (v1 : IVec S16 32) (v2285 : IVec S16 32) (k0_hw190 : k0_chk190 v1 v2285), ∀ a x, ((![v1, v2285] : Fin 2 → IVec S16 32) a x).toNat < S1x128.size a := fun v1 v2285 k0_hw190 => k0_hw190

def k0_chk191 (v1 : IVec S16 32) (v2296 : IVec S16 32) : Prop :=
  (∀ a x, ((![v1, v2296] : Fin 2 → IVec S16 32) a x).toNat < S1x128.size a)
instance k0_chk191.dec : ∀ (v1 : IVec S16 32) (v2296 : IVec S16 32), Decidable (k0_chk191 v1 v2296) := fun v1 v2296 => decidable_of_iff' _ (Iff.of_eq (k0_chk191.eq_1 v1 v2296))
theorem k0_idx191_inb : ∀ (v1 : IVec S16 32) (v2296 : IVec S16 32) (k0_hw191 : k0_chk191 v1 v2296), ∀ a x, ((![v1, v2296] : Fin 2 → IVec S16 32) a x).toNat < S1x128.size a := fun v1 v2296 k0_hw191 => k0_hw191

def k0_chk192 (v1 : IVec S16 32) (v2307 : IVec S16 32) : Prop :=
  (∀ a x, ((![v1, v2307] : Fin 2 → IVec S16 32) a x).toNat < S1x128.size a)
instance k0_chk192.dec : ∀ (v1 : IVec S16 32) (v2307 : IVec S16 32), Decidable (k0_chk192 v1 v2307) := fun v1 v2307 => decidable_of_iff' _ (Iff.of_eq (k0_chk192.eq_1 v1 v2307))
theorem k0_idx192_inb : ∀ (v1 : IVec S16 32) (v2307 : IVec S16 32) (k0_hw192 : k0_chk192 v1 v2307), ∀ a x, ((![v1, v2307] : Fin 2 → IVec S16 32) a x).toNat < S1x128.size a := fun v1 v2307 k0_hw192 => k0_hw192

def k0_chk193 (v1 : IVec S16 32) (v2318 : IVec S16 32) : Prop :=
  (∀ a x, ((![v1, v2318] : Fin 2 → IVec S16 32) a x).toNat < S1x128.size a)
instance k0_chk193.dec : ∀ (v1 : IVec S16 32) (v2318 : IVec S16 32), Decidable (k0_chk193 v1 v2318) := fun v1 v2318 => decidable_of_iff' _ (Iff.of_eq (k0_chk193.eq_1 v1 v2318))
theorem k0_idx193_inb : ∀ (v1 : IVec S16 32) (v2318 : IVec S16 32) (k0_hw193 : k0_chk193 v1 v2318), ∀ a x, ((![v1, v2318] : Fin 2 → IVec S16 32) a x).toNat < S1x128.size a := fun v1 v2318 k0_hw193 => k0_hw193

def k0_chk194 (v1 : IVec S16 32) (v2329 : IVec S16 32) : Prop :=
  (∀ a x, ((![v1, v2329] : Fin 2 → IVec S16 32) a x).toNat < S1x128.size a)
instance k0_chk194.dec : ∀ (v1 : IVec S16 32) (v2329 : IVec S16 32), Decidable (k0_chk194 v1 v2329) := fun v1 v2329 => decidable_of_iff' _ (Iff.of_eq (k0_chk194.eq_1 v1 v2329))
theorem k0_idx194_inb : ∀ (v1 : IVec S16 32) (v2329 : IVec S16 32) (k0_hw194 : k0_chk194 v1 v2329), ∀ a x, ((![v1, v2329] : Fin 2 → IVec S16 32) a x).toNat < S1x128.size a := fun v1 v2329 k0_hw194 => k0_hw194

def k0_chk195 (v1 : IVec S16 32) (v2340 : IVec S16 32) : Prop :=
  (∀ a x, ((![v1, v2340] : Fin 2 → IVec S16 32) a x).toNat < S1x128.size a)
instance k0_chk195.dec : ∀ (v1 : IVec S16 32) (v2340 : IVec S16 32), Decidable (k0_chk195 v1 v2340) := fun v1 v2340 => decidable_of_iff' _ (Iff.of_eq (k0_chk195.eq_1 v1 v2340))
theorem k0_idx195_inb : ∀ (v1 : IVec S16 32) (v2340 : IVec S16 32) (k0_hw195 : k0_chk195 v1 v2340), ∀ a x, ((![v1, v2340] : Fin 2 → IVec S16 32) a x).toNat < S1x128.size a := fun v1 v2340 k0_hw195 => k0_hw195

def k0_chk196 (v1 : IVec S16 32) (v2351 : IVec S16 32) : Prop :=
  (∀ a x, ((![v1, v2351] : Fin 2 → IVec S16 32) a x).toNat < S1x128.size a)
instance k0_chk196.dec : ∀ (v1 : IVec S16 32) (v2351 : IVec S16 32), Decidable (k0_chk196 v1 v2351) := fun v1 v2351 => decidable_of_iff' _ (Iff.of_eq (k0_chk196.eq_1 v1 v2351))
theorem k0_idx196_inb : ∀ (v1 : IVec S16 32) (v2351 : IVec S16 32) (k0_hw196 : k0_chk196 v1 v2351), ∀ a x, ((![v1, v2351] : Fin 2 → IVec S16 32) a x).toNat < S1x128.size a := fun v1 v2351 k0_hw196 => k0_hw196

def k0_chk197 (v1 : IVec S16 32) (v2362 : IVec S16 32) : Prop :=
  (∀ a x, ((![v1, v2362] : Fin 2 → IVec S16 32) a x).toNat < S1x128.size a)
instance k0_chk197.dec : ∀ (v1 : IVec S16 32) (v2362 : IVec S16 32), Decidable (k0_chk197 v1 v2362) := fun v1 v2362 => decidable_of_iff' _ (Iff.of_eq (k0_chk197.eq_1 v1 v2362))
theorem k0_idx197_inb : ∀ (v1 : IVec S16 32) (v2362 : IVec S16 32) (k0_hw197 : k0_chk197 v1 v2362), ∀ a x, ((![v1, v2362] : Fin 2 → IVec S16 32) a x).toNat < S1x128.size a := fun v1 v2362 k0_hw197 => k0_hw197

def k0_chk198 (v1 : IVec S16 32) (v2373 : IVec S16 32) : Prop :=
  (∀ a x, ((![v1, v2373] : Fin 2 → IVec S16 32) a x).toNat < S1x128.size a)
instance k0_chk198.dec : ∀ (v1 : IVec S16 32) (v2373 : IVec S16 32), Decidable (k0_chk198 v1 v2373) := fun v1 v2373 => decidable_of_iff' _ (Iff.of_eq (k0_chk198.eq_1 v1 v2373))
theorem k0_idx198_inb : ∀ (v1 : IVec S16 32) (v2373 : IVec S16 32) (k0_hw198 : k0_chk198 v1 v2373), ∀ a x, ((![v1, v2373] : Fin 2 → IVec S16 32) a x).toNat < S1x128.size a := fun v1 v2373 k0_hw198 => k0_hw198

def k0_chk199 (v1 : IVec S16 32) (v2384 : IVec S16 32) : Prop :=
  (∀ a x, ((![v1, v2384] : Fin 2 → IVec S16 32) a x).toNat < S1x128.size a)
instance k0_chk199.dec : ∀ (v1 : IVec S16 32) (v2384 : IVec S16 32), Decidable (k0_chk199 v1 v2384) := fun v1 v2384 => decidable_of_iff' _ (Iff.of_eq (k0_chk199.eq_1 v1 v2384))
theorem k0_idx199_inb : ∀ (v1 : IVec S16 32) (v2384 : IVec S16 32) (k0_hw199 : k0_chk199 v1 v2384), ∀ a x, ((![v1, v2384] : Fin 2 → IVec S16 32) a x).toNat < S1x128.size a := fun v1 v2384 k0_hw199 => k0_hw199

def k0_chk200 (v1 : IVec S16 32) (v2395 : IVec S16 32) : Prop :=
  (∀ a x, ((![v1, v2395] : Fin 2 → IVec S16 32) a x).toNat < S1x128.size a)
instance k0_chk200.dec : ∀ (v1 : IVec S16 32) (v2395 : IVec S16 32), Decidable (k0_chk200 v1 v2395) := fun v1 v2395 => decidable_of_iff' _ (Iff.of_eq (k0_chk200.eq_1 v1 v2395))
theorem k0_idx200_inb : ∀ (v1 : IVec S16 32) (v2395 : IVec S16 32) (k0_hw200 : k0_chk200 v1 v2395), ∀ a x, ((![v1, v2395] : Fin 2 → IVec S16 32) a x).toNat < S1x128.size a := fun v1 v2395 k0_hw200 => k0_hw200

def k0_chk201 (v1 : IVec S16 32) (v2406 : IVec S16 32) : Prop :=
  (∀ a x, ((![v1, v2406] : Fin 2 → IVec S16 32) a x).toNat < S1x128.size a)
instance k0_chk201.dec : ∀ (v1 : IVec S16 32) (v2406 : IVec S16 32), Decidable (k0_chk201 v1 v2406) := fun v1 v2406 => decidable_of_iff' _ (Iff.of_eq (k0_chk201.eq_1 v1 v2406))
theorem k0_idx201_inb : ∀ (v1 : IVec S16 32) (v2406 : IVec S16 32) (k0_hw201 : k0_chk201 v1 v2406), ∀ a x, ((![v1, v2406] : Fin 2 → IVec S16 32) a x).toNat < S1x128.size a := fun v1 v2406 k0_hw201 => k0_hw201

def k0_chk202 (v1 : IVec S16 32) (v2417 : IVec S16 32) : Prop :=
  (∀ a x, ((![v1, v2417] : Fin 2 → IVec S16 32) a x).toNat < S1x128.size a)
instance k0_chk202.dec : ∀ (v1 : IVec S16 32) (v2417 : IVec S16 32), Decidable (k0_chk202 v1 v2417) := fun v1 v2417 => decidable_of_iff' _ (Iff.of_eq (k0_chk202.eq_1 v1 v2417))
theorem k0_idx202_inb : ∀ (v1 : IVec S16 32) (v2417 : IVec S16 32) (k0_hw202 : k0_chk202 v1 v2417), ∀ a x, ((![v1, v2417] : Fin 2 → IVec S16 32) a x).toNat < S1x128.size a := fun v1 v2417 k0_hw202 => k0_hw202

def k0_chk203 (v1 : IVec S16 32) (v2428 : IVec S16 32) : Prop :=
  (∀ a x, ((![v1, v2428] : Fin 2 → IVec S16 32) a x).toNat < S1x128.size a)
instance k0_chk203.dec : ∀ (v1 : IVec S16 32) (v2428 : IVec S16 32), Decidable (k0_chk203 v1 v2428) := fun v1 v2428 => decidable_of_iff' _ (Iff.of_eq (k0_chk203.eq_1 v1 v2428))
theorem k0_idx203_inb : ∀ (v1 : IVec S16 32) (v2428 : IVec S16 32) (k0_hw203 : k0_chk203 v1 v2428), ∀ a x, ((![v1, v2428] : Fin 2 → IVec S16 32) a x).toNat < S1x128.size a := fun v1 v2428 k0_hw203 => k0_hw203

def k0_chk204 (v1 : IVec S16 32) (v2439 : IVec S16 32) : Prop :=
  (∀ a x, ((![v1, v2439] : Fin 2 → IVec S16 32) a x).toNat < S1x128.size a)
instance k0_chk204.dec : ∀ (v1 : IVec S16 32) (v2439 : IVec S16 32), Decidable (k0_chk204 v1 v2439) := fun v1 v2439 => decidable_of_iff' _ (Iff.of_eq (k0_chk204.eq_1 v1 v2439))
theorem k0_idx204_inb : ∀ (v1 : IVec S16 32) (v2439 : IVec S16 32) (k0_hw204 : k0_chk204 v1 v2439), ∀ a x, ((![v1, v2439] : Fin 2 → IVec S16 32) a x).toNat < S1x128.size a := fun v1 v2439 k0_hw204 => k0_hw204

def k0_chk205 (v1 : IVec S16 32) (v2450 : IVec S16 32) : Prop :=
  (∀ a x, ((![v1, v2450] : Fin 2 → IVec S16 32) a x).toNat < S1x128.size a)
instance k0_chk205.dec : ∀ (v1 : IVec S16 32) (v2450 : IVec S16 32), Decidable (k0_chk205 v1 v2450) := fun v1 v2450 => decidable_of_iff' _ (Iff.of_eq (k0_chk205.eq_1 v1 v2450))
theorem k0_idx205_inb : ∀ (v1 : IVec S16 32) (v2450 : IVec S16 32) (k0_hw205 : k0_chk205 v1 v2450), ∀ a x, ((![v1, v2450] : Fin 2 → IVec S16 32) a x).toNat < S1x128.size a := fun v1 v2450 k0_hw205 => k0_hw205

def k0_chk206 (v1 : IVec S16 32) (v2461 : IVec S16 32) : Prop :=
  (∀ a x, ((![v1, v2461] : Fin 2 → IVec S16 32) a x).toNat < S1x128.size a)
instance k0_chk206.dec : ∀ (v1 : IVec S16 32) (v2461 : IVec S16 32), Decidable (k0_chk206 v1 v2461) := fun v1 v2461 => decidable_of_iff' _ (Iff.of_eq (k0_chk206.eq_1 v1 v2461))
theorem k0_idx206_inb : ∀ (v1 : IVec S16 32) (v2461 : IVec S16 32) (k0_hw206 : k0_chk206 v1 v2461), ∀ a x, ((![v1, v2461] : Fin 2 → IVec S16 32) a x).toNat < S1x128.size a := fun v1 v2461 k0_hw206 => k0_hw206

def k0_chk207 (v1 : IVec S16 32) (v2472 : IVec S16 32) : Prop :=
  (∀ a x, ((![v1, v2472] : Fin 2 → IVec S16 32) a x).toNat < S1x128.size a)
instance k0_chk207.dec : ∀ (v1 : IVec S16 32) (v2472 : IVec S16 32), Decidable (k0_chk207 v1 v2472) := fun v1 v2472 => decidable_of_iff' _ (Iff.of_eq (k0_chk207.eq_1 v1 v2472))
theorem k0_idx207_inb : ∀ (v1 : IVec S16 32) (v2472 : IVec S16 32) (k0_hw207 : k0_chk207 v1 v2472), ∀ a x, ((![v1, v2472] : Fin 2 → IVec S16 32) a x).toNat < S1x128.size a := fun v1 v2472 k0_hw207 => k0_hw207

def k0_chk208 (v1 : IVec S16 32) (v2483 : IVec S16 32) : Prop :=
  (∀ a x, ((![v1, v2483] : Fin 2 → IVec S16 32) a x).toNat < S1x128.size a)
instance k0_chk208.dec : ∀ (v1 : IVec S16 32) (v2483 : IVec S16 32), Decidable (k0_chk208 v1 v2483) := fun v1 v2483 => decidable_of_iff' _ (Iff.of_eq (k0_chk208.eq_1 v1 v2483))
theorem k0_idx208_inb : ∀ (v1 : IVec S16 32) (v2483 : IVec S16 32) (k0_hw208 : k0_chk208 v1 v2483), ∀ a x, ((![v1, v2483] : Fin 2 → IVec S16 32) a x).toNat < S1x128.size a := fun v1 v2483 k0_hw208 => k0_hw208

def k0_chk209 (v1 : IVec S16 32) (v2494 : IVec S16 32) : Prop :=
  (∀ a x, ((![v1, v2494] : Fin 2 → IVec S16 32) a x).toNat < S1x128.size a)
instance k0_chk209.dec : ∀ (v1 : IVec S16 32) (v2494 : IVec S16 32), Decidable (k0_chk209 v1 v2494) := fun v1 v2494 => decidable_of_iff' _ (Iff.of_eq (k0_chk209.eq_1 v1 v2494))
theorem k0_idx209_inb : ∀ (v1 : IVec S16 32) (v2494 : IVec S16 32) (k0_hw209 : k0_chk209 v1 v2494), ∀ a x, ((![v1, v2494] : Fin 2 → IVec S16 32) a x).toNat < S1x128.size a := fun v1 v2494 k0_hw209 => k0_hw209

def k0_chk210 (v1 : IVec S16 32) (v2505 : IVec S16 32) : Prop :=
  (∀ a x, ((![v1, v2505] : Fin 2 → IVec S16 32) a x).toNat < S1x128.size a)
instance k0_chk210.dec : ∀ (v1 : IVec S16 32) (v2505 : IVec S16 32), Decidable (k0_chk210 v1 v2505) := fun v1 v2505 => decidable_of_iff' _ (Iff.of_eq (k0_chk210.eq_1 v1 v2505))
theorem k0_idx210_inb : ∀ (v1 : IVec S16 32) (v2505 : IVec S16 32) (k0_hw210 : k0_chk210 v1 v2505), ∀ a x, ((![v1, v2505] : Fin 2 → IVec S16 32) a x).toNat < S1x128.size a := fun v1 v2505 k0_hw210 => k0_hw210

def k0_chk211 (v1 : IVec S16 32) (v2516 : IVec S16 32) : Prop :=
  (∀ a x, ((![v1, v2516] : Fin 2 → IVec S16 32) a x).toNat < S1x128.size a)
instance k0_chk211.dec : ∀ (v1 : IVec S16 32) (v2516 : IVec S16 32), Decidable (k0_chk211 v1 v2516) := fun v1 v2516 => decidable_of_iff' _ (Iff.of_eq (k0_chk211.eq_1 v1 v2516))
theorem k0_idx211_inb : ∀ (v1 : IVec S16 32) (v2516 : IVec S16 32) (k0_hw211 : k0_chk211 v1 v2516), ∀ a x, ((![v1, v2516] : Fin 2 → IVec S16 32) a x).toNat < S1x128.size a := fun v1 v2516 k0_hw211 => k0_hw211

def k0_chk212 (v1 : IVec S16 32) (v2527 : IVec S16 32) : Prop :=
  (∀ a x, ((![v1, v2527] : Fin 2 → IVec S16 32) a x).toNat < S1x128.size a)
instance k0_chk212.dec : ∀ (v1 : IVec S16 32) (v2527 : IVec S16 32), Decidable (k0_chk212 v1 v2527) := fun v1 v2527 => decidable_of_iff' _ (Iff.of_eq (k0_chk212.eq_1 v1 v2527))
theorem k0_idx212_inb : ∀ (v1 : IVec S16 32) (v2527 : IVec S16 32) (k0_hw212 : k0_chk212 v1 v2527), ∀ a x, ((![v1, v2527] : Fin 2 → IVec S16 32) a x).toNat < S1x128.size a := fun v1 v2527 k0_hw212 => k0_hw212

def k0_chk213 (v1 : IVec S16 32) (v2538 : IVec S16 32) : Prop :=
  (∀ a x, ((![v1, v2538] : Fin 2 → IVec S16 32) a x).toNat < S1x128.size a)
instance k0_chk213.dec : ∀ (v1 : IVec S16 32) (v2538 : IVec S16 32), Decidable (k0_chk213 v1 v2538) := fun v1 v2538 => decidable_of_iff' _ (Iff.of_eq (k0_chk213.eq_1 v1 v2538))
theorem k0_idx213_inb : ∀ (v1 : IVec S16 32) (v2538 : IVec S16 32) (k0_hw213 : k0_chk213 v1 v2538), ∀ a x, ((![v1, v2538] : Fin 2 → IVec S16 32) a x).toNat < S1x128.size a := fun v1 v2538 k0_hw213 => k0_hw213

def k0_chk214 (v1 : IVec S16 32) (v2549 : IVec S16 32) : Prop :=
  (∀ a x, ((![v1, v2549] : Fin 2 → IVec S16 32) a x).toNat < S1x128.size a)
instance k0_chk214.dec : ∀ (v1 : IVec S16 32) (v2549 : IVec S16 32), Decidable (k0_chk214 v1 v2549) := fun v1 v2549 => decidable_of_iff' _ (Iff.of_eq (k0_chk214.eq_1 v1 v2549))
theorem k0_idx214_inb : ∀ (v1 : IVec S16 32) (v2549 : IVec S16 32) (k0_hw214 : k0_chk214 v1 v2549), ∀ a x, ((![v1, v2549] : Fin 2 → IVec S16 32) a x).toNat < S1x128.size a := fun v1 v2549 k0_hw214 => k0_hw214

def k0_chk215 (v1 : IVec S16 32) (v2560 : IVec S16 32) : Prop :=
  (∀ a x, ((![v1, v2560] : Fin 2 → IVec S16 32) a x).toNat < S1x128.size a)
instance k0_chk215.dec : ∀ (v1 : IVec S16 32) (v2560 : IVec S16 32), Decidable (k0_chk215 v1 v2560) := fun v1 v2560 => decidable_of_iff' _ (Iff.of_eq (k0_chk215.eq_1 v1 v2560))
theorem k0_idx215_inb : ∀ (v1 : IVec S16 32) (v2560 : IVec S16 32) (k0_hw215 : k0_chk215 v1 v2560), ∀ a x, ((![v1, v2560] : Fin 2 → IVec S16 32) a x).toNat < S1x128.size a := fun v1 v2560 k0_hw215 => k0_hw215

def k0_chk216 (v1 : IVec S16 32) (v2571 : IVec S16 32) : Prop :=
  (∀ a x, ((![v1, v2571] : Fin 2 → IVec S16 32) a x).toNat < S1x128.size a)
instance k0_chk216.dec : ∀ (v1 : IVec S16 32) (v2571 : IVec S16 32), Decidable (k0_chk216 v1 v2571) := fun v1 v2571 => decidable_of_iff' _ (Iff.of_eq (k0_chk216.eq_1 v1 v2571))
theorem k0_idx216_inb : ∀ (v1 : IVec S16 32) (v2571 : IVec S16 32) (k0_hw216 : k0_chk216 v1 v2571), ∀ a x, ((![v1, v2571] : Fin 2 → IVec S16 32) a x).toNat < S1x128.size a := fun v1 v2571 k0_hw216 => k0_hw216

def k0_chk217 (v1 : IVec S16 32) (v2582 : IVec S16 32) : Prop :=
  (∀ a x, ((![v1, v2582] : Fin 2 → IVec S16 32) a x).toNat < S1x128.size a)
instance k0_chk217.dec : ∀ (v1 : IVec S16 32) (v2582 : IVec S16 32), Decidable (k0_chk217 v1 v2582) := fun v1 v2582 => decidable_of_iff' _ (Iff.of_eq (k0_chk217.eq_1 v1 v2582))
theorem k0_idx217_inb : ∀ (v1 : IVec S16 32) (v2582 : IVec S16 32) (k0_hw217 : k0_chk217 v1 v2582), ∀ a x, ((![v1, v2582] : Fin 2 → IVec S16 32) a x).toNat < S1x128.size a := fun v1 v2582 k0_hw217 => k0_hw217

def k0_chk218 (v1 : IVec S16 32) (v2593 : IVec S16 32) : Prop :=
  (∀ a x, ((![v1, v2593] : Fin 2 → IVec S16 32) a x).toNat < S1x128.size a)
instance k0_chk218.dec : ∀ (v1 : IVec S16 32) (v2593 : IVec S16 32), Decidable (k0_chk218 v1 v2593) := fun v1 v2593 => decidable_of_iff' _ (Iff.of_eq (k0_chk218.eq_1 v1 v2593))
theorem k0_idx218_inb : ∀ (v1 : IVec S16 32) (v2593 : IVec S16 32) (k0_hw218 : k0_chk218 v1 v2593), ∀ a x, ((![v1, v2593] : Fin 2 → IVec S16 32) a x).toNat < S1x128.size a := fun v1 v2593 k0_hw218 => k0_hw218

def k0_chk219 (v1 : IVec S16 32) (v2604 : IVec S16 32) : Prop :=
  (∀ a x, ((![v1, v2604] : Fin 2 → IVec S16 32) a x).toNat < S1x128.size a)
instance k0_chk219.dec : ∀ (v1 : IVec S16 32) (v2604 : IVec S16 32), Decidable (k0_chk219 v1 v2604) := fun v1 v2604 => decidable_of_iff' _ (Iff.of_eq (k0_chk219.eq_1 v1 v2604))
theorem k0_idx219_inb : ∀ (v1 : IVec S16 32) (v2604 : IVec S16 32) (k0_hw219 : k0_chk219 v1 v2604), ∀ a x, ((![v1, v2604] : Fin 2 → IVec S16 32) a x).toNat < S1x128.size a := fun v1 v2604 k0_hw219 => k0_hw219

def k0_chk220 (v1 : IVec S16 32) (v2615 : IVec S16 32) : Prop :=
  (∀ a x, ((![v1, v2615] : Fin 2 → IVec S16 32) a x).toNat < S1x128.size a)
instance k0_chk220.dec : ∀ (v1 : IVec S16 32) (v2615 : IVec S16 32), Decidable (k0_chk220 v1 v2615) := fun v1 v2615 => decidable_of_iff' _ (Iff.of_eq (k0_chk220.eq_1 v1 v2615))
theorem k0_idx220_inb : ∀ (v1 : IVec S16 32) (v2615 : IVec S16 32) (k0_hw220 : k0_chk220 v1 v2615), ∀ a x, ((![v1, v2615] : Fin 2 → IVec S16 32) a x).toNat < S1x128.size a := fun v1 v2615 k0_hw220 => k0_hw220

def k0_chk221 (v1 : IVec S16 32) (v2626 : IVec S16 32) : Prop :=
  (∀ a x, ((![v1, v2626] : Fin 2 → IVec S16 32) a x).toNat < S1x128.size a)
instance k0_chk221.dec : ∀ (v1 : IVec S16 32) (v2626 : IVec S16 32), Decidable (k0_chk221 v1 v2626) := fun v1 v2626 => decidable_of_iff' _ (Iff.of_eq (k0_chk221.eq_1 v1 v2626))
theorem k0_idx221_inb : ∀ (v1 : IVec S16 32) (v2626 : IVec S16 32) (k0_hw221 : k0_chk221 v1 v2626), ∀ a x, ((![v1, v2626] : Fin 2 → IVec S16 32) a x).toNat < S1x128.size a := fun v1 v2626 k0_hw221 => k0_hw221

def k0_chk222 (v1 : IVec S16 32) (v2637 : IVec S16 32) : Prop :=
  (∀ a x, ((![v1, v2637] : Fin 2 → IVec S16 32) a x).toNat < S1x128.size a)
instance k0_chk222.dec : ∀ (v1 : IVec S16 32) (v2637 : IVec S16 32), Decidable (k0_chk222 v1 v2637) := fun v1 v2637 => decidable_of_iff' _ (Iff.of_eq (k0_chk222.eq_1 v1 v2637))
theorem k0_idx222_inb : ∀ (v1 : IVec S16 32) (v2637 : IVec S16 32) (k0_hw222 : k0_chk222 v1 v2637), ∀ a x, ((![v1, v2637] : Fin 2 → IVec S16 32) a x).toNat < S1x128.size a := fun v1 v2637 k0_hw222 => k0_hw222

def k0_chk223 (v1 : IVec S16 32) (v2648 : IVec S16 32) : Prop :=
  (∀ a x, ((![v1, v2648] : Fin 2 → IVec S16 32) a x).toNat < S1x128.size a)
instance k0_chk223.dec : ∀ (v1 : IVec S16 32) (v2648 : IVec S16 32), Decidable (k0_chk223 v1 v2648) := fun v1 v2648 => decidable_of_iff' _ (Iff.of_eq (k0_chk223.eq_1 v1 v2648))
theorem k0_idx223_inb : ∀ (v1 : IVec S16 32) (v2648 : IVec S16 32) (k0_hw223 : k0_chk223 v1 v2648), ∀ a x, ((![v1, v2648] : Fin 2 → IVec S16 32) a x).toNat < S1x128.size a := fun v1 v2648 k0_hw223 => k0_hw223

def k0_chk224 (v1 : IVec S16 32) (v2659 : IVec S16 32) : Prop :=
  (∀ a x, ((![v1, v2659] : Fin 2 → IVec S16 32) a x).toNat < S1x128.size a)
instance k0_chk224.dec : ∀ (v1 : IVec S16 32) (v2659 : IVec S16 32), Decidable (k0_chk224 v1 v2659) := fun v1 v2659 => decidable_of_iff' _ (Iff.of_eq (k0_chk224.eq_1 v1 v2659))
theorem k0_idx224_inb : ∀ (v1 : IVec S16 32) (v2659 : IVec S16 32) (k0_hw224 : k0_chk224 v1 v2659), ∀ a x, ((![v1, v2659] : Fin 2 → IVec S16 32) a x).toNat < S1x128.size a := fun v1 v2659 k0_hw224 => k0_hw224
def k0_off4 (i : grid0.Coords) (c0_i32_10 : BitVec 32) : Fin 1 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c200_i32 : BitVec 32 := 200#32
  let v5 : BitVec 32 := Scalar.muli v3 c200_i32
  let c128_i32_0 : BitVec 32 := 128#32
  let v6 : BitVec 32 := Scalar.muli v5 c128_i32_0
  let v18 : BitVec 32 := Scalar.addi v6 c0_i32_10
  ![v18.toNat]
@[reducible] def k0_t1_loop : Scf.Loop 32 :=
  let c0_i32_961 : BitVec 32 := 0#32
  let c25_i32 : BitVec 32 := 25#32
  let v2681 : BitVec 32 := Scalar.addi c0_i32_961 c25_i32
  let c1_i32 : BitVec 32 := 1#32
  ⟨c0_i32_961, v2681, c1_i32⟩
def k0_off5 (k0_t1 : Fin k0_t1_loop.trips) : Fin 1 → Nat :=
  let c0_i32_961 : BitVec 32 := 0#32
  let c1_i32 : BitVec 32 := 1#32
  let arg24 : BitVec 32 := Scf.iv c0_i32_961 c1_i32 k0_t1
  let c128_i32_999 : BitVec 32 := 128#32
  let v2737 : BitVec 32 := Scalar.muli arg24 c128_i32_999
  let c0_i32_1000 : BitVec 32 := 0#32
  let v2738 : BitVec 32 := Scalar.addi v2737 c0_i32_1000
  let v2739 : Index := Scalar.indexCast v2738
  ![v2739.toNat]

def k0_chk225 (v2740 : IVec S16 32) : Prop :=
  (∀ a x, ((![v2740] : Fin 1 → IVec S16 32) a x).toNat < S100000.size a)
instance k0_chk225.dec : ∀ (v2740 : IVec S16 32), Decidable (k0_chk225 v2740) := fun v2740 => decidable_of_iff' _ (Iff.of_eq (k0_chk225.eq_1 v2740))
theorem k0_idx225_inb : ∀ (v2740 : IVec S16 32) (k0_hw225 : k0_chk225 v2740), ∀ a x, ((![v2740] : Fin 1 → IVec S16 32) a x).toNat < S100000.size a := fun v2740 k0_hw225 => k0_hw225
def k0_off6 (k0_t1 : Fin k0_t1_loop.trips) : Fin 1 → Nat :=
  let c0_i32_961 : BitVec 32 := 0#32
  let c1_i32 : BitVec 32 := 1#32
  let arg24 : BitVec 32 := Scf.iv c0_i32_961 c1_i32 k0_t1
  let c128_i32_1001 : BitVec 32 := 128#32
  let v2743 : BitVec 32 := Scalar.muli arg24 c128_i32_1001
  let c16_i32 : BitVec 32 := 16#32
  let v2744 : BitVec 32 := Scalar.addi v2743 c16_i32
  let v2745 : Index := Scalar.indexCast v2744
  ![v2745.toNat]

def k0_chk226 (v2746 : IVec S16 32) : Prop :=
  (∀ a x, ((![v2746] : Fin 1 → IVec S16 32) a x).toNat < S100000.size a)
instance k0_chk226.dec : ∀ (v2746 : IVec S16 32), Decidable (k0_chk226 v2746) := fun v2746 => decidable_of_iff' _ (Iff.of_eq (k0_chk226.eq_1 v2746))
theorem k0_idx226_inb : ∀ (v2746 : IVec S16 32) (k0_hw226 : k0_chk226 v2746), ∀ a x, ((![v2746] : Fin 1 → IVec S16 32) a x).toNat < S100000.size a := fun v2746 k0_hw226 => k0_hw226
def k0_off7 (k0_t1 : Fin k0_t1_loop.trips) : Fin 1 → Nat :=
  let c0_i32_961 : BitVec 32 := 0#32
  let c1_i32 : BitVec 32 := 1#32
  let arg24 : BitVec 32 := Scf.iv c0_i32_961 c1_i32 k0_t1
  let c128_i32_1002 : BitVec 32 := 128#32
  let v2749 : BitVec 32 := Scalar.muli arg24 c128_i32_1002
  let c32_i32 : BitVec 32 := 32#32
  let v2750 : BitVec 32 := Scalar.addi v2749 c32_i32
  let v2751 : Index := Scalar.indexCast v2750
  ![v2751.toNat]

def k0_chk227 (v2752 : IVec S16 32) : Prop :=
  (∀ a x, ((![v2752] : Fin 1 → IVec S16 32) a x).toNat < S100000.size a)
instance k0_chk227.dec : ∀ (v2752 : IVec S16 32), Decidable (k0_chk227 v2752) := fun v2752 => decidable_of_iff' _ (Iff.of_eq (k0_chk227.eq_1 v2752))
theorem k0_idx227_inb : ∀ (v2752 : IVec S16 32) (k0_hw227 : k0_chk227 v2752), ∀ a x, ((![v2752] : Fin 1 → IVec S16 32) a x).toNat < S100000.size a := fun v2752 k0_hw227 => k0_hw227
def k0_off8 (k0_t1 : Fin k0_t1_loop.trips) : Fin 1 → Nat :=
  let c0_i32_961 : BitVec 32 := 0#32
  let c1_i32 : BitVec 32 := 1#32
  let arg24 : BitVec 32 := Scf.iv c0_i32_961 c1_i32 k0_t1
  let c128_i32_1003 : BitVec 32 := 128#32
  let v2755 : BitVec 32 := Scalar.muli arg24 c128_i32_1003
  let c48_i32 : BitVec 32 := 48#32
  let v2756 : BitVec 32 := Scalar.addi v2755 c48_i32
  let v2757 : Index := Scalar.indexCast v2756
  ![v2757.toNat]

def k0_chk228 (v2758 : IVec S16 32) : Prop :=
  (∀ a x, ((![v2758] : Fin 1 → IVec S16 32) a x).toNat < S100000.size a)
instance k0_chk228.dec : ∀ (v2758 : IVec S16 32), Decidable (k0_chk228 v2758) := fun v2758 => decidable_of_iff' _ (Iff.of_eq (k0_chk228.eq_1 v2758))
theorem k0_idx228_inb : ∀ (v2758 : IVec S16 32) (k0_hw228 : k0_chk228 v2758), ∀ a x, ((![v2758] : Fin 1 → IVec S16 32) a x).toNat < S100000.size a := fun v2758 k0_hw228 => k0_hw228
def k0_off9 (k0_t1 : Fin k0_t1_loop.trips) : Fin 1 → Nat :=
  let c0_i32_961 : BitVec 32 := 0#32
  let c1_i32 : BitVec 32 := 1#32
  let arg24 : BitVec 32 := Scf.iv c0_i32_961 c1_i32 k0_t1
  let c128_i32_1004 : BitVec 32 := 128#32
  let v2761 : BitVec 32 := Scalar.muli arg24 c128_i32_1004
  let c64_i32_1005 : BitVec 32 := 64#32
  let v2762 : BitVec 32 := Scalar.addi v2761 c64_i32_1005
  let v2763 : Index := Scalar.indexCast v2762
  ![v2763.toNat]

def k0_chk229 (v2764 : IVec S16 32) : Prop :=
  (∀ a x, ((![v2764] : Fin 1 → IVec S16 32) a x).toNat < S100000.size a)
instance k0_chk229.dec : ∀ (v2764 : IVec S16 32), Decidable (k0_chk229 v2764) := fun v2764 => decidable_of_iff' _ (Iff.of_eq (k0_chk229.eq_1 v2764))
theorem k0_idx229_inb : ∀ (v2764 : IVec S16 32) (k0_hw229 : k0_chk229 v2764), ∀ a x, ((![v2764] : Fin 1 → IVec S16 32) a x).toNat < S100000.size a := fun v2764 k0_hw229 => k0_hw229
def k0_off10 (k0_t1 : Fin k0_t1_loop.trips) : Fin 1 → Nat :=
  let c0_i32_961 : BitVec 32 := 0#32
  let c1_i32 : BitVec 32 := 1#32
  let arg24 : BitVec 32 := Scf.iv c0_i32_961 c1_i32 k0_t1
  let c128_i32_1006 : BitVec 32 := 128#32
  let v2767 : BitVec 32 := Scalar.muli arg24 c128_i32_1006
  let c80_i32_1007 : BitVec 32 := 80#32
  let v2768 : BitVec 32 := Scalar.addi v2767 c80_i32_1007
  let v2769 : Index := Scalar.indexCast v2768
  ![v2769.toNat]

def k0_chk230 (v2770 : IVec S16 32) : Prop :=
  (∀ a x, ((![v2770] : Fin 1 → IVec S16 32) a x).toNat < S100000.size a)
instance k0_chk230.dec : ∀ (v2770 : IVec S16 32), Decidable (k0_chk230 v2770) := fun v2770 => decidable_of_iff' _ (Iff.of_eq (k0_chk230.eq_1 v2770))
theorem k0_idx230_inb : ∀ (v2770 : IVec S16 32) (k0_hw230 : k0_chk230 v2770), ∀ a x, ((![v2770] : Fin 1 → IVec S16 32) a x).toNat < S100000.size a := fun v2770 k0_hw230 => k0_hw230
def k0_off11 (k0_t1 : Fin k0_t1_loop.trips) : Fin 1 → Nat :=
  let c0_i32_961 : BitVec 32 := 0#32
  let c1_i32 : BitVec 32 := 1#32
  let arg24 : BitVec 32 := Scf.iv c0_i32_961 c1_i32 k0_t1
  let c128_i32_1008 : BitVec 32 := 128#32
  let v2773 : BitVec 32 := Scalar.muli arg24 c128_i32_1008
  let c96_i32_1009 : BitVec 32 := 96#32
  let v2774 : BitVec 32 := Scalar.addi v2773 c96_i32_1009
  let v2775 : Index := Scalar.indexCast v2774
  ![v2775.toNat]

def k0_chk231 (v2776 : IVec S16 32) : Prop :=
  (∀ a x, ((![v2776] : Fin 1 → IVec S16 32) a x).toNat < S100000.size a)
instance k0_chk231.dec : ∀ (v2776 : IVec S16 32), Decidable (k0_chk231 v2776) := fun v2776 => decidable_of_iff' _ (Iff.of_eq (k0_chk231.eq_1 v2776))
theorem k0_idx231_inb : ∀ (v2776 : IVec S16 32) (k0_hw231 : k0_chk231 v2776), ∀ a x, ((![v2776] : Fin 1 → IVec S16 32) a x).toNat < S100000.size a := fun v2776 k0_hw231 => k0_hw231
def k0_off12 (k0_t1 : Fin k0_t1_loop.trips) : Fin 1 → Nat :=
  let c0_i32_961 : BitVec 32 := 0#32
  let c1_i32 : BitVec 32 := 1#32
  let arg24 : BitVec 32 := Scf.iv c0_i32_961 c1_i32 k0_t1
  let c128_i32_1010 : BitVec 32 := 128#32
  let v2779 : BitVec 32 := Scalar.muli arg24 c128_i32_1010
  let c112_i32 : BitVec 32 := 112#32
  let v2780 : BitVec 32 := Scalar.addi v2779 c112_i32
  let v2781 : Index := Scalar.indexCast v2780
  ![v2781.toNat]

def k0_chk232 (v2782 : IVec S16 32) : Prop :=
  (∀ a x, ((![v2782] : Fin 1 → IVec S16 32) a x).toNat < S100000.size a)
instance k0_chk232.dec : ∀ (v2782 : IVec S16 32), Decidable (k0_chk232 v2782) := fun v2782 => decidable_of_iff' _ (Iff.of_eq (k0_chk232.eq_1 v2782))
theorem k0_idx232_inb : ∀ (v2782 : IVec S16 32) (k0_hw232 : k0_chk232 v2782), ∀ a x, ((![v2782] : Fin 1 → IVec S16 32) a x).toNat < S100000.size a := fun v2782 k0_hw232 => k0_hw232
@[reducible] def k0_t2_loop : Scf.Loop 32 :=
  let c0_i32_963 : BitVec 32 := 0#32
  let c25_i32_964 : BitVec 32 := 25#32
  let v2688 : BitVec 32 := Scalar.addi c0_i32_963 c25_i32_964
  let c1_i32_965 : BitVec 32 := 1#32
  ⟨c0_i32_963, v2688, c1_i32_965⟩
def k0_off13 (k0_t2 : Fin k0_t2_loop.trips) : Fin 1 → Nat :=
  let c0_i32_963 : BitVec 32 := 0#32
  let c1_i32_965 : BitVec 32 := 1#32
  let arg24 : BitVec 32 := Scf.iv c0_i32_963 c1_i32_965 k0_t2
  let c128_i32_999 : BitVec 32 := 128#32
  let v2737 : BitVec 32 := Scalar.muli arg24 c128_i32_999
  let c0_i32_1000 : BitVec 32 := 0#32
  let v2738 : BitVec 32 := Scalar.addi v2737 c0_i32_1000
  let v2739 : Index := Scalar.indexCast v2738
  ![v2739.toNat]

def k0_chk233 (v2740 : IVec S16 32) : Prop :=
  (∀ a x, ((![v2740] : Fin 1 → IVec S16 32) a x).toNat < S100000.size a)
instance k0_chk233.dec : ∀ (v2740 : IVec S16 32), Decidable (k0_chk233 v2740) := fun v2740 => decidable_of_iff' _ (Iff.of_eq (k0_chk233.eq_1 v2740))
theorem k0_idx233_inb : ∀ (v2740 : IVec S16 32) (k0_hw233 : k0_chk233 v2740), ∀ a x, ((![v2740] : Fin 1 → IVec S16 32) a x).toNat < S100000.size a := fun v2740 k0_hw233 => k0_hw233
def k0_off14 (k0_t2 : Fin k0_t2_loop.trips) : Fin 1 → Nat :=
  let c0_i32_963 : BitVec 32 := 0#32
  let c1_i32_965 : BitVec 32 := 1#32
  let arg24 : BitVec 32 := Scf.iv c0_i32_963 c1_i32_965 k0_t2
  let c128_i32_1001 : BitVec 32 := 128#32
  let v2743 : BitVec 32 := Scalar.muli arg24 c128_i32_1001
  let c16_i32 : BitVec 32 := 16#32
  let v2744 : BitVec 32 := Scalar.addi v2743 c16_i32
  let v2745 : Index := Scalar.indexCast v2744
  ![v2745.toNat]

def k0_chk234 (v2746 : IVec S16 32) : Prop :=
  (∀ a x, ((![v2746] : Fin 1 → IVec S16 32) a x).toNat < S100000.size a)
instance k0_chk234.dec : ∀ (v2746 : IVec S16 32), Decidable (k0_chk234 v2746) := fun v2746 => decidable_of_iff' _ (Iff.of_eq (k0_chk234.eq_1 v2746))
theorem k0_idx234_inb : ∀ (v2746 : IVec S16 32) (k0_hw234 : k0_chk234 v2746), ∀ a x, ((![v2746] : Fin 1 → IVec S16 32) a x).toNat < S100000.size a := fun v2746 k0_hw234 => k0_hw234
def k0_off15 (k0_t2 : Fin k0_t2_loop.trips) : Fin 1 → Nat :=
  let c0_i32_963 : BitVec 32 := 0#32
  let c1_i32_965 : BitVec 32 := 1#32
  let arg24 : BitVec 32 := Scf.iv c0_i32_963 c1_i32_965 k0_t2
  let c128_i32_1002 : BitVec 32 := 128#32
  let v2749 : BitVec 32 := Scalar.muli arg24 c128_i32_1002
  let c32_i32 : BitVec 32 := 32#32
  let v2750 : BitVec 32 := Scalar.addi v2749 c32_i32
  let v2751 : Index := Scalar.indexCast v2750
  ![v2751.toNat]

def k0_chk235 (v2752 : IVec S16 32) : Prop :=
  (∀ a x, ((![v2752] : Fin 1 → IVec S16 32) a x).toNat < S100000.size a)
instance k0_chk235.dec : ∀ (v2752 : IVec S16 32), Decidable (k0_chk235 v2752) := fun v2752 => decidable_of_iff' _ (Iff.of_eq (k0_chk235.eq_1 v2752))
theorem k0_idx235_inb : ∀ (v2752 : IVec S16 32) (k0_hw235 : k0_chk235 v2752), ∀ a x, ((![v2752] : Fin 1 → IVec S16 32) a x).toNat < S100000.size a := fun v2752 k0_hw235 => k0_hw235
def k0_off16 (k0_t2 : Fin k0_t2_loop.trips) : Fin 1 → Nat :=
  let c0_i32_963 : BitVec 32 := 0#32
  let c1_i32_965 : BitVec 32 := 1#32
  let arg24 : BitVec 32 := Scf.iv c0_i32_963 c1_i32_965 k0_t2
  let c128_i32_1003 : BitVec 32 := 128#32
  let v2755 : BitVec 32 := Scalar.muli arg24 c128_i32_1003
  let c48_i32 : BitVec 32 := 48#32
  let v2756 : BitVec 32 := Scalar.addi v2755 c48_i32
  let v2757 : Index := Scalar.indexCast v2756
  ![v2757.toNat]

def k0_chk236 (v2758 : IVec S16 32) : Prop :=
  (∀ a x, ((![v2758] : Fin 1 → IVec S16 32) a x).toNat < S100000.size a)
instance k0_chk236.dec : ∀ (v2758 : IVec S16 32), Decidable (k0_chk236 v2758) := fun v2758 => decidable_of_iff' _ (Iff.of_eq (k0_chk236.eq_1 v2758))
theorem k0_idx236_inb : ∀ (v2758 : IVec S16 32) (k0_hw236 : k0_chk236 v2758), ∀ a x, ((![v2758] : Fin 1 → IVec S16 32) a x).toNat < S100000.size a := fun v2758 k0_hw236 => k0_hw236
def k0_off17 (k0_t2 : Fin k0_t2_loop.trips) : Fin 1 → Nat :=
  let c0_i32_963 : BitVec 32 := 0#32
  let c1_i32_965 : BitVec 32 := 1#32
  let arg24 : BitVec 32 := Scf.iv c0_i32_963 c1_i32_965 k0_t2
  let c128_i32_1004 : BitVec 32 := 128#32
  let v2761 : BitVec 32 := Scalar.muli arg24 c128_i32_1004
  let c64_i32_1005 : BitVec 32 := 64#32
  let v2762 : BitVec 32 := Scalar.addi v2761 c64_i32_1005
  let v2763 : Index := Scalar.indexCast v2762
  ![v2763.toNat]

def k0_chk237 (v2764 : IVec S16 32) : Prop :=
  (∀ a x, ((![v2764] : Fin 1 → IVec S16 32) a x).toNat < S100000.size a)
instance k0_chk237.dec : ∀ (v2764 : IVec S16 32), Decidable (k0_chk237 v2764) := fun v2764 => decidable_of_iff' _ (Iff.of_eq (k0_chk237.eq_1 v2764))
theorem k0_idx237_inb : ∀ (v2764 : IVec S16 32) (k0_hw237 : k0_chk237 v2764), ∀ a x, ((![v2764] : Fin 1 → IVec S16 32) a x).toNat < S100000.size a := fun v2764 k0_hw237 => k0_hw237
def k0_off18 (k0_t2 : Fin k0_t2_loop.trips) : Fin 1 → Nat :=
  let c0_i32_963 : BitVec 32 := 0#32
  let c1_i32_965 : BitVec 32 := 1#32
  let arg24 : BitVec 32 := Scf.iv c0_i32_963 c1_i32_965 k0_t2
  let c128_i32_1006 : BitVec 32 := 128#32
  let v2767 : BitVec 32 := Scalar.muli arg24 c128_i32_1006
  let c80_i32_1007 : BitVec 32 := 80#32
  let v2768 : BitVec 32 := Scalar.addi v2767 c80_i32_1007
  let v2769 : Index := Scalar.indexCast v2768
  ![v2769.toNat]

def k0_chk238 (v2770 : IVec S16 32) : Prop :=
  (∀ a x, ((![v2770] : Fin 1 → IVec S16 32) a x).toNat < S100000.size a)
instance k0_chk238.dec : ∀ (v2770 : IVec S16 32), Decidable (k0_chk238 v2770) := fun v2770 => decidable_of_iff' _ (Iff.of_eq (k0_chk238.eq_1 v2770))
theorem k0_idx238_inb : ∀ (v2770 : IVec S16 32) (k0_hw238 : k0_chk238 v2770), ∀ a x, ((![v2770] : Fin 1 → IVec S16 32) a x).toNat < S100000.size a := fun v2770 k0_hw238 => k0_hw238
def k0_off19 (k0_t2 : Fin k0_t2_loop.trips) : Fin 1 → Nat :=
  let c0_i32_963 : BitVec 32 := 0#32
  let c1_i32_965 : BitVec 32 := 1#32
  let arg24 : BitVec 32 := Scf.iv c0_i32_963 c1_i32_965 k0_t2
  let c128_i32_1008 : BitVec 32 := 128#32
  let v2773 : BitVec 32 := Scalar.muli arg24 c128_i32_1008
  let c96_i32_1009 : BitVec 32 := 96#32
  let v2774 : BitVec 32 := Scalar.addi v2773 c96_i32_1009
  let v2775 : Index := Scalar.indexCast v2774
  ![v2775.toNat]

def k0_chk239 (v2776 : IVec S16 32) : Prop :=
  (∀ a x, ((![v2776] : Fin 1 → IVec S16 32) a x).toNat < S100000.size a)
instance k0_chk239.dec : ∀ (v2776 : IVec S16 32), Decidable (k0_chk239 v2776) := fun v2776 => decidable_of_iff' _ (Iff.of_eq (k0_chk239.eq_1 v2776))
theorem k0_idx239_inb : ∀ (v2776 : IVec S16 32) (k0_hw239 : k0_chk239 v2776), ∀ a x, ((![v2776] : Fin 1 → IVec S16 32) a x).toNat < S100000.size a := fun v2776 k0_hw239 => k0_hw239
def k0_off20 (k0_t2 : Fin k0_t2_loop.trips) : Fin 1 → Nat :=
  let c0_i32_963 : BitVec 32 := 0#32
  let c1_i32_965 : BitVec 32 := 1#32
  let arg24 : BitVec 32 := Scf.iv c0_i32_963 c1_i32_965 k0_t2
  let c128_i32_1010 : BitVec 32 := 128#32
  let v2779 : BitVec 32 := Scalar.muli arg24 c128_i32_1010
  let c112_i32 : BitVec 32 := 112#32
  let v2780 : BitVec 32 := Scalar.addi v2779 c112_i32
  let v2781 : Index := Scalar.indexCast v2780
  ![v2781.toNat]

def k0_chk240 (v2782 : IVec S16 32) : Prop :=
  (∀ a x, ((![v2782] : Fin 1 → IVec S16 32) a x).toNat < S100000.size a)
instance k0_chk240.dec : ∀ (v2782 : IVec S16 32), Decidable (k0_chk240 v2782) := fun v2782 => decidable_of_iff' _ (Iff.of_eq (k0_chk240.eq_1 v2782))
theorem k0_idx240_inb : ∀ (v2782 : IVec S16 32) (k0_hw240 : k0_chk240 v2782), ∀ a x, ((![v2782] : Fin 1 → IVec S16 32) a x).toNat < S100000.size a := fun v2782 k0_hw240 => k0_hw240
@[reducible] def k0_t3_loop : Scf.Loop 32 :=
  let c0_i32_967 : BitVec 32 := 0#32
  let c25_i32_968 : BitVec 32 := 25#32
  let v2695 : BitVec 32 := Scalar.addi c0_i32_967 c25_i32_968
  let c1_i32_969 : BitVec 32 := 1#32
  ⟨c0_i32_967, v2695, c1_i32_969⟩
def k0_off21 (k0_t3 : Fin k0_t3_loop.trips) : Fin 1 → Nat :=
  let c0_i32_967 : BitVec 32 := 0#32
  let c1_i32_969 : BitVec 32 := 1#32
  let arg24 : BitVec 32 := Scf.iv c0_i32_967 c1_i32_969 k0_t3
  let c128_i32_999 : BitVec 32 := 128#32
  let v2737 : BitVec 32 := Scalar.muli arg24 c128_i32_999
  let c0_i32_1000 : BitVec 32 := 0#32
  let v2738 : BitVec 32 := Scalar.addi v2737 c0_i32_1000
  let v2739 : Index := Scalar.indexCast v2738
  ![v2739.toNat]

def k0_chk241 (v2740 : IVec S16 32) : Prop :=
  (∀ a x, ((![v2740] : Fin 1 → IVec S16 32) a x).toNat < S100000.size a)
instance k0_chk241.dec : ∀ (v2740 : IVec S16 32), Decidable (k0_chk241 v2740) := fun v2740 => decidable_of_iff' _ (Iff.of_eq (k0_chk241.eq_1 v2740))
theorem k0_idx241_inb : ∀ (v2740 : IVec S16 32) (k0_hw241 : k0_chk241 v2740), ∀ a x, ((![v2740] : Fin 1 → IVec S16 32) a x).toNat < S100000.size a := fun v2740 k0_hw241 => k0_hw241
def k0_off22 (k0_t3 : Fin k0_t3_loop.trips) : Fin 1 → Nat :=
  let c0_i32_967 : BitVec 32 := 0#32
  let c1_i32_969 : BitVec 32 := 1#32
  let arg24 : BitVec 32 := Scf.iv c0_i32_967 c1_i32_969 k0_t3
  let c128_i32_1001 : BitVec 32 := 128#32
  let v2743 : BitVec 32 := Scalar.muli arg24 c128_i32_1001
  let c16_i32 : BitVec 32 := 16#32
  let v2744 : BitVec 32 := Scalar.addi v2743 c16_i32
  let v2745 : Index := Scalar.indexCast v2744
  ![v2745.toNat]

def k0_chk242 (v2746 : IVec S16 32) : Prop :=
  (∀ a x, ((![v2746] : Fin 1 → IVec S16 32) a x).toNat < S100000.size a)
instance k0_chk242.dec : ∀ (v2746 : IVec S16 32), Decidable (k0_chk242 v2746) := fun v2746 => decidable_of_iff' _ (Iff.of_eq (k0_chk242.eq_1 v2746))
theorem k0_idx242_inb : ∀ (v2746 : IVec S16 32) (k0_hw242 : k0_chk242 v2746), ∀ a x, ((![v2746] : Fin 1 → IVec S16 32) a x).toNat < S100000.size a := fun v2746 k0_hw242 => k0_hw242
def k0_off23 (k0_t3 : Fin k0_t3_loop.trips) : Fin 1 → Nat :=
  let c0_i32_967 : BitVec 32 := 0#32
  let c1_i32_969 : BitVec 32 := 1#32
  let arg24 : BitVec 32 := Scf.iv c0_i32_967 c1_i32_969 k0_t3
  let c128_i32_1002 : BitVec 32 := 128#32
  let v2749 : BitVec 32 := Scalar.muli arg24 c128_i32_1002
  let c32_i32 : BitVec 32 := 32#32
  let v2750 : BitVec 32 := Scalar.addi v2749 c32_i32
  let v2751 : Index := Scalar.indexCast v2750
  ![v2751.toNat]

def k0_chk243 (v2752 : IVec S16 32) : Prop :=
  (∀ a x, ((![v2752] : Fin 1 → IVec S16 32) a x).toNat < S100000.size a)
instance k0_chk243.dec : ∀ (v2752 : IVec S16 32), Decidable (k0_chk243 v2752) := fun v2752 => decidable_of_iff' _ (Iff.of_eq (k0_chk243.eq_1 v2752))
theorem k0_idx243_inb : ∀ (v2752 : IVec S16 32) (k0_hw243 : k0_chk243 v2752), ∀ a x, ((![v2752] : Fin 1 → IVec S16 32) a x).toNat < S100000.size a := fun v2752 k0_hw243 => k0_hw243
def k0_off24 (k0_t3 : Fin k0_t3_loop.trips) : Fin 1 → Nat :=
  let c0_i32_967 : BitVec 32 := 0#32
  let c1_i32_969 : BitVec 32 := 1#32
  let arg24 : BitVec 32 := Scf.iv c0_i32_967 c1_i32_969 k0_t3
  let c128_i32_1003 : BitVec 32 := 128#32
  let v2755 : BitVec 32 := Scalar.muli arg24 c128_i32_1003
  let c48_i32 : BitVec 32 := 48#32
  let v2756 : BitVec 32 := Scalar.addi v2755 c48_i32
  let v2757 : Index := Scalar.indexCast v2756
  ![v2757.toNat]

def k0_chk244 (v2758 : IVec S16 32) : Prop :=
  (∀ a x, ((![v2758] : Fin 1 → IVec S16 32) a x).toNat < S100000.size a)
instance k0_chk244.dec : ∀ (v2758 : IVec S16 32), Decidable (k0_chk244 v2758) := fun v2758 => decidable_of_iff' _ (Iff.of_eq (k0_chk244.eq_1 v2758))
theorem k0_idx244_inb : ∀ (v2758 : IVec S16 32) (k0_hw244 : k0_chk244 v2758), ∀ a x, ((![v2758] : Fin 1 → IVec S16 32) a x).toNat < S100000.size a := fun v2758 k0_hw244 => k0_hw244
def k0_off25 (k0_t3 : Fin k0_t3_loop.trips) : Fin 1 → Nat :=
  let c0_i32_967 : BitVec 32 := 0#32
  let c1_i32_969 : BitVec 32 := 1#32
  let arg24 : BitVec 32 := Scf.iv c0_i32_967 c1_i32_969 k0_t3
  let c128_i32_1004 : BitVec 32 := 128#32
  let v2761 : BitVec 32 := Scalar.muli arg24 c128_i32_1004
  let c64_i32_1005 : BitVec 32 := 64#32
  let v2762 : BitVec 32 := Scalar.addi v2761 c64_i32_1005
  let v2763 : Index := Scalar.indexCast v2762
  ![v2763.toNat]

def k0_chk245 (v2764 : IVec S16 32) : Prop :=
  (∀ a x, ((![v2764] : Fin 1 → IVec S16 32) a x).toNat < S100000.size a)
instance k0_chk245.dec : ∀ (v2764 : IVec S16 32), Decidable (k0_chk245 v2764) := fun v2764 => decidable_of_iff' _ (Iff.of_eq (k0_chk245.eq_1 v2764))
theorem k0_idx245_inb : ∀ (v2764 : IVec S16 32) (k0_hw245 : k0_chk245 v2764), ∀ a x, ((![v2764] : Fin 1 → IVec S16 32) a x).toNat < S100000.size a := fun v2764 k0_hw245 => k0_hw245
def k0_off26 (k0_t3 : Fin k0_t3_loop.trips) : Fin 1 → Nat :=
  let c0_i32_967 : BitVec 32 := 0#32
  let c1_i32_969 : BitVec 32 := 1#32
  let arg24 : BitVec 32 := Scf.iv c0_i32_967 c1_i32_969 k0_t3
  let c128_i32_1006 : BitVec 32 := 128#32
  let v2767 : BitVec 32 := Scalar.muli arg24 c128_i32_1006
  let c80_i32_1007 : BitVec 32 := 80#32
  let v2768 : BitVec 32 := Scalar.addi v2767 c80_i32_1007
  let v2769 : Index := Scalar.indexCast v2768
  ![v2769.toNat]

def k0_chk246 (v2770 : IVec S16 32) : Prop :=
  (∀ a x, ((![v2770] : Fin 1 → IVec S16 32) a x).toNat < S100000.size a)
instance k0_chk246.dec : ∀ (v2770 : IVec S16 32), Decidable (k0_chk246 v2770) := fun v2770 => decidable_of_iff' _ (Iff.of_eq (k0_chk246.eq_1 v2770))
theorem k0_idx246_inb : ∀ (v2770 : IVec S16 32) (k0_hw246 : k0_chk246 v2770), ∀ a x, ((![v2770] : Fin 1 → IVec S16 32) a x).toNat < S100000.size a := fun v2770 k0_hw246 => k0_hw246
def k0_off27 (k0_t3 : Fin k0_t3_loop.trips) : Fin 1 → Nat :=
  let c0_i32_967 : BitVec 32 := 0#32
  let c1_i32_969 : BitVec 32 := 1#32
  let arg24 : BitVec 32 := Scf.iv c0_i32_967 c1_i32_969 k0_t3
  let c128_i32_1008 : BitVec 32 := 128#32
  let v2773 : BitVec 32 := Scalar.muli arg24 c128_i32_1008
  let c96_i32_1009 : BitVec 32 := 96#32
  let v2774 : BitVec 32 := Scalar.addi v2773 c96_i32_1009
  let v2775 : Index := Scalar.indexCast v2774
  ![v2775.toNat]

def k0_chk247 (v2776 : IVec S16 32) : Prop :=
  (∀ a x, ((![v2776] : Fin 1 → IVec S16 32) a x).toNat < S100000.size a)
instance k0_chk247.dec : ∀ (v2776 : IVec S16 32), Decidable (k0_chk247 v2776) := fun v2776 => decidable_of_iff' _ (Iff.of_eq (k0_chk247.eq_1 v2776))
theorem k0_idx247_inb : ∀ (v2776 : IVec S16 32) (k0_hw247 : k0_chk247 v2776), ∀ a x, ((![v2776] : Fin 1 → IVec S16 32) a x).toNat < S100000.size a := fun v2776 k0_hw247 => k0_hw247
def k0_off28 (k0_t3 : Fin k0_t3_loop.trips) : Fin 1 → Nat :=
  let c0_i32_967 : BitVec 32 := 0#32
  let c1_i32_969 : BitVec 32 := 1#32
  let arg24 : BitVec 32 := Scf.iv c0_i32_967 c1_i32_969 k0_t3
  let c128_i32_1010 : BitVec 32 := 128#32
  let v2779 : BitVec 32 := Scalar.muli arg24 c128_i32_1010
  let c112_i32 : BitVec 32 := 112#32
  let v2780 : BitVec 32 := Scalar.addi v2779 c112_i32
  let v2781 : Index := Scalar.indexCast v2780
  ![v2781.toNat]

def k0_chk248 (v2782 : IVec S16 32) : Prop :=
  (∀ a x, ((![v2782] : Fin 1 → IVec S16 32) a x).toNat < S100000.size a)
instance k0_chk248.dec : ∀ (v2782 : IVec S16 32), Decidable (k0_chk248 v2782) := fun v2782 => decidable_of_iff' _ (Iff.of_eq (k0_chk248.eq_1 v2782))
theorem k0_idx248_inb : ∀ (v2782 : IVec S16 32) (k0_hw248 : k0_chk248 v2782), ∀ a x, ((![v2782] : Fin 1 → IVec S16 32) a x).toNat < S100000.size a := fun v2782 k0_hw248 => k0_hw248
@[reducible] def k0_t4_loop : Scf.Loop 32 :=
  let c0_i32_971 : BitVec 32 := 0#32
  let c25_i32_972 : BitVec 32 := 25#32
  let v2702 : BitVec 32 := Scalar.addi c0_i32_971 c25_i32_972
  let c1_i32_973 : BitVec 32 := 1#32
  ⟨c0_i32_971, v2702, c1_i32_973⟩
def k0_off29 (k0_t4 : Fin k0_t4_loop.trips) : Fin 1 → Nat :=
  let c0_i32_971 : BitVec 32 := 0#32
  let c1_i32_973 : BitVec 32 := 1#32
  let arg24 : BitVec 32 := Scf.iv c0_i32_971 c1_i32_973 k0_t4
  let c128_i32_999 : BitVec 32 := 128#32
  let v2737 : BitVec 32 := Scalar.muli arg24 c128_i32_999
  let c0_i32_1000 : BitVec 32 := 0#32
  let v2738 : BitVec 32 := Scalar.addi v2737 c0_i32_1000
  let v2739 : Index := Scalar.indexCast v2738
  ![v2739.toNat]

def k0_chk249 (v2740 : IVec S16 32) : Prop :=
  (∀ a x, ((![v2740] : Fin 1 → IVec S16 32) a x).toNat < S100000.size a)
instance k0_chk249.dec : ∀ (v2740 : IVec S16 32), Decidable (k0_chk249 v2740) := fun v2740 => decidable_of_iff' _ (Iff.of_eq (k0_chk249.eq_1 v2740))
theorem k0_idx249_inb : ∀ (v2740 : IVec S16 32) (k0_hw249 : k0_chk249 v2740), ∀ a x, ((![v2740] : Fin 1 → IVec S16 32) a x).toNat < S100000.size a := fun v2740 k0_hw249 => k0_hw249
def k0_off30 (k0_t4 : Fin k0_t4_loop.trips) : Fin 1 → Nat :=
  let c0_i32_971 : BitVec 32 := 0#32
  let c1_i32_973 : BitVec 32 := 1#32
  let arg24 : BitVec 32 := Scf.iv c0_i32_971 c1_i32_973 k0_t4
  let c128_i32_1001 : BitVec 32 := 128#32
  let v2743 : BitVec 32 := Scalar.muli arg24 c128_i32_1001
  let c16_i32 : BitVec 32 := 16#32
  let v2744 : BitVec 32 := Scalar.addi v2743 c16_i32
  let v2745 : Index := Scalar.indexCast v2744
  ![v2745.toNat]

def k0_chk250 (v2746 : IVec S16 32) : Prop :=
  (∀ a x, ((![v2746] : Fin 1 → IVec S16 32) a x).toNat < S100000.size a)
instance k0_chk250.dec : ∀ (v2746 : IVec S16 32), Decidable (k0_chk250 v2746) := fun v2746 => decidable_of_iff' _ (Iff.of_eq (k0_chk250.eq_1 v2746))
theorem k0_idx250_inb : ∀ (v2746 : IVec S16 32) (k0_hw250 : k0_chk250 v2746), ∀ a x, ((![v2746] : Fin 1 → IVec S16 32) a x).toNat < S100000.size a := fun v2746 k0_hw250 => k0_hw250
def k0_off31 (k0_t4 : Fin k0_t4_loop.trips) : Fin 1 → Nat :=
  let c0_i32_971 : BitVec 32 := 0#32
  let c1_i32_973 : BitVec 32 := 1#32
  let arg24 : BitVec 32 := Scf.iv c0_i32_971 c1_i32_973 k0_t4
  let c128_i32_1002 : BitVec 32 := 128#32
  let v2749 : BitVec 32 := Scalar.muli arg24 c128_i32_1002
  let c32_i32 : BitVec 32 := 32#32
  let v2750 : BitVec 32 := Scalar.addi v2749 c32_i32
  let v2751 : Index := Scalar.indexCast v2750
  ![v2751.toNat]

def k0_chk251 (v2752 : IVec S16 32) : Prop :=
  (∀ a x, ((![v2752] : Fin 1 → IVec S16 32) a x).toNat < S100000.size a)
instance k0_chk251.dec : ∀ (v2752 : IVec S16 32), Decidable (k0_chk251 v2752) := fun v2752 => decidable_of_iff' _ (Iff.of_eq (k0_chk251.eq_1 v2752))
theorem k0_idx251_inb : ∀ (v2752 : IVec S16 32) (k0_hw251 : k0_chk251 v2752), ∀ a x, ((![v2752] : Fin 1 → IVec S16 32) a x).toNat < S100000.size a := fun v2752 k0_hw251 => k0_hw251
def k0_off32 (k0_t4 : Fin k0_t4_loop.trips) : Fin 1 → Nat :=
  let c0_i32_971 : BitVec 32 := 0#32
  let c1_i32_973 : BitVec 32 := 1#32
  let arg24 : BitVec 32 := Scf.iv c0_i32_971 c1_i32_973 k0_t4
  let c128_i32_1003 : BitVec 32 := 128#32
  let v2755 : BitVec 32 := Scalar.muli arg24 c128_i32_1003
  let c48_i32 : BitVec 32 := 48#32
  let v2756 : BitVec 32 := Scalar.addi v2755 c48_i32
  let v2757 : Index := Scalar.indexCast v2756
  ![v2757.toNat]

def k0_chk252 (v2758 : IVec S16 32) : Prop :=
  (∀ a x, ((![v2758] : Fin 1 → IVec S16 32) a x).toNat < S100000.size a)
instance k0_chk252.dec : ∀ (v2758 : IVec S16 32), Decidable (k0_chk252 v2758) := fun v2758 => decidable_of_iff' _ (Iff.of_eq (k0_chk252.eq_1 v2758))
theorem k0_idx252_inb : ∀ (v2758 : IVec S16 32) (k0_hw252 : k0_chk252 v2758), ∀ a x, ((![v2758] : Fin 1 → IVec S16 32) a x).toNat < S100000.size a := fun v2758 k0_hw252 => k0_hw252
def k0_off33 (k0_t4 : Fin k0_t4_loop.trips) : Fin 1 → Nat :=
  let c0_i32_971 : BitVec 32 := 0#32
  let c1_i32_973 : BitVec 32 := 1#32
  let arg24 : BitVec 32 := Scf.iv c0_i32_971 c1_i32_973 k0_t4
  let c128_i32_1004 : BitVec 32 := 128#32
  let v2761 : BitVec 32 := Scalar.muli arg24 c128_i32_1004
  let c64_i32_1005 : BitVec 32 := 64#32
  let v2762 : BitVec 32 := Scalar.addi v2761 c64_i32_1005
  let v2763 : Index := Scalar.indexCast v2762
  ![v2763.toNat]

def k0_chk253 (v2764 : IVec S16 32) : Prop :=
  (∀ a x, ((![v2764] : Fin 1 → IVec S16 32) a x).toNat < S100000.size a)
instance k0_chk253.dec : ∀ (v2764 : IVec S16 32), Decidable (k0_chk253 v2764) := fun v2764 => decidable_of_iff' _ (Iff.of_eq (k0_chk253.eq_1 v2764))
theorem k0_idx253_inb : ∀ (v2764 : IVec S16 32) (k0_hw253 : k0_chk253 v2764), ∀ a x, ((![v2764] : Fin 1 → IVec S16 32) a x).toNat < S100000.size a := fun v2764 k0_hw253 => k0_hw253
def k0_off34 (k0_t4 : Fin k0_t4_loop.trips) : Fin 1 → Nat :=
  let c0_i32_971 : BitVec 32 := 0#32
  let c1_i32_973 : BitVec 32 := 1#32
  let arg24 : BitVec 32 := Scf.iv c0_i32_971 c1_i32_973 k0_t4
  let c128_i32_1006 : BitVec 32 := 128#32
  let v2767 : BitVec 32 := Scalar.muli arg24 c128_i32_1006
  let c80_i32_1007 : BitVec 32 := 80#32
  let v2768 : BitVec 32 := Scalar.addi v2767 c80_i32_1007
  let v2769 : Index := Scalar.indexCast v2768
  ![v2769.toNat]

def k0_chk254 (v2770 : IVec S16 32) : Prop :=
  (∀ a x, ((![v2770] : Fin 1 → IVec S16 32) a x).toNat < S100000.size a)
instance k0_chk254.dec : ∀ (v2770 : IVec S16 32), Decidable (k0_chk254 v2770) := fun v2770 => decidable_of_iff' _ (Iff.of_eq (k0_chk254.eq_1 v2770))
theorem k0_idx254_inb : ∀ (v2770 : IVec S16 32) (k0_hw254 : k0_chk254 v2770), ∀ a x, ((![v2770] : Fin 1 → IVec S16 32) a x).toNat < S100000.size a := fun v2770 k0_hw254 => k0_hw254
def k0_off35 (k0_t4 : Fin k0_t4_loop.trips) : Fin 1 → Nat :=
  let c0_i32_971 : BitVec 32 := 0#32
  let c1_i32_973 : BitVec 32 := 1#32
  let arg24 : BitVec 32 := Scf.iv c0_i32_971 c1_i32_973 k0_t4
  let c128_i32_1008 : BitVec 32 := 128#32
  let v2773 : BitVec 32 := Scalar.muli arg24 c128_i32_1008
  let c96_i32_1009 : BitVec 32 := 96#32
  let v2774 : BitVec 32 := Scalar.addi v2773 c96_i32_1009
  let v2775 : Index := Scalar.indexCast v2774
  ![v2775.toNat]

def k0_chk255 (v2776 : IVec S16 32) : Prop :=
  (∀ a x, ((![v2776] : Fin 1 → IVec S16 32) a x).toNat < S100000.size a)
instance k0_chk255.dec : ∀ (v2776 : IVec S16 32), Decidable (k0_chk255 v2776) := fun v2776 => decidable_of_iff' _ (Iff.of_eq (k0_chk255.eq_1 v2776))
theorem k0_idx255_inb : ∀ (v2776 : IVec S16 32) (k0_hw255 : k0_chk255 v2776), ∀ a x, ((![v2776] : Fin 1 → IVec S16 32) a x).toNat < S100000.size a := fun v2776 k0_hw255 => k0_hw255
def k0_off36 (k0_t4 : Fin k0_t4_loop.trips) : Fin 1 → Nat :=
  let c0_i32_971 : BitVec 32 := 0#32
  let c1_i32_973 : BitVec 32 := 1#32
  let arg24 : BitVec 32 := Scf.iv c0_i32_971 c1_i32_973 k0_t4
  let c128_i32_1010 : BitVec 32 := 128#32
  let v2779 : BitVec 32 := Scalar.muli arg24 c128_i32_1010
  let c112_i32 : BitVec 32 := 112#32
  let v2780 : BitVec 32 := Scalar.addi v2779 c112_i32
  let v2781 : Index := Scalar.indexCast v2780
  ![v2781.toNat]

def k0_chk256 (v2782 : IVec S16 32) : Prop :=
  (∀ a x, ((![v2782] : Fin 1 → IVec S16 32) a x).toNat < S100000.size a)
instance k0_chk256.dec : ∀ (v2782 : IVec S16 32), Decidable (k0_chk256 v2782) := fun v2782 => decidable_of_iff' _ (Iff.of_eq (k0_chk256.eq_1 v2782))
theorem k0_idx256_inb : ∀ (v2782 : IVec S16 32) (k0_hw256 : k0_chk256 v2782), ∀ a x, ((![v2782] : Fin 1 → IVec S16 32) a x).toNat < S100000.size a := fun v2782 k0_hw256 => k0_hw256
@[reducible] def k0_t5_loop : Scf.Loop 32 :=
  let c0_i32_975 : BitVec 32 := 0#32
  let c25_i32_976 : BitVec 32 := 25#32
  let v2709 : BitVec 32 := Scalar.addi c0_i32_975 c25_i32_976
  let c1_i32_977 : BitVec 32 := 1#32
  ⟨c0_i32_975, v2709, c1_i32_977⟩
def k0_off37 (k0_t5 : Fin k0_t5_loop.trips) : Fin 1 → Nat :=
  let c0_i32_975 : BitVec 32 := 0#32
  let c1_i32_977 : BitVec 32 := 1#32
  let arg24 : BitVec 32 := Scf.iv c0_i32_975 c1_i32_977 k0_t5
  let c128_i32_999 : BitVec 32 := 128#32
  let v2737 : BitVec 32 := Scalar.muli arg24 c128_i32_999
  let c0_i32_1000 : BitVec 32 := 0#32
  let v2738 : BitVec 32 := Scalar.addi v2737 c0_i32_1000
  let v2739 : Index := Scalar.indexCast v2738
  ![v2739.toNat]

def k0_chk257 (v2740 : IVec S16 32) : Prop :=
  (∀ a x, ((![v2740] : Fin 1 → IVec S16 32) a x).toNat < S100000.size a)
instance k0_chk257.dec : ∀ (v2740 : IVec S16 32), Decidable (k0_chk257 v2740) := fun v2740 => decidable_of_iff' _ (Iff.of_eq (k0_chk257.eq_1 v2740))
theorem k0_idx257_inb : ∀ (v2740 : IVec S16 32) (k0_hw257 : k0_chk257 v2740), ∀ a x, ((![v2740] : Fin 1 → IVec S16 32) a x).toNat < S100000.size a := fun v2740 k0_hw257 => k0_hw257
def k0_off38 (k0_t5 : Fin k0_t5_loop.trips) : Fin 1 → Nat :=
  let c0_i32_975 : BitVec 32 := 0#32
  let c1_i32_977 : BitVec 32 := 1#32
  let arg24 : BitVec 32 := Scf.iv c0_i32_975 c1_i32_977 k0_t5
  let c128_i32_1001 : BitVec 32 := 128#32
  let v2743 : BitVec 32 := Scalar.muli arg24 c128_i32_1001
  let c16_i32 : BitVec 32 := 16#32
  let v2744 : BitVec 32 := Scalar.addi v2743 c16_i32
  let v2745 : Index := Scalar.indexCast v2744
  ![v2745.toNat]

def k0_chk258 (v2746 : IVec S16 32) : Prop :=
  (∀ a x, ((![v2746] : Fin 1 → IVec S16 32) a x).toNat < S100000.size a)
instance k0_chk258.dec : ∀ (v2746 : IVec S16 32), Decidable (k0_chk258 v2746) := fun v2746 => decidable_of_iff' _ (Iff.of_eq (k0_chk258.eq_1 v2746))
theorem k0_idx258_inb : ∀ (v2746 : IVec S16 32) (k0_hw258 : k0_chk258 v2746), ∀ a x, ((![v2746] : Fin 1 → IVec S16 32) a x).toNat < S100000.size a := fun v2746 k0_hw258 => k0_hw258
def k0_off39 (k0_t5 : Fin k0_t5_loop.trips) : Fin 1 → Nat :=
  let c0_i32_975 : BitVec 32 := 0#32
  let c1_i32_977 : BitVec 32 := 1#32
  let arg24 : BitVec 32 := Scf.iv c0_i32_975 c1_i32_977 k0_t5
  let c128_i32_1002 : BitVec 32 := 128#32
  let v2749 : BitVec 32 := Scalar.muli arg24 c128_i32_1002
  let c32_i32 : BitVec 32 := 32#32
  let v2750 : BitVec 32 := Scalar.addi v2749 c32_i32
  let v2751 : Index := Scalar.indexCast v2750
  ![v2751.toNat]

def k0_chk259 (v2752 : IVec S16 32) : Prop :=
  (∀ a x, ((![v2752] : Fin 1 → IVec S16 32) a x).toNat < S100000.size a)
instance k0_chk259.dec : ∀ (v2752 : IVec S16 32), Decidable (k0_chk259 v2752) := fun v2752 => decidable_of_iff' _ (Iff.of_eq (k0_chk259.eq_1 v2752))
theorem k0_idx259_inb : ∀ (v2752 : IVec S16 32) (k0_hw259 : k0_chk259 v2752), ∀ a x, ((![v2752] : Fin 1 → IVec S16 32) a x).toNat < S100000.size a := fun v2752 k0_hw259 => k0_hw259
def k0_off40 (k0_t5 : Fin k0_t5_loop.trips) : Fin 1 → Nat :=
  let c0_i32_975 : BitVec 32 := 0#32
  let c1_i32_977 : BitVec 32 := 1#32
  let arg24 : BitVec 32 := Scf.iv c0_i32_975 c1_i32_977 k0_t5
  let c128_i32_1003 : BitVec 32 := 128#32
  let v2755 : BitVec 32 := Scalar.muli arg24 c128_i32_1003
  let c48_i32 : BitVec 32 := 48#32
  let v2756 : BitVec 32 := Scalar.addi v2755 c48_i32
  let v2757 : Index := Scalar.indexCast v2756
  ![v2757.toNat]

def k0_chk260 (v2758 : IVec S16 32) : Prop :=
  (∀ a x, ((![v2758] : Fin 1 → IVec S16 32) a x).toNat < S100000.size a)
instance k0_chk260.dec : ∀ (v2758 : IVec S16 32), Decidable (k0_chk260 v2758) := fun v2758 => decidable_of_iff' _ (Iff.of_eq (k0_chk260.eq_1 v2758))
theorem k0_idx260_inb : ∀ (v2758 : IVec S16 32) (k0_hw260 : k0_chk260 v2758), ∀ a x, ((![v2758] : Fin 1 → IVec S16 32) a x).toNat < S100000.size a := fun v2758 k0_hw260 => k0_hw260
def k0_off41 (k0_t5 : Fin k0_t5_loop.trips) : Fin 1 → Nat :=
  let c0_i32_975 : BitVec 32 := 0#32
  let c1_i32_977 : BitVec 32 := 1#32
  let arg24 : BitVec 32 := Scf.iv c0_i32_975 c1_i32_977 k0_t5
  let c128_i32_1004 : BitVec 32 := 128#32
  let v2761 : BitVec 32 := Scalar.muli arg24 c128_i32_1004
  let c64_i32_1005 : BitVec 32 := 64#32
  let v2762 : BitVec 32 := Scalar.addi v2761 c64_i32_1005
  let v2763 : Index := Scalar.indexCast v2762
  ![v2763.toNat]

def k0_chk261 (v2764 : IVec S16 32) : Prop :=
  (∀ a x, ((![v2764] : Fin 1 → IVec S16 32) a x).toNat < S100000.size a)
instance k0_chk261.dec : ∀ (v2764 : IVec S16 32), Decidable (k0_chk261 v2764) := fun v2764 => decidable_of_iff' _ (Iff.of_eq (k0_chk261.eq_1 v2764))
theorem k0_idx261_inb : ∀ (v2764 : IVec S16 32) (k0_hw261 : k0_chk261 v2764), ∀ a x, ((![v2764] : Fin 1 → IVec S16 32) a x).toNat < S100000.size a := fun v2764 k0_hw261 => k0_hw261
def k0_off42 (k0_t5 : Fin k0_t5_loop.trips) : Fin 1 → Nat :=
  let c0_i32_975 : BitVec 32 := 0#32
  let c1_i32_977 : BitVec 32 := 1#32
  let arg24 : BitVec 32 := Scf.iv c0_i32_975 c1_i32_977 k0_t5
  let c128_i32_1006 : BitVec 32 := 128#32
  let v2767 : BitVec 32 := Scalar.muli arg24 c128_i32_1006
  let c80_i32_1007 : BitVec 32 := 80#32
  let v2768 : BitVec 32 := Scalar.addi v2767 c80_i32_1007
  let v2769 : Index := Scalar.indexCast v2768
  ![v2769.toNat]

def k0_chk262 (v2770 : IVec S16 32) : Prop :=
  (∀ a x, ((![v2770] : Fin 1 → IVec S16 32) a x).toNat < S100000.size a)
instance k0_chk262.dec : ∀ (v2770 : IVec S16 32), Decidable (k0_chk262 v2770) := fun v2770 => decidable_of_iff' _ (Iff.of_eq (k0_chk262.eq_1 v2770))
theorem k0_idx262_inb : ∀ (v2770 : IVec S16 32) (k0_hw262 : k0_chk262 v2770), ∀ a x, ((![v2770] : Fin 1 → IVec S16 32) a x).toNat < S100000.size a := fun v2770 k0_hw262 => k0_hw262
def k0_off43 (k0_t5 : Fin k0_t5_loop.trips) : Fin 1 → Nat :=
  let c0_i32_975 : BitVec 32 := 0#32
  let c1_i32_977 : BitVec 32 := 1#32
  let arg24 : BitVec 32 := Scf.iv c0_i32_975 c1_i32_977 k0_t5
  let c128_i32_1008 : BitVec 32 := 128#32
  let v2773 : BitVec 32 := Scalar.muli arg24 c128_i32_1008
  let c96_i32_1009 : BitVec 32 := 96#32
  let v2774 : BitVec 32 := Scalar.addi v2773 c96_i32_1009
  let v2775 : Index := Scalar.indexCast v2774
  ![v2775.toNat]

def k0_chk263 (v2776 : IVec S16 32) : Prop :=
  (∀ a x, ((![v2776] : Fin 1 → IVec S16 32) a x).toNat < S100000.size a)
instance k0_chk263.dec : ∀ (v2776 : IVec S16 32), Decidable (k0_chk263 v2776) := fun v2776 => decidable_of_iff' _ (Iff.of_eq (k0_chk263.eq_1 v2776))
theorem k0_idx263_inb : ∀ (v2776 : IVec S16 32) (k0_hw263 : k0_chk263 v2776), ∀ a x, ((![v2776] : Fin 1 → IVec S16 32) a x).toNat < S100000.size a := fun v2776 k0_hw263 => k0_hw263
def k0_off44 (k0_t5 : Fin k0_t5_loop.trips) : Fin 1 → Nat :=
  let c0_i32_975 : BitVec 32 := 0#32
  let c1_i32_977 : BitVec 32 := 1#32
  let arg24 : BitVec 32 := Scf.iv c0_i32_975 c1_i32_977 k0_t5
  let c128_i32_1010 : BitVec 32 := 128#32
  let v2779 : BitVec 32 := Scalar.muli arg24 c128_i32_1010
  let c112_i32 : BitVec 32 := 112#32
  let v2780 : BitVec 32 := Scalar.addi v2779 c112_i32
  let v2781 : Index := Scalar.indexCast v2780
  ![v2781.toNat]

def k0_chk264 (v2782 : IVec S16 32) : Prop :=
  (∀ a x, ((![v2782] : Fin 1 → IVec S16 32) a x).toNat < S100000.size a)
instance k0_chk264.dec : ∀ (v2782 : IVec S16 32), Decidable (k0_chk264 v2782) := fun v2782 => decidable_of_iff' _ (Iff.of_eq (k0_chk264.eq_1 v2782))
theorem k0_idx264_inb : ∀ (v2782 : IVec S16 32) (k0_hw264 : k0_chk264 v2782), ∀ a x, ((![v2782] : Fin 1 → IVec S16 32) a x).toNat < S100000.size a := fun v2782 k0_hw264 => k0_hw264
@[reducible] def k0_t6_loop : Scf.Loop 32 :=
  let c0_i32_979 : BitVec 32 := 0#32
  let c25_i32_980 : BitVec 32 := 25#32
  let v2716 : BitVec 32 := Scalar.addi c0_i32_979 c25_i32_980
  let c1_i32_981 : BitVec 32 := 1#32
  ⟨c0_i32_979, v2716, c1_i32_981⟩
def k0_off45 (k0_t6 : Fin k0_t6_loop.trips) : Fin 1 → Nat :=
  let c0_i32_979 : BitVec 32 := 0#32
  let c1_i32_981 : BitVec 32 := 1#32
  let arg24 : BitVec 32 := Scf.iv c0_i32_979 c1_i32_981 k0_t6
  let c128_i32_999 : BitVec 32 := 128#32
  let v2737 : BitVec 32 := Scalar.muli arg24 c128_i32_999
  let c0_i32_1000 : BitVec 32 := 0#32
  let v2738 : BitVec 32 := Scalar.addi v2737 c0_i32_1000
  let v2739 : Index := Scalar.indexCast v2738
  ![v2739.toNat]

def k0_chk265 (v2740 : IVec S16 32) : Prop :=
  (∀ a x, ((![v2740] : Fin 1 → IVec S16 32) a x).toNat < S100000.size a)
instance k0_chk265.dec : ∀ (v2740 : IVec S16 32), Decidable (k0_chk265 v2740) := fun v2740 => decidable_of_iff' _ (Iff.of_eq (k0_chk265.eq_1 v2740))
theorem k0_idx265_inb : ∀ (v2740 : IVec S16 32) (k0_hw265 : k0_chk265 v2740), ∀ a x, ((![v2740] : Fin 1 → IVec S16 32) a x).toNat < S100000.size a := fun v2740 k0_hw265 => k0_hw265
def k0_off46 (k0_t6 : Fin k0_t6_loop.trips) : Fin 1 → Nat :=
  let c0_i32_979 : BitVec 32 := 0#32
  let c1_i32_981 : BitVec 32 := 1#32
  let arg24 : BitVec 32 := Scf.iv c0_i32_979 c1_i32_981 k0_t6
  let c128_i32_1001 : BitVec 32 := 128#32
  let v2743 : BitVec 32 := Scalar.muli arg24 c128_i32_1001
  let c16_i32 : BitVec 32 := 16#32
  let v2744 : BitVec 32 := Scalar.addi v2743 c16_i32
  let v2745 : Index := Scalar.indexCast v2744
  ![v2745.toNat]

def k0_chk266 (v2746 : IVec S16 32) : Prop :=
  (∀ a x, ((![v2746] : Fin 1 → IVec S16 32) a x).toNat < S100000.size a)
instance k0_chk266.dec : ∀ (v2746 : IVec S16 32), Decidable (k0_chk266 v2746) := fun v2746 => decidable_of_iff' _ (Iff.of_eq (k0_chk266.eq_1 v2746))
theorem k0_idx266_inb : ∀ (v2746 : IVec S16 32) (k0_hw266 : k0_chk266 v2746), ∀ a x, ((![v2746] : Fin 1 → IVec S16 32) a x).toNat < S100000.size a := fun v2746 k0_hw266 => k0_hw266
def k0_off47 (k0_t6 : Fin k0_t6_loop.trips) : Fin 1 → Nat :=
  let c0_i32_979 : BitVec 32 := 0#32
  let c1_i32_981 : BitVec 32 := 1#32
  let arg24 : BitVec 32 := Scf.iv c0_i32_979 c1_i32_981 k0_t6
  let c128_i32_1002 : BitVec 32 := 128#32
  let v2749 : BitVec 32 := Scalar.muli arg24 c128_i32_1002
  let c32_i32 : BitVec 32 := 32#32
  let v2750 : BitVec 32 := Scalar.addi v2749 c32_i32
  let v2751 : Index := Scalar.indexCast v2750
  ![v2751.toNat]

def k0_chk267 (v2752 : IVec S16 32) : Prop :=
  (∀ a x, ((![v2752] : Fin 1 → IVec S16 32) a x).toNat < S100000.size a)
instance k0_chk267.dec : ∀ (v2752 : IVec S16 32), Decidable (k0_chk267 v2752) := fun v2752 => decidable_of_iff' _ (Iff.of_eq (k0_chk267.eq_1 v2752))
theorem k0_idx267_inb : ∀ (v2752 : IVec S16 32) (k0_hw267 : k0_chk267 v2752), ∀ a x, ((![v2752] : Fin 1 → IVec S16 32) a x).toNat < S100000.size a := fun v2752 k0_hw267 => k0_hw267
def k0_off48 (k0_t6 : Fin k0_t6_loop.trips) : Fin 1 → Nat :=
  let c0_i32_979 : BitVec 32 := 0#32
  let c1_i32_981 : BitVec 32 := 1#32
  let arg24 : BitVec 32 := Scf.iv c0_i32_979 c1_i32_981 k0_t6
  let c128_i32_1003 : BitVec 32 := 128#32
  let v2755 : BitVec 32 := Scalar.muli arg24 c128_i32_1003
  let c48_i32 : BitVec 32 := 48#32
  let v2756 : BitVec 32 := Scalar.addi v2755 c48_i32
  let v2757 : Index := Scalar.indexCast v2756
  ![v2757.toNat]

def k0_chk268 (v2758 : IVec S16 32) : Prop :=
  (∀ a x, ((![v2758] : Fin 1 → IVec S16 32) a x).toNat < S100000.size a)
instance k0_chk268.dec : ∀ (v2758 : IVec S16 32), Decidable (k0_chk268 v2758) := fun v2758 => decidable_of_iff' _ (Iff.of_eq (k0_chk268.eq_1 v2758))
theorem k0_idx268_inb : ∀ (v2758 : IVec S16 32) (k0_hw268 : k0_chk268 v2758), ∀ a x, ((![v2758] : Fin 1 → IVec S16 32) a x).toNat < S100000.size a := fun v2758 k0_hw268 => k0_hw268
def k0_off49 (k0_t6 : Fin k0_t6_loop.trips) : Fin 1 → Nat :=
  let c0_i32_979 : BitVec 32 := 0#32
  let c1_i32_981 : BitVec 32 := 1#32
  let arg24 : BitVec 32 := Scf.iv c0_i32_979 c1_i32_981 k0_t6
  let c128_i32_1004 : BitVec 32 := 128#32
  let v2761 : BitVec 32 := Scalar.muli arg24 c128_i32_1004
  let c64_i32_1005 : BitVec 32 := 64#32
  let v2762 : BitVec 32 := Scalar.addi v2761 c64_i32_1005
  let v2763 : Index := Scalar.indexCast v2762
  ![v2763.toNat]

def k0_chk269 (v2764 : IVec S16 32) : Prop :=
  (∀ a x, ((![v2764] : Fin 1 → IVec S16 32) a x).toNat < S100000.size a)
instance k0_chk269.dec : ∀ (v2764 : IVec S16 32), Decidable (k0_chk269 v2764) := fun v2764 => decidable_of_iff' _ (Iff.of_eq (k0_chk269.eq_1 v2764))
theorem k0_idx269_inb : ∀ (v2764 : IVec S16 32) (k0_hw269 : k0_chk269 v2764), ∀ a x, ((![v2764] : Fin 1 → IVec S16 32) a x).toNat < S100000.size a := fun v2764 k0_hw269 => k0_hw269
def k0_off50 (k0_t6 : Fin k0_t6_loop.trips) : Fin 1 → Nat :=
  let c0_i32_979 : BitVec 32 := 0#32
  let c1_i32_981 : BitVec 32 := 1#32
  let arg24 : BitVec 32 := Scf.iv c0_i32_979 c1_i32_981 k0_t6
  let c128_i32_1006 : BitVec 32 := 128#32
  let v2767 : BitVec 32 := Scalar.muli arg24 c128_i32_1006
  let c80_i32_1007 : BitVec 32 := 80#32
  let v2768 : BitVec 32 := Scalar.addi v2767 c80_i32_1007
  let v2769 : Index := Scalar.indexCast v2768
  ![v2769.toNat]

def k0_chk270 (v2770 : IVec S16 32) : Prop :=
  (∀ a x, ((![v2770] : Fin 1 → IVec S16 32) a x).toNat < S100000.size a)
instance k0_chk270.dec : ∀ (v2770 : IVec S16 32), Decidable (k0_chk270 v2770) := fun v2770 => decidable_of_iff' _ (Iff.of_eq (k0_chk270.eq_1 v2770))
theorem k0_idx270_inb : ∀ (v2770 : IVec S16 32) (k0_hw270 : k0_chk270 v2770), ∀ a x, ((![v2770] : Fin 1 → IVec S16 32) a x).toNat < S100000.size a := fun v2770 k0_hw270 => k0_hw270
def k0_off51 (k0_t6 : Fin k0_t6_loop.trips) : Fin 1 → Nat :=
  let c0_i32_979 : BitVec 32 := 0#32
  let c1_i32_981 : BitVec 32 := 1#32
  let arg24 : BitVec 32 := Scf.iv c0_i32_979 c1_i32_981 k0_t6
  let c128_i32_1008 : BitVec 32 := 128#32
  let v2773 : BitVec 32 := Scalar.muli arg24 c128_i32_1008
  let c96_i32_1009 : BitVec 32 := 96#32
  let v2774 : BitVec 32 := Scalar.addi v2773 c96_i32_1009
  let v2775 : Index := Scalar.indexCast v2774
  ![v2775.toNat]

def k0_chk271 (v2776 : IVec S16 32) : Prop :=
  (∀ a x, ((![v2776] : Fin 1 → IVec S16 32) a x).toNat < S100000.size a)
instance k0_chk271.dec : ∀ (v2776 : IVec S16 32), Decidable (k0_chk271 v2776) := fun v2776 => decidable_of_iff' _ (Iff.of_eq (k0_chk271.eq_1 v2776))
theorem k0_idx271_inb : ∀ (v2776 : IVec S16 32) (k0_hw271 : k0_chk271 v2776), ∀ a x, ((![v2776] : Fin 1 → IVec S16 32) a x).toNat < S100000.size a := fun v2776 k0_hw271 => k0_hw271
def k0_off52 (k0_t6 : Fin k0_t6_loop.trips) : Fin 1 → Nat :=
  let c0_i32_979 : BitVec 32 := 0#32
  let c1_i32_981 : BitVec 32 := 1#32
  let arg24 : BitVec 32 := Scf.iv c0_i32_979 c1_i32_981 k0_t6
  let c128_i32_1010 : BitVec 32 := 128#32
  let v2779 : BitVec 32 := Scalar.muli arg24 c128_i32_1010
  let c112_i32 : BitVec 32 := 112#32
  let v2780 : BitVec 32 := Scalar.addi v2779 c112_i32
  let v2781 : Index := Scalar.indexCast v2780
  ![v2781.toNat]

def k0_chk272 (v2782 : IVec S16 32) : Prop :=
  (∀ a x, ((![v2782] : Fin 1 → IVec S16 32) a x).toNat < S100000.size a)
instance k0_chk272.dec : ∀ (v2782 : IVec S16 32), Decidable (k0_chk272 v2782) := fun v2782 => decidable_of_iff' _ (Iff.of_eq (k0_chk272.eq_1 v2782))
theorem k0_idx272_inb : ∀ (v2782 : IVec S16 32) (k0_hw272 : k0_chk272 v2782), ∀ a x, ((![v2782] : Fin 1 → IVec S16 32) a x).toNat < S100000.size a := fun v2782 k0_hw272 => k0_hw272
@[reducible] def k0_t7_loop : Scf.Loop 32 :=
  let c0_i32_983 : BitVec 32 := 0#32
  let c25_i32_984 : BitVec 32 := 25#32
  let v2723 : BitVec 32 := Scalar.addi c0_i32_983 c25_i32_984
  let c1_i32_985 : BitVec 32 := 1#32
  ⟨c0_i32_983, v2723, c1_i32_985⟩
def k0_off53 (k0_t7 : Fin k0_t7_loop.trips) : Fin 1 → Nat :=
  let c0_i32_983 : BitVec 32 := 0#32
  let c1_i32_985 : BitVec 32 := 1#32
  let arg24 : BitVec 32 := Scf.iv c0_i32_983 c1_i32_985 k0_t7
  let c128_i32_999 : BitVec 32 := 128#32
  let v2737 : BitVec 32 := Scalar.muli arg24 c128_i32_999
  let c0_i32_1000 : BitVec 32 := 0#32
  let v2738 : BitVec 32 := Scalar.addi v2737 c0_i32_1000
  let v2739 : Index := Scalar.indexCast v2738
  ![v2739.toNat]

def k0_chk273 (v2740 : IVec S16 32) : Prop :=
  (∀ a x, ((![v2740] : Fin 1 → IVec S16 32) a x).toNat < S100000.size a)
instance k0_chk273.dec : ∀ (v2740 : IVec S16 32), Decidable (k0_chk273 v2740) := fun v2740 => decidable_of_iff' _ (Iff.of_eq (k0_chk273.eq_1 v2740))
theorem k0_idx273_inb : ∀ (v2740 : IVec S16 32) (k0_hw273 : k0_chk273 v2740), ∀ a x, ((![v2740] : Fin 1 → IVec S16 32) a x).toNat < S100000.size a := fun v2740 k0_hw273 => k0_hw273
def k0_off54 (k0_t7 : Fin k0_t7_loop.trips) : Fin 1 → Nat :=
  let c0_i32_983 : BitVec 32 := 0#32
  let c1_i32_985 : BitVec 32 := 1#32
  let arg24 : BitVec 32 := Scf.iv c0_i32_983 c1_i32_985 k0_t7
  let c128_i32_1001 : BitVec 32 := 128#32
  let v2743 : BitVec 32 := Scalar.muli arg24 c128_i32_1001
  let c16_i32 : BitVec 32 := 16#32
  let v2744 : BitVec 32 := Scalar.addi v2743 c16_i32
  let v2745 : Index := Scalar.indexCast v2744
  ![v2745.toNat]

def k0_chk274 (v2746 : IVec S16 32) : Prop :=
  (∀ a x, ((![v2746] : Fin 1 → IVec S16 32) a x).toNat < S100000.size a)
instance k0_chk274.dec : ∀ (v2746 : IVec S16 32), Decidable (k0_chk274 v2746) := fun v2746 => decidable_of_iff' _ (Iff.of_eq (k0_chk274.eq_1 v2746))
theorem k0_idx274_inb : ∀ (v2746 : IVec S16 32) (k0_hw274 : k0_chk274 v2746), ∀ a x, ((![v2746] : Fin 1 → IVec S16 32) a x).toNat < S100000.size a := fun v2746 k0_hw274 => k0_hw274
def k0_off55 (k0_t7 : Fin k0_t7_loop.trips) : Fin 1 → Nat :=
  let c0_i32_983 : BitVec 32 := 0#32
  let c1_i32_985 : BitVec 32 := 1#32
  let arg24 : BitVec 32 := Scf.iv c0_i32_983 c1_i32_985 k0_t7
  let c128_i32_1002 : BitVec 32 := 128#32
  let v2749 : BitVec 32 := Scalar.muli arg24 c128_i32_1002
  let c32_i32 : BitVec 32 := 32#32
  let v2750 : BitVec 32 := Scalar.addi v2749 c32_i32
  let v2751 : Index := Scalar.indexCast v2750
  ![v2751.toNat]

def k0_chk275 (v2752 : IVec S16 32) : Prop :=
  (∀ a x, ((![v2752] : Fin 1 → IVec S16 32) a x).toNat < S100000.size a)
instance k0_chk275.dec : ∀ (v2752 : IVec S16 32), Decidable (k0_chk275 v2752) := fun v2752 => decidable_of_iff' _ (Iff.of_eq (k0_chk275.eq_1 v2752))
theorem k0_idx275_inb : ∀ (v2752 : IVec S16 32) (k0_hw275 : k0_chk275 v2752), ∀ a x, ((![v2752] : Fin 1 → IVec S16 32) a x).toNat < S100000.size a := fun v2752 k0_hw275 => k0_hw275
def k0_off56 (k0_t7 : Fin k0_t7_loop.trips) : Fin 1 → Nat :=
  let c0_i32_983 : BitVec 32 := 0#32
  let c1_i32_985 : BitVec 32 := 1#32
  let arg24 : BitVec 32 := Scf.iv c0_i32_983 c1_i32_985 k0_t7
  let c128_i32_1003 : BitVec 32 := 128#32
  let v2755 : BitVec 32 := Scalar.muli arg24 c128_i32_1003
  let c48_i32 : BitVec 32 := 48#32
  let v2756 : BitVec 32 := Scalar.addi v2755 c48_i32
  let v2757 : Index := Scalar.indexCast v2756
  ![v2757.toNat]

def k0_chk276 (v2758 : IVec S16 32) : Prop :=
  (∀ a x, ((![v2758] : Fin 1 → IVec S16 32) a x).toNat < S100000.size a)
instance k0_chk276.dec : ∀ (v2758 : IVec S16 32), Decidable (k0_chk276 v2758) := fun v2758 => decidable_of_iff' _ (Iff.of_eq (k0_chk276.eq_1 v2758))
theorem k0_idx276_inb : ∀ (v2758 : IVec S16 32) (k0_hw276 : k0_chk276 v2758), ∀ a x, ((![v2758] : Fin 1 → IVec S16 32) a x).toNat < S100000.size a := fun v2758 k0_hw276 => k0_hw276
def k0_off57 (k0_t7 : Fin k0_t7_loop.trips) : Fin 1 → Nat :=
  let c0_i32_983 : BitVec 32 := 0#32
  let c1_i32_985 : BitVec 32 := 1#32
  let arg24 : BitVec 32 := Scf.iv c0_i32_983 c1_i32_985 k0_t7
  let c128_i32_1004 : BitVec 32 := 128#32
  let v2761 : BitVec 32 := Scalar.muli arg24 c128_i32_1004
  let c64_i32_1005 : BitVec 32 := 64#32
  let v2762 : BitVec 32 := Scalar.addi v2761 c64_i32_1005
  let v2763 : Index := Scalar.indexCast v2762
  ![v2763.toNat]

def k0_chk277 (v2764 : IVec S16 32) : Prop :=
  (∀ a x, ((![v2764] : Fin 1 → IVec S16 32) a x).toNat < S100000.size a)
instance k0_chk277.dec : ∀ (v2764 : IVec S16 32), Decidable (k0_chk277 v2764) := fun v2764 => decidable_of_iff' _ (Iff.of_eq (k0_chk277.eq_1 v2764))
theorem k0_idx277_inb : ∀ (v2764 : IVec S16 32) (k0_hw277 : k0_chk277 v2764), ∀ a x, ((![v2764] : Fin 1 → IVec S16 32) a x).toNat < S100000.size a := fun v2764 k0_hw277 => k0_hw277
def k0_off58 (k0_t7 : Fin k0_t7_loop.trips) : Fin 1 → Nat :=
  let c0_i32_983 : BitVec 32 := 0#32
  let c1_i32_985 : BitVec 32 := 1#32
  let arg24 : BitVec 32 := Scf.iv c0_i32_983 c1_i32_985 k0_t7
  let c128_i32_1006 : BitVec 32 := 128#32
  let v2767 : BitVec 32 := Scalar.muli arg24 c128_i32_1006
  let c80_i32_1007 : BitVec 32 := 80#32
  let v2768 : BitVec 32 := Scalar.addi v2767 c80_i32_1007
  let v2769 : Index := Scalar.indexCast v2768
  ![v2769.toNat]

def k0_chk278 (v2770 : IVec S16 32) : Prop :=
  (∀ a x, ((![v2770] : Fin 1 → IVec S16 32) a x).toNat < S100000.size a)
instance k0_chk278.dec : ∀ (v2770 : IVec S16 32), Decidable (k0_chk278 v2770) := fun v2770 => decidable_of_iff' _ (Iff.of_eq (k0_chk278.eq_1 v2770))
theorem k0_idx278_inb : ∀ (v2770 : IVec S16 32) (k0_hw278 : k0_chk278 v2770), ∀ a x, ((![v2770] : Fin 1 → IVec S16 32) a x).toNat < S100000.size a := fun v2770 k0_hw278 => k0_hw278
def k0_off59 (k0_t7 : Fin k0_t7_loop.trips) : Fin 1 → Nat :=
  let c0_i32_983 : BitVec 32 := 0#32
  let c1_i32_985 : BitVec 32 := 1#32
  let arg24 : BitVec 32 := Scf.iv c0_i32_983 c1_i32_985 k0_t7
  let c128_i32_1008 : BitVec 32 := 128#32
  let v2773 : BitVec 32 := Scalar.muli arg24 c128_i32_1008
  let c96_i32_1009 : BitVec 32 := 96#32
  let v2774 : BitVec 32 := Scalar.addi v2773 c96_i32_1009
  let v2775 : Index := Scalar.indexCast v2774
  ![v2775.toNat]

def k0_chk279 (v2776 : IVec S16 32) : Prop :=
  (∀ a x, ((![v2776] : Fin 1 → IVec S16 32) a x).toNat < S100000.size a)
instance k0_chk279.dec : ∀ (v2776 : IVec S16 32), Decidable (k0_chk279 v2776) := fun v2776 => decidable_of_iff' _ (Iff.of_eq (k0_chk279.eq_1 v2776))
theorem k0_idx279_inb : ∀ (v2776 : IVec S16 32) (k0_hw279 : k0_chk279 v2776), ∀ a x, ((![v2776] : Fin 1 → IVec S16 32) a x).toNat < S100000.size a := fun v2776 k0_hw279 => k0_hw279
def k0_off60 (k0_t7 : Fin k0_t7_loop.trips) : Fin 1 → Nat :=
  let c0_i32_983 : BitVec 32 := 0#32
  let c1_i32_985 : BitVec 32 := 1#32
  let arg24 : BitVec 32 := Scf.iv c0_i32_983 c1_i32_985 k0_t7
  let c128_i32_1010 : BitVec 32 := 128#32
  let v2779 : BitVec 32 := Scalar.muli arg24 c128_i32_1010
  let c112_i32 : BitVec 32 := 112#32
  let v2780 : BitVec 32 := Scalar.addi v2779 c112_i32
  let v2781 : Index := Scalar.indexCast v2780
  ![v2781.toNat]

def k0_chk280 (v2782 : IVec S16 32) : Prop :=
  (∀ a x, ((![v2782] : Fin 1 → IVec S16 32) a x).toNat < S100000.size a)
instance k0_chk280.dec : ∀ (v2782 : IVec S16 32), Decidable (k0_chk280 v2782) := fun v2782 => decidable_of_iff' _ (Iff.of_eq (k0_chk280.eq_1 v2782))
theorem k0_idx280_inb : ∀ (v2782 : IVec S16 32) (k0_hw280 : k0_chk280 v2782), ∀ a x, ((![v2782] : Fin 1 → IVec S16 32) a x).toNat < S100000.size a := fun v2782 k0_hw280 => k0_hw280
@[reducible] def k0_t8_loop : Scf.Loop 32 :=
  let c0_i32_987 : BitVec 32 := 0#32
  let c25_i32_988 : BitVec 32 := 25#32
  let v2727 : BitVec 32 := Scalar.addi c0_i32_987 c25_i32_988
  let c1_i32_989 : BitVec 32 := 1#32
  ⟨c0_i32_987, v2727, c1_i32_989⟩
def k0_off61 (k0_t8 : Fin k0_t8_loop.trips) : Fin 1 → Nat :=
  let c0_i32_987 : BitVec 32 := 0#32
  let c1_i32_989 : BitVec 32 := 1#32
  let arg24 : BitVec 32 := Scf.iv c0_i32_987 c1_i32_989 k0_t8
  let c128_i32_999 : BitVec 32 := 128#32
  let v2737 : BitVec 32 := Scalar.muli arg24 c128_i32_999
  let c0_i32_1000 : BitVec 32 := 0#32
  let v2738 : BitVec 32 := Scalar.addi v2737 c0_i32_1000
  let v2739 : Index := Scalar.indexCast v2738
  ![v2739.toNat]

def k0_chk281 (v2740 : IVec S16 32) : Prop :=
  (∀ a x, ((![v2740] : Fin 1 → IVec S16 32) a x).toNat < S100000.size a)
instance k0_chk281.dec : ∀ (v2740 : IVec S16 32), Decidable (k0_chk281 v2740) := fun v2740 => decidable_of_iff' _ (Iff.of_eq (k0_chk281.eq_1 v2740))
theorem k0_idx281_inb : ∀ (v2740 : IVec S16 32) (k0_hw281 : k0_chk281 v2740), ∀ a x, ((![v2740] : Fin 1 → IVec S16 32) a x).toNat < S100000.size a := fun v2740 k0_hw281 => k0_hw281
def k0_off62 (k0_t8 : Fin k0_t8_loop.trips) : Fin 1 → Nat :=
  let c0_i32_987 : BitVec 32 := 0#32
  let c1_i32_989 : BitVec 32 := 1#32
  let arg24 : BitVec 32 := Scf.iv c0_i32_987 c1_i32_989 k0_t8
  let c128_i32_1001 : BitVec 32 := 128#32
  let v2743 : BitVec 32 := Scalar.muli arg24 c128_i32_1001
  let c16_i32 : BitVec 32 := 16#32
  let v2744 : BitVec 32 := Scalar.addi v2743 c16_i32
  let v2745 : Index := Scalar.indexCast v2744
  ![v2745.toNat]

def k0_chk282 (v2746 : IVec S16 32) : Prop :=
  (∀ a x, ((![v2746] : Fin 1 → IVec S16 32) a x).toNat < S100000.size a)
instance k0_chk282.dec : ∀ (v2746 : IVec S16 32), Decidable (k0_chk282 v2746) := fun v2746 => decidable_of_iff' _ (Iff.of_eq (k0_chk282.eq_1 v2746))
theorem k0_idx282_inb : ∀ (v2746 : IVec S16 32) (k0_hw282 : k0_chk282 v2746), ∀ a x, ((![v2746] : Fin 1 → IVec S16 32) a x).toNat < S100000.size a := fun v2746 k0_hw282 => k0_hw282
def k0_off63 (k0_t8 : Fin k0_t8_loop.trips) : Fin 1 → Nat :=
  let c0_i32_987 : BitVec 32 := 0#32
  let c1_i32_989 : BitVec 32 := 1#32
  let arg24 : BitVec 32 := Scf.iv c0_i32_987 c1_i32_989 k0_t8
  let c128_i32_1002 : BitVec 32 := 128#32
  let v2749 : BitVec 32 := Scalar.muli arg24 c128_i32_1002
  let c32_i32 : BitVec 32 := 32#32
  let v2750 : BitVec 32 := Scalar.addi v2749 c32_i32
  let v2751 : Index := Scalar.indexCast v2750
  ![v2751.toNat]

def k0_chk283 (v2752 : IVec S16 32) : Prop :=
  (∀ a x, ((![v2752] : Fin 1 → IVec S16 32) a x).toNat < S100000.size a)
instance k0_chk283.dec : ∀ (v2752 : IVec S16 32), Decidable (k0_chk283 v2752) := fun v2752 => decidable_of_iff' _ (Iff.of_eq (k0_chk283.eq_1 v2752))
theorem k0_idx283_inb : ∀ (v2752 : IVec S16 32) (k0_hw283 : k0_chk283 v2752), ∀ a x, ((![v2752] : Fin 1 → IVec S16 32) a x).toNat < S100000.size a := fun v2752 k0_hw283 => k0_hw283
def k0_off64 (k0_t8 : Fin k0_t8_loop.trips) : Fin 1 → Nat :=
  let c0_i32_987 : BitVec 32 := 0#32
  let c1_i32_989 : BitVec 32 := 1#32
  let arg24 : BitVec 32 := Scf.iv c0_i32_987 c1_i32_989 k0_t8
  let c128_i32_1003 : BitVec 32 := 128#32
  let v2755 : BitVec 32 := Scalar.muli arg24 c128_i32_1003
  let c48_i32 : BitVec 32 := 48#32
  let v2756 : BitVec 32 := Scalar.addi v2755 c48_i32
  let v2757 : Index := Scalar.indexCast v2756
  ![v2757.toNat]

def k0_chk284 (v2758 : IVec S16 32) : Prop :=
  (∀ a x, ((![v2758] : Fin 1 → IVec S16 32) a x).toNat < S100000.size a)
instance k0_chk284.dec : ∀ (v2758 : IVec S16 32), Decidable (k0_chk284 v2758) := fun v2758 => decidable_of_iff' _ (Iff.of_eq (k0_chk284.eq_1 v2758))
theorem k0_idx284_inb : ∀ (v2758 : IVec S16 32) (k0_hw284 : k0_chk284 v2758), ∀ a x, ((![v2758] : Fin 1 → IVec S16 32) a x).toNat < S100000.size a := fun v2758 k0_hw284 => k0_hw284
def k0_off65 (k0_t8 : Fin k0_t8_loop.trips) : Fin 1 → Nat :=
  let c0_i32_987 : BitVec 32 := 0#32
  let c1_i32_989 : BitVec 32 := 1#32
  let arg24 : BitVec 32 := Scf.iv c0_i32_987 c1_i32_989 k0_t8
  let c128_i32_1004 : BitVec 32 := 128#32
  let v2761 : BitVec 32 := Scalar.muli arg24 c128_i32_1004
  let c64_i32_1005 : BitVec 32 := 64#32
  let v2762 : BitVec 32 := Scalar.addi v2761 c64_i32_1005
  let v2763 : Index := Scalar.indexCast v2762
  ![v2763.toNat]

def k0_chk285 (v2764 : IVec S16 32) : Prop :=
  (∀ a x, ((![v2764] : Fin 1 → IVec S16 32) a x).toNat < S100000.size a)
instance k0_chk285.dec : ∀ (v2764 : IVec S16 32), Decidable (k0_chk285 v2764) := fun v2764 => decidable_of_iff' _ (Iff.of_eq (k0_chk285.eq_1 v2764))
theorem k0_idx285_inb : ∀ (v2764 : IVec S16 32) (k0_hw285 : k0_chk285 v2764), ∀ a x, ((![v2764] : Fin 1 → IVec S16 32) a x).toNat < S100000.size a := fun v2764 k0_hw285 => k0_hw285
def k0_off66 (k0_t8 : Fin k0_t8_loop.trips) : Fin 1 → Nat :=
  let c0_i32_987 : BitVec 32 := 0#32
  let c1_i32_989 : BitVec 32 := 1#32
  let arg24 : BitVec 32 := Scf.iv c0_i32_987 c1_i32_989 k0_t8
  let c128_i32_1006 : BitVec 32 := 128#32
  let v2767 : BitVec 32 := Scalar.muli arg24 c128_i32_1006
  let c80_i32_1007 : BitVec 32 := 80#32
  let v2768 : BitVec 32 := Scalar.addi v2767 c80_i32_1007
  let v2769 : Index := Scalar.indexCast v2768
  ![v2769.toNat]

def k0_chk286 (v2770 : IVec S16 32) : Prop :=
  (∀ a x, ((![v2770] : Fin 1 → IVec S16 32) a x).toNat < S100000.size a)
instance k0_chk286.dec : ∀ (v2770 : IVec S16 32), Decidable (k0_chk286 v2770) := fun v2770 => decidable_of_iff' _ (Iff.of_eq (k0_chk286.eq_1 v2770))
theorem k0_idx286_inb : ∀ (v2770 : IVec S16 32) (k0_hw286 : k0_chk286 v2770), ∀ a x, ((![v2770] : Fin 1 → IVec S16 32) a x).toNat < S100000.size a := fun v2770 k0_hw286 => k0_hw286
def k0_off67 (k0_t8 : Fin k0_t8_loop.trips) : Fin 1 → Nat :=
  let c0_i32_987 : BitVec 32 := 0#32
  let c1_i32_989 : BitVec 32 := 1#32
  let arg24 : BitVec 32 := Scf.iv c0_i32_987 c1_i32_989 k0_t8
  let c128_i32_1008 : BitVec 32 := 128#32
  let v2773 : BitVec 32 := Scalar.muli arg24 c128_i32_1008
  let c96_i32_1009 : BitVec 32 := 96#32
  let v2774 : BitVec 32 := Scalar.addi v2773 c96_i32_1009
  let v2775 : Index := Scalar.indexCast v2774
  ![v2775.toNat]

def k0_chk287 (v2776 : IVec S16 32) : Prop :=
  (∀ a x, ((![v2776] : Fin 1 → IVec S16 32) a x).toNat < S100000.size a)
instance k0_chk287.dec : ∀ (v2776 : IVec S16 32), Decidable (k0_chk287 v2776) := fun v2776 => decidable_of_iff' _ (Iff.of_eq (k0_chk287.eq_1 v2776))
theorem k0_idx287_inb : ∀ (v2776 : IVec S16 32) (k0_hw287 : k0_chk287 v2776), ∀ a x, ((![v2776] : Fin 1 → IVec S16 32) a x).toNat < S100000.size a := fun v2776 k0_hw287 => k0_hw287
def k0_off68 (k0_t8 : Fin k0_t8_loop.trips) : Fin 1 → Nat :=
  let c0_i32_987 : BitVec 32 := 0#32
  let c1_i32_989 : BitVec 32 := 1#32
  let arg24 : BitVec 32 := Scf.iv c0_i32_987 c1_i32_989 k0_t8
  let c128_i32_1010 : BitVec 32 := 128#32
  let v2779 : BitVec 32 := Scalar.muli arg24 c128_i32_1010
  let c112_i32 : BitVec 32 := 112#32
  let v2780 : BitVec 32 := Scalar.addi v2779 c112_i32
  let v2781 : Index := Scalar.indexCast v2780
  ![v2781.toNat]

def k0_chk288 (v2782 : IVec S16 32) : Prop :=
  (∀ a x, ((![v2782] : Fin 1 → IVec S16 32) a x).toNat < S100000.size a)
instance k0_chk288.dec : ∀ (v2782 : IVec S16 32), Decidable (k0_chk288 v2782) := fun v2782 => decidable_of_iff' _ (Iff.of_eq (k0_chk288.eq_1 v2782))
theorem k0_idx288_inb : ∀ (v2782 : IVec S16 32) (k0_hw288 : k0_chk288 v2782), ∀ a x, ((![v2782] : Fin 1 → IVec S16 32) a x).toNat < S100000.size a := fun v2782 k0_hw288 => k0_hw288
def k0_off69 (i : grid0.Coords) : Fin 1 → Nat :=
  let arg1 : BitVec 32 := BitVec.ofNat 32 (i 1).val
  let c2_i32 : BitVec 32 := 2#32
  let v2 : BitVec 32 := Scalar.muli arg1 c2_i32
  let arg0 : BitVec 32 := BitVec.ofNat 32 (i 0).val
  let v3 : BitVec 32 := Scalar.addi v2 arg0
  let c128_i32 : BitVec 32 := 128#32
  let v4 : BitVec 32 := Scalar.muli v3 c128_i32
  ![v4.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S26 : S_.BroadcastsInDim S26 (![] : Fin 0 → Fin S26.rank)
  bcast_S26_S1x26_1 : S26.BroadcastsInDim S1x26 (![1] : Fin 1 → Fin S1x26.rank)
  bcast_S1x26_S4096x26_0_1 : S1x26.BroadcastsInDim S4096x26 (![0, 1] : Fin 2 → Fin S4096x26.rank)
  shapeCasts_S4096x26_S32x128x26 : S4096x26.ShapeCasts S32x128x26
  transposes_S32x128x26_S32x26x128_0_2_1 : S32x128x26.Transposes [0, 2, 1] S32x26x128
  shapeCasts_S32x26x128_S106496 : S32x26x128.ShapeCasts S106496
  bcast_S_S106496 : S_.BroadcastsInDim S106496 (![] : Fin 0 → Fin S106496.rank)
  shapeCasts_S4096x200_S32x128x200 : S4096x200.ShapeCasts S32x128x200
  transposes_S32x128x200_S32x200x128_0_2_1 : S32x128x200.Transposes [0, 2, 1] S32x200x128
  shapeCasts_S32x200x128_S819200 : S32x200x128.ShapeCasts S819200
  shapeCasts_S4096x13_S32x128x13 : S4096x13.ShapeCasts S32x128x13
  transposes_S32x128x13_S32x13x128_0_2_1 : S32x128x13.Transposes [0, 2, 1] S32x13x128
  shapeCasts_S32x13x128_S53248 : S32x13x128.ShapeCasts S53248
  slices_S2600000x1_S2599936x1_0_0 : S2600000x1.Slices ![0, 0] S2599936x1
  shapeCasts_S2599936x1_S2599936 : S2599936x1.ShapeCasts S2599936
  slices_S100000x1_S99968x1_0_0 : S100000x1.Slices ![0, 0] S99968x1
  shapeCasts_S99968x1_S99968 : S99968x1.ShapeCasts S99968
  slices_S2600000x1_S64x1_2599936_0 : S2600000x1.Slices ![2599936, 0] S64x1
  transposes_S64x1_S1x64_1_0 : S64x1.Transposes [1, 0] S1x64
  slices_S100000x1_S32x1_99968_0 : S100000x1.Slices ![99968, 0] S32x1
  transposes_S32x1_S1x32_1_0 : S32x1.Transposes [1, 0] S1x32
  transposes_S13x1_S1x13_1_0 : S13x1.Transposes [1, 0] S1x13
  bcast_S1_S1x1_1 : S1.BroadcastsInDim S1x1 (![1] : Fin 1 → Fin S1x1.rank)
  bcast_S_S1x18 : S_.BroadcastsInDim S1x18 (![] : Fin 0 → Fin S1x18.rank)
  concatenates_S1x64_S1x32_S1x13_S1x1_S1x18_S1x128_d1 : Shape.Concatenates [S1x64, S1x32, S1x13, S1x1, S1x18] S1x128 1
  iota_S16_d0_w32_scVector : S16.Iotas .scVector 32 [0]
  inb_S100000_S49984_0 : ∀ a, (![0] : Fin 1 → Nat) a + S49984.size a ≤ S100000.size a
  inb_S99968_S49984_0 : ∀ a, (![0] : Fin 1 → Nat) a + S49984.size a ≤ S99968.size a
  inb_S100000_S49984_49984 : ∀ a, (![49984] : Fin 1 → Nat) a + S49984.size a ≤ S100000.size a
  inb_S99968_S49984_49984 : ∀ a, (![49984] : Fin 1 → Nat) a + S49984.size a ≤ S99968.size a
  inb_S2599936_S2599936_0 : ∀ a, (![0] : Fin 1 → Nat) a + S2599936.size a ≤ S2599936.size a
  gathers_S2599936_S3328 : S2599936.Gathers 0 S3328
  h_S1x128 : 0 < S1x128.numel
  inb_S100000_S16_99968 : ∀ a, (![99968] : Fin 1 → Nat) a + S16.size a ≤ S100000.size a
  h_S16 : 0 < S16.numel
  inb_S100000_S16_99984 : ∀ a, (![99984] : Fin 1 → Nat) a + S16.size a ≤ S100000.size a
  inb_S1664_S16_0 : ∀ a, (![0] : Fin 1 → Nat) a + S16.size a ≤ S1664.size a
  inb_S1664_S16_128 : ∀ a, (![128] : Fin 1 → Nat) a + S16.size a ≤ S1664.size a
  inb_S1664_S16_256 : ∀ a, (![256] : Fin 1 → Nat) a + S16.size a ≤ S1664.size a
  inb_S1664_S16_384 : ∀ a, (![384] : Fin 1 → Nat) a + S16.size a ≤ S1664.size a
  inb_S1664_S16_512 : ∀ a, (![512] : Fin 1 → Nat) a + S16.size a ≤ S1664.size a
  inb_S1664_S16_640 : ∀ a, (![640] : Fin 1 → Nat) a + S16.size a ≤ S1664.size a
  inb_S1664_S16_768 : ∀ a, (![768] : Fin 1 → Nat) a + S16.size a ≤ S1664.size a
  inb_S1664_S16_896 : ∀ a, (![896] : Fin 1 → Nat) a + S16.size a ≤ S1664.size a
  inb_S1664_S16_1024 : ∀ a, (![1024] : Fin 1 → Nat) a + S16.size a ≤ S1664.size a
  inb_S1664_S16_1152 : ∀ a, (![1152] : Fin 1 → Nat) a + S16.size a ≤ S1664.size a
  inb_S1664_S16_1280 : ∀ a, (![1280] : Fin 1 → Nat) a + S16.size a ≤ S1664.size a
  inb_S1664_S16_1408 : ∀ a, (![1408] : Fin 1 → Nat) a + S16.size a ≤ S1664.size a
  inb_S1664_S16_1536 : ∀ a, (![1536] : Fin 1 → Nat) a + S16.size a ≤ S1664.size a
  inb_S1664_S16_16 : ∀ a, (![16] : Fin 1 → Nat) a + S16.size a ≤ S1664.size a
  inb_S1664_S16_144 : ∀ a, (![144] : Fin 1 → Nat) a + S16.size a ≤ S1664.size a
  inb_S1664_S16_272 : ∀ a, (![272] : Fin 1 → Nat) a + S16.size a ≤ S1664.size a
  inb_S1664_S16_400 : ∀ a, (![400] : Fin 1 → Nat) a + S16.size a ≤ S1664.size a
  inb_S1664_S16_528 : ∀ a, (![528] : Fin 1 → Nat) a + S16.size a ≤ S1664.size a
  inb_S1664_S16_656 : ∀ a, (![656] : Fin 1 → Nat) a + S16.size a ≤ S1664.size a
  inb_S1664_S16_784 : ∀ a, (![784] : Fin 1 → Nat) a + S16.size a ≤ S1664.size a
  inb_S1664_S16_912 : ∀ a, (![912] : Fin 1 → Nat) a + S16.size a ≤ S1664.size a
  inb_S1664_S16_1040 : ∀ a, (![1040] : Fin 1 → Nat) a + S16.size a ≤ S1664.size a
  inb_S1664_S16_1168 : ∀ a, (![1168] : Fin 1 → Nat) a + S16.size a ≤ S1664.size a
  inb_S1664_S16_1296 : ∀ a, (![1296] : Fin 1 → Nat) a + S16.size a ≤ S1664.size a
  inb_S1664_S16_1424 : ∀ a, (![1424] : Fin 1 → Nat) a + S16.size a ≤ S1664.size a
  inb_S1664_S16_1552 : ∀ a, (![1552] : Fin 1 → Nat) a + S16.size a ≤ S1664.size a
  inb_S1664_S16_32 : ∀ a, (![32] : Fin 1 → Nat) a + S16.size a ≤ S1664.size a
  inb_S1664_S16_160 : ∀ a, (![160] : Fin 1 → Nat) a + S16.size a ≤ S1664.size a
  inb_S1664_S16_288 : ∀ a, (![288] : Fin 1 → Nat) a + S16.size a ≤ S1664.size a
  inb_S1664_S16_416 : ∀ a, (![416] : Fin 1 → Nat) a + S16.size a ≤ S1664.size a
  inb_S1664_S16_544 : ∀ a, (![544] : Fin 1 → Nat) a + S16.size a ≤ S1664.size a
  inb_S1664_S16_672 : ∀ a, (![672] : Fin 1 → Nat) a + S16.size a ≤ S1664.size a
  inb_S1664_S16_800 : ∀ a, (![800] : Fin 1 → Nat) a + S16.size a ≤ S1664.size a
  inb_S1664_S16_928 : ∀ a, (![928] : Fin 1 → Nat) a + S16.size a ≤ S1664.size a
  inb_S1664_S16_1056 : ∀ a, (![1056] : Fin 1 → Nat) a + S16.size a ≤ S1664.size a
  inb_S1664_S16_1184 : ∀ a, (![1184] : Fin 1 → Nat) a + S16.size a ≤ S1664.size a
  inb_S1664_S16_1312 : ∀ a, (![1312] : Fin 1 → Nat) a + S16.size a ≤ S1664.size a
  inb_S1664_S16_1440 : ∀ a, (![1440] : Fin 1 → Nat) a + S16.size a ≤ S1664.size a
  inb_S1664_S16_1568 : ∀ a, (![1568] : Fin 1 → Nat) a + S16.size a ≤ S1664.size a
  inb_S1664_S16_48 : ∀ a, (![48] : Fin 1 → Nat) a + S16.size a ≤ S1664.size a
  inb_S1664_S16_176 : ∀ a, (![176] : Fin 1 → Nat) a + S16.size a ≤ S1664.size a
  inb_S1664_S16_304 : ∀ a, (![304] : Fin 1 → Nat) a + S16.size a ≤ S1664.size a
  inb_S1664_S16_432 : ∀ a, (![432] : Fin 1 → Nat) a + S16.size a ≤ S1664.size a
  inb_S1664_S16_560 : ∀ a, (![560] : Fin 1 → Nat) a + S16.size a ≤ S1664.size a
  inb_S1664_S16_688 : ∀ a, (![688] : Fin 1 → Nat) a + S16.size a ≤ S1664.size a
  inb_S1664_S16_816 : ∀ a, (![816] : Fin 1 → Nat) a + S16.size a ≤ S1664.size a
  inb_S1664_S16_944 : ∀ a, (![944] : Fin 1 → Nat) a + S16.size a ≤ S1664.size a
  inb_S1664_S16_1072 : ∀ a, (![1072] : Fin 1 → Nat) a + S16.size a ≤ S1664.size a
  inb_S1664_S16_1200 : ∀ a, (![1200] : Fin 1 → Nat) a + S16.size a ≤ S1664.size a
  inb_S1664_S16_1328 : ∀ a, (![1328] : Fin 1 → Nat) a + S16.size a ≤ S1664.size a
  inb_S1664_S16_1456 : ∀ a, (![1456] : Fin 1 → Nat) a + S16.size a ≤ S1664.size a
  inb_S1664_S16_1584 : ∀ a, (![1584] : Fin 1 → Nat) a + S16.size a ≤ S1664.size a
  inb_S1664_S16_64 : ∀ a, (![64] : Fin 1 → Nat) a + S16.size a ≤ S1664.size a
  inb_S1664_S16_192 : ∀ a, (![192] : Fin 1 → Nat) a + S16.size a ≤ S1664.size a
  inb_S1664_S16_320 : ∀ a, (![320] : Fin 1 → Nat) a + S16.size a ≤ S1664.size a
  inb_S1664_S16_448 : ∀ a, (![448] : Fin 1 → Nat) a + S16.size a ≤ S1664.size a
  inb_S1664_S16_576 : ∀ a, (![576] : Fin 1 → Nat) a + S16.size a ≤ S1664.size a
  inb_S1664_S16_704 : ∀ a, (![704] : Fin 1 → Nat) a + S16.size a ≤ S1664.size a
  inb_S1664_S16_832 : ∀ a, (![832] : Fin 1 → Nat) a + S16.size a ≤ S1664.size a
  inb_S1664_S16_960 : ∀ a, (![960] : Fin 1 → Nat) a + S16.size a ≤ S1664.size a
  inb_S1664_S16_1088 : ∀ a, (![1088] : Fin 1 → Nat) a + S16.size a ≤ S1664.size a
  inb_S1664_S16_1216 : ∀ a, (![1216] : Fin 1 → Nat) a + S16.size a ≤ S1664.size a
  inb_S1664_S16_1344 : ∀ a, (![1344] : Fin 1 → Nat) a + S16.size a ≤ S1664.size a
  inb_S1664_S16_1472 : ∀ a, (![1472] : Fin 1 → Nat) a + S16.size a ≤ S1664.size a
  inb_S1664_S16_1600 : ∀ a, (![1600] : Fin 1 → Nat) a + S16.size a ≤ S1664.size a
  inb_S1664_S16_80 : ∀ a, (![80] : Fin 1 → Nat) a + S16.size a ≤ S1664.size a
  inb_S1664_S16_208 : ∀ a, (![208] : Fin 1 → Nat) a + S16.size a ≤ S1664.size a
  inb_S1664_S16_336 : ∀ a, (![336] : Fin 1 → Nat) a + S16.size a ≤ S1664.size a
  inb_S1664_S16_464 : ∀ a, (![464] : Fin 1 → Nat) a + S16.size a ≤ S1664.size a
  inb_S1664_S16_592 : ∀ a, (![592] : Fin 1 → Nat) a + S16.size a ≤ S1664.size a
  inb_S1664_S16_720 : ∀ a, (![720] : Fin 1 → Nat) a + S16.size a ≤ S1664.size a
  inb_S1664_S16_848 : ∀ a, (![848] : Fin 1 → Nat) a + S16.size a ≤ S1664.size a
  inb_S1664_S16_976 : ∀ a, (![976] : Fin 1 → Nat) a + S16.size a ≤ S1664.size a
  inb_S1664_S16_1104 : ∀ a, (![1104] : Fin 1 → Nat) a + S16.size a ≤ S1664.size a
  inb_S1664_S16_1232 : ∀ a, (![1232] : Fin 1 → Nat) a + S16.size a ≤ S1664.size a
  inb_S1664_S16_1360 : ∀ a, (![1360] : Fin 1 → Nat) a + S16.size a ≤ S1664.size a
  inb_S1664_S16_1488 : ∀ a, (![1488] : Fin 1 → Nat) a + S16.size a ≤ S1664.size a
  inb_S1664_S16_1616 : ∀ a, (![1616] : Fin 1 → Nat) a + S16.size a ≤ S1664.size a
  inb_S1664_S16_96 : ∀ a, (![96] : Fin 1 → Nat) a + S16.size a ≤ S1664.size a
  inb_S1664_S16_224 : ∀ a, (![224] : Fin 1 → Nat) a + S16.size a ≤ S1664.size a
  inb_S1664_S16_352 : ∀ a, (![352] : Fin 1 → Nat) a + S16.size a ≤ S1664.size a
  inb_S1664_S16_480 : ∀ a, (![480] : Fin 1 → Nat) a + S16.size a ≤ S1664.size a
  inb_S1664_S16_608 : ∀ a, (![608] : Fin 1 → Nat) a + S16.size a ≤ S1664.size a
  inb_S1664_S16_736 : ∀ a, (![736] : Fin 1 → Nat) a + S16.size a ≤ S1664.size a
  inb_S1664_S16_864 : ∀ a, (![864] : Fin 1 → Nat) a + S16.size a ≤ S1664.size a
  inb_S1664_S16_992 : ∀ a, (![992] : Fin 1 → Nat) a + S16.size a ≤ S1664.size a
  inb_S1664_S16_1120 : ∀ a, (![1120] : Fin 1 → Nat) a + S16.size a ≤ S1664.size a
  inb_S1664_S16_1248 : ∀ a, (![1248] : Fin 1 → Nat) a + S16.size a ≤ S1664.size a
  inb_S1664_S16_1376 : ∀ a, (![1376] : Fin 1 → Nat) a + S16.size a ≤ S1664.size a
  inb_S1664_S16_1504 : ∀ a, (![1504] : Fin 1 → Nat) a + S16.size a ≤ S1664.size a
  inb_S1664_S16_1632 : ∀ a, (![1632] : Fin 1 → Nat) a + S16.size a ≤ S1664.size a
  inb_S1664_S16_112 : ∀ a, (![112] : Fin 1 → Nat) a + S16.size a ≤ S1664.size a
  inb_S1664_S16_240 : ∀ a, (![240] : Fin 1 → Nat) a + S16.size a ≤ S1664.size a
  inb_S1664_S16_368 : ∀ a, (![368] : Fin 1 → Nat) a + S16.size a ≤ S1664.size a
  inb_S1664_S16_496 : ∀ a, (![496] : Fin 1 → Nat) a + S16.size a ≤ S1664.size a
  inb_S1664_S16_624 : ∀ a, (![624] : Fin 1 → Nat) a + S16.size a ≤ S1664.size a
  inb_S1664_S16_752 : ∀ a, (![752] : Fin 1 → Nat) a + S16.size a ≤ S1664.size a
  inb_S1664_S16_880 : ∀ a, (![880] : Fin 1 → Nat) a + S16.size a ≤ S1664.size a
  inb_S1664_S16_1008 : ∀ a, (![1008] : Fin 1 → Nat) a + S16.size a ≤ S1664.size a
  inb_S1664_S16_1136 : ∀ a, (![1136] : Fin 1 → Nat) a + S16.size a ≤ S1664.size a
  inb_S1664_S16_1264 : ∀ a, (![1264] : Fin 1 → Nat) a + S16.size a ≤ S1664.size a
  inb_S1664_S16_1392 : ∀ a, (![1392] : Fin 1 → Nat) a + S16.size a ≤ S1664.size a
  inb_S1664_S16_1520 : ∀ a, (![1520] : Fin 1 → Nat) a + S16.size a ≤ S1664.size a
  inb_S1664_S16_1648 : ∀ a, (![1648] : Fin 1 → Nat) a + S16.size a ≤ S1664.size a
  inb_S3328_S16_0 : ∀ a, (![0] : Fin 1 → Nat) a + S16.size a ≤ S3328.size a
  inb_S3328_S16_128 : ∀ a, (![128] : Fin 1 → Nat) a + S16.size a ≤ S3328.size a
  inb_S3328_S16_256 : ∀ a, (![256] : Fin 1 → Nat) a + S16.size a ≤ S3328.size a
  inb_S3328_S16_384 : ∀ a, (![384] : Fin 1 → Nat) a + S16.size a ≤ S3328.size a
  inb_S3328_S16_512 : ∀ a, (![512] : Fin 1 → Nat) a + S16.size a ≤ S3328.size a
  inb_S3328_S16_640 : ∀ a, (![640] : Fin 1 → Nat) a + S16.size a ≤ S3328.size a
  inb_S3328_S16_768 : ∀ a, (![768] : Fin 1 → Nat) a + S16.size a ≤ S3328.size a
  inb_S3328_S16_896 : ∀ a, (![896] : Fin 1 → Nat) a + S16.size a ≤ S3328.size a
  inb_S3328_S16_1024 : ∀ a, (![1024] : Fin 1 → Nat) a + S16.size a ≤ S3328.size a
  inb_S3328_S16_1152 : ∀ a, (![1152] : Fin 1 → Nat) a + S16.size a ≤ S3328.size a
  inb_S3328_S16_1280 : ∀ a, (![1280] : Fin 1 → Nat) a + S16.size a ≤ S3328.size a
  inb_S3328_S16_1408 : ∀ a, (![1408] : Fin 1 → Nat) a + S16.size a ≤ S3328.size a
  inb_S3328_S16_1536 : ∀ a, (![1536] : Fin 1 → Nat) a + S16.size a ≤ S3328.size a
  inb_S3328_S16_1664 : ∀ a, (![1664] : Fin 1 → Nat) a + S16.size a ≤ S3328.size a
  inb_S3328_S16_1792 : ∀ a, (![1792] : Fin 1 → Nat) a + S16.size a ≤ S3328.size a
  inb_S3328_S16_1920 : ∀ a, (![1920] : Fin 1 → Nat) a + S16.size a ≤ S3328.size a
  inb_S3328_S16_2048 : ∀ a, (![2048] : Fin 1 → Nat) a + S16.size a ≤ S3328.size a
  inb_S3328_S16_2176 : ∀ a, (![2176] : Fin 1 → Nat) a + S16.size a ≤ S3328.size a
  inb_S3328_S16_2304 : ∀ a, (![2304] : Fin 1 → Nat) a + S16.size a ≤ S3328.size a
  inb_S3328_S16_2432 : ∀ a, (![2432] : Fin 1 → Nat) a + S16.size a ≤ S3328.size a
  inb_S3328_S16_2560 : ∀ a, (![2560] : Fin 1 → Nat) a + S16.size a ≤ S3328.size a
  inb_S3328_S16_2688 : ∀ a, (![2688] : Fin 1 → Nat) a + S16.size a ≤ S3328.size a
  inb_S3328_S16_2816 : ∀ a, (![2816] : Fin 1 → Nat) a + S16.size a ≤ S3328.size a
  inb_S3328_S16_2944 : ∀ a, (![2944] : Fin 1 → Nat) a + S16.size a ≤ S3328.size a
  inb_S3328_S16_3072 : ∀ a, (![3072] : Fin 1 → Nat) a + S16.size a ≤ S3328.size a
  inb_S3328_S16_3200 : ∀ a, (![3200] : Fin 1 → Nat) a + S16.size a ≤ S3328.size a
  inb_S3328_S16_16 : ∀ a, (![16] : Fin 1 → Nat) a + S16.size a ≤ S3328.size a
  inb_S3328_S16_144 : ∀ a, (![144] : Fin 1 → Nat) a + S16.size a ≤ S3328.size a
  inb_S3328_S16_272 : ∀ a, (![272] : Fin 1 → Nat) a + S16.size a ≤ S3328.size a
  inb_S3328_S16_400 : ∀ a, (![400] : Fin 1 → Nat) a + S16.size a ≤ S3328.size a
  inb_S3328_S16_528 : ∀ a, (![528] : Fin 1 → Nat) a + S16.size a ≤ S3328.size a
  inb_S3328_S16_656 : ∀ a, (![656] : Fin 1 → Nat) a + S16.size a ≤ S3328.size a
  inb_S3328_S16_784 : ∀ a, (![784] : Fin 1 → Nat) a + S16.size a ≤ S3328.size a
  inb_S3328_S16_912 : ∀ a, (![912] : Fin 1 → Nat) a + S16.size a ≤ S3328.size a
  inb_S3328_S16_1040 : ∀ a, (![1040] : Fin 1 → Nat) a + S16.size a ≤ S3328.size a
  inb_S3328_S16_1168 : ∀ a, (![1168] : Fin 1 → Nat) a + S16.size a ≤ S3328.size a
  inb_S3328_S16_1296 : ∀ a, (![1296] : Fin 1 → Nat) a + S16.size a ≤ S3328.size a
  inb_S3328_S16_1424 : ∀ a, (![1424] : Fin 1 → Nat) a + S16.size a ≤ S3328.size a
  inb_S3328_S16_1552 : ∀ a, (![1552] : Fin 1 → Nat) a + S16.size a ≤ S3328.size a
  inb_S3328_S16_1680 : ∀ a, (![1680] : Fin 1 → Nat) a + S16.size a ≤ S3328.size a
  inb_S3328_S16_1808 : ∀ a, (![1808] : Fin 1 → Nat) a + S16.size a ≤ S3328.size a
  inb_S3328_S16_1936 : ∀ a, (![1936] : Fin 1 → Nat) a + S16.size a ≤ S3328.size a
  inb_S3328_S16_2064 : ∀ a, (![2064] : Fin 1 → Nat) a + S16.size a ≤ S3328.size a
  inb_S3328_S16_2192 : ∀ a, (![2192] : Fin 1 → Nat) a + S16.size a ≤ S3328.size a
  inb_S3328_S16_2320 : ∀ a, (![2320] : Fin 1 → Nat) a + S16.size a ≤ S3328.size a
  inb_S3328_S16_2448 : ∀ a, (![2448] : Fin 1 → Nat) a + S16.size a ≤ S3328.size a
  inb_S3328_S16_2576 : ∀ a, (![2576] : Fin 1 → Nat) a + S16.size a ≤ S3328.size a
  inb_S3328_S16_2704 : ∀ a, (![2704] : Fin 1 → Nat) a + S16.size a ≤ S3328.size a
  inb_S3328_S16_2832 : ∀ a, (![2832] : Fin 1 → Nat) a + S16.size a ≤ S3328.size a
  inb_S3328_S16_2960 : ∀ a, (![2960] : Fin 1 → Nat) a + S16.size a ≤ S3328.size a
  inb_S3328_S16_3088 : ∀ a, (![3088] : Fin 1 → Nat) a + S16.size a ≤ S3328.size a
  inb_S3328_S16_3216 : ∀ a, (![3216] : Fin 1 → Nat) a + S16.size a ≤ S3328.size a
  inb_S3328_S16_32 : ∀ a, (![32] : Fin 1 → Nat) a + S16.size a ≤ S3328.size a
  inb_S3328_S16_160 : ∀ a, (![160] : Fin 1 → Nat) a + S16.size a ≤ S3328.size a
  inb_S3328_S16_288 : ∀ a, (![288] : Fin 1 → Nat) a + S16.size a ≤ S3328.size a
  inb_S3328_S16_416 : ∀ a, (![416] : Fin 1 → Nat) a + S16.size a ≤ S3328.size a
  inb_S3328_S16_544 : ∀ a, (![544] : Fin 1 → Nat) a + S16.size a ≤ S3328.size a
  inb_S3328_S16_672 : ∀ a, (![672] : Fin 1 → Nat) a + S16.size a ≤ S3328.size a
  inb_S3328_S16_800 : ∀ a, (![800] : Fin 1 → Nat) a + S16.size a ≤ S3328.size a
  inb_S3328_S16_928 : ∀ a, (![928] : Fin 1 → Nat) a + S16.size a ≤ S3328.size a
  inb_S3328_S16_1056 : ∀ a, (![1056] : Fin 1 → Nat) a + S16.size a ≤ S3328.size a
  inb_S3328_S16_1184 : ∀ a, (![1184] : Fin 1 → Nat) a + S16.size a ≤ S3328.size a
  inb_S3328_S16_1312 : ∀ a, (![1312] : Fin 1 → Nat) a + S16.size a ≤ S3328.size a
  inb_S3328_S16_1440 : ∀ a, (![1440] : Fin 1 → Nat) a + S16.size a ≤ S3328.size a
  inb_S3328_S16_1568 : ∀ a, (![1568] : Fin 1 → Nat) a + S16.size a ≤ S3328.size a
  inb_S3328_S16_1696 : ∀ a, (![1696] : Fin 1 → Nat) a + S16.size a ≤ S3328.size a
  inb_S3328_S16_1824 : ∀ a, (![1824] : Fin 1 → Nat) a + S16.size a ≤ S3328.size a
  inb_S3328_S16_1952 : ∀ a, (![1952] : Fin 1 → Nat) a + S16.size a ≤ S3328.size a
  inb_S3328_S16_2080 : ∀ a, (![2080] : Fin 1 → Nat) a + S16.size a ≤ S3328.size a
  inb_S3328_S16_2208 : ∀ a, (![2208] : Fin 1 → Nat) a + S16.size a ≤ S3328.size a
  inb_S3328_S16_2336 : ∀ a, (![2336] : Fin 1 → Nat) a + S16.size a ≤ S3328.size a
  inb_S3328_S16_2464 : ∀ a, (![2464] : Fin 1 → Nat) a + S16.size a ≤ S3328.size a
  inb_S3328_S16_2592 : ∀ a, (![2592] : Fin 1 → Nat) a + S16.size a ≤ S3328.size a
  inb_S3328_S16_2720 : ∀ a, (![2720] : Fin 1 → Nat) a + S16.size a ≤ S3328.size a
  inb_S3328_S16_2848 : ∀ a, (![2848] : Fin 1 → Nat) a + S16.size a ≤ S3328.size a
  inb_S3328_S16_2976 : ∀ a, (![2976] : Fin 1 → Nat) a + S16.size a ≤ S3328.size a
  inb_S3328_S16_3104 : ∀ a, (![3104] : Fin 1 → Nat) a + S16.size a ≤ S3328.size a
  inb_S3328_S16_3232 : ∀ a, (![3232] : Fin 1 → Nat) a + S16.size a ≤ S3328.size a
  inb_S3328_S16_48 : ∀ a, (![48] : Fin 1 → Nat) a + S16.size a ≤ S3328.size a
  inb_S3328_S16_176 : ∀ a, (![176] : Fin 1 → Nat) a + S16.size a ≤ S3328.size a
  inb_S3328_S16_304 : ∀ a, (![304] : Fin 1 → Nat) a + S16.size a ≤ S3328.size a
  inb_S3328_S16_432 : ∀ a, (![432] : Fin 1 → Nat) a + S16.size a ≤ S3328.size a
  inb_S3328_S16_560 : ∀ a, (![560] : Fin 1 → Nat) a + S16.size a ≤ S3328.size a
  inb_S3328_S16_688 : ∀ a, (![688] : Fin 1 → Nat) a + S16.size a ≤ S3328.size a
  inb_S3328_S16_816 : ∀ a, (![816] : Fin 1 → Nat) a + S16.size a ≤ S3328.size a
  inb_S3328_S16_944 : ∀ a, (![944] : Fin 1 → Nat) a + S16.size a ≤ S3328.size a
  inb_S3328_S16_1072 : ∀ a, (![1072] : Fin 1 → Nat) a + S16.size a ≤ S3328.size a
  inb_S3328_S16_1200 : ∀ a, (![1200] : Fin 1 → Nat) a + S16.size a ≤ S3328.size a
  inb_S3328_S16_1328 : ∀ a, (![1328] : Fin 1 → Nat) a + S16.size a ≤ S3328.size a
  inb_S3328_S16_1456 : ∀ a, (![1456] : Fin 1 → Nat) a + S16.size a ≤ S3328.size a
  inb_S3328_S16_1584 : ∀ a, (![1584] : Fin 1 → Nat) a + S16.size a ≤ S3328.size a
  inb_S3328_S16_1712 : ∀ a, (![1712] : Fin 1 → Nat) a + S16.size a ≤ S3328.size a
  inb_S3328_S16_1840 : ∀ a, (![1840] : Fin 1 → Nat) a + S16.size a ≤ S3328.size a
  inb_S3328_S16_1968 : ∀ a, (![1968] : Fin 1 → Nat) a + S16.size a ≤ S3328.size a
  inb_S3328_S16_2096 : ∀ a, (![2096] : Fin 1 → Nat) a + S16.size a ≤ S3328.size a
  inb_S3328_S16_2224 : ∀ a, (![2224] : Fin 1 → Nat) a + S16.size a ≤ S3328.size a
  inb_S3328_S16_2352 : ∀ a, (![2352] : Fin 1 → Nat) a + S16.size a ≤ S3328.size a
  inb_S3328_S16_2480 : ∀ a, (![2480] : Fin 1 → Nat) a + S16.size a ≤ S3328.size a
  inb_S3328_S16_2608 : ∀ a, (![2608] : Fin 1 → Nat) a + S16.size a ≤ S3328.size a
  inb_S3328_S16_2736 : ∀ a, (![2736] : Fin 1 → Nat) a + S16.size a ≤ S3328.size a
  inb_S3328_S16_2864 : ∀ a, (![2864] : Fin 1 → Nat) a + S16.size a ≤ S3328.size a
  inb_S3328_S16_2992 : ∀ a, (![2992] : Fin 1 → Nat) a + S16.size a ≤ S3328.size a
  inb_S3328_S16_3120 : ∀ a, (![3120] : Fin 1 → Nat) a + S16.size a ≤ S3328.size a
  inb_S3328_S16_3248 : ∀ a, (![3248] : Fin 1 → Nat) a + S16.size a ≤ S3328.size a
  inb_S3328_S16_64 : ∀ a, (![64] : Fin 1 → Nat) a + S16.size a ≤ S3328.size a
  inb_S3328_S16_192 : ∀ a, (![192] : Fin 1 → Nat) a + S16.size a ≤ S3328.size a
  inb_S3328_S16_320 : ∀ a, (![320] : Fin 1 → Nat) a + S16.size a ≤ S3328.size a
  inb_S3328_S16_448 : ∀ a, (![448] : Fin 1 → Nat) a + S16.size a ≤ S3328.size a
  inb_S3328_S16_576 : ∀ a, (![576] : Fin 1 → Nat) a + S16.size a ≤ S3328.size a
  inb_S3328_S16_704 : ∀ a, (![704] : Fin 1 → Nat) a + S16.size a ≤ S3328.size a
  inb_S3328_S16_832 : ∀ a, (![832] : Fin 1 → Nat) a + S16.size a ≤ S3328.size a
  inb_S3328_S16_960 : ∀ a, (![960] : Fin 1 → Nat) a + S16.size a ≤ S3328.size a
  inb_S3328_S16_1088 : ∀ a, (![1088] : Fin 1 → Nat) a + S16.size a ≤ S3328.size a
  inb_S3328_S16_1216 : ∀ a, (![1216] : Fin 1 → Nat) a + S16.size a ≤ S3328.size a
  inb_S3328_S16_1344 : ∀ a, (![1344] : Fin 1 → Nat) a + S16.size a ≤ S3328.size a
  inb_S3328_S16_1472 : ∀ a, (![1472] : Fin 1 → Nat) a + S16.size a ≤ S3328.size a
  inb_S3328_S16_1600 : ∀ a, (![1600] : Fin 1 → Nat) a + S16.size a ≤ S3328.size a
  inb_S3328_S16_1728 : ∀ a, (![1728] : Fin 1 → Nat) a + S16.size a ≤ S3328.size a
  inb_S3328_S16_1856 : ∀ a, (![1856] : Fin 1 → Nat) a + S16.size a ≤ S3328.size a
  inb_S3328_S16_1984 : ∀ a, (![1984] : Fin 1 → Nat) a + S16.size a ≤ S3328.size a
  inb_S3328_S16_2112 : ∀ a, (![2112] : Fin 1 → Nat) a + S16.size a ≤ S3328.size a
  inb_S3328_S16_2240 : ∀ a, (![2240] : Fin 1 → Nat) a + S16.size a ≤ S3328.size a
  inb_S3328_S16_2368 : ∀ a, (![2368] : Fin 1 → Nat) a + S16.size a ≤ S3328.size a
  inb_S3328_S16_2496 : ∀ a, (![2496] : Fin 1 → Nat) a + S16.size a ≤ S3328.size a
  inb_S3328_S16_2624 : ∀ a, (![2624] : Fin 1 → Nat) a + S16.size a ≤ S3328.size a
  inb_S3328_S16_2752 : ∀ a, (![2752] : Fin 1 → Nat) a + S16.size a ≤ S3328.size a
  inb_S3328_S16_2880 : ∀ a, (![2880] : Fin 1 → Nat) a + S16.size a ≤ S3328.size a
  inb_S3328_S16_3008 : ∀ a, (![3008] : Fin 1 → Nat) a + S16.size a ≤ S3328.size a
  inb_S3328_S16_3136 : ∀ a, (![3136] : Fin 1 → Nat) a + S16.size a ≤ S3328.size a
  inb_S3328_S16_3264 : ∀ a, (![3264] : Fin 1 → Nat) a + S16.size a ≤ S3328.size a
  inb_S3328_S16_80 : ∀ a, (![80] : Fin 1 → Nat) a + S16.size a ≤ S3328.size a
  inb_S3328_S16_208 : ∀ a, (![208] : Fin 1 → Nat) a + S16.size a ≤ S3328.size a
  inb_S3328_S16_336 : ∀ a, (![336] : Fin 1 → Nat) a + S16.size a ≤ S3328.size a
  inb_S3328_S16_464 : ∀ a, (![464] : Fin 1 → Nat) a + S16.size a ≤ S3328.size a
  inb_S3328_S16_592 : ∀ a, (![592] : Fin 1 → Nat) a + S16.size a ≤ S3328.size a
  inb_S3328_S16_720 : ∀ a, (![720] : Fin 1 → Nat) a + S16.size a ≤ S3328.size a
  inb_S3328_S16_848 : ∀ a, (![848] : Fin 1 → Nat) a + S16.size a ≤ S3328.size a
  inb_S3328_S16_976 : ∀ a, (![976] : Fin 1 → Nat) a + S16.size a ≤ S3328.size a
  inb_S3328_S16_1104 : ∀ a, (![1104] : Fin 1 → Nat) a + S16.size a ≤ S3328.size a
  inb_S3328_S16_1232 : ∀ a, (![1232] : Fin 1 → Nat) a + S16.size a ≤ S3328.size a
  inb_S3328_S16_1360 : ∀ a, (![1360] : Fin 1 → Nat) a + S16.size a ≤ S3328.size a
  inb_S3328_S16_1488 : ∀ a, (![1488] : Fin 1 → Nat) a + S16.size a ≤ S3328.size a
  inb_S3328_S16_1616 : ∀ a, (![1616] : Fin 1 → Nat) a + S16.size a ≤ S3328.size a
  inb_S3328_S16_1744 : ∀ a, (![1744] : Fin 1 → Nat) a + S16.size a ≤ S3328.size a
  inb_S3328_S16_1872 : ∀ a, (![1872] : Fin 1 → Nat) a + S16.size a ≤ S3328.size a
  inb_S3328_S16_2000 : ∀ a, (![2000] : Fin 1 → Nat) a + S16.size a ≤ S3328.size a
  inb_S3328_S16_2128 : ∀ a, (![2128] : Fin 1 → Nat) a + S16.size a ≤ S3328.size a
  inb_S3328_S16_2256 : ∀ a, (![2256] : Fin 1 → Nat) a + S16.size a ≤ S3328.size a
  inb_S3328_S16_2384 : ∀ a, (![2384] : Fin 1 → Nat) a + S16.size a ≤ S3328.size a
  inb_S3328_S16_2512 : ∀ a, (![2512] : Fin 1 → Nat) a + S16.size a ≤ S3328.size a
  inb_S3328_S16_2640 : ∀ a, (![2640] : Fin 1 → Nat) a + S16.size a ≤ S3328.size a
  inb_S3328_S16_2768 : ∀ a, (![2768] : Fin 1 → Nat) a + S16.size a ≤ S3328.size a
  inb_S3328_S16_2896 : ∀ a, (![2896] : Fin 1 → Nat) a + S16.size a ≤ S3328.size a
  inb_S3328_S16_3024 : ∀ a, (![3024] : Fin 1 → Nat) a + S16.size a ≤ S3328.size a
  inb_S3328_S16_3152 : ∀ a, (![3152] : Fin 1 → Nat) a + S16.size a ≤ S3328.size a
  inb_S3328_S16_3280 : ∀ a, (![3280] : Fin 1 → Nat) a + S16.size a ≤ S3328.size a
  inb_S3328_S16_96 : ∀ a, (![96] : Fin 1 → Nat) a + S16.size a ≤ S3328.size a
  inb_S3328_S16_224 : ∀ a, (![224] : Fin 1 → Nat) a + S16.size a ≤ S3328.size a
  inb_S3328_S16_352 : ∀ a, (![352] : Fin 1 → Nat) a + S16.size a ≤ S3328.size a
  inb_S3328_S16_480 : ∀ a, (![480] : Fin 1 → Nat) a + S16.size a ≤ S3328.size a
  inb_S3328_S16_608 : ∀ a, (![608] : Fin 1 → Nat) a + S16.size a ≤ S3328.size a
  inb_S3328_S16_736 : ∀ a, (![736] : Fin 1 → Nat) a + S16.size a ≤ S3328.size a
  inb_S3328_S16_864 : ∀ a, (![864] : Fin 1 → Nat) a + S16.size a ≤ S3328.size a
  inb_S3328_S16_992 : ∀ a, (![992] : Fin 1 → Nat) a + S16.size a ≤ S3328.size a
  inb_S3328_S16_1120 : ∀ a, (![1120] : Fin 1 → Nat) a + S16.size a ≤ S3328.size a
  inb_S3328_S16_1248 : ∀ a, (![1248] : Fin 1 → Nat) a + S16.size a ≤ S3328.size a
  inb_S3328_S16_1376 : ∀ a, (![1376] : Fin 1 → Nat) a + S16.size a ≤ S3328.size a
  inb_S3328_S16_1504 : ∀ a, (![1504] : Fin 1 → Nat) a + S16.size a ≤ S3328.size a
  inb_S3328_S16_1632 : ∀ a, (![1632] : Fin 1 → Nat) a + S16.size a ≤ S3328.size a
  inb_S3328_S16_1760 : ∀ a, (![1760] : Fin 1 → Nat) a + S16.size a ≤ S3328.size a
  inb_S3328_S16_1888 : ∀ a, (![1888] : Fin 1 → Nat) a + S16.size a ≤ S3328.size a
  inb_S3328_S16_2016 : ∀ a, (![2016] : Fin 1 → Nat) a + S16.size a ≤ S3328.size a
  inb_S3328_S16_2144 : ∀ a, (![2144] : Fin 1 → Nat) a + S16.size a ≤ S3328.size a
  inb_S3328_S16_2272 : ∀ a, (![2272] : Fin 1 → Nat) a + S16.size a ≤ S3328.size a
  inb_S3328_S16_2400 : ∀ a, (![2400] : Fin 1 → Nat) a + S16.size a ≤ S3328.size a
  inb_S3328_S16_2528 : ∀ a, (![2528] : Fin 1 → Nat) a + S16.size a ≤ S3328.size a
  inb_S3328_S16_2656 : ∀ a, (![2656] : Fin 1 → Nat) a + S16.size a ≤ S3328.size a
  inb_S3328_S16_2784 : ∀ a, (![2784] : Fin 1 → Nat) a + S16.size a ≤ S3328.size a
  inb_S3328_S16_2912 : ∀ a, (![2912] : Fin 1 → Nat) a + S16.size a ≤ S3328.size a
  inb_S3328_S16_3040 : ∀ a, (![3040] : Fin 1 → Nat) a + S16.size a ≤ S3328.size a
  inb_S3328_S16_3168 : ∀ a, (![3168] : Fin 1 → Nat) a + S16.size a ≤ S3328.size a
  inb_S3328_S16_3296 : ∀ a, (![3296] : Fin 1 → Nat) a + S16.size a ≤ S3328.size a
  inb_S3328_S16_112 : ∀ a, (![112] : Fin 1 → Nat) a + S16.size a ≤ S3328.size a
  inb_S3328_S16_240 : ∀ a, (![240] : Fin 1 → Nat) a + S16.size a ≤ S3328.size a
  inb_S3328_S16_368 : ∀ a, (![368] : Fin 1 → Nat) a + S16.size a ≤ S3328.size a
  inb_S3328_S16_496 : ∀ a, (![496] : Fin 1 → Nat) a + S16.size a ≤ S3328.size a
  inb_S3328_S16_624 : ∀ a, (![624] : Fin 1 → Nat) a + S16.size a ≤ S3328.size a
  inb_S3328_S16_752 : ∀ a, (![752] : Fin 1 → Nat) a + S16.size a ≤ S3328.size a
  inb_S3328_S16_880 : ∀ a, (![880] : Fin 1 → Nat) a + S16.size a ≤ S3328.size a
  inb_S3328_S16_1008 : ∀ a, (![1008] : Fin 1 → Nat) a + S16.size a ≤ S3328.size a
  inb_S3328_S16_1136 : ∀ a, (![1136] : Fin 1 → Nat) a + S16.size a ≤ S3328.size a
  inb_S3328_S16_1264 : ∀ a, (![1264] : Fin 1 → Nat) a + S16.size a ≤ S3328.size a
  inb_S3328_S16_1392 : ∀ a, (![1392] : Fin 1 → Nat) a + S16.size a ≤ S3328.size a
  inb_S3328_S16_1520 : ∀ a, (![1520] : Fin 1 → Nat) a + S16.size a ≤ S3328.size a
  inb_S3328_S16_1648 : ∀ a, (![1648] : Fin 1 → Nat) a + S16.size a ≤ S3328.size a
  inb_S3328_S16_1776 : ∀ a, (![1776] : Fin 1 → Nat) a + S16.size a ≤ S3328.size a
  inb_S3328_S16_1904 : ∀ a, (![1904] : Fin 1 → Nat) a + S16.size a ≤ S3328.size a
  inb_S3328_S16_2032 : ∀ a, (![2032] : Fin 1 → Nat) a + S16.size a ≤ S3328.size a
  inb_S3328_S16_2160 : ∀ a, (![2160] : Fin 1 → Nat) a + S16.size a ≤ S3328.size a
  inb_S3328_S16_2288 : ∀ a, (![2288] : Fin 1 → Nat) a + S16.size a ≤ S3328.size a
  inb_S3328_S16_2416 : ∀ a, (![2416] : Fin 1 → Nat) a + S16.size a ≤ S3328.size a
  inb_S3328_S16_2544 : ∀ a, (![2544] : Fin 1 → Nat) a + S16.size a ≤ S3328.size a
  inb_S3328_S16_2672 : ∀ a, (![2672] : Fin 1 → Nat) a + S16.size a ≤ S3328.size a
  inb_S3328_S16_2800 : ∀ a, (![2800] : Fin 1 → Nat) a + S16.size a ≤ S3328.size a
  inb_S3328_S16_2928 : ∀ a, (![2928] : Fin 1 → Nat) a + S16.size a ≤ S3328.size a
  inb_S3328_S16_3056 : ∀ a, (![3056] : Fin 1 → Nat) a + S16.size a ≤ S3328.size a
  inb_S3328_S16_3184 : ∀ a, (![3184] : Fin 1 → Nat) a + S16.size a ≤ S3328.size a
  inb_S3328_S16_3312 : ∀ a, (![3312] : Fin 1 → Nat) a + S16.size a ≤ S3328.size a
  inb_S100000_S16_0 : ∀ a, (![0] : Fin 1 → Nat) a + S16.size a ≤ S100000.size a
  h_S100000 : 0 < S100000.numel
  inb_S128_S16_0 : ∀ a, (![0] : Fin 1 → Nat) a + S16.size a ≤ S128.size a
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  shapeCasts_S4096_S4096x1 : S4096.ShapeCasts S4096x1
  hcc0_scratch9 : 0 + S_.numel ≤ 10
  hcc0_scratch10 : 1 + S_.numel ≤ 10
  hcc0_scratch11 : 2 + S_.numel ≤ 10
  hcc0_scratch12 : 3 + S_.numel ≤ 10
  hcc0_scratch13 : 4 + S_.numel ≤ 10
  hcc0_scoped0 : 5 + S_.numel ≤ 10
  hcc0_scoped1 : 6 + S_.numel ≤ 10
  hcc0_scoped2 : 7 + S_.numel ≤ 10
  hcc0_scoped3 : 8 + S_.numel ≤ 10
  hcc0_scoped4 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S3328.size a ≤ S106496.size a
  k0_off2_inb : ∀ i : grid0.Coords, ∀ (r : Fin 2), ∀ a, (k0_off2 i (BitVec.ofNat 32 (3200 * r.val))) a + S3200.size a ≤ S819200.size a
  k0_off3_inb : ∀ i : grid0.Coords, ∀ a, (k0_off3 i) a + S1664.size a ≤ S53248.size a
  k0_off4_inb : ∀ i : grid0.Coords, ∀ (r : Fin 8), ∀ a, (k0_off4 i (BitVec.ofNat 32 (3200 * r.val))) a + S3200.size a ≤ S819200.size a
  k0_t1_ok : k0_t1_loop.OK
  k0_off5_inb : ∀ k0_t1 : Fin k0_t1_loop.trips, ∀ a, (k0_off5 k0_t1) a + S16.size a ≤ S3200.size a
  k0_off6_inb : ∀ k0_t1 : Fin k0_t1_loop.trips, ∀ a, (k0_off6 k0_t1) a + S16.size a ≤ S3200.size a
  k0_off7_inb : ∀ k0_t1 : Fin k0_t1_loop.trips, ∀ a, (k0_off7 k0_t1) a + S16.size a ≤ S3200.size a
  k0_off8_inb : ∀ k0_t1 : Fin k0_t1_loop.trips, ∀ a, (k0_off8 k0_t1) a + S16.size a ≤ S3200.size a
  k0_off9_inb : ∀ k0_t1 : Fin k0_t1_loop.trips, ∀ a, (k0_off9 k0_t1) a + S16.size a ≤ S3200.size a
  k0_off10_inb : ∀ k0_t1 : Fin k0_t1_loop.trips, ∀ a, (k0_off10 k0_t1) a + S16.size a ≤ S3200.size a
  k0_off11_inb : ∀ k0_t1 : Fin k0_t1_loop.trips, ∀ a, (k0_off11 k0_t1) a + S16.size a ≤ S3200.size a
  k0_off12_inb : ∀ k0_t1 : Fin k0_t1_loop.trips, ∀ a, (k0_off12 k0_t1) a + S16.size a ≤ S3200.size a
  k0_t2_ok : k0_t2_loop.OK
  k0_off13_inb : ∀ k0_t2 : Fin k0_t2_loop.trips, ∀ a, (k0_off13 k0_t2) a + S16.size a ≤ S3200.size a
  k0_off14_inb : ∀ k0_t2 : Fin k0_t2_loop.trips, ∀ a, (k0_off14 k0_t2) a + S16.size a ≤ S3200.size a
  k0_off15_inb : ∀ k0_t2 : Fin k0_t2_loop.trips, ∀ a, (k0_off15 k0_t2) a + S16.size a ≤ S3200.size a
  k0_off16_inb : ∀ k0_t2 : Fin k0_t2_loop.trips, ∀ a, (k0_off16 k0_t2) a + S16.size a ≤ S3200.size a
  k0_off17_inb : ∀ k0_t2 : Fin k0_t2_loop.trips, ∀ a, (k0_off17 k0_t2) a + S16.size a ≤ S3200.size a
  k0_off18_inb : ∀ k0_t2 : Fin k0_t2_loop.trips, ∀ a, (k0_off18 k0_t2) a + S16.size a ≤ S3200.size a
  k0_off19_inb : ∀ k0_t2 : Fin k0_t2_loop.trips, ∀ a, (k0_off19 k0_t2) a + S16.size a ≤ S3200.size a
  k0_off20_inb : ∀ k0_t2 : Fin k0_t2_loop.trips, ∀ a, (k0_off20 k0_t2) a + S16.size a ≤ S3200.size a
  k0_t3_ok : k0_t3_loop.OK
  k0_off21_inb : ∀ k0_t3 : Fin k0_t3_loop.trips, ∀ a, (k0_off21 k0_t3) a + S16.size a ≤ S3200.size a
  k0_off22_inb : ∀ k0_t3 : Fin k0_t3_loop.trips, ∀ a, (k0_off22 k0_t3) a + S16.size a ≤ S3200.size a
  k0_off23_inb : ∀ k0_t3 : Fin k0_t3_loop.trips, ∀ a, (k0_off23 k0_t3) a + S16.size a ≤ S3200.size a
  k0_off24_inb : ∀ k0_t3 : Fin k0_t3_loop.trips, ∀ a, (k0_off24 k0_t3) a + S16.size a ≤ S3200.size a
  k0_off25_inb : ∀ k0_t3 : Fin k0_t3_loop.trips, ∀ a, (k0_off25 k0_t3) a + S16.size a ≤ S3200.size a
  k0_off26_inb : ∀ k0_t3 : Fin k0_t3_loop.trips, ∀ a, (k0_off26 k0_t3) a + S16.size a ≤ S3200.size a
  k0_off27_inb : ∀ k0_t3 : Fin k0_t3_loop.trips, ∀ a, (k0_off27 k0_t3) a + S16.size a ≤ S3200.size a
  k0_off28_inb : ∀ k0_t3 : Fin k0_t3_loop.trips, ∀ a, (k0_off28 k0_t3) a + S16.size a ≤ S3200.size a
  k0_t4_ok : k0_t4_loop.OK
  k0_off29_inb : ∀ k0_t4 : Fin k0_t4_loop.trips, ∀ a, (k0_off29 k0_t4) a + S16.size a ≤ S3200.size a
  k0_off30_inb : ∀ k0_t4 : Fin k0_t4_loop.trips, ∀ a, (k0_off30 k0_t4) a + S16.size a ≤ S3200.size a
  k0_off31_inb : ∀ k0_t4 : Fin k0_t4_loop.trips, ∀ a, (k0_off31 k0_t4) a + S16.size a ≤ S3200.size a
  k0_off32_inb : ∀ k0_t4 : Fin k0_t4_loop.trips, ∀ a, (k0_off32 k0_t4) a + S16.size a ≤ S3200.size a
  k0_off33_inb : ∀ k0_t4 : Fin k0_t4_loop.trips, ∀ a, (k0_off33 k0_t4) a + S16.size a ≤ S3200.size a
  k0_off34_inb : ∀ k0_t4 : Fin k0_t4_loop.trips, ∀ a, (k0_off34 k0_t4) a + S16.size a ≤ S3200.size a
  k0_off35_inb : ∀ k0_t4 : Fin k0_t4_loop.trips, ∀ a, (k0_off35 k0_t4) a + S16.size a ≤ S3200.size a
  k0_off36_inb : ∀ k0_t4 : Fin k0_t4_loop.trips, ∀ a, (k0_off36 k0_t4) a + S16.size a ≤ S3200.size a
  k0_t5_ok : k0_t5_loop.OK
  k0_off37_inb : ∀ k0_t5 : Fin k0_t5_loop.trips, ∀ a, (k0_off37 k0_t5) a + S16.size a ≤ S3200.size a
  k0_off38_inb : ∀ k0_t5 : Fin k0_t5_loop.trips, ∀ a, (k0_off38 k0_t5) a + S16.size a ≤ S3200.size a
  k0_off39_inb : ∀ k0_t5 : Fin k0_t5_loop.trips, ∀ a, (k0_off39 k0_t5) a + S16.size a ≤ S3200.size a
  k0_off40_inb : ∀ k0_t5 : Fin k0_t5_loop.trips, ∀ a, (k0_off40 k0_t5) a + S16.size a ≤ S3200.size a
  k0_off41_inb : ∀ k0_t5 : Fin k0_t5_loop.trips, ∀ a, (k0_off41 k0_t5) a + S16.size a ≤ S3200.size a
  k0_off42_inb : ∀ k0_t5 : Fin k0_t5_loop.trips, ∀ a, (k0_off42 k0_t5) a + S16.size a ≤ S3200.size a
  k0_off43_inb : ∀ k0_t5 : Fin k0_t5_loop.trips, ∀ a, (k0_off43 k0_t5) a + S16.size a ≤ S3200.size a
  k0_off44_inb : ∀ k0_t5 : Fin k0_t5_loop.trips, ∀ a, (k0_off44 k0_t5) a + S16.size a ≤ S3200.size a
  k0_t6_ok : k0_t6_loop.OK
  k0_off45_inb : ∀ k0_t6 : Fin k0_t6_loop.trips, ∀ a, (k0_off45 k0_t6) a + S16.size a ≤ S3200.size a
  k0_off46_inb : ∀ k0_t6 : Fin k0_t6_loop.trips, ∀ a, (k0_off46 k0_t6) a + S16.size a ≤ S3200.size a
  k0_off47_inb : ∀ k0_t6 : Fin k0_t6_loop.trips, ∀ a, (k0_off47 k0_t6) a + S16.size a ≤ S3200.size a
  k0_off48_inb : ∀ k0_t6 : Fin k0_t6_loop.trips, ∀ a, (k0_off48 k0_t6) a + S16.size a ≤ S3200.size a
  k0_off49_inb : ∀ k0_t6 : Fin k0_t6_loop.trips, ∀ a, (k0_off49 k0_t6) a + S16.size a ≤ S3200.size a
  k0_off50_inb : ∀ k0_t6 : Fin k0_t6_loop.trips, ∀ a, (k0_off50 k0_t6) a + S16.size a ≤ S3200.size a
  k0_off51_inb : ∀ k0_t6 : Fin k0_t6_loop.trips, ∀ a, (k0_off51 k0_t6) a + S16.size a ≤ S3200.size a
  k0_off52_inb : ∀ k0_t6 : Fin k0_t6_loop.trips, ∀ a, (k0_off52 k0_t6) a + S16.size a ≤ S3200.size a
  k0_t7_ok : k0_t7_loop.OK
  k0_off53_inb : ∀ k0_t7 : Fin k0_t7_loop.trips, ∀ a, (k0_off53 k0_t7) a + S16.size a ≤ S3200.size a
  k0_off54_inb : ∀ k0_t7 : Fin k0_t7_loop.trips, ∀ a, (k0_off54 k0_t7) a + S16.size a ≤ S3200.size a
  k0_off55_inb : ∀ k0_t7 : Fin k0_t7_loop.trips, ∀ a, (k0_off55 k0_t7) a + S16.size a ≤ S3200.size a
  k0_off56_inb : ∀ k0_t7 : Fin k0_t7_loop.trips, ∀ a, (k0_off56 k0_t7) a + S16.size a ≤ S3200.size a
  k0_off57_inb : ∀ k0_t7 : Fin k0_t7_loop.trips, ∀ a, (k0_off57 k0_t7) a + S16.size a ≤ S3200.size a
  k0_off58_inb : ∀ k0_t7 : Fin k0_t7_loop.trips, ∀ a, (k0_off58 k0_t7) a + S16.size a ≤ S3200.size a
  k0_off59_inb : ∀ k0_t7 : Fin k0_t7_loop.trips, ∀ a, (k0_off59 k0_t7) a + S16.size a ≤ S3200.size a
  k0_off60_inb : ∀ k0_t7 : Fin k0_t7_loop.trips, ∀ a, (k0_off60 k0_t7) a + S16.size a ≤ S3200.size a
  k0_t8_ok : k0_t8_loop.OK
  k0_off61_inb : ∀ k0_t8 : Fin k0_t8_loop.trips, ∀ a, (k0_off61 k0_t8) a + S16.size a ≤ S3200.size a
  k0_off62_inb : ∀ k0_t8 : Fin k0_t8_loop.trips, ∀ a, (k0_off62 k0_t8) a + S16.size a ≤ S3200.size a
  k0_off63_inb : ∀ k0_t8 : Fin k0_t8_loop.trips, ∀ a, (k0_off63 k0_t8) a + S16.size a ≤ S3200.size a
  k0_off64_inb : ∀ k0_t8 : Fin k0_t8_loop.trips, ∀ a, (k0_off64 k0_t8) a + S16.size a ≤ S3200.size a
  k0_off65_inb : ∀ k0_t8 : Fin k0_t8_loop.trips, ∀ a, (k0_off65 k0_t8) a + S16.size a ≤ S3200.size a
  k0_off66_inb : ∀ k0_t8 : Fin k0_t8_loop.trips, ∀ a, (k0_off66 k0_t8) a + S16.size a ≤ S3200.size a
  k0_off67_inb : ∀ k0_t8 : Fin k0_t8_loop.trips, ∀ a, (k0_off67 k0_t8) a + S16.size a ≤ S3200.size a
  k0_off68_inb : ∀ k0_t8 : Fin k0_t8_loop.trips, ∀ a, (k0_off68 k0_t8) a + S16.size a ≤ S3200.size a
  k0_off69_inb : ∀ i : grid0.Coords, ∀ a, (k0_off69 i) a + S128.size a ≤ S4096.size a

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scoped0 : DmaSems sig S_ := SemArray.consecutive 5 S_ hcc0_scoped0
abbrev cc0_scoped1 : DmaSems sig S_ := SemArray.consecutive 6 S_ hcc0_scoped1
abbrev cc0_scoped2 : DmaSems sig S_ := SemArray.consecutive 7 S_ hcc0_scoped2
abbrev cc0_scoped3 : DmaSems sig S_ := SemArray.consecutive 8 S_ hcc0_scoped3
abbrev cc0_scoped4 : DmaSems sig S_ := SemArray.consecutive 9 S_ hcc0_scoped4

class Facts : Prop extends Facts₀ where

variable [Facts]
-- ==== ReferenceIdeal.lean ====
abbrev S4096x13 : Shape := ⟨2, ![4096, 13]⟩
abbrev S4096x26 : Shape := ⟨2, ![4096, 26]⟩
abbrev S4096x200 : Shape := ⟨2, ![4096, 200]⟩
abbrev S2600000x1 : Shape := ⟨2, ![2600000, 1]⟩
abbrev S13x1 : Shape := ⟨2, ![13, 1]⟩
abbrev S100000x1 : Shape := ⟨2, ![100000, 1]⟩
abbrev S1 : Shape := ⟨1, ![1]⟩
abbrev S1x13x1 : Shape := ⟨3, ![1, 13, 1]⟩
abbrev S4096x13x1 : Shape := ⟨3, ![4096, 13, 1]⟩
abbrev S_ : Shape := ⟨0, ![]⟩
abbrev S4096x1 : Shape := ⟨2, ![4096, 1]⟩
abbrev S4096x1x1 : Shape := ⟨3, ![4096, 1, 1]⟩
abbrev S26 : Shape := ⟨1, ![26]⟩
abbrev S1x26 : Shape := ⟨2, ![1, 26]⟩
abbrev S4096x26x1 : Shape := ⟨3, ![4096, 26, 1]⟩
abbrev S1x1x1 : Shape := ⟨3, ![1, 1, 1]⟩
abbrev S4096x200x1 : Shape := ⟨3, ![4096, 200, 1]⟩
abbrev S4096x3x1 : Shape := ⟨3, ![4096, 3, 1]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x13, .f32⟩
  | .hbm, ⟨1, _⟩ => ⟨S4096x26, .i32⟩
  | .hbm, ⟨2, _⟩ => ⟨S4096x200, .i32⟩
  | .hbm, ⟨3, _⟩ => ⟨S2600000x1, .f32⟩
  | .hbm, ⟨4, _⟩ => ⟨S13x1, .f32⟩
  | .hbm, ⟨5, _⟩ => ⟨S100000x1, .f32⟩
  | .hbm, ⟨6, _⟩ => ⟨S1, .f32⟩
  | .hbm, ⟨7, _⟩ => ⟨S1x13x1, .f32⟩
  | .hbm, ⟨8, _⟩ => ⟨S4096x13x1, .f32⟩
  | .hbm, ⟨9, _⟩ => ⟨S4096x13x1, .f32⟩
  | .hbm, ⟨10, _⟩ => ⟨S4096x13x1, .f32⟩
  | .hbm, ⟨11, _⟩ => ⟨S_, .f32⟩
  | .hbm, ⟨12, _⟩ => ⟨S4096x1, .f32⟩
  | .hbm, ⟨13, _⟩ => ⟨S4096x1x1, .f32⟩
  | .hbm, ⟨14, _⟩ => ⟨S26, .i32⟩
  | .hbm, ⟨15, _⟩ => ⟨S_, .i32⟩
  | .hbm, ⟨16, _⟩ => ⟨S26, .i32⟩
  | .hbm, ⟨17, _⟩ => ⟨S26, .i32⟩
  | .hbm, ⟨18, _⟩ => ⟨S1x26, .i32⟩
  | .hbm, ⟨19, _⟩ => ⟨S4096x26, .i32⟩
  | .hbm, ⟨20, _⟩ => ⟨S4096x26, .i32⟩
  | .hbm, ⟨21, _⟩ => ⟨S_, .i32⟩
  | .hbm, ⟨22, _⟩ => ⟨S4096x26, .i32⟩
  | .hbm, ⟨23, _⟩ => ⟨S4096x26, .i1⟩
  | .hbm, ⟨24, _⟩ => ⟨S_, .i32⟩
  | .hbm, ⟨25, _⟩ => ⟨S4096x26, .i32⟩
  | .hbm, ⟨26, _⟩ => ⟨S4096x26, .i32⟩
  | .hbm, ⟨27, _⟩ => ⟨S4096x26, .i32⟩
  | .hbm, ⟨28, _⟩ => ⟨S4096x26x1, .i32⟩
  | .hbm, ⟨29, _⟩ => ⟨S1, .i32⟩
  | .hbm, ⟨30, _⟩ => ⟨S_, .i32⟩
  | .hbm, ⟨31, _⟩ => ⟨S4096x26x1, .i32⟩
  | .hbm, ⟨32, _⟩ => ⟨S4096x26x1, .i1⟩
  | .hbm, ⟨33, _⟩ => ⟨S1x1x1, .i32⟩
  | .hbm, ⟨34, _⟩ => ⟨S4096x26x1, .i32⟩
  | .hbm, ⟨35, _⟩ => ⟨S4096x26x1, .i1⟩
  | .hbm, ⟨36, _⟩ => ⟨S4096x26x1, .i1⟩
  | .hbm, ⟨37, _⟩ => ⟨S_, .i1⟩
  | .hbm, ⟨38, _⟩ => ⟨S4096x26, .i1⟩
  | .hbm, ⟨39, _⟩ => ⟨S4096x26x1, .f32⟩
  | .hbm, ⟨40, _⟩ => ⟨S4096x26x1, .i1⟩
  | .hbm, ⟨41, _⟩ => ⟨S_, .f32⟩
  | .hbm, ⟨42, _⟩ => ⟨S4096x26x1, .f32⟩
  | .hbm, ⟨43, _⟩ => ⟨S4096x26x1, .f32⟩
  | .hbm, ⟨44, _⟩ => ⟨S_, .f32⟩
  | .hbm, ⟨45, _⟩ => ⟨S4096x1, .f32⟩
  | .hbm, ⟨46, _⟩ => ⟨S4096x1x1, .f32⟩
  | .hbm, ⟨47, _⟩ => ⟨S_, .i32⟩
  | .hbm, ⟨48, _⟩ => ⟨S4096x200, .i32⟩
  | .hbm, ⟨49, _⟩ => ⟨S4096x200, .i1⟩
  | .hbm, ⟨50, _⟩ => ⟨S4096x200, .f32⟩
  | .hbm, ⟨51, _⟩ => ⟨S4096x200x1, .f32⟩
  | .hbm, ⟨52, _⟩ => ⟨S_, .i32⟩
  | .hbm, ⟨53, _⟩ => ⟨S4096x200, .i32⟩
  | .hbm, ⟨54, _⟩ => ⟨S4096x200, .i1⟩
  | .hbm, ⟨55, _⟩ => ⟨S_, .i32⟩
  | .hbm, ⟨56, _⟩ => ⟨S4096x200, .i32⟩
  | .hbm, ⟨57, _⟩ => ⟨S4096x200, .i32⟩
  | .hbm, ⟨58, _⟩ => ⟨S4096x200, .i32⟩
  | .hbm, ⟨59, _⟩ => ⟨S4096x200x1, .i32⟩
  | .hbm, ⟨60, _⟩ => ⟨S1, .i32⟩
  | .hbm, ⟨61, _⟩ => ⟨S_, .i32⟩
  | .hbm, ⟨62, _⟩ => ⟨S4096x200x1, .i32⟩
  | .hbm, ⟨63, _⟩ => ⟨S4096x200x1, .i1⟩
  | .hbm, ⟨64, _⟩ => ⟨S1x1x1, .i32⟩
  | .hbm, ⟨65, _⟩ => ⟨S4096x200x1, .i32⟩
  | .hbm, ⟨66, _⟩ => ⟨S4096x200x1, .i1⟩
  | .hbm, ⟨67, _⟩ => ⟨S4096x200x1, .i1⟩
  | .hbm, ⟨68, _⟩ => ⟨S_, .i1⟩
  | .hbm, ⟨69, _⟩ => ⟨S4096x200, .i1⟩
  | .hbm, ⟨70, _⟩ => ⟨S4096x200x1, .f32⟩
  | .hbm, ⟨71, _⟩ => ⟨S4096x200x1, .i1⟩
  | .hbm, ⟨72, _⟩ => ⟨S_, .f32⟩
  | .hbm, ⟨73, _⟩ => ⟨S4096x200x1, .f32⟩
  | .hbm, ⟨74, _⟩ => ⟨S4096x200x1, .f32⟩
  | .hbm, ⟨75, _⟩ => ⟨S4096x200x1, .f32⟩
  | .hbm, ⟨76, _⟩ => ⟨S_, .f32⟩
  | .hbm, ⟨77, _⟩ => ⟨S4096x1, .f32⟩
  | .hbm, ⟨78, _⟩ => ⟨S4096x1x1, .f32⟩
  | .hbm, ⟨79, _⟩ => ⟨S4096x3x1, .f32⟩
  | .hbm, ⟨80, _⟩ => ⟨S_, .f32⟩
  | .hbm, ⟨81, _⟩ => ⟨S4096x1, .f32⟩
  | .hbm, ⟨82, _⟩ => ⟨S1x1, .f32⟩
  | .hbm, ⟨83, _⟩ => ⟨S4096x1, .f32⟩
  | .hbm, ⟨84, _⟩ => ⟨S4096x1, .f32⟩
  | _, _ => ⟨S4096x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_v14 : Ref sig .tc := ⟨.hbm, 46, rfl⟩
abbrev main_c_1 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v19 : Ref sig .tc := ⟨.hbm, 74, rfl⟩
abbrev main_v20 : Ref sig .tc := ⟨.hbm, 75, rfl⟩
abbrev main_cst_2 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_3 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩

abbrev nD : Nat := 1
abbrev τ : Topo := Topo.v7x

variable {F : FTy → Type} [FloatOps F]

class Facts₀ : Prop where
  bcast_S13x1_S1x13x1_1_2 : S13x1.BroadcastsInDim S1x13x1 (![1, 2] : Fin 2 → Fin S1x13x1.rank)
  bcast_S4096x13_S4096x13x1_0_1 : S4096x13.BroadcastsInDim S4096x13x1 (![0, 1] : Fin 2 → Fin S4096x13x1.rank)
  bcast_S1x13x1_S4096x13x1_0_1_2 : S1x13x1.BroadcastsInDim S4096x13x1 (![0, 1, 2] : Fin 3 → Fin S4096x13x1.rank)
  reducesTo_S4096x13x1_S4096x1_d1 : S4096x13x1.ReducesTo [1] S4096x1
  h_S_ : 0 < S_.numel
  bcast_S4096x1_S4096x1x1_0_2 : S4096x1.BroadcastsInDim S4096x1x1 (![0, 2] : Fin 2 → Fin S4096x1x1.rank)
  bcast_S_S26 : S_.BroadcastsInDim S26 (![] : Fin 0 → Fin S26.rank)
  bcast_S26_S1x26_1 : S26.BroadcastsInDim S1x26 (![1] : Fin 1 → Fin S1x26.rank)
  bcast_S1x26_S4096x26_0_1 : S1x26.BroadcastsInDim S4096x26 (![0, 1] : Fin 2 → Fin S4096x26.rank)
  bcast_S_S4096x26 : S_.BroadcastsInDim S4096x26 (![] : Fin 0 → Fin S4096x26.rank)
  bcast_S4096x26_S4096x26x1_0_1 : S4096x26.BroadcastsInDim S4096x26x1 (![0, 1] : Fin 2 → Fin S4096x26x1.rank)
  bcast_S_S4096x26x1 : S_.BroadcastsInDim S4096x26x1 (![] : Fin 0 → Fin S4096x26x1.rank)
  bcast_S1_S1x1x1_2 : S1.BroadcastsInDim S1x1x1 (![2] : Fin 1 → Fin S1x1x1.rank)
  bcast_S1x1x1_S4096x26x1_0_1_2 : S1x1x1.BroadcastsInDim S4096x26x1 (![0, 1, 2] : Fin 3 → Fin S4096x26x1.rank)
  reducesTo_S4096x26x1_S4096x26_d2 : S4096x26x1.ReducesTo [2] S4096x26
  reducesTo_S4096x26x1_S4096x1_d1 : S4096x26x1.ReducesTo [1] S4096x1
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  reducesTo_S4096x200x1_S4096x1_d1 : S4096x200x1.ReducesTo [1] S4096x1
  concatenates_S4096x1x1_S4096x1x1_S4096x1x1_S4096x3x1_d1 : Shape.Concatenates [S4096x1x1, S4096x1x1, S4096x1x1] S4096x3x1 1
  reducesTo_S4096x3x1_S4096x1_d1 : S4096x3x1.ReducesTo [1] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  gather_S2600000x1_S4096x26x1_S4096x26x1_2_0_n_n_0_2_11_wf : GatherDims.WF S2600000x1 S4096x26x1 S4096x26x1 [2] [0] [] [0] [] 2 ![1, 1]
  gather_S100000x1_S4096x200x1_S4096x200x1_2_0_n_n_0_2_11_wf : GatherDims.WF S100000x1 S4096x200x1 S4096x200x1 [2] [0] [] [0] [] 2 ![1, 1]

variable [Facts₀]

def gather_S2600000x1_S4096x26x1_S4096x26x1_2_0_n_n_0_2_11 : GatherDims S2600000x1 S4096x26x1 S4096x26x1 where
  offsetDims := [2]
  collapsedSliceDims := [0]
  operandBatchingDims := []
  startIndicesBatchingDims := []
  startIndexMap := [0]
  indexVectorDim := 2
  sliceSizes := ![1, 1]
  wf := gather_S2600000x1_S4096x26x1_S4096x26x1_2_0_n_n_0_2_11_wf
def gather_S100000x1_S4096x200x1_S4096x200x1_2_0_n_n_0_2_11 : GatherDims S100000x1 S4096x200x1 S4096x200x1 where
  offsetDims := [2]
  collapsedSliceDims := [0]
  operandBatchingDims := []
  startIndicesBatchingDims := []
  startIndexMap := [0]
  indexVectorDim := 2
  sliceSizes := ![1, 1]
  wf := gather_S100000x1_S4096x200x1_S4096x200x1_2_0_n_n_0_2_11_wf

class Facts : Prop extends Facts₀ where

variable [Facts]
-- ==== Proof.RefTerm.lean ====
/-
  The reference's result as ONE pure term of its seven argument arrays, cut into named stages that follow the
  source: the weighted sum of the float fields; the token fields offset by 100000 · (field number), looked up
  in the shared table and summed; the sequence tokens looked up in the sequence table, the padding token 0 masked,
  and summed; the three columns concatenated, summed, and the bias added. A lookup first wraps a negative
  index by the table's length, then reads the row, and yields a NaN word where the wrapped index is outside the
  table. Nothing is proved here: the run states that the program computes this term, the value modules read it at an index.
-/
import proofs.«207587_g45655502356657_cont_8to1c4_548_39_alg».proof.ReferenceIdeal

noncomputable section

namespace Cert.Proof.Ref

open Cert.ReferenceIdeal Idealize.ShloMosaic
open Cert.ReferenceIdeal.Facts₀

variable {F : FTy → Type} [FloatOps F] [Cert.ReferenceIdeal.Facts]

/-- The linear part: weight `j` times float field `j`, summed over the 13 fields, one column entry per batch row. -/
def fltCol (ff : FVec F S4096x13 .f32) (ft : FVec F S13x1 .f32) : FVec F S4096x1x1 .f32 :=
  broadcastInDim S4096x1x1 ![0, 2] bcast_S4096x1_S4096x1x1_0_2
    (Host.reduceAdd
      (mulf (broadcastInDim S4096x13x1 ![0, 1, 2] bcast_S1x13x1_S4096x13x1_0_1_2
              (broadcastInDim S1x13x1 ![1, 2] bcast_S13x1_S1x13x1_1_2 ft))
            (broadcastInDim S4096x13x1 ![0, 1] bcast_S4096x13_S4096x13x1_0_1 ff))
      (constant (F := F) S_ .f32 0x00000000#32) reducesTo_S4096x13x1_S4096x1_d1 h_S_)

/-- Token field `j`'s index moved into the field's own stretch of the shared table: `t + 100000 · j`, in 32-bit words. -/
def offsetIdx (tf : IVec S4096x26 32) : IVec S4096x26 32 :=
  addi tf (broadcastInDim S4096x26 ![0, 1] bcast_S1x26_S4096x26_0_1
    (broadcastInDim S1x26 ![1] bcast_S26_S1x26_1
      (muli (iotaInDim S26 32 0) (broadcastInDim S26 ![] bcast_S_S26 (constantI S_ 32 100000#32)))))

/-- A negative index wrapped once by the token table's 2600000 rows, with a trailing unit axis. -/
def takeTokIdx (i : IVec S4096x26 32) : IVec S4096x26x1 32 :=
  broadcastInDim S4096x26x1 ![0, 1] bcast_S4096x26_S4096x26x1_0_1
    (select (cmpi .slt i (broadcastInDim S4096x26 ![] bcast_S_S4096x26 (constantI S_ 32 0#32)))
      (addi i (broadcastInDim S4096x26 ![] bcast_S_S4096x26 (constantI S_ 32 2600000#32))) i)

/-- Whether each wrapped index lies in `0 … 2599999`, as one bit per position. -/
def takeTokOk (j : IVec S4096x26x1 32) : IVec S4096x26x1 1 :=
  broadcastInDim S4096x26x1 ![0, 1] bcast_S4096x26_S4096x26x1_0_1
    (Host.reduce IntOp.andi
      (andi (cmpi .sge j (broadcastInDim S4096x26x1 ![] bcast_S_S4096x26x1 (constantI S_ 32 0#32)))
        (cmpi .sle j (broadcastInDim S4096x26x1 ![0, 1, 2] bcast_S1x1x1_S4096x26x1_0_1_2
          (broadcastInDim S1x1x1 ![2] bcast_S1_S1x1x1_2 (constantI S1 32 2599999#32)))))
      (constantI S_ 1 1#1) reducesTo_S4096x26x1_S4096x26_d2 h_S_)

/-- The table's rows gathered at the wrapped indices, a quiet-NaN word wherever the index is outside the table. -/
def takeTok (t : FVec F S2600000x1 .f32) (i : IVec S4096x26 32) : FVec F S4096x26x1 .f32 :=
  select (takeTokOk (takeTokIdx i))
    (Host.gather gather_S2600000x1_S4096x26x1_S4096x26x1_2_0_n_n_0_2_11 t (takeTokIdx i))
    (broadcastInDim S4096x26x1 ![] bcast_S_S4096x26x1 (constant (F := F) S_ .f32 0x7FC00000#32))

/-- The token part: the 26 looked-up rows of a batch row summed. -/
def tokCol (tf : IVec S4096x26 32) (tt : FVec F S2600000x1 .f32) : FVec F S4096x1x1 .f32 :=
  broadcastInDim S4096x1x1 ![0, 2] bcast_S4096x1_S4096x1x1_0_2
    (Host.reduceAdd (takeTok tt (offsetIdx tf)) (constant (F := F) S_ .f32 0x00000000#32) reducesTo_S4096x26x1_S4096x1_d1 h_S_)

/-- The padding mask: `1` where the sequence token is not `0`, else `0`, as a float. -/
def maskCol (ts : IVec S4096x200 32) : FVec F S4096x200x1 .f32 :=
  broadcastInDim S4096x200x1 ![0, 1] bcast_S4096x200_S4096x200x1_0_1
    (uitofp .f32 (cmpi .ne ts (broadcastInDim S4096x200 ![] bcast_S_S4096x200 (constantI S_ 32 0#32))))

/-- A negative index wrapped once by the sequence table's 100000 rows, with a trailing unit axis. -/
def takeSeqIdx (i : IVec S4096x200 32) : IVec S4096x200x1 32 :=
  broadcastInDim S4096x200x1 ![0, 1] bcast_S4096x200_S4096x200x1_0_1
    (select (cmpi .slt i (broadcastInDim S4096x200 ![] bcast_S_S4096x200 (constantI S_ 32 0#32)))
      (addi i (broadcastInDim S4096x200 ![] bcast_S_S4096x200 (constantI S_ 32 100000#32))) i)

/-- Whether each wrapped index lies in `0 … 99999`, as one bit per position. -/
def takeSeqOk (j : IVec S4096x200x1 32) : IVec S4096x200x1 1 :=
  broadcastInDim S4096x200x1 ![0, 1] bcast_S4096x200_S4096x200x1_0_1
    (Host.reduce IntOp.andi
      (andi (cmpi .sge j (broadcastInDim S4096x200x1 ![] bcast_S_S4096x200x1 (constantI S_ 32 0#32)))
        (cmpi .sle j (broadcastInDim S4096x200x1 ![0, 1, 2] bcast_S1x1x1_S4096x200x1_0_1_2
          (broadcastInDim S1x1x1 ![2] bcast_S1_S1x1x1_2 (constantI S1 32 99999#32)))))
      (constantI S_ 1 1#1) reducesTo_S4096x200x1_S4096x200_d2 h_S_)

/-- The table's rows gathered at the wrapped indices, a quiet-NaN word wherever the index is outside the table. -/
def takeSeq (t : FVec F S100000x1 .f32) (i : IVec S4096x200 32) : FVec F S4096x200x1 .f32 :=
  select (takeSeqOk (takeSeqIdx i))
    (Host.gather gather_S100000x1_S4096x200x1_S4096x200x1_2_0_n_n_0_2_11 t (takeSeqIdx i))
    (broadcastInDim S4096x200x1 ![] bcast_S_S4096x200x1 (constant (F := F) S_ .f32 0x7FC00000#32))

/-- The sequence part: the 200 looked-up rows of a batch row, each times its mask, summed. -/
def seqCol (ts : IVec S4096x200 32) (st : FVec F S100000x1 .f32) : FVec F S4096x1x1 .f32 :=
  broadcastInDim S4096x1x1 ![0, 2] bcast_S4096x1_S4096x1x1_0_2
    (Host.reduceAdd (mulf (takeSeq st ts) (maskCol ts)) (constant (F := F) S_ .f32 0x00000000#32) reducesTo_S4096x200x1_S4096x1_d1 h_S_)

/-- The three parts side by side, summed along the new axis. -/
def partsSum (a b c : FVec F S4096x1x1 .f32) : FVec F S4096x1 .f32 :=
  Host.reduceAdd
    (concatenate S4096x3x1 1 [⟨S4096x1x1, a⟩, ⟨S4096x1x1, b⟩, ⟨S4096x1x1, c⟩] concatenates_S4096x1x1_S4096x1x1_S4096x1x1_S4096x3x1_d1)
    (constant (F := F) S_ .f32 0x00000000#32) reducesTo_S4096x3x1_S4096x1_d1 h_S_

/-- The bias repeated down the batch column. -/
def biasCol (bias : FVec F S1 .f32) : FVec F S4096x1 .f32 :=
  broadcastInDim S4096x1 ![0, 1] bcast_S1x1_S4096x1_0_1 (broadcastInDim S1x1 ![1] bcast_S1_S1x1_1 bias)

/-- The reference's result: the three parts summed, plus the bias. -/
def refOut (ff : FVec F S4096x13 .f32) (tf : IVec S4096x26 32) (ts : IVec S4096x200 32) (tt : FVec F S2600000x1 .f32)
    (ft : FVec F S13x1 .f32) (st : FVec F S100000x1 .f32) (bias : FVec F S1 .f32) : FVec F S4096x1 .f32 :=
  addf (partsSum (fltCol ff ft) (tokCol tf tt) (seqCol ts st)) (biasCol bias)

end Cert.Proof.Ref

end
-- ==== Proof.RefRun.lean ====
/-
  The reference program's run. Its @main calls two lookup functions, each of which calls a select; the chip runs the
  flat program, every value of an inlined body in a buffer of its own. `ops` is that flat program: @main's 32 own
  operations with each call replaced, in place, by the callee's 23 over the call's buffers (the inner select among them),
  78 in all. `main_eq`: the printed @main is that straight line, by computation (sequencing is structural). The fold of
  the results is read in two steps, cut where the three parts are concatenated: the first 72 operations leave the three
  part buffers at `fltCol`, `tokCol`, `seqCol` of the arguments; the last 6, from any contents, leave the result at the
  parts' sum plus the bias. `out_eq` composes them into `refOut`; `argK_eq`: no operation writes an argument.
  `run_term`: every weakly fair execution terminates with exactly that.
-/
import proofs.«207587_g45655502356657_cont_8to1c4_548_39_alg».proof.Proof.RefTerm
import Idealize.ShloMosaic.Lib.StableHlo.Run

noncomputable section

namespace Cert.Proof.Ref

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The flat program up to the three parts: 72 operations, in order. -/
abbrev opsParts : List (HloOp τ sig (Elt F)) :=
  [ unary main_arg4 main_v0 (broadcastInDim S1x13x1 ![1, 2] bcast_S13x1_S1x13x1_1_2 : (⟨S13x1, .f32⟩ : BufTy).Contents (Elt F) → (⟨S1x13x1, .f32⟩ : BufTy).Contents (Elt F)),
    unary main_arg0 main_v1 (broadcastInDim S4096x13x1 ![0, 1] bcast_S4096x13_S4096x13x1_0_1 : (⟨S4096x13, .f32⟩ : BufTy).Contents (Elt F) → (⟨S4096x13x1, .f32⟩ : BufTy).Contents (Elt F)),
    unary main_v0 main_v2 (broadcastInDim S4096x13x1 ![0, 1, 2] bcast_S1x13x1_S4096x13x1_0_1_2 : (⟨S1x13x1, .f32⟩ : BufTy).Contents (Elt F) → (⟨S4096x13x1, .f32⟩ : BufTy).Contents (Elt F)),
    binary main_v2 main_v1 main_v3 (mulf : (⟨S4096x13x1, .f32⟩ : BufTy).Contents (Elt F) → (⟨S4096x13x1, .f32⟩ : BufTy).Contents (Elt F) → (⟨S4096x13x1, .f32⟩ : BufTy).Contents (Elt F)),
    nullary main_cst (constant S_ .f32 0x00000000#32),
    binary main_v3 main_cst main_v4 ((fun x v => Host.reduceAdd x v reducesTo_S4096x13x1_S4096x1_d1 h_S_) : (⟨S4096x13x1, .f32⟩ : BufTy).Contents (Elt F) → (⟨S_, .f32⟩ : BufTy).Contents (Elt F) → (⟨S4096x1, .f32⟩ : BufTy).Contents (Elt F)),
    unary main_v4 main_v5 (broadcastInDim S4096x1x1 ![0, 2] bcast_S4096x1_S4096x1x1_0_2 : (⟨S4096x1, .f32⟩ : BufTy).Contents (Elt F) → (⟨S4096x1x1, .f32⟩ : BufTy).Contents (Elt F)),
    nullary main_v6 (iotaInDim S26 32 0),
    nullary main_c (constantI S_ 32 100000#32),
    unary main_c main_v7 (broadcastInDim S26 ![] bcast_S_S26 : (⟨S_, .i32⟩ : BufTy).Contents (Elt F) → (⟨S26, .i32⟩ : BufTy).Contents (Elt F)),
    binary main_v6 main_v7 main_v8 (muli : (⟨S26, .i32⟩ : BufTy).Contents (Elt F) → (⟨S26, .i32⟩ : BufTy).Contents (Elt F) → (⟨S26, .i32⟩ : BufTy).Contents (Elt F)),
    unary main_v8 main_v9 (broadcastInDim S1x26 ![1] bcast_S26_S1x26_1 : (⟨S26, .i32⟩ : BufTy).Contents (Elt F) → (⟨S1x26, .i32⟩ : BufTy).Contents (Elt F)),
    unary main_v9 main_v10 (broadcastInDim S4096x26 ![0, 1] bcast_S1x26_S4096x26_0_1 : (⟨S1x26, .i32⟩ : BufTy).Contents (Elt F) → (⟨S4096x26, .i32⟩ : BufTy).Contents (Elt F)),
    binary main_arg1 main_v10 main_v11 (addi : (⟨S4096x26, .i32⟩ : BufTy).Contents (Elt F) → (⟨S4096x26, .i32⟩ : BufTy).Contents (Elt F) → (⟨S4096x26, .i32⟩ : BufTy).Contents (Elt F)),
    TRef.nullary main_call0.c (constantI S_ 32 0#32),
    TRef.unary main_call0.c main_call0.v0 (broadcastInDim S4096x26 ![] bcast_S_S4096x26),
    TRef.binary (.of main_v11) main_call0.v0 main_call0.v1 (cmpi .slt),
    TRef.nullary main_call0.c_0 (constantI S_ 32 2600000#32),
    TRef.unary main_call0.c_0 main_call0.v2 (broadcastInDim S4096x26 ![] bcast_S_S4096x26),
    TRef.binary (.of main_v11) main_call0.v2 main_call0.v3 addi,
    TRef.ternary main_call0.v1 main_call0.v3 (.of main_v11) main_call0.call0.v0 select,
    TRef.unary main_call0.call0.v0 main_call0.v5 (broadcastInDim S4096x26x1 ![0, 1] bcast_S4096x26_S4096x26x1_0_1),
    TRef.nullary main_call0.c_1 (constantI S1 32 2599999#32),
    TRef.nullary main_call0.c_2 (constantI S_ 32 0#32),
    TRef.unary main_call0.c_2 main_call0.v6 (broadcastInDim S4096x26x1 ![] bcast_S_S4096x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x26x1 ![0, 1, 2] bcast_S1x1x1_S4096x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x26x1_S4096x26_d2 h_S_),
    TRef.binary (.of main_arg3) main_call0.v5 main_call0.v13 (fun x i => Host.gather gather_S2600000x1_S4096x26x1_S4096x26x1_2_0_n_n_0_2_11 x i),
    TRef.unary main_call0.v12 main_call0.v14 (broadcastInDim S4096x26x1 ![0, 1] bcast_S4096x26_S4096x26x1_0_1),
    TRef.nullary main_call0.cst (constant S_ .f32 0x7FC00000#32),
    TRef.unary main_call0.cst main_call0.v15 (broadcastInDim S4096x26x1 ![] bcast_S_S4096x26x1),
    TRef.ternary main_call0.v14 main_call0.v13 main_call0.v15 main_call0.v16 select,
    nullary main_cst_0 (constant S_ .f32 0x00000000#32),
    binary main_v12 main_cst_0 main_v13 ((fun x v => Host.reduceAdd x v reducesTo_S4096x26x1_S4096x1_d1 h_S_) : (⟨S4096x26x1, .f32⟩ : BufTy).Contents (Elt F) → (⟨S_, .f32⟩ : BufTy).Contents (Elt F) → (⟨S4096x1, .f32⟩ : BufTy).Contents (Elt F)),
    unary main_v13 main_v14 (broadcastInDim S4096x1x1 ![0, 2] bcast_S4096x1_S4096x1x1_0_2 : (⟨S4096x1, .f32⟩ : BufTy).Contents (Elt F) → (⟨S4096x1x1, .f32⟩ : BufTy).Contents (Elt F)),
    nullary main_c_1 (constantI S_ 32 0#32),
    unary main_c_1 main_v15 (broadcastInDim S4096x200 ![] bcast_S_S4096x200 : (⟨S_, .i32⟩ : BufTy).Contents (Elt F) → (⟨S4096x200, .i32⟩ : BufTy).Contents (Elt F)),
    binary main_arg2 main_v15 main_v16 (cmpi .ne : (⟨S4096x200, .i32⟩ : BufTy).Contents (Elt F) → (⟨S4096x200, .i32⟩ : BufTy).Contents (Elt F) → (⟨S4096x200, .i1⟩ : BufTy).Contents (Elt F)),
    unary main_v16 main_v17 (uitofp .f32 : (⟨S4096x200, .i1⟩ : BufTy).Contents (Elt F) → (⟨S4096x200, .f32⟩ : BufTy).Contents (Elt F)),
    unary main_v17 main_v18 (broadcastInDim S4096x200x1 ![0, 1] bcast_S4096x200_S4096x200x1_0_1 : (⟨S4096x200, .f32⟩ : BufTy).Contents (Elt F) → (⟨S4096x200x1, .f32⟩ : BufTy).Contents (Elt F)),
    TRef.nullary main_call1.c (constantI S_ 32 0#32),
    TRef.unary main_call1.c main_call1.v0 (broadcastInDim S4096x200 ![] bcast_S_S4096x200),
    TRef.binary (.of main_arg2) main_call1.v0 main_call1.v1 (cmpi .slt),
    TRef.nullary main_call1.c_0 (constantI S_ 32 100000#32),
    TRef.unary main_call1.c_0 main_call1.v2 (broadcastInDim S4096x200 ![] bcast_S_S4096x200),
    TRef.binary (.of main_arg2) main_call1.v2 main_call1.v3 addi,
    TRef.ternary main_call1.v1 main_call1.v3 (.of main_arg2) main_call1.call0.v0 select,
    TRef.unary main_call1.call0.v0 main_call1.v5 (broadcastInDim S4096x200x1 ![0, 1] bcast_S4096x200_S4096x200x1_0_1),
    TRef.nullary main_call1.c_1 (constantI S1 32 99999#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_),
    TRef.binary (.of main_arg5) main_call1.v5 main_call1.v13 (fun x i => Host.gather gather_S100000x1_S4096x200x1_S4096x200x1_2_0_n_n_0_2_11 x i),
    TRef.unary main_call1.v12 main_call1.v14 (broadcastInDim S4096x200x1 ![0, 1] bcast_S4096x200_S4096x200x1_0_1),
    TRef.nullary main_call1.cst (constant S_ .f32 0x7FC00000#32),
    TRef.unary main_call1.cst main_call1.v15 (broadcastInDim S4096x200x1 ![] bcast_S_S4096x200x1),
    TRef.ternary main_call1.v14 main_call1.v13 main_call1.v15 main_call1.v16 select,
    binary main_v19 main_v18 main_v20 (mulf : (⟨S4096x200x1, .f32⟩ : BufTy).Contents (Elt F) → (⟨S4096x200x1, .f32⟩ : BufTy).Contents (Elt F) → (⟨S4096x200x1, .f32⟩ : BufTy).Contents (Elt F)),
    nullary main_cst_2 (constant S_ .f32 0x00000000#32),
    binary main_v20 main_cst_2 main_v21 ((fun x v => Host.reduceAdd x v reducesTo_S4096x200x1_S4096x1_d1 h_S_) : (⟨S4096x200x1, .f32⟩ : BufTy).Contents (Elt F) → (⟨S_, .f32⟩ : BufTy).Contents (Elt F) → (⟨S4096x1, .f32⟩ : BufTy).Contents (Elt F)),
    unary main_v21 main_v22 (broadcastInDim S4096x1x1 ![0, 2] bcast_S4096x1_S4096x1x1_0_2 : (⟨S4096x1, .f32⟩ : BufTy).Contents (Elt F) → (⟨S4096x1x1, .f32⟩ : BufTy).Contents (Elt F)) ]

/-- The last 6 operations: the parts concatenated and summed, the bias broadcast and added. -/
abbrev opsSum : List (HloOp τ sig (Elt F)) :=
  [ nary ![main_v5, main_v14, main_v22] main_v23 (fun u => concatenate S4096x3x1 1 [⟨S4096x1x1, u 0⟩, ⟨S4096x1x1, u 1⟩, ⟨S4096x1x1, u 2⟩] concatenates_S4096x1x1_S4096x1x1_S4096x1x1_S4096x3x1_d1),
    nullary main_cst_3 (constant S_ .f32 0x00000000#32),
    binary main_v23 main_cst_3 main_v24 ((fun x v => Host.reduceAdd x v reducesTo_S4096x3x1_S4096x1_d1 h_S_) : (⟨S4096x3x1, .f32⟩ : BufTy).Contents (Elt F) → (⟨S_, .f32⟩ : BufTy).Contents (Elt F) → (⟨S4096x1, .f32⟩ : BufTy).Contents (Elt F)),
    unary main_arg6 main_v25 (broadcastInDim S1x1 ![1] bcast_S1_S1x1_1 : (⟨S1, .f32⟩ : BufTy).Contents (Elt F) → (⟨S1x1, .f32⟩ : BufTy).Contents (Elt F)),
    unary main_v25 main_v26 (broadcastInDim S4096x1 ![0, 1] bcast_S1x1_S4096x1_0_1 : (⟨S1x1, .f32⟩ : BufTy).Contents (Elt F) → (⟨S4096x1, .f32⟩ : BufTy).Contents (Elt F)),
    binary main_v24 main_v26 main_v27 (addf : (⟨S4096x1, .f32⟩ : BufTy).Contents (Elt F) → (⟨S4096x1, .f32⟩ : BufTy).Contents (Elt F) → (⟨S4096x1, .f32⟩ : BufTy).Contents (Elt F)) ]

/-- The flat program: 78 operations, in order. -/
abbrev ops : List (HloOp τ sig (Elt F)) :=
  [ unary main_arg4 main_v0 (broadcastInDim S1x13x1 ![1, 2] bcast_S13x1_S1x13x1_1_2 : (⟨S13x1, .f32⟩ : BufTy).Contents (Elt F) → (⟨S1x13x1, .f32⟩ : BufTy).Contents (Elt F)),
    unary main_arg0 main_v1 (broadcastInDim S4096x13x1 ![0, 1] bcast_S4096x13_S4096x13x1_0_1 : (⟨S4096x13, .f32⟩ : BufTy).Contents (Elt F) → (⟨S4096x13x1, .f32⟩ : BufTy).Contents (Elt F)),
    unary main_v0 main_v2 (broadcastInDim S4096x13x1 ![0, 1, 2] bcast_S1x13x1_S4096x13x1_0_1_2 : (⟨S1x13x1, .f32⟩ : BufTy).Contents (Elt F) → (⟨S4096x13x1, .f32⟩ : BufTy).Contents (Elt F)),
    binary main_v2 main_v1 main_v3 (mulf : (⟨S4096x13x1, .f32⟩ : BufTy).Contents (Elt F) → (⟨S4096x13x1, .f32⟩ : BufTy).Contents (Elt F) → (⟨S4096x13x1, .f32⟩ : BufTy).Contents (Elt F)),
    nullary main_cst (constant S_ .f32 0x00000000#32),
    binary main_v3 main_cst main_v4 ((fun x v => Host.reduceAdd x v reducesTo_S4096x13x1_S4096x1_d1 h_S_) : (⟨S4096x13x1, .f32⟩ : BufTy).Contents (Elt F) → (⟨S_, .f32⟩ : BufTy).Contents (Elt F) → (⟨S4096x1, .f32⟩ : BufTy).Contents (Elt F)),
    unary main_v4 main_v5 (broadcastInDim S4096x1x1 ![0, 2] bcast_S4096x1_S4096x1x1_0_2 : (⟨S4096x1, .f32⟩ : BufTy).Contents (Elt F) → (⟨S4096x1x1, .f32⟩ : BufTy).Contents (Elt F)),
    nullary main_v6 (iotaInDim S26 32 0),
    nullary main_c (constantI S_ 32 100000#32),
    unary main_c main_v7 (broadcastInDim S26 ![] bcast_S_S26 : (⟨S_, .i32⟩ : BufTy).Contents (Elt F) → (⟨S26, .i32⟩ : BufTy).Contents (Elt F)),
    binary main_v6 main_v7 main_v8 (muli : (⟨S26, .i32⟩ : BufTy).Contents (Elt F) → (⟨S26, .i32⟩ : BufTy).Contents (Elt F) → (⟨S26, .i32⟩ : BufTy).Contents (Elt F)),
    unary main_v8 main_v9 (broadcastInDim S1x26 ![1] bcast_S26_S1x26_1 : (⟨S26, .i32⟩ : BufTy).Contents (Elt F) → (⟨S1x26, .i32⟩ : BufTy).Contents (Elt F)),
    unary main_v9 main_v10 (broadcastInDim S4096x26 ![0, 1] bcast_S1x26_S4096x26_0_1 : (⟨S1x26, .i32⟩ : BufTy).Contents (Elt F) → (⟨S4096x26, .i32⟩ : BufTy).Contents (Elt F)),
    binary main_arg1 main_v10 main_v11 (addi : (⟨S4096x26, .i32⟩ : BufTy).Contents (Elt F) → (⟨S4096x26, .i32⟩ : BufTy).Contents (Elt F) → (⟨S4096x26, .i32⟩ : BufTy).Contents (Elt F)),
    TRef.nullary main_call0.c (constantI S_ 32 0#32),
    TRef.unary main_call0.c main_call0.v0 (broadcastInDim S4096x26 ![] bcast_S_S4096x26),
    TRef.binary (.of main_v11) main_call0.v0 main_call0.v1 (cmpi .slt),
    TRef.nullary main_call0.c_0 (constantI S_ 32 2600000#32),
    TRef.unary main_call0.c_0 main_call0.v2 (broadcastInDim S4096x26 ![] bcast_S_S4096x26),
    TRef.binary (.of main_v11) main_call0.v2 main_call0.v3 addi,
    TRef.ternary main_call0.v1 main_call0.v3 (.of main_v11) main_call0.call0.v0 select,
    TRef.unary main_call0.call0.v0 main_call0.v5 (broadcastInDim S4096x26x1 ![0, 1] bcast_S4096x26_S4096x26x1_0_1),
    TRef.nullary main_call0.c_1 (constantI S1 32 2599999#32),
    TRef.nullary main_call0.c_2 (constantI S_ 32 0#32),
    TRef.unary main_call0.c_2 main_call0.v6 (broadcastInDim S4096x26x1 ![] bcast_S_S4096x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x26x1 ![0, 1, 2] bcast_S1x1x1_S4096x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x26x1_S4096x26_d2 h_S_),
    TRef.binary (.of main_arg3) main_call0.v5 main_call0.v13 (fun x i => Host.gather gather_S2600000x1_S4096x26x1_S4096x26x1_2_0_n_n_0_2_11 x i),
    TRef.unary main_call0.v12 main_call0.v14 (broadcastInDim S4096x26x1 ![0, 1] bcast_S4096x26_S4096x26x1_0_1),
    TRef.nullary main_call0.cst (constant S_ .f32 0x7FC00000#32),
    TRef.unary main_call0.cst main_call0.v15 (broadcastInDim S4096x26x1 ![] bcast_S_S4096x26x1),
    TRef.ternary main_call0.v14 main_call0.v13 main_call0.v15 main_call0.v16 select,
    nullary main_cst_0 (constant S_ .f32 0x00000000#32),
    binary main_v12 main_cst_0 main_v13 ((fun x v => Host.reduceAdd x v reducesTo_S4096x26x1_S4096x1_d1 h_S_) : (⟨S4096x26x1, .f32⟩ : BufTy).Contents (Elt F) → (⟨S_, .f32⟩ : BufTy).Contents (Elt F) → (⟨S4096x1, .f32⟩ : BufTy).Contents (Elt F)),
    unary main_v13 main_v14 (broadcastInDim S4096x1x1 ![0, 2] bcast_S4096x1_S4096x1x1_0_2 : (⟨S4096x1, .f32⟩ : BufTy).Contents (Elt F) → (⟨S4096x1x1, .f32⟩ : BufTy).Contents (Elt F)),
    nullary main_c_1 (constantI S_ 32 0#32),
    unary main_c_1 main_v15 (broadcastInDim S4096x200 ![] bcast_S_S4096x200 : (⟨S_, .i32⟩ : BufTy).Contents (Elt F) → (⟨S4096x200, .i32⟩ : BufTy).Contents (Elt F)),
    binary main_arg2 main_v15 main_v16 (cmpi .ne : (⟨S4096x200, .i32⟩ : BufTy).Contents (Elt F) → (⟨S4096x200, .i32⟩ : BufTy).Contents (Elt F) → (⟨S4096x200, .i1⟩ : BufTy).Contents (Elt F)),
    unary main_v16 main_v17 (uitofp .f32 : (⟨S4096x200, .i1⟩ : BufTy).Contents (Elt F) → (⟨S4096x200, .f32⟩ : BufTy).Contents (Elt F)),
    unary main_v17 main_v18 (broadcastInDim S4096x200x1 ![0, 1] bcast_S4096x200_S4096x200x1_0_1 : (⟨S4096x200, .f32⟩ : BufTy).Contents (Elt F) → (⟨S4096x200x1, .f32⟩ : BufTy).Contents (Elt F)),
    TRef.nullary main_call1.c (constantI S_ 32 0#32),
    TRef.unary main_call1.c main_call1.v0 (broadcastInDim S4096x200 ![] bcast_S_S4096x200),
    TRef.binary (.of main_arg2) main_call1.v0 main_call1.v1 (cmpi .slt),
    TRef.nullary main_call1.c_0 (constantI S_ 32 100000#32),
    TRef.unary main_call1.c_0 main_call1.v2 (broadcastInDim S4096x200 ![] bcast_S_S4096x200),
    TRef.binary (.of main_arg2) main_call1.v2 main_call1.v3 addi,
    TRef.ternary main_call1.v1 main_call1.v3 (.of main_arg2) main_call1.call0.v0 select,
    TRef.unary main_call1.call0.v0 main_call1.v5 (broadcastInDim S4096x200x1 ![0, 1] bcast_S4096x200_S4096x200x1_0_1),
    TRef.nullary main_call1.c_1 (constantI S1 32 99999#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_),
    TRef.binary (.of main_arg5) main_call1.v5 main_call1.v13 (fun x i => Host.gather gather_S100000x1_S4096x200x1_S4096x200x1_2_0_n_n_0_2_11 x i),
    TRef.unary main_call1.v12 main_call1.v14 (broadcastInDim S4096x200x1 ![0, 1] bcast_S4096x200_S4096x200x1_0_1),
    TRef.nullary main_call1.cst (constant S_ .f32 0x7FC00000#32),
    TRef.unary main_call1.cst main_call1.v15 (broadcastInDim S4096x200x1 ![] bcast_S_S4096x200x1),
    TRef.ternary main_call1.v14 main_call1.v13 main_call1.v15 main_call1.v16 select,
    binary main_v19 main_v18 main_v20 (mulf : (⟨S4096x200x1, .f32⟩ : BufTy).Contents (Elt F) → (⟨S4096x200x1, .f32⟩ : BufTy).Contents (Elt F) → (⟨S4096x200x1, .f32⟩ : BufTy).Contents (Elt F)),
    nullary main_cst_2 (constant S_ .f32 0x00000000#32),
    binary main_v20 main_cst_2 main_v21 ((fun x v => Host.reduceAdd x v reducesTo_S4096x200x1_S4096x1_d1 h_S_) : (⟨S4096x200x1, .f32⟩ : BufTy).Contents (Elt F) → (⟨S_, .f32⟩ : BufTy).Contents (Elt F) → (⟨S4096x1, .f32⟩ : BufTy).Contents (Elt F)),
    unary main_v21 main_v22 (broadcastInDim S4096x1x1 ![0, 2] bcast_S4096x1_S4096x1x1_0_2 : (⟨S4096x1, .f32⟩ : BufTy).Contents (Elt F) → (⟨S4096x1x1, .f32⟩ : BufTy).Contents (Elt F)),
    nary ![main_v5, main_v14, main_v22] main_v23 (fun u => concatenate S4096x3x1 1 [⟨S4096x1x1, u 0⟩, ⟨S4096x1x1, u 1⟩, ⟨S4096x1x1, u 2⟩] concatenates_S4096x1x1_S4096x1x1_S4096x1x1_S4096x3x1_d1),
    nullary main_cst_3 (constant S_ .f32 0x00000000#32),
    binary main_v23 main_cst_3 main_v24 ((fun x v => Host.reduceAdd x v reducesTo_S4096x3x1_S4096x1_d1 h_S_) : (⟨S4096x3x1, .f32⟩ : BufTy).Contents (Elt F) → (⟨S_, .f32⟩ : BufTy).Contents (Elt F) → (⟨S4096x1, .f32⟩ : BufTy).Contents (Elt F)),
    unary main_arg6 main_v25 (broadcastInDim S1x1 ![1] bcast_S1_S1x1_1 : (⟨S1, .f32⟩ : BufTy).Contents (Elt F) → (⟨S1x1, .f32⟩ : BufTy).Contents (Elt F)),
    unary main_v25 main_v26 (broadcastInDim S4096x1 ![0, 1] bcast_S1x1_S4096x1_0_1 : (⟨S1x1, .f32⟩ : BufTy).Contents (Elt F) → (⟨S4096x1, .f32⟩ : BufTy).Contents (Elt F)),
    binary main_v24 main_v26 main_v27 (addf : (⟨S4096x1, .f32⟩ : BufTy).Contents (Elt F) → (⟨S4096x1, .f32⟩ : BufTy).Contents (Elt F) → (⟨S4096x1, .f32⟩ : BufTy).Contents (Elt F)) ]

theorem ops_split : (ops : List (HloOp τ sig (Elt F))) = opsParts ++ opsSum := rfl

-- seventy-eight nested sequencings unfolded
set_option maxRecDepth 8192 in
/-- @main is that straight line: sequencing grafts a continuation onto the leaves of a finite tree, so the two lookups and
    their selects unfolded at their calls, and the records at their fields, compute to the same chain of steps. -/
theorem main_eq (c : Dev nD) : main (F := F) c = seq ops := rfl

section Fold

variable {τ' : Topo} {sig' : RefSig} {Val : EltTy → Type}

/-- Folding a concatenation of two lines is folding the second from where the first ends. -/
theorem after_append (l₁ l₂ : List (HloOp τ' sig' Val)) (W : Valuation τ' sig' Val) :
    after (l₁ ++ l₂) W = after l₂ (after l₁ W) := by
  induction l₁ generalizing W with
  | nil => rfl
  | cons op l ih => simp only [List.cons_append, after_cons, ih]

/-- An operation over a literal family of THREE operands (the concatenation of the three parts) leaves at its result
    the function of the three operands' contents, each read at its own reference. -/
theorem nary3_result {x a b y : Ref sig' .tc}
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

end Fold

/-- The fold's results in one pass, with the three-operand form for the concatenation. -/
macro "after_results_simp3" : tactic =>
  `(tactic| (simp (disch := decide) only [after_cons, after_nil,
      nullary_result', unary_result', binary_result', ternary_result', nary3_result,
      nullary_result_ne', unary_result_ne', binary_result_ne', ternary_result_ne', nary_result_ne']))

section Parts

attribute [local irreducible] Host.reduce Host.gather Host.reduceAdd

set_option maxRecDepth 8192 in
/-- After the first 72 operations the first part's buffer holds the weighted sum of the float fields. -/
theorem parts_flt (V : Valuation τ sig (Elt F)) :
    after opsParts V (main_v5 : DevRef τ sig) = fltCol (V (main_arg0 : DevRef τ sig)) (V (main_arg4 : DevRef τ sig)) := by
  after_results_simp3
  rfl

set_option maxRecDepth 8192 in
set_option maxHeartbeats 800000 in
/-- … the second part's buffer the summed token lookups. -/
theorem parts_tok (V : Valuation τ sig (Elt F)) :
    after opsParts V (main_v14 : DevRef τ sig) = tokCol (V (main_arg1 : DevRef τ sig)) (V (main_arg3 : DevRef τ sig)) := by
  after_results_simp3
  rfl

set_option maxRecDepth 8192 in
set_option maxHeartbeats 800000 in
/-- … the third part's buffer the summed masked sequence lookups. -/
theorem parts_seq (V : Valuation τ sig (Elt F)) :
    after opsParts V (main_v22 : DevRef τ sig) = seqCol (V (main_arg2 : DevRef τ sig)) (V (main_arg5 : DevRef τ sig)) := by
  after_results_simp3
  rfl

/-- … and the bias is as it was. -/
theorem parts_bias (V : Valuation τ sig (Elt F)) :
    after opsParts V (main_arg6 : DevRef τ sig) = (V (main_arg6 : DevRef τ sig)) := by
  after_results_simp3

/-- The last 6 operations, from any contents `W`: the result is the three part buffers' sum plus the bias column. -/
theorem sum_eq (W : Valuation τ sig (Elt F)) :
    after opsSum W (main_v27 : DevRef τ sig)
      = addf (partsSum (W (main_v5 : DevRef τ sig)) (W (main_v14 : DevRef τ sig)) (W (main_v22 : DevRef τ sig)))
          (biasCol (W (main_arg6 : DevRef τ sig))) := by
  after_results_simp3
  rfl

end Parts

/-- The fold at the result buffer is `refOut` of the contents at the seven arguments. -/
theorem out_eq (V : Valuation τ sig (Elt F)) :
    after ops V (main_v27 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [ops_split, after_append, sum_eq, parts_flt, parts_tok, parts_seq, parts_bias]
  rfl

theorem arg0_eq (V : Valuation τ sig (Elt F)) :
    after ops V (main_arg0 : DevRef τ sig) = V (main_arg0 : DevRef τ sig) := by
  after_results_simp3

theorem arg1_eq (V : Valuation τ sig (Elt F)) :
    after ops V (main_arg1 : DevRef τ sig) = V (main_arg1 : DevRef τ sig) := by
  after_results_simp3

theorem arg2_eq (V : Valuation τ sig (Elt F)) :
    after ops V (main_arg2 : DevRef τ sig) = V (main_arg2 : DevRef τ sig) := by
  after_results_simp3

theorem arg3_eq (V : Valuation τ sig (Elt F)) :
    after ops V (main_arg3 : DevRef τ sig) = V (main_arg3 : DevRef τ sig) := by
  after_results_simp3

theorem arg4_eq (V : Valuation τ sig (Elt F)) :
    after ops V (main_arg4 : DevRef τ sig) = V (main_arg4 : DevRef τ sig) := by
  after_results_simp3

theorem arg5_eq (V : Valuation τ sig (Elt F)) :
    after ops V (main_arg5 : DevRef τ sig) = V (main_arg5 : DevRef τ sig) := by
  after_results_simp3

theorem arg6_eq (V : Valuation τ sig (Elt F)) :
    after ops V (main_arg6 : DevRef τ sig) = V (main_arg6 : DevRef τ sig) := by
  after_results_simp3

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., binary_bufs_sub .., nullary_bufs_sub .., binary_bufs_sub ..,
    unary_bufs_sub .., nullary_bufs_sub .., nullary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub .., unary_bufs_sub .., nullary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., binary_bufs_sub .., unary_bufs_sub ..,
    nary_bufs_sub .., nullary_bufs_sub .., binary_bufs_sub .., unary_bufs_sub .., unary_bufs_sub .., binary_bufs_sub ..⟩

/-- From any memory with zero counters, for any float values: every weakly fair execution of @main terminates with the
    result buffer at `refOut` of the arguments' launch contents and the seven arguments unchanged. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v27)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v27).trans (out_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_seq scopedRefs_eq scopedSems_eq defs main (fun _ => ops) main_eq (fun _ => ops_sub) m ρ)

end Cert.Proof.Ref

end
-- ==== Proof.RefReads.lean ====
/-
  The layout operations and reductions of the reference, read at an index, at the program's literal shapes: a column
  `[4096, 1]` given a middle unit axis; an array given a trailing unit axis; the weights and the bias spread over the batch;
  a float sum over the middle axis as a finite sum; an `and` over a trailing unit axis as its one bit.
-/
import proofs.«207587_g45655502356657_cont_8to1c4_548_39_alg».proof.Proof.RefTerm
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.Proof.Ref

open Cert.ReferenceIdeal Idealize.ShloMosaic Idealize.ShloMosaic.ValueIdx
open Cert.ReferenceIdeal.Facts₀
open scoped BigOperators

variable [Cert.ReferenceIdeal.Facts]

/-- A column `[4096, 1]` given a middle unit axis, read at `(b, 0, 0)`: the column at `(b, 0)`. -/
theorem col_read {α : Type} (x : S4096x1.Idx → α) (b : Fin 4096) :
    broadcastInDim S4096x1x1 ![0, 2] bcast_S4096x1_S4096x1x1_0_2 x (ix3 b (0 : Fin 1) (0 : Fin 1)) = x (ix2 b (0 : Fin 1)) :=
  broadcastInDim_apply _ _ _ _ (ix2 b (0 : Fin 1)) (fun a => by
    match a with
    | ⟨0, _⟩ => rfl
    | ⟨1, _⟩ => rfl)

/-- The weights `[13, 1]` spread over the batch, read at `(b, k, 0)`: weight `k`. -/
theorem weight_read {α : Type} (x : S13x1.Idx → α) (b : Fin 4096) (k : Fin 13) :
    broadcastInDim S4096x13x1 ![0, 1, 2] bcast_S1x13x1_S4096x13x1_0_1_2
      (broadcastInDim S1x13x1 ![1, 2] bcast_S13x1_S1x13x1_1_2 x) (ix3 b k (0 : Fin 1)) = x (ix2 k (0 : Fin 1)) := by
  rw [broadcastInDim_apply _ _ _ _ (ix3 (0 : Fin 1) k (0 : Fin 1)) (fun a => by
    match a with
    | ⟨0, _⟩ => rfl
    | ⟨1, _⟩ => rfl
    | ⟨2, _⟩ => rfl)]
  exact broadcastInDim_apply _ _ _ _ (ix2 k (0 : Fin 1)) (fun a => by
    match a with
    | ⟨0, _⟩ => rfl
    | ⟨1, _⟩ => rfl)

/-- The per-field offsets `[26]` spread over the batch, read at `(b, j)`: offset `j`. -/
theorem offsets_read {α : Type} (x : S26.Idx → α) (b : Fin 4096) (j : Fin 26) :
    broadcastInDim S4096x26 ![0, 1] bcast_S1x26_S4096x26_0_1
      (broadcastInDim S1x26 ![1] bcast_S26_S1x26_1 x) (ix2 b j) = x (ix1 j) := by
  rw [broadcastInDim_apply _ _ _ _ (ix2 (0 : Fin 1) j) (fun a => by
    match a with
    | ⟨0, _⟩ => rfl
    | ⟨1, _⟩ => rfl)]
  exact broadcastInDim_apply _ _ _ _ (ix1 j) (fun a => by
    match a with
    | ⟨0, _⟩ => rfl)

/-- The bias `[1]` spread down the batch column, read at `(b, 0)`: the bias. -/
theorem biasCol_apply (bias : FVec Ideal S1 .f32) (b : Fin 4096) :
    biasCol bias (ix2 b (0 : Fin 1)) = bias (ix1 (0 : Fin 1)) := by
  unfold biasCol
  rw [broadcastInDim_apply _ _ _ _ (ix2 (0 : Fin 1) (0 : Fin 1)) (fun a => by
    match a with
    | ⟨0, _⟩ => rfl
    | ⟨1, _⟩ => rfl)]
  exact broadcastInDim_apply _ _ _ _ (ix1 (0 : Fin 1)) (fun a => by
    match a with
    | ⟨0, _⟩ => rfl)

/-- An array `[4096, 13]` given a trailing unit axis, read at `(b, j, 0)`: the array at `(b, j)`. -/
theorem unit_read_13 {α : Type} (x : S4096x13.Idx → α) (b : Fin 4096) (j : Fin 13) :
    broadcastInDim S4096x13x1 ![0, 1] bcast_S4096x13_S4096x13x1_0_1 x (ix3 b j (0 : Fin 1)) = x (ix2 b j) :=
  broadcastInDim_apply _ _ _ _ (ix2 b j) (fun a => by
    match a with
    | ⟨0, _⟩ => rfl
    | ⟨1, _⟩ => rfl)

/-- An array `[4096, 26]` given a trailing unit axis, read at `(b, j, 0)`: the array at `(b, j)`. -/
theorem unit_read_26 {α : Type} (x : S4096x26.Idx → α) (b : Fin 4096) (j : Fin 26) :
    broadcastInDim S4096x26x1 ![0, 1] bcast_S4096x26_S4096x26x1_0_1 x (ix3 b j (0 : Fin 1)) = x (ix2 b j) :=
  broadcastInDim_apply _ _ _ _ (ix2 b j) (fun a => by
    match a with
    | ⟨0, _⟩ => rfl
    | ⟨1, _⟩ => rfl)

/-- The one-entry bound `[1]` spread over `[4096, 26, 1]`, read anywhere: the entry. -/
theorem bound_read_26 {α : Type} (x : S1.Idx → α) (i : S4096x26x1.Idx) :
    broadcastInDim S4096x26x1 ![0, 1, 2] bcast_S1x1x1_S4096x26x1_0_1_2
      (broadcastInDim S1x1x1 ![2] bcast_S1_S1x1x1_2 x) i = x (ix1 (0 : Fin 1)) := by
  rw [broadcastInDim_apply _ _ _ _ (ix3 (0 : Fin 1) (0 : Fin 1) (0 : Fin 1)) (fun a => by
    match a with
    | ⟨0, _⟩ => rfl
    | ⟨1, _⟩ => rfl
    | ⟨2, _⟩ => rfl)]
  exact broadcastInDim_apply _ _ _ _ (ix1 (0 : Fin 1)) (fun a => by
    match a with
    | ⟨0, _⟩ => rfl)

/-- An array `[4096, 200]` given a trailing unit axis, read at `(b, j, 0)`: the array at `(b, j)`. -/
theorem unit_read_200 {α : Type} (x : S4096x200.Idx → α) (b : Fin 4096) (j : Fin 200) :
    broadcastInDim S4096x200x1 ![0, 1] bcast_S4096x200_S4096x200x1_0_1 x (ix3 b j (0 : Fin 1)) = x (ix2 b j) :=
  broadcastInDim_apply _ _ _ _ (ix2 b j) (fun a => by
    match a with
    | ⟨0, _⟩ => rfl
    | ⟨1, _⟩ => rfl)

/-- The one-entry bound `[1]` spread over `[4096, 200, 1]`, read anywhere: the entry. -/
theorem bound_read_200 {α : Type} (x : S1.Idx → α) (i : S4096x200x1.Idx) :
    broadcastInDim S4096x200x1 ![0, 1, 2] bcast_S1x1x1_S4096x200x1_0_1_2
      (broadcastInDim S1x1x1 ![2] bcast_S1_S1x1x1_2 x) i = x (ix1 (0 : Fin 1)) := by
  rw [broadcastInDim_apply _ _ _ _ (ix3 (0 : Fin 1) (0 : Fin 1) (0 : Fin 1)) (fun a => by
    match a with
    | ⟨0, _⟩ => rfl
    | ⟨1, _⟩ => rfl
    | ⟨2, _⟩ => rfl)]
  exact broadcastInDim_apply _ _ _ _ (ix1 (0 : Fin 1)) (fun a => by
    match a with
    | ⟨0, _⟩ => rfl)

/-- A float sum over the middle axis of `[4096, 13, 1]` from the zero word, read at row `b`: the sum over that axis. -/
theorem sum_mid_13 (x : FVec Ideal S4096x13x1 .f32) (b : Fin 4096) :
    Host.reduceAdd x (constant (F := Ideal) S_ .f32 0x00000000#32) reducesTo_S4096x13x1_S4096x1_d1 h_S_ (ix2 b (0 : Fin 1))
      = ∑ k : Fin 13, x (ix3 b k (0 : Fin 1)) := by
  have h : S4096x13x1.Reduces [1] S4096x1 := by decide
  rw [hostReduceAdd_apply, Ideal.hostReduceAdd_single reducesTo_S4096x13x1_S4096x1_d1 h]
  have e0 : (constant (F := Ideal) S_ .f32 0x00000000#32) (Shape.Idx.first h_S_) = 0 := Ideal.ofBits_zero_f32
  rw [e0, zero_add]
  refine Finset.sum_congr rfl fun k _ => congrArg x ?_
  funext c
  match c with
  | ⟨0, _⟩ => rfl
  | ⟨1, _⟩ => rfl
  | ⟨2, _⟩ => rfl

/-- A float sum over the middle axis of `[4096, 26, 1]` from the zero word, read at row `b`: the sum over that axis. -/
theorem sum_mid_26 (x : FVec Ideal S4096x26x1 .f32) (b : Fin 4096) :
    Host.reduceAdd x (constant (F := Ideal) S_ .f32 0x00000000#32) reducesTo_S4096x26x1_S4096x1_d1 h_S_ (ix2 b (0 : Fin 1))
      = ∑ k : Fin 26, x (ix3 b k (0 : Fin 1)) := by
  have h : S4096x26x1.Reduces [1] S4096x1 := by decide
  rw [hostReduceAdd_apply, Ideal.hostReduceAdd_single reducesTo_S4096x26x1_S4096x1_d1 h]
  have e0 : (constant (F := Ideal) S_ .f32 0x00000000#32) (Shape.Idx.first h_S_) = 0 := Ideal.ofBits_zero_f32
  rw [e0, zero_add]
  refine Finset.sum_congr rfl fun k _ => congrArg x ?_
  funext c
  match c with
  | ⟨0, _⟩ => rfl
  | ⟨1, _⟩ => rfl
  | ⟨2, _⟩ => rfl

/-- A float sum over the middle axis of `[4096, 200, 1]` from the zero word, read at row `b`: the sum over that axis. -/
theorem sum_mid_200 (x : FVec Ideal S4096x200x1 .f32) (b : Fin 4096) :
    Host.reduceAdd x (constant (F := Ideal) S_ .f32 0x00000000#32) reducesTo_S4096x200x1_S4096x1_d1 h_S_ (ix2 b (0 : Fin 1))
      = ∑ k : Fin 200, x (ix3 b k (0 : Fin 1)) := by
  have h : S4096x200x1.Reduces [1] S4096x1 := by decide
  rw [hostReduceAdd_apply, Ideal.hostReduceAdd_single reducesTo_S4096x200x1_S4096x1_d1 h]
  have e0 : (constant (F := Ideal) S_ .f32 0x00000000#32) (Shape.Idx.first h_S_) = 0 := Ideal.ofBits_zero_f32
  rw [e0, zero_add]
  refine Finset.sum_congr rfl fun k _ => congrArg x ?_
  funext c
  match c with
  | ⟨0, _⟩ => rfl
  | ⟨1, _⟩ => rfl
  | ⟨2, _⟩ => rfl

/-- A float sum over the middle axis of `[4096, 3, 1]` from the zero word, read at row `b`: the sum over that axis. -/
theorem sum_mid_3 (x : FVec Ideal S4096x3x1 .f32) (b : Fin 4096) :
    Host.reduceAdd x (constant (F := Ideal) S_ .f32 0x00000000#32) reducesTo_S4096x3x1_S4096x1_d1 h_S_ (ix2 b (0 : Fin 1))
      = ∑ k : Fin 3, x (ix3 b k (0 : Fin 1)) := by
  have h : S4096x3x1.Reduces [1] S4096x1 := by decide
  rw [hostReduceAdd_apply, Ideal.hostReduceAdd_single reducesTo_S4096x3x1_S4096x1_d1 h]
  have e0 : (constant (F := Ideal) S_ .f32 0x00000000#32) (Shape.Idx.first h_S_) = 0 := Ideal.ofBits_zero_f32
  rw [e0, zero_add]
  refine Finset.sum_congr rfl fun k _ => congrArg x ?_
  funext c
  match c with
  | ⟨0, _⟩ => rfl
  | ⟨1, _⟩ => rfl
  | ⟨2, _⟩ => rfl

/-- An `and` over one bit, from the bit `1`: that bit. -/
theorem fold_and_one (f : Fin 1 → BitVec 1) : (Finset.univ : Finset (Fin 1)).fold IntOp.andi 1#1 f = f 0 := by
  rw [show (Finset.univ : Finset (Fin 1)) = {0} from rfl, Finset.fold_singleton]
  generalize f 0 = v
  revert v
  decide

/-- An `and` over the trailing unit axis of `[4096, 26, 1]` from the bit `1`, read at `(b, j)`: the one bit there. -/
theorem all_last_26 (x : IVec S4096x26x1 1) (b : Fin 4096) (j : Fin 26) :
    Host.reduce IntOp.andi x (constantI S_ 1 1#1) reducesTo_S4096x26x1_S4096x26_d2 h_S_ (ix2 b j)
      = x (ix3 b j (0 : Fin 1)) := by
  have h : S4096x26x1.Reduces [2] S4096x26 := by decide
  rw [Host.reduce_eq_fold_single IntOp.andi x _ reducesTo_S4096x26x1_S4096x26_d2 h h_S_]
  have e : h.lift (ix2 b j) (0 : Fin 1) = ix3 b j (0 : Fin 1) := by
    funext c
    match c with
    | ⟨0, _⟩ => rfl
    | ⟨1, _⟩ => rfl
    | ⟨2, _⟩ => rfl
  exact (fold_and_one (x ∘ h.lift (ix2 b j))).trans (congrArg x e)

/-- An `and` over the trailing unit axis of `[4096, 200, 1]` from the bit `1`, read at `(b, j)`: the one bit there. -/
theorem all_last_200 (x : IVec S4096x200x1 1) (b : Fin 4096) (j : Fin 200) :
    Host.reduce IntOp.andi x (constantI S_ 1 1#1) reducesTo_S4096x200x1_S4096x200_d2 h_S_ (ix2 b j)
      = x (ix3 b j (0 : Fin 1)) := by
  have h : S4096x200x1.Reduces [2] S4096x200 := by decide
  rw [Host.reduce_eq_fold_single IntOp.andi x _ reducesTo_S4096x200x1_S4096x200_d2 h h_S_]
  have e : h.lift (ix2 b j) (0 : Fin 1) = ix3 b j (0 : Fin 1) := by
    funext c
    match c with
    | ⟨0, _⟩ => rfl
    | ⟨1, _⟩ => rfl
    | ⟨2, _⟩ => rfl
  exact (fold_and_one (x ∘ h.lift (ix2 b j))).trans (congrArg x e)

end Cert.Proof.Ref

end
-- ==== Proof.RefGather.lean ====
/-
  A row lookup read at an index. `jnp.take(table, idx, axis=0)` of a table `[N, 1]` at integer indices `[R, C]` lowers to a
  gather whose start indices carry a trailing unit axis `[R, C, 1]` (the index vector, of length one), whose slices are
  single rows `[1, 1]` with the row axis collapsed, and whose result `[R, C, 1]` keeps the slice's one column as its last
  axis. Result element `(r, c, 0)` is the table's row at the start index `idx[r, c, 0]`, read as a signed integer and
  clamped into `0 … N − 1`, column `0`.
-/
import Idealize.ShloMosaic.Lib.ValueIdx

noncomputable section

namespace Cert.Proof.Ref

open Idealize.ShloMosaic Idealize.ShloMosaic.ValueIdx

variable {α : Type}

/-- Those dimension numbers for a table `[N, 1]`, start indices `[R, C, 1]` and result `[R, C, 1]`. -/
abbrev rowDims (N R C : Nat)
    (wf : GatherDims.WF ⟨2, ![N, 1]⟩ ⟨3, ![R, C, 1]⟩ ⟨3, ![R, C, 1]⟩ [2] [0] [] [0] [] 2 ![1, 1]) :
    GatherDims ⟨2, ![N, 1]⟩ ⟨3, ![R, C, 1]⟩ ⟨3, ![R, C, 1]⟩ where
  offsetDims := [2]
  collapsedSliceDims := [0]
  operandBatchingDims := []
  startIndicesBatchingDims := []
  startIndexMap := [0]
  indexVectorDim := 2
  sliceSizes := ![1, 1]
  wf := wf

/-- THE LOOKUP READ AT `(r, c, 0)`: the table's row at the start index there, read signed and clamped into `0 … N − 1`. -/
theorem gather_rows_apply {N R C w : Nat} (hN : 0 < N)
    (wf : GatherDims.WF ⟨2, ![N, 1]⟩ ⟨3, ![R, C, 1]⟩ ⟨3, ![R, C, 1]⟩ [2] [0] [] [0] [] 2 ![1, 1])
    (x : (⟨2, ![N, 1]⟩ : Shape).Idx → α) (idx : IVec ⟨3, ![R, C, 1]⟩ w) (r : Fin R) (c : Fin C) :
    Host.gather (rowDims N R C wf) x idx (ix3 r c (0 : Fin 1))
      = x (ix2 ⟨min (idx (ix3 r c (0 : Fin 1))).toInt.toNat (N - 1), by omega⟩ (0 : Fin 1)) := by
  unfold Host.gather
  congr 1
  funext a
  match a with
  | ⟨1, _⟩ => exact Subsingleton.elim (α := Fin 1) _ _
  | ⟨0, _⟩ =>
    refine Fin.ext ?_
    show (rowDims N R C wf).start (ix3 r c 0) idx 0 + (rowDims N R C wf).batchCoord (ix3 r c 0) 0
        + (rowDims N R C wf).offCoord (ix3 r c 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix3 r c 0) ⟨List.idxOf (0 : Fin 2) (rowDims N R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl

end Cert.Proof.Ref

end
-- ==== Proof.RefWords.lean ====
/-
  The 32-bit word facts the lookups need, free of any array. An index below 2^31 read as a signed integer is the number
  itself, so for the indices the precondition allows: the field offset `t + 100000 · j` (`t < 100000`, `j < 26`) does not
  wrap and stays below 2600000; the lookup's "negative index" select keeps it; both bounds tests of the fill mode hold.
  The padding mask is the bit "token ≠ 0" converted to a float, `0` or `1`: any extended real times it is `0` or itself.
-/
import Idealize.ShloMosaic.Lib.Affine
import Idealize.ShloMosaic.Lib.ValueIdx

noncomputable section

namespace Cert.Proof.Ref

open Idealize.ShloMosaic Idealize.ShloMosaic.ValueIdx

/-- A word below `2 ^ 31`, read signed, is the number it is read unsigned. -/
theorem toInt_of_lt {x : BitVec 32} (h : x.toNat < 2147483648) : x.toInt = (x.toNat : Int) := by
  rw [BitVec.toInt_eq_toNat_cond]
  split <;> omega

/-- The field offset does not wrap: `t + j · 100000` as a word is that number. -/
theorem offset_toNat {t : BitVec 32} {j : Nat} (ht : t.toNat < 100000) (hj : j < 26) :
    (IntOp.addi t (IntOp.muli (BitVec.ofNat 32 j) 100000#32)).toNat = t.toNat + 100000 * j := by
  show (t + BitVec.ofNat 32 j * 100000#32).toNat = _
  rw [BitVec.toNat_add, BitVec.toNat_mul, BitVec.toNat_ofNat]
  have e : (100000#32).toNat = 100000 := rfl
  rw [e]
  omega

/-- The lookup's select on "the index is negative" keeps an index below `2 ^ 31`. -/
theorem wrap_keep (w n : BitVec 32) (h : w.toNat < 2147483648) :
    Scalar.select (IntOp.cmpi .slt w 0#32) (IntOp.addi w n) w = w := by
  have hne : ¬ IntOp.cmpi .slt w 0#32 = 1#1 := by
    rw [IntOp.cmpi_slt, toInt_of_lt h, BitVec.toInt_zero]
    omega
  rw [eq_zero_of_ne_one hne, select_zero]

/-- Both bounds tests hold of an index at most the last row `n`, the bound word `k` being `n` read signed. -/
theorem inside_bit (w k : BitVec 32) (n : Nat) (hk : k.toInt = (n : Int)) (hn : n < 2147483648) (hw : w.toNat ≤ n) :
    IntOp.andi (IntOp.cmpi .sge w 0#32) (IntOp.cmpi .sle w k) = 1#1 := by
  rw [IntOp.andi_eq_one, IntOp.cmpi_sge, IntOp.cmpi_sle, toInt_of_lt (x := w) (by omega), BitVec.toInt_zero, hk]
  omega

/-- The clamp of the gather is idle on such an index. -/
theorem clamp_idle (w : BitVec 32) (N : Nat) (hw : w.toNat < N) (hN : N ≤ 2147483648) :
    min w.toInt.toNat (N - 1) = w.toNat := by
  rw [toInt_of_lt (by omega), Int.toNat_natCast]
  omega

/-- The padding mask at the ideal instance: the bit "the token is not zero" as a float is `0` or `1`, so a value times it
    is `0` at the padding token and the value elsewhere. -/
theorem mul_mask (x : EReal) (q : BitVec 32) :
    x * FloatOps.uitofp (F := Ideal) .f32 (IntOp.cmpi .ne q 0#32) = if q.toNat = 0 then 0 else x := by
  show x * (((IntOp.cmpi .ne q 0#32).toNat : ℝ) : EReal) = _
  by_cases hq : q = 0#32
  · have hb : IntOp.cmpi .ne q 0#32 = 0#1 := eq_zero_of_ne_one (by rw [IntOp.cmpi_ne]; exact fun h => h hq)
    rw [hb, if_pos (by rw [hq]; rfl)]
    simp
  · have hb : IntOp.cmpi .ne q 0#32 = 1#1 := IntOp.cmpi_ne.2 hq
    rw [hb, if_neg (fun h => hq (BitVec.eq_of_toNat_eq (by rw [h]; rfl)))]
    simp

end Cert.Proof.Ref

end
-- ==== Proof.Spec.lean ====
/-
  The function both programs compute, at the extended reals. For a batch row `b`:

      bias + Σ_{j<13} w_j · x_{b,j}  +  Σ_{j<26} T[t_{b,j} + 100000·j]  +  Σ_{s<200} S°[q_{b,s}]

  where `w` is the 13-entry table of linear weights, `x` the float fields, `T` the shared token table of
  26 · 100000 rows (field `j` owns rows `100000·j … 100000·j + 99999`), `t` the token fields, `q` the token sequence, and
  `S°` the sequence table with the padding row masked: `S°[0] = 0`, `S°[n] = S[n]` for `n ≠ 0`. An index outside its table reads `0`
  (the claim's precondition keeps every index inside; the convention only makes the function total).
  This module names no program: both sides are proved equal to `rowScore` separately.
-/
import Idealize.ShloMosaic.PureOps.Ideal
import Idealize.ShloMosaic.Lib.ValueIdx

noncomputable section

namespace Cert.FmSpec

open Idealize.ShloMosaic Idealize.ShloMosaic.ValueIdx

/-- Row `n` of the token table, `0` outside it. -/
def tokAt (tt : FVec Ideal ⟨2, ![2600000, 1]⟩ .f32) (n : Nat) : EReal :=
  if h : n < 2600000 then tt (ix2 (⟨n, h⟩ : Fin 2600000) (0 : Fin 1)) else 0

/-- Row `n` of the sequence table with the padding row `0` masked, `0` outside the table. -/
def seqAt (st : FVec Ideal ⟨2, ![100000, 1]⟩ .f32) (n : Nat) : EReal :=
  if n = 0 then 0 else if h : n < 100000 then st (ix2 (⟨n, h⟩ : Fin 100000) (0 : Fin 1)) else 0

/-- The linear part of row `b`: the weighted sum of its float fields. -/
def fltScore (ff : FVec Ideal ⟨2, ![4096, 13]⟩ .f32) (ft : FVec Ideal ⟨2, ![13, 1]⟩ .f32) (b : Fin 4096) : EReal :=
  ∑ j : Fin 13, ft (ix2 j (0 : Fin 1)) * ff (ix2 b j)

/-- The token part of row `b`: field `j`'s token looked up in its own stretch of the shared table. -/
def tokScore (tf : IVec ⟨2, ![4096, 26]⟩ 32) (tt : FVec Ideal ⟨2, ![2600000, 1]⟩ .f32) (b : Fin 4096) : EReal :=
  ∑ j : Fin 26, tokAt tt ((tf (ix2 b j)).toNat + 100000 * j.val)

/-- The sequence part of row `b`: the masked table summed along the row's 200 sequence tokens. -/
def seqScore (ts : IVec ⟨2, ![4096, 200]⟩ 32) (st : FVec Ideal ⟨2, ![100000, 1]⟩ .f32) (b : Fin 4096) : EReal :=
  ∑ s : Fin 200, seqAt st (ts (ix2 b s)).toNat

/-- The score of batch row `b`. -/
def rowScore (ff : FVec Ideal ⟨2, ![4096, 13]⟩ .f32) (tf : IVec ⟨2, ![4096, 26]⟩ 32) (ts : IVec ⟨2, ![4096, 200]⟩ 32)
    (tt : FVec Ideal ⟨2, ![2600000, 1]⟩ .f32) (ft : FVec Ideal ⟨2, ![13, 1]⟩ .f32) (st : FVec Ideal ⟨2, ![100000, 1]⟩ .f32)
    (bias : FVec Ideal ⟨1, ![1]⟩ .f32) (b : Fin 4096) : EReal :=
  fltScore ff ft b + tokScore tf tt b + seqScore ts st b + bias (ix1 (0 : Fin 1))

/-- The result array: one score per batch row. -/
def score (ff : FVec Ideal ⟨2, ![4096, 13]⟩ .f32) (tf : IVec ⟨2, ![4096, 26]⟩ 32) (ts : IVec ⟨2, ![4096, 200]⟩ 32)
    (tt : FVec Ideal ⟨2, ![2600000, 1]⟩ .f32) (ft : FVec Ideal ⟨2, ![13, 1]⟩ .f32) (st : FVec Ideal ⟨2, ![100000, 1]⟩ .f32)
    (bias : FVec Ideal ⟨1, ![1]⟩ .f32) : FVec Ideal ⟨2, ![4096, 1]⟩ .f32 :=
  fun i => rowScore ff tf ts tt ft st bias (⟨(i 0).val, (i 0).isLt⟩ : Fin 4096)

/-- What the claim's precondition says of the two integer inputs: every token field and every sequence token, read as an
    unsigned word, is below the vocabulary size. -/
def InRange (tf : IVec ⟨2, ![4096, 26]⟩ 32) (ts : IVec ⟨2, ![4096, 200]⟩ 32) : Prop :=
  (∀ i, (tf i).toNat < 100000) ∧ (∀ i, (ts i).toNat < 100000)

end Cert.FmSpec

end
-- ==== Proof.RefParts.lean ====
/-
  The three parts of the reference's result at a batch row, as the specification's sums. Under the precondition every
  index is inside its table, so a lookup is the table's row: the wrap keeps the index, both bounds tests hold, the clamp is
  idle, the fill is not taken. The token field's index is the field's own stretch of the shared table, `t + 100000 · j`
  without wrap-around; the sequence row times the padding mask is the masked table's row.
-/
import proofs.«207587_g45655502356657_cont_8to1c4_548_39_alg».proof.Proof.RefReads
import proofs.«207587_g45655502356657_cont_8to1c4_548_39_alg».proof.Proof.RefGather
import proofs.«207587_g45655502356657_cont_8to1c4_548_39_alg».proof.Proof.RefWords
import proofs.«207587_g45655502356657_cont_8to1c4_548_39_alg».proof.Proof.Spec

noncomputable section

namespace Cert.Proof.Ref

open Cert.ReferenceIdeal Idealize.ShloMosaic Idealize.ShloMosaic.ValueIdx
open Cert.ReferenceIdeal.Facts₀
open scoped BigOperators

variable [Cert.ReferenceIdeal.Facts]

/-- The linear part at row `b`: the weighted sum of the row's float fields. -/
theorem fltCol_apply (ff : FVec Ideal S4096x13 .f32) (ft : FVec Ideal S13x1 .f32) (b : Fin 4096) :
    fltCol ff ft (ix3 b (0 : Fin 1) (0 : Fin 1)) = Cert.FmSpec.fltScore ff ft b := by
  unfold fltCol Cert.FmSpec.fltScore
  rw [col_read, sum_mid_13]
  refine Finset.sum_congr rfl fun k _ => ?_
  rw [mulf_apply, weight_read, unit_read_13]

/-- The wrap of a lookup index below `2 ^ 31` keeps it. -/
theorem takeTokIdx_apply (i : IVec S4096x26 32) (b : Fin 4096) (j : Fin 26) (hi : (i (ix2 b j)).toNat < 2147483648) :
    takeTokIdx i (ix3 b j (0 : Fin 1)) = i (ix2 b j) := by
  unfold takeTokIdx
  rw [unit_read_26]
  exact wrap_keep (i (ix2 b j)) 2600000#32 hi

/-- Both bounds tests hold where the wrapped index is at most the last row. -/
theorem takeTokOk_apply (J : IVec S4096x26x1 32) (b : Fin 4096) (j : Fin 26) (hJ : (J (ix3 b j (0 : Fin 1))).toNat ≤ 2599999) :
    takeTokOk J (ix3 b j (0 : Fin 1)) = 1#1 := by
  unfold takeTokOk
  rw [unit_read_26, all_last_26]
  exact inside_bit (J (ix3 b j (0 : Fin 1))) 2599999#32 2599999 (by decide) (by omega) hJ

/-- THE LOOKUP AT AN INDEX INSIDE THE TABLE: the table's row there (no wrap, no clamp, no fill). -/
theorem takeTok_apply (t : FVec Ideal S2600000x1 .f32) (i : IVec S4096x26 32) (b : Fin 4096) (j : Fin 26)
    (hi : (i (ix2 b j)).toNat < 2600000) :
    takeTok t i (ix3 b j (0 : Fin 1)) = t (ix2 (⟨(i (ix2 b j)).toNat, hi⟩ : Fin 2600000) (0 : Fin 1)) := by
  have hJ : takeTokIdx i (ix3 b j (0 : Fin 1)) = i (ix2 b j) := takeTokIdx_apply i b j (by omega)
  unfold takeTok
  rw [select_apply, takeTokOk_apply _ b j (by rw [hJ]; omega), select_one]
  show Host.gather (rowDims 2600000 4096 26 gather_S2600000x1_S4096x26x1_S4096x26x1_2_0_n_n_0_2_11_wf) t (takeTokIdx i) (ix3 b j (0 : Fin 1)) = _
  rw [gather_rows_apply (by decide)]
  have hv : min (takeTokIdx i (ix3 b j (0 : Fin 1))).toInt.toNat (2600000 - 1) = (i (ix2 b j)).toNat := by
    rw [hJ]; exact clamp_idle _ 2600000 hi (by omega)
  exact congrArg t (congrArg (fun r : Fin 2600000 => ix2 r (0 : Fin 1)) (Fin.ext hv))

/-- The offset index of field `j` is the number `t + 100000 · j`. -/
theorem offsetIdx_toNat (tf : IVec S4096x26 32) (b : Fin 4096) (j : Fin 26) (ht : (tf (ix2 b j)).toNat < 100000) :
    (offsetIdx tf (ix2 b j)).toNat = (tf (ix2 b j)).toNat + 100000 * j.val := by
  have e : offsetIdx tf (ix2 b j) = IntOp.addi (tf (ix2 b j)) (IntOp.muli (BitVec.ofNat 32 j.val) 100000#32) := by
    unfold offsetIdx
    show IntOp.addi (tf (ix2 b j)) (broadcastInDim S4096x26 ![0, 1] bcast_S1x26_S4096x26_0_1
      (broadcastInDim S1x26 ![1] bcast_S26_S1x26_1
        (muli (iotaInDim S26 32 0) (broadcastInDim S26 ![] bcast_S_S26 (constantI S_ 32 100000#32)))) (ix2 b j)) = _
    rw [offsets_read]
    rfl
  rw [e]
  exact offset_toNat ht j.isLt

/-- The token part at row `b`: each field's token looked up in its own stretch of the shared table, summed. -/
theorem tokCol_apply (tf : IVec S4096x26 32) (tt : FVec Ideal S2600000x1 .f32) (b : Fin 4096)
    (hR : ∀ j : Fin 26, (tf (ix2 b j)).toNat < 100000) :
    tokCol tf tt (ix3 b (0 : Fin 1) (0 : Fin 1)) = Cert.FmSpec.tokScore tf tt b := by
  unfold tokCol Cert.FmSpec.tokScore
  rw [col_read, sum_mid_26]
  refine Finset.sum_congr rfl fun j _ => ?_
  have ho := offsetIdx_toNat tf b j (hR j)
  have hj := j.isLt
  have hlt : (offsetIdx tf (ix2 b j)).toNat < 2600000 := by rw [ho]; have := hR j; omega
  rw [takeTok_apply tt _ b j hlt]
  unfold Cert.FmSpec.tokAt
  rw [dif_pos (by have := hR j; omega)]
  exact congrArg tt (congrArg (fun r : Fin 2600000 => ix2 r (0 : Fin 1)) (Fin.ext ho))

/-- The wrap of a lookup index below `2 ^ 31` keeps it. -/
theorem takeSeqIdx_apply (i : IVec S4096x200 32) (b : Fin 4096) (j : Fin 200) (hi : (i (ix2 b j)).toNat < 2147483648) :
    takeSeqIdx i (ix3 b j (0 : Fin 1)) = i (ix2 b j) := by
  unfold takeSeqIdx
  rw [unit_read_200]
  exact wrap_keep (i (ix2 b j)) 100000#32 hi

/-- Both bounds tests hold where the wrapped index is at most the last row. -/
theorem takeSeqOk_apply (J : IVec S4096x200x1 32) (b : Fin 4096) (j : Fin 200) (hJ : (J (ix3 b j (0 : Fin 1))).toNat ≤ 99999) :
    takeSeqOk J (ix3 b j (0 : Fin 1)) = 1#1 := by
  unfold takeSeqOk
  rw [unit_read_200, all_last_200]
  exact inside_bit (J (ix3 b j (0 : Fin 1))) 99999#32 99999 (by decide) (by omega) hJ

/-- THE LOOKUP AT AN INDEX INSIDE THE TABLE: the table's row there (no wrap, no clamp, no fill). -/
theorem takeSeq_apply (t : FVec Ideal S100000x1 .f32) (i : IVec S4096x200 32) (b : Fin 4096) (j : Fin 200)
    (hi : (i (ix2 b j)).toNat < 100000) :
    takeSeq t i (ix3 b j (0 : Fin 1)) = t (ix2 (⟨(i (ix2 b j)).toNat, hi⟩ : Fin 100000) (0 : Fin 1)) := by
  have hJ : takeSeqIdx i (ix3 b j (0 : Fin 1)) = i (ix2 b j) := takeSeqIdx_apply i b j (by omega)
  unfold takeSeq
  rw [select_apply, takeSeqOk_apply _ b j (by rw [hJ]; omega), select_one]
  show Host.gather (rowDims 100000 4096 200 gather_S100000x1_S4096x200x1_S4096x200x1_2_0_n_n_0_2_11_wf) t (takeSeqIdx i) (ix3 b j (0 : Fin 1)) = _
  rw [gather_rows_apply (by decide)]
  have hv : min (takeSeqIdx i (ix3 b j (0 : Fin 1))).toInt.toNat (100000 - 1) = (i (ix2 b j)).toNat := by
    rw [hJ]; exact clamp_idle _ 100000 hi (by omega)
  exact congrArg t (congrArg (fun r : Fin 100000 => ix2 r (0 : Fin 1)) (Fin.ext hv))

/-- The sequence part at row `b`: the masked sequence table summed along the row's tokens. -/
theorem seqCol_apply (ts : IVec S4096x200 32) (st : FVec Ideal S100000x1 .f32) (b : Fin 4096)
    (hR : ∀ s : Fin 200, (ts (ix2 b s)).toNat < 100000) :
    seqCol ts st (ix3 b (0 : Fin 1) (0 : Fin 1)) = Cert.FmSpec.seqScore ts st b := by
  unfold seqCol Cert.FmSpec.seqScore
  rw [col_read, sum_mid_200]
  refine Finset.sum_congr rfl fun s _ => ?_
  have hm : maskCol (F := Ideal) ts (ix3 b s (0 : Fin 1))
      = FloatOps.uitofp (F := Ideal) .f32 (IntOp.cmpi .ne (ts (ix2 b s)) 0#32) := by
    unfold maskCol
    rw [unit_read_200]
    rfl
  rw [mulf_apply, takeSeq_apply st ts b s (hR s), hm, mul_mask]
  unfold Cert.FmSpec.seqAt
  rw [dif_pos (hR s)]

end Cert.Proof.Ref

end
-- ==== Proof.RefSum.lean ====
/-
  The three parts side by side along a new middle axis and summed along it, read at a batch row: piece `k` of the
  concatenation sits at middle coordinate `k`, so the sum over the three coordinates is the sum of the three parts.
-/
import proofs.«207587_g45655502356657_cont_8to1c4_548_39_alg».proof.Proof.RefReads

noncomputable section

namespace Cert.Proof.Ref

open Cert.ReferenceIdeal Idealize.ShloMosaic Idealize.ShloMosaic.ValueIdx
open Cert.ReferenceIdeal.Facts₀
open scoped BigOperators

variable [Cert.ReferenceIdeal.Facts]

/-- The sum of the concatenated parts at row `r`: first plus second plus third. -/
theorem partsSum_apply (x y z : FVec Ideal S4096x1x1 .f32) (r : Fin 4096) :
    partsSum x y z (ix2 r (0 : Fin 1)) = x (ix3 r (0 : Fin 1) (0 : Fin 1)) + y (ix3 r (0 : Fin 1) (0 : Fin 1)) + z (ix3 r (0 : Fin 1) (0 : Fin 1)) := by
  unfold partsSum
  rw [sum_mid_3, Fin.sum_univ_three]
  rw [concatenate_apply_piece (1 : Fin S4096x3x1.rank) _ _ (ix3 r (0 : Fin 3) (0 : Fin 1)) 0 (by show 0 < 3; decide) S4096x1x1 x rfl rfl 0 rfl
      (ix3 r (0 : Fin 1) (0 : Fin 1)) (fun d hd => by
        match d with
        | ⟨0, _⟩ => rfl
        | ⟨1, _⟩ => exact absurd rfl hd
        | ⟨2, _⟩ => rfl) rfl,
    concatenate_apply_piece (1 : Fin S4096x3x1.rank) _ _ (ix3 r (1 : Fin 3) (0 : Fin 1)) 1 (by show 1 < 3; decide) S4096x1x1 y rfl rfl 1 rfl
      (ix3 r (0 : Fin 1) (0 : Fin 1)) (fun d hd => by
        match d with
        | ⟨0, _⟩ => rfl
        | ⟨1, _⟩ => exact absurd rfl hd
        | ⟨2, _⟩ => rfl) rfl,
    concatenate_apply_piece (1 : Fin S4096x3x1.rank) _ _ (ix3 r (2 : Fin 3) (0 : Fin 1)) 2 (by show 2 < 3; decide) S4096x1x1 z rfl rfl 2 rfl
      (ix3 r (0 : Fin 1) (0 : Fin 1)) (fun d hd => by
        match d with
        | ⟨0, _⟩ => rfl
        | ⟨1, _⟩ => exact absurd rfl hd
        | ⟨2, _⟩ => rfl) rfl]

end Cert.Proof.Ref

end
-- ==== Proof.RefRange.lean ====
/-
  What the precondition says of the two integer inputs. The printed predicate is a conjunction of seven `all(…)` tests; the
  last two are `all(0 ≤ t ≤ 99999)` over the token fields and over the token sequence, the comparisons signed. A
  conjunction of one-bit words is `1` only if both are; an `all` that came out `1` met only `1`s; and a 32-bit word
  that lies between 0 and 99999 read as a signed integer has its sign bit clear, so read unsigned it is below 100000.
  Stated for any float instance: the integer tests never look at the floats.
-/
import proofs.«207587_g45655502356657_cont_8to1c4_548_39_alg».proof.Pre_input_domain
import proofs.«207587_g45655502356657_cont_8to1c4_548_39_alg».proof.Proof.Spec
import Idealize.ShloMosaic.Lib.ReduceAll

namespace Cert.Proof.Ref

open Idealize.ShloMosaic Cert.Pre_input_domain
open Cert.Pre_input_domain.Facts

/-- A 32-bit word between `0` and `99999` as a signed integer is, as an unsigned one, below `100000`. -/
theorem toNat_lt_of_signed_bounds {x : BitVec 32} (h0 : (0#32).toInt ≤ x.toInt) (h1 : x.toInt ≤ (99999#32).toInt) :
    x.toNat < 100000 := by
  have e0 : (0#32).toInt = 0 := by decide
  have e1 : (99999#32).toInt = 99999 := by decide
  rw [e0] at h0; rw [e1] at h1
  have hx := BitVec.toInt_eq_toNat_cond x
  have hlt := x.isLt
  split at hx <;> omega

/-- The scalar shape has one index. -/
instance : Subsingleton S_.Idx := ⟨fun a b => funext fun d => d.elim0⟩

/-- One element's test: both signed comparisons hold at `i`, so the word there is below `100000`. -/
theorem word_lt_of_tests {S : Shape} (h0 : S_.BroadcastsInDim S (![] : Fin 0 → Fin S.rank)) (a : IVec S 32) (i : S.Idx)
    (h : andi (cmpi .sge a (broadcastInDim S ![] h0 (constantI S_ 32 0#32)))
              (cmpi .sle a (broadcastInDim S ![] h0 (constantI S_ 32 99999#32))) i = 1#1) :
    (a i).toNat < 100000 := by
  obtain ⟨hge, hle⟩ := IntOp.andi_eq_one.1 h
  exact toNat_lt_of_signed_bounds (IntOp.cmpi_sge.1 hge) (IntOp.cmpi_sle.1 hle)

/-- THE PRECONDITION'S INTEGER CONTENT: if the printed predicate is all ones, every token field and every sequence
    token is a word below `100000`. -/
theorem inRange_of_fn {F : FTy → Type} [FloatOps F] [Cert.Pre_input_domain.Facts]
    (a0 : FVec F S4096x13 .f32) (a1 : IVec S4096x26 32) (a2 : IVec S4096x200 32) (a3 : FVec F S2600000x1 .f32)
    (a4 : FVec F S13x1 .f32) (a5 : FVec F S100000x1 .f32) (a6 : FVec F S1 .f32)
    (h : Cert.Pre_input_domain.fn (F := F) a0 a1 a2 a3 a4 a5 a6 = fun _ => 1#1) : Cert.FmSpec.InRange a1 a2 := by
  have h0 := congrFun h ValueIdx.ix0
  dsimp only [fn, fn_part1, fn_part2] at h0
  -- the last conjunction: everything before the sequence test, and the sequence test
  obtain ⟨h30, h36⟩ := IntOp.andi_eq_one.1 h0
  -- before it: everything before the field test, and the field test
  obtain ⟨-, h29⟩ := IntOp.andi_eq_one.1 h30
  refine ⟨fun i => ?_, fun i => ?_⟩
  · exact word_lt_of_tests bcast_S_S4096x26 a1 i (Host.reduce_andi_all _ _ _ _ _ h29 i)
  · exact word_lt_of_tests bcast_S_S4096x200 a2 i (Host.reduce_andi_all _ _ _ _ _ h36 i)

end Cert.Proof.Ref
-- ==== Proof.Ref.lean ====
/-
  The reference side of the certificate. Under the precondition's range facts the reference's result term is the
  specification's score, row by row: the sum of the three concatenated parts is the linear part plus the token part plus the
  sequence part, in the specification's own order, and the bias is added last. With the run of the flat program this gives:
  every weakly fair execution of the reference terminates with the result buffer at the score of its arguments and the
  arguments unchanged. The range facts themselves are the integer content of the printed precondition.
-/
import proofs.«207587_g45655502356657_cont_8to1c4_548_39_alg».proof.Proof.RefRun
import proofs.«207587_g45655502356657_cont_8to1c4_548_39_alg».proof.Proof.RefParts
import proofs.«207587_g45655502356657_cont_8to1c4_548_39_alg».proof.Proof.RefSum
import proofs.«207587_g45655502356657_cont_8to1c4_548_39_alg».proof.Proof.RefRange
import proofs.«207587_g45655502356657_cont_8to1c4_548_39_alg».proof.Defs

noncomputable section

namespace Cert.Proof.Ref

open Cert.ReferenceIdeal Idealize.ShloMosaic Idealize.ShloMosaic.ValueIdx Idealize.SL.Sem
open scoped BigOperators

/-- THE REFERENCE COMPUTES THE SCORE: with every token inside its vocabulary, the result term is the specification's
    array, entry by entry. -/
theorem refOut_eq_score [Cert.ReferenceIdeal.Facts] (ff : FVec Ideal S4096x13 .f32) (tf : IVec S4096x26 32)
    (ts : IVec S4096x200 32) (tt : FVec Ideal S2600000x1 .f32) (ft : FVec Ideal S13x1 .f32)
    (st : FVec Ideal S100000x1 .f32) (bias : FVec Ideal S1 .f32) (hR : Cert.FmSpec.InRange tf ts) :
    refOut ff tf ts tt ft st bias = Cert.FmSpec.score ff tf ts tt ft st bias := by
  funext i
  obtain ⟨b, z, rfl⟩ : ∃ (b : Fin 4096) (z : Fin 1), i = ix2 b z := ⟨i 0, i 1, eq_ix2 i⟩
  obtain rfl : z = 0 := Subsingleton.elim _ _
  unfold refOut
  rw [addf_apply, partsSum_apply, fltCol_apply, tokCol_apply tf tt b (fun j => hR.1 _),
    seqCol_apply ts st b (fun s => hR.2 _), biasCol_apply]
  rfl

/-- (R1) The precondition of the reference gives the range facts of its two integer arguments. -/
theorem inRange_of_pre [Cert.Pre_input_domain.Facts]
    (m : (ℓ : Loc nD τ sig) → Buf (Elt Ideal) ℓ) (h : Cert.Pre_ReferenceIdeal m) (c : Dev nD) :
    Cert.FmSpec.InRange (m ((c.tc : Thread nD τ).loc main_arg1)) (m ((c.tc : Thread nD τ).loc main_arg2)) :=
  inRange_of_fn _ _ _ _ _ _ _ (h c)

/-- (R2) The reference's run: from any memory with zero counters whose integer arguments are in range, every weakly fair
    execution terminates with the result buffer at the score of the arguments and the seven arguments unchanged. -/
theorem run [Cert.ReferenceIdeal.Facts] (m : (ℓ : Loc nD τ sig) → Buf (Elt Ideal) ℓ) (g : Dev nD → PrngReg)
    (hR : ∀ c : Dev nD, Cert.FmSpec.InRange (m ((c.tc : Thread nD τ).loc main_arg1)) (m ((c.tc : Thread nD τ).loc main_arg2))) :
    θ_run (Cert.ReferenceIdeal.defs (F := Ideal)) (onTc (τ := Cert.ReferenceIdeal.τ) (Cert.ReferenceIdeal.main (F := Ideal)))
      ⟨m, fun _ => 0, g⟩ (fun r => ∀ c : Dev nD,
        r.2.mem ((c.tc : Thread nD τ).loc main_v27)
            = Cert.FmSpec.score (m ((c.tc : Thread nD τ).loc main_arg0)) (m ((c.tc : Thread nD τ).loc main_arg1)) (m ((c.tc : Thread nD τ).loc main_arg2))
                (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run _ _ _).mono (fun _ h c => ⟨(h c).1.trans (refOut_eq_score _ _ _ _ _ _ _ (hR c)), (h c).2⟩) (run_term m g)

end Cert.Proof.Ref

end
-- ==== Proof.IdxFacts.lean ====
/-
  Index facts the task's indexed loads rest on, as pure statements over 32-bit words.
-/
import Idealize.ShloMosaic.PureOps.Ideal
import Idealize.ShloMosaic.Lib.ValueIdx
namespace Cert.Proof.IdxFacts
open Idealize.ShloMosaic

/-- A token index below 2 600 000, moved down by the cut 2 599 936 and clamped at zero (signed), is a lane of the 128-word
    tail row: below the cut the difference is negative and the clamp gives 0; from the cut on it is the offset into the
    64-row tail. -/
theorem tail_word_lt (v : BitVec 32) (h : v.toNat < 2600000) : (IntOp.maxsi (IntOp.subi v 2599936#32) 0#32).toNat < 128 := by
  unfold IntOp.maxsi IntOp.subi
  split
  · rename_i hs
    have e : (v - 2599936#32).toNat = (2 ^ 32 - 2599936 + v.toNat) % 2 ^ 32 := by
      rw [BitVec.toNat_sub]; rfl
    have hi : (0#32 : BitVec 32).toInt < (v - 2599936#32).toInt := by
      simpa [BitVec.slt_eq_decide] using hs
    rw [BitVec.toInt_eq_toNat_cond, BitVec.toInt_eq_toNat_cond] at hi
    simp only [BitVec.toNat_ofNat] at hi
    rw [e] at hi ⊢
    split at hi <;> omega
  · decide

/-- The same, lane by lane. -/
theorem tail_vec_lt {s : Shape} (ids : IVec s 32) (h : ∀ y, (ids y).toNat < 2600000) (x : s.Idx) :
    ((maxsi (subi ids (broadcast s 2599936#32)) (broadcast s 0#32)) x).toNat < 128 :=
  tail_word_lt (ids x) (h x)

/-- A pair (row, lane) of index vectors addresses the 1 × 128 row of tails, weights and bias when the row is 0 and the lane
    is below 128. -/
theorem pair_in_row {t : Shape} {v1 vX : IVec t 32} (h1 : ∀ x, (v1 x).toNat < 1) (hX : ∀ x, (vX x).toNat < 128) :
    ∀ (a : Fin 2) (x : t.Idx), ((![v1, vX] : Fin 2 → IVec t 32) a x).toNat < (⟨2, ![1, 128]⟩ : Shape).size a := by
  intro a x
  match a with
  | ⟨0, _⟩ => exact h1 x
  | ⟨1, _⟩ => exact hX x

/-- One index vector addresses the 100 000-entry sequence table when every lane is below 100 000. -/
theorem one_in_table {t : Shape} {v : IVec t 32} (h : ∀ x, (v x).toNat < 100000) :
    ∀ (a : Fin 1) (x : t.Idx), ((![v] : Fin 1 → IVec t 32) a x).toNat < (⟨1, ![100000]⟩ : Shape).size a := by
  intro a x
  match a with
  | ⟨0, _⟩ => exact h x

end Cert.Proof.IdxFacts
-- ==== Proof.TileKernelIdeal.lean ====
import proofs.«207587_g45655502356657_cont_8to1c4_548_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207587_g45655502356657_cont_8to1c4_548_39_alg».proof.Proof.Gen.KernelIdeal
import proofs.«207587_g45655502356657_cont_8to1c4_548_39_alg».proof.Proof.Gen.KernelIdeal.Skeleton
import proofs.«207587_g45655502356657_cont_8to1c4_548_39_alg».proof.Proof.IdxFacts

noncomputable section

namespace Cert.Proof.TileKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-! ## One vector subcore's task

The task of the vector subcore at grid point `L = (core, subcore)`, worker number `w = 2·subcore + core`: it reads rows
`[128·w, 128·w + 128)` of the batch — its stretch of the permuted token indices (clamped and unclamped), of the
permuted sequence indices (eight chunks of 25 positions) and of the permuted float fields —, the two tables and the
128-word row of table tails, weights and bias, and writes the 128 scores of its rows. -/

section Tile
variable (d : Dev nD) (L : grid0.Coords)
abbrev cV (L : grid0.Coords) : Fin τ.nSC := (L 0).castLE hcore0
abbrev jV (L : grid0.Coords) : Fin τ.nSub := (L 1).castLE hsub0

/-- The 128 scores the task at `L` writes: its stretch of the result array, as the task slices it. -/
abbrev oS (L : grid0.Coords) : Memref sig .scVector .hbm S128 .f32 :=
  (Memref.whole main_v29_scv : Memref sig .scVector .hbm S4096 .f32).slice (Rect.unit (s := S4096) (k0_off69 L) S128.size (k0_off69_inb L)) (fun _ => rfl)

omit [FloatOps F] in
/-- The nine scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := (Proc.scVector (cV L) (jV L))) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := (Proc.scVector (cV L) (jV L))) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := (Proc.scVector (cV L) (jV L))) (b := ((Proc.scVector (cV L) (jV L)).devRef cc0_scratch8)) rfl⟩⟩⟩⟩⟩⟩⟩⟩)]

omit [FloatOps F] in
/-- The ten DMA semaphores (five of the kernel's scratch, five of its scoped regions) are among the subcore's own cells. -/
theorem ownSems0_V :
    (ownSems0 (V d (cV L) (jV L)) : sProp 𝕄)
      = iprop(semVal (((V d (cV L) (jV L)), SemLoc.dma cc0_scratch9.sem) : GSem nD τ sig) 0 ∗ semVal (((V d (cV L) (jV L)), SemLoc.dma cc0_scratch10.sem) : GSem nD τ sig) 0 ∗ semVal (((V d (cV L) (jV L)), SemLoc.dma cc0_scratch11.sem) : GSem nD τ sig) 0 ∗ semVal (((V d (cV L) (jV L)), SemLoc.dma cc0_scratch12.sem) : GSem nD τ sig) 0 ∗ semVal (((V d (cV L) (jV L)), SemLoc.dma cc0_scratch13.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0 ∗ semVal (((V d (cV L) (jV L)), SemLoc.dma cc0_scoped2.sem) : GSem nD τ sig) 0 ∗ semVal (((V d (cV L) (jV L)), SemLoc.dma cc0_scoped3.sem) : GSem nD τ sig) 0 ∗ semVal (((V d (cV L) (jV L)), SemLoc.dma cc0_scoped4.sem) : GSem nD τ sig) 0
          ∗ bigSep (((((((((((ownCells (V d (cV L) (jV L))).erase (((V d (cV L) (jV L)), SemLoc.dma cc0_scratch9.sem) : GSem nD τ sig)).erase (((V d (cV L) (jV L)), SemLoc.dma cc0_scratch10.sem) : GSem nD τ sig)).erase (((V d (cV L) (jV L)), SemLoc.dma cc0_scratch11.sem) : GSem nD τ sig)).erase (((V d (cV L) (jV L)), SemLoc.dma cc0_scratch12.sem) : GSem nD τ sig)).erase (((V d (cV L) (jV L)), SemLoc.dma cc0_scratch13.sem) : GSem nD τ sig)).erase (((V d (cV L) (jV L)), SemLoc.dma cc0_scoped0.sem) : GSem nD τ sig)).erase (((V d (cV L) (jV L)), SemLoc.dma cc0_scoped1.sem) : GSem nD τ sig)).erase (((V d (cV L) (jV L)), SemLoc.dma cc0_scoped2.sem) : GSem nD τ sig)).erase (((V d (cV L) (jV L)), SemLoc.dma cc0_scoped3.sem) : GSem nD τ sig)).erase (((V d (cV L) (jV L)), SemLoc.dma cc0_scoped4.sem) : GSem nD τ sig))
              fun g => semVal g 0) := by
  unfold SparseCore.Cfg.ownSems0
  rw [SparseCore.bigSep_erase' ((mem_ownCells (g := (((V d (cV L) (jV L)), SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (Prod.mk.inj e).2 (by decide), (mem_ownCells (g := (((V d (cV L) (jV L)), SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch11.sem) : GSem nD τ sig))).mpr ⟨rfl, by show (SemLoc.dma cc0_scratch11.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch12.sem) : GSem nD τ sig))).mpr ⟨rfl, by show (SemLoc.dma cc0_scratch12.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch13.sem) : GSem nD τ sig))).mpr ⟨rfl, by show (SemLoc.dma cc0_scratch13.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped2.sem) : GSem nD τ sig))).mpr ⟨rfl, by show (SemLoc.dma cc0_scoped2.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped3.sem) : GSem nD τ sig))).mpr ⟨rfl, by show (SemLoc.dma cc0_scoped3.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped4.sem) : GSem nD τ sig))).mpr ⟨rfl, by show (SemLoc.dma cc0_scoped4.sem : SemLoc sig).isScoped .scVector = true; decide⟩⟩⟩⟩⟩⟩⟩⟩⟩⟩)]

/-- What the three index arrays must satisfy for the task's indexed accesses to stay inside their tables: the clamped
    token indices name rows of the cut token table, the unclamped ones rows of the whole token table, the sequence
    indices rows of the sequence table. -/
def IdxOK (f10 : Buf (Elt F) ((Memref.whole main_v10_scv : Memref sig .scVector .hbm S106496 .i32).view.loc (V d (cV L) (jV L))))
    (f8 : Buf (Elt F) ((Memref.whole main_v8_scv : Memref sig .scVector .hbm S106496 .i32).view.loc (V d (cV L) (jV L))))
    (f13 : Buf (Elt F) ((Memref.whole main_v13_scv : Memref sig .scVector .hbm S819200 .i32).view.loc (V d (cV L) (jV L)))) : Prop :=
  (∀ x, (f10 x).toNat < 2599936) ∧ (∀ x, (f8 x).toNat < 2600000) ∧ (∀ x, (f13 x).toNat < 100000)

/-- The first half of the sequence-table scratch, as the task's first table copy slices it. -/
abbrev sA : Memref sig .scVector .vmem S49984 .f32 :=
  (Memref.whole cc0_scratch3 : Memref sig .scVector .vmem S100000 .f32).slice (Rect.unit (s := S100000) ![0] S49984.size inb_S100000_S49984_0) (fun _ => rfl)
/-- Its second half, as the second table copy slices it. -/
abbrev sB : Memref sig .scVector .vmem S49984 .f32 :=
  (Memref.whole cc0_scratch3 : Memref sig .scVector .vmem S100000 .f32).slice (Rect.unit (s := S100000) ![49984] S49984.size inb_S100000_S49984_49984) (fun _ => rfl)

omit [FloatOps F] in
/-- A half's elements, addressed through the half's own memref or through the whole scratch: one assertion. -/
theorem pts_sA (f : Buf (Elt F) ((Memref.whole cc0_scratch3 : Memref sig .scVector .vmem S100000 .f32).view.loc (V d (cV L) (jV L)))) :
    ((sA : Memref sig .scVector .vmem S49984 .f32).view.loc (V d (cV L) (jV L)) ↦[(sA : Memref sig .scVector .vmem S49984 .f32).view.set]{fullShare} f : sProp 𝕄)
      = ((Memref.whole cc0_scratch3 : Memref sig .scVector .vmem S100000 .f32).view.loc (V d (cV L) (jV L)) ↦[(sA : Memref sig .scVector .vmem S49984 .f32).view.set]{fullShare} f) := rfl
omit [FloatOps F] in
theorem pts_sB (f : Buf (Elt F) ((Memref.whole cc0_scratch3 : Memref sig .scVector .vmem S100000 .f32).view.loc (V d (cV L) (jV L)))) :
    ((sB : Memref sig .scVector .vmem S49984 .f32).view.loc (V d (cV L) (jV L)) ↦[(sB : Memref sig .scVector .vmem S49984 .f32).view.set]{fullShare} f : sProp 𝕄)
      = ((Memref.whole cc0_scratch3 : Memref sig .scVector .vmem S100000 .f32).view.loc (V d (cV L) (jV L)) ↦[(sB : Memref sig .scVector .vmem S49984 .f32).view.set]{fullShare} f) := rfl

omit [FloatOps F] in
/-- Whatever a buffer holds, it holds something. -/
theorem pts_ex {ℓ : Loc nD τ sig} {q : PosShare TreeShare} (f : Buf (Elt F) ℓ) : (ℓ ↦{q} f : sProp 𝕄) ⊢ iprop(∃ g, ℓ ↦{q} g) := by
  iintro H; iexists _; iexact H

/-- The two halves are disjoint: words [0, 49984) and [49984, 99968). -/
theorem sB_sub : (sB : Memref sig .scVector .vmem S49984 .f32).view.set ⊆ Finset.univ \ (sA : Memref sig .scVector .vmem S49984 .f32).view.set := by
  refine Finset.subset_sdiff.mpr ⟨Finset.subset_univ _, ?_⟩
  have eA : (sA : Memref sig .scVector .vmem S49984 .f32).view.set = (Rect.unit (s := S100000) ![0] S49984.size inb_S100000_S49984_0).set :=
    View.set_slice_whole (cc0_scratch3 : Ref sig .scVector) _
  have eB : (sB : Memref sig .scVector .vmem S49984 .f32).view.set = (Rect.unit (s := S100000) ![49984] S49984.size inb_S100000_S49984_49984).set :=
    View.set_slice_whole (cc0_scratch3 : Ref sig .scVector) _
  rw [eA, eB]
  exact Rect.unit_disjoint 0 (Or.inr (by decide))

omit [FloatOps F] in
/-- One more wait on one of the task's own semaphores keeps the record of waits of the admitted kind. -/
theorem ins_ok {W W' : Waits sig (HIx 1)} {s : SemLoc sig} (h : ∀ p ∈ W', p ∈ W ∨ p.2 = none) :
    ∀ p ∈ insert (s, (none : HIx 1)) W', p ∈ W ∨ p.2 = none := by
  intro p hp
  rcases Finset.mem_insert.mp hp with rfl | hp
  · exact .inr rfl
  · exact h p hp

set_option maxHeartbeats 8000000 in
set_option sl_exec.dischHeartbeats 400000 in
/-- The task, from a read share of each of the seven operand arrays, its stretch of the result array, its scratch and
    its semaphores at zero: it ends, with everything handed back and its stretch of the result array written. -/
theorem tile_body (O : CellTallies nD τ sig (HIx 1)) (W : Waits sig (HIx 1)) (hO : ∀ g, O g none = 0)
    (q10 : PosShare TreeShare) (f10 : Buf (Elt F) ((Memref.whole main_v10_scv : Memref sig .scVector .hbm S106496 .i32).view.loc (V d (cV L) (jV L))))
    (q8 : PosShare TreeShare) (f8 : Buf (Elt F) ((Memref.whole main_v8_scv : Memref sig .scVector .hbm S106496 .i32).view.loc (V d (cV L) (jV L))))
    (q13 : PosShare TreeShare) (f13 : Buf (Elt F) ((Memref.whole main_v13_scv : Memref sig .scVector .hbm S819200 .i32).view.loc (V d (cV L) (jV L))))
    (q16 : PosShare TreeShare) (f16 : Buf (Elt F) ((Memref.whole main_v16_scv : Memref sig .scVector .hbm S53248 .f32).view.loc (V d (cV L) (jV L))))
    (q18 : PosShare TreeShare) (f18 : Buf (Elt F) ((Memref.whole main_v18_scv : Memref sig .scVector .hbm S2599936 .f32).view.loc (V d (cV L) (jV L))))
    (q20 : PosShare TreeShare) (f20 : Buf (Elt F) ((Memref.whole main_v20_scv : Memref sig .scVector .hbm S99968 .f32).view.loc (V d (cV L) (jV L))))
    (q28 : PosShare TreeShare) (f28 : Buf (Elt F) ((Memref.whole main_v28_scv : Memref sig .scVector .hbm S1x128 .f32).view.loc (V d (cV L) (jV L))))
    (f29 : Buf (Elt F) ((oS L).view.loc (V d (cV L) (jV L))))
    (hidx : IdxOK d L f10 f8 f13) :
    (iprop(levAts (K (F := F)).L (K (F := F)).lev
        ∗ (((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
        ∗ ((oS L).view.loc (V d (cV L) (jV L)) ↦[(oS L).view.set]{fullShare} f29)
        ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
        ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
        ∗ owes (V d (cV L) (jV L)) O W) : sProp 𝕄)
      ⊢ wp frame (wpE (defs₀ (F := F)) 𝒱₀ (V d (cV L) (jV L)) none) Set.univ
          (cc0__fm_first_order L (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4)
          fun _ => (iprop((((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
            ∗ (∃ f, (oS L).view.loc (V d (cV L) (jV L)) ↦[(oS L).view.set]{fullShare} f)
            ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
            ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
            ∗ ∃ W', ⌜∀ p ∈ W', p ∈ W ∨ p.2 = none⌝ ∗ owes (V d (cV L) (jV L)) O W') : sProp 𝕄) := by
  iintro ⟨#Hlv, ⟨H10, H8, H13, H16, H18, H20, H28⟩, H29, ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩⟩, ⟨Hm0, Hm1, Hm2, Hm3, Hm4, Hm5, Hm6, Hm7, Hm8, Hm9⟩, HO⟩
  -- every wait of the task is on one of its own semaphores, at the kernels' index: admissible under whatever the subcore owes the launch
  ihave Hmw := ((K (F := F)).mayWaits_none (thr := (V d (cV L) (jV L))) hO) $$ Hlv
  -- the sequence-table scratch is held as the three pieces the program addresses while its halves are being copied:
  -- words [0, 49984), words [49984, 99968) and the 32-word tail, which the task fills from the 128-word row meanwhile
  ihave Hs3' := ((pointsTo_split_subset (I := (sA : Memref sig .scVector .vmem S49984 .f32).view.set) (Finset.subset_univ _)).1) $$ Hs3
  icases Hs3' with ⟨Hs3a0, Hs3r⟩
  ihave Hs3a := (Entails.of_eq (pts_sA (F := F) d L _).symm) $$ Hs3a0
  ihave Hs3r' := ((pointsTo_split_subset (I := (sB : Memref sig .scVector .vmem S49984 .f32).view.set) sB_sub).1) $$ Hs3r
  icases Hs3r' with ⟨Hs3b0, Hs3t⟩
  ihave Hs3b := (Entails.of_eq (pts_sB (F := F) d L _).symm) $$ Hs3b0
  sl_exec_parts
  -- the indirect gather's list is the stretch of clamped token indices that has just landed: each names a row of the cut token table
  have hin : ∀ j, ((Memref.whole cc0_scratch0 : Memref sig .scVector .vmem S3328 .i32).view.read (Elt F)
      (View.write (Elt F) (Memref.whole cc0_scratch0 : Memref sig .scVector .vmem S3328 .i32).view s0 (tile_body.sl.dma0_2 d L f10) Finset.univ) j).toNat
        < S2599936.size gathers_S2599936_S3328.axis := by
    intro j
    simp only [Memref.view_whole, View.write_whole_univ, View.read_whole]
    exact hidx.1 _
  -- the straight-line phase: the tail words and the fourteen weight words gathered from the 128-word row, the float fields' weighted
  -- sum, the wait for the gathered token values, the 208 token steps (a token index moved down by the cut and clamped at zero is a lane
  -- of the row: IdxFacts.tail_vec_lt), the waits for the two halves of the table. Each indexed load is a load of its whole scratch.
  repeat (sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x)); try unfold SparseCore.vectorLoadIdx)
  -- both halves have landed: the three pieces are the whole scratch again (its contents are whatever the pieces hold; the frame needs no more)
  ihave Hb := (Entails.of_eq (pts_sB (F := F) d L _)) $$ Hs3b
  ihave Hrt := (pointsTo_join_subset (ℓ := (Memref.whole cc0_scratch3 : Memref sig .scVector .vmem S100000 .f32).view.loc (V d (cV L) (jV L))) (I := (sB : Memref sig .scVector .vmem S49984 .f32).view.set) (S := Finset.univ \ (sA : Memref sig .scVector .vmem S49984 .f32).view.set) sB_sub) $$ [Hb Hs3t]
  · isplitl [Hb] <;> iassumption
  ihave Ha := (Entails.of_eq (pts_sA (F := F) d L _)) $$ Hs3a
  ihave Hs3 := (pointsTo_join_subset (ℓ := (Memref.whole cc0_scratch3 : Memref sig .scVector .vmem S100000 .f32).view.loc (V d (cV L) (jV L))) (I := (sA : Memref sig .scVector .vmem S49984 .f32).view.set) (S := Finset.univ) (Finset.subset_univ _)) $$ [Ha Hrt]
  · isplitl [Ha] <;> iassumption
  ihave Hs3x := (pts_ex _) $$ Hs3
  icases Hs3x with ⟨%g3, Hs3⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  -- the eight chunks of 25 sequence positions. A chunk's indices are words of the permuted sequence array, below 100 000, so every
  -- indexed load of the table is in range; the invariant keeps the chunk's buffer (at in-range contents) and the table's scratch.
  -- Between two chunks the buffer just read is refilled two chunks ahead and the other buffer's copy is awaited.
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch4 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs4 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs4]
    · iexists _; isplitr
      rotate_left
      · iexact Hs4
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL1 HI
  icases HI with ⟨⟨%bL1, %hbL1, Hs4⟩, ⟨%gL1, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch5 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs5 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs5]
    · iexists _; isplitr
      rotate_left
      · iexact Hs5
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL2 HI
  icases HI with ⟨⟨%bL2, %hbL2, Hs5⟩, ⟨%gL2, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch4 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs4 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs4]
    · iexists _; isplitr
      rotate_left
      · iexact Hs4
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL3 HI
  icases HI with ⟨⟨%bL3, %hbL3, Hs4⟩, ⟨%gL3, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch5 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs5 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs5]
    · iexists _; isplitr
      rotate_left
      · iexact Hs5
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL4 HI
  icases HI with ⟨⟨%bL4, %hbL4, Hs5⟩, ⟨%gL4, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch4 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs4 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs4]
    · iexists _; isplitr
      rotate_left
      · iexact Hs4
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL5 HI
  icases HI with ⟨⟨%bL5, %hbL5, Hs4⟩, ⟨%gL5, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch5 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs5 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs5]
    · iexists _; isplitr
      rotate_left
      · iexact Hs5
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL6 HI
  icases HI with ⟨⟨%bL6, %hbL6, Hs5⟩, ⟨%gL6, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch4 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs4 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs4]
    · iexists _; isplitr
      rotate_left
      · iexact Hs4
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL7 HI
  icases HI with ⟨⟨%bL7, %hbL7, Hs4⟩, ⟨%gL7, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch5 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs5 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs5]
    · iexists _; isplitr
      rotate_left
      · iexact Hs5
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL8 HI
  icases HI with ⟨⟨%bL8, %hbL8, Hs5⟩, ⟨%gL8, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  -- the 128 scores are stored and copied out; everything is handed back
  sl_step
  isplitl [H10 H8 H13 H16 H18 H20 H28]
  · skip
    isplitl [H10]; · iexact H10
    isplitl [H8]; · iexact H8
    isplitl [H13]; · iexact H13
    isplitl [H16]; · iexact H16
    isplitl [H18]; · iexact H18
    isplitl [H20]; · iexact H20
    iexact H28
  isplitl [H29]
  · iexists _; iexact H29
  isplitl [Hs0 Hs1 Hs2 Hs3 Hs4 Hs5 Hs6 Hs7 Hs8]
  · skip
    isplitl [Hs0]; · (iexists _; iexact Hs0)
    isplitl [Hs1]; · (iexists _; iexact Hs1)
    isplitl [Hs2]; · (iexists _; iexact Hs2)
    isplitl [Hs3]; · (iexists _; iexact Hs3)
    isplitl [Hs4]; · (iexists _; iexact Hs4)
    isplitl [Hs5]; · (iexists _; iexact Hs5)
    isplitl [Hs6]; · (iexists _; iexact Hs6)
    isplitl [Hs7]; · (iexists _; iexact Hs7)
    (iexists _; iexact Hs8)
  isplitl [Hm0 Hm1 Hm2 Hm3 Hm4 Hm5 Hm6 Hm7 Hm8 Hm9]
  · skip
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    iexact Hm9
  iexists _; isplitr
  rotate_left
  · iexact HO
  · ipureintro
    repeat (first | exact fun p hp => .inl hp | apply ins_ok)

end Tile

end Cert.Proof.TileKernelIdeal
end
-- ==== Proof.HostKernelIdeal.lean ====
/-
  @main's host side for the idealized kernel program: the operations that run on the TensorCore before the
  SparseCore call (index arithmetic, the three batch permutations, the table cuts and the row of tails, weights and
  bias), as a list the program is the run of; what the TensorCore's buffers hold once they have run, as a fold
  over that list from the launch memory; and the ranges of the three index operands there, from the ranges of the two
  integer arguments: the permuted `token + 100000 · field` stays below `2600000`, its signed minimum with
  `2599935` below `2599936`, the permuted sequence tokens below `100000`.
-/
import proofs.«207587_g45655502356657_cont_8to1c4_548_39_alg».proof.Proof.TileKernelIdeal
import Idealize.ShloMosaic.Lib.Pipeline.Frame
import Idealize.ShloMosaic.Lib.ValueIdx
import proofs.«207587_g45655502356657_cont_8to1c4_548_39_alg».proof.Proof.Spec

noncomputable section

namespace Cert.Proof.LaunchKernelIdeal

open Cert.KernelIdeal Cert.KernelIdeal.Gen
open Cert.Proof.TileKernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
/-- The host operations of @main before the SparseCore call, in order. -/
def opsPre : List (HloOp τ sig (Elt F)) :=
  [StableHlo.nullary main_v0 (iotaInDim S26 32 0),
   StableHlo.nullary main_c (constantI S_ 32 100000#32),
   StableHlo.unary main_c main_v1 (broadcastInDim S26 ![] bcast_S_S26 : (⟨S_, .i32⟩ : BufTy).Contents (Elt F) → (⟨S26, .i32⟩ : BufTy).Contents (Elt F)),
   StableHlo.binary main_v0 main_v1 main_v2 (muli : (⟨S26, .i32⟩ : BufTy).Contents (Elt F) → (⟨S26, .i32⟩ : BufTy).Contents (Elt F) → (⟨S26, .i32⟩ : BufTy).Contents (Elt F)),
   StableHlo.unary main_v2 main_v3 (broadcastInDim S1x26 ![1] bcast_S26_S1x26_1 : (⟨S26, .i32⟩ : BufTy).Contents (Elt F) → (⟨S1x26, .i32⟩ : BufTy).Contents (Elt F)),
   StableHlo.unary main_v3 main_v4 (broadcastInDim S4096x26 ![0, 1] bcast_S1x26_S4096x26_0_1 : (⟨S1x26, .i32⟩ : BufTy).Contents (Elt F) → (⟨S4096x26, .i32⟩ : BufTy).Contents (Elt F)),
   StableHlo.binary main_arg1 main_v4 main_v5 (addi : (⟨S4096x26, .i32⟩ : BufTy).Contents (Elt F) → (⟨S4096x26, .i32⟩ : BufTy).Contents (Elt F) → (⟨S4096x26, .i32⟩ : BufTy).Contents (Elt F)),
   StableHlo.reshape main_v5 main_v6 rfl shapeCasts_S4096x26_S32x128x26,
   StableHlo.unary main_v6 main_v7 ((transpose S32x26x128 [0, 2, 1] · transposes_S32x128x26_S32x26x128_0_2_1) : (⟨S32x128x26, .i32⟩ : BufTy).Contents (Elt F) → (⟨S32x26x128, .i32⟩ : BufTy).Contents (Elt F)),
   StableHlo.reshape main_v7 main_v8 rfl shapeCasts_S32x26x128_S106496,
   StableHlo.nullary main_c_0 (constantI S_ 32 2599935#32),
   StableHlo.unary main_c_0 main_v9 (broadcastInDim S106496 ![] bcast_S_S106496 : (⟨S_, .i32⟩ : BufTy).Contents (Elt F) → (⟨S106496, .i32⟩ : BufTy).Contents (Elt F)),
   StableHlo.binary main_v8 main_v9 main_v10 (minsi : (⟨S106496, .i32⟩ : BufTy).Contents (Elt F) → (⟨S106496, .i32⟩ : BufTy).Contents (Elt F) → (⟨S106496, .i32⟩ : BufTy).Contents (Elt F)),
   StableHlo.reshape main_arg2 main_v11 rfl shapeCasts_S4096x200_S32x128x200,
   StableHlo.unary main_v11 main_v12 ((transpose S32x200x128 [0, 2, 1] · transposes_S32x128x200_S32x200x128_0_2_1) : (⟨S32x128x200, .i32⟩ : BufTy).Contents (Elt F) → (⟨S32x200x128, .i32⟩ : BufTy).Contents (Elt F)),
   StableHlo.reshape main_v12 main_v13 rfl shapeCasts_S32x200x128_S819200,
   StableHlo.reshape main_arg0 main_v14 rfl shapeCasts_S4096x13_S32x128x13,
   StableHlo.unary main_v14 main_v15 ((transpose S32x13x128 [0, 2, 1] · transposes_S32x128x13_S32x13x128_0_2_1) : (⟨S32x128x13, .f32⟩ : BufTy).Contents (Elt F) → (⟨S32x13x128, .f32⟩ : BufTy).Contents (Elt F)),
   StableHlo.reshape main_v15 main_v16 rfl shapeCasts_S32x13x128_S53248,
   StableHlo.unary main_arg3 main_v17 ((extractStridedSlice S2599936x1 ![0, 0] · slices_S2600000x1_S2599936x1_0_0) : (⟨S2600000x1, .f32⟩ : BufTy).Contents (Elt F) → (⟨S2599936x1, .f32⟩ : BufTy).Contents (Elt F)),
   StableHlo.reshape main_v17 main_v18 rfl shapeCasts_S2599936x1_S2599936,
   StableHlo.unary main_arg5 main_v19 ((extractStridedSlice S99968x1 ![0, 0] · slices_S100000x1_S99968x1_0_0) : (⟨S100000x1, .f32⟩ : BufTy).Contents (Elt F) → (⟨S99968x1, .f32⟩ : BufTy).Contents (Elt F)),
   StableHlo.reshape main_v19 main_v20 rfl shapeCasts_S99968x1_S99968,
   StableHlo.unary main_arg3 main_v21 ((extractStridedSlice S64x1 ![2599936, 0] · slices_S2600000x1_S64x1_2599936_0) : (⟨S2600000x1, .f32⟩ : BufTy).Contents (Elt F) → (⟨S64x1, .f32⟩ : BufTy).Contents (Elt F)),
   StableHlo.unary main_v21 main_v22 ((transpose S1x64 [1, 0] · transposes_S64x1_S1x64_1_0) : (⟨S64x1, .f32⟩ : BufTy).Contents (Elt F) → (⟨S1x64, .f32⟩ : BufTy).Contents (Elt F)),
   StableHlo.unary main_arg5 main_v23 ((extractStridedSlice S32x1 ![99968, 0] · slices_S100000x1_S32x1_99968_0) : (⟨S100000x1, .f32⟩ : BufTy).Contents (Elt F) → (⟨S32x1, .f32⟩ : BufTy).Contents (Elt F)),
   StableHlo.unary main_v23 main_v24 ((transpose S1x32 [1, 0] · transposes_S32x1_S1x32_1_0) : (⟨S32x1, .f32⟩ : BufTy).Contents (Elt F) → (⟨S1x32, .f32⟩ : BufTy).Contents (Elt F)),
   StableHlo.unary main_arg4 main_v25 ((transpose S1x13 [1, 0] · transposes_S13x1_S1x13_1_0) : (⟨S13x1, .f32⟩ : BufTy).Contents (Elt F) → (⟨S1x13, .f32⟩ : BufTy).Contents (Elt F)),
   StableHlo.unary main_arg6 main_v26 (broadcastInDim S1x1 ![1] bcast_S1_S1x1_1 : (⟨S1, .f32⟩ : BufTy).Contents (Elt F) → (⟨S1x1, .f32⟩ : BufTy).Contents (Elt F)),
   StableHlo.nullary main_cst (constant S_ .f32 0x00000000#32),
   StableHlo.unary main_cst main_v27 (broadcastInDim S1x18 ![] bcast_S_S1x18 : (⟨S_, .f32⟩ : BufTy).Contents (Elt F) → (⟨S1x18, .f32⟩ : BufTy).Contents (Elt F)),
   StableHlo.nary ![main_v22, main_v24, main_v25, main_v26, main_v27] main_v28 (fun u => concatenate S1x128 1 [⟨S1x64, u 0⟩, ⟨S1x32, u 1⟩, ⟨S1x13, u 2⟩, ⟨S1x1, u 3⟩, ⟨S1x18, u 4⟩] concatenates_S1x64_S1x32_S1x13_S1x1_S1x18_S1x128_d1)]

/-- The one host operation after it. -/
def opPost : HloOp τ sig (Elt F) := StableHlo.reshape main_v29 main_v30 rfl shapeCasts_S4096_S4096x1

theorem main_eq (d : Dev nD) :
    main (F := F) d = (StableHlo.seq (opsPre (F := F)) >>= fun _ => (sc (F := F)).run d 0 >>= fun _ => StableHlo.seq [opPost (F := F)]) := rfl

/-- Every host operation touches TensorCore buffers only, and determines its results. -/
theorem opsPre_sub : (opsPre (F := F)).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.nullary_bufs_sub .., StableHlo.unary_bufs_sub .., StableHlo.binary_bufs_sub .., StableHlo.reshape_bufs_sub .., StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nary_bufs_sub ..⟩
theorem opsPre_fresh : ∀ op ∈ opsPre (F := F), op.fresh = ∅ := by
  intro _ h; (repeat (cases h with | head => rfl | tail _ h => ?_)); exact nomatch h
theorem opPost_sub : (opPost (F := F)).bufs ⊆ StableHlo.tcRefs τ sig := StableHlo.reshape_bufs_sub ..

/-! ## What the TensorCore's buffers hold at the call -/

variable (m : (ℓ : Loc nD τ sig) → Buf (Elt F) ℓ) (d : Dev nD)

/-- The device's buffers at the launch, as a valuation. -/
abbrev VL : Valuation τ sig (Elt F) := StableHlo.launchContents m d

/-- The device's buffers once the host operations before the call have run. -/
def VA : Valuation τ sig (Elt F) := StableHlo.after (opsPre (F := F)) (VL m d)

abbrev r8 : DevRef τ sig := Proc.devRef .tc (main_v8 : Ref sig .tc)
abbrev r10 : DevRef τ sig := Proc.devRef .tc (main_v10 : Ref sig .tc)
abbrev r13 : DevRef τ sig := Proc.devRef .tc (main_v13 : Ref sig .tc)

/-! A property of every element passes through the operations that only move elements. -/

omit [FloatOps F] in
theorem forall_shapeCast {s t : Shape} {α : Type} {P : α → Prop} (x : s.Idx → α) (h : s.ShapeCasts t) (hx : ∀ k, P (x k)) :
    ∀ j, P (shapeCast t x h j) := fun _ => hx _
omit [FloatOps F] in
theorem forall_transpose {s t : Shape} {α : Type} {P : α → Prop} (perm : List (Fin s.rank)) (x : s.Idx → α) (h : s.Transposes perm t)
    (hx : ∀ k, P (x k)) : ∀ j, P (transpose t perm x h j) := fun _ => hx _
omit [FloatOps F] in
theorem forall_broadcastInDim {s t : Shape} {α : Type} {P : α → Prop} (dims : Fin s.rank → Fin t.rank) (h : s.BroadcastsInDim t dims)
    (x : s.Idx → α) (hx : ∀ k, P (x k)) : ∀ j, P (broadcastInDim t dims h x j) := fun _ => hx _

omit [FloatOps F] in
/-- Field `j`'s offset into the shared table: `100000 · j`, for `j < 26`. -/
theorem fieldOff_le (k : S26.Idx) :
    (muli (iotaInDim S26 32 0) (broadcastInDim S26 ![] bcast_S_S26 (constantI S_ 32 100000#32)) k).toNat ≤ 2500000 := by
  have hk : (k 0).val < 26 := (k 0).isLt
  show (BitVec.ofNat 32 (k 0).val * 100000#32).toNat ≤ 2500000
  rw [BitVec.toNat_mul, BitVec.toNat_ofNat, BitVec.toNat_ofNat, Nat.mod_eq_of_lt (show (k 0).val < 2 ^ 32 by omega),
    Nat.mod_eq_of_lt (show 100000 < 2 ^ 32 by norm_num), Nat.mod_eq_of_lt (by omega)]
  omega

omit [FloatOps F] in
/-- The signed minimum with `2599935` of a word below `2600000` is below `2599936`. -/
theorem minsi_lt (a : BitVec 32) (ha : a.toNat < 2600000) : (IntOp.minsi a 2599935#32).toNat < 2599936 := by
  unfold IntOp.minsi
  split
  · rename_i h
    rw [BitVec.slt_iff_toInt_lt, BitVec.toInt_eq_toNat_of_lt (by omega)] at h
    have : (2599935#32 : BitVec 32).toInt = 2599935 := by decide
    omega
  · decide

theorem v8_lt (hR : ∀ i, (m (d, Proc.devRef .tc (main_arg1 : Ref sig .tc)) i).toNat < 100000) :
    ∀ x, (VA m d r8 x).toNat < 2600000 := by
  intro x
  unfold VA opsPre
  after_results_simp
  refine forall_shapeCast (P := fun w : BitVec 32 => w.toNat < 2600000) _ _ (fun k => ?_) x
  refine forall_transpose (P := fun w : BitVec 32 => w.toNat < 2600000) _ _ _ (fun k => ?_) k
  refine forall_shapeCast (P := fun w : BitVec 32 => w.toNat < 2600000) _ _ (fun k => ?_) k
  have hB := forall_broadcastInDim (P := fun w : BitVec 32 => w.toNat ≤ 2500000) _ bcast_S1x26_S4096x26_0_1 _
    (forall_broadcastInDim (P := fun w : BitVec 32 => w.toNat ≤ 2500000) _ bcast_S26_S1x26_1 _ fieldOff_le) k
  have hA : (VL m d (Proc.devRef .tc (main_arg1 : Ref sig .tc)) k).toNat < 100000 := hR k
  show (_ + _ : BitVec 32).toNat < 2600000
  rw [BitVec.toNat_add]
  simp only at hB
  omega

theorem v10_lt (hR : ∀ i, (m (d, Proc.devRef .tc (main_arg1 : Ref sig .tc)) i).toNat < 100000) :
    ∀ x, (VA m d r10 x).toNat < 2599936 := by
  intro x
  have h8 := v8_lt m d hR x
  have e : VA m d r10 x = IntOp.minsi (VA m d r8 x) 2599935#32 := by
    unfold VA opsPre
    after_results_simp
    rfl
  rw [e]; exact minsi_lt _ h8

theorem v13_lt (hR : ∀ i, (m (d, Proc.devRef .tc (main_arg2 : Ref sig .tc)) i).toNat < 100000) :
    ∀ x, (VA m d r13 x).toNat < 100000 := by
  intro x
  unfold VA opsPre
  after_results_simp
  refine forall_shapeCast (P := fun w : BitVec 32 => w.toNat < 100000) _ _ (fun k => ?_) x
  refine forall_transpose (P := fun w : BitVec 32 => w.toNat < 100000) _ _ _ (fun k => ?_) k
  exact forall_shapeCast (P := fun w : BitVec 32 => w.toNat < 100000) _ _ hR k

/-- With both integer arguments below the vocabulary size, every index the tasks use names a row of its table. -/
theorem idxOK (L : grid0.Coords) (hR : Cert.FmSpec.InRange (m (d, Proc.devRef .tc (main_arg1 : Ref sig .tc))) (m (d, Proc.devRef .tc (main_arg2 : Ref sig .tc)))) :
    IdxOK d L (VA m d r10) (VA m d r8) (VA m d r13) :=
  ⟨v10_lt m d hR.1, v8_lt m d hR.1, v13_lt m d hR.2⟩

/-- No host operation writes an argument array: at the call each still holds its launch contents. -/
theorem VA_arg0 : VA m d (Proc.devRef .tc (main_arg0 : Ref sig .tc)) = m (d, Proc.devRef .tc (main_arg0 : Ref sig .tc)) := by
  unfold VA opsPre; after_results_simp
theorem VA_arg1 : VA m d (Proc.devRef .tc (main_arg1 : Ref sig .tc)) = m (d, Proc.devRef .tc (main_arg1 : Ref sig .tc)) := by
  unfold VA opsPre; after_results_simp
theorem VA_arg2 : VA m d (Proc.devRef .tc (main_arg2 : Ref sig .tc)) = m (d, Proc.devRef .tc (main_arg2 : Ref sig .tc)) := by
  unfold VA opsPre; after_results_simp
theorem VA_arg3 : VA m d (Proc.devRef .tc (main_arg3 : Ref sig .tc)) = m (d, Proc.devRef .tc (main_arg3 : Ref sig .tc)) := by
  unfold VA opsPre; after_results_simp
theorem VA_arg4 : VA m d (Proc.devRef .tc (main_arg4 : Ref sig .tc)) = m (d, Proc.devRef .tc (main_arg4 : Ref sig .tc)) := by
  unfold VA opsPre; after_results_simp
theorem VA_arg5 : VA m d (Proc.devRef .tc (main_arg5 : Ref sig .tc)) = m (d, Proc.devRef .tc (main_arg5 : Ref sig .tc)) := by
  unfold VA opsPre; after_results_simp
theorem VA_arg6 : VA m d (Proc.devRef .tc (main_arg6 : Ref sig .tc)) = m (d, Proc.devRef .tc (main_arg6 : Ref sig .tc)) := by
  unfold VA opsPre; after_results_simp

end Cert.Proof.LaunchKernelIdeal
end
-- ==== Proof.KValLayout.lean ====
/-
  The host side's layout operations read at an entry, free of any program. The batch permutation — `[4096, K]` cast to
  `[32, 128, K]`, its last two axes exchanged, flattened — puts field `j` of row `r` of subcore `w` at entry
  `(w · K + j) · 128 + r`. A table `[N, 1]` cut to its first `M` rows and flattened reads the table's row; its rows from `o`
  on, laid out as a row vector, read row `o + c` at column `c`. The row of 128 entries is five pieces side by side, of
  extents 64, 32, 13, 1 and 18: entry `c` is in the piece whose span holds `c`, at `c` minus the extents before it.
-/
import Idealize.ShloMosaic.Lib.Pipeline.Value
import Idealize.ShloMosaic.Lib.ValueLayout
import Idealize.ShloMosaic.Lib.ValueIdx

noncomputable section

namespace Cert.Proof.KVal

open Idealize.ShloMosaic Idealize.ShloMosaic.ValueIdx

variable {α : Type}

/-- THE BATCH PERMUTATION AT AN ENTRY: entry `(w · K + j) · 128 + r` is the array at row `w · 128 + r`, field `j`. -/
theorem permute_apply {K N : Nat} (x : (⟨2, ![4096, K]⟩ : Shape).Idx → α)
    (h1 : (⟨2, ![4096, K]⟩ : Shape).ShapeCasts ⟨3, ![32, 128, K]⟩)
    (h2 : (⟨3, ![32, 128, K]⟩ : Shape).Transposes [0, 2, 1] ⟨3, ![32, K, 128]⟩)
    (h3 : (⟨3, ![32, K, 128]⟩ : Shape).ShapeCasts ⟨1, ![N]⟩)
    (w : Fin 32) (j : Fin K) (r : Fin 128) (n : Fin N) (hn : n.val = (w.val * K + j.val) * 128 + r.val)
    (b : Fin 4096) (hb : b.val = w.val * 128 + r.val) :
    shapeCast ⟨1, ![N]⟩ (transpose ⟨3, ![32, K, 128]⟩ [0, 2, 1] (shapeCast ⟨3, ![32, 128, K]⟩ x h1) h2) h3 (ix1 n)
      = x (ix2 b j) := by
  rw [shapeCast_apply _ h3 (ix1 n) (ix3 w j r) (by
    rw [Shape.rowMajor_val_three, Shape.rowMajor_val_one]
    exact hn.symm)]
  rw [transpose_ix3_021_apply]
  exact shapeCast_apply _ h1 (ix3 w r j) (ix2 b j) (by
    rw [Shape.rowMajor_val_two, Shape.rowMajor_val_three]
    show b.val * K + j.val = (w.val * 128 + r.val) * K + j.val
    rw [hb])

/-- A table cut to its first `M` rows and flattened, read at entry `n`: the table's row `n`. -/
theorem cut_apply {N M : Nat} (x : (⟨2, ![N, 1]⟩ : Shape).Idx → α)
    (hs : (⟨2, ![N, 1]⟩ : Shape).Slices ![0, 0] ⟨2, ![M, 1]⟩) (hc : (⟨2, ![M, 1]⟩ : Shape).ShapeCasts ⟨1, ![M]⟩)
    (n : Fin M) (hN : n.val < N) :
    shapeCast ⟨1, ![M]⟩ (extractStridedSlice ⟨2, ![M, 1]⟩ ![0, 0] x hs) hc (ix1 n)
      = x (ix2 (⟨n.val, hN⟩ : Fin N) (0 : Fin 1)) := by
  rw [shapeCast_apply _ hc (ix1 n) (ix2 n (0 : Fin 1)) (by
    rw [Shape.rowMajor_val_two, Shape.rowMajor_val_one]
    show n.val * 1 + 0 = n.val
    omega)]
  exact extractStridedSlice_apply _ x hs _ _ (fun a => by
    match a with
    | ⟨0, _⟩ => exact (Nat.zero_add _).symm
    | ⟨1, _⟩ => rfl)

/-- A table's `M` rows from row `o` on, laid out as a row vector, read at column `c`: the table's row `o + c`. -/
theorem tail_apply {N M : Nat} (o : Nat) (x : (⟨2, ![N, 1]⟩ : Shape).Idx → α)
    (hs : (⟨2, ![N, 1]⟩ : Shape).Slices ![o, 0] ⟨2, ![M, 1]⟩)
    (ht : (⟨2, ![M, 1]⟩ : Shape).Transposes [1, 0] ⟨2, ![1, M]⟩) (c : Fin M) (hN : o + c.val < N) :
    transpose ⟨2, ![1, M]⟩ [1, 0] (extractStridedSlice ⟨2, ![M, 1]⟩ ![o, 0] x hs) ht (ix2 (0 : Fin 1) c)
      = x (ix2 (⟨o + c.val, hN⟩ : Fin N) (0 : Fin 1)) := by
  rw [transpose_ix2_apply]
  exact extractStridedSlice_apply _ x hs _ _ (fun a => by
    match a with
    | ⟨0, _⟩ => rfl
    | ⟨1, _⟩ => rfl)

/-- A column `[M, 1]` laid out as a row vector, read at column `c`: the column's row `c`. -/
theorem asRow_apply {M : Nat} (x : (⟨2, ![M, 1]⟩ : Shape).Idx → α)
    (ht : (⟨2, ![M, 1]⟩ : Shape).Transposes [1, 0] ⟨2, ![1, M]⟩) (c : Fin M) :
    transpose ⟨2, ![1, M]⟩ [1, 0] x ht (ix2 (0 : Fin 1) c) = x (ix2 c (0 : Fin 1)) :=
  transpose_ix2_apply x ht _ _

section Aux

variable (x0 : (⟨2, ![1, 64]⟩ : Shape).Idx → α) (x1 : (⟨2, ![1, 32]⟩ : Shape).Idx → α) (x2 : (⟨2, ![1, 13]⟩ : Shape).Idx → α) (x3 : (⟨2, ![1, 1]⟩ : Shape).Idx → α)
  (x4 : (⟨2, ![1, 18]⟩ : Shape).Idx → α)
  (h : Shape.Concatenates [(⟨2, ![1, 64]⟩ : Shape), (⟨2, ![1, 32]⟩ : Shape), (⟨2, ![1, 13]⟩ : Shape), (⟨2, ![1, 1]⟩ : Shape), (⟨2, ![1, 18]⟩ : Shape)] (⟨2, ![1, 128]⟩ : Shape) 1)

/-- Entries `0 … 63` of the row are the first piece. -/
theorem aux_piece0 (c : Nat) (hlo : 0 ≤ c) (hhi : c < 64) :
    concatenate (⟨2, ![1, 128]⟩ : Shape) 1 [⟨(⟨2, ![1, 64]⟩ : Shape), x0⟩, ⟨(⟨2, ![1, 32]⟩ : Shape), x1⟩, ⟨(⟨2, ![1, 13]⟩ : Shape), x2⟩, ⟨(⟨2, ![1, 1]⟩ : Shape), x3⟩, ⟨(⟨2, ![1, 18]⟩ : Shape), x4⟩] h
        (ix2 (0 : Fin 1) (⟨c, by omega⟩ : Fin 128))
      = x0 (ix2 (0 : Fin 1) (⟨c - 0, by omega⟩ : Fin 64)) := by
  refine concatenate_apply_piece (1 : Fin (⟨2, ![1, 128]⟩ : Shape).rank) [⟨(⟨2, ![1, 64]⟩ : Shape), x0⟩, ⟨(⟨2, ![1, 32]⟩ : Shape), x1⟩, ⟨(⟨2, ![1, 13]⟩ : Shape), x2⟩, ⟨(⟨2, ![1, 1]⟩ : Shape), x3⟩, ⟨(⟨2, ![1, 18]⟩ : Shape), x4⟩] h
    (ix2 (0 : Fin 1) (⟨c, by omega⟩ : Fin 128)) 0 (by show 0 < 5; decide) (⟨2, ![1, 64]⟩ : Shape) x0 rfl rfl 0 rfl
    (ix2 (0 : Fin 1) (⟨c - 0, by omega⟩ : Fin 64)) (fun d hd => ?_) ?_
  · match d with
    | ⟨0, _⟩ => rfl
    | ⟨1, _⟩ => exact absurd rfl hd
  · show 0 + (c - 0) = c
    omega

/-- Entries `64 … 95` are the second piece, from its start. -/
theorem aux_piece1 (c : Nat) (hlo : 64 ≤ c) (hhi : c < 96) :
    concatenate (⟨2, ![1, 128]⟩ : Shape) 1 [⟨(⟨2, ![1, 64]⟩ : Shape), x0⟩, ⟨(⟨2, ![1, 32]⟩ : Shape), x1⟩, ⟨(⟨2, ![1, 13]⟩ : Shape), x2⟩, ⟨(⟨2, ![1, 1]⟩ : Shape), x3⟩, ⟨(⟨2, ![1, 18]⟩ : Shape), x4⟩] h
        (ix2 (0 : Fin 1) (⟨c, by omega⟩ : Fin 128))
      = x1 (ix2 (0 : Fin 1) (⟨c - 64, by omega⟩ : Fin 32)) := by
  refine concatenate_apply_piece (1 : Fin (⟨2, ![1, 128]⟩ : Shape).rank) [⟨(⟨2, ![1, 64]⟩ : Shape), x0⟩, ⟨(⟨2, ![1, 32]⟩ : Shape), x1⟩, ⟨(⟨2, ![1, 13]⟩ : Shape), x2⟩, ⟨(⟨2, ![1, 1]⟩ : Shape), x3⟩, ⟨(⟨2, ![1, 18]⟩ : Shape), x4⟩] h
    (ix2 (0 : Fin 1) (⟨c, by omega⟩ : Fin 128)) 1 (by show 1 < 5; decide) (⟨2, ![1, 32]⟩ : Shape) x1 rfl rfl 64 rfl
    (ix2 (0 : Fin 1) (⟨c - 64, by omega⟩ : Fin 32)) (fun d hd => ?_) ?_
  · match d with
    | ⟨0, _⟩ => rfl
    | ⟨1, _⟩ => exact absurd rfl hd
  · show 64 + (c - 64) = c
    omega

/-- Entries `96 … 108` are the third piece. -/
theorem aux_piece2 (c : Nat) (hlo : 96 ≤ c) (hhi : c < 109) :
    concatenate (⟨2, ![1, 128]⟩ : Shape) 1 [⟨(⟨2, ![1, 64]⟩ : Shape), x0⟩, ⟨(⟨2, ![1, 32]⟩ : Shape), x1⟩, ⟨(⟨2, ![1, 13]⟩ : Shape), x2⟩, ⟨(⟨2, ![1, 1]⟩ : Shape), x3⟩, ⟨(⟨2, ![1, 18]⟩ : Shape), x4⟩] h
        (ix2 (0 : Fin 1) (⟨c, by omega⟩ : Fin 128))
      = x2 (ix2 (0 : Fin 1) (⟨c - 96, by omega⟩ : Fin 13)) := by
  refine concatenate_apply_piece (1 : Fin (⟨2, ![1, 128]⟩ : Shape).rank) [⟨(⟨2, ![1, 64]⟩ : Shape), x0⟩, ⟨(⟨2, ![1, 32]⟩ : Shape), x1⟩, ⟨(⟨2, ![1, 13]⟩ : Shape), x2⟩, ⟨(⟨2, ![1, 1]⟩ : Shape), x3⟩, ⟨(⟨2, ![1, 18]⟩ : Shape), x4⟩] h
    (ix2 (0 : Fin 1) (⟨c, by omega⟩ : Fin 128)) 2 (by show 2 < 5; decide) (⟨2, ![1, 13]⟩ : Shape) x2 rfl rfl 96 rfl
    (ix2 (0 : Fin 1) (⟨c - 96, by omega⟩ : Fin 13)) (fun d hd => ?_) ?_
  · match d with
    | ⟨0, _⟩ => rfl
    | ⟨1, _⟩ => exact absurd rfl hd
  · show 96 + (c - 96) = c
    omega

/-- Entry `109` is the fourth piece's one entry. -/
theorem aux_piece3 (c : Nat) (hlo : 109 ≤ c) (hhi : c < 110) :
    concatenate (⟨2, ![1, 128]⟩ : Shape) 1 [⟨(⟨2, ![1, 64]⟩ : Shape), x0⟩, ⟨(⟨2, ![1, 32]⟩ : Shape), x1⟩, ⟨(⟨2, ![1, 13]⟩ : Shape), x2⟩, ⟨(⟨2, ![1, 1]⟩ : Shape), x3⟩, ⟨(⟨2, ![1, 18]⟩ : Shape), x4⟩] h
        (ix2 (0 : Fin 1) (⟨c, by omega⟩ : Fin 128))
      = x3 (ix2 (0 : Fin 1) (⟨c - 109, by omega⟩ : Fin 1)) := by
  refine concatenate_apply_piece (1 : Fin (⟨2, ![1, 128]⟩ : Shape).rank) [⟨(⟨2, ![1, 64]⟩ : Shape), x0⟩, ⟨(⟨2, ![1, 32]⟩ : Shape), x1⟩, ⟨(⟨2, ![1, 13]⟩ : Shape), x2⟩, ⟨(⟨2, ![1, 1]⟩ : Shape), x3⟩, ⟨(⟨2, ![1, 18]⟩ : Shape), x4⟩] h
    (ix2 (0 : Fin 1) (⟨c, by omega⟩ : Fin 128)) 3 (by show 3 < 5; decide) (⟨2, ![1, 1]⟩ : Shape) x3 rfl rfl 109 rfl
    (ix2 (0 : Fin 1) (⟨c - 109, by omega⟩ : Fin 1)) (fun d hd => ?_) ?_
  · match d with
    | ⟨0, _⟩ => rfl
    | ⟨1, _⟩ => exact absurd rfl hd
  · show 109 + (c - 109) = c
    omega

end Aux

end Cert.Proof.KVal

end
-- ==== Proof.KValDef.lean ====
/-
  The score one vector subcore computes for a batch row, as a pure function of the seven operand arrays the host side
  hands the SparseCore call, in the kernel's own order. Row `b = 128 · w + r` belongs to subcore `w` and sits at lane
  position `r` of its 128 rows; the operands are subcore-major, then field, then row: field `j` of row `r` of subcore `w` is
  entry `128 · K · w + 128 · j + r` of a `K`-field operand. The accumulator starts at the bias (entry 109 of the 128-entry
  row of tails, weights and bias); adds, field by field, weight `96 + j` times the float field; then, field by field, the token's
  row — from the cut table at the clamped index, or, for an index at or past the cut `2599936`, from entries `0 … 63` of the
  row of tails —; then, token by token, the sequence table's row, where row `0` reads `0`, rows below the cut `99968` read the
  cut table, and the last 32 rows read entries `64 … 95` of the row of tails.
  An index past an array's end reads `0`: the readers are total so that the folds run over plain naturals.
-/
import Idealize.ShloMosaic.PureOps.Ideal
import Idealize.ShloMosaic.Lib.ValueIdx

noncomputable section

namespace Cert.Proof.KVal

open Idealize.ShloMosaic Idealize.ShloMosaic.ValueIdx
open scoped BigOperators

/-- Entry `n` of a flat array of words, `0` past its end. -/
def rdW {N : Nat} (x : IVec ⟨1, ![N]⟩ 32) (n : Nat) : BitVec 32 := if h : n < N then x (ix1 ⟨n, h⟩) else 0#32

/-- Entry `n` of a flat array of floats, `0` past its end. -/
def rdF {N : Nat} (x : FVec Ideal ⟨1, ![N]⟩ .f32) (n : Nat) : EReal := if h : n < N then x (ix1 ⟨n, h⟩) else 0

/-- Entry `c` of the row of tails, weights and bias, `0` past its end. -/
def auxAt (f28 : FVec Ideal ⟨2, ![1, 128]⟩ .f32) (c : Nat) : EReal :=
  if h : c < 128 then f28 (ix2 (0 : Fin 1) (⟨c, h⟩ : Fin 128)) else 0

theorem rdW_of_lt {N : Nat} (x : IVec ⟨1, ![N]⟩ 32) {n : Nat} (h : n < N) : rdW x n = x (ix1 ⟨n, h⟩) := dif_pos h
theorem rdF_of_lt {N : Nat} (x : FVec Ideal ⟨1, ![N]⟩ .f32) {n : Nat} (h : n < N) : rdF x n = x (ix1 ⟨n, h⟩) := dif_pos h
theorem auxAt_of_lt (f28 : FVec Ideal ⟨2, ![1, 128]⟩ .f32) {c : Nat} (h : c < 128) :
    auxAt f28 c = f28 (ix2 (0 : Fin 1) (⟨c, h⟩ : Fin 128)) := dif_pos h

section Row

variable (f8 f10 : IVec ⟨1, ![106496]⟩ 32) (f13 : IVec ⟨1, ![819200]⟩ 32) (f16 : FVec Ideal ⟨1, ![53248]⟩ .f32)
  (f18 : FVec Ideal ⟨1, ![2599936]⟩ .f32) (f20 : FVec Ideal ⟨1, ![99968]⟩ .f32) (f28 : FVec Ideal ⟨2, ![1, 128]⟩ .f32)
  (w r : Nat)

/-- Float field `j`'s contribution: its weight times the field. -/
def fltTerm (j : Nat) : EReal := auxAt f28 (96 + j) * rdF f16 (1664 * w + 128 * j + r)

/-- Token field `j`'s contribution: the row of the shared table at the field's offset index — past the cut, out of the
    row of tails at `max (index − 2599936) 0`; before it, out of the cut table at the clamped index. -/
def tokTerm (j : Nat) : EReal :=
  Scalar.select (IntOp.cmpi .sge (rdW f8 (3328 * w + 128 * j + r)) 2599936#32)
    (auxAt f28 (IntOp.maxsi (IntOp.subi (rdW f8 (3328 * w + 128 * j + r)) 2599936#32) 0#32).toNat)
    (rdF f18 (rdW f10 (3328 * w + 128 * j + r)).toNat)

/-- The sequence table as the subcore holds it: row `0` zeroed, the rows below the cut from the cut table, the last 32 rows
    from entries `64 … 95` of the row of tails. -/
def stab (n : Nat) : EReal :=
  if n = 0 then 0 else if n < 99968 then rdF f20 n else auxAt f28 (64 + (n - 99968))

/-- Sequence token `s`'s contribution. -/
def seqTerm (s : Nat) : EReal := stab f20 f28 (rdW f13 (25600 * w + 128 * s + r)).toNat

/-- The accumulator after `k` float fields, from the bias. -/
def fltAcc (k : Nat) : EReal := (List.range k).foldl (fun acc j => acc + fltTerm f16 f28 w r j) (auxAt f28 109)

/-- The accumulator after all 13 float fields and `k` token fields. -/
def tokAcc (k : Nat) : EReal :=
  (List.range k).foldl (fun acc j => acc + tokTerm f8 f10 f18 f28 w r j) (fltAcc f16 f28 w r 13)

/-- The accumulator after all fields and `k` sequence tokens. -/
def seqAcc (k : Nat) : EReal :=
  (List.range k).foldl (fun acc s => acc + seqTerm f13 f20 f28 w r s) (tokAcc f8 f10 f16 f18 f28 w r 26)

theorem fltAcc_zero : fltAcc f16 f28 w r 0 = auxAt f28 109 := rfl
theorem fltAcc_succ (k : Nat) : fltAcc f16 f28 w r (k + 1) = fltAcc f16 f28 w r k + fltTerm f16 f28 w r k := by
  unfold fltAcc; rw [List.range_succ, List.foldl_append]; rfl
theorem tokAcc_zero : tokAcc f8 f10 f16 f18 f28 w r 0 = fltAcc f16 f28 w r 13 := rfl
theorem tokAcc_succ (k : Nat) :
    tokAcc f8 f10 f16 f18 f28 w r (k + 1) = tokAcc f8 f10 f16 f18 f28 w r k + tokTerm f8 f10 f18 f28 w r k := by
  unfold tokAcc; rw [List.range_succ, List.foldl_append]; rfl
theorem seqAcc_zero : seqAcc f8 f10 f13 f16 f18 f20 f28 w r 0 = tokAcc f8 f10 f16 f18 f28 w r 26 := rfl
theorem seqAcc_succ (k : Nat) : seqAcc f8 f10 f13 f16 f18 f20 f28 w r (k + 1) = seqAcc f8 f10 f13 f16 f18 f20 f28 w r k + seqTerm f13 f20 f28 w r k := by
  unfold seqAcc; rw [List.range_succ, List.foldl_append]; rfl

end Row

/-- (K1) THE KERNEL'S SCORE of batch row `b`: subcore `b / 128`, lane position `b % 128`, the accumulator after everything. -/
def kernelRow (f8 f10 : IVec ⟨1, ![106496]⟩ 32) (f13 : IVec ⟨1, ![819200]⟩ 32) (f16 : FVec Ideal ⟨1, ![53248]⟩ .f32)
    (f18 : FVec Ideal ⟨1, ![2599936]⟩ .f32) (f20 : FVec Ideal ⟨1, ![99968]⟩ .f32) (f28 : FVec Ideal ⟨2, ![1, 128]⟩ .f32)
    (b : Fin 4096) : EReal :=
  seqAcc f8 f10 f13 f16 f18 f20 f28 (b.val / 128) (b.val % 128) 200

/-- A left fold that adds `f j` for `j = 0 … n − 1` is the start plus the sum. -/
theorem foldl_add_range (a : EReal) (f : Nat → EReal) (n : Nat) :
    (List.range n).foldl (fun acc j => acc + f j) a = a + ∑ j ∈ Finset.range n, f j := by
  induction n with
  | zero => simp
  | succ n ih => rw [List.range_succ, List.foldl_append, ih, Finset.sum_range_succ, ← add_assoc]; rfl

/-- The kernel's score as the bias plus the three sums, in the order it adds them. -/
theorem kernelRow_eq_sums (f8 f10 : IVec ⟨1, ![106496]⟩ 32) (f13 : IVec ⟨1, ![819200]⟩ 32) (f16 : FVec Ideal ⟨1, ![53248]⟩ .f32)
    (f18 : FVec Ideal ⟨1, ![2599936]⟩ .f32) (f20 : FVec Ideal ⟨1, ![99968]⟩ .f32) (f28 : FVec Ideal ⟨2, ![1, 128]⟩ .f32)
    (b : Fin 4096) :
    kernelRow f8 f10 f13 f16 f18 f20 f28 b
      = auxAt f28 109 + (∑ j ∈ Finset.range 13, fltTerm f16 f28 (b.val / 128) (b.val % 128) j)
          + (∑ j ∈ Finset.range 26, tokTerm f8 f10 f18 f28 (b.val / 128) (b.val % 128) j)
          + (∑ s ∈ Finset.range 200, seqTerm f13 f20 f28 (b.val / 128) (b.val % 128) s) := by
  unfold kernelRow seqAcc tokAcc fltAcc
  rw [foldl_add_range, foldl_add_range, foldl_add_range]

end Cert.Proof.KVal

end
-- ==== Proof.KValHost.lean ====
/-
  The seven operands the host side hands the SparseCore call, each as a pure term of the argument arrays, and each read at the
  entry the kernel reads: the three permuted operands at `128 · K · w + 128 · j + r` are the arguments at row `128 · w + r`,
  field `j` (the token fields with the field's offset added); the clamped index is the signed minimum of the index with
  `2599935`; the two cut tables are the tables' rows; the row of tails, weights and bias reads the token table's last 64 rows,
  the sequence table's last 32, the 13 weights and the bias at entries `0 … 63`, `64 … 95`, `96 … 108` and `109`.
-/
import proofs.«207587_g45655502356657_cont_8to1c4_548_39_alg».proof.Proof.HostKernelIdeal
import proofs.«207587_g45655502356657_cont_8to1c4_548_39_alg».proof.Proof.KValLayout
import proofs.«207587_g45655502356657_cont_8to1c4_548_39_alg».proof.Proof.KValDef

noncomputable section

namespace Cert.Proof.KVal

open Cert.KernelIdeal Cert.KernelIdeal.Gen Cert.Proof.LaunchKernelIdeal
open Idealize.ShloMosaic Idealize.ShloMosaic.ValueIdx Idealize.ShloMosaic.StableHlo

variable (m : (ℓ : Loc nD τ sig) → Buf (Elt Ideal) ℓ) (d : Dev nD)

/-- The argument arrays at the launch, at their array types. -/
abbrev a0 : FVec Ideal S4096x13 .f32 := (m (d, (Proc.devRef .tc (main_arg0 : Ref sig .tc))))
abbrev a1 : IVec S4096x26 32 := (m (d, (Proc.devRef .tc (main_arg1 : Ref sig .tc))))
abbrev a2 : IVec S4096x200 32 := (m (d, (Proc.devRef .tc (main_arg2 : Ref sig .tc))))
abbrev a3 : FVec Ideal S2600000x1 .f32 := (m (d, (Proc.devRef .tc (main_arg3 : Ref sig .tc))))
abbrev a4 : FVec Ideal S13x1 .f32 := (m (d, (Proc.devRef .tc (main_arg4 : Ref sig .tc))))
abbrev a5 : FVec Ideal S100000x1 .f32 := (m (d, (Proc.devRef .tc (main_arg5 : Ref sig .tc))))
abbrev a6 : FVec Ideal S1 .f32 := (m (d, (Proc.devRef .tc (main_arg6 : Ref sig .tc))))

/-- The seven operands at the call, at their array types. -/
abbrev o8 : IVec S106496 32 := VA (F := Ideal) m d (Proc.devRef .tc (main_v8 : Ref sig .tc))
abbrev o10 : IVec S106496 32 := VA (F := Ideal) m d (Proc.devRef .tc (main_v10 : Ref sig .tc))
abbrev o13 : IVec S819200 32 := VA (F := Ideal) m d (Proc.devRef .tc (main_v13 : Ref sig .tc))
abbrev o16 : FVec Ideal S53248 .f32 := VA (F := Ideal) m d (Proc.devRef .tc (main_v16 : Ref sig .tc))
abbrev o18 : FVec Ideal S2599936 .f32 := VA (F := Ideal) m d (Proc.devRef .tc (main_v18 : Ref sig .tc))
abbrev o20 : FVec Ideal S99968 .f32 := VA (F := Ideal) m d (Proc.devRef .tc (main_v20 : Ref sig .tc))
abbrev o28 : FVec Ideal S1x128 .f32 := VA (F := Ideal) m d (Proc.devRef .tc (main_v28 : Ref sig .tc))

/-! ## The operands as terms of the arguments -/

theorem o16_eq : o16 m d = shapeCast S53248 (transpose S32x13x128 [0, 2, 1] (shapeCast S32x128x13 (a0 m d) shapeCasts_S4096x13_S32x128x13) transposes_S32x128x13_S32x13x128_0_2_1) shapeCasts_S32x13x128_S53248 := by
  unfold o16 VA opsPre; after_results_simp; rfl

theorem o8_eq : o8 m d = shapeCast S106496 (transpose S32x26x128 [0, 2, 1] (shapeCast S32x128x26 (addi (a1 m d) (broadcastInDim S4096x26 ![0, 1] bcast_S1x26_S4096x26_0_1 (broadcastInDim S1x26 ![1] bcast_S26_S1x26_1 (muli (iotaInDim S26 32 0) (broadcastInDim S26 ![] bcast_S_S26 (constantI S_ 32 100000#32)))))) shapeCasts_S4096x26_S32x128x26) transposes_S32x128x26_S32x26x128_0_2_1) shapeCasts_S32x26x128_S106496 := by
  unfold o8 VA opsPre; after_results_simp; rfl

theorem o10_apply (x : S106496.Idx) : o10 m d x = IntOp.minsi (o8 m d x) 2599935#32 := by
  unfold o10 o8 VA opsPre; after_results_simp; rfl

theorem o13_eq : o13 m d = shapeCast S819200 (transpose S32x200x128 [0, 2, 1] (shapeCast S32x128x200 (a2 m d) shapeCasts_S4096x200_S32x128x200) transposes_S32x128x200_S32x200x128_0_2_1) shapeCasts_S32x200x128_S819200 := by
  unfold o13 VA opsPre; after_results_simp; rfl

theorem o18_eq : o18 m d = shapeCast S2599936 (extractStridedSlice S2599936x1 ![0, 0] (a3 m d) slices_S2600000x1_S2599936x1_0_0) shapeCasts_S2599936x1_S2599936 := by
  unfold o18 VA opsPre; after_results_simp; rfl

theorem o20_eq : o20 m d = shapeCast S99968 (extractStridedSlice S99968x1 ![0, 0] (a5 m d) slices_S100000x1_S99968x1_0_0) shapeCasts_S99968x1_S99968 := by
  unfold o20 VA opsPre; after_results_simp; rfl

/-- The row of tails, weights and bias: five pieces side by side. -/
theorem o28_eq : o28 m d = concatenate S1x128 1
    [⟨S1x64, transpose S1x64 [1, 0] (extractStridedSlice S64x1 ![2599936, 0] (a3 m d) slices_S2600000x1_S64x1_2599936_0) transposes_S64x1_S1x64_1_0⟩,
     ⟨S1x32, transpose S1x32 [1, 0] (extractStridedSlice S32x1 ![99968, 0] (a5 m d) slices_S100000x1_S32x1_99968_0) transposes_S32x1_S1x32_1_0⟩,
     ⟨S1x13, transpose S1x13 [1, 0] (a4 m d) transposes_S13x1_S1x13_1_0⟩,
     ⟨S1x1, broadcastInDim S1x1 ![1] bcast_S1_S1x1_1 (a6 m d)⟩,
     ⟨S1x18, broadcastInDim S1x18 ![] bcast_S_S1x18 (constant (F := Ideal) S_ .f32 0x00000000#32)⟩]
    concatenates_S1x64_S1x32_S1x13_S1x1_S1x18_S1x128_d1 := by
  unfold o28 VA opsPre
  simp (disch := decide) only [after_cons, after_nil, Matrix.cons_val,
    nullary_result', unary_result', binary_result', reshape_result', nary_result',
    nullary_result_ne', unary_result_ne', binary_result_ne', reshape_result_ne', nary_result_ne']
  rfl

/-! ## The operands at the entries the kernel reads -/

/-- The per-field offsets spread over the batch, read at `(b, j)`: offset `j`. -/
theorem offsets_apply {α : Type} (x : S26.Idx → α) (b : Fin 4096) (j : Fin 26) :
    broadcastInDim S4096x26 ![0, 1] bcast_S1x26_S4096x26_0_1 (broadcastInDim S1x26 ![1] bcast_S26_S1x26_1 x) (ix2 b j)
      = x (ix1 j) := by
  rw [broadcastInDim_apply _ _ _ _ (ix2 (0 : Fin 1) j) (fun a => by
    match a with
    | ⟨0, _⟩ => rfl
    | ⟨1, _⟩ => rfl)]
  exact broadcastInDim_apply _ _ _ _ (ix1 j) (fun a => by
    match a with
    | ⟨0, _⟩ => rfl)

variable (w : Fin 32) (r : Fin 128)

/-- Float field `j` of row `128 · w + r`. -/
theorem flt_read (j : Fin 13) :
    rdF (o16 m d) (1664 * w.val + 128 * j.val + r.val) = a0 m d (ix2 (⟨128 * w.val + r.val, by omega⟩ : Fin 4096) j) := by
  rw [rdF_of_lt _ (by have := w.isLt; have := j.isLt; have := r.isLt; omega), o16_eq]
  exact permute_apply _ _ _ _ w j r _ (by show 1664 * w.val + 128 * j.val + r.val = (w.val * 13 + j.val) * 128 + r.val; omega)
    _ (by show 128 * w.val + r.val = w.val * 128 + r.val; omega)

/-- Token field `j`'s offset index of row `128 · w + r`: the token plus `j · 100000`, as words. -/
theorem ids_read (j : Fin 26) :
    rdW (o8 m d) (3328 * w.val + 128 * j.val + r.val)
      = IntOp.addi (a1 m d (ix2 (⟨128 * w.val + r.val, by omega⟩ : Fin 4096) j)) (IntOp.muli (BitVec.ofNat 32 j.val) 100000#32) := by
  rw [rdW_of_lt _ (by have := w.isLt; have := j.isLt; have := r.isLt; omega), o8_eq]
  rw [permute_apply _ _ _ _ w j r _ (by show 3328 * w.val + 128 * j.val + r.val = (w.val * 26 + j.val) * 128 + r.val; omega)
    (⟨128 * w.val + r.val, by omega⟩ : Fin 4096) (by show 128 * w.val + r.val = w.val * 128 + r.val; omega)]
  show IntOp.addi (a1 m d (ix2 _ j)) (broadcastInDim S4096x26 ![0, 1] bcast_S1x26_S4096x26_0_1 (broadcastInDim S1x26 ![1] bcast_S26_S1x26_1 (muli (iotaInDim S26 32 0) (broadcastInDim S26 ![] bcast_S_S26 (constantI S_ 32 100000#32)))) (ix2 _ j)) = _
  rw [offsets_apply]
  rfl

/-- The clamped index there: the signed minimum of the offset index with `2599935`. -/
theorem clamped_read (j : Fin 26) :
    rdW (o10 m d) (3328 * w.val + 128 * j.val + r.val)
      = IntOp.minsi (rdW (o8 m d) (3328 * w.val + 128 * j.val + r.val)) 2599935#32 := by
  have hlt : 3328 * w.val + 128 * j.val + r.val < 106496 := by have := w.isLt; have := j.isLt; have := r.isLt; omega
  rw [rdW_of_lt _ hlt, rdW_of_lt _ hlt, o10_apply]

/-- Sequence token `s` of row `128 · w + r`. -/
theorem seq_read (j : Fin 200) :
    rdW (o13 m d) (25600 * w.val + 128 * j.val + r.val) = a2 m d (ix2 (⟨128 * w.val + r.val, by omega⟩ : Fin 4096) j) := by
  rw [rdW_of_lt _ (by have := w.isLt; have := j.isLt; have := r.isLt; omega), o13_eq]
  exact permute_apply _ _ _ _ w j r _ (by show 25600 * w.val + 128 * j.val + r.val = (w.val * 200 + j.val) * 128 + r.val; omega)
    _ (by show 128 * w.val + r.val = w.val * 128 + r.val; omega)

omit w r in
/-- The cut token table's row `n` is the token table's. -/
theorem cutTok_read (n : Nat) (h : n < 2599936) :
    rdF (o18 m d) n = a3 m d (ix2 (⟨n, by omega⟩ : Fin 2600000) (0 : Fin 1)) := by
  rw [rdF_of_lt _ h, o18_eq]
  exact cut_apply _ _ _ (⟨n, h⟩ : Fin 2599936) (by show n < 2600000; omega)

omit w r in
/-- The cut sequence table's row `k` is the sequence table's. -/
theorem cutSeq_read (k : Nat) (h : k < 99968) :
    rdF (o20 m d) k = a5 m d (ix2 (⟨k, by omega⟩ : Fin 100000) (0 : Fin 1)) := by
  rw [rdF_of_lt _ h, o20_eq]
  exact cut_apply _ _ _ (⟨k, h⟩ : Fin 99968) (by show k < 100000; omega)

omit w r in
/-- Entries `0 … 63` of the row: the token table's last 64 rows. -/
theorem auxTok_read (c : Nat) (hc : c < 64) :
    auxAt (o28 m d) c = a3 m d (ix2 (⟨2599936 + c, by omega⟩ : Fin 2600000) (0 : Fin 1)) := by
  rw [auxAt_of_lt _ (by omega), o28_eq, aux_piece0 _ _ _ _ _ _ c (Nat.zero_le c) hc]
  exact tail_apply 2599936 _ _ _ (⟨c, hc⟩ : Fin 64) (by show 2599936 + c < 2600000; omega)

omit w r in
/-- Entries `64 … 95` of the row: the sequence table's last 32 rows. -/
theorem auxSeq_read (c : Nat) (hc : c < 32) :
    auxAt (o28 m d) (64 + c) = a5 m d (ix2 (⟨99968 + c, by omega⟩ : Fin 100000) (0 : Fin 1)) := by
  rw [auxAt_of_lt _ (by omega), o28_eq, aux_piece1 _ _ _ _ _ _ (64 + c) (by omega) (by omega)]
  have e : (⟨64 + c - 64, by omega⟩ : Fin 32) = ⟨c, hc⟩ := Fin.ext (by show 64 + c - 64 = c; omega)
  rw [e]
  exact tail_apply 99968 _ _ _ (⟨c, hc⟩ : Fin 32) (by show 99968 + c < 100000; omega)

omit w r in
/-- Entries `96 … 108` of the row: the 13 weights. -/
theorem auxWeight_read (j : Fin 13) : auxAt (o28 m d) (96 + j.val) = a4 m d (ix2 j (0 : Fin 1)) := by
  have hj := j.isLt
  rw [auxAt_of_lt _ (by omega), o28_eq, aux_piece2 _ _ _ _ _ _ (96 + j.val) (by omega) (by omega)]
  have e : (⟨96 + j.val - 96, by omega⟩ : Fin 13) = j := Fin.ext (by show 96 + j.val - 96 = j.val; omega)
  rw [e]
  exact asRow_apply _ _ j

omit w r in
/-- Entry `109` of the row: the bias. -/
theorem auxBias_read : auxAt (o28 m d) 109 = a6 m d (ix1 (0 : Fin 1)) := by
  rw [auxAt_of_lt _ (by omega), o28_eq, aux_piece3 _ _ _ _ _ _ 109 (Nat.le_refl _) (by omega)]
  exact broadcastInDim_apply _ _ _ _ (ix1 (0 : Fin 1)) (fun a => by
    match a with
    | ⟨0, _⟩ => rfl)

end Cert.Proof.KVal

end
-- ==== Proof.KValWords.lean ====
/-
  The word facts behind the kernel's two table reads. A token's offset index `n` is below `2600000`: the signed test
  `n ≥ 2599936` is the unsigned one; where it holds, `max (n − 2599936) 0` is `n − 2599936`, the position in the tail;
  where it fails, the signed minimum with `2599935` is `n` itself, the position in the cut table. So the selected read is
  the shared table's row `n` either way. The sequence table as the subcore patches it — row `0` zeroed, the rows from the cut
  `99968` on taken from the tail — is the masked table.
-/
import proofs.«207587_g45655502356657_cont_8to1c4_548_39_alg».proof.Proof.RefWords
import proofs.«207587_g45655502356657_cont_8to1c4_548_39_alg».proof.Proof.KValDef
import proofs.«207587_g45655502356657_cont_8to1c4_548_39_alg».proof.Proof.Spec

noncomputable section

namespace Cert.Proof.KVal

open Idealize.ShloMosaic Idealize.ShloMosaic.ValueIdx Cert.Proof.Ref

/-- The signed test against the cut is the test on the number. -/
theorem sge_cut_iff (ids : BitVec 32) (h : ids.toNat < 2147483648) :
    IntOp.cmpi .sge ids 2599936#32 = 1#1 ↔ 2599936 ≤ ids.toNat := by
  have e : (2599936#32 : BitVec 32).toInt = 2599936 := by decide
  rw [IntOp.cmpi_sge, toInt_of_lt h, e]
  omega

/-- Past the cut, the tail position: `max (n − 2599936) 0 = n − 2599936`. -/
theorem tail_index (ids : BitVec 32) (h1 : 2599936 ≤ ids.toNat) (h2 : ids.toNat < 2600000) :
    (IntOp.maxsi (IntOp.subi ids 2599936#32) 0#32).toNat = ids.toNat - 2599936 := by
  have hs : (IntOp.subi ids 2599936#32).toNat = ids.toNat - 2599936 := by
    show (ids - 2599936#32).toNat = _
    rw [BitVec.toNat_sub]
    have e : (2599936#32 : BitVec 32).toNat = 2599936 := rfl
    rw [e]
    omega
  unfold IntOp.maxsi
  split
  · exact hs
  · rename_i hn
    rw [BitVec.slt_iff_toInt_lt, toInt_of_lt (x := IntOp.subi ids 2599936#32) (by omega), BitVec.toInt_zero] at hn
    show (0#32 : BitVec 32).toNat = _
    have e0 : (0#32 : BitVec 32).toNat = 0 := rfl
    rw [e0]
    omega

/-- Before the cut, the clamp is idle: the signed minimum with `2599935` is the index. -/
theorem clamp_index (ids : BitVec 32) (h : ids.toNat < 2599936) : (IntOp.minsi ids 2599935#32).toNat = ids.toNat := by
  unfold IntOp.minsi
  split
  · rfl
  · rename_i hn
    have e : (2599935#32 : BitVec 32).toInt = 2599935 := by decide
    rw [BitVec.slt_iff_toInt_lt, toInt_of_lt (x := ids) (by omega), e] at hn
    have e2 : (2599935#32 : BitVec 32).toNat = 2599935 := rfl
    rw [e2]
    omega

/-- THE TOKEN READ: with the cut table and the tail both reading the shared table `tt`, the kernel's selected value at an
    offset index below `2600000` is the table's row there. -/
theorem tok_select (tt : FVec Ideal ⟨2, ![2600000, 1]⟩ .f32) (ids clamped : BitVec 32) (hn : ids.toNat < 2600000)
    (hcl : clamped = IntOp.minsi ids 2599935#32) (tailv cutv : Nat → EReal)
    (htail : ∀ c (hc : c < 64), tailv c = tt (ix2 (⟨2599936 + c, by omega⟩ : Fin 2600000) (0 : Fin 1)))
    (hcut : ∀ n (h : n < 2599936), cutv n = tt (ix2 (⟨n, by omega⟩ : Fin 2600000) (0 : Fin 1))) :
    Scalar.select (IntOp.cmpi .sge ids 2599936#32)
        (tailv (IntOp.maxsi (IntOp.subi ids 2599936#32) 0#32).toNat) (cutv clamped.toNat)
      = Cert.FmSpec.tokAt tt ids.toNat := by
  unfold Cert.FmSpec.tokAt
  rw [dif_pos hn]
  by_cases hge : 2599936 ≤ ids.toNat
  · rw [(sge_cut_iff ids (by omega)).2 hge, select_one, tail_index ids hge hn, htail _ (by omega)]
    exact congrArg tt (congrArg (fun r : Fin 2600000 => ix2 r (0 : Fin 1)) (Fin.ext (by show 2599936 + (ids.toNat - 2599936) = ids.toNat; omega)))
  · have hlt : ids.toNat < 2599936 := by omega
    rw [eq_zero_of_ne_one (fun h => hge ((sge_cut_iff ids (by omega)).1 h)), select_zero, hcl, clamp_index ids hlt,
      hcut _ hlt]

/-- THE SEQUENCE READ: with the cut table and the tail both reading the sequence table `st`, the patched table at a token
    below `100000` is the masked table. -/
theorem stab_eq_seqAt (st : FVec Ideal ⟨2, ![100000, 1]⟩ .f32) (f20 : FVec Ideal ⟨1, ![99968]⟩ .f32)
    (f28 : FVec Ideal ⟨2, ![1, 128]⟩ .f32) (n : Nat) (hn : n < 100000)
    (hcut : ∀ k (h : k < 99968), rdF f20 k = st (ix2 (⟨k, by omega⟩ : Fin 100000) (0 : Fin 1)))
    (htail : ∀ c (h : c < 32), auxAt f28 (64 + c) = st (ix2 (⟨99968 + c, by omega⟩ : Fin 100000) (0 : Fin 1))) :
    stab f20 f28 n = Cert.FmSpec.seqAt st n := by
  unfold stab Cert.FmSpec.seqAt
  by_cases h0 : n = 0
  · rw [if_pos h0, if_pos h0]
  · rw [if_neg h0, if_neg h0, dif_pos hn]
    by_cases hc : n < 99968
    · rw [if_pos hc, hcut n hc]
    · rw [if_neg hc, htail (n - 99968) (by omega)]
      exact congrArg st (congrArg (fun r : Fin 100000 => ix2 r (0 : Fin 1)) (Fin.ext (by show 99968 + (n - 99968) = n; omega)))

end Cert.Proof.KVal

end
-- ==== Proof.KVal.lean ====
/-
  (K2) The kernel's score is the specification's. With the operands the host side builds from the arguments, and every token
  inside its vocabulary: the weight times the float field is the specification's term; the selected token read — cut table
  or tail — is the shared table's row at `token + 100000 · field`; the patched sequence table is the masked one. The kernel
  adds bias first and then the three groups, the specification the three groups and then the bias: one re-association and one
  exchange of two summands in the extended reals.
-/
import proofs.«207587_g45655502356657_cont_8to1c4_548_39_alg».proof.Proof.KValHost
import proofs.«207587_g45655502356657_cont_8to1c4_548_39_alg».proof.Proof.KValWords

noncomputable section

namespace Cert.Proof.KVal

open Cert.KernelIdeal Cert.KernelIdeal.Gen Cert.Proof.LaunchKernelIdeal
open Idealize.ShloMosaic Idealize.ShloMosaic.ValueIdx Cert.Proof.Ref
open scoped BigOperators

variable (m : (ℓ : Loc nD τ sig) → Buf (Elt Ideal) ℓ) (d : Dev nD)

/-- Float field `j`'s term is the specification's. -/
theorem fltTerm_eq (b : Fin 4096) (j : Fin 13) :
    fltTerm (o16 m d) (o28 m d) (b.val / 128) (b.val % 128) j.val = a4 m d (ix2 j (0 : Fin 1)) * a0 m d (ix2 b j) := by
  have hb := b.isLt
  have h1 : rdF (o16 m d) (1664 * (b.val / 128) + 128 * j.val + b.val % 128) = a0 m d (ix2 b j) :=
    (flt_read m d (⟨b.val / 128, by omega⟩ : Fin 32) (⟨b.val % 128, by omega⟩ : Fin 128) j).trans (congrArg (fun q : Fin 4096 => a0 m d (ix2 q j)) (Fin.ext (by show 128 * (b.val / 128) + b.val % 128 = b.val; omega)))
  unfold fltTerm
  rw [auxWeight_read m d j, h1]

/-- Token field `j`'s term is the shared table's row at the field's offset index. -/
theorem tokTerm_eq (hR : Cert.FmSpec.InRange (a1 m d) (a2 m d)) (b : Fin 4096) (j : Fin 26) :
    tokTerm (o8 m d) (o10 m d) (o18 m d) (o28 m d) (b.val / 128) (b.val % 128) j.val
      = Cert.FmSpec.tokAt (a3 m d) ((a1 m d (ix2 b j)).toNat + 100000 * j.val) := by
  have hb := b.isLt
  have hj := j.isLt
  have ht := hR.1 (ix2 b j)
  have hid : rdW (o8 m d) (3328 * (b.val / 128) + 128 * j.val + b.val % 128)
      = IntOp.addi (a1 m d (ix2 b j)) (IntOp.muli (BitVec.ofNat 32 j.val) 100000#32) :=
    (ids_read m d (⟨b.val / 128, by omega⟩ : Fin 32) (⟨b.val % 128, by omega⟩ : Fin 128) j).trans
      (congrArg (fun q : Fin 4096 => IntOp.addi (a1 m d (ix2 q j)) (IntOp.muli (BitVec.ofNat 32 j.val) 100000#32)) (Fin.ext (by show 128 * (b.val / 128) + b.val % 128 = b.val; omega)))
  have hcl : rdW (o10 m d) (3328 * (b.val / 128) + 128 * j.val + b.val % 128)
      = IntOp.minsi (rdW (o8 m d) (3328 * (b.val / 128) + 128 * j.val + b.val % 128)) 2599935#32 :=
    clamped_read m d (⟨b.val / 128, by omega⟩ : Fin 32) (⟨b.val % 128, by omega⟩ : Fin 128) j
  have hn : (rdW (o8 m d) (3328 * (b.val / 128) + 128 * j.val + b.val % 128)).toNat
      = (a1 m d (ix2 b j)).toNat + 100000 * j.val := by
    rw [hid]; exact offset_toNat ht hj
  unfold tokTerm
  rw [tok_select (a3 m d) _ _ (by rw [hn]; omega) hcl (auxAt (o28 m d)) (rdF (o18 m d))
    (fun c hc => auxTok_read m d c hc) (fun n h => cutTok_read m d n h), hn]

/-- Sequence token `s`'s term is the masked sequence table's row. -/
theorem seqTerm_eq (hR : Cert.FmSpec.InRange (a1 m d) (a2 m d)) (b : Fin 4096) (s : Fin 200) :
    seqTerm (o13 m d) (o20 m d) (o28 m d) (b.val / 128) (b.val % 128) s.val
      = Cert.FmSpec.seqAt (a5 m d) (a2 m d (ix2 b s)).toNat := by
  have hb := b.isLt
  have hq : rdW (o13 m d) (25600 * (b.val / 128) + 128 * s.val + b.val % 128) = a2 m d (ix2 b s) :=
    (seq_read m d (⟨b.val / 128, by omega⟩ : Fin 32) (⟨b.val % 128, by omega⟩ : Fin 128) s).trans (congrArg (fun q : Fin 4096 => a2 m d (ix2 q s)) (Fin.ext (by show 128 * (b.val / 128) + b.val % 128 = b.val; omega)))
  unfold seqTerm
  rw [hq]
  exact stab_eq_seqAt (a5 m d) (o20 m d) (o28 m d) _ (hR.2 _) (fun k h => cutSeq_read m d k h)
    (fun c h => auxSeq_read m d c h)

/-- (K2) THE KERNEL'S SCORE OF A BATCH ROW IS THE SPECIFICATION'S. -/
theorem kernelRow_eq_score (hR : Cert.FmSpec.InRange (a1 m d) (a2 m d)) (b : Fin 4096) :
    kernelRow (o8 m d) (o10 m d) (o13 m d) (o16 m d) (o18 m d) (o20 m d) (o28 m d) b
      = Cert.FmSpec.rowScore (a0 m d) (a1 m d) (a2 m d) (a3 m d) (a4 m d) (a5 m d) (a6 m d) b := by
  have eF : (∑ j : Fin 13, fltTerm (o16 m d) (o28 m d) (b.val / 128) (b.val % 128) j.val)
      = ∑ j : Fin 13, a4 m d (ix2 j (0 : Fin 1)) * a0 m d (ix2 b j) :=
    Finset.sum_congr rfl (fun j _ => fltTerm_eq m d b j)
  have eT : (∑ j : Fin 26, tokTerm (o8 m d) (o10 m d) (o18 m d) (o28 m d) (b.val / 128) (b.val % 128) j.val)
      = ∑ j : Fin 26, Cert.FmSpec.tokAt (a3 m d) ((a1 m d (ix2 b j)).toNat + 100000 * j.val) :=
    Finset.sum_congr rfl (fun j _ => tokTerm_eq m d hR b j)
  have eS : (∑ s : Fin 200, seqTerm (o13 m d) (o20 m d) (o28 m d) (b.val / 128) (b.val % 128) s.val)
      = ∑ s : Fin 200, Cert.FmSpec.seqAt (a5 m d) (a2 m d (ix2 b s)).toNat :=
    Finset.sum_congr rfl (fun s _ => seqTerm_eq m d hR b s)
  rw [kernelRow_eq_sums, auxBias_read, Finset.sum_range, Finset.sum_range, Finset.sum_range, eF, eT, eS]
  unfold Cert.FmSpec.rowScore Cert.FmSpec.fltScore Cert.FmSpec.tokScore Cert.FmSpec.seqScore
  rw [add_assoc (a6 m d (ix1 (0 : Fin 1))), add_assoc (a6 m d (ix1 (0 : Fin 1))), add_comm (a6 m d (ix1 (0 : Fin 1)))]

/-- The same as arrays: the kernel's scores, row by row, are the specification's result. -/
theorem kernelRow_eq_score_fun (hR : Cert.FmSpec.InRange (a1 m d) (a2 m d)) :
    (fun i : S4096x1.Idx => kernelRow (o8 m d) (o10 m d) (o13 m d) (o16 m d) (o18 m d) (o20 m d) (o28 m d) (⟨(i 0).val, (i 0).isLt⟩ : Fin 4096))
      = Cert.FmSpec.score (a0 m d) (a1 m d) (a2 m d) (a3 m d) (a4 m d) (a5 m d) (a6 m d) :=
  funext fun i => kernelRow_eq_score m d hR _

end Cert.Proof.KVal

end
-- ==== Proof.TileKernel.lean ====
import proofs.«207587_g45655502356657_cont_8to1c4_548_39_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207587_g45655502356657_cont_8to1c4_548_39_alg».proof.Proof.Gen.Kernel
import proofs.«207587_g45655502356657_cont_8to1c4_548_39_alg».proof.Proof.Gen.Kernel.Skeleton
import proofs.«207587_g45655502356657_cont_8to1c4_548_39_alg».proof.Proof.IdxFacts

noncomputable section

namespace Cert.Proof.TileKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-! ## One vector subcore's task

The task of the vector subcore at grid point `L = (core, subcore)`, worker number `w = 2·subcore + core`: it reads rows
`[128·w, 128·w + 128)` of the batch — its stretch of the permuted token indices (clamped and unclamped), of the
permuted sequence indices (eight chunks of 25 positions) and of the permuted float fields —, the two tables and the
128-word row of table tails, weights and bias, and writes the 128 scores of its rows. -/

section Tile
variable (d : Dev nD) (L : grid0.Coords)
abbrev cV (L : grid0.Coords) : Fin τ.nSC := (L 0).castLE hcore0
abbrev jV (L : grid0.Coords) : Fin τ.nSub := (L 1).castLE hsub0

/-- The 128 scores the task at `L` writes: its stretch of the result array, as the task slices it. -/
abbrev oS (L : grid0.Coords) : Memref sig .scVector .hbm S128 .f32 :=
  (Memref.whole main_v29_scv : Memref sig .scVector .hbm S4096 .f32).slice (Rect.unit (s := S4096) (k0_off69 L) S128.size (k0_off69_inb L)) (fun _ => rfl)

omit [FloatOps F] in
/-- The nine scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := (Proc.scVector (cV L) (jV L))) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := (Proc.scVector (cV L) (jV L))) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := (Proc.scVector (cV L) (jV L))) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := (Proc.scVector (cV L) (jV L))) (b := ((Proc.scVector (cV L) (jV L)).devRef cc0_scratch8)) rfl⟩⟩⟩⟩⟩⟩⟩⟩)]

omit [FloatOps F] in
/-- The ten DMA semaphores (five of the kernel's scratch, five of its scoped regions) are among the subcore's own cells. -/
theorem ownSems0_V :
    (ownSems0 (V d (cV L) (jV L)) : sProp 𝕄)
      = iprop(semVal (((V d (cV L) (jV L)), SemLoc.dma cc0_scratch9.sem) : GSem nD τ sig) 0 ∗ semVal (((V d (cV L) (jV L)), SemLoc.dma cc0_scratch10.sem) : GSem nD τ sig) 0 ∗ semVal (((V d (cV L) (jV L)), SemLoc.dma cc0_scratch11.sem) : GSem nD τ sig) 0 ∗ semVal (((V d (cV L) (jV L)), SemLoc.dma cc0_scratch12.sem) : GSem nD τ sig) 0 ∗ semVal (((V d (cV L) (jV L)), SemLoc.dma cc0_scratch13.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0 ∗ semVal (((V d (cV L) (jV L)), SemLoc.dma cc0_scoped2.sem) : GSem nD τ sig) 0 ∗ semVal (((V d (cV L) (jV L)), SemLoc.dma cc0_scoped3.sem) : GSem nD τ sig) 0 ∗ semVal (((V d (cV L) (jV L)), SemLoc.dma cc0_scoped4.sem) : GSem nD τ sig) 0
          ∗ bigSep (((((((((((ownCells (V d (cV L) (jV L))).erase (((V d (cV L) (jV L)), SemLoc.dma cc0_scratch9.sem) : GSem nD τ sig)).erase (((V d (cV L) (jV L)), SemLoc.dma cc0_scratch10.sem) : GSem nD τ sig)).erase (((V d (cV L) (jV L)), SemLoc.dma cc0_scratch11.sem) : GSem nD τ sig)).erase (((V d (cV L) (jV L)), SemLoc.dma cc0_scratch12.sem) : GSem nD τ sig)).erase (((V d (cV L) (jV L)), SemLoc.dma cc0_scratch13.sem) : GSem nD τ sig)).erase (((V d (cV L) (jV L)), SemLoc.dma cc0_scoped0.sem) : GSem nD τ sig)).erase (((V d (cV L) (jV L)), SemLoc.dma cc0_scoped1.sem) : GSem nD τ sig)).erase (((V d (cV L) (jV L)), SemLoc.dma cc0_scoped2.sem) : GSem nD τ sig)).erase (((V d (cV L) (jV L)), SemLoc.dma cc0_scoped3.sem) : GSem nD τ sig)).erase (((V d (cV L) (jV L)), SemLoc.dma cc0_scoped4.sem) : GSem nD τ sig))
              fun g => semVal g 0) := by
  unfold SparseCore.Cfg.ownSems0
  rw [SparseCore.bigSep_erase' ((mem_ownCells (g := (((V d (cV L) (jV L)), SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (Prod.mk.inj e).2 (by decide), (mem_ownCells (g := (((V d (cV L) (jV L)), SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch11.sem) : GSem nD τ sig))).mpr ⟨rfl, by show (SemLoc.dma cc0_scratch11.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch12.sem) : GSem nD τ sig))).mpr ⟨rfl, by show (SemLoc.dma cc0_scratch12.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scratch13.sem) : GSem nD τ sig))).mpr ⟨rfl, by show (SemLoc.dma cc0_scratch13.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped2.sem) : GSem nD τ sig))).mpr ⟨rfl, by show (SemLoc.dma cc0_scoped2.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped3.sem) : GSem nD τ sig))).mpr ⟨rfl, by show (SemLoc.dma cc0_scoped3.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (((V d (cV L) (jV L)), SemLoc.dma cc0_scoped4.sem) : GSem nD τ sig))).mpr ⟨rfl, by show (SemLoc.dma cc0_scoped4.sem : SemLoc sig).isScoped .scVector = true; decide⟩⟩⟩⟩⟩⟩⟩⟩⟩⟩)]

/-- What the three index arrays must satisfy for the task's indexed accesses to stay inside their tables: the clamped
    token indices name rows of the cut token table, the unclamped ones rows of the whole token table, the sequence
    indices rows of the sequence table. -/
def IdxOK (f10 : Buf (Elt F) ((Memref.whole main_v10_scv : Memref sig .scVector .hbm S106496 .i32).view.loc (V d (cV L) (jV L))))
    (f8 : Buf (Elt F) ((Memref.whole main_v8_scv : Memref sig .scVector .hbm S106496 .i32).view.loc (V d (cV L) (jV L))))
    (f13 : Buf (Elt F) ((Memref.whole main_v13_scv : Memref sig .scVector .hbm S819200 .i32).view.loc (V d (cV L) (jV L)))) : Prop :=
  (∀ x, (f10 x).toNat < 2599936) ∧ (∀ x, (f8 x).toNat < 2600000) ∧ (∀ x, (f13 x).toNat < 100000)

/-- The first half of the sequence-table scratch, as the task's first table copy slices it. -/
abbrev sA : Memref sig .scVector .vmem S49984 .f32 :=
  (Memref.whole cc0_scratch3 : Memref sig .scVector .vmem S100000 .f32).slice (Rect.unit (s := S100000) ![0] S49984.size inb_S100000_S49984_0) (fun _ => rfl)
/-- Its second half, as the second table copy slices it. -/
abbrev sB : Memref sig .scVector .vmem S49984 .f32 :=
  (Memref.whole cc0_scratch3 : Memref sig .scVector .vmem S100000 .f32).slice (Rect.unit (s := S100000) ![49984] S49984.size inb_S100000_S49984_49984) (fun _ => rfl)

omit [FloatOps F] in
/-- A half's elements, addressed through the half's own memref or through the whole scratch: one assertion. -/
theorem pts_sA (f : Buf (Elt F) ((Memref.whole cc0_scratch3 : Memref sig .scVector .vmem S100000 .f32).view.loc (V d (cV L) (jV L)))) :
    ((sA : Memref sig .scVector .vmem S49984 .f32).view.loc (V d (cV L) (jV L)) ↦[(sA : Memref sig .scVector .vmem S49984 .f32).view.set]{fullShare} f : sProp 𝕄)
      = ((Memref.whole cc0_scratch3 : Memref sig .scVector .vmem S100000 .f32).view.loc (V d (cV L) (jV L)) ↦[(sA : Memref sig .scVector .vmem S49984 .f32).view.set]{fullShare} f) := rfl
omit [FloatOps F] in
theorem pts_sB (f : Buf (Elt F) ((Memref.whole cc0_scratch3 : Memref sig .scVector .vmem S100000 .f32).view.loc (V d (cV L) (jV L)))) :
    ((sB : Memref sig .scVector .vmem S49984 .f32).view.loc (V d (cV L) (jV L)) ↦[(sB : Memref sig .scVector .vmem S49984 .f32).view.set]{fullShare} f : sProp 𝕄)
      = ((Memref.whole cc0_scratch3 : Memref sig .scVector .vmem S100000 .f32).view.loc (V d (cV L) (jV L)) ↦[(sB : Memref sig .scVector .vmem S49984 .f32).view.set]{fullShare} f) := rfl

omit [FloatOps F] in
/-- Whatever a buffer holds, it holds something. -/
theorem pts_ex {ℓ : Loc nD τ sig} {q : PosShare TreeShare} (f : Buf (Elt F) ℓ) : (ℓ ↦{q} f : sProp 𝕄) ⊢ iprop(∃ g, ℓ ↦{q} g) := by
  iintro H; iexists _; iexact H

/-- The two halves are disjoint: words [0, 49984) and [49984, 99968). -/
theorem sB_sub : (sB : Memref sig .scVector .vmem S49984 .f32).view.set ⊆ Finset.univ \ (sA : Memref sig .scVector .vmem S49984 .f32).view.set := by
  refine Finset.subset_sdiff.mpr ⟨Finset.subset_univ _, ?_⟩
  have eA : (sA : Memref sig .scVector .vmem S49984 .f32).view.set = (Rect.unit (s := S100000) ![0] S49984.size inb_S100000_S49984_0).set :=
    View.set_slice_whole (cc0_scratch3 : Ref sig .scVector) _
  have eB : (sB : Memref sig .scVector .vmem S49984 .f32).view.set = (Rect.unit (s := S100000) ![49984] S49984.size inb_S100000_S49984_49984).set :=
    View.set_slice_whole (cc0_scratch3 : Ref sig .scVector) _
  rw [eA, eB]
  exact Rect.unit_disjoint 0 (Or.inr (by decide))

omit [FloatOps F] in
/-- One more wait on one of the task's own semaphores keeps the record of waits of the admitted kind. -/
theorem ins_ok {W W' : Waits sig (HIx 1)} {s : SemLoc sig} (h : ∀ p ∈ W', p ∈ W ∨ p.2 = none) :
    ∀ p ∈ insert (s, (none : HIx 1)) W', p ∈ W ∨ p.2 = none := by
  intro p hp
  rcases Finset.mem_insert.mp hp with rfl | hp
  · exact .inr rfl
  · exact h p hp

set_option maxHeartbeats 8000000 in
set_option sl_exec.dischHeartbeats 400000 in
/-- The task, from a read share of each of the seven operand arrays, its stretch of the result array, its scratch and
    its semaphores at zero: it ends, with everything handed back and its stretch of the result array written. -/
theorem tile_body (O : CellTallies nD τ sig (HIx 1)) (W : Waits sig (HIx 1)) (hO : ∀ g, O g none = 0)
    (q10 : PosShare TreeShare) (f10 : Buf (Elt F) ((Memref.whole main_v10_scv : Memref sig .scVector .hbm S106496 .i32).view.loc (V d (cV L) (jV L))))
    (q8 : PosShare TreeShare) (f8 : Buf (Elt F) ((Memref.whole main_v8_scv : Memref sig .scVector .hbm S106496 .i32).view.loc (V d (cV L) (jV L))))
    (q13 : PosShare TreeShare) (f13 : Buf (Elt F) ((Memref.whole main_v13_scv : Memref sig .scVector .hbm S819200 .i32).view.loc (V d (cV L) (jV L))))
    (q16 : PosShare TreeShare) (f16 : Buf (Elt F) ((Memref.whole main_v16_scv : Memref sig .scVector .hbm S53248 .f32).view.loc (V d (cV L) (jV L))))
    (q18 : PosShare TreeShare) (f18 : Buf (Elt F) ((Memref.whole main_v18_scv : Memref sig .scVector .hbm S2599936 .f32).view.loc (V d (cV L) (jV L))))
    (q20 : PosShare TreeShare) (f20 : Buf (Elt F) ((Memref.whole main_v20_scv : Memref sig .scVector .hbm S99968 .f32).view.loc (V d (cV L) (jV L))))
    (q28 : PosShare TreeShare) (f28 : Buf (Elt F) ((Memref.whole main_v28_scv : Memref sig .scVector .hbm S1x128 .f32).view.loc (V d (cV L) (jV L))))
    (f29 : Buf (Elt F) ((oS L).view.loc (V d (cV L) (jV L))))
    (hidx : IdxOK d L f10 f8 f13) :
    (iprop(levAts (K (F := F)).L (K (F := F)).lev
        ∗ (((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
        ∗ ((oS L).view.loc (V d (cV L) (jV L)) ↦[(oS L).view.set]{fullShare} f29)
        ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
        ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
        ∗ owes (V d (cV L) (jV L)) O W) : sProp 𝕄)
      ⊢ wp frame (wpE (defs₀ (F := F)) 𝒱₀ (V d (cV L) (jV L)) none) Set.univ
          (cc0__fm_first_order L (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4)
          fun _ => (iprop((((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
            ∗ (∃ f, (oS L).view.loc (V d (cV L) (jV L)) ↦[(oS L).view.set]{fullShare} f)
            ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
            ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
            ∗ ∃ W', ⌜∀ p ∈ W', p ∈ W ∨ p.2 = none⌝ ∗ owes (V d (cV L) (jV L)) O W') : sProp 𝕄) := by
  iintro ⟨#Hlv, ⟨H10, H8, H13, H16, H18, H20, H28⟩, H29, ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩⟩, ⟨Hm0, Hm1, Hm2, Hm3, Hm4, Hm5, Hm6, Hm7, Hm8, Hm9⟩, HO⟩
  -- every wait of the task is on one of its own semaphores, at the kernels' index: admissible under whatever the subcore owes the launch
  ihave Hmw := ((K (F := F)).mayWaits_none (thr := (V d (cV L) (jV L))) hO) $$ Hlv
  -- the sequence-table scratch is held as the three pieces the program addresses while its halves are being copied:
  -- words [0, 49984), words [49984, 99968) and the 32-word tail, which the task fills from the 128-word row meanwhile
  ihave Hs3' := ((pointsTo_split_subset (I := (sA : Memref sig .scVector .vmem S49984 .f32).view.set) (Finset.subset_univ _)).1) $$ Hs3
  icases Hs3' with ⟨Hs3a0, Hs3r⟩
  ihave Hs3a := (Entails.of_eq (pts_sA (F := F) d L _).symm) $$ Hs3a0
  ihave Hs3r' := ((pointsTo_split_subset (I := (sB : Memref sig .scVector .vmem S49984 .f32).view.set) sB_sub).1) $$ Hs3r
  icases Hs3r' with ⟨Hs3b0, Hs3t⟩
  ihave Hs3b := (Entails.of_eq (pts_sB (F := F) d L _).symm) $$ Hs3b0
  sl_exec_parts
  -- the indirect gather's list is the stretch of clamped token indices that has just landed: each names a row of the cut token table
  have hin : ∀ j, ((Memref.whole cc0_scratch0 : Memref sig .scVector .vmem S3328 .i32).view.read (Elt F)
      (View.write (Elt F) (Memref.whole cc0_scratch0 : Memref sig .scVector .vmem S3328 .i32).view s0 (tile_body.sl.dma0_2 d L f10) Finset.univ) j).toNat
        < S2599936.size gathers_S2599936_S3328.axis := by
    intro j
    simp only [Memref.view_whole, View.write_whole_univ, View.read_whole]
    exact hidx.1 _
  -- the straight-line phase: the tail words and the fourteen weight words gathered from the 128-word row, the float fields' weighted
  -- sum, the wait for the gathered token values, the 208 token steps (a token index moved down by the cut and clamped at zero is a lane
  -- of the row: IdxFacts.tail_vec_lt), the waits for the two halves of the table. Each indexed load is a load of its whole scratch.
  repeat (sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x)); try unfold SparseCore.vectorLoadIdx)
  -- both halves have landed: the three pieces are the whole scratch again (its contents are whatever the pieces hold; the frame needs no more)
  ihave Hb := (Entails.of_eq (pts_sB (F := F) d L _)) $$ Hs3b
  ihave Hrt := (pointsTo_join_subset (ℓ := (Memref.whole cc0_scratch3 : Memref sig .scVector .vmem S100000 .f32).view.loc (V d (cV L) (jV L))) (I := (sB : Memref sig .scVector .vmem S49984 .f32).view.set) (S := Finset.univ \ (sA : Memref sig .scVector .vmem S49984 .f32).view.set) sB_sub) $$ [Hb Hs3t]
  · isplitl [Hb] <;> iassumption
  ihave Ha := (Entails.of_eq (pts_sA (F := F) d L _)) $$ Hs3a
  ihave Hs3 := (pointsTo_join_subset (ℓ := (Memref.whole cc0_scratch3 : Memref sig .scVector .vmem S100000 .f32).view.loc (V d (cV L) (jV L))) (I := (sA : Memref sig .scVector .vmem S49984 .f32).view.set) (S := Finset.univ) (Finset.subset_univ _)) $$ [Ha Hrt]
  · isplitl [Ha] <;> iassumption
  ihave Hs3x := (pts_ex _) $$ Hs3
  icases Hs3x with ⟨%g3, Hs3⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  -- the eight chunks of 25 sequence positions. A chunk's indices are words of the permuted sequence array, below 100 000, so every
  -- indexed load of the table is in range; the invariant keeps the chunk's buffer (at in-range contents) and the table's scratch.
  -- Between two chunks the buffer just read is refilled two chunks ahead and the other buffer's copy is awaited.
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch4 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs4 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs4]
    · iexists _; isplitr
      rotate_left
      · iexact Hs4
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL1 HI
  icases HI with ⟨⟨%bL1, %hbL1, Hs4⟩, ⟨%gL1, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch5 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs5 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs5]
    · iexists _; isplitr
      rotate_left
      · iexact Hs5
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL2 HI
  icases HI with ⟨⟨%bL2, %hbL2, Hs5⟩, ⟨%gL2, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch4 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs4 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs4]
    · iexists _; isplitr
      rotate_left
      · iexact Hs4
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL3 HI
  icases HI with ⟨⟨%bL3, %hbL3, Hs4⟩, ⟨%gL3, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch5 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs5 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs5]
    · iexists _; isplitr
      rotate_left
      · iexact Hs5
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL4 HI
  icases HI with ⟨⟨%bL4, %hbL4, Hs5⟩, ⟨%gL4, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch4 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs4 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs4]
    · iexists _; isplitr
      rotate_left
      · iexact Hs4
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL5 HI
  icases HI with ⟨⟨%bL5, %hbL5, Hs4⟩, ⟨%gL5, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch5 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs5 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs5]
    · iexists _; isplitr
      rotate_left
      · iexact Hs5
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL6 HI
  icases HI with ⟨⟨%bL6, %hbL6, Hs5⟩, ⟨%gL6, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch4 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs4 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs4]
    · iexists _; isplitr
      rotate_left
      · iexact Hs4
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL7 HI
  icases HI with ⟨⟨%bL7, %hbL7, Hs4⟩, ⟨%gL7, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (_ : Nat) (_ : FVec F S16 .f32 × FVec F S16 .f32 × FVec F S16 .f32 × FVec F S16 .f32 × FVec F S16 .f32 × FVec F S16 .f32 × FVec F S16 .f32 × FVec F S16 .f32) =>
      (iprop((∃ b, ⌜∀ x, (b x).toNat < 100000⌝ ∗ (Memref.whole cc0_scratch5 : Memref sig .scVector .vmem S3200 .i32).view.loc (V d (cV L) (jV L)) ↦{fullShare} b)
        ∗ (∃ g, (Memref.whole cc0_scratch3 : Memref sig .scVector .vmem S100000 .f32).view.loc (V d (cV L) (jV L)) ↦{fullShare} g)) : sProp 𝕄)) $$ [Hs5 Hs3]
  case region =>
    intro k acc
    iintro ⟨⟨%b, %hb, Hib⟩, ⟨%g, Hst⟩⟩
    iterate 4 (sl_exec_parts (disch := first
      | sl_decide
      | exact IdxFacts.one_in_table (fun x => by
          first
          | (simp only [View.readAt_apply, Memref.view_whole, View.read_whole]; exact hb _)
          | (sl_unfold_run_names; simp only [View.readAt_apply, Memref.view_whole, View.read_whole]; exact hb _))); try unfold SparseCore.vectorLoadIdx)
    sl_step
    isplitl [Hib]
    · iexists b; isplitr
      · ipureintro; exact hb
      · iexact Hib
    · iexists g; iexact Hst
  · isplitl [Hs5]
    · iexists _; isplitr
      rotate_left
      · iexact Hs5
      · ipureintro; intro x
        first
        | (simp only [Memref.view_whole, View.write_whole_univ]; exact hidx.2.2 _)
        | (sl_unfold_run_names; simp only [Memref.view_whole, View.write_whole_univ, ReadAs.apply_same]; exact hidx.2.2 _)
    · iexists _; iexact Hs3
  iintro %accL8 HI
  icases HI with ⟨⟨%bL8, %hbL8, Hs5⟩, ⟨%gL8, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  -- the 128 scores are stored and copied out; everything is handed back
  sl_step
  isplitl [H10 H8 H13 H16 H18 H20 H28]
  · skip
    isplitl [H10]; · iexact H10
    isplitl [H8]; · iexact H8
    isplitl [H13]; · iexact H13
    isplitl [H16]; · iexact H16
    isplitl [H18]; · iexact H18
    isplitl [H20]; · iexact H20
    iexact H28
  isplitl [H29]
  · iexists _; iexact H29
  isplitl [Hs0 Hs1 Hs2 Hs3 Hs4 Hs5 Hs6 Hs7 Hs8]
  · skip
    isplitl [Hs0]; · (iexists _; iexact Hs0)
    isplitl [Hs1]; · (iexists _; iexact Hs1)
    isplitl [Hs2]; · (iexists _; iexact Hs2)
    isplitl [Hs3]; · (iexists _; iexact Hs3)
    isplitl [Hs4]; · (iexists _; iexact Hs4)
    isplitl [Hs5]; · (iexists _; iexact Hs5)
    isplitl [Hs6]; · (iexists _; iexact Hs6)
    isplitl [Hs7]; · (iexists _; iexact Hs7)
    (iexists _; iexact Hs8)
  isplitl [Hm0 Hm1 Hm2 Hm3 Hm4 Hm5 Hm6 Hm7 Hm8 Hm9]
  · skip
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    iexact Hm9
  iexists _; isplitr
  rotate_left
  · iexact HO
  · ipureintro
    repeat (first | exact fun p hp => .inl hp | apply ins_ok)

end Tile

end Cert.Proof.TileKernel
end
-- ==== Proof.HostKernel.lean ====
/-
  @main's host side for the idealized kernel program: the operations that run on the TensorCore before the
  SparseCore call (index arithmetic, the three batch permutations, the table cuts and the row of tails, weights and
  bias), as a list the program is the run of; what the TensorCore's buffers hold once they have run, as a fold
  over that list from the launch memory; and the ranges of the three index operands there, from the ranges of the two
  integer arguments: the permuted `token + 100000 · field` stays below `2600000`, its signed minimum with
  `2599935` below `2599936`, the permuted sequence tokens below `100000`.
-/
import proofs.«207587_g45655502356657_cont_8to1c4_548_39_alg».proof.Proof.TileKernel
import Idealize.ShloMosaic.Lib.Pipeline.Frame
import Idealize.ShloMosaic.Lib.ValueIdx
import proofs.«207587_g45655502356657_cont_8to1c4_548_39_alg».proof.Proof.Spec

noncomputable section

namespace Cert.Proof.LaunchKernel

open Cert.Kernel Cert.Kernel.Gen
open Cert.Proof.TileKernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
/-- The host operations of @main before the SparseCore call, in order. -/
def opsPre : List (HloOp τ sig (Elt F)) :=
  [StableHlo.nullary main_v0 (iotaInDim S26 32 0),
   StableHlo.nullary main_c (constantI S_ 32 100000#32),
   StableHlo.unary main_c main_v1 (broadcastInDim S26 ![] bcast_S_S26 : (⟨S_, .i32⟩ : BufTy).Contents (Elt F) → (⟨S26, .i32⟩ : BufTy).Contents (Elt F)),
   StableHlo.binary main_v0 main_v1 main_v2 (muli : (⟨S26, .i32⟩ : BufTy).Contents (Elt F) → (⟨S26, .i32⟩ : BufTy).Contents (Elt F) → (⟨S26, .i32⟩ : BufTy).Contents (Elt F)),
   StableHlo.unary main_v2 main_v3 (broadcastInDim S1x26 ![1] bcast_S26_S1x26_1 : (⟨S26, .i32⟩ : BufTy).Contents (Elt F) → (⟨S1x26, .i32⟩ : BufTy).Contents (Elt F)),
   StableHlo.unary main_v3 main_v4 (broadcastInDim S4096x26 ![0, 1] bcast_S1x26_S4096x26_0_1 : (⟨S1x26, .i32⟩ : BufTy).Contents (Elt F) → (⟨S4096x26, .i32⟩ : BufTy).Contents (Elt F)),
   StableHlo.binary main_arg1 main_v4 main_v5 (addi : (⟨S4096x26, .i32⟩ : BufTy).Contents (Elt F) → (⟨S4096x26, .i32⟩ : BufTy).Contents (Elt F) → (⟨S4096x26, .i32⟩ : BufTy).Contents (Elt F)),
   StableHlo.reshape main_v5 main_v6 rfl shapeCasts_S4096x26_S32x128x26,
   StableHlo.unary main_v6 main_v7 ((transpose S32x26x128 [0, 2, 1] · transposes_S32x128x26_S32x26x128_0_2_1) : (⟨S32x128x26, .i32⟩ : BufTy).Contents (Elt F) → (⟨S32x26x128, .i32⟩ : BufTy).Contents (Elt F)),
   StableHlo.reshape main_v7 main_v8 rfl shapeCasts_S32x26x128_S106496,
   StableHlo.nullary main_c_0 (constantI S_ 32 2599935#32),
   StableHlo.unary main_c_0 main_v9 (broadcastInDim S106496 ![] bcast_S_S106496 : (⟨S_, .i32⟩ : BufTy).Contents (Elt F) → (⟨S106496, .i32⟩ : BufTy).Contents (Elt F)),
   StableHlo.binary main_v8 main_v9 main_v10 (minsi : (⟨S106496, .i32⟩ : BufTy).Contents (Elt F) → (⟨S106496, .i32⟩ : BufTy).Contents (Elt F) → (⟨S106496, .i32⟩ : BufTy).Contents (Elt F)),
   StableHlo.reshape main_arg2 main_v11 rfl shapeCasts_S4096x200_S32x128x200,
   StableHlo.unary main_v11 main_v12 ((transpose S32x200x128 [0, 2, 1] · transposes_S32x128x200_S32x200x128_0_2_1) : (⟨S32x128x200, .i32⟩ : BufTy).Contents (Elt F) → (⟨S32x200x128, .i32⟩ : BufTy).Contents (Elt F)),
   StableHlo.reshape main_v12 main_v13 rfl shapeCasts_S32x200x128_S819200,
   StableHlo.reshape main_arg0 main_v14 rfl shapeCasts_S4096x13_S32x128x13,
   StableHlo.unary main_v14 main_v15 ((transpose S32x13x128 [0, 2, 1] · transposes_S32x128x13_S32x13x128_0_2_1) : (⟨S32x128x13, .f32⟩ : BufTy).Contents (Elt F) → (⟨S32x13x128, .f32⟩ : BufTy).Contents (Elt F)),
   StableHlo.reshape main_v15 main_v16 rfl shapeCasts_S32x13x128_S53248,
   StableHlo.unary main_arg3 main_v17 ((extractStridedSlice S2599936x1 ![0, 0] · slices_S2600000x1_S2599936x1_0_0) : (⟨S2600000x1, .f32⟩ : BufTy).Contents (Elt F) → (⟨S2599936x1, .f32⟩ : BufTy).Contents (Elt F)),
   StableHlo.reshape main_v17 main_v18 rfl shapeCasts_S2599936x1_S2599936,
   StableHlo.unary main_arg5 main_v19 ((extractStridedSlice S99968x1 ![0, 0] · slices_S100000x1_S99968x1_0_0) : (⟨S100000x1, .f32⟩ : BufTy).Contents (Elt F) → (⟨S99968x1, .f32⟩ : BufTy).Contents (Elt F)),
   StableHlo.reshape main_v19 main_v20 rfl shapeCasts_S99968x1_S99968,
   StableHlo.unary main_arg3 main_v21 ((extractStridedSlice S64x1 ![2599936, 0] · slices_S2600000x1_S64x1_2599936_0) : (⟨S2600000x1, .f32⟩ : BufTy).Contents (Elt F) → (⟨S64x1, .f32⟩ : BufTy).Contents (Elt F)),
   StableHlo.unary main_v21 main_v22 ((transpose S1x64 [1, 0] · transposes_S64x1_S1x64_1_0) : (⟨S64x1, .f32⟩ : BufTy).Contents (Elt F) → (⟨S1x64, .f32⟩ : BufTy).Contents (Elt F)),
   StableHlo.unary main_arg5 main_v23 ((extractStridedSlice S32x1 ![99968, 0] · slices_S100000x1_S32x1_99968_0) : (⟨S100000x1, .f32⟩ : BufTy).Contents (Elt F) → (⟨S32x1, .f32⟩ : BufTy).Contents (Elt F)),
   StableHlo.unary main_v23 main_v24 ((transpose S1x32 [1, 0] · transposes_S32x1_S1x32_1_0) : (⟨S32x1, .f32⟩ : BufTy).Contents (Elt F) → (⟨S1x32, .f32⟩ : BufTy).Contents (Elt F)),
   StableHlo.unary main_arg4 main_v25 ((transpose S1x13 [1, 0] · transposes_S13x1_S1x13_1_0) : (⟨S13x1, .f32⟩ : BufTy).Contents (Elt F) → (⟨S1x13, .f32⟩ : BufTy).Contents (Elt F)),
   StableHlo.unary main_arg6 main_v26 (broadcastInDim S1x1 ![1] bcast_S1_S1x1_1 : (⟨S1, .f32⟩ : BufTy).Contents (Elt F) → (⟨S1x1, .f32⟩ : BufTy).Contents (Elt F)),
   StableHlo.nullary main_cst (constant S_ .f32 0x00000000#32),
   StableHlo.unary main_cst main_v27 (broadcastInDim S1x18 ![] bcast_S_S1x18 : (⟨S_, .f32⟩ : BufTy).Contents (Elt F) → (⟨S1x18, .f32⟩ : BufTy).Contents (Elt F)),
   StableHlo.nary ![main_v22, main_v24, main_v25, main_v26, main_v27] main_v28 (fun u => concatenate S1x128 1 [⟨S1x64, u 0⟩, ⟨S1x32, u 1⟩, ⟨S1x13, u 2⟩, ⟨S1x1, u 3⟩, ⟨S1x18, u 4⟩] concatenates_S1x64_S1x32_S1x13_S1x1_S1x18_S1x128_d1)]

/-- The one host operation after it. -/
def opPost : HloOp τ sig (Elt F) := StableHlo.reshape main_v29 main_v30 rfl shapeCasts_S4096_S4096x1

theorem main_eq (d : Dev nD) :
    main (F := F) d = (StableHlo.seq (opsPre (F := F)) >>= fun _ => (sc (F := F)).run d 0 >>= fun _ => StableHlo.seq [opPost (F := F)]) := rfl

/-- Every host operation touches TensorCore buffers only, and determines its results. -/
theorem opsPre_sub : (opsPre (F := F)).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.nullary_bufs_sub .., StableHlo.unary_bufs_sub .., StableHlo.binary_bufs_sub .., StableHlo.reshape_bufs_sub .., StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nary_bufs_sub ..⟩
theorem opsPre_fresh : ∀ op ∈ opsPre (F := F), op.fresh = ∅ := by
  intro _ h; (repeat (cases h with | head => rfl | tail _ h => ?_)); exact nomatch h
theorem opPost_sub : (opPost (F := F)).bufs ⊆ StableHlo.tcRefs τ sig := StableHlo.reshape_bufs_sub ..

/-! ## What the TensorCore's buffers hold at the call -/

variable (m : (ℓ : Loc nD τ sig) → Buf (Elt F) ℓ) (d : Dev nD)

/-- The device's buffers at the launch, as a valuation. -/
abbrev VL : Valuation τ sig (Elt F) := StableHlo.launchContents m d

/-- The device's buffers once the host operations before the call have run. -/
def VA : Valuation τ sig (Elt F) := StableHlo.after (opsPre (F := F)) (VL m d)

abbrev r8 : DevRef τ sig := Proc.devRef .tc (main_v8 : Ref sig .tc)
abbrev r10 : DevRef τ sig := Proc.devRef .tc (main_v10 : Ref sig .tc)
abbrev r13 : DevRef τ sig := Proc.devRef .tc (main_v13 : Ref sig .tc)

/-! A property of every element passes through the operations that only move elements. -/

omit [FloatOps F] in
theorem forall_shapeCast {s t : Shape} {α : Type} {P : α → Prop} (x : s.Idx → α) (h : s.ShapeCasts t) (hx : ∀ k, P (x k)) :
    ∀ j, P (shapeCast t x h j) := fun _ => hx _
omit [FloatOps F] in
theorem forall_transpose {s t : Shape} {α : Type} {P : α → Prop} (perm : List (Fin s.rank)) (x : s.Idx → α) (h : s.Transposes perm t)
    (hx : ∀ k, P (x k)) : ∀ j, P (transpose t perm x h j) := fun _ => hx _
omit [FloatOps F] in
theorem forall_broadcastInDim {s t : Shape} {α : Type} {P : α → Prop} (dims : Fin s.rank → Fin t.rank) (h : s.BroadcastsInDim t dims)
    (x : s.Idx → α) (hx : ∀ k, P (x k)) : ∀ j, P (broadcastInDim t dims h x j) := fun _ => hx _

omit [FloatOps F] in
/-- Field `j`'s offset into the shared table: `100000 · j`, for `j < 26`. -/
theorem fieldOff_le (k : S26.Idx) :
    (muli (iotaInDim S26 32 0) (broadcastInDim S26 ![] bcast_S_S26 (constantI S_ 32 100000#32)) k).toNat ≤ 2500000 := by
  have hk : (k 0).val < 26 := (k 0).isLt
  show (BitVec.ofNat 32 (k 0).val * 100000#32).toNat ≤ 2500000
  rw [BitVec.toNat_mul, BitVec.toNat_ofNat, BitVec.toNat_ofNat, Nat.mod_eq_of_lt (show (k 0).val < 2 ^ 32 by omega),
    Nat.mod_eq_of_lt (show 100000 < 2 ^ 32 by norm_num), Nat.mod_eq_of_lt (by omega)]
  omega

omit [FloatOps F] in
/-- The signed minimum with `2599935` of a word below `2600000` is below `2599936`. -/
theorem minsi_lt (a : BitVec 32) (ha : a.toNat < 2600000) : (IntOp.minsi a 2599935#32).toNat < 2599936 := by
  unfold IntOp.minsi
  split
  · rename_i h
    rw [BitVec.slt_iff_toInt_lt, BitVec.toInt_eq_toNat_of_lt (by omega)] at h
    have : (2599935#32 : BitVec 32).toInt = 2599935 := by decide
    omega
  · decide

theorem v8_lt (hR : ∀ i, (m (d, Proc.devRef .tc (main_arg1 : Ref sig .tc)) i).toNat < 100000) :
    ∀ x, (VA m d r8 x).toNat < 2600000 := by
  intro x
  unfold VA opsPre
  after_results_simp
  refine forall_shapeCast (P := fun w : BitVec 32 => w.toNat < 2600000) _ _ (fun k => ?_) x
  refine forall_transpose (P := fun w : BitVec 32 => w.toNat < 2600000) _ _ _ (fun k => ?_) k
  refine forall_shapeCast (P := fun w : BitVec 32 => w.toNat < 2600000) _ _ (fun k => ?_) k
  have hB := forall_broadcastInDim (P := fun w : BitVec 32 => w.toNat ≤ 2500000) _ bcast_S1x26_S4096x26_0_1 _
    (forall_broadcastInDim (P := fun w : BitVec 32 => w.toNat ≤ 2500000) _ bcast_S26_S1x26_1 _ fieldOff_le) k
  have hA : (VL m d (Proc.devRef .tc (main_arg1 : Ref sig .tc)) k).toNat < 100000 := hR k
  show (_ + _ : BitVec 32).toNat < 2600000
  rw [BitVec.toNat_add]
  simp only at hB
  omega

theorem v10_lt (hR : ∀ i, (m (d, Proc.devRef .tc (main_arg1 : Ref sig .tc)) i).toNat < 100000) :
    ∀ x, (VA m d r10 x).toNat < 2599936 := by
  intro x
  have h8 := v8_lt m d hR x
  have e : VA m d r10 x = IntOp.minsi (VA m d r8 x) 2599935#32 := by
    unfold VA opsPre
    after_results_simp
    rfl
  rw [e]; exact minsi_lt _ h8

theorem v13_lt (hR : ∀ i, (m (d, Proc.devRef .tc (main_arg2 : Ref sig .tc)) i).toNat < 100000) :
    ∀ x, (VA m d r13 x).toNat < 100000 := by
  intro x
  unfold VA opsPre
  after_results_simp
  refine forall_shapeCast (P := fun w : BitVec 32 => w.toNat < 100000) _ _ (fun k => ?_) x
  refine forall_transpose (P := fun w : BitVec 32 => w.toNat < 100000) _ _ _ (fun k => ?_) k
  exact forall_shapeCast (P := fun w : BitVec 32 => w.toNat < 100000) _ _ hR k

/-- With both integer arguments below the vocabulary size, every index the tasks use names a row of its table. -/
theorem idxOK (L : grid0.Coords) (hR : Cert.FmSpec.InRange (m (d, Proc.devRef .tc (main_arg1 : Ref sig .tc))) (m (d, Proc.devRef .tc (main_arg2 : Ref sig .tc)))) :
    IdxOK d L (VA m d r10) (VA m d r8) (VA m d r13) :=
  ⟨v10_lt m d hR.1, v8_lt m d hR.1, v13_lt m d hR.2⟩

/-- No host operation writes an argument array: at the call each still holds its launch contents. -/
theorem VA_arg0 : VA m d (Proc.devRef .tc (main_arg0 : Ref sig .tc)) = m (d, Proc.devRef .tc (main_arg0 : Ref sig .tc)) := by
  unfold VA opsPre; after_results_simp
theorem VA_arg1 : VA m d (Proc.devRef .tc (main_arg1 : Ref sig .tc)) = m (d, Proc.devRef .tc (main_arg1 : Ref sig .tc)) := by
  unfold VA opsPre; after_results_simp
theorem VA_arg2 : VA m d (Proc.devRef .tc (main_arg2 : Ref sig .tc)) = m (d, Proc.devRef .tc (main_arg2 : Ref sig .tc)) := by
  unfold VA opsPre; after_results_simp
theorem VA_arg3 : VA m d (Proc.devRef .tc (main_arg3 : Ref sig .tc)) = m (d, Proc.devRef .tc (main_arg3 : Ref sig .tc)) := by
  unfold VA opsPre; after_results_simp
theorem VA_arg4 : VA m d (Proc.devRef .tc (main_arg4 : Ref sig .tc)) = m (d, Proc.devRef .tc (main_arg4 : Ref sig .tc)) := by
  unfold VA opsPre; after_results_simp
theorem VA_arg5 : VA m d (Proc.devRef .tc (main_arg5 : Ref sig .tc)) = m (d, Proc.devRef .tc (main_arg5 : Ref sig .tc)) := by
  unfold VA opsPre; after_results_simp
theorem VA_arg6 : VA m d (Proc.devRef .tc (main_arg6 : Ref sig .tc)) = m (d, Proc.devRef .tc (main_arg6 : Ref sig .tc)) := by
  unfold VA opsPre; after_results_simp

end Cert.Proof.LaunchKernel
end
-- ==== Proof.LaunchKernel.lean ====
/-
  The launch of the kernel program as printed: from one vector subcore's task (`TileKernel.tile_body`) to `θ_run`
  of the whole program — the TensorCore's @main, the two sequencers and the thirty-two vector subcores.

  The kernel makes local copies only and waits for each on a semaphore of its own, so its ghost state is the handshakes'
  rounds beside the transfers' counters, and the launch element keeps the former and drops the latter.

  What the handshakes carry. The call's seven operand arrays are only read: the TensorCore splits each into read shares,
  one per SparseCore (keeping the remainder), and each sequencer splits its share again, one per task; every share is of the
  WHOLE array at the contents the host operations left there, so nothing about contents has to be re-established when the
  shares are joined on the way back. The result array is written: task `i` of SparseCore `c` is worker `2 i + c` and owns
  rows `[128 (2 i + c), 128 (2 i + c) + 128)`, one of the thirty-two parts of the array; a SparseCore is handed the union of
  its sixteen parts, each task its own part, at the full share, and hands it back at whatever it wrote.

  @main: the host operations before the call run as one line over all the TensorCore's buffers; the call by the
  library's rule; the one operation after it over the result array and the program's result; the seven argument arrays
  are kept whole throughout and read off the final memory.
-/
import proofs.«207587_g45655502356657_cont_8to1c4_548_39_alg».proof.Proof.HostKernel

noncomputable section

namespace Cert.Proof.LaunchKernel

open Cert.Kernel Cert.Kernel.Gen
open Cert.Proof.TileKernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

theorem nCore_zero : (K (F := F)).nCore 0 = 2 := rfl

variable (m : (ℓ : Loc nD τ sig) → Buf (Elt F) ℓ) (ρ : Dev nD → PrngReg)

/-! ## The result array's thirty-two stretches -/

theorem hdiv32 : 32 ∣ S4096.size 0 := ⟨128, rfl⟩
/-- Rows `[128 w, 128 w + 128)` of the result array. -/
abbrev blk (w : Fin 32) : Rect S4096 := Rect.part (s := S4096) (a₀ := 0) hdiv32 w
abbrev blkSet (w : Fin 32) : Finset S4096.Idx := (blk w).set
/-- Task `i` of SparseCore `c` is worker `2 i + c`. -/
def wk (c : Fin 2) (i : Fin 16) : Fin 32 := ⟨2 * i.val + c.val, by omega⟩
theorem wk_inj {c c' : Fin 2} {i i' : Fin 16} (h : wk c i = wk c' i') : c = c' ∧ i = i' := by
  have := congrArg Fin.val h
  simp only [wk] at this
  exact ⟨Fin.ext (by omega), Fin.ext (by omega)⟩
/-- What SparseCore `c`'s sixteen tasks write between them. -/
abbrev coreSet (c : Fin 2) : Finset S4096.Idx := (Finset.univ : Finset (Fin 16)).biUnion fun i => blkSet (wk c i)

theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The stretch the task at `L` slices is its worker's. -/
theorem oS_rect (L : grid0.Coords) :
    Rect.unit (s := S4096) (k0_off69 L) S128.size (k0_off69_inb L) = blk (wk (cL L) (jL L)) := by
  unfold blk Rect.part Rect.block
  congr 1 <;> funext a
  · rw [k0_off69_eq]
    match a with
    | 0 => simp [Shape.partIx, Shape.partSize, wk]; omega
  · match a with
    | 0 => simp [Shape.partSize]

theorem oS_set (L : grid0.Coords) : (oS L).view.set = blkSet (wk (cL L) (jL L)) := by
  show ((View.whole (main_v29_scv : Ref sig .scVector)).slice (Rect.unit (s := S4096) (k0_off69 L) S128.size (k0_off69_inb L))).set = _
  rw [View.set_slice, oS_rect]; exact Finset.map_refl

theorem blk_disjoint_task (c : Fin 2) : ∀ i ∈ (Finset.univ : Finset (Fin 16)), ∀ j ∈ (Finset.univ : Finset (Fin 16)), i ≠ j →
    Disjoint (blkSet (wk c i)) (blkSet (wk c j)) :=
  fun i _ j _ h => Rect.part_disjoint hdiv32 fun e => h (wk_inj e).2

theorem coreSet_disjoint : ∀ c ∈ (Finset.univ : Finset (Fin 2)), ∀ c' ∈ (Finset.univ : Finset (Fin 2)), c ≠ c' → Disjoint (coreSet c) (coreSet c') := by
  intro c _ c' _ h
  rw [Finset.disjoint_biUnion_left]; intro i _
  rw [Finset.disjoint_biUnion_right]; intro j _
  exact Rect.part_disjoint hdiv32 fun e => h (wk_inj e).1

theorem coreSet_cover : (Finset.univ : Finset (Fin 2)).biUnion coreSet = Finset.univ := by
  rw [← Rect.biUnion_part hdiv32]
  ext x
  simp only [Finset.mem_biUnion, Finset.mem_univ, true_and]
  constructor
  · rintro ⟨c, i, h⟩; exact ⟨_, h⟩
  · rintro ⟨w, h⟩
    refine ⟨⟨w.val % 2, Nat.mod_lt _ (by omega)⟩, ⟨w.val / 2, by omega⟩, ?_⟩
    rw [show wk ⟨w.val % 2, Nat.mod_lt _ (by omega)⟩ ⟨w.val / 2, by omega⟩ = w from Fin.ext (by simp only [wk]; omega)]
    exact h

/-! ## What the handshakes carry -/

variable [FloatOps F]

abbrev r16 : DevRef τ sig := Proc.devRef .tc (main_v16 : Ref sig .tc)
abbrev r18 : DevRef τ sig := Proc.devRef .tc (main_v18 : Ref sig .tc)
abbrev r20 : DevRef τ sig := Proc.devRef .tc (main_v20 : Ref sig .tc)
abbrev r28 : DevRef τ sig := Proc.devRef .tc (main_v28 : Ref sig .tc)
abbrev r29 : DevRef τ sig := Proc.devRef .tc (main_v29 : Ref sig .tc)

/-- The seven operand arrays of the call. -/
def T7 : Finset (DevRef τ sig) := {r10, r8, r13, r16, r18, r20, r28}

/-- A read share `q` of each operand array, whole, at what the host operations left there. -/
def opnds (d : Dev nD) (q : PosShare TreeShare) : sProp 𝕄 :=
  bigSep T7 fun b => ((d, b) : Loc nD τ sig) ↦{q} VA m d b

/-- The result array. -/
abbrev oLoc (d : Dev nD) : Loc nD τ sig := (d, r29)

/-- SparseCore `c`'s share of an operand, and task `i`'s share of that. -/
abbrev qC (c : Fin 2) : PosShare TreeShare := shareTok fullShare 2 c
abbrev qT (c : Fin 2) (i : Fin 16) : PosShare TreeShare := shareTok (qC c) 16 i

/-- The one call hands SparseCore `c` its read share of every operand and, whole, the stretches its sixteen tasks write;
    each task its share of that share and its own stretch; and brings them back, the stretches at what the tasks left. -/
def P : (K (F := F)).Pay (nD := nD) (Val := Elt F) (Name := ℕ) (U := UU) where
  st := fun q d c => match q with
    | 0 => iprop(opnds m d (qC (Fin.cast nCore_zero c)) ∗ oLoc d ↦[coreSet (Fin.cast nCore_zero c)]{fullShare} VA m d r29)
  dn := fun q d c => match q with
    | 0 => iprop(opnds m d (qC (Fin.cast nCore_zero c)) ∗ ∃ f, oLoc d ↦[coreSet (Fin.cast nCore_zero c)]{fullShare} f)
  go := fun q d c i => match q with
    | 0 => iprop(opnds m d (qT (Fin.cast nCore_zero c) (Fin.cast nSub_zero i))
        ∗ oLoc d ↦[blkSet (wk (Fin.cast nCore_zero c) (Fin.cast nSub_zero i))]{fullShare} VA m d r29)
  td := fun q d c i => match q with
    | 0 => iprop(opnds m d (qT (Fin.cast nCore_zero c) (Fin.cast nSub_zero i))
        ∗ ∃ f, oLoc d ↦[blkSet (wk (Fin.cast nCore_zero c) (Fin.cast nSub_zero i))]{fullShare} f)
  x := fun _ _ => iprop(emp)

instance opnds_storable (d : Dev nD) (q : PosShare TreeShare) : BI.Storable (upEmb : UEmb _ 𝕄) (opnds m d q) := by
  unfold opnds; infer_instance

instance P_storable : (P (F := F) m).IsStorable where
  st q d c := match q with
    | 0 => (inferInstance : BI.Storable (upEmb : UEmb _ 𝕄)
        iprop(opnds m d (qC (Fin.cast nCore_zero c)) ∗ oLoc d ↦[coreSet (Fin.cast nCore_zero c)]{fullShare} VA m d r29))
  dn q d c := match q with
    | 0 => (inferInstance : BI.Storable (upEmb : UEmb _ 𝕄)
        iprop(opnds m d (qC (Fin.cast nCore_zero c)) ∗ ∃ f, oLoc d ↦[coreSet (Fin.cast nCore_zero c)]{fullShare} f))
  go q d c i := match q with
    | 0 => (inferInstance : BI.Storable (upEmb : UEmb _ 𝕄)
        iprop(opnds m d (qT (Fin.cast nCore_zero c) (Fin.cast nSub_zero i))
          ∗ oLoc d ↦[blkSet (wk (Fin.cast nCore_zero c) (Fin.cast nSub_zero i))]{fullShare} VA m d r29))
  td q d c i := match q with
    | 0 => (inferInstance : BI.Storable (upEmb : UEmb _ 𝕄)
        iprop(opnds m d (qT (Fin.cast nCore_zero c) (Fin.cast nSub_zero i))
          ∗ ∃ f, oLoc d ↦[blkSet (wk (Fin.cast nCore_zero c) (Fin.cast nSub_zero i))]{fullShare} f))

/-! ## Read shares of a family of arrays, split among readers and joined back -/

omit [FloatOps F] in
theorem toks_family (d : Dev nD) (W : Valuation τ sig (Elt F)) (q : PosShare TreeShare) (n : ℕ) (A : Finset (DevRef τ sig)) :
    (bigSep A fun b => (((d, b) : Loc nD τ sig) ↦{q} W b : sProp 𝕄))
      ⊣⊢ iprop((bigSep A fun b => ((d, b) : Loc nD τ sig) ↦{shareDrop q n} W b)
          ∗ bigSep Finset.univ fun i : Fin n => bigSep A fun b => ((d, b) : Loc nD τ sig) ↦{shareTok q n i} W b) := by
  classical
  induction A using Finset.induction_on with
  | empty =>
    simp only [bigSep_empty]
    rw [bigSep_emp_const]
    exact ⟨Laws.sep_emp.mpr, Laws.sep_emp.mp⟩
  | insert a A ha ih =>
    simp only [SparseCore.bigSep_insert' ha]
    rw [bigSep_sep']
    have hA : ((((d, a) : Loc nD τ sig) ↦{q} W a : sProp 𝕄))
        ⊣⊢ iprop((((d, a) : Loc nD τ sig) ↦{shareDrop q n} W a) ∗ bigSep Finset.univ fun i : Fin n => ((d, a) : Loc nD τ sig) ↦{shareTok q n i} W a) :=
      Transfers.pointsTo_toks q n
    constructor
    · iintro ⟨HA, HR⟩
      ihave HA := hA.1 $$ HA
      ihave HR := ih.1 $$ HR
      icases HA with ⟨HA1, HA2⟩
      icases HR with ⟨HR1, HR2⟩
      isplitl [HA1 HR1]; · isplitl [HA1] <;> iassumption
      isplitl [HA2] <;> iassumption
    · iintro ⟨⟨HA1, HR1⟩, HA2, HR2⟩
      isplitl [HA1 HA2]
      · iapply hA.2; isplitl [HA1] <;> iassumption
      · iapply ih.2; isplitl [HR1] <;> iassumption

/-! ## One SparseCore's operands among its sixteen tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem oCore_tasks (d : Dev nD) (c : Fin 2) (g : Buf (Elt F) (oLoc d)) :
    (oLoc d ↦[coreSet c]{fullShare} g : sProp 𝕄) = bigSep Finset.univ fun i : Fin 16 => oLoc d ↦[blkSet (wk c i)]{fullShare} g := by
  rw [← pointsTo_biUnion Finset.univ (ℓ := oLoc d) (fun i => blkSet (wk c i)) (blk_disjoint_task c)]

theorem oTasks_join (d : Dev nD) (c : Fin 2) :
    (bigSep Finset.univ fun i : Fin 16 => iprop(∃ g, oLoc d ↦[blkSet (wk c i)]{fullShare} g))
      ⊢ (iprop(∃ g, oLoc d ↦[coreSet c]{fullShare} g) : sProp 𝕄) := by
  refine (bigSep_exists_pi Finset.univ (fun i (g : Buf (Elt F) (oLoc d)) => oLoc d ↦[blkSet (wk c i)]{fullShare} g)).trans ?_
  iintro ⟨%gs, H⟩
  ihave H' := (pointsTo_biUnion_join Finset.univ (fun i => blkSet (wk c i)) gs (gs 0) (blk_disjoint_task c)) $$ H
  icases H' with ⟨%g, -, Hg⟩
  iexists g; iexact Hg

omit [FloatOps F] in
theorem oAll_cores (d : Dev nD) (g : Buf (Elt F) (oLoc d)) :
    (oLoc d ↦{fullShare} g : sProp 𝕄) = bigSep Finset.univ fun c : Fin 2 => oLoc d ↦[coreSet c]{fullShare} g := by
  rw [← pointsTo_biUnion Finset.univ (ℓ := oLoc d) coreSet coreSet_disjoint, coreSet_cover]

theorem oCores_join (d : Dev nD) :
    (bigSep Finset.univ fun c : Fin 2 => iprop(∃ g, oLoc d ↦[coreSet c]{fullShare} g))
      ⊢ (iprop(∃ g, oLoc d ↦{fullShare} g) : sProp 𝕄) := by
  refine (bigSep_exists_pi Finset.univ (fun c (g : Buf (Elt F) (oLoc d)) => oLoc d ↦[coreSet c]{fullShare} g)).trans ?_
  iintro ⟨%gs, H⟩
  ihave H' := (pointsTo_biUnion_join Finset.univ coreSet gs (gs 0) coreSet_disjoint) $$ H
  icases H' with ⟨%g, -, Hg⟩
  rw [coreSet_cover]
  iexists g; iexact Hg

theorem vecSplit : (K (F := F)).VecSplit' (P m) 0 := by
  intro d c
  show iprop(opnds m d (qC (Fin.cast nCore_zero c)) ∗ oLoc d ↦[coreSet (Fin.cast nCore_zero c)]{fullShare} VA m d r29) ⊢ |={Set.univ}=> iprop(
      (bigSep Finset.univ fun i : Fin ((K (F := F)).nSub 0) =>
        iprop(opnds m d (qT (Fin.cast nCore_zero c) (Fin.cast nSub_zero i))
          ∗ oLoc d ↦[blkSet (wk (Fin.cast nCore_zero c) (Fin.cast nSub_zero i))]{fullShare} VA m d r29))
      ∗ ((bigSep Finset.univ fun i : Fin ((K (F := F)).nSub 0) =>
          iprop(opnds m d (qT (Fin.cast nCore_zero c) (Fin.cast nSub_zero i))
            ∗ ∃ g, oLoc d ↦[blkSet (wk (Fin.cast nCore_zero c) (Fin.cast nSub_zero i))]{fullShare} g))
          -∗ iprop(opnds m d (qC (Fin.cast nCore_zero c)) ∗ ∃ g, oLoc d ↦[coreSet (Fin.cast nCore_zero c)]{fullShare} g)))
  rw [bigSep_tasks (F := F) (fun i => iprop(opnds m d (qT (Fin.cast nCore_zero c) i) ∗ oLoc d ↦[blkSet (wk (Fin.cast nCore_zero c) i)]{fullShare} VA m d r29)),
    bigSep_tasks (F := F) (fun i => iprop(opnds m d (qT (Fin.cast nCore_zero c) i) ∗ ∃ g, oLoc d ↦[blkSet (wk (Fin.cast nCore_zero c) i)]{fullShare} g)),
    bigSep_sep', bigSep_sep', oCore_tasks]
  unfold opnds
  iintro ⟨Hop, Ho⟩
  ihave Hop := (toks_family d (VA m d) (qC (Fin.cast nCore_zero c)) 16 T7).1 $$ Hop
  icases Hop with ⟨Hd, Ht⟩
  imodintro
  isplitl [Ht Ho]
  · isplitl [Ht]; · iexact Ht
    iexact Ho
  iintro ⟨Ht, Ho⟩
  isplitl [Hd Ht]
  · iapply (toks_family d (VA m d) (qC (Fin.cast nCore_zero c)) 16 T7).2
    isplitl [Hd]; · iexact Hd
    iexact Ht
  · iapply (oTasks_join d (Fin.cast nCore_zero c)); iexact Ho

/-! ## The task's obligation -/

theorem opnds_eq7 (d : Dev nD) (q : PosShare TreeShare) :
    opnds m d q = iprop((((d, r10) : Loc nD τ sig) ↦{q} VA m d r10) ∗ (((d, r8) : Loc nD τ sig) ↦{q} VA m d r8)
      ∗ (((d, r13) : Loc nD τ sig) ↦{q} VA m d r13) ∗ (((d, r16) : Loc nD τ sig) ↦{q} VA m d r16)
      ∗ (((d, r18) : Loc nD τ sig) ↦{q} VA m d r18) ∗ (((d, r20) : Loc nD τ sig) ↦{q} VA m d r20)
      ∗ (((d, r28) : Loc nD τ sig) ↦{q} VA m d r28)) := by
  unfold opnds T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- The task's stretch as its slice addresses it is its worker's rows of the result array. -/
theorem pts_oS (d : Dev nD) (L : grid0.Coords) (g : Buf (Elt F) (oLoc d)) :
    ((oS L).view.loc (V d (cV L) (jV L)) ↦[(oS L).view.set]{fullShare} g : sProp 𝕄)
      = oLoc d ↦[blkSet (wk (cL L) (jL L))]{fullShare} g := by
  rw [oS_set]

set_option maxHeartbeats 4000000 in
/-- The task at `L` from what the go signal hands it and the subcore's scoped storage: the storage opened to the kernel's
    scratch buffers and semaphores, the body, and the storage closed again. -/
theorem tile_wrap (d : Dev nD) (L : grid0.Coords) (c' : Fin 2) (i' : Fin 16) (hc' : cL L = c') (hi' : jL L = i')
    (hR : Cert.FmSpec.InRange (m (d, Proc.devRef .tc (main_arg1 : Ref sig .tc))) (m (d, Proc.devRef .tc (main_arg2 : Ref sig .tc))))
    (O : CellTallies nD τ sig (HIx 1)) (W : Waits sig (HIx 1)) (hO : ∀ g, O g none = 0) :
    iprop(levAts (K (F := F)).L (K (F := F)).lev ∗ emp
        ∗ (opnds m d (qT c' i') ∗ oLoc d ↦[blkSet (wk c' i')]{fullShare} VA m d r29)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__fm_first_order L (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4)
          fun _ => iprop((opnds m d (qT c' i') ∗ ∃ g, oLoc d ↦[blkSet (wk c' i')]{fullShare} g)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  subst hc'; subst hi'
  rw [(K (F := F)).scopedBufs_V facts d (cV L) (jV L), SparseCore.Cfg.scopedSems0_V (Val := Elt F) d (cV L) (jV L), ownSems0_V, ownBufs_V,
    opnds_eq7]
  iintro ⟨#Hlv, -, ⟨Hops, Ho⟩, ⟨S0, S1, S2, S3, S4, S5, S6, S7, S8, Hbr⟩, ⟨M0, M1, M2, M3, M4, M5, M6, M7, M8, M9, Hsr⟩, HO⟩
  ihave Ho := (Entails.of_eq (pts_oS (F := F) d L _).symm) $$ Ho
  ihave Hwp := (tile_body d L O W hO (qT (cL L) (jL L)) (VA m d r10) (qT (cL L) (jL L)) (VA m d r8) (qT (cL L) (jL L)) (VA m d r13) (qT (cL L) (jL L)) (VA m d r16) (qT (cL L) (jL L)) (VA m d r18) (qT (cL L) (jL L)) (VA m d r20) (qT (cL L) (jL L)) (VA m d r28) (VA m d r29) (idxOK m d L hR)) $$ [Hlv Hops Ho S0 S1 S2 S3 S4 S5 S6 S7 S8 M0 M1 M2 M3 M4 M5 M6 M7 M8 M9 HO]
  · isplitr; · iexact Hlv
    isplitl [Hops]; · iexact Hops
    isplitl [Ho]; · iexact Ho
    isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [M0 M1 M2 M3 M4 M5 M6 M7 M8 M9]
    · isplitl [M0]; · iexact M0
      isplitl [M1]; · iexact M1
      isplitl [M2]; · iexact M2
      isplitl [M3]; · iexact M3
      isplitl [M4]; · iexact M4
      isplitl [M5]; · iexact M5
      isplitl [M6]; · iexact M6
      isplitl [M7]; · iexact M7
      isplitl [M8]; · iexact M8
      iexact M9
    iexact HO
  iapply (wp_wand frame _ _) $$ Hwp
  iintro %_ ⟨Hops, ⟨%g, Ho⟩, ⟨S0, S1, S2, S3, S4, S5, S6, S7, S8⟩, ⟨M0, M1, M2, M3, M4, M5, M6, M7, M8, M9⟩, %W', %hW', HW⟩
  isplitl [Hops Ho]
  · isplitl [Hops]; · iexact Hops
    iexists g; iapply (Entails.of_eq (pts_oS (F := F) d L g)); iexact Ho
  isplitl [S0 S1 S2 S3 S4 S5 S6 S7 S8 Hbr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Hbr
  isplitl [M0 M1 M2 M3 M4 M5 M6 M7 M8 M9 Hsr]
  · isplitl [M0]; · iexact M0
    isplitl [M1]; · iexact M1
    isplitl [M2]; · iexact M2
    isplitl [M3]; · iexact M3
    isplitl [M4]; · iexact M4
    isplitl [M5]; · iexact M5
    isplitl [M6]; · iexact M6
    isplitl [M7]; · iexact M7
    isplitl [M8]; · iexact M8
    isplitl [M9]; · iexact M9
    iexact Hsr
  iexists W'; isplitr
  · ipureintro; exact fun p hp => (hW' p hp).imp_right Or.inl
  · iexact HW

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__fm_first_order (coordsV c s) (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4) ⟨⟩ c s := rfl

set_option maxHeartbeats 4000000 in
/-- `TileObl` at call 0: every task of the grid runs `tile_wrap` at its own coordinates. -/
theorem tileObl (hR : ∀ d : Dev nD, Cert.FmSpec.InRange (m (d, Proc.devRef .tc (main_arg1 : Ref sig .tc))) (m (d, Proc.devRef .tc (main_arg2 : Ref sig .tc)))) :
    (K (F := F)).TileObl (D (F := F)) 𝒱 (P m) v₀ 0 := by
  intro d c i O W hO _ _
  -- this kernel owes nothing for a protocol of its own (`Pay.ox` at its default)
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_wrap m d (coordsV ⟨_, hc.1⟩ ⟨_, hc.2⟩) (Fin.cast nCore_zero c) (Fin.cast nSub_zero i) (Fin.ext rfl) (Fin.ext rfl) (hR d) O W hO
  unfold P; dsimp only
  -- the two statements differ only in how the thread is spelt; with the program named, they are compared without running it
  generalize cc0__fm_first_order (F := F) (coordsV ⟨_, hc.1⟩ ⟨_, hc.2⟩) (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4 = prog at h ⊢
  exact h

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev r30 : DevRef τ sig := Proc.devRef .tc (main_v30 : Ref sig .tc)
abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev a3 : DevRef τ sig := Proc.devRef .tc (main_arg3 : Ref sig .tc)
abbrev a4 : DevRef τ sig := Proc.devRef .tc (main_arg4 : Ref sig .tc)
abbrev a5 : DevRef τ sig := Proc.devRef .tc (main_arg5 : Ref sig .tc)
abbrev a6 : DevRef τ sig := Proc.devRef .tc (main_arg6 : Ref sig .tc)

/-- The seven argument arrays. -/
def A7 : Finset (DevRef τ sig) := {a0, a1, a2, a3, a4, a5, a6}
/-- The call's operands and result, and the program's result. -/
def S9 : Finset (DevRef τ sig) := insert r30 (insert r29 T7)
/-- What the one host operation after the call touches. -/
def S2 : Finset (DevRef τ sig) := {r30, r29}

omit [FloatOps F] in
theorem mem_ucRefs (b : Ref sig .tc) (hb : (Proc.devRef .tc b : DevRef τ sig).isScoped = false) :
    (Proc.devRef .tc b : DevRef τ sig) ∈ Pipeline.ucRefs τ sig :=
  Finset.mem_filter.mpr ⟨StableHlo.devRef_mem_tcRefs b, by rw [hb]; exact Bool.false_ne_true⟩

omit [FloatOps F] in
theorem A7_sub : A7 ⊆ Pipeline.ucRefs τ sig := by
  intro b hb
  simp only [A7, Finset.mem_insert, Finset.mem_singleton] at hb
  rcases hb with rfl | rfl | rfl | rfl | rfl | rfl | rfl <;> exact mem_ucRefs _ (by decide)

omit [FloatOps F] in
theorem S9_sub : S9 ⊆ Pipeline.ucRefs τ sig \ A7 := by
  intro b hb
  refine Finset.mem_sdiff.mpr ⟨?_, fun h => ?_⟩
  · simp only [S9, T7, Finset.mem_insert, Finset.mem_singleton] at hb
    rcases hb with rfl | rfl | rfl | rfl | rfl | rfl | rfl | rfl | rfl <;> exact mem_ucRefs _ (by decide)
  · exact absurd h (Finset.disjoint_left.mp (show Disjoint S9 A7 by decide) hb)

omit [FloatOps F] in
theorem held_S9 (d : Dev nD) (W : Valuation τ sig (Elt F)) :
    (held (T d) S9 W : sProp 𝕄)
      = iprop((((d, r30) : Loc nD τ sig) ↦{fullShare} W r30) ∗ (oLoc d ↦{fullShare} W r29) ∗ bigSep T7 fun b => ((d, b) : Loc nD τ sig) ↦{fullShare} W b) := by
  unfold held S9
  rw [SparseCore.bigSep_insert' (by decide), SparseCore.bigSep_insert' (by decide)]

omit [FloatOps F] in
theorem held_S2 (d : Dev nD) (W : Valuation τ sig (Elt F)) :
    (held (T d) S2 W : sProp 𝕄) = iprop((((d, r30) : Loc nD τ sig) ↦{fullShare} W r30) ∗ (oLoc d ↦{fullShare} W r29)) := by
  unfold held S2
  rw [SparseCore.bigSep_insert' (by decide), bigSep_singleton]

omit [FloatOps F] in
/-- All the TensorCore's unscoped buffers: the argument arrays, the call's arrays, the rest. -/
theorem held_parts (d : Dev nD) (W : Valuation τ sig (Elt F)) :
    (held (T d) (Pipeline.ucRefs τ sig) W : sProp 𝕄)
      = iprop(held (T d) A7 W ∗ ((((d, r30) : Loc nD τ sig) ↦{fullShare} W r30) ∗ (oLoc d ↦{fullShare} W r29) ∗ bigSep T7 fun b => ((d, b) : Loc nD τ sig) ↦{fullShare} W b)
          ∗ held (T d) ((Pipeline.ucRefs τ sig \ A7) \ S9) W) := by
  rw [StableHlo.held_sub_split (T d) A7_sub W, StableHlo.held_sub_split (T d) S9_sub W, held_S9]

omit [FloatOps F] in
theorem held_S2_upd (d : Dev nD) (W : Valuation τ sig (Elt F)) (g : Buf (Elt F) (oLoc d)) :
    (held (T d) S2 (Function.update W r29 g) : sProp 𝕄) = iprop((((d, r30) : Loc nD τ sig) ↦{fullShare} W r30) ∗ (oLoc d ↦{fullShare} g)) := by
  rw [held_S2, Function.update_self, Function.update_of_ne (show r30 ≠ r29 by decide)]

theorem opPost_S2 : (opPost (F := F)).bufs ⊆ S2 := by
  unfold opPost; rw [StableHlo.reshape_bufs]; decide

/-- What the call takes for the two SparseCores, and what it hands back. -/
theorem st0_eq (d : Dev nD) :
    (bigSep Finset.univ fun c : Fin ((K (F := F)).nCore 0) => (P m).st 0 d c)
      = iprop((bigSep Finset.univ fun c : Fin 2 => opnds m d (qC c)) ∗ bigSep Finset.univ fun c : Fin 2 => oLoc d ↦[coreSet c]{fullShare} VA m d r29) := by
  rw [← bigSep_sep']
  exact bigSep_cores (F := F) (fun c => iprop(opnds m d (qC c) ∗ oLoc d ↦[coreSet c]{fullShare} VA m d r29))
theorem dn0_eq (d : Dev nD) :
    (bigSep Finset.univ fun c : Fin ((K (F := F)).nCore 0) => (P m).dn 0 d c)
      = iprop((bigSep Finset.univ fun c : Fin 2 => opnds m d (qC c)) ∗ bigSep Finset.univ fun c : Fin 2 => iprop(∃ g, oLoc d ↦[coreSet c]{fullShare} g)) := by
  rw [← bigSep_sep']
  exact bigSep_cores (F := F) (fun c => iprop(opnds m d (qC c) ∗ ∃ g, oLoc d ↦[coreSet c]{fullShare} g))

/-- What @main leaves the claim: the argument arrays, whole. -/
abbrev FIN (d : Dev nD) : sProp 𝕄 := held (T d) A7 (VA m d)

/-- The host operations before the call, from the launch contents to `VA`. -/
theorem wp_pre (d : Dev nD) {β : Type} (k : PUnit → Prog (TpuEff nD τ sig (Elt F) (SparseCore.Sig (ΛP (F := F)) 1) .tc) β) {Kp : β → sProp 𝕄} :
    iprop(boundary (T d) ∗ (held (T d) (Pipeline.ucRefs τ sig) (VL m d) : sProp 𝕄))
      ⊢ iprop(((boundary (T d) ∗ (held (T d) (Pipeline.ucRefs τ sig) (VA m d) : sProp 𝕄))
                -∗ wp frame (wpE ((K (F := F)).defs (D (F := F))) 𝒱 (T d) none) Set.univ (k ⟨⟩) Kp)
        -∗ wp frame (wpE ((K (F := F)).defs (D (F := F))) 𝒱 (T d) none) Set.univ (StableHlo.seq (opsPre (F := F)) >>= k) Kp) :=
  StableHlo.wp_seq 𝒱 none Set.univ d (Pipeline.ucRefs τ sig) k (opsPre (F := F))
    (fun op h => Pipeline.sub_ucRefs op ((List.forall_iff_forall_mem.mp opsPre_sub) op h)) opsPre_fresh (VL m d)

/-- The one after it, over the result array and the program's result. -/
theorem wp_post (d : Dev nD) (W : Valuation τ sig (Elt F)) {Kp : PUnit → sProp 𝕄} :
    iprop(boundary (T d) ∗ (held (T d) S2 W : sProp 𝕄))
      ⊢ iprop(((boundary (T d) ∗ (held (T d) S2 (StableHlo.after [opPost (F := F)] W) : sProp 𝕄))
                -∗ wp frame (wpE ((K (F := F)).defs (D (F := F))) 𝒱 (T d) none) Set.univ (pure ⟨⟩) Kp)
        -∗ wp frame (wpE ((K (F := F)).defs (D (F := F))) 𝒱 (T d) none) Set.univ (StableHlo.seq [opPost (F := F)] >>= fun u => pure u) Kp) :=
  StableHlo.wp_seq 𝒱 none Set.univ d S2 (fun u => pure u) [opPost (F := F)]
    (fun op h => by rw [List.mem_singleton.mp h]; exact opPost_S2) (fun op h => by rw [List.mem_singleton.mp h]; rfl) W

/-- @main on device `d`'s TensorCore: the host operations, the call (the library's `wp_run`: a read share of every operand
    to each SparseCore, the result array split between them; the TensorCore keeps the remainder), the last host operation;
    the argument arrays kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (T d) (Pipeline.ucRefs τ sig) (VL m d)
      from Pipeline.unscopedBufs_held (Ix := HIx 1) (Name := ℕ) (U := UU) (Lvl := ℕ) d (VL m d),
    main_eq, show StableHlo.seq [opPost (F := F)] = (StableHlo.seq [opPost (F := F)] >>= fun u => pure u) from (bind_pure _).symm]
  iintro ⟨#Hctx, Hst, ⟨Hb, Hheld, -, -⟩, -⟩
  iapply (wp_pre m d _) $$ [Hb Hheld]
  · isplitl [Hb]; · iexact Hb
    iexact Hheld
  iintro ⟨Hb, Hheld⟩
  ihave Hheld := (Entails.of_eq (held_parts (F := F) d (VA m d))) $$ Hheld
  icases Hheld with ⟨HA, ⟨H30, Ho, Hop⟩, -⟩
  ihave Hop := (toks_family d (VA m d) fullShare 2 T7).1 $$ Hop
  icases Hop with ⟨Hd, Ht⟩
  ihave Ho := (Entails.of_eq (oAll_cores (F := F) d _)) $$ Ho
  rw [wp_bind]
  iapply ((K (F := F)).wp_run (D (F := F)) 𝒱 (EH := EH) (P := P m) κ d 0) $$ [Hst Ht Ho Hb HA H30 Hd]
  isplitr; · iexact Hctx
  isplitl [Hst]; · iexact Hst
  isplitl [Ht Ho]
  · iapply (Entails.of_eq (st0_eq m d).symm)
    isplitl [Ht]; · iexact Ht
    iexact Ho
  iintro ⟨Hst, Hdn⟩
  ihave Hdn' := (Entails.of_eq (dn0_eq m d)) $$ Hdn
  icases Hdn' with ⟨Ht, Ho⟩
  ihave Ho := (oCores_join (F := F) d) $$ Ho
  icases Ho with ⟨%g, Ho⟩
  iapply (wp_post d (Function.update (VA m d) r29 g)) $$ [Hb H30 Ho]
  · isplitl [Hb]; · iexact Hb
    iapply (Entails.of_eq (held_S2_upd (F := F) d (VA m d) g).symm)
    isplitl [H30]; · iexact H30
    iexact Ho
  iintro -
  rw [wp_pure]; imodintro
  isplitl [Hst]; · iexact Hst
  iexact HA

def fq (d : Dev nD) (s' : Phys nD τ sig (Elt F)) : Prop := ∀ b ∈ A7, s'.mem.mem (d, b) = VA m d b

theorem hfin (d : Dev nD) (s' : Phys nD τ sig (Elt F)) : iprop(FIN m d ∗ SI s') ⊢ (⌜fq m d s'⌝ : sProp 𝕄) := by
  show iprop((bigSep A7 fun b => ((d, b) : Loc nD τ sig) ↦{fullShare} VA m d b) ∗ SI s') ⊢ _
  iintro ⟨H, HSI⟩
  ihave %h := (SI_pointsTo_bufs_agree (qs := fun _ => fullShare) A7) $$ [HSI H]
  · isplitl [HSI]; · iexact HSI
    iexact H
  ipureintro; exact h

/-! ## The program's run -/

def QC : PUnit × MemSt nD τ sig (Elt F) → Prop := fun r => ∀ c : Dev nD,
  r.2.mem (c, a0) = m (c, a0)
    ∧ r.2.mem (c, a1) = m (c, a1)
    ∧ r.2.mem (c, a2) = m (c, a2)
    ∧ r.2.mem (c, a3) = m (c, a3)
    ∧ r.2.mem (c, a4) = m (c, a4)
    ∧ r.2.mem (c, a5) = m (c, a5)
    ∧ r.2.mem (c, a6) = m (c, a6)

theorem run_main [∀ e, Nonempty (Elt F e)]
    (hR : ∀ d : Dev nD, Cert.FmSpec.InRange (m (d, Proc.devRef .tc (main_arg1 : Ref sig .tc))) (m (d, Proc.devRef .tc (main_arg2 : Ref sig .tc)))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hR)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => by
      have hc := h c
      refine ⟨?_, ?_, ?_, ?_, ?_, ?_, ?_⟩
      · rw [hc a0 (by simp [A7]), VA_arg0]
      · rw [hc a1 (by simp [A7]), VA_arg1]
      · rw [hc a2 (by simp [A7]), VA_arg2]
      · rw [hc a3 (by simp [A7]), VA_arg3]
      · rw [hc a4 (by simp [A7]), VA_arg4]
      · rw [hc a5 (by simp [A7]), VA_arg5]
      · rw [hc a6 (by simp [A7]), VA_arg6])

end Cert.Proof.LaunchKernel
end
-- ==== Proof.LaunchKernelIdeal.lean ====
/-
  The launch of the idealized kernel program: from one vector subcore's task (`TileKernelIdeal.tile_body`) to `θ_run`
  of the whole program — the TensorCore's @main, the two sequencers and the thirty-two vector subcores.

  The kernel makes local copies only and waits for each on a semaphore of its own, so its ghost state is the handshakes'
  rounds beside the transfers' counters, and the launch element keeps the former and drops the latter.

  What the handshakes carry. The call's seven operand arrays are only read: the TensorCore splits each into read shares,
  one per SparseCore (keeping the remainder), and each sequencer splits its share again, one per task; every share is of the
  WHOLE array at the contents the host operations left there, so nothing about contents has to be re-established when the
  shares are joined on the way back. The result array is written: task `i` of SparseCore `c` is worker `2 i + c` and owns
  rows `[128 (2 i + c), 128 (2 i + c) + 128)`, one of the thirty-two parts of the array; a SparseCore is handed the union of
  its sixteen parts, each task its own part, at the full share, and hands it back at whatever it wrote.

  @main: the host operations before the call run as one line over all the TensorCore's buffers; the call by the
  library's rule; the one operation after it over the result array and the program's result; the seven argument arrays
  are kept whole throughout and read off the final memory.
-/
import proofs.«207587_g45655502356657_cont_8to1c4_548_39_alg».proof.Proof.HostKernelIdeal

noncomputable section

namespace Cert.Proof.LaunchKernelIdeal

open Cert.KernelIdeal Cert.KernelIdeal.Gen
open Cert.Proof.TileKernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

theorem nCore_zero : (K (F := F)).nCore 0 = 2 := rfl

variable (m : (ℓ : Loc nD τ sig) → Buf (Elt F) ℓ) (ρ : Dev nD → PrngReg)

/-! ## The result array's thirty-two stretches -/

theorem hdiv32 : 32 ∣ S4096.size 0 := ⟨128, rfl⟩
/-- Rows `[128 w, 128 w + 128)` of the result array. -/
abbrev blk (w : Fin 32) : Rect S4096 := Rect.part (s := S4096) (a₀ := 0) hdiv32 w
abbrev blkSet (w : Fin 32) : Finset S4096.Idx := (blk w).set
/-- Task `i` of SparseCore `c` is worker `2 i + c`. -/
def wk (c : Fin 2) (i : Fin 16) : Fin 32 := ⟨2 * i.val + c.val, by omega⟩
theorem wk_inj {c c' : Fin 2} {i i' : Fin 16} (h : wk c i = wk c' i') : c = c' ∧ i = i' := by
  have := congrArg Fin.val h
  simp only [wk] at this
  exact ⟨Fin.ext (by omega), Fin.ext (by omega)⟩
/-- What SparseCore `c`'s sixteen tasks write between them. -/
abbrev coreSet (c : Fin 2) : Finset S4096.Idx := (Finset.univ : Finset (Fin 16)).biUnion fun i => blkSet (wk c i)

theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- The stretch the task at `L` slices is its worker's. -/
theorem oS_rect (L : grid0.Coords) :
    Rect.unit (s := S4096) (k0_off69 L) S128.size (k0_off69_inb L) = blk (wk (cL L) (jL L)) := by
  unfold blk Rect.part Rect.block
  congr 1 <;> funext a
  · rw [k0_off69_eq]
    match a with
    | 0 => simp [Shape.partIx, Shape.partSize, wk]; omega
  · match a with
    | 0 => simp [Shape.partSize]

theorem oS_set (L : grid0.Coords) : (oS L).view.set = blkSet (wk (cL L) (jL L)) := by
  show ((View.whole (main_v29_scv : Ref sig .scVector)).slice (Rect.unit (s := S4096) (k0_off69 L) S128.size (k0_off69_inb L))).set = _
  rw [View.set_slice, oS_rect]; exact Finset.map_refl

theorem blk_disjoint_task (c : Fin 2) : ∀ i ∈ (Finset.univ : Finset (Fin 16)), ∀ j ∈ (Finset.univ : Finset (Fin 16)), i ≠ j →
    Disjoint (blkSet (wk c i)) (blkSet (wk c j)) :=
  fun i _ j _ h => Rect.part_disjoint hdiv32 fun e => h (wk_inj e).2

theorem coreSet_disjoint : ∀ c ∈ (Finset.univ : Finset (Fin 2)), ∀ c' ∈ (Finset.univ : Finset (Fin 2)), c ≠ c' → Disjoint (coreSet c) (coreSet c') := by
  intro c _ c' _ h
  rw [Finset.disjoint_biUnion_left]; intro i _
  rw [Finset.disjoint_biUnion_right]; intro j _
  exact Rect.part_disjoint hdiv32 fun e => h (wk_inj e).1

theorem coreSet_cover : (Finset.univ : Finset (Fin 2)).biUnion coreSet = Finset.univ := by
  rw [← Rect.biUnion_part hdiv32]
  ext x
  simp only [Finset.mem_biUnion, Finset.mem_univ, true_and]
  constructor
  · rintro ⟨c, i, h⟩; exact ⟨_, h⟩
  · rintro ⟨w, h⟩
    refine ⟨⟨w.val % 2, Nat.mod_lt _ (by omega)⟩, ⟨w.val / 2, by omega⟩, ?_⟩
    rw [show wk ⟨w.val % 2, Nat.mod_lt _ (by omega)⟩ ⟨w.val / 2, by omega⟩ = w from Fin.ext (by simp only [wk]; omega)]
    exact h

/-! ## What the handshakes carry -/

variable [FloatOps F]

abbrev r16 : DevRef τ sig := Proc.devRef .tc (main_v16 : Ref sig .tc)
abbrev r18 : DevRef τ sig := Proc.devRef .tc (main_v18 : Ref sig .tc)
abbrev r20 : DevRef τ sig := Proc.devRef .tc (main_v20 : Ref sig .tc)
abbrev r28 : DevRef τ sig := Proc.devRef .tc (main_v28 : Ref sig .tc)
abbrev r29 : DevRef τ sig := Proc.devRef .tc (main_v29 : Ref sig .tc)

/-- The seven operand arrays of the call. -/
def T7 : Finset (DevRef τ sig) := {r10, r8, r13, r16, r18, r20, r28}

/-- A read share `q` of each operand array, whole, at what the host operations left there. -/
def opnds (d : Dev nD) (q : PosShare TreeShare) : sProp 𝕄 :=
  bigSep T7 fun b => ((d, b) : Loc nD τ sig) ↦{q} VA m d b

/-- The result array. -/
abbrev oLoc (d : Dev nD) : Loc nD τ sig := (d, r29)

/-- SparseCore `c`'s share of an operand, and task `i`'s share of that. -/
abbrev qC (c : Fin 2) : PosShare TreeShare := shareTok fullShare 2 c
abbrev qT (c : Fin 2) (i : Fin 16) : PosShare TreeShare := shareTok (qC c) 16 i

/-- The one call hands SparseCore `c` its read share of every operand and, whole, the stretches its sixteen tasks write;
    each task its share of that share and its own stretch; and brings them back, the stretches at what the tasks left. -/
def P : (K (F := F)).Pay (nD := nD) (Val := Elt F) (Name := ℕ) (U := UU) where
  st := fun q d c => match q with
    | 0 => iprop(opnds m d (qC (Fin.cast nCore_zero c)) ∗ oLoc d ↦[coreSet (Fin.cast nCore_zero c)]{fullShare} VA m d r29)
  dn := fun q d c => match q with
    | 0 => iprop(opnds m d (qC (Fin.cast nCore_zero c)) ∗ ∃ f, oLoc d ↦[coreSet (Fin.cast nCore_zero c)]{fullShare} f)
  go := fun q d c i => match q with
    | 0 => iprop(opnds m d (qT (Fin.cast nCore_zero c) (Fin.cast nSub_zero i))
        ∗ oLoc d ↦[blkSet (wk (Fin.cast nCore_zero c) (Fin.cast nSub_zero i))]{fullShare} VA m d r29)
  td := fun q d c i => match q with
    | 0 => iprop(opnds m d (qT (Fin.cast nCore_zero c) (Fin.cast nSub_zero i))
        ∗ ∃ f, oLoc d ↦[blkSet (wk (Fin.cast nCore_zero c) (Fin.cast nSub_zero i))]{fullShare} f)
  x := fun _ _ => iprop(emp)

instance opnds_storable (d : Dev nD) (q : PosShare TreeShare) : BI.Storable (upEmb : UEmb _ 𝕄) (opnds m d q) := by
  unfold opnds; infer_instance

instance P_storable : (P (F := F) m).IsStorable where
  st q d c := match q with
    | 0 => (inferInstance : BI.Storable (upEmb : UEmb _ 𝕄)
        iprop(opnds m d (qC (Fin.cast nCore_zero c)) ∗ oLoc d ↦[coreSet (Fin.cast nCore_zero c)]{fullShare} VA m d r29))
  dn q d c := match q with
    | 0 => (inferInstance : BI.Storable (upEmb : UEmb _ 𝕄)
        iprop(opnds m d (qC (Fin.cast nCore_zero c)) ∗ ∃ f, oLoc d ↦[coreSet (Fin.cast nCore_zero c)]{fullShare} f))
  go q d c i := match q with
    | 0 => (inferInstance : BI.Storable (upEmb : UEmb _ 𝕄)
        iprop(opnds m d (qT (Fin.cast nCore_zero c) (Fin.cast nSub_zero i))
          ∗ oLoc d ↦[blkSet (wk (Fin.cast nCore_zero c) (Fin.cast nSub_zero i))]{fullShare} VA m d r29))
  td q d c i := match q with
    | 0 => (inferInstance : BI.Storable (upEmb : UEmb _ 𝕄)
        iprop(opnds m d (qT (Fin.cast nCore_zero c) (Fin.cast nSub_zero i))
          ∗ ∃ f, oLoc d ↦[blkSet (wk (Fin.cast nCore_zero c) (Fin.cast nSub_zero i))]{fullShare} f))

/-! ## Read shares of a family of arrays, split among readers and joined back -/

omit [FloatOps F] in
theorem toks_family (d : Dev nD) (W : Valuation τ sig (Elt F)) (q : PosShare TreeShare) (n : ℕ) (A : Finset (DevRef τ sig)) :
    (bigSep A fun b => (((d, b) : Loc nD τ sig) ↦{q} W b : sProp 𝕄))
      ⊣⊢ iprop((bigSep A fun b => ((d, b) : Loc nD τ sig) ↦{shareDrop q n} W b)
          ∗ bigSep Finset.univ fun i : Fin n => bigSep A fun b => ((d, b) : Loc nD τ sig) ↦{shareTok q n i} W b) := by
  classical
  induction A using Finset.induction_on with
  | empty =>
    simp only [bigSep_empty]
    rw [bigSep_emp_const]
    exact ⟨Laws.sep_emp.mpr, Laws.sep_emp.mp⟩
  | insert a A ha ih =>
    simp only [SparseCore.bigSep_insert' ha]
    rw [bigSep_sep']
    have hA : ((((d, a) : Loc nD τ sig) ↦{q} W a : sProp 𝕄))
        ⊣⊢ iprop((((d, a) : Loc nD τ sig) ↦{shareDrop q n} W a) ∗ bigSep Finset.univ fun i : Fin n => ((d, a) : Loc nD τ sig) ↦{shareTok q n i} W a) :=
      Transfers.pointsTo_toks q n
    constructor
    · iintro ⟨HA, HR⟩
      ihave HA := hA.1 $$ HA
      ihave HR := ih.1 $$ HR
      icases HA with ⟨HA1, HA2⟩
      icases HR with ⟨HR1, HR2⟩
      isplitl [HA1 HR1]; · isplitl [HA1] <;> iassumption
      isplitl [HA2] <;> iassumption
    · iintro ⟨⟨HA1, HR1⟩, HA2, HR2⟩
      isplitl [HA1 HA2]
      · iapply hA.2; isplitl [HA1] <;> iassumption
      · iapply ih.2; isplitl [HR1] <;> iassumption

/-! ## One SparseCore's operands among its sixteen tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem oCore_tasks (d : Dev nD) (c : Fin 2) (g : Buf (Elt F) (oLoc d)) :
    (oLoc d ↦[coreSet c]{fullShare} g : sProp 𝕄) = bigSep Finset.univ fun i : Fin 16 => oLoc d ↦[blkSet (wk c i)]{fullShare} g := by
  rw [← pointsTo_biUnion Finset.univ (ℓ := oLoc d) (fun i => blkSet (wk c i)) (blk_disjoint_task c)]

theorem oTasks_join (d : Dev nD) (c : Fin 2) :
    (bigSep Finset.univ fun i : Fin 16 => iprop(∃ g, oLoc d ↦[blkSet (wk c i)]{fullShare} g))
      ⊢ (iprop(∃ g, oLoc d ↦[coreSet c]{fullShare} g) : sProp 𝕄) := by
  refine (bigSep_exists_pi Finset.univ (fun i (g : Buf (Elt F) (oLoc d)) => oLoc d ↦[blkSet (wk c i)]{fullShare} g)).trans ?_
  iintro ⟨%gs, H⟩
  ihave H' := (pointsTo_biUnion_join Finset.univ (fun i => blkSet (wk c i)) gs (gs 0) (blk_disjoint_task c)) $$ H
  icases H' with ⟨%g, -, Hg⟩
  iexists g; iexact Hg

omit [FloatOps F] in
theorem oAll_cores (d : Dev nD) (g : Buf (Elt F) (oLoc d)) :
    (oLoc d ↦{fullShare} g : sProp 𝕄) = bigSep Finset.univ fun c : Fin 2 => oLoc d ↦[coreSet c]{fullShare} g := by
  rw [← pointsTo_biUnion Finset.univ (ℓ := oLoc d) coreSet coreSet_disjoint, coreSet_cover]

theorem oCores_join (d : Dev nD) :
    (bigSep Finset.univ fun c : Fin 2 => iprop(∃ g, oLoc d ↦[coreSet c]{fullShare} g))
      ⊢ (iprop(∃ g, oLoc d ↦{fullShare} g) : sProp 𝕄) := by
  refine (bigSep_exists_pi Finset.univ (fun c (g : Buf (Elt F) (oLoc d)) => oLoc d ↦[coreSet c]{fullShare} g)).trans ?_
  iintro ⟨%gs, H⟩
  ihave H' := (pointsTo_biUnion_join Finset.univ coreSet gs (gs 0) coreSet_disjoint) $$ H
  icases H' with ⟨%g, -, Hg⟩
  rw [coreSet_cover]
  iexists g; iexact Hg

theorem vecSplit : (K (F := F)).VecSplit' (P m) 0 := by
  intro d c
  show iprop(opnds m d (qC (Fin.cast nCore_zero c)) ∗ oLoc d ↦[coreSet (Fin.cast nCore_zero c)]{fullShare} VA m d r29) ⊢ |={Set.univ}=> iprop(
      (bigSep Finset.univ fun i : Fin ((K (F := F)).nSub 0) =>
        iprop(opnds m d (qT (Fin.cast nCore_zero c) (Fin.cast nSub_zero i))
          ∗ oLoc d ↦[blkSet (wk (Fin.cast nCore_zero c) (Fin.cast nSub_zero i))]{fullShare} VA m d r29))
      ∗ ((bigSep Finset.univ fun i : Fin ((K (F := F)).nSub 0) =>
          iprop(opnds m d (qT (Fin.cast nCore_zero c) (Fin.cast nSub_zero i))
            ∗ ∃ g, oLoc d ↦[blkSet (wk (Fin.cast nCore_zero c) (Fin.cast nSub_zero i))]{fullShare} g))
          -∗ iprop(opnds m d (qC (Fin.cast nCore_zero c)) ∗ ∃ g, oLoc d ↦[coreSet (Fin.cast nCore_zero c)]{fullShare} g)))
  rw [bigSep_tasks (F := F) (fun i => iprop(opnds m d (qT (Fin.cast nCore_zero c) i) ∗ oLoc d ↦[blkSet (wk (Fin.cast nCore_zero c) i)]{fullShare} VA m d r29)),
    bigSep_tasks (F := F) (fun i => iprop(opnds m d (qT (Fin.cast nCore_zero c) i) ∗ ∃ g, oLoc d ↦[blkSet (wk (Fin.cast nCore_zero c) i)]{fullShare} g)),
    bigSep_sep', bigSep_sep', oCore_tasks]
  unfold opnds
  iintro ⟨Hop, Ho⟩
  ihave Hop := (toks_family d (VA m d) (qC (Fin.cast nCore_zero c)) 16 T7).1 $$ Hop
  icases Hop with ⟨Hd, Ht⟩
  imodintro
  isplitl [Ht Ho]
  · isplitl [Ht]; · iexact Ht
    iexact Ho
  iintro ⟨Ht, Ho⟩
  isplitl [Hd Ht]
  · iapply (toks_family d (VA m d) (qC (Fin.cast nCore_zero c)) 16 T7).2
    isplitl [Hd]; · iexact Hd
    iexact Ht
  · iapply (oTasks_join d (Fin.cast nCore_zero c)); iexact Ho

/-! ## The task's obligation -/

theorem opnds_eq7 (d : Dev nD) (q : PosShare TreeShare) :
    opnds m d q = iprop((((d, r10) : Loc nD τ sig) ↦{q} VA m d r10) ∗ (((d, r8) : Loc nD τ sig) ↦{q} VA m d r8)
      ∗ (((d, r13) : Loc nD τ sig) ↦{q} VA m d r13) ∗ (((d, r16) : Loc nD τ sig) ↦{q} VA m d r16)
      ∗ (((d, r18) : Loc nD τ sig) ↦{q} VA m d r18) ∗ (((d, r20) : Loc nD τ sig) ↦{q} VA m d r20)
      ∗ (((d, r28) : Loc nD τ sig) ↦{q} VA m d r28)) := by
  unfold opnds T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- The task's stretch as its slice addresses it is its worker's rows of the result array. -/
theorem pts_oS (d : Dev nD) (L : grid0.Coords) (g : Buf (Elt F) (oLoc d)) :
    ((oS L).view.loc (V d (cV L) (jV L)) ↦[(oS L).view.set]{fullShare} g : sProp 𝕄)
      = oLoc d ↦[blkSet (wk (cL L) (jL L))]{fullShare} g := by
  rw [oS_set]

set_option maxHeartbeats 4000000 in
/-- The task at `L` from what the go signal hands it and the subcore's scoped storage: the storage opened to the kernel's
    scratch buffers and semaphores, the body, and the storage closed again. -/
theorem tile_wrap (d : Dev nD) (L : grid0.Coords) (c' : Fin 2) (i' : Fin 16) (hc' : cL L = c') (hi' : jL L = i')
    (hR : Cert.FmSpec.InRange (m (d, Proc.devRef .tc (main_arg1 : Ref sig .tc))) (m (d, Proc.devRef .tc (main_arg2 : Ref sig .tc))))
    (O : CellTallies nD τ sig (HIx 1)) (W : Waits sig (HIx 1)) (hO : ∀ g, O g none = 0) :
    iprop(levAts (K (F := F)).L (K (F := F)).lev ∗ emp
        ∗ (opnds m d (qT c' i') ∗ oLoc d ↦[blkSet (wk c' i')]{fullShare} VA m d r29)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__fm_first_order L (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4)
          fun _ => iprop((opnds m d (qT c' i') ∗ ∃ g, oLoc d ↦[blkSet (wk c' i')]{fullShare} g)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  subst hc'; subst hi'
  rw [(K (F := F)).scopedBufs_V facts d (cV L) (jV L), SparseCore.Cfg.scopedSems0_V (Val := Elt F) d (cV L) (jV L), ownSems0_V, ownBufs_V,
    opnds_eq7]
  iintro ⟨#Hlv, -, ⟨Hops, Ho⟩, ⟨S0, S1, S2, S3, S4, S5, S6, S7, S8, Hbr⟩, ⟨M0, M1, M2, M3, M4, M5, M6, M7, M8, M9, Hsr⟩, HO⟩
  ihave Ho := (Entails.of_eq (pts_oS (F := F) d L _).symm) $$ Ho
  ihave Hwp := (tile_body d L O W hO (qT (cL L) (jL L)) (VA m d r10) (qT (cL L) (jL L)) (VA m d r8) (qT (cL L) (jL L)) (VA m d r13) (qT (cL L) (jL L)) (VA m d r16) (qT (cL L) (jL L)) (VA m d r18) (qT (cL L) (jL L)) (VA m d r20) (qT (cL L) (jL L)) (VA m d r28) (VA m d r29) (idxOK m d L hR)) $$ [Hlv Hops Ho S0 S1 S2 S3 S4 S5 S6 S7 S8 M0 M1 M2 M3 M4 M5 M6 M7 M8 M9 HO]
  · isplitr; · iexact Hlv
    isplitl [Hops]; · iexact Hops
    isplitl [Ho]; · iexact Ho
    isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [M0 M1 M2 M3 M4 M5 M6 M7 M8 M9]
    · isplitl [M0]; · iexact M0
      isplitl [M1]; · iexact M1
      isplitl [M2]; · iexact M2
      isplitl [M3]; · iexact M3
      isplitl [M4]; · iexact M4
      isplitl [M5]; · iexact M5
      isplitl [M6]; · iexact M6
      isplitl [M7]; · iexact M7
      isplitl [M8]; · iexact M8
      iexact M9
    iexact HO
  iapply (wp_wand frame _ _) $$ Hwp
  iintro %_ ⟨Hops, ⟨%g, Ho⟩, ⟨S0, S1, S2, S3, S4, S5, S6, S7, S8⟩, ⟨M0, M1, M2, M3, M4, M5, M6, M7, M8, M9⟩, %W', %hW', HW⟩
  isplitl [Hops Ho]
  · isplitl [Hops]; · iexact Hops
    iexists g; iapply (Entails.of_eq (pts_oS (F := F) d L g)); iexact Ho
  isplitl [S0 S1 S2 S3 S4 S5 S6 S7 S8 Hbr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Hbr
  isplitl [M0 M1 M2 M3 M4 M5 M6 M7 M8 M9 Hsr]
  · isplitl [M0]; · iexact M0
    isplitl [M1]; · iexact M1
    isplitl [M2]; · iexact M2
    isplitl [M3]; · iexact M3
    isplitl [M4]; · iexact M4
    isplitl [M5]; · iexact M5
    isplitl [M6]; · iexact M6
    isplitl [M7]; · iexact M7
    isplitl [M8]; · iexact M8
    isplitl [M9]; · iexact M9
    iexact Hsr
  iexists W'; isplitr
  · ipureintro; exact fun p hp => (hW' p hp).imp_right Or.inl
  · iexact HW

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__fm_first_order (coordsV c s) (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4) ⟨⟩ c s := rfl

set_option maxHeartbeats 4000000 in
/-- `TileObl` at call 0: every task of the grid runs `tile_wrap` at its own coordinates. -/
theorem tileObl (hR : ∀ d : Dev nD, Cert.FmSpec.InRange (m (d, Proc.devRef .tc (main_arg1 : Ref sig .tc))) (m (d, Proc.devRef .tc (main_arg2 : Ref sig .tc)))) :
    (K (F := F)).TileObl (D (F := F)) 𝒱 (P m) v₀ 0 := by
  intro d c i O W hO _ _
  -- this kernel owes nothing for a protocol of its own (`Pay.ox` at its default)
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_wrap m d (coordsV ⟨_, hc.1⟩ ⟨_, hc.2⟩) (Fin.cast nCore_zero c) (Fin.cast nSub_zero i) (Fin.ext rfl) (Fin.ext rfl) (hR d) O W hO
  unfold P; dsimp only
  -- the two statements differ only in how the thread is spelt; with the program named, they are compared without running it
  generalize cc0__fm_first_order (F := F) (coordsV ⟨_, hc.1⟩ ⟨_, hc.2⟩) (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4 = prog at h ⊢
  exact h

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev r30 : DevRef τ sig := Proc.devRef .tc (main_v30 : Ref sig .tc)
abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev a3 : DevRef τ sig := Proc.devRef .tc (main_arg3 : Ref sig .tc)
abbrev a4 : DevRef τ sig := Proc.devRef .tc (main_arg4 : Ref sig .tc)
abbrev a5 : DevRef τ sig := Proc.devRef .tc (main_arg5 : Ref sig .tc)
abbrev a6 : DevRef τ sig := Proc.devRef .tc (main_arg6 : Ref sig .tc)

/-- The seven argument arrays. -/
def A7 : Finset (DevRef τ sig) := {a0, a1, a2, a3, a4, a5, a6}
/-- The call's operands and result, and the program's result. -/
def S9 : Finset (DevRef τ sig) := insert r30 (insert r29 T7)
/-- What the one host operation after the call touches. -/
def S2 : Finset (DevRef τ sig) := {r30, r29}

omit [FloatOps F] in
theorem mem_ucRefs (b : Ref sig .tc) (hb : (Proc.devRef .tc b : DevRef τ sig).isScoped = false) :
    (Proc.devRef .tc b : DevRef τ sig) ∈ Pipeline.ucRefs τ sig :=
  Finset.mem_filter.mpr ⟨StableHlo.devRef_mem_tcRefs b, by rw [hb]; exact Bool.false_ne_true⟩

omit [FloatOps F] in
theorem A7_sub : A7 ⊆ Pipeline.ucRefs τ sig := by
  intro b hb
  simp only [A7, Finset.mem_insert, Finset.mem_singleton] at hb
  rcases hb with rfl | rfl | rfl | rfl | rfl | rfl | rfl <;> exact mem_ucRefs _ (by decide)

omit [FloatOps F] in
theorem S9_sub : S9 ⊆ Pipeline.ucRefs τ sig \ A7 := by
  intro b hb
  refine Finset.mem_sdiff.mpr ⟨?_, fun h => ?_⟩
  · simp only [S9, T7, Finset.mem_insert, Finset.mem_singleton] at hb
    rcases hb with rfl | rfl | rfl | rfl | rfl | rfl | rfl | rfl | rfl <;> exact mem_ucRefs _ (by decide)
  · exact absurd h (Finset.disjoint_left.mp (show Disjoint S9 A7 by decide) hb)

omit [FloatOps F] in
theorem held_S9 (d : Dev nD) (W : Valuation τ sig (Elt F)) :
    (held (T d) S9 W : sProp 𝕄)
      = iprop((((d, r30) : Loc nD τ sig) ↦{fullShare} W r30) ∗ (oLoc d ↦{fullShare} W r29) ∗ bigSep T7 fun b => ((d, b) : Loc nD τ sig) ↦{fullShare} W b) := by
  unfold held S9
  rw [SparseCore.bigSep_insert' (by decide), SparseCore.bigSep_insert' (by decide)]

omit [FloatOps F] in
theorem held_S2 (d : Dev nD) (W : Valuation τ sig (Elt F)) :
    (held (T d) S2 W : sProp 𝕄) = iprop((((d, r30) : Loc nD τ sig) ↦{fullShare} W r30) ∗ (oLoc d ↦{fullShare} W r29)) := by
  unfold held S2
  rw [SparseCore.bigSep_insert' (by decide), bigSep_singleton]

omit [FloatOps F] in
/-- All the TensorCore's unscoped buffers: the argument arrays, the call's arrays, the rest. -/
theorem held_parts (d : Dev nD) (W : Valuation τ sig (Elt F)) :
    (held (T d) (Pipeline.ucRefs τ sig) W : sProp 𝕄)
      = iprop(held (T d) A7 W ∗ ((((d, r30) : Loc nD τ sig) ↦{fullShare} W r30) ∗ (oLoc d ↦{fullShare} W r29) ∗ bigSep T7 fun b => ((d, b) : Loc nD τ sig) ↦{fullShare} W b)
          ∗ held (T d) ((Pipeline.ucRefs τ sig \ A7) \ S9) W) := by
  rw [StableHlo.held_sub_split (T d) A7_sub W, StableHlo.held_sub_split (T d) S9_sub W, held_S9]

omit [FloatOps F] in
theorem held_S2_upd (d : Dev nD) (W : Valuation τ sig (Elt F)) (g : Buf (Elt F) (oLoc d)) :
    (held (T d) S2 (Function.update W r29 g) : sProp 𝕄) = iprop((((d, r30) : Loc nD τ sig) ↦{fullShare} W r30) ∗ (oLoc d ↦{fullShare} g)) := by
  rw [held_S2, Function.update_self, Function.update_of_ne (show r30 ≠ r29 by decide)]

theorem opPost_S2 : (opPost (F := F)).bufs ⊆ S2 := by
  unfold opPost; rw [StableHlo.reshape_bufs]; decide

/-- What the call takes for the two SparseCores, and what it hands back. -/
theorem st0_eq (d : Dev nD) :
    (bigSep Finset.univ fun c : Fin ((K (F := F)).nCore 0) => (P m).st 0 d c)
      = iprop((bigSep Finset.univ fun c : Fin 2 => opnds m d (qC c)) ∗ bigSep Finset.univ fun c : Fin 2 => oLoc d ↦[coreSet c]{fullShare} VA m d r29) := by
  rw [← bigSep_sep']
  exact bigSep_cores (F := F) (fun c => iprop(opnds m d (qC c) ∗ oLoc d ↦[coreSet c]{fullShare} VA m d r29))
theorem dn0_eq (d : Dev nD) :
    (bigSep Finset.univ fun c : Fin ((K (F := F)).nCore 0) => (P m).dn 0 d c)
      = iprop((bigSep Finset.univ fun c : Fin 2 => opnds m d (qC c)) ∗ bigSep Finset.univ fun c : Fin 2 => iprop(∃ g, oLoc d ↦[coreSet c]{fullShare} g)) := by
  rw [← bigSep_sep']
  exact bigSep_cores (F := F) (fun c => iprop(opnds m d (qC c) ∗ ∃ g, oLoc d ↦[coreSet c]{fullShare} g))

/-- What @main leaves the claim: the argument arrays, whole. -/
abbrev FIN (d : Dev nD) : sProp 𝕄 := held (T d) A7 (VA m d)

/-- The host operations before the call, from the launch contents to `VA`. -/
theorem wp_pre (d : Dev nD) {β : Type} (k : PUnit → Prog (TpuEff nD τ sig (Elt F) (SparseCore.Sig (ΛP (F := F)) 1) .tc) β) {Kp : β → sProp 𝕄} :
    iprop(boundary (T d) ∗ (held (T d) (Pipeline.ucRefs τ sig) (VL m d) : sProp 𝕄))
      ⊢ iprop(((boundary (T d) ∗ (held (T d) (Pipeline.ucRefs τ sig) (VA m d) : sProp 𝕄))
                -∗ wp frame (wpE ((K (F := F)).defs (D (F := F))) 𝒱 (T d) none) Set.univ (k ⟨⟩) Kp)
        -∗ wp frame (wpE ((K (F := F)).defs (D (F := F))) 𝒱 (T d) none) Set.univ (StableHlo.seq (opsPre (F := F)) >>= k) Kp) :=
  StableHlo.wp_seq 𝒱 none Set.univ d (Pipeline.ucRefs τ sig) k (opsPre (F := F))
    (fun op h => Pipeline.sub_ucRefs op ((List.forall_iff_forall_mem.mp opsPre_sub) op h)) opsPre_fresh (VL m d)

/-- The one after it, over the result array and the program's result. -/
theorem wp_post (d : Dev nD) (W : Valuation τ sig (Elt F)) {Kp : PUnit → sProp 𝕄} :
    iprop(boundary (T d) ∗ (held (T d) S2 W : sProp 𝕄))
      ⊢ iprop(((boundary (T d) ∗ (held (T d) S2 (StableHlo.after [opPost (F := F)] W) : sProp 𝕄))
                -∗ wp frame (wpE ((K (F := F)).defs (D (F := F))) 𝒱 (T d) none) Set.univ (pure ⟨⟩) Kp)
        -∗ wp frame (wpE ((K (F := F)).defs (D (F := F))) 𝒱 (T d) none) Set.univ (StableHlo.seq [opPost (F := F)] >>= fun u => pure u) Kp) :=
  StableHlo.wp_seq 𝒱 none Set.univ d S2 (fun u => pure u) [opPost (F := F)]
    (fun op h => by rw [List.mem_singleton.mp h]; exact opPost_S2) (fun op h => by rw [List.mem_singleton.mp h]; rfl) W

/-- @main on device `d`'s TensorCore: the host operations, the call (the library's `wp_run`: a read share of every operand
    to each SparseCore, the result array split between them; the TensorCore keeps the remainder), the last host operation;
    the argument arrays kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (T d) (Pipeline.ucRefs τ sig) (VL m d)
      from Pipeline.unscopedBufs_held (Ix := HIx 1) (Name := ℕ) (U := UU) (Lvl := ℕ) d (VL m d),
    main_eq, show StableHlo.seq [opPost (F := F)] = (StableHlo.seq [opPost (F := F)] >>= fun u => pure u) from (bind_pure _).symm]
  iintro ⟨#Hctx, Hst, ⟨Hb, Hheld, -, -⟩, -⟩
  iapply (wp_pre m d _) $$ [Hb Hheld]
  · isplitl [Hb]; · iexact Hb
    iexact Hheld
  iintro ⟨Hb, Hheld⟩
  ihave Hheld := (Entails.of_eq (held_parts (F := F) d (VA m d))) $$ Hheld
  icases Hheld with ⟨HA, ⟨H30, Ho, Hop⟩, -⟩
  ihave Hop := (toks_family d (VA m d) fullShare 2 T7).1 $$ Hop
  icases Hop with ⟨Hd, Ht⟩
  ihave Ho := (Entails.of_eq (oAll_cores (F := F) d _)) $$ Ho
  rw [wp_bind]
  iapply ((K (F := F)).wp_run (D (F := F)) 𝒱 (EH := EH) (P := P m) κ d 0) $$ [Hst Ht Ho Hb HA H30 Hd]
  isplitr; · iexact Hctx
  isplitl [Hst]; · iexact Hst
  isplitl [Ht Ho]
  · iapply (Entails.of_eq (st0_eq m d).symm)
    isplitl [Ht]; · iexact Ht
    iexact Ho
  iintro ⟨Hst, Hdn⟩
  ihave Hdn' := (Entails.of_eq (dn0_eq m d)) $$ Hdn
  icases Hdn' with ⟨Ht, Ho⟩
  ihave Ho := (oCores_join (F := F) d) $$ Ho
  icases Ho with ⟨%g, Ho⟩
  iapply (wp_post d (Function.update (VA m d) r29 g)) $$ [Hb H30 Ho]
  · isplitl [Hb]; · iexact Hb
    iapply (Entails.of_eq (held_S2_upd (F := F) d (VA m d) g).symm)
    isplitl [H30]; · iexact H30
    iexact Ho
  iintro -
  rw [wp_pure]; imodintro
  isplitl [Hst]; · iexact Hst
  iexact HA

def fq (d : Dev nD) (s' : Phys nD τ sig (Elt F)) : Prop := ∀ b ∈ A7, s'.mem.mem (d, b) = VA m d b

theorem hfin (d : Dev nD) (s' : Phys nD τ sig (Elt F)) : iprop(FIN m d ∗ SI s') ⊢ (⌜fq m d s'⌝ : sProp 𝕄) := by
  show iprop((bigSep A7 fun b => ((d, b) : Loc nD τ sig) ↦{fullShare} VA m d b) ∗ SI s') ⊢ _
  iintro ⟨H, HSI⟩
  ihave %h := (SI_pointsTo_bufs_agree (qs := fun _ => fullShare) A7) $$ [HSI H]
  · isplitl [HSI]; · iexact HSI
    iexact H
  ipureintro; exact h

/-! ## The program's run -/

def QC : PUnit × MemSt nD τ sig (Elt F) → Prop := fun r => ∀ c : Dev nD,
  r.2.mem (c, a0) = m (c, a0)
    ∧ r.2.mem (c, a1) = m (c, a1)
    ∧ r.2.mem (c, a2) = m (c, a2)
    ∧ r.2.mem (c, a3) = m (c, a3)
    ∧ r.2.mem (c, a4) = m (c, a4)
    ∧ r.2.mem (c, a5) = m (c, a5)
    ∧ r.2.mem (c, a6) = m (c, a6)

theorem run_main [∀ e, Nonempty (Elt F e)]
    (hR : ∀ d : Dev nD, Cert.FmSpec.InRange (m (d, Proc.devRef .tc (main_arg1 : Ref sig .tc))) (m (d, Proc.devRef .tc (main_arg2 : Ref sig .tc)))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hR)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => by
      have hc := h c
      refine ⟨?_, ?_, ?_, ?_, ?_, ?_, ?_⟩
      · rw [hc a0 (by simp [A7]), VA_arg0]
      · rw [hc a1 (by simp [A7]), VA_arg1]
      · rw [hc a2 (by simp [A7]), VA_arg2]
      · rw [hc a3 (by simp [A7]), VA_arg3]
      · rw [hc a4 (by simp [A7]), VA_arg4]
      · rw [hc a5 (by simp [A7]), VA_arg5]
      · rw [hc a6 (by simp [A7]), VA_arg6])

end Cert.Proof.LaunchKernelIdeal
end
-- ==== Proof.LaunchValKernelIdeal.lean ====
/-
  The launch of the idealized kernel program, carrying a fact about what the tasks wrote.

  `LaunchKernelIdeal` hands every stretch of the result array back at contents it says nothing about. Here the same
  launch is stated over a predicate `Ok d w g` — "worker `w`'s 128 rows of the result array, in contents `g`, are right" —
  that reads `g` on those rows only: if every task ends with its own stretch right (`TileSpec`: the task's obligation
  with that fact under the quantifier of its post), then the program ends with the result array at some `g` that is
  right on all thirty-two stretches, and the program's result at the reshape of that `g`. The facts travel back through
  the handshakes beside the stretches: sixteen per SparseCore joined into one about the union (the joined contents agree
  with each piece on its part), the two SparseCores' into one about the whole array.
-/
import proofs.«207587_g45655502356657_cont_8to1c4_548_39_alg».proof.Proof.LaunchKernelIdeal

noncomputable section

namespace Cert.Proof.LaunchKernelIdeal

open Cert.KernelIdeal Cert.KernelIdeal.Gen
open Cert.Proof.TileKernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

-- what is claimed of worker `w`'s rows of the result array on device `d`, in contents `g`
variable (Ok : (d : Dev nD) → Fin 32 → Buf (Elt F) (oLoc d) → Prop)

/-- The claim reads the contents on the worker's own rows only. -/
def OkLocal : Prop :=
  ∀ (d : Dev nD) (w : Fin 32) (g g' : Buf (Elt F) (oLoc d)), (∀ x ∈ blkSet w, g' x = g x) → Ok d w g → Ok d w g'

/-- The task's obligation with its stretch right at the end, for the operand contents the call hands over (what is right
    of the stretch is a function of them). -/
def TileSpec : Prop :=
  ∀ (d : Dev nD) (L : grid0.Coords) (O : CellTallies nD τ sig (HIx 1)) (W : Waits sig (HIx 1)) (hO : ∀ g, O g none = 0)
    (q10 : PosShare TreeShare) (f10 : Buf (Elt F) ((Memref.whole main_v10_scv : Memref sig .scVector .hbm S106496 .i32).view.loc (V d (cV L) (jV L))))
    (q8 : PosShare TreeShare) (f8 : Buf (Elt F) ((Memref.whole main_v8_scv : Memref sig .scVector .hbm S106496 .i32).view.loc (V d (cV L) (jV L))))
    (q13 : PosShare TreeShare) (f13 : Buf (Elt F) ((Memref.whole main_v13_scv : Memref sig .scVector .hbm S819200 .i32).view.loc (V d (cV L) (jV L))))
    (q16 : PosShare TreeShare) (f16 : Buf (Elt F) ((Memref.whole main_v16_scv : Memref sig .scVector .hbm S53248 .f32).view.loc (V d (cV L) (jV L))))
    (q18 : PosShare TreeShare) (f18 : Buf (Elt F) ((Memref.whole main_v18_scv : Memref sig .scVector .hbm S2599936 .f32).view.loc (V d (cV L) (jV L))))
    (q20 : PosShare TreeShare) (f20 : Buf (Elt F) ((Memref.whole main_v20_scv : Memref sig .scVector .hbm S99968 .f32).view.loc (V d (cV L) (jV L))))
    (q28 : PosShare TreeShare) (f28 : Buf (Elt F) ((Memref.whole main_v28_scv : Memref sig .scVector .hbm S1x128 .f32).view.loc (V d (cV L) (jV L))))
    (f29 : Buf (Elt F) ((oS L).view.loc (V d (cV L) (jV L))))
    (hidx : IdxOK d L f10 f8 f13)
    (_ : f10 = VA m d r10) (_ : f8 = VA m d r8) (_ : f13 = VA m d r13) (_ : f16 = VA m d r16) (_ : f18 = VA m d r18)
    (_ : f20 = VA m d r20) (_ : f28 = VA m d r28),
    (iprop(levAts (K (F := F)).L (K (F := F)).lev
        ∗ (((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
        ∗ ((oS L).view.loc (V d (cV L) (jV L)) ↦[(oS L).view.set]{fullShare} f29)
        ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
        ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
        ∗ owes (V d (cV L) (jV L)) O W) : sProp 𝕄)
      ⊢ wp frame (wpE (defs₀ (F := F)) 𝒱₀ (V d (cV L) (jV L)) none) Set.univ
          (cc0__fm_first_order L (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4)
          fun _ => (iprop((((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
            ∗ (∃ f, ⌜Ok d (wk (cL L) (jL L)) f⌝ ∗ (oS L).view.loc (V d (cV L) (jV L)) ↦[(oS L).view.set]{fullShare} f)
            ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
            ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
            ∗ ∃ W', ⌜∀ p ∈ W', p ∈ W ∨ p.2 = none⌝ ∗ owes (V d (cV L) (jV L)) O W') : sProp 𝕄)

omit [FloatOps F] in
/-- Every worker is some SparseCore's task. -/
theorem wk_surj (w : Fin 32) : ∃ (c : Fin 2) (i : Fin 16), wk c i = w :=
  ⟨⟨w.val % 2, Nat.mod_lt _ (by omega)⟩, ⟨w.val / 2, by omega⟩, Fin.ext (by simp only [wk]; omega)⟩

/-- The payloads: as `P`, the way back carrying the facts. -/
def PV : (K (F := F)).Pay (nD := nD) (Val := Elt F) (Name := ℕ) (U := UU) where
  st := fun q d c => match q with
    | 0 => iprop(opnds m d (qC (Fin.cast nCore_zero c)) ∗ oLoc d ↦[coreSet (Fin.cast nCore_zero c)]{fullShare} VA m d r29)
  dn := fun q d c => match q with
    | 0 => iprop(opnds m d (qC (Fin.cast nCore_zero c))
        ∗ ∃ g, ⌜∀ i : Fin 16, Ok d (wk (Fin.cast nCore_zero c) i) g⌝ ∗ oLoc d ↦[coreSet (Fin.cast nCore_zero c)]{fullShare} g)
  go := fun q d c i => match q with
    | 0 => iprop(opnds m d (qT (Fin.cast nCore_zero c) (Fin.cast nSub_zero i))
        ∗ oLoc d ↦[blkSet (wk (Fin.cast nCore_zero c) (Fin.cast nSub_zero i))]{fullShare} VA m d r29)
  td := fun q d c i => match q with
    | 0 => iprop(opnds m d (qT (Fin.cast nCore_zero c) (Fin.cast nSub_zero i))
        ∗ ∃ g, ⌜Ok d (wk (Fin.cast nCore_zero c) (Fin.cast nSub_zero i)) g⌝
          ∗ oLoc d ↦[blkSet (wk (Fin.cast nCore_zero c) (Fin.cast nSub_zero i))]{fullShare} g)
  x := fun _ _ => iprop(emp)

instance PV_storable : (PV (F := F) m Ok).IsStorable where
  st q d c := match q with
    | 0 => (inferInstance : BI.Storable (upEmb : UEmb _ 𝕄)
        iprop(opnds m d (qC (Fin.cast nCore_zero c)) ∗ oLoc d ↦[coreSet (Fin.cast nCore_zero c)]{fullShare} VA m d r29))
  dn q d c := match q with
    | 0 => (inferInstance : BI.Storable (upEmb : UEmb _ 𝕄)
        iprop(opnds m d (qC (Fin.cast nCore_zero c))
          ∗ ∃ g, ⌜∀ i : Fin 16, Ok d (wk (Fin.cast nCore_zero c) i) g⌝ ∗ oLoc d ↦[coreSet (Fin.cast nCore_zero c)]{fullShare} g))
  go q d c i := match q with
    | 0 => (inferInstance : BI.Storable (upEmb : UEmb _ 𝕄)
        iprop(opnds m d (qT (Fin.cast nCore_zero c) (Fin.cast nSub_zero i))
          ∗ oLoc d ↦[blkSet (wk (Fin.cast nCore_zero c) (Fin.cast nSub_zero i))]{fullShare} VA m d r29))
  td q d c i := match q with
    | 0 => (inferInstance : BI.Storable (upEmb : UEmb _ 𝕄)
        iprop(opnds m d (qT (Fin.cast nCore_zero c) (Fin.cast nSub_zero i))
          ∗ ∃ g, ⌜Ok d (wk (Fin.cast nCore_zero c) (Fin.cast nSub_zero i)) g⌝
            ∗ oLoc d ↦[blkSet (wk (Fin.cast nCore_zero c) (Fin.cast nSub_zero i))]{fullShare} g))

/-! ## The facts joined -/

/-- Sixteen tasks' stretches, each right, are the SparseCore's union, right on each. -/
theorem oTasks_joinV (hloc : OkLocal Ok) (d : Dev nD) (c : Fin 2) :
    (bigSep Finset.univ fun i : Fin 16 => iprop(∃ g, ⌜Ok d (wk c i) g⌝ ∗ oLoc d ↦[blkSet (wk c i)]{fullShare} g))
      ⊢ (iprop(∃ g, ⌜∀ i : Fin 16, Ok d (wk c i) g⌝ ∗ oLoc d ↦[coreSet c]{fullShare} g) : sProp 𝕄) := by
  refine (bigSep_exists_pi Finset.univ
    (fun i (g : Buf (Elt F) (oLoc d)) => iprop(⌜Ok d (wk c i) g⌝ ∗ oLoc d ↦[blkSet (wk c i)]{fullShare} g))).trans ?_
  iintro ⟨%gs, H⟩
  ihave H := (bigSep_pure_sep Finset.univ (fun i => Ok d (wk c i) (gs i)) (fun i => oLoc d ↦[blkSet (wk c i)]{fullShare} gs i)) $$ H
  icases H with ⟨%hok, H⟩
  ihave H' := (pointsTo_biUnion_join Finset.univ (fun i => blkSet (wk c i)) gs (gs 0) (blk_disjoint_task c)) $$ H
  icases H' with ⟨%g, %hg, Hg⟩
  iexists g; isplitr
  · ipureintro; exact fun i => hloc d (wk c i) (gs i) g (fun x hx => hg i (Finset.mem_univ i) x hx) (hok i (Finset.mem_univ i))
  · iexact Hg

/-- The two SparseCores' unions are the whole array, right on every worker's stretch. -/
theorem oCores_joinV (hloc : OkLocal Ok) (d : Dev nD) :
    (bigSep Finset.univ fun c : Fin 2 => iprop(∃ g, ⌜∀ i : Fin 16, Ok d (wk c i) g⌝ ∗ oLoc d ↦[coreSet c]{fullShare} g))
      ⊢ (iprop(∃ g, ⌜∀ w : Fin 32, Ok d w g⌝ ∗ oLoc d ↦{fullShare} g) : sProp 𝕄) := by
  refine (bigSep_exists_pi Finset.univ
    (fun c (g : Buf (Elt F) (oLoc d)) => iprop(⌜∀ i : Fin 16, Ok d (wk c i) g⌝ ∗ oLoc d ↦[coreSet c]{fullShare} g))).trans ?_
  iintro ⟨%gs, H⟩
  ihave H := (bigSep_pure_sep Finset.univ (fun c => ∀ i : Fin 16, Ok d (wk c i) (gs c)) (fun c => oLoc d ↦[coreSet c]{fullShare} gs c)) $$ H
  icases H with ⟨%hok, H⟩
  ihave H' := (pointsTo_biUnion_join Finset.univ coreSet gs (gs 0) coreSet_disjoint) $$ H
  icases H' with ⟨%g, %hg, Hg⟩
  rw [coreSet_cover]
  iexists g; isplitr
  · ipureintro
    intro w
    obtain ⟨c, i, rfl⟩ := wk_surj w
    exact hloc d (wk c i) (gs c) g
      (fun x hx => hg c (Finset.mem_univ c) x (Finset.mem_biUnion.mpr ⟨i, Finset.mem_univ i, hx⟩)) (hok c (Finset.mem_univ c) i)
  · iexact Hg

theorem vecSplitV (hloc : OkLocal Ok) : (K (F := F)).VecSplit' (PV m Ok) 0 := by
  intro d c
  show iprop(opnds m d (qC (Fin.cast nCore_zero c)) ∗ oLoc d ↦[coreSet (Fin.cast nCore_zero c)]{fullShare} VA m d r29) ⊢ |={Set.univ}=> iprop(
      (bigSep Finset.univ fun i : Fin ((K (F := F)).nSub 0) =>
        iprop(opnds m d (qT (Fin.cast nCore_zero c) (Fin.cast nSub_zero i))
          ∗ oLoc d ↦[blkSet (wk (Fin.cast nCore_zero c) (Fin.cast nSub_zero i))]{fullShare} VA m d r29))
      ∗ ((bigSep Finset.univ fun i : Fin ((K (F := F)).nSub 0) =>
          iprop(opnds m d (qT (Fin.cast nCore_zero c) (Fin.cast nSub_zero i))
            ∗ ∃ g, ⌜Ok d (wk (Fin.cast nCore_zero c) (Fin.cast nSub_zero i)) g⌝
              ∗ oLoc d ↦[blkSet (wk (Fin.cast nCore_zero c) (Fin.cast nSub_zero i))]{fullShare} g))
          -∗ iprop(opnds m d (qC (Fin.cast nCore_zero c))
            ∗ ∃ g, ⌜∀ i : Fin 16, Ok d (wk (Fin.cast nCore_zero c) i) g⌝ ∗ oLoc d ↦[coreSet (Fin.cast nCore_zero c)]{fullShare} g)))
  rw [bigSep_tasks (F := F) (fun i => iprop(opnds m d (qT (Fin.cast nCore_zero c) i) ∗ oLoc d ↦[blkSet (wk (Fin.cast nCore_zero c) i)]{fullShare} VA m d r29)),
    bigSep_tasks (F := F) (fun i => iprop(opnds m d (qT (Fin.cast nCore_zero c) i)
      ∗ ∃ g, ⌜Ok d (wk (Fin.cast nCore_zero c) i) g⌝ ∗ oLoc d ↦[blkSet (wk (Fin.cast nCore_zero c) i)]{fullShare} g)),
    bigSep_sep', bigSep_sep', oCore_tasks]
  unfold opnds
  iintro ⟨Hop, Ho⟩
  ihave Hop := (toks_family d (VA m d) (qC (Fin.cast nCore_zero c)) 16 T7).1 $$ Hop
  icases Hop with ⟨Hd, Ht⟩
  imodintro
  isplitl [Ht Ho]
  · isplitl [Ht]; · iexact Ht
    iexact Ho
  iintro ⟨Ht, Ho⟩
  isplitl [Hd Ht]
  · iapply (toks_family d (VA m d) (qC (Fin.cast nCore_zero c)) 16 T7).2
    isplitl [Hd]; · iexact Hd
    iexact Ht
  · iapply (oTasks_joinV Ok hloc d (Fin.cast nCore_zero c)); iexact Ho

/-! ## The task's obligation -/
set_option maxHeartbeats 4000000 in
/-- The task at `L` as in `tile_wrap`, its stretch right at the end. -/
theorem tile_wrapV (hT : TileSpec m Ok) (d : Dev nD) (L : grid0.Coords) (c' : Fin 2) (i' : Fin 16) (hc' : cL L = c') (hi' : jL L = i')
    (hR : Cert.FmSpec.InRange (m (d, Proc.devRef .tc (main_arg1 : Ref sig .tc))) (m (d, Proc.devRef .tc (main_arg2 : Ref sig .tc))))
    (O : CellTallies nD τ sig (HIx 1)) (W : Waits sig (HIx 1)) (hO : ∀ g, O g none = 0) :
    iprop(levAts (K (F := F)).L (K (F := F)).lev ∗ emp
        ∗ (opnds m d (qT c' i') ∗ oLoc d ↦[blkSet (wk c' i')]{fullShare} VA m d r29)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__fm_first_order L (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4)
          fun _ => iprop((opnds m d (qT c' i') ∗ ∃ g, ⌜Ok d (wk c' i') g⌝ ∗ oLoc d ↦[blkSet (wk c' i')]{fullShare} g)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  subst hc'; subst hi'
  rw [(K (F := F)).scopedBufs_V facts d (cV L) (jV L), SparseCore.Cfg.scopedSems0_V (Val := Elt F) d (cV L) (jV L), ownSems0_V, ownBufs_V,
    opnds_eq7]
  iintro ⟨#Hlv, -, ⟨Hops, Ho⟩, ⟨S0, S1, S2, S3, S4, S5, S6, S7, S8, Hbr⟩, ⟨M0, M1, M2, M3, M4, M5, M6, M7, M8, M9, Hsr⟩, HO⟩
  ihave Ho := (Entails.of_eq (pts_oS (F := F) d L _).symm) $$ Ho
  ihave Hwp := (hT d L O W hO (qT (cL L) (jL L)) (VA m d r10) (qT (cL L) (jL L)) (VA m d r8) (qT (cL L) (jL L)) (VA m d r13) (qT (cL L) (jL L)) (VA m d r16) (qT (cL L) (jL L)) (VA m d r18) (qT (cL L) (jL L)) (VA m d r20) (qT (cL L) (jL L)) (VA m d r28) (VA m d r29) (idxOK m d L hR) rfl rfl rfl rfl rfl rfl rfl) $$ [Hlv Hops Ho S0 S1 S2 S3 S4 S5 S6 S7 S8 M0 M1 M2 M3 M4 M5 M6 M7 M8 M9 HO]
  · isplitr; · iexact Hlv
    isplitl [Hops]; · iexact Hops
    isplitl [Ho]; · iexact Ho
    isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [M0 M1 M2 M3 M4 M5 M6 M7 M8 M9]
    · isplitl [M0]; · iexact M0
      isplitl [M1]; · iexact M1
      isplitl [M2]; · iexact M2
      isplitl [M3]; · iexact M3
      isplitl [M4]; · iexact M4
      isplitl [M5]; · iexact M5
      isplitl [M6]; · iexact M6
      isplitl [M7]; · iexact M7
      isplitl [M8]; · iexact M8
      iexact M9
    iexact HO
  iapply (wp_wand frame _ _) $$ Hwp
  iintro %_ ⟨Hops, ⟨%g, %hg, Ho⟩, ⟨S0, S1, S2, S3, S4, S5, S6, S7, S8⟩, ⟨M0, M1, M2, M3, M4, M5, M6, M7, M8, M9⟩, %W', %hW', HW⟩
  isplitl [Hops Ho]
  · isplitl [Hops]; · iexact Hops
    iexists g; isplitr; · ipureintro; exact hg
    iapply (Entails.of_eq (pts_oS (F := F) d L g)); iexact Ho
  isplitl [S0 S1 S2 S3 S4 S5 S6 S7 S8 Hbr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Hbr
  isplitl [M0 M1 M2 M3 M4 M5 M6 M7 M8 M9 Hsr]
  · isplitl [M0]; · iexact M0
    isplitl [M1]; · iexact M1
    isplitl [M2]; · iexact M2
    isplitl [M3]; · iexact M3
    isplitl [M4]; · iexact M4
    isplitl [M5]; · iexact M5
    isplitl [M6]; · iexact M6
    isplitl [M7]; · iexact M7
    isplitl [M8]; · iexact M8
    isplitl [M9]; · iexact M9
    iexact Hsr
  iexists W'; isplitr
  · ipureintro; exact fun p hp => (hW' p hp).imp_right Or.inl
  · iexact HW

set_option maxHeartbeats 4000000 in
/-- `TileObl` at call 0, with the facts. -/
theorem tileOblV (hT : TileSpec m Ok) (hR : ∀ d : Dev nD, Cert.FmSpec.InRange (m (d, Proc.devRef .tc (main_arg1 : Ref sig .tc))) (m (d, Proc.devRef .tc (main_arg2 : Ref sig .tc)))) :
    (K (F := F)).TileObl (D (F := F)) 𝒱 (PV m Ok) v₀ 0 := by
  intro d c i O W hO _ _
  -- this kernel owes nothing for a protocol of its own (`Pay.ox` at its default)
  simp only [show (PV m Ok).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_wrapV m Ok hT d (coordsV ⟨_, hc.1⟩ ⟨_, hc.2⟩) (Fin.cast nCore_zero c) (Fin.cast nSub_zero i) (Fin.ext rfl) (Fin.ext rfl) (hR d) O W hO
  unfold PV; dsimp only
  -- the two statements differ only in how the thread is spelt; with the program named, they are compared without running it
  generalize cc0__fm_first_order (F := F) (coordsV ⟨_, hc.1⟩ ⟨_, hc.2⟩) (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4 = prog at h ⊢
  exact h

/-! ## The launch element, @main, the run -/

theorem hu₀V : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PV m Ok).x q thr) := by
  unfold u₀
  iintro Hu
  ihave H := (ownU_pair _ _) $$ Hu
  icases H with ⟨HH, -⟩
  imodintro
  isplitl [HH]; · iexact HH
  isplitr; · rw [bigSep_emp']; iempintro
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem st0V_eq (d : Dev nD) :
    (bigSep Finset.univ fun c : Fin ((K (F := F)).nCore 0) => (PV m Ok).st 0 d c)
      = iprop((bigSep Finset.univ fun c : Fin 2 => opnds m d (qC c)) ∗ bigSep Finset.univ fun c : Fin 2 => oLoc d ↦[coreSet c]{fullShare} VA m d r29) := by
  rw [← bigSep_sep']
  exact bigSep_cores (F := F) (fun c => iprop(opnds m d (qC c) ∗ oLoc d ↦[coreSet c]{fullShare} VA m d r29))
theorem dn0V_eq (d : Dev nD) :
    (bigSep Finset.univ fun c : Fin ((K (F := F)).nCore 0) => (PV m Ok).dn 0 d c)
      = iprop((bigSep Finset.univ fun c : Fin 2 => opnds m d (qC c))
          ∗ bigSep Finset.univ fun c : Fin 2 => iprop(∃ g, ⌜∀ i : Fin 16, Ok d (wk c i) g⌝ ∗ oLoc d ↦[coreSet c]{fullShare} g)) := by
  rw [← bigSep_sep']
  exact bigSep_cores (F := F) (fun c => iprop(opnds m d (qC c) ∗ ∃ g, ⌜∀ i : Fin 16, Ok d (wk c i) g⌝ ∗ oLoc d ↦[coreSet c]{fullShare} g))

/-- The TensorCore's buffers once the whole of @main has run, the call having left the result array at `g`. -/
def VF (d : Dev nD) (g : Buf (Elt F) (oLoc d)) : Valuation τ sig (Elt F) :=
  StableHlo.after [opPost (F := F)] (Function.update (VA m d) r29 g)

/-- What @main leaves the claim: the argument arrays, whole, and the program's result with the result array it is read
    from, right on every stretch. -/
def FINV (d : Dev nD) : sProp 𝕄 :=
  iprop(held (T d) A7 (VA m d) ∗ ∃ g, ⌜∀ w : Fin 32, Ok d w g⌝ ∗ held (T d) S2 (VF m d g))

theorem hmainV (hloc : OkLocal Ok) (κ : GSem nD τ sig → ℕ) (d : Dev nD) :
    iprop((K (F := F)).ctx EH (PV m Ok) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINV m Ok d) := by
  unfold SparseCore.Cfg.tcRes
  rw [show unscopedBufs d (fun b => m ((SparseCore.T d).loc b)) = held (T d) (Pipeline.ucRefs τ sig) (VL m d)
      from Pipeline.unscopedBufs_held (Ix := HIx 1) (Name := ℕ) (U := UU) (Lvl := ℕ) d (VL m d),
    main_eq, show StableHlo.seq [opPost (F := F)] = (StableHlo.seq [opPost (F := F)] >>= fun u => pure u) from (bind_pure _).symm]
  iintro ⟨#Hctx, Hst, ⟨Hb, Hheld, -, -⟩, -⟩
  iapply (wp_pre m d _) $$ [Hb Hheld]
  · isplitl [Hb]; · iexact Hb
    iexact Hheld
  iintro ⟨Hb, Hheld⟩
  ihave Hheld := (Entails.of_eq (held_parts (F := F) d (VA m d))) $$ Hheld
  icases Hheld with ⟨HA, ⟨H30, Ho, Hop⟩, -⟩
  ihave Hop := (toks_family d (VA m d) fullShare 2 T7).1 $$ Hop
  icases Hop with ⟨Hd, Ht⟩
  ihave Ho := (Entails.of_eq (oAll_cores (F := F) d _)) $$ Ho
  rw [wp_bind]
  iapply ((K (F := F)).wp_run (D (F := F)) 𝒱 (EH := EH) (P := PV m Ok) κ d 0) $$ [Hst Ht Ho Hb HA H30 Hd]
  isplitr; · iexact Hctx
  isplitl [Hst]; · iexact Hst
  isplitl [Ht Ho]
  · iapply (Entails.of_eq (st0V_eq m Ok d).symm)
    isplitl [Ht]; · iexact Ht
    iexact Ho
  iintro ⟨Hst, Hdn⟩
  ihave Hdn' := (Entails.of_eq (dn0V_eq m Ok d)) $$ Hdn
  icases Hdn' with ⟨Ht, Ho⟩
  ihave Ho := (oCores_joinV (F := F) Ok hloc d) $$ Ho
  icases Ho with ⟨%g, %hg, Ho⟩
  iapply (wp_post d (Function.update (VA m d) r29 g)) $$ [Hb H30 Ho]
  · isplitl [Hb]; · iexact Hb
    iapply (Entails.of_eq (held_S2_upd (F := F) d (VA m d) g).symm)
    isplitl [H30]; · iexact H30
    iexact Ho
  iintro ⟨-, Hres⟩
  rw [wp_pure]; imodintro
  isplitl [Hst]; · iexact Hst
  unfold FINV VF
  isplitl [HA]; · iexact HA
  iexists g; isplitr; · ipureintro; exact hg
  iexact Hres

def fqV (d : Dev nD) (s' : Phys nD τ sig (Elt F)) : Prop :=
  (∀ b ∈ A7, s'.mem.mem (d, b) = VA m d b) ∧ ∃ g, (∀ w : Fin 32, Ok d w g) ∧ ∀ b ∈ S2, s'.mem.mem (d, b) = VF m d g b

theorem hfinV (d : Dev nD) (s' : Phys nD τ sig (Elt F)) : iprop(FINV m Ok d ∗ SI s') ⊢ (⌜fqV m Ok d s'⌝ : sProp 𝕄) := by
  show iprop(((bigSep A7 fun b => ((d, b) : Loc nD τ sig) ↦{fullShare} VA m d b)
      ∗ ∃ g, ⌜∀ w : Fin 32, Ok d w g⌝ ∗ bigSep S2 fun b => ((d, b) : Loc nD τ sig) ↦{fullShare} VF m d g b) ∗ SI s') ⊢ _
  iintro ⟨⟨HA, %g, %hg, HS⟩, HSI⟩
  ihave %hA := (SI_pointsTo_bufs_agree (st := s') (qs := fun _ => fullShare) A7) $$ [HSI HA]
  · isplitl [HSI]; · iexact HSI
    iexact HA
  ihave %hS := (SI_pointsTo_bufs_agree (st := s') (qs := fun _ => fullShare) S2) $$ [HSI HS]
  · isplitl [HSI]; · iexact HSI
    iexact HS
  ipureintro; exact ⟨hA, g, hg, hS⟩

/-- The run's post: the argument arrays unchanged, and the program's result read from a result array right on every stretch. -/
def QCV : PUnit × MemSt nD τ sig (Elt F) → Prop := fun r => ∀ c : Dev nD,
  (r.2.mem (c, a0) = m (c, a0)
    ∧ r.2.mem (c, a1) = m (c, a1)
    ∧ r.2.mem (c, a2) = m (c, a2)
    ∧ r.2.mem (c, a3) = m (c, a3)
    ∧ r.2.mem (c, a4) = m (c, a4)
    ∧ r.2.mem (c, a5) = m (c, a5)
    ∧ r.2.mem (c, a6) = m (c, a6))
  ∧ ∃ g, (∀ w : Fin 32, Ok c w g) ∧ r.2.mem (c, r30) = VF m c g r30

theorem run_mainV [∀ e, Nonempty (Elt F e)] (hloc : OkLocal Ok) (hT : TileSpec m Ok)
    (hR : ∀ d : Dev nD, Cert.FmSpec.InRange (m (d, Proc.devRef .tc (main_arg1 : Ref sig .tc))) (m (d, Proc.devRef .tc (main_arg2 : Ref sig .tc)))) :
    θ_run (Cert.KernelIdeal.defs (F := F)) (Cert.KernelIdeal.threads (F := F)) ⟨m, fun _ => 0, ρ⟩ (QCV m Ok) :=
  SparseCore.Cfg.θ_run_sc (K := K (F := F)) (D := D (F := F)) (𝒱 := 𝒱) (EH := EH) (P := PV m Ok) facts v₀
    (fun q hq => match q with | 0 => nomatch hq)
    (fun q _ => match q with | 0 => tileOblV m Ok hT hR)
    (fun q _ => match q with | 0 => SparseCore.Cfg.VecSplit.of_plain (vecSplitV m Ok hloc))
    m ρ main (fun _ => iprop(emp)) (FINV m Ok) (u₀ (F := F)) (sep_elim_left.trans (hu₀V m Ok)) (hmainV m ρ Ok hloc) (fqV m Ok) (hfinV m Ok) (QCV m Ok)
    (fun s' h c => by
      obtain ⟨hc, g, hg, hS⟩ := h c
      refine ⟨⟨?_, ?_, ?_, ?_, ?_, ?_, ?_⟩, g, hg, hS r30 (by simp [S2])⟩
      · rw [hc a0 (by simp [A7]), VA_arg0]
      · rw [hc a1 (by simp [A7]), VA_arg1]
      · rw [hc a2 (by simp [A7]), VA_arg2]
      · rw [hc a3 (by simp [A7]), VA_arg3]
      · rw [hc a4 (by simp [A7]), VA_arg4]
      · rw [hc a5 (by simp [A7]), VA_arg5]
      · rw [hc a6 (by simp [A7]), VA_arg6])

/-- The program's result is the reshape of the result array. -/
theorem VF_r30 (d : Dev nD) (g : Buf (Elt F) (oLoc d)) :
    VF m d g r30 = fun i => shapeCast (main_v30 : Ref sig .tc).ty.shape g shapeCasts_S4096_S4096x1 i := by
  unfold VF opPost
  after_results_simp
  rw [Function.update_self]

end Cert.Proof.LaunchKernelIdeal
end
-- ==== Proof.TileValReads.lean ====
/-
  What one vector subcore's loads read, as entries of the operand arrays. After a stretch of an operand has been copied
  whole into a scratch buffer, a sixteen-lane load at offset `c` of the buffer reads the operand's entries at the
  stretch's start plus `c` plus the lane; the stretch of subcore `w = 2 · subcore + core` starts at `128 · K · w` for a
  `K`-field operand. An indexed load of the landed row of tails, weights and bias with row index `0` reads the row's entry at
  the lane's index. A load covered by one whole-buffer write reads the written payload. These are the links between what
  the subcore's loads read and the pure function `Cert.Proof.KVal.kernelRow`.
-/
import proofs.«207587_g45655502356657_cont_8to1c4_548_39_alg».proof.Proof.Gen.KernelIdeal
import proofs.«207587_g45655502356657_cont_8to1c4_548_39_alg».proof.Proof.KValDef
import Idealize.ShloMosaic.Lib.SparseCore.Ops
import Idealize.ShloMosaic.Lib.Pipeline.FrameBody

noncomputable section

namespace Cert.Proof.TileVal

open Cert.KernelIdeal Cert.KernelIdeal.Gen
open Idealize.ShloMosaic Idealize.ShloMosaic.ValueIdx

variable {F : FTy → Type} {κ : Kind}

/-- (i) A load through a rectangle of a buffer whose whole contents were just replaced by `w`: `w` at the rectangle's
    placement of the lane. -/
theorem readAt_write_whole (b : Ref sig κ) (s : b.ty.Contents (Elt F)) (w : b.ty.shape.Idx → Elt F b.ty.elt)
    (r : LoadRect b.ty.shape) (y : r.shape.Idx) :
    View.readAt (Elt F) (Memref.whole b).view r (View.write (Elt F) (Memref.whole b).view s w Finset.univ) y = w (r.idx y) := by
  simp only [View.readAt_apply, Memref.view_whole, View.write_whole_univ, View.read_whole]

/-- (i') A stretch of an array copied out whole: entry `x` of the copy is the array at the stretch's placement of `x`. -/
theorem landed_slice (b : Ref sig κ) (f : b.ty.Contents (Elt F)) (R : Rect b.ty.shape) (hR : ∀ a, R.stride a = 1)
    (x : R.shape.Idx) :
    (ReadAs.same : ReadAs (Elt F) R.shape b.ty.elt R.shape b.ty.elt).apply
        (View.read (Elt F) ((Memref.whole b).slice R hR).view f) x = f (R.idx x) := by
  simp only [ReadAs.apply_same, Memref.view_slice, Memref.view_whole]
  rfl

/-- (iii) An indexed load: lane `y` reads the base at the index the index vectors name for `y`. -/
theorem loadIdx_apply {s t : Shape} {e : EltTy} (g : Vec F s e) (idxs : Fin s.rank → IVec t 32)
    (h : ∀ a x, (idxs a x).toNat < s.size a) (y : t.Idx) :
    loadIdx g idxs h y = g (fun a => ⟨(idxs a y).toNat, h a y⟩) := rfl

/-- (ii) A covered load after ONE whole-buffer write: the written payload at the box's placement of the lane. -/
theorem readCov_whole [∀ e, Nonempty (Elt F e)] {sp : Space} {s : Shape} {e : EltTy} (v : View sig κ sp s e)
    (w : (Rect.whole s).shape.Idx → Elt F e) (B : LoadRect s) (y : B.shape.Idx) :
    v.readCov [⟨Rect.whole s, w⟩] B y = w (B.idx y) := by
  rw [View.readCov_eq_canon']
  have h := View.canon_cons_emb (Rect.whole s) w [] (B.idx y)
  have e1 : (Rect.whole s).emb (B.idx y) = B.idx y := by
    funext a
    refine Fin.ext ?_
    simp [Rect.whole]
  rw [e1] at h
  exact h

/-- (ii') An indirect gather between flat arrays: position `x` of the result is the source at the row that entry `x` of
    the index list names. -/
theorem gathered_at {N M : Nat} {e : EltTy} (hg : (⟨1, ![N]⟩ : Shape).Gathers 0 ⟨1, ![M]⟩)
    (g : (⟨1, ![N]⟩ : Shape).Idx → Elt F e) (idx : (⟨1, ![M]⟩ : Shape).Idx → Elt F .i32)
    (hn : (⟨1, ![M]⟩ : Shape).numel = (⟨1, ![M]⟩ : Shape).size hg.axis')
    (h : ∀ x, (idx x).toNat < (⟨1, ![N]⟩ : Shape).size hg.axis) (x : (⟨1, ![M]⟩ : Shape).Idx) :
    SparseCore.gatherPayload hg g (SparseCore.rows idx hn h) x = g (ix1 (⟨(idx x).toNat, h x⟩ : Fin N)) := by
  unfold SparseCore.gatherPayload
  refine congrArg g ?_
  funext b
  obtain rfl : b = 0 := Subsingleton.elim _ _
  refine Fin.ext ?_
  have e1 : hg.idx (SparseCore.rows idx hn h) x hg.axis = SparseCore.rows idx hn h (x hg.axis') :=
    Shape.Gathers.idx_axis hg _ x
  show (hg.idx (SparseCore.rows idx hn h) x hg.axis).val = (idx x).toNat
  rw [e1]
  unfold SparseCore.rows
  show (idx ((⟨1, ![M]⟩ : Shape).rowMajor.symm ((x hg.axis').cast hn.symm))).toNat = (idx x).toNat
  have e2 : (⟨1, ![M]⟩ : Shape).rowMajor.symm ((x hg.axis').cast hn.symm) = x := by
    rw [Equiv.symm_apply_eq]
    refine Fin.ext ?_
    rw [Shape.rowMajor_val_one]
    rfl
  rw [e2]

/-- The subcore number of grid point `L`: two cores, sixteen subcores each, core-minor. -/
abbrev wOf (L : grid0.Coords) : Nat := 2 * (L 1).val + (L 0).val

/-- THE TOKEN-INDEX LOAD: sixteen lanes at offset `c` of the landed stretch of the offset-index operand are the operand's
    entries `3328 · w + c + lane`. -/
theorem ids_at (L : grid0.Coords) (f8 : (main_v8_scv : Ref sig .scVector).ty.Contents (Elt F))
    (s1 : (cc0_scratch1 : Ref sig .scVector).ty.Contents (Elt F)) (c : Nat)
    (inb : ∀ a, (![c] : Fin 1 → Nat) a + S16.size a ≤ S3328.size a)
    (inb' : ∀ a, k0_off1 L a + S3328.size a ≤ S106496.size a) (hr) (y : S16.Idx) :
    View.readAt (Elt F) (Memref.whole cc0_scratch1 : Memref sig .scVector .vmem S3328 .i32).view
        (Rect.unit (s := S3328) ![c] S16.size inb).toLoadRect
        (View.write (Elt F) (Memref.whole cc0_scratch1 : Memref sig .scVector .vmem S3328 .i32).view s1
          ((ReadAs.same : ReadAs (Elt F) S3328 .i32 S3328 .i32).apply
            (View.read (Elt F) ((Memref.whole main_v8_scv : Memref sig .scVector .hbm S106496 .i32).slice
              (Rect.unit (s := S106496) (k0_off1 L) S3328.size inb') hr).view f8)) Finset.univ) y
      = Cert.Proof.KVal.rdW (N := 106496) f8 (3328 * wOf L + c + (y 0).val) := by
  rw [readAt_write_whole]
  show f8 ((Rect.unit (s := S106496) (k0_off1 L) S3328.size inb').idx ((Rect.unit (s := S3328) ![c] S16.size inb).idx y)) = _
  have hc : c + 16 ≤ 3328 := inb 0
  have hL0 : (L 0).val < 2 := (L 0).isLt
  have hL1 : (L 1).val < 16 := (L 1).isLt
  have hy : (y 0).val < 16 := (y 0).isLt
  rw [Cert.Proof.KVal.rdW_of_lt _ (by show 3328 * (2 * (L 1).val + (L 0).val) + c + (y 0).val < 106496; omega)]
  refine congrArg f8 ?_
  funext a
  refine Fin.ext ?_
  match a with
  | ⟨0, _⟩ =>
    show k0_off1 L 0 + 1 * (c + 1 * (y 0).val) = 3328 * (2 * (L 1).val + (L 0).val) + c + (y 0).val
    rw [k0_off1_eq]
    show 6656 * (L 1).val + 3328 * (L 0).val + 1 * (c + 1 * (y 0).val) = _
    omega

/-- THE FLOAT-FIELD LOAD: sixteen lanes at offset `c` of the landed stretch of the float operand are the operand's entries
    `1664 · w + c + lane`. -/
theorem flt_at (L : grid0.Coords) (s6 : (cc0_scratch6 : Ref sig .scVector).ty.Contents (Elt Ideal)) (c : Nat)
    (inb : ∀ a, (![c] : Fin 1 → Nat) a + S16.size a ≤ S1664.size a)
    (inb' : ∀ a, k0_off3 L a + S1664.size a ≤ S53248.size a) (hr)
    (f16 : (main_v16_scv : Ref sig .scVector).ty.Contents (Elt Ideal)) (y : S16.Idx) :
    View.readAt (Elt Ideal) (Memref.whole cc0_scratch6 : Memref sig .scVector .vmem S1664 .f32).view
        (Rect.unit (s := S1664) ![c] S16.size inb).toLoadRect
        (View.write (Elt Ideal) (Memref.whole cc0_scratch6 : Memref sig .scVector .vmem S1664 .f32).view s6
          ((ReadAs.same : ReadAs (Elt Ideal) S1664 .f32 S1664 .f32).apply
            (View.read (Elt Ideal) ((Memref.whole main_v16_scv : Memref sig .scVector .hbm S53248 .f32).slice
              (Rect.unit (s := S53248) (k0_off3 L) S1664.size inb') hr).view f16)) Finset.univ) y
      = Cert.Proof.KVal.rdF (N := 53248) f16 (1664 * wOf L + c + (y 0).val) := by
  rw [readAt_write_whole]
  show f16 ((Rect.unit (s := S53248) (k0_off3 L) S1664.size inb').idx ((Rect.unit (s := S1664) ![c] S16.size inb).idx y)) = _
  have hc : c + 16 ≤ 1664 := inb 0
  have hL0 : (L 0).val < 2 := (L 0).isLt
  have hL1 : (L 1).val < 16 := (L 1).isLt
  have hy : (y 0).val < 16 := (y 0).isLt
  rw [Cert.Proof.KVal.rdF_of_lt _ (by show 1664 * (2 * (L 1).val + (L 0).val) + c + (y 0).val < 53248; omega)]
  refine congrArg f16 ?_
  funext a
  refine Fin.ext ?_
  match a with
  | ⟨0, _⟩ =>
    show k0_off3 L 0 + 1 * (c + 1 * (y 0).val) = 1664 * (2 * (L 1).val + (L 0).val) + c + (y 0).val
    rw [k0_off3_eq]
    show 3328 * (L 1).val + 1664 * (L 0).val + 1 * (c + 1 * (y 0).val) = _
    omega

/-- THE INDEXED LOAD OF THE ROW OF TAILS, WEIGHTS AND BIAS: with the row index `0` in every lane, lane `y` reads the
    operand's entry at the lane index. -/
theorem aux_at (f28 : (main_v28_scv : Ref sig .scVector).ty.Contents (Elt Ideal))
    (s7 : (cc0_scratch7 : Ref sig .scVector).ty.Contents (Elt Ideal)) (idx : IVec S16 32)
    (h : ∀ a x, ((![broadcast S16 0#32, idx] : Fin 2 → IVec S16 32) a x).toNat < S1x128.size a) (y : S16.Idx) :
    loadIdx (View.readAt (Elt Ideal) (Memref.whole cc0_scratch7 : Memref sig .scVector .vmem S1x128 .f32).view (LoadRect.whole S1x128)
        (View.write (Elt Ideal) (Memref.whole cc0_scratch7 : Memref sig .scVector .vmem S1x128 .f32).view s7
          ((ReadAs.same : ReadAs (Elt Ideal) S1x128 .f32 S1x128 .f32).apply
            (View.read (Elt Ideal) (Memref.whole main_v28_scv : Memref sig .scVector .hbm S1x128 .f32).view f28)) Finset.univ))
        ![broadcast S16 0#32, idx] h y
      = Cert.Proof.KVal.auxAt f28 (idx y).toNat := by
  rw [loadIdx_apply, readAt_write_whole]
  have hlt : (idx y).toNat < 128 := h 1 y
  rw [Cert.Proof.KVal.auxAt_of_lt _ hlt]
  show f28 _ = f28 _
  refine congrArg f28 ?_
  funext a
  refine Fin.ext ?_
  match a with
  | ⟨0, _⟩ => rfl
  | ⟨1, _⟩ =>
    show 0 + 1 * (idx y).toNat = (idx y).toNat
    omega

/-- THE CUT-TABLE VALUES: after the clamped indices `W` have landed in the index scratch and the indirect gather through them
    has filled the value scratch, sixteen lanes at offset `c` of the value scratch are the cut table's rows at the landed
    indices `c + lane`. -/
theorem cut_at [∀ e, Nonempty (Elt Ideal e)] (f18 : (main_v18_scv : Ref sig .scVector).ty.Contents (Elt Ideal))
    (s0 : (cc0_scratch0 : Ref sig .scVector).ty.Contents (Elt Ideal)) (W : S3328.Idx → Elt Ideal .i32)
    (inb18 : ∀ a, (![0] : Fin 1 → Nat) a + S2599936.size a ≤ S2599936.size a) (hr18)
    (hn : S3328.numel = S3328.size gathers_S2599936_S3328.axis')
    (hin : ∀ j : S3328.Idx, (View.read (Elt Ideal) (Memref.whole cc0_scratch0 : Memref sig .scVector .vmem S3328 .i32).view
        (View.write (Elt Ideal) (Memref.whole cc0_scratch0 : Memref sig .scVector .vmem S3328 .i32).view s0 W Finset.univ) j).toNat
          < S2599936.size gathers_S2599936_S3328.axis)
    (c : Nat) (inb : ∀ a, (![c] : Fin 1 → Nat) a + S16.size a ≤ S3328.size a) (y : S16.Idx) :
    (Memref.whole cc0_scratch2 : Memref sig .scVector .vmem S3328 .f32).view.readCov
        [⟨Rect.whole S3328, SparseCore.gatherPayload gathers_S2599936_S3328
            (View.read (Elt Ideal) ((Memref.whole main_v18_scv : Memref sig .scVector .hbm S2599936 .f32).slice
              (Rect.unit (s := S2599936) ![0] S2599936.size inb18) hr18).view f18)
            (SparseCore.rows (View.read (Elt Ideal) (Memref.whole cc0_scratch0 : Memref sig .scVector .vmem S3328 .i32).view
              (View.write (Elt Ideal) (Memref.whole cc0_scratch0 : Memref sig .scVector .vmem S3328 .i32).view s0 W Finset.univ))
              hn hin)⟩]
        (Rect.unit (s := S3328) ![c] S16.size inb).toLoadRect y
      = Cert.Proof.KVal.rdF (N := 2599936) f18 (Cert.Proof.KVal.rdW (N := 3328) W (c + (y 0).val)).toNat := by
  have hc : c + 16 ≤ 3328 := inb 0
  have hy : (y 0).val < 16 := (y 0).isLt
  have hcy : c + (y 0).val < 3328 := by omega
  have eW : View.read (Elt Ideal) (Memref.whole cc0_scratch0 : Memref sig .scVector .vmem S3328 .i32).view
      (View.write (Elt Ideal) (Memref.whole cc0_scratch0 : Memref sig .scVector .vmem S3328 .i32).view s0 W Finset.univ) = W := by
    simp only [Memref.view_whole, View.write_whole_univ, View.read_whole]
  have ei : (Rect.unit (s := S3328) ![c] S16.size inb).toLoadRect.idx y = ix1 (⟨c + (y 0).val, hcy⟩ : Fin 3328) := by
    funext a
    refine Fin.ext ?_
    match a with
    | ⟨0, _⟩ =>
      show c + 1 * (y 0).val = c + (y 0).val
      omega
  rw [Cert.Proof.KVal.rdW_of_lt _ hcy]
  have hlt : (W (ix1 (⟨c + (y 0).val, hcy⟩ : Fin 3328))).toNat < 2599936 := by
    have := hin (ix1 (⟨c + (y 0).val, hcy⟩ : Fin 3328))
    rw [eW] at this
    exact this
  rw [Cert.Proof.KVal.rdF_of_lt _ hlt]
  refine (readCov_whole (F := Ideal) (Memref.whole cc0_scratch2 : Memref sig .scVector .vmem S3328 .f32).view _
    (Rect.unit (s := S3328) ![c] S16.size inb).toLoadRect y).trans ?_
  rw [ei]
  refine (gathered_at (F := Ideal) gathers_S2599936_S3328 _ _ hn hin (ix1 (⟨c + (y 0).val, hcy⟩ : Fin 3328))).trans ?_
  show f18 _ = f18 _
  refine congrArg f18 ?_
  funext a
  refine Fin.ext ?_
  match a with
  | ⟨0, _⟩ =>
    show 0 + 1 * (View.read (Elt Ideal) (Memref.whole cc0_scratch0 : Memref sig .scVector .vmem S3328 .i32).view
      (View.write (Elt Ideal) (Memref.whole cc0_scratch0 : Memref sig .scVector .vmem S3328 .i32).view s0 W Finset.univ)
      (ix1 (⟨c + (y 0).val, hcy⟩ : Fin 3328))).toNat = (W (ix1 (⟨c + (y 0).val, hcy⟩ : Fin 3328))).toNat
    rw [eW]
    omega

/-- Lane forms of the word operations. -/
theorem cmpi_lane {s : Shape} {w : Nat} (p : CmpIPredicate) (a b : IVec s w) (y : s.Idx) :
    cmpi p a b y = IntOp.cmpi p (a y) (b y) := rfl
theorem maxsi_lane {s : Shape} {w : Nat} (a b : IVec s w) (y : s.Idx) : maxsi a b y = IntOp.maxsi (a y) (b y) := rfl
theorem subi_lane {s : Shape} {w : Nat} (a b : IVec s w) (y : s.Idx) : subi a b y = IntOp.subi (a y) (b y) := rfl
theorem addi_lane {s : Shape} {w : Nat} (a b : IVec s w) (y : s.Idx) : addi a b y = IntOp.addi (a y) (b y) := rfl

/-- THE LANDED CLAMPED INDICES: entry `n` of the landed stretch of the clamped-index operand is the operand's entry
    `3328 · w + n`. -/
theorem clampedW_at (L : grid0.Coords) (f10 : (main_v10_scv : Ref sig .scVector).ty.Contents (Elt Ideal))
    (inb' : ∀ a, k0_off1 L a + S3328.size a ≤ S106496.size a) (hr) (n : Nat) (hn : n < 3328) :
    Cert.Proof.KVal.rdW (N := 3328) ((ReadAs.same : ReadAs (Elt Ideal) S3328 .i32 S3328 .i32).apply
        (View.read (Elt Ideal) ((Memref.whole main_v10_scv : Memref sig .scVector .hbm S106496 .i32).slice
          (Rect.unit (s := S106496) (k0_off1 L) S3328.size inb') hr).view f10)) n
      = Cert.Proof.KVal.rdW (N := 106496) f10 (3328 * wOf L + n) := by
  have hL0 : (L 0).val < 2 := (L 0).isLt
  have hL1 : (L 1).val < 16 := (L 1).isLt
  rw [Cert.Proof.KVal.rdW_of_lt _ hn,
    Cert.Proof.KVal.rdW_of_lt _ (by show 3328 * (2 * (L 1).val + (L 0).val) + n < 106496; omega)]
  show f10 ((Rect.unit (s := S106496) (k0_off1 L) S3328.size inb').idx (ix1 (⟨n, hn⟩ : Fin 3328))) = _
  refine congrArg f10 ?_
  funext a
  refine Fin.ext ?_
  match a with
  | ⟨0, _⟩ =>
    show k0_off1 L 0 + 1 * n = 3328 * (2 * (L 1).val + (L 0).val) + n
    rw [k0_off1_eq]
    show 6656 * (L 1).val + 3328 * (L 0).val + 1 * n = _
    omega

/-! ## The same reads, the buffers' views written as whole views -/

theorem ids_atV (L : grid0.Coords) (f8 : (main_v8_scv : Ref sig .scVector).ty.Contents (Elt Ideal))
    (s1 : (cc0_scratch1 : Ref sig .scVector).ty.Contents (Elt Ideal)) (c : Nat)
    (inb : ∀ a, (![c] : Fin 1 → Nat) a + S16.size a ≤ S3328.size a)
    (inb' : ∀ a, k0_off1 L a + S3328.size a ≤ S106496.size a) (y : S16.Idx) :
    View.readAt (Elt Ideal) (View.whole (cc0_scratch1 : Ref sig .scVector)) (Rect.unit (s := S3328) ![c] S16.size inb).toLoadRect
        (View.write (Elt Ideal) (View.whole (cc0_scratch1 : Ref sig .scVector)) s1
          ((ReadAs.same : ReadAs (Elt Ideal) S3328 .i32 S3328 .i32).apply
            (View.read (Elt Ideal) ((View.whole (main_v8_scv : Ref sig .scVector)).slice (Rect.unit (s := S106496) (k0_off1 L) S3328.size inb')) f8))
          Finset.univ) y
      = Cert.Proof.KVal.rdW (N := 106496) f8 (3328 * wOf L + c + (y 0).val) :=
  ids_at (F := Ideal) L f8 s1 c inb inb' (fun _ => rfl) y

theorem flt_atV (L : grid0.Coords) (s6 : (cc0_scratch6 : Ref sig .scVector).ty.Contents (Elt Ideal)) (c : Nat)
    (inb : ∀ a, (![c] : Fin 1 → Nat) a + S16.size a ≤ S1664.size a)
    (inb' : ∀ a, k0_off3 L a + S1664.size a ≤ S53248.size a)
    (f16 : (main_v16_scv : Ref sig .scVector).ty.Contents (Elt Ideal)) (y : S16.Idx) :
    View.readAt (Elt Ideal) (View.whole (cc0_scratch6 : Ref sig .scVector)) (Rect.unit (s := S1664) ![c] S16.size inb).toLoadRect
        (View.write (Elt Ideal) (View.whole (cc0_scratch6 : Ref sig .scVector)) s6
          ((ReadAs.same : ReadAs (Elt Ideal) S1664 .f32 S1664 .f32).apply
            (View.read (Elt Ideal) ((View.whole (main_v16_scv : Ref sig .scVector)).slice (Rect.unit (s := S53248) (k0_off3 L) S1664.size inb')) f16))
          Finset.univ) y
      = Cert.Proof.KVal.rdF (N := 53248) f16 (1664 * wOf L + c + (y 0).val) :=
  flt_at L s6 c inb inb' (fun _ => rfl) f16 y

theorem aux_atV (f28 : (main_v28_scv : Ref sig .scVector).ty.Contents (Elt Ideal))
    (s7 : (cc0_scratch7 : Ref sig .scVector).ty.Contents (Elt Ideal)) (idx : IVec S16 32)
    (h : ∀ a x, ((![broadcast S16 0#32, idx] : Fin 2 → IVec S16 32) a x).toNat < S1x128.size a) (y : S16.Idx) :
    loadIdx (View.readAt (Elt Ideal) (View.whole (cc0_scratch7 : Ref sig .scVector)) (LoadRect.whole S1x128)
        (View.write (Elt Ideal) (View.whole (cc0_scratch7 : Ref sig .scVector)) s7
          ((ReadAs.same : ReadAs (Elt Ideal) S1x128 .f32 S1x128 .f32).apply
            (View.read (Elt Ideal) (View.whole (main_v28_scv : Ref sig .scVector)) f28)) Finset.univ))
        ![broadcast S16 0#32, idx] h y
      = Cert.Proof.KVal.auxAt f28 (idx y).toNat :=
  aux_at f28 s7 idx h y

theorem cut_atV [∀ e, Nonempty (Elt Ideal e)] (f18 : (main_v18_scv : Ref sig .scVector).ty.Contents (Elt Ideal))
    (s0 : (cc0_scratch0 : Ref sig .scVector).ty.Contents (Elt Ideal)) (W : S3328.Idx → Elt Ideal .i32)
    (inb18 : ∀ a, (![0] : Fin 1 → Nat) a + S2599936.size a ≤ S2599936.size a)
    (hn : S3328.numel = S3328.size gathers_S2599936_S3328.axis')
    (hin : ∀ j : S3328.Idx, (View.read (Elt Ideal) (View.whole (cc0_scratch0 : Ref sig .scVector))
        (View.write (Elt Ideal) (View.whole (cc0_scratch0 : Ref sig .scVector)) s0 W Finset.univ) j).toNat
          < S2599936.size gathers_S2599936_S3328.axis)
    (c : Nat) (inb : ∀ a, (![c] : Fin 1 → Nat) a + S16.size a ≤ S3328.size a) (y : S16.Idx) :
    (View.whole (cc0_scratch2 : Ref sig .scVector)).readCov
        [⟨Rect.whole (cc0_scratch2 : Ref sig .scVector).ty.shape, SparseCore.gatherPayload gathers_S2599936_S3328
            (View.read (Elt Ideal) ((View.whole (main_v18_scv : Ref sig .scVector)).slice (Rect.unit (s := S2599936) ![0] S2599936.size inb18)) f18)
            (SparseCore.rows (View.read (Elt Ideal) (View.whole (cc0_scratch0 : Ref sig .scVector))
              (View.write (Elt Ideal) (View.whole (cc0_scratch0 : Ref sig .scVector)) s0 W Finset.univ)) hn hin)⟩]
        (Rect.unit (s := S3328) ![c] S16.size inb).toLoadRect y
      = Cert.Proof.KVal.rdF (N := 2599936) f18 (Cert.Proof.KVal.rdW (N := 3328) W (c + (y 0).val)).toNat :=
  cut_at f18 s0 W inb18 (fun _ => rfl) hn hin c inb y

theorem clampedW_atV (L : grid0.Coords) (f10 : (main_v10_scv : Ref sig .scVector).ty.Contents (Elt Ideal))
    (inb' : ∀ a, k0_off1 L a + S3328.size a ≤ S106496.size a) (n : Nat) (hn : n < 3328) :
    Cert.Proof.KVal.rdW (N := 3328) ((ReadAs.same : ReadAs (Elt Ideal) S3328 .i32 S3328 .i32).apply
        (View.read (Elt Ideal) ((View.whole (main_v10_scv : Ref sig .scVector)).slice (Rect.unit (s := S106496) (k0_off1 L) S3328.size inb')) f10)) n
      = Cert.Proof.KVal.rdW (N := 106496) f10 (3328 * wOf L + n) :=
  clampedW_at L f10 inb' (fun _ => rfl) n hn

/-- THE CUT-TABLE VALUES, in the operands: with the clamped-index stretch landed in the index scratch, sixteen lanes at offset
    `c` of the gathered values are the cut table's rows at the clamped indices `3328 · w + c + lane`. -/
theorem cut_at2V [∀ e, Nonempty (Elt Ideal e)] (L : grid0.Coords)
    (f18 : (main_v18_scv : Ref sig .scVector).ty.Contents (Elt Ideal))
    (f10 : (main_v10_scv : Ref sig .scVector).ty.Contents (Elt Ideal))
    (s0 : (cc0_scratch0 : Ref sig .scVector).ty.Contents (Elt Ideal))
    (inb10 : ∀ a, k0_off1 L a + S3328.size a ≤ S106496.size a)
    (inb18 : ∀ a, (![0] : Fin 1 → Nat) a + S2599936.size a ≤ S2599936.size a)
    (hn : S3328.numel = S3328.size gathers_S2599936_S3328.axis')
    (hin : ∀ j : S3328.Idx, (View.read (Elt Ideal) (View.whole (cc0_scratch0 : Ref sig .scVector))
        (View.write (Elt Ideal) (View.whole (cc0_scratch0 : Ref sig .scVector)) s0
          ((ReadAs.same : ReadAs (Elt Ideal) S3328 .i32 S3328 .i32).apply
            (View.read (Elt Ideal) ((View.whole (main_v10_scv : Ref sig .scVector)).slice (Rect.unit (s := S106496) (k0_off1 L) S3328.size inb10)) f10))
          Finset.univ) j).toNat < S2599936.size gathers_S2599936_S3328.axis)
    (c : Nat) (inb : ∀ a, (![c] : Fin 1 → Nat) a + S16.size a ≤ S3328.size a) (y : S16.Idx) :
    (View.whole (cc0_scratch2 : Ref sig .scVector)).readCov
        [⟨Rect.whole (cc0_scratch2 : Ref sig .scVector).ty.shape, SparseCore.gatherPayload gathers_S2599936_S3328
            (View.read (Elt Ideal) ((View.whole (main_v18_scv : Ref sig .scVector)).slice (Rect.unit (s := S2599936) ![0] S2599936.size inb18)) f18)
            (SparseCore.rows (View.read (Elt Ideal) (View.whole (cc0_scratch0 : Ref sig .scVector))
              (View.write (Elt Ideal) (View.whole (cc0_scratch0 : Ref sig .scVector)) s0
                ((ReadAs.same : ReadAs (Elt Ideal) S3328 .i32 S3328 .i32).apply
                  (View.read (Elt Ideal) ((View.whole (main_v10_scv : Ref sig .scVector)).slice (Rect.unit (s := S106496) (k0_off1 L) S3328.size inb10)) f10))
                Finset.univ)) hn hin)⟩]
        (Rect.unit (s := S3328) ![c] S16.size inb).toLoadRect y
      = Cert.Proof.KVal.rdF (N := 2599936) f18
          (Cert.Proof.KVal.rdW (N := 106496) f10 (3328 * wOf L + c + (y 0).val)).toNat := by
  have hc : c + 16 ≤ 3328 := inb 0
  have hy : (y 0).val < 16 := (y 0).isLt
  rw [cut_atV f18 s0 _ inb18 hn hin c inb y, clampedW_atV L f10 inb10 (c + (y 0).val) (by omega), Nat.add_assoc]

/-- The same, the buffers' views written through their memrefs. -/
theorem cut_at2 [∀ e, Nonempty (Elt Ideal e)] (L : grid0.Coords)
    (f18 : (main_v18_scv : Ref sig .scVector).ty.Contents (Elt Ideal))
    (f10 : (main_v10_scv : Ref sig .scVector).ty.Contents (Elt Ideal))
    (s0 : (cc0_scratch0 : Ref sig .scVector).ty.Contents (Elt Ideal))
    (inb10 : ∀ a, k0_off1 L a + S3328.size a ≤ S106496.size a) (hr10)
    (inb18 : ∀ a, (![0] : Fin 1 → Nat) a + S2599936.size a ≤ S2599936.size a) (hr18)
    (hn : S3328.numel = S3328.size gathers_S2599936_S3328.axis')
    (hin : ∀ j : S3328.Idx, (View.read (Elt Ideal) (Memref.whole cc0_scratch0 : Memref sig .scVector .vmem S3328 .i32).view
        (View.write (Elt Ideal) (Memref.whole cc0_scratch0 : Memref sig .scVector .vmem S3328 .i32).view s0
          ((ReadAs.same : ReadAs (Elt Ideal) S3328 .i32 S3328 .i32).apply
            (View.read (Elt Ideal) ((Memref.whole main_v10_scv : Memref sig .scVector .hbm S106496 .i32).slice (Rect.unit (s := S106496) (k0_off1 L) S3328.size inb10) hr10).view f10))
          Finset.univ) j).toNat < S2599936.size gathers_S2599936_S3328.axis)
    (c : Nat) (inb : ∀ a, (![c] : Fin 1 → Nat) a + S16.size a ≤ S3328.size a) (y : S16.Idx) :
    (Memref.whole cc0_scratch2 : Memref sig .scVector .vmem S3328 .f32).view.readCov
        [⟨Rect.whole (cc0_scratch2 : Ref sig .scVector).ty.shape, SparseCore.gatherPayload gathers_S2599936_S3328
            (View.read (Elt Ideal) ((Memref.whole main_v18_scv : Memref sig .scVector .hbm S2599936 .f32).slice (Rect.unit (s := S2599936) ![0] S2599936.size inb18) hr18).view f18)
            (SparseCore.rows (View.read (Elt Ideal) (Memref.whole cc0_scratch0 : Memref sig .scVector .vmem S3328 .i32).view
              (View.write (Elt Ideal) (Memref.whole cc0_scratch0 : Memref sig .scVector .vmem S3328 .i32).view s0
                ((ReadAs.same : ReadAs (Elt Ideal) S3328 .i32 S3328 .i32).apply
                  (View.read (Elt Ideal) ((Memref.whole main_v10_scv : Memref sig .scVector .hbm S106496 .i32).slice (Rect.unit (s := S106496) (k0_off1 L) S3328.size inb10) hr10).view f10))
                Finset.univ)) hn hin)⟩]
        (Rect.unit (s := S3328) ![c] S16.size inb).toLoadRect y
      = Cert.Proof.KVal.rdF (N := 2599936) f18
          (Cert.Proof.KVal.rdW (N := 106496) f10 (3328 * wOf L + c + (y 0).val)).toNat :=
  cut_at2V L f18 f10 s0 inb10 inb18 hn hin c inb y

end Cert.Proof.TileVal

end
-- ==== Proof.TileValSpec.lean ====
/-
  From the task's obligation stated with the scores it writes — every word of its stretch of the result array is
  `Cert.Proof.KVal.kernelRow` of the seven operand contents at the stretch's row — to the obligation in the form the
  value-carrying launch takes (`LaunchValKernelIdeal.TileSpec`), at the predicate "worker `w`'s 128 rows hold the kernel's
  scores of the operands the call hands over". The stretch's word `y` is word `128 (2 i + c) + y` of the result array.
-/
import proofs.«207587_g45655502356657_cont_8to1c4_548_39_alg».proof.Proof.LaunchValKernelIdeal
import proofs.«207587_g45655502356657_cont_8to1c4_548_39_alg».proof.Proof.KValHost
import proofs.«207587_g45655502356657_cont_8to1c4_548_39_alg».proof.Proof.TileValReads

noncomputable section

namespace Cert.Proof.LaunchKernelIdeal

open Cert.KernelIdeal Cert.KernelIdeal.Gen
open Cert.Proof.TileKernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (m : (ℓ : Loc nD τ sig) → Buf (Elt Ideal) ℓ)

/-- Worker `w`'s 128 rows of the result array hold the kernel's scores of the operands the call hands over. -/
def OkRow (d : Dev nD) (w : Fin 32) (g : Buf (Elt Ideal) (oLoc d)) : Prop :=
  ∀ r : Fin 128, g (ix1 (⟨128 * w.val + r.val, by have := w.isLt; have := r.isLt; omega⟩ : Fin 4096))
    = Cert.Proof.KVal.kernelRow (VA m d r8) (VA m d r10) (VA m d r13) (VA m d r16) (VA m d r18) (VA m d r20) (VA m d r28)
        ⟨128 * w.val + r.val, by have := w.isLt; have := r.isLt; omega⟩

/-- Row `128 w + r` is one of worker `w`'s. -/
theorem mem_blk (w : Fin 32) (r : Fin 128) :
    (ix1 (⟨128 * w.val + r.val, by have := w.isLt; have := r.isLt; omega⟩ : Fin 4096) : S4096.Idx) ∈ blkSet w := by
  show _ ∈ (Rect.part (s := S4096) (a₀ := 0) hdiv32 w).set
  unfold Rect.part Rect.block
  rw [Rect.mem_set_unit]
  refine Fin.forall_fin_one.mpr ?_
  have hr := r.isLt
  simp [Shape.partIx, Shape.partSize]
  omega

theorem okRow_local : OkLocal (OkRow m) := by
  intro d w g g' h hg r
  rw [h _ (mem_blk w r)]
  exact hg r

/-- The task's obligation with the scores it writes. -/
def TileBodyVal : Prop :=
  ∀ (d : Dev nD) (L : grid0.Coords) (O : CellTallies nD τ sig (HIx 1)) (W : Waits sig (HIx 1)) (hO : ∀ g, O g none = 0)
    (q10 : PosShare TreeShare) (f10 : Buf (Elt Ideal) ((Memref.whole main_v10_scv : Memref sig .scVector .hbm S106496 .i32).view.loc (V d (cV L) (jV L))))
    (q8 : PosShare TreeShare) (f8 : Buf (Elt Ideal) ((Memref.whole main_v8_scv : Memref sig .scVector .hbm S106496 .i32).view.loc (V d (cV L) (jV L))))
    (q13 : PosShare TreeShare) (f13 : Buf (Elt Ideal) ((Memref.whole main_v13_scv : Memref sig .scVector .hbm S819200 .i32).view.loc (V d (cV L) (jV L))))
    (q16 : PosShare TreeShare) (f16 : Buf (Elt Ideal) ((Memref.whole main_v16_scv : Memref sig .scVector .hbm S53248 .f32).view.loc (V d (cV L) (jV L))))
    (q18 : PosShare TreeShare) (f18 : Buf (Elt Ideal) ((Memref.whole main_v18_scv : Memref sig .scVector .hbm S2599936 .f32).view.loc (V d (cV L) (jV L))))
    (q20 : PosShare TreeShare) (f20 : Buf (Elt Ideal) ((Memref.whole main_v20_scv : Memref sig .scVector .hbm S99968 .f32).view.loc (V d (cV L) (jV L))))
    (q28 : PosShare TreeShare) (f28 : Buf (Elt Ideal) ((Memref.whole main_v28_scv : Memref sig .scVector .hbm S1x128 .f32).view.loc (V d (cV L) (jV L))))
    (f29 : Buf (Elt Ideal) ((oS L).view.loc (V d (cV L) (jV L))))
    (hidx : IdxOK d L f10 f8 f13),
    (iprop(levAts (K (F := Ideal)).L (K (F := Ideal)).lev
        ∗ (((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
        ∗ ((oS L).view.loc (V d (cV L) (jV L)) ↦[(oS L).view.set]{fullShare} f29)
        ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
        ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
        ∗ owes (V d (cV L) (jV L)) O W) : sProp (MT nD τ sig (HIx 1) (Elt Ideal) ℕ UU ℕ))
      ⊢ wp frame (wpE (defs₀ (F := Ideal)) 𝒱₀ (V d (cV L) (jV L)) none) Set.univ
          (cc0__fm_first_order L (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4)
          fun _ => (iprop((((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
            ∗ (∃ f, ⌜∀ y : S128.Idx, (oS L).view.read (Elt Ideal) f y = Cert.Proof.KVal.kernelRow f8 f10 f13 f16 f18 f20 f28 ⟨128 * Cert.Proof.TileVal.wOf L + (y 0).val, by have h0 : (L 0).val < 2 := (L 0).isLt; have h1 : (L 1).val < 16 := (L 1).isLt; have hy : (y 0).val < 128 := (y 0).isLt; show 128 * (2 * (L 1).val + (L 0).val) + (y 0).val < 4096; omega⟩⌝ ∗ (oS L).view.loc (V d (cV L) (jV L)) ↦[(oS L).view.set]{fullShare} f)
            ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
            ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
            ∗ ∃ W', ⌜∀ p ∈ W', p ∈ W ∨ p.2 = none⌝ ∗ owes (V d (cV L) (jV L)) O W') : sProp (MT nD τ sig (HIx 1) (Elt Ideal) ℕ UU ℕ))

/-- The stretch's word `y`, read through the task's slice, is word `128 (2 i + c) + y` of the result array. -/
theorem read_oS (L : grid0.Coords) (d : Dev nD) (f : Buf (Elt Ideal) (oLoc d)) (r : Fin 128) :
    (oS L).view.read (Elt Ideal) f (ix1 r)
      = f (ix1 (⟨128 * (wk (cL L) (jL L)).val + r.val, by have := (wk (cL L) (jL L)).isLt; have := r.isLt; omega⟩ : Fin 4096)) := by
  rw [View.read_apply]
  show f ((oS L).view.emb (ix1 r)) = _
  refine congrArg f ?_
  funext a
  refine Fin.ext ?_
  match a with
  | ⟨0, _⟩ =>
    show k0_off69 L 0 + 1 * r.val = 128 * (2 * (L 1).val + (L 0).val) + r.val
    rw [k0_off69_eq]
    show 256 * (L 1).val + 128 * (L 0).val + 1 * r.val = _
    omega

/-- From the obligation with the scores to the obligation the value-carrying launch takes. -/
theorem tileSpec_of_val (hV : TileBodyVal) : TileSpec (F := Ideal) m (OkRow m) := by
  intro d L O W hO q10 f10 q8 f8 q13 f13 q16 f16 q18 f18 q20 f20 q28 f28 f29 hidx h10 h8 h13 h16 h18 h20 h28
  subst h10 h8 h13 h16 h18 h20 h28
  refine (hV d L O W hO q10 _ q8 _ q13 _ q16 _ q18 _ q20 _ q28 _ f29 hidx).trans (wp_mono frame _ _ fun _ => ?_)
  iintro ⟨Hops, ⟨%f, %hf, Ho⟩, Hrest⟩
  isplitl [Hops]; · iexact Hops
  isplitl [Ho]
  · iexists f; isplitr
    · ipureintro
      intro r
      have h := hf (ix1 r)
      rw [read_oS L d f r] at h
      rw [h]
      congr 1
    · iexact Ho
  · iexact Hrest

end Cert.Proof.LaunchKernelIdeal
end
-- ==== Proof.KernelValue.lean ====
/-
  The idealized kernel program's run with its result: if every task ends with its stretch of the result array at the
  kernel's scores (`TileBodyVal`), the program ends with its result — the reshape of the result array — at the
  specification's score of its arguments (`Cert.FmSpec.score`), and its arguments unchanged. The value-carrying launch
  gives a result array right on all thirty-two stretches; the reshape `[4096] → [4096, 1]` reads word `b` at `(b, 0)`;
  word `b` belongs to worker `b / 128` at row `b % 128`; and the kernel's score of a row is the specification's
  (`Cert.Proof.KVal.kernelRow_eq_score`).
-/
import proofs.«207587_g45655502356657_cont_8to1c4_548_39_alg».proof.Proof.TileValSpec
import proofs.«207587_g45655502356657_cont_8to1c4_548_39_alg».proof.Proof.KVal

noncomputable section

namespace Cert.Proof.LaunchKernelIdeal

open Cert.KernelIdeal Cert.KernelIdeal.Gen
open Idealize.ShloMosaic Idealize.ShloMosaic.ValueIdx Idealize.SL.Sem

variable (m : (ℓ : Loc nD τ sig) → Buf (Elt Ideal) ℓ) (ρ : Dev nD → PrngReg)

/-- A result array right on every worker's stretch, reshaped, is the specification's score. -/
theorem reshape_score (d : Dev nD) (hR : Cert.FmSpec.InRange (m (d, a1)) (m (d, a2)))
    (g : Buf (Elt Ideal) (oLoc d)) (hg : ∀ w : Fin 32, OkRow m d w g) :
    (fun i => shapeCast (main_v30 : Ref sig .tc).ty.shape g shapeCasts_S4096_S4096x1 i)
      = Cert.FmSpec.score (m (d, a0)) (m (d, a1)) (m (d, a2)) (m (d, a3)) (m (d, a4)) (m (d, a5)) (m (d, a6)) := by
  rw [← Cert.Proof.KVal.kernelRow_eq_score_fun m d hR]
  funext i
  have hi : (i 0).val < 4096 := (i 0).isLt
  have hi1 : (i 1).val < 1 := (i 1).isLt
  refine (shapeCast_apply (s := S4096) (t := S4096x1) g shapeCasts_S4096_S4096x1 i (ix1 (⟨(i 0).val, hi⟩ : Fin 4096))
    (by rw [Shape.rowMajor_val_one, Shape.rowMajor_val_two]; show (i 0).val = (i 0).val * 1 + (i 1).val; omega)).trans ?_
  have h := hg ⟨(i 0).val / 128, by omega⟩ ⟨(i 0).val % 128, Nat.mod_lt _ (by omega)⟩
  have e : (⟨128 * ((i 0).val / 128) + (i 0).val % 128, by omega⟩ : Fin 4096) = ⟨(i 0).val, hi⟩ := Fin.ext (Nat.div_add_mod _ _)
  simp only [e] at h
  exact h

/-- THE KERNEL'S VALUE, from the task's obligation with the scores. -/
theorem kernel_run_value_of [∀ e, Nonempty (Elt Ideal e)] (hV : TileBodyVal)
    (hR : ∀ d : Dev nD, Cert.FmSpec.InRange (m (d, a1)) (m (d, a2))) :
    θ_run (Cert.KernelIdeal.defs (F := Ideal)) (Cert.KernelIdeal.threads (F := Ideal)) ⟨m, fun _ => 0, ρ⟩
      (fun r => ∀ c : Dev nD,
        r.2.mem (c, r30) = Cert.FmSpec.score (m (c, a0)) (m (c, a1)) (m (c, a2)) (m (c, a3)) (m (c, a4)) (m (c, a5)) (m (c, a6))
        ∧ r.2.mem (c, a0) = m (c, a0) ∧ r.2.mem (c, a1) = m (c, a1) ∧ r.2.mem (c, a2) = m (c, a2) ∧ r.2.mem (c, a3) = m (c, a3)
        ∧ r.2.mem (c, a4) = m (c, a4) ∧ r.2.mem (c, a5) = m (c, a5) ∧ r.2.mem (c, a6) = m (c, a6)) :=
  (θ_run _ _ _).mono
    (fun r h c => by
      obtain ⟨hargs, g, hg, h30⟩ := h c
      refine ⟨?_, hargs⟩
      rw [h30, VF_r30]
      exact reshape_score m c (hR c) g hg)
    (run_mainV (F := Ideal) m ρ (OkRow m) (okRow_local m) (tileSpec_of_val m hV) hR)

end Cert.Proof.LaunchKernelIdeal
end
-- ==== Proof.TileValStab.lean ====
/-
  What the sequence-table scratch of one vector subcore holds when the sequence loops read it, as a pure function of the
  cut sequence table and the row of tails, weights and bias. The scratch is filled in three pieces — the two halves of the
  cut table by two copies, the last 32 rows by two sixteen-word stores of entries `64 … 95` of the row of tails — which are
  then joined; a last store reads the first sixteen words and writes them back with word `0` replaced by zero (the padding
  row). `joined_eq` names the contents after the join (`stabPre`), `head_eq` the contents after the last store
  (`Cert.Proof.KVal.stab`), `stab_contents` both; each for any payloads that read the table and the row as the copies and
  the indexed loads do.
-/
import proofs.«207587_g45655502356657_cont_8to1c4_548_39_alg».proof.Proof.Gen.KernelIdeal
import proofs.«207587_g45655502356657_cont_8to1c4_548_39_alg».proof.Proof.KValDef
import Idealize.ShloMosaic.Lib.Writes
import proofs.«207587_g45655502356657_cont_8to1c4_548_39_alg».proof.Proof.Gen.KernelIdeal.Skeleton

noncomputable section

namespace Cert.Proof.TileVal

open Cert.KernelIdeal Cert.KernelIdeal.Gen
open Idealize.ShloMosaic Idealize.ShloMosaic.ValueIdx
open Cert.Proof.KVal

/-- The first half of the sequence-table scratch, as the task's first table copy slices it; -/
abbrev sA : Memref sig .scVector .vmem S49984 .f32 :=
  (Memref.whole cc0_scratch3 : Memref sig .scVector .vmem S100000 .f32).slice (Rect.unit (s := S100000) ![0] S49984.size inb_S100000_S49984_0) (fun _ => rfl)
/-- its second half, as the second table copy slices it. -/
abbrev sB : Memref sig .scVector .vmem S49984 .f32 :=
  (Memref.whole cc0_scratch3 : Memref sig .scVector .vmem S100000 .f32).slice (Rect.unit (s := S100000) ![49984] S49984.size inb_S100000_S49984_49984) (fun _ => rfl)

variable (f20 : FVec Ideal ⟨1, ![99968]⟩ .f32) (f28 : FVec Ideal ⟨2, ![1, 128]⟩ .f32)

/-- The sequence table as the subcore holds it before its first row is zeroed. -/
def stabPre (n : Nat) : EReal := if n < 99968 then rdF f20 n else auxAt f28 (64 + (n - 99968))

theorem stab_eq (n : Nat) : stab f20 f28 n = if n = 0 then 0 else stabPre f20 f28 n := rfl

theorem mem_sA (x : S100000.Idx) : x ∈ (sA : Memref sig .scVector .vmem S49984 .f32).view.set ↔ (x 0).val < 49984 := by
  show x ∈ ((View.whole (cc0_scratch3 : Ref sig .scVector)).slice (Rect.unit (s := S100000) ![0] S49984.size inb_S100000_S49984_0)).set ↔ _
  rw [View.set_slice_whole, Rect.mem_set_unit]
  constructor
  · intro h; have := h 0; simp at this; exact this
  · intro h; exact Fin.forall_fin_one.mpr (by simp; exact h)

theorem mem_sB (x : S100000.Idx) : x ∈ (sB : Memref sig .scVector .vmem S49984 .f32).view.set ↔ 49984 ≤ (x 0).val ∧ (x 0).val < 99968 := by
  show x ∈ ((View.whole (cc0_scratch3 : Ref sig .scVector)).slice (Rect.unit (s := S100000) ![49984] S49984.size inb_S100000_S49984_49984)).set ↔ _
  rw [View.set_slice_whole, Rect.mem_set_unit]
  constructor
  · intro h; have := h 0; simp at this; omega
  · intro h; exact Fin.forall_fin_one.mpr (by simp; omega)

/-- A half's copy reads, at word `y` of the half, the payload's word `y`. -/
theorem read_sA (s3 : (cc0_scratch3 : Ref sig .scVector).ty.Contents (Elt Ideal))
    (p : (Rect.whole S49984).shape.Idx → EReal) (y : S49984.Idx) :
    (sA : Memref sig .scVector .vmem S49984 .f32).view.writes (Elt Ideal) s3 [⟨Rect.whole S49984, p⟩]
      ((sA : Memref sig .scVector .vmem S49984 .f32).view.emb y) = p y := by
  have h := View.read_writes_cons_emb (sA : Memref sig .scVector .vmem S49984 .f32).view s3 (Rect.whole S49984) p [] y
  rw [Rect.emb_whole_apply] at h
  rw [View.read_apply] at h; simpa using h

theorem read_sB (s3 : (cc0_scratch3 : Ref sig .scVector).ty.Contents (Elt Ideal))
    (p : (Rect.whole S49984).shape.Idx → EReal) (y : S49984.Idx) :
    (sB : Memref sig .scVector .vmem S49984 .f32).view.writes (Elt Ideal) s3 [⟨Rect.whole S49984, p⟩]
      ((sB : Memref sig .scVector .vmem S49984 .f32).view.emb y) = p y := by
  have h := View.read_writes_cons_emb (sB : Memref sig .scVector .vmem S49984 .f32).view s3 (Rect.whole S49984) p [] y
  rw [Rect.emb_whole_apply] at h
  rw [View.read_apply] at h; simpa using h

theorem emb_sA (y : S49984.Idx) : ((sA : Memref sig .scVector .vmem S49984 .f32).view.emb y 0).val = (y 0).val := by
  show ((Rect.unit (s := S100000) ![0] S49984.size inb_S100000_S49984_0).emb y 0).val = _
  rw [Rect.emb_apply]; simp
theorem emb_sB (y : S49984.Idx) : ((sB : Memref sig .scVector .vmem S49984 .f32).view.emb y 0).val = 49984 + (y 0).val := by
  show ((Rect.unit (s := S100000) ![49984] S49984.size inb_S100000_S49984_49984).emb y 0).val = _
  rw [Rect.emb_apply]; simp

/-- THE SCRATCH AFTER THE TWO TABLE COPIES AND THE TWO TAIL STORES, the three pieces joined: word `n` is the cut table's
    row `n` below the cut and entry `64 + (n − 99968)` of the row of tails past it. -/
theorem joined_eq (s3 : (cc0_scratch3 : Ref sig .scVector).ty.Contents (Elt Ideal))
    (pA pB : (Rect.whole S49984).shape.Idx → EReal)
    (t1 : (Rect.unit (s := S100000) ![99984] S16.size inb_S100000_S16_99984).shape.Idx → EReal)
    (t0 : (Rect.unit (s := S100000) ![99968] S16.size inb_S100000_S16_99968).shape.Idx → EReal)
    (hA : ∀ y, pA y = rdF f20 (y 0).val) (hB : ∀ y, pB y = rdF f20 (49984 + (y 0).val))
    (h0 : ∀ y, t0 y = auxAt f28 (64 + (y 0).val)) (h1 : ∀ y, t1 y = auxAt f28 (80 + (y 0).val)) (x : S100000.Idx) :
    ((sA : Memref sig .scVector .vmem S49984 .f32).view.set.piecewise
        ((sA : Memref sig .scVector .vmem S49984 .f32).view.writes (Elt Ideal) s3 [⟨Rect.whole S49984, pA⟩])
        ((sB : Memref sig .scVector .vmem S49984 .f32).view.set.piecewise
          ((sB : Memref sig .scVector .vmem S49984 .f32).view.writes (Elt Ideal) s3 [⟨Rect.whole S49984, pB⟩])
          ((Memref.whole cc0_scratch3 : Memref sig .scVector .vmem S100000 .f32).view.writes (Elt Ideal) s3
            [⟨Rect.unit (s := S100000) ![99984] S16.size inb_S100000_S16_99984, t1⟩,
             ⟨Rect.unit (s := S100000) ![99968] S16.size inb_S100000_S16_99968, t0⟩]))) x
      = stabPre f20 f28 (x 0).val := by
  unfold stabPre
  by_cases hxA : x ∈ (sA : Memref sig .scVector .vmem S49984 .f32).view.set
  · rw [Finset.piecewise_eq_of_mem _ _ _ hxA]
    have hlt := (mem_sA x).mp hxA
    obtain ⟨y, -, rfl⟩ := Finset.mem_map.mp hxA
    rw [read_sA, hA, emb_sA, if_pos (by rw [emb_sA] at hlt; omega)]
  · rw [Finset.piecewise_eq_of_notMem _ _ _ hxA]
    have hge : 49984 ≤ (x 0).val := by have := (mem_sA x).not.mp hxA; omega
    by_cases hxB : x ∈ (sB : Memref sig .scVector .vmem S49984 .f32).view.set
    · rw [Finset.piecewise_eq_of_mem _ _ _ hxB]
      have hlt := (mem_sB x).mp hxB
      obtain ⟨y, -, rfl⟩ := Finset.mem_map.mp hxB
      rw [read_sB, hB, emb_sB, if_pos (by rw [emb_sB] at hlt; exact hlt.2)]
    · rw [Finset.piecewise_eq_of_notMem _ _ _ hxB]
      have hge2 : 99968 ≤ (x 0).val := by have := (mem_sB x).not.mp hxB; omega
      rw [if_neg (by omega)]
      have hr := View.read_writes_apply_of_pieces (Memref.whole cc0_scratch3 : Memref sig .scVector .vmem S100000 .f32).view s3
        (fun z : S100000.Idx => auxAt f28 (64 + ((z 0).val - 99968)))
        [⟨Rect.unit (s := S100000) ![99984] S16.size inb_S100000_S16_99984, t1⟩,
         ⟨Rect.unit (s := S100000) ![99968] S16.size inb_S100000_S16_99968, t0⟩]
        (by
          intro p hp z
          rcases List.mem_cons.mp hp with rfl | hp
          · have e : ((Rect.unit (s := S100000) ![99984] S16.size inb_S100000_S16_99984).emb z 0).val = 99984 + (z 0).val := by
              rw [Rect.emb_apply]; simp
            show t1 z = auxAt f28 (64 + (((Rect.unit (s := S100000) ![99984] S16.size inb_S100000_S16_99984).emb z 0).val - 99968))
            rw [h1, e, show 64 + (99984 + (z 0).val - 99968) = 80 + (z 0).val from by omega]
          · obtain rfl := List.mem_singleton.mp hp
            have e : ((Rect.unit (s := S100000) ![99968] S16.size inb_S100000_S16_99968).emb z 0).val = 99968 + (z 0).val := by
              rw [Rect.emb_apply]; simp
            show t0 z = auxAt f28 (64 + (((Rect.unit (s := S100000) ![99968] S16.size inb_S100000_S16_99968).emb z 0).val - 99968))
            rw [h0, e, show 64 + (99968 + (z 0).val - 99968) = 64 + (z 0).val from by omega])
        x
        (by
          have hx : (x 0).val < 100000 := (x 0).isLt
          by_cases h84 : 99984 ≤ (x 0).val
          · exact ⟨⟨Rect.unit (s := S100000) ![99984] S16.size inb_S100000_S16_99984, t1⟩, List.mem_cons_self,
              (Rect.mem_set_unit (inb := inb_S100000_S16_99984)).mpr (Fin.forall_fin_one.mpr (by simp; omega))⟩
          · exact ⟨⟨Rect.unit (s := S100000) ![99968] S16.size inb_S100000_S16_99968, t0⟩, List.mem_cons_of_mem _ List.mem_cons_self,
              (Rect.mem_set_unit (inb := inb_S100000_S16_99968)).mpr (Fin.forall_fin_one.mpr (by simp; omega))⟩)
      simpa using hr

/-- The float constant `+0.0` is the extended real `0`. -/
theorem ofBits_zero : (Scalar.ofBits .f32 0x00000000#32 : Ideal .f32) = 0 := by
  show Ideal.ofBits .f32 0x00000000#32 = 0
  simp [Ideal.ofBits, Ideal.ieee]

/-- THE HEAD STORE: the first sixteen words read, the first of them replaced by zero, stored back: from the table as
    copied, `stabPre`, to the table as the loops read it, `KVal.stab`. -/
theorem head_eq (G : (cc0_scratch3 : Ref sig .scVector).ty.Contents (Elt Ideal)) (hG : ∀ x : S100000.Idx, G x = stabPre f20 f28 (x 0).val)
    (v0 : IVec S16 32) (hv0 : ∀ y : S16.Idx, (v0 y).toNat = (y 0).val) (x : S100000.Idx) :
    (Memref.whole cc0_scratch3 : Memref sig .scVector .vmem S100000 .f32).view.writes (Elt Ideal) G
        [⟨Rect.unit (s := S100000) ![0] S16.size inb_S100000_S16_0,
          k0_pay372 (F := Ideal) v0 (View.readAt (Elt Ideal) (Memref.whole cc0_scratch3 : Memref sig .scVector .vmem S100000 .f32).view
            (Rect.unit (s := S100000) ![0] S16.size inb_S100000_S16_0).toLoadRect G)⟩] x
      = stab f20 f28 (x 0).val := by
  rw [stab_eq]
  by_cases hx : x ∈ (Rect.unit (s := S100000) ![0] S16.size inb_S100000_S16_0).set
  · obtain ⟨y, rfl⟩ := (Rect.unit (s := S100000) ![0] S16.size inb_S100000_S16_0).exists_idx_of_mem hx
    have e : ((Rect.unit (s := S100000) ![0] S16.size inb_S100000_S16_0).idx y 0).val = (y 0).val := by
      show ((Rect.unit (s := S100000) ![0] S16.size inb_S100000_S16_0).emb y 0).val = _
      rw [Rect.emb_apply]; simp
    have hr := View.read_writes_cons_emb (Memref.whole cc0_scratch3 : Memref sig .scVector .vmem S100000 .f32).view G
      (Rect.unit (s := S100000) ![0] S16.size inb_S100000_S16_0)
      (k0_pay372 (F := Ideal) v0 (View.readAt (Elt Ideal) (Memref.whole cc0_scratch3 : Memref sig .scVector .vmem S100000 .f32).view
        (Rect.unit (s := S100000) ![0] S16.size inb_S100000_S16_0).toLoadRect G)) [] y
    simp only [Memref.view_whole, View.read_whole] at hr
    show (Memref.whole cc0_scratch3 : Memref sig .scVector .vmem S100000 .f32).view.writes (Elt Ideal) G _
      ((Rect.unit (s := S100000) ![0] S16.size inb_S100000_S16_0).emb y) = _
    simp only [Memref.view_whole]
    rw [hr]
    show k0_pay372 (F := Ideal) v0 _ y = if ((Rect.unit (s := S100000) ![0] S16.size inb_S100000_S16_0).idx y 0).val = 0 then 0
      else stabPre f20 f28 ((Rect.unit (s := S100000) ![0] S16.size inb_S100000_S16_0).idx y 0).val
    rw [e]
    unfold k0_pay372
    simp only [select, cmpi, broadcast, View.readAt_apply, View.read_whole, ofBits_zero]
    by_cases hy : (y 0).val = 0
    · have : v0 y = 0#32 := BitVec.eq_of_toNat_eq (by rw [hv0, hy]; rfl)
      rw [if_pos hy, this]
      rfl
    · have : v0 y ≠ 0#32 := fun h => hy (by rw [← hv0, h]; rfl)
      rw [if_neg hy]
      have hc : IntOp.cmpi .eq (v0 y) 0#32 = 0#1 := by
        unfold IntOp.cmpi
        have hb : (v0 y == 0#32) = false := by simpa using this
        simp only [hb]; rfl
      rw [hc, select_zero, hG]
      congr 1
  · have hx0 : ¬ (x 0).val < 16 := fun h => hx ((Rect.mem_set_unit (inb := inb_S100000_S16_0)).mpr (Fin.forall_fin_one.mpr (by simp; omega)))
    have hr := View.read_writes_apply_of_forall_not_mem (Memref.whole cc0_scratch3 : Memref sig .scVector .vmem S100000 .f32).view G x
      [⟨Rect.unit (s := S100000) ![0] S16.size inb_S100000_S16_0,
        k0_pay372 (F := Ideal) v0 (View.readAt (Elt Ideal) (Memref.whole cc0_scratch3 : Memref sig .scVector .vmem S100000 .f32).view
          (Rect.unit (s := S100000) ![0] S16.size inb_S100000_S16_0).toLoadRect G)⟩]
      (by intro p hp; obtain rfl := List.mem_singleton.mp hp; exact hx)
    simp only [Memref.view_whole, View.read_whole] at hr
    simp only [Memref.view_whole]
    rw [hr, if_neg (by omega), hG]

/-- Both steps: the joined pieces, then the head store, leave `KVal.stab`. -/
theorem stab_contents (s3 : (cc0_scratch3 : Ref sig .scVector).ty.Contents (Elt Ideal))
    (pA pB : (Rect.whole S49984).shape.Idx → EReal)
    (t1 : (Rect.unit (s := S100000) ![99984] S16.size inb_S100000_S16_99984).shape.Idx → EReal)
    (t0 : (Rect.unit (s := S100000) ![99968] S16.size inb_S100000_S16_99968).shape.Idx → EReal)
    (hA : ∀ y, pA y = rdF f20 (y 0).val) (hB : ∀ y, pB y = rdF f20 (49984 + (y 0).val))
    (h0 : ∀ y, t0 y = auxAt f28 (64 + (y 0).val)) (h1 : ∀ y, t1 y = auxAt f28 (80 + (y 0).val))
    (v0 : IVec S16 32) (hv0 : ∀ y : S16.Idx, (v0 y).toNat = (y 0).val) (x : S100000.Idx) :
    let G := (sA : Memref sig .scVector .vmem S49984 .f32).view.set.piecewise
        ((sA : Memref sig .scVector .vmem S49984 .f32).view.writes (Elt Ideal) s3 [⟨Rect.whole S49984, pA⟩])
        ((sB : Memref sig .scVector .vmem S49984 .f32).view.set.piecewise
          ((sB : Memref sig .scVector .vmem S49984 .f32).view.writes (Elt Ideal) s3 [⟨Rect.whole S49984, pB⟩])
          ((Memref.whole cc0_scratch3 : Memref sig .scVector .vmem S100000 .f32).view.writes (Elt Ideal) s3
            [⟨Rect.unit (s := S100000) ![99984] S16.size inb_S100000_S16_99984, t1⟩,
             ⟨Rect.unit (s := S100000) ![99968] S16.size inb_S100000_S16_99968, t0⟩]))
    (Memref.whole cc0_scratch3 : Memref sig .scVector .vmem S100000 .f32).view.writes (Elt Ideal) G
        [⟨Rect.unit (s := S100000) ![0] S16.size inb_S100000_S16_0,
          k0_pay372 (F := Ideal) v0 (View.readAt (Elt Ideal) (Memref.whole cc0_scratch3 : Memref sig .scVector .vmem S100000 .f32).view
            (Rect.unit (s := S100000) ![0] S16.size inb_S100000_S16_0).toLoadRect G)⟩] x
      = stab f20 f28 (x 0).val :=
  head_eq f20 f28 _ (joined_eq f20 f28 s3 pA pB t1 t0 hA hB h0 h1) v0 hv0 x

end Cert.Proof.TileVal
end
-- ==== Proof.TileValLoop.lean ====
/-
  One trip of a sequence loop of one vector subcore, as pure equations. In chunk `c`, trip `k`, group `g`, the subcore
  loads sixteen sequence tokens — entries `25600 · w + 128 · (25 c + k) + 16 g + lane` of the permuted sequence operand, out
  of the chunk buffer the stretch `[25600 · w + 3200 · c, + 3200)` was copied into —, reads the sequence table scratch at
  each (an indexed load of the whole scratch), and adds the rows to the group's accumulator: lane by lane the accumulator
  goes from `KVal.seqAcc … s` to `KVal.seqAcc … (s + 1)`, `s = 25 c + k`.
-/
import proofs.«207587_g45655502356657_cont_8to1c4_548_39_alg».proof.Proof.TileValReads
import proofs.«207587_g45655502356657_cont_8to1c4_548_39_alg».proof.Proof.TileValStab

noncomputable section

namespace Cert.Proof.TileVal

open Cert.KernelIdeal Cert.KernelIdeal.Gen
open Idealize.ShloMosaic Idealize.ShloMosaic.ValueIdx
open Cert.Proof.KVal

variable {F : FTy → Type}

/-- THE SEQUENCE-INDEX LOAD out of chunk buffer one: sixteen lanes at offset `offc` of a landed stretch of the sequence-index
    operand that starts at `off` are the operand's entries `off + offc + lane`. -/
theorem seq_ids_at4 (f13 : (main_v13_scv : Ref sig .scVector).ty.Contents (Elt F))
    (s : (cc0_scratch4 : Ref sig .scVector).ty.Contents (Elt F)) (off offc : Fin 1 → Nat)
    (inb : ∀ a, offc a + S16.size a ≤ S3200.size a)
    (inb' : ∀ a, off a + S3200.size a ≤ S819200.size a) (hr) (y : S16.Idx) :
    View.readAt (Elt F) (Memref.whole cc0_scratch4 : Memref sig .scVector .vmem S3200 .i32).view
        (Rect.unit (s := S3200) offc S16.size inb).toLoadRect
        (View.write (Elt F) (Memref.whole cc0_scratch4 : Memref sig .scVector .vmem S3200 .i32).view s
          ((ReadAs.same : ReadAs (Elt F) S3200 .i32 S3200 .i32).apply
            (View.read (Elt F) ((Memref.whole main_v13_scv : Memref sig .scVector .hbm S819200 .i32).slice
              (Rect.unit (s := S819200) off S3200.size inb') hr).view f13)) Finset.univ) y
      = Cert.Proof.KVal.rdW (N := 819200) f13 (off 0 + offc 0 + (y 0).val) := by
  rw [readAt_write_whole]
  show f13 ((Rect.unit (s := S819200) off S3200.size inb').idx ((Rect.unit (s := S3200) offc S16.size inb).idx y)) = _
  have hc : offc 0 + 16 ≤ 3200 := inb 0
  have ho : off 0 + 3200 ≤ 819200 := inb' 0
  have hy : (y 0).val < 16 := (y 0).isLt
  rw [Cert.Proof.KVal.rdW_of_lt _ (by omega)]
  refine congrArg f13 ?_
  funext a
  refine Fin.ext ?_
  match a with
  | ⟨0, _⟩ =>
    show off 0 + 1 * (offc 0 + 1 * (y 0).val) = off 0 + offc 0 + (y 0).val
    omega

/-- THE SEQUENCE-INDEX LOAD out of chunk buffer two: sixteen lanes at offset `offc` of a landed stretch of the sequence-index
    operand that starts at `off` are the operand's entries `off + offc + lane`. -/
theorem seq_ids_at5 (f13 : (main_v13_scv : Ref sig .scVector).ty.Contents (Elt F))
    (s : (cc0_scratch5 : Ref sig .scVector).ty.Contents (Elt F)) (off offc : Fin 1 → Nat)
    (inb : ∀ a, offc a + S16.size a ≤ S3200.size a)
    (inb' : ∀ a, off a + S3200.size a ≤ S819200.size a) (hr) (y : S16.Idx) :
    View.readAt (Elt F) (Memref.whole cc0_scratch5 : Memref sig .scVector .vmem S3200 .i32).view
        (Rect.unit (s := S3200) offc S16.size inb).toLoadRect
        (View.write (Elt F) (Memref.whole cc0_scratch5 : Memref sig .scVector .vmem S3200 .i32).view s
          ((ReadAs.same : ReadAs (Elt F) S3200 .i32 S3200 .i32).apply
            (View.read (Elt F) ((Memref.whole main_v13_scv : Memref sig .scVector .hbm S819200 .i32).slice
              (Rect.unit (s := S819200) off S3200.size inb') hr).view f13)) Finset.univ) y
      = Cert.Proof.KVal.rdW (N := 819200) f13 (off 0 + offc 0 + (y 0).val) := by
  rw [readAt_write_whole]
  show f13 ((Rect.unit (s := S819200) off S3200.size inb').idx ((Rect.unit (s := S3200) offc S16.size inb).idx y)) = _
  have hc : offc 0 + 16 ≤ 3200 := inb 0
  have ho : off 0 + 3200 ≤ 819200 := inb' 0
  have hy : (y 0).val < 16 := (y 0).isLt
  rw [Cert.Proof.KVal.rdW_of_lt _ (by omega)]
  refine congrArg f13 ?_
  funext a
  refine Fin.ext ?_
  match a with
  | ⟨0, _⟩ =>
    show off 0 + 1 * (offc 0 + 1 * (y 0).val) = off 0 + offc 0 + (y 0).val
    omega

/-- THE TABLE READ: an indexed load of the whole sequence-table scratch, at contents that are `KVal.stab`, reads
    `KVal.stab` at each lane's token. -/
theorem stab_gather (f20 : FVec Ideal ⟨1, ![99968]⟩ .f32) (f28 : FVec Ideal ⟨2, ![1, 128]⟩ .f32)
    (G : (cc0_scratch3 : Ref sig .scVector).ty.Contents (Elt Ideal)) (hG : ∀ x : S100000.Idx, G x = stab f20 f28 (x 0).val)
    (ids : IVec S16 32) (h : ∀ a x, ((![ids] : Fin 1 → IVec S16 32) a x).toNat < S100000.size a) (y : S16.Idx) :
    loadIdx (View.readAt (Elt Ideal) (Memref.whole cc0_scratch3 : Memref sig .scVector .vmem S100000 .f32).view (LoadRect.whole S100000) G)
        ![ids] h y
      = stab f20 f28 (ids y).toNat := by
  rw [loadIdx_apply]
  simp only [View.readAt_apply, Memref.view_whole, View.read_whole]
  rw [hG]
  congr 1
  show (LoadRect.whole S100000).off 0 + (LoadRect.whole S100000).stride 0 * (ids y).toNat = (ids y).toNat
  show 0 + 1 * (ids y).toNat = (ids y).toNat
  omega

/-- THE STEP: the accumulator of group `g` after `s` sequence tokens, plus the table's rows at the next sixteen tokens, is
    the accumulator after `s + 1`. -/
theorem seq_step (f8 f10 : IVec ⟨1, ![106496]⟩ 32) (f13 : IVec ⟨1, ![819200]⟩ 32) (f16 : FVec Ideal ⟨1, ![53248]⟩ .f32)
    (f18 : FVec Ideal ⟨1, ![2599936]⟩ .f32) (f20 : FVec Ideal ⟨1, ![99968]⟩ .f32) (f28 : FVec Ideal ⟨2, ![1, 128]⟩ .f32)
    (w g s : Nat) (acc vs : FVec Ideal S16 .f32) (ids : IVec S16 32)
    (hacc : ∀ y : S16.Idx, acc y = seqAcc f8 f10 f13 f16 f18 f20 f28 w (16 * g + (y 0).val) s)
    (hids : ∀ y : S16.Idx, ids y = rdW f13 (25600 * w + 128 * s + (16 * g + (y 0).val)))
    (hvs : ∀ y : S16.Idx, vs y = stab f20 f28 (ids y).toNat) (y : S16.Idx) :
    addf acc vs y = seqAcc f8 f10 f13 f16 f18 f20 f28 w (16 * g + (y 0).val) (s + 1) := by
  rw [seqAcc_succ, addf_apply, hacc, hvs, hids]
  rfl

/-- ONE GROUP'S TRIP out of chunk buffer one: the accumulator after `25 c + k` sequence tokens, plus the table's rows at the
    sixteen tokens loaded at offset `128 k + 16 g` of the landed chunk `c`, is the accumulator after one token more. -/
theorem trip_group4 (f8 f10 : IVec ⟨1, ![106496]⟩ 32) (f13 : IVec ⟨1, ![819200]⟩ 32) (f16 : FVec Ideal ⟨1, ![53248]⟩ .f32)
    (f18 : FVec Ideal ⟨1, ![2599936]⟩ .f32) (f20 : FVec Ideal ⟨1, ![99968]⟩ .f32) (f28 : FVec Ideal ⟨2, ![1, 128]⟩ .f32)
    (w g c k : Nat) (s : (cc0_scratch4 : Ref sig .scVector).ty.Contents (Elt Ideal)) (off offc : Fin 1 → Nat)
    (inb : ∀ a, offc a + S16.size a ≤ S3200.size a) (inb' : ∀ a, off a + S3200.size a ≤ S819200.size a) (hr)
    (hoff : off 0 = 25600 * w + 3200 * c) (hoffc : offc 0 = 128 * k + 16 * g)
    (G : (cc0_scratch3 : Ref sig .scVector).ty.Contents (Elt Ideal)) (hG : ∀ x : S100000.Idx, G x = stab f20 f28 (x 0).val)
    (acc : FVec Ideal S16 .f32) (hacc : ∀ y : S16.Idx, acc y = seqAcc f8 f10 f13 f16 f18 f20 f28 w (16 * g + (y 0).val) (25 * c + k))
    (h) (y : S16.Idx) :
    addf acc
        (loadIdx (View.readAt (Elt Ideal) (Memref.whole cc0_scratch3 : Memref sig .scVector .vmem S100000 .f32).view (LoadRect.whole S100000) G)
          ![View.readAt (Elt Ideal) (Memref.whole cc0_scratch4 : Memref sig .scVector .vmem S3200 .i32).view
              (Rect.unit (s := S3200) offc S16.size inb).toLoadRect
              (View.write (Elt Ideal) (Memref.whole cc0_scratch4 : Memref sig .scVector .vmem S3200 .i32).view s
                ((ReadAs.same : ReadAs (Elt Ideal) S3200 .i32 S3200 .i32).apply
                  (View.read (Elt Ideal) ((Memref.whole main_v13_scv : Memref sig .scVector .hbm S819200 .i32).slice
                    (Rect.unit (s := S819200) off S3200.size inb') hr).view f13)) Finset.univ)] h) y
      = seqAcc f8 f10 f13 f16 f18 f20 f28 w (16 * g + (y 0).val) (25 * c + k + 1) := by
  refine seq_step f8 f10 f13 f16 f18 f20 f28 w g (25 * c + k) acc _ _ hacc (fun z => ?_) (fun z => stab_gather f20 f28 G hG _ h z) y
  rw [seq_ids_at4 (F := Ideal) f13 s off offc inb inb' hr z, hoff, hoffc]
  congr 1
  omega

/-- ONE GROUP'S TRIP out of chunk buffer two: the accumulator after `25 c + k` sequence tokens, plus the table's rows at the
    sixteen tokens loaded at offset `128 k + 16 g` of the landed chunk `c`, is the accumulator after one token more. -/
theorem trip_group5 (f8 f10 : IVec ⟨1, ![106496]⟩ 32) (f13 : IVec ⟨1, ![819200]⟩ 32) (f16 : FVec Ideal ⟨1, ![53248]⟩ .f32)
    (f18 : FVec Ideal ⟨1, ![2599936]⟩ .f32) (f20 : FVec Ideal ⟨1, ![99968]⟩ .f32) (f28 : FVec Ideal ⟨2, ![1, 128]⟩ .f32)
    (w g c k : Nat) (s : (cc0_scratch5 : Ref sig .scVector).ty.Contents (Elt Ideal)) (off offc : Fin 1 → Nat)
    (inb : ∀ a, offc a + S16.size a ≤ S3200.size a) (inb' : ∀ a, off a + S3200.size a ≤ S819200.size a) (hr)
    (hoff : off 0 = 25600 * w + 3200 * c) (hoffc : offc 0 = 128 * k + 16 * g)
    (G : (cc0_scratch3 : Ref sig .scVector).ty.Contents (Elt Ideal)) (hG : ∀ x : S100000.Idx, G x = stab f20 f28 (x 0).val)
    (acc : FVec Ideal S16 .f32) (hacc : ∀ y : S16.Idx, acc y = seqAcc f8 f10 f13 f16 f18 f20 f28 w (16 * g + (y 0).val) (25 * c + k))
    (h) (y : S16.Idx) :
    addf acc
        (loadIdx (View.readAt (Elt Ideal) (Memref.whole cc0_scratch3 : Memref sig .scVector .vmem S100000 .f32).view (LoadRect.whole S100000) G)
          ![View.readAt (Elt Ideal) (Memref.whole cc0_scratch5 : Memref sig .scVector .vmem S3200 .i32).view
              (Rect.unit (s := S3200) offc S16.size inb).toLoadRect
              (View.write (Elt Ideal) (Memref.whole cc0_scratch5 : Memref sig .scVector .vmem S3200 .i32).view s
                ((ReadAs.same : ReadAs (Elt Ideal) S3200 .i32 S3200 .i32).apply
                  (View.read (Elt Ideal) ((Memref.whole main_v13_scv : Memref sig .scVector .hbm S819200 .i32).slice
                    (Rect.unit (s := S819200) off S3200.size inb') hr).view f13)) Finset.univ)] h) y
      = seqAcc f8 f10 f13 f16 f18 f20 f28 w (16 * g + (y 0).val) (25 * c + k + 1) := by
  refine seq_step f8 f10 f13 f16 f18 f20 f28 w g (25 * c + k) acc _ _ hacc (fun z => ?_) (fun z => stab_gather f20 f28 G hG _ h z) y
  rw [seq_ids_at5 (F := Ideal) f13 s off offc inb inb' hr z, hoff, hoffc]
  congr 1
  omega

end Cert.Proof.TileVal
end
-- ==== Proof.TileValInit.lean ====
/-
  The facts the sequence-table scratch's contents lemma (`TileValStab.stab_contents`) asks of the payloads, for the
  payloads the subcore's run actually writes: a landed half of the cut sequence table reads the table at the half's offset
  plus the word; the lane number read as a natural number is the lane; an indexed load of the landed row of tails at row
  `0`, lane index `lane + c`, reads the row's entry `c + lane`.
-/
import proofs.«207587_g45655502356657_cont_8to1c4_548_39_alg».proof.Proof.TileValLoop
import Idealize.ShloMosaic.Lib.Pipeline.Value

noncomputable section

namespace Cert.Proof.TileVal

open Cert.KernelIdeal Cert.KernelIdeal.Gen
open Idealize.ShloMosaic Idealize.ShloMosaic.ValueIdx
open Cert.Proof.KVal

/-- A landed half of the cut sequence table. -/
theorem landed_f20 (off : Fin 1 → Nat) (inb : ∀ a, off a + S49984.size a ≤ S99968.size a) (hr)
    (f20 : (main_v20_scv : Ref sig .scVector).ty.Contents (Elt Ideal)) (y : S49984.Idx) :
    (ReadAs.same : ReadAs (Elt Ideal) S49984 .f32 S49984 .f32).apply
        (View.read (Elt Ideal) ((Memref.whole main_v20_scv : Memref sig .scVector .hbm S99968 .f32).slice
          (Rect.unit (s := S99968) off S49984.size inb) hr).view f20) y
      = rdF (N := 99968) f20 (off 0 + (y 0).val) := by
  show f20 ((Rect.unit (s := S99968) off S49984.size inb).idx y) = _
  have ho : off 0 + 49984 ≤ 99968 := inb 0
  have hy : (y 0).val < 49984 := (y 0).isLt
  rw [rdF_of_lt _ (by omega)]
  refine congrArg f20 ?_
  funext a
  refine Fin.ext ?_
  match a with
  | ⟨0, _⟩ =>
    show off 0 + 1 * (y 0).val = off 0 + (y 0).val
    omega

/-- The lane number, as a natural number, is the lane. -/
theorem iota_lane (y : S16.Idx) : (iota .scVector S16 32 [0] iota_S16_d0_w32_scVector y).toNat = (y 0).val := by
  rw [iota_single_apply]
  have hy : (y 0).val < 16 := (y 0).isLt
  rw [BitVec.toNat_ofNat]
  exact Nat.mod_eq_of_lt (by omega)

/-- Sixteen entries of the landed row of tails, weights and bias, from entry `c`. -/
theorem tail_at (f28 : (main_v28_scv : Ref sig .scVector).ty.Contents (Elt Ideal))
    (s7 : (cc0_scratch7 : Ref sig .scVector).ty.Contents (Elt Ideal)) (c : BitVec 32) (hc : c.toNat + 16 ≤ 128)
    (h : ∀ a x, ((![broadcast S16 0#32, addi (iota .scVector S16 32 [0] iota_S16_d0_w32_scVector) (broadcast S16 c)] : Fin 2 → IVec S16 32) a x).toNat < S1x128.size a)
    (y : S16.Idx) :
    loadIdx (View.readAt (Elt Ideal) (Memref.whole cc0_scratch7 : Memref sig .scVector .vmem S1x128 .f32).view (LoadRect.whole S1x128)
        (View.write (Elt Ideal) (Memref.whole cc0_scratch7 : Memref sig .scVector .vmem S1x128 .f32).view s7
          ((ReadAs.same : ReadAs (Elt Ideal) S1x128 .f32 S1x128 .f32).apply
            (View.read (Elt Ideal) (Memref.whole main_v28_scv : Memref sig .scVector .hbm S1x128 .f32).view f28)) Finset.univ))
        ![broadcast S16 0#32, addi (iota .scVector S16 32 [0] iota_S16_d0_w32_scVector) (broadcast S16 c)] h y
      = auxAt f28 (c.toNat + (y 0).val) := by
  rw [aux_at]
  congr 1
  show (IntOp.addi (iota .scVector S16 32 [0] iota_S16_d0_w32_scVector y) c).toNat = _
  unfold IntOp.addi
  have hy : (y 0).val < 16 := (y 0).isLt
  rw [BitVec.toNat_add, iota_lane, Nat.mod_eq_of_lt (by omega)]
  omega

end Cert.Proof.TileVal
end
-- ==== Proof.TileValSteps.lean ====
/-
  One step of a subcore's accumulation, lane by lane, as a step of the pure folds. A float step adds the weight vector times
  the loaded field vector; a token step adds the selected one of the tail value and the cut-table value, chosen by the
  signed test of the offset index against the cut. If, at a lane, the accumulator is the fold after `k` steps and the
  step's inputs are the operands' entries the fold reads at step `k`, then the result is the fold after `k + 1` steps.
  A generated payload of the straight-line phase is a few such steps in a row: `k0_pay111` is three token steps.
-/
import proofs.«207587_g45655502356657_cont_8to1c4_548_39_alg».proof.Proof.Gen.KernelIdeal.Skeleton
import proofs.«207587_g45655502356657_cont_8to1c4_548_39_alg».proof.Proof.KValDef

noncomputable section

namespace Cert.Proof.TileVal

open Cert.KernelIdeal Cert.KernelIdeal.Gen Cert.Proof.KVal
open Idealize.ShloMosaic Idealize.ShloMosaic.ValueIdx

variable (f8 f10 : IVec ⟨1, ![106496]⟩ 32) (f16 : FVec Ideal ⟨1, ![53248]⟩ .f32)
  (f18 : FVec Ideal ⟨1, ![2599936]⟩ .f32) (f28 : FVec Ideal ⟨2, ![1, 128]⟩ .f32) (w r : Nat)

/-- A FLOAT STEP at a lane: the fold after `k` fields, plus weight `k` times field `k`, is the fold after `k + 1`. -/
theorem flt_step (k : Nat) (acc wv x : FVec Ideal S16 .f32) (y : S16.Idx)
    (hacc : acc y = fltAcc f16 f28 w r k) (hw : wv y = auxAt f28 (96 + k))
    (hx : x y = rdF f16 (1664 * w + 128 * k + r)) :
    addf acc (mulf wv x) y = fltAcc f16 f28 w r (k + 1) := by
  rw [fltAcc_succ]
  unfold fltTerm
  show acc y + wv y * x y = _
  rw [hacc, hw, hx]

/-- A TOKEN STEP at a lane: the fold after `k` token fields, plus the selected read of field `k`, is the fold after `k + 1`. -/
theorem tok_step (k : Nat) (acc : FVec Ideal S16 .f32) (ids : IVec S16 32) (tail cutv : FVec Ideal S16 .f32) (y : S16.Idx)
    (hacc : acc y = tokAcc f8 f10 f16 f18 f28 w r k) (hids : ids y = rdW f8 (3328 * w + 128 * k + r))
    (htail : tail y = auxAt f28 (IntOp.maxsi (IntOp.subi (ids y) 2599936#32) 0#32).toNat)
    (hcut : cutv y = rdF f18 (rdW f10 (3328 * w + 128 * k + r)).toNat) :
    addf acc (select (cmpi .sge ids (broadcast S16 2599936#32)) tail cutv) y = tokAcc f8 f10 f16 f18 f28 w r (k + 1) := by
  rw [tokAcc_succ]
  unfold tokTerm
  show acc y + Scalar.select (IntOp.cmpi .sge (ids y) 2599936#32) (tail y) (cutv y) = _
  rw [hacc, htail, hcut, hids]

/-- The tail position as the program computes it: the index minus the cut, clamped at zero. -/
theorem tail_pos_lane (ids : IVec S16 32) (y : S16.Idx) :
    maxsi (subi ids (broadcast S16 2599936#32)) (broadcast S16 0#32) y
      = IntOp.maxsi (IntOp.subi (ids y) 2599936#32) 0#32 := rfl

/-- A WORKED PAYLOAD: `k0_pay111` is three token steps in a row, so from the fold after `k` token fields it gives the fold
    after `k + 3`. -/
theorem pay111_lane (k : Nat) (acc : FVec Ideal S16 .f32) (i1 : IVec S16 32) (c1 t1 : FVec Ideal S16 .f32)
    (i2 : IVec S16 32) (c2 t2 : FVec Ideal S16 .f32) (i3 : IVec S16 32) (c3 t3 : FVec Ideal S16 .f32) (y : S16.Idx)
    (hacc : acc y = tokAcc f8 f10 f16 f18 f28 w r k)
    (hi1 : i1 y = rdW f8 (3328 * w + 128 * k + r))
    (ht1 : t1 y = auxAt f28 (IntOp.maxsi (IntOp.subi (i1 y) 2599936#32) 0#32).toNat)
    (hc1 : c1 y = rdF f18 (rdW f10 (3328 * w + 128 * k + r)).toNat)
    (hi2 : i2 y = rdW f8 (3328 * w + 128 * (k + 1) + r))
    (ht2 : t2 y = auxAt f28 (IntOp.maxsi (IntOp.subi (i2 y) 2599936#32) 0#32).toNat)
    (hc2 : c2 y = rdF f18 (rdW f10 (3328 * w + 128 * (k + 1) + r)).toNat)
    (hi3 : i3 y = rdW f8 (3328 * w + 128 * (k + 2) + r))
    (ht3 : t3 y = auxAt f28 (IntOp.maxsi (IntOp.subi (i3 y) 2599936#32) 0#32).toNat)
    (hc3 : c3 y = rdF f18 (rdW f10 (3328 * w + 128 * (k + 2) + r)).toNat) :
    k0_pay111 (F := Ideal) acc i1 c1 t1 i2 c2 t2 i3 c3 t3 y = tokAcc f8 f10 f16 f18 f28 w r (k + 3) := by
  unfold k0_pay111
  exact tok_step f8 f10 f16 f18 f28 w r (k + 2) _ i3 t3 c3 y
    (tok_step f8 f10 f16 f18 f28 w r (k + 1) _ i2 t2 c2 y (tok_step f8 f10 f16 f18 f28 w r k acc i1 t1 c1 y hacc hi1 ht1 hc1) hi2 ht2 hc2)
    hi3 ht3 hc3

end Cert.Proof.TileVal

end
-- ==== Proof.TileValOut.lean ====
/-
  What the task's last steps leave in its stretch of the result array: the eight accumulators (sixteen lanes each) are stored side by
  side into the 128-word out scratch, and the scratch is copied out whole; so word `y` of the stretch is lane `y mod 16` of accumulator
  `y div 16`. Stated for any row function `R` the accumulators agree with: accumulator `g` at lane `l` is `R (16 g + l)`.
-/
import proofs.«207587_g45655502356657_cont_8to1c4_548_39_alg».proof.Proof.TileKernelIdeal
import Idealize.ShloMosaic.Lib.Writes

noncomputable section
namespace Cert.Proof.TileValOut
open Cert.KernelIdeal Cert.KernelIdeal.Gen Cert.Proof.TileKernelIdeal
open Idealize.ShloMosaic Idealize.ShloMosaic.ValueIdx

variable {F : FTy → Type}

/-- Word `x` of the sixteen-word rectangle at offset `o` of the 128-word scratch is word `o + x`. -/
theorem unit_emb_val (o : Nat) (inb : ∀ a, (![o] : Fin 1 → Nat) a + S16.size a ≤ S128.size a) (x : S16.Idx) :
    (((Rect.unit (s := S128) ![o] S16.size inb).emb x) 0).val = o + (x 0).val := by
  show ((Rect.unit (s := S128) ![o] S16.size inb).toLoadRect.idx x 0).val = _
  rw [LoadRect.idx_apply]
  show o + 1 * (x 0).val = _
  omega

/-- The eight stores, latest first, as the run lists them. -/
abbrev outPieces (acc : FVec F S16 .f32 × FVec F S16 .f32 × FVec F S16 .f32 × FVec F S16 .f32 × FVec F S16 .f32 × FVec F S16 .f32 × FVec F S16 .f32 × FVec F S16 .f32) : List (View.Piece (Elt F) S128 .f32) :=
  [⟨Rect.unit (s := S128) ![112] S16.size Gen.inb_S128_S16_112, acc.2.2.2.2.2.2.2⟩,
        ⟨Rect.unit (s := S128) ![96] S16.size Gen.inb_S128_S16_96, acc.2.2.2.2.2.2.1⟩,
        ⟨Rect.unit (s := S128) ![80] S16.size Gen.inb_S128_S16_80, acc.2.2.2.2.2.1⟩,
        ⟨Rect.unit (s := S128) ![64] S16.size Gen.inb_S128_S16_64, acc.2.2.2.2.1⟩,
        ⟨Rect.unit (s := S128) ![48] S16.size Gen.inb_S128_S16_48, acc.2.2.2.1⟩,
        ⟨Rect.unit (s := S128) ![32] S16.size Gen.inb_S128_S16_32, acc.2.2.1⟩,
        ⟨Rect.unit (s := S128) ![16] S16.size Gen.inb_S128_S16_16, acc.2.1⟩,
        ⟨Rect.unit (s := S128) ![0] S16.size Gen.inb_S128_S16_0, acc.1⟩]

/-- A word of the 128-word scratch after the eight stores. -/
theorem scratch_read (s8 : (Memref.whole cc0_scratch8 : Memref sig .scVector .vmem S128 .f32).view.ty.Contents (Elt F)) (acc : FVec F S16 .f32 × FVec F S16 .f32 × FVec F S16 .f32 × FVec F S16 .f32 × FVec F S16 .f32 × FVec F S16 .f32 × FVec F S16 .f32 × FVec F S16 .f32) (R : Fin 128 → Elt F .f32)
    (h : ∀ (g : Fin 8) (l : Fin 16), (![acc.1, acc.2.1, acc.2.2.1, acc.2.2.2.1, acc.2.2.2.2.1, acc.2.2.2.2.2.1, acc.2.2.2.2.2.2.1, acc.2.2.2.2.2.2.2] g : FVec F S16 .f32) (ix1 l) = R ⟨16 * g.val + l.val, by have := l.isLt; have := g.isLt; omega⟩)
    (y : S128.Idx) :
    (Memref.whole cc0_scratch8 : Memref sig .scVector .vmem S128 .f32).view.read (Elt F) ((Memref.whole cc0_scratch8 : Memref sig .scVector .vmem S128 .f32).view.writes (Elt F) s8 (outPieces acc)) y = R ⟨(y 0).val, (y 0).isLt⟩ := by
  have key : ∀ (g : Fin 8) (inb : ∀ a, (![16 * g.val] : Fin 1 → Nat) a + S16.size a ≤ S128.size a) (x : S16.Idx),
      (![acc.1, acc.2.1, acc.2.2.1, acc.2.2.2.1, acc.2.2.2.2.1, acc.2.2.2.2.2.1, acc.2.2.2.2.2.2.1, acc.2.2.2.2.2.2.2] g : FVec F S16 .f32) x = R ⟨(((Rect.unit (s := S128) ![16 * g.val] S16.size inb).emb x) 0).val, (((Rect.unit (s := S128) ![16 * g.val] S16.size inb).emb x) 0).isLt⟩ := by
    intro g inb x
    have hx : x = ix1 (⟨(x 0).val, (x 0).isLt⟩ : Fin 16) := funext fun a => by
      match a with | ⟨0, _⟩ => rfl
    rw [hx, h g ⟨(x 0).val, (x 0).isLt⟩]
    exact congrArg R (Fin.ext (by rw [← hx, unit_emb_val]))
  refine View.read_writes_apply_of_pieces (v := (Memref.whole cc0_scratch8 : Memref sig .scVector .vmem S128 .f32).view) (f := s8) (fun y : S128.Idx => R ⟨(y 0).val, (y 0).isLt⟩) (outPieces acc) ?_ y ?_
  · intro p hp x
    simp only [outPieces, List.mem_cons, List.mem_nil_iff, or_false] at hp
    rcases hp with rfl | rfl | rfl | rfl | rfl | rfl | rfl | rfl
    · exact key 7 Gen.inb_S128_S16_112 x
    · exact key 6 Gen.inb_S128_S16_96 x
    · exact key 5 Gen.inb_S128_S16_80 x
    · exact key 4 Gen.inb_S128_S16_64 x
    · exact key 3 Gen.inb_S128_S16_48 x
    · exact key 2 Gen.inb_S128_S16_32 x
    · exact key 1 Gen.inb_S128_S16_16 x
    · exact key 0 Gen.inb_S128_S16_0 x
  · -- word y lies in the rectangle of accumulator y div 16
    have hy : (y 0).val < 128 := (y 0).isLt
    have mem : ∀ (o : Nat) (inb : ∀ a, (![o] : Fin 1 → Nat) a + S16.size a ≤ S128.size a), o ≤ (y 0).val → (y 0).val < o + 16 →
        y ∈ (Rect.unit (s := S128) ![o] S16.size inb).set := by
      intro o inb h1 h2
      refine Rect.mem_set_unit.mpr fun a => ?_
      match a with
      | ⟨0, _⟩ => exact ⟨h1, h2⟩
    by_cases h7 : 112 ≤ (y 0).val
    · exact ⟨_, List.mem_cons_self, mem 112 Gen.inb_S128_S16_112 h7 (by omega)⟩
    by_cases h6 : 96 ≤ (y 0).val
    · exact ⟨_, List.mem_cons_of_mem _ List.mem_cons_self, mem 96 Gen.inb_S128_S16_96 h6 (by omega)⟩
    by_cases h5 : 80 ≤ (y 0).val
    · exact ⟨_, List.mem_cons_of_mem _ (List.mem_cons_of_mem _ List.mem_cons_self), mem 80 Gen.inb_S128_S16_80 h5 (by omega)⟩
    by_cases h4 : 64 ≤ (y 0).val
    · exact ⟨_, List.mem_cons_of_mem _ (List.mem_cons_of_mem _ (List.mem_cons_of_mem _ List.mem_cons_self)), mem 64 Gen.inb_S128_S16_64 h4 (by omega)⟩
    by_cases h3 : 48 ≤ (y 0).val
    · exact ⟨_, List.mem_cons_of_mem _ (List.mem_cons_of_mem _ (List.mem_cons_of_mem _ (List.mem_cons_of_mem _ List.mem_cons_self))), mem 48 Gen.inb_S128_S16_48 h3 (by omega)⟩
    by_cases h2 : 32 ≤ (y 0).val
    · exact ⟨_, List.mem_cons_of_mem _ (List.mem_cons_of_mem _ (List.mem_cons_of_mem _ (List.mem_cons_of_mem _ (List.mem_cons_of_mem _ List.mem_cons_self)))), mem 32 Gen.inb_S128_S16_32 h2 (by omega)⟩
    by_cases h1 : 16 ≤ (y 0).val
    · exact ⟨_, List.mem_cons_of_mem _ (List.mem_cons_of_mem _ (List.mem_cons_of_mem _ (List.mem_cons_of_mem _ (List.mem_cons_of_mem _ (List.mem_cons_of_mem _ List.mem_cons_self))))), mem 16 Gen.inb_S128_S16_16 h1 (by omega)⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem 0 Gen.inb_S128_S16_0 (Nat.zero_le _) (by omega)⟩

/-- A word of the task's stretch after the copy-out of the out scratch: the stretch, written whole with what the scratch reads. -/
theorem stretch_read (L : grid0.Coords) (f29 : (oS L).view.ty.Contents (Elt F)) (s8 : (Memref.whole cc0_scratch8 : Memref sig .scVector .vmem S128 .f32).view.ty.Contents (Elt F)) (acc : FVec F S16 .f32 × FVec F S16 .f32 × FVec F S16 .f32 × FVec F S16 .f32 × FVec F S16 .f32 × FVec F S16 .f32 × FVec F S16 .f32 × FVec F S16 .f32)
    (R : Fin 128 → Elt F .f32)
    (h : ∀ (g : Fin 8) (l : Fin 16), (![acc.1, acc.2.1, acc.2.2.1, acc.2.2.2.1, acc.2.2.2.2.1, acc.2.2.2.2.2.1, acc.2.2.2.2.2.2.1, acc.2.2.2.2.2.2.2] g : FVec F S16 .f32) (ix1 l) = R ⟨16 * g.val + l.val, by have := l.isLt; have := g.isLt; omega⟩)
    (y : S128.Idx) :
    (oS L).view.read (Elt F) ((oS L).view.writes (Elt F) f29
        [⟨Rect.whole S128, ReadAs.same.apply (View.read (Elt F) (Memref.whole cc0_scratch8 : Memref sig .scVector .vmem S128 .f32).view ((Memref.whole cc0_scratch8 : Memref sig .scVector .vmem S128 .f32).view.writes (Elt F) s8 (outPieces acc)))⟩]) y
      = R ⟨(y 0).val, (y 0).isLt⟩ := by
  have e := View.read_writes_cons_emb (oS L).view f29 (Rect.whole S128)
    (ReadAs.same.apply (View.read (Elt F) (Memref.whole cc0_scratch8 : Memref sig .scVector .vmem S128 .f32).view ((Memref.whole cc0_scratch8 : Memref sig .scVector .vmem S128 .f32).view.writes (Elt F) s8 (outPieces acc)))) [] y
  rw [Rect.emb_whole_apply] at e
  rw [e, ReadAs.apply_same]
  exact scratch_read s8 acc R h y

end Cert.Proof.TileValOut
end
-- ==== Proof.TileValKernelIdeal.lean ====
/-
  The value-carrying run of one vector subcore's task at the extended reals: the same run as the frame's, with what the task computes
  carried along. After the straight-line phase the eight accumulators hold, lane by lane, the bias plus the weighted float fields plus the
  26 token terms of their rows; each of the eight sequence chunks adds its 25 terms, the accumulators being the score after `25 c + k`
  sequence tokens before trip `k` of chunk `c`, the chunk's buffer the chunk of the permuted sequence indices, and the table's scratch the
  sequence table with its padding row zeroed and its tail patched from the 128-word row; the eight stores and the copy-out put accumulator
  `y div 16` at lane `y mod 16` into word `y` of the task's stretch. So the stretch holds the kernel's row function `KVal.kernelRow`.
-/
import proofs.«207587_g45655502356657_cont_8to1c4_548_39_alg».proof.Proof.TileKernelIdeal
import proofs.«207587_g45655502356657_cont_8to1c4_548_39_alg».proof.Proof.TileValInit
import proofs.«207587_g45655502356657_cont_8to1c4_548_39_alg».proof.Proof.TileValSteps
import proofs.«207587_g45655502356657_cont_8to1c4_548_39_alg».proof.Proof.TileValOut

noncomputable section

namespace Cert.Proof.TileValKernelIdeal

open Cert.KernelIdeal Cert.KernelIdeal.Gen Cert.Proof.TileKernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

section Tile
variable (d : Dev nD) (L : grid0.Coords)

/-- Row `128 w + y` of the batch, for worker `w` below 32 and lane `y` below 128, is one of the 4096 rows. -/
theorem row_lt (L : grid0.Coords) (y : S128.Idx) : 128 * Cert.Proof.TileVal.wOf L + (y 0).val < 4096 := by
  have h1 : (L 1).val < 16 := (L 1).isLt
  have h0 : (L 0).val < 2 := (L 0).isLt
  have hy : (y 0).val < 128 := (y 0).isLt
  unfold Cert.Proof.TileVal.wOf; omega

abbrev T8 : Type := FVec Ideal S16 .f32 × FVec Ideal S16 .f32 × FVec Ideal S16 .f32 × FVec Ideal S16 .f32 × FVec Ideal S16 .f32 × FVec Ideal S16 .f32 × FVec Ideal S16 .f32 × FVec Ideal S16 .f32

/-- The eight accumulators hold, lane by lane, the score of their rows after `s` sequence tokens. -/
def AccOK (f8 f10 : IVec ⟨1, ![106496]⟩ 32) (f13 : IVec ⟨1, ![819200]⟩ 32) (f16 : FVec Ideal ⟨1, ![53248]⟩ .f32)
    (f18 : FVec Ideal ⟨1, ![2599936]⟩ .f32) (f20 : FVec Ideal ⟨1, ![99968]⟩ .f32) (f28 : FVec Ideal ⟨2, ![1, 128]⟩ .f32)
    (w s : Nat) (a : T8) : Prop :=
  ∀ y : S16.Idx,
    a.1 y = Cert.Proof.KVal.seqAcc f8 f10 f13 f16 f18 f20 f28 w (16 * 0 + (y 0).val) s
    ∧ a.2.1 y = Cert.Proof.KVal.seqAcc f8 f10 f13 f16 f18 f20 f28 w (16 * 1 + (y 0).val) s
    ∧ a.2.2.1 y = Cert.Proof.KVal.seqAcc f8 f10 f13 f16 f18 f20 f28 w (16 * 2 + (y 0).val) s
    ∧ a.2.2.2.1 y = Cert.Proof.KVal.seqAcc f8 f10 f13 f16 f18 f20 f28 w (16 * 3 + (y 0).val) s
    ∧ a.2.2.2.2.1 y = Cert.Proof.KVal.seqAcc f8 f10 f13 f16 f18 f20 f28 w (16 * 4 + (y 0).val) s
    ∧ a.2.2.2.2.2.1 y = Cert.Proof.KVal.seqAcc f8 f10 f13 f16 f18 f20 f28 w (16 * 5 + (y 0).val) s
    ∧ a.2.2.2.2.2.2.1 y = Cert.Proof.KVal.seqAcc f8 f10 f13 f16 f18 f20 f28 w (16 * 6 + (y 0).val) s
    ∧ a.2.2.2.2.2.2.2 y = Cert.Proof.KVal.seqAcc f8 f10 f13 f16 f18 f20 f28 w (16 * 7 + (y 0).val) s

/-- A chunk buffer holds chunk `c` of the subcore's stretch of the sequence-index operand. -/
def ChunkOK4 (f13 : IVec ⟨1, ![819200]⟩ 32) (w c : Nat) (b : (cc0_scratch4 : Ref sig .scVector).ty.Contents (Elt Ideal)) : Prop :=
  ∀ (offc : Fin 1 → Nat) (inb : ∀ a, offc a + S16.size a ≤ S3200.size a) (y : S16.Idx),
    View.readAt (Elt Ideal) (Memref.whole cc0_scratch4 : Memref sig .scVector .vmem S3200 .i32).view (Rect.unit (s := S3200) offc S16.size inb).toLoadRect b y
      = Cert.Proof.KVal.rdW (N := 819200) f13 (25600 * w + 3200 * c + offc 0 + (y 0).val)
def ChunkOK5 (f13 : IVec ⟨1, ![819200]⟩ 32) (w c : Nat) (b : (cc0_scratch5 : Ref sig .scVector).ty.Contents (Elt Ideal)) : Prop :=
  ∀ (offc : Fin 1 → Nat) (inb : ∀ a, offc a + S16.size a ≤ S3200.size a) (y : S16.Idx),
    View.readAt (Elt Ideal) (Memref.whole cc0_scratch5 : Memref sig .scVector .vmem S3200 .i32).view (Rect.unit (s := S3200) offc S16.size inb).toLoadRect b y
      = Cert.Proof.KVal.rdW (N := 819200) f13 (25600 * w + 3200 * c + offc 0 + (y 0).val)

/-- The sequence-table scratch holds the table as the loops read it. -/
def StabOK (f20 : FVec Ideal ⟨1, ![99968]⟩ .f32) (f28 : FVec Ideal ⟨2, ![1, 128]⟩ .f32)
    (g : (cc0_scratch3 : Ref sig .scVector).ty.Contents (Elt Ideal)) : Prop :=
  ∀ x : S100000.Idx, g x = Cert.Proof.KVal.stab f20 f28 (x 0).val

set_option maxHeartbeats 40000000 in
set_option sl_exec.dischHeartbeats 400000 in
theorem tile_val (O : CellTallies nD τ sig (HIx 1)) (W : Waits sig (HIx 1)) (hO : ∀ g, O g none = 0)
    (q10 : PosShare TreeShare) (f10 : Buf (Elt Ideal) ((Memref.whole main_v10_scv : Memref sig .scVector .hbm S106496 .i32).view.loc (V d (cV L) (jV L))))
    (q8 : PosShare TreeShare) (f8 : Buf (Elt Ideal) ((Memref.whole main_v8_scv : Memref sig .scVector .hbm S106496 .i32).view.loc (V d (cV L) (jV L))))
    (q13 : PosShare TreeShare) (f13 : Buf (Elt Ideal) ((Memref.whole main_v13_scv : Memref sig .scVector .hbm S819200 .i32).view.loc (V d (cV L) (jV L))))
    (q16 : PosShare TreeShare) (f16 : Buf (Elt Ideal) ((Memref.whole main_v16_scv : Memref sig .scVector .hbm S53248 .f32).view.loc (V d (cV L) (jV L))))
    (q18 : PosShare TreeShare) (f18 : Buf (Elt Ideal) ((Memref.whole main_v18_scv : Memref sig .scVector .hbm S2599936 .f32).view.loc (V d (cV L) (jV L))))
    (q20 : PosShare TreeShare) (f20 : Buf (Elt Ideal) ((Memref.whole main_v20_scv : Memref sig .scVector .hbm S99968 .f32).view.loc (V d (cV L) (jV L))))
    (q28 : PosShare TreeShare) (f28 : Buf (Elt Ideal) ((Memref.whole main_v28_scv : Memref sig .scVector .hbm S1x128 .f32).view.loc (V d (cV L) (jV L))))
    (f29 : Buf (Elt Ideal) ((oS L).view.loc (V d (cV L) (jV L))))
    (hidx : IdxOK d L f10 f8 f13) :
    (iprop(levAts (K (F := Ideal)).L (K (F := Ideal)).lev
        ∗ (((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
        ∗ ((oS L).view.loc (V d (cV L) (jV L)) ↦[(oS L).view.set]{fullShare} f29)
        ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
        ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
        ∗ owes (V d (cV L) (jV L)) O W) : sProp (MT nD τ sig (HIx 1) (Elt Ideal) ℕ UU ℕ))
      ⊢ wp frame (wpE (defs₀ (F := Ideal)) 𝒱₀ (V d (cV L) (jV L)) none) Set.univ
          (cc0__fm_first_order L (Memref.whole main_v10_scv) (Memref.isWhole_whole _) (Memref.whole main_v8_scv) (Memref.isWhole_whole _) (Memref.whole main_v13_scv) (Memref.isWhole_whole _) (Memref.whole main_v16_scv) (Memref.isWhole_whole _) (Memref.whole main_v18_scv) (Memref.isWhole_whole _) (Memref.whole main_v20_scv) (Memref.isWhole_whole _) (Memref.whole main_v28_scv) (Memref.isWhole_whole _) (Memref.whole main_v29_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scoped0 cc0_scoped1 cc0_scoped2 cc0_scoped3 cc0_scoped4)
          fun _ => (iprop((((Memref.whole main_v10_scv : Memref sig .scVector .hbm S106496 .i32).view.loc (V d (cV L) (jV L)) ↦{q10} f10)
        ∗ ((Memref.whole main_v8_scv : Memref sig .scVector .hbm S106496 .i32).view.loc (V d (cV L) (jV L)) ↦{q8} f8)
        ∗ ((Memref.whole main_v13_scv : Memref sig .scVector .hbm S819200 .i32).view.loc (V d (cV L) (jV L)) ↦{q13} f13)
        ∗ ((Memref.whole main_v16_scv : Memref sig .scVector .hbm S53248 .f32).view.loc (V d (cV L) (jV L)) ↦{q16} f16)
        ∗ ((Memref.whole main_v18_scv : Memref sig .scVector .hbm S2599936 .f32).view.loc (V d (cV L) (jV L)) ↦{q18} f18)
        ∗ ((Memref.whole main_v20_scv : Memref sig .scVector .hbm S99968 .f32).view.loc (V d (cV L) (jV L)) ↦{q20} f20)
        ∗ ((Memref.whole main_v28_scv : Memref sig .scVector .hbm S1x128 .f32).view.loc (V d (cV L) (jV L)) ↦{q28} f28))
            ∗ (∃ f, ⌜∀ y : S128.Idx, (oS L).view.read (Elt Ideal) f y = Cert.Proof.KVal.kernelRow f8 f10 f13 f16 f18 f20 f28 ⟨128 * Cert.Proof.TileVal.wOf L + (y 0).val, row_lt L y⟩⌝ ∗ (oS L).view.loc (V d (cV L) (jV L)) ↦[(oS L).view.set]{fullShare} f)
            ∗ ((∃ s, (Memref.whole cc0_scratch0 : Memref sig .scVector .vmem S3328 .i32).view.loc (V d (cV L) (jV L)) ↦{fullShare} s)
        ∗ (∃ s, (Memref.whole cc0_scratch1 : Memref sig .scVector .vmem S3328 .i32).view.loc (V d (cV L) (jV L)) ↦{fullShare} s)
        ∗ (∃ s, (Memref.whole cc0_scratch2 : Memref sig .scVector .vmem S3328 .f32).view.loc (V d (cV L) (jV L)) ↦{fullShare} s)
        ∗ (∃ s, (Memref.whole cc0_scratch3 : Memref sig .scVector .vmem S100000 .f32).view.loc (V d (cV L) (jV L)) ↦{fullShare} s)
        ∗ (∃ s, (Memref.whole cc0_scratch4 : Memref sig .scVector .vmem S3200 .i32).view.loc (V d (cV L) (jV L)) ↦{fullShare} s)
        ∗ (∃ s, (Memref.whole cc0_scratch5 : Memref sig .scVector .vmem S3200 .i32).view.loc (V d (cV L) (jV L)) ↦{fullShare} s)
        ∗ (∃ s, (Memref.whole cc0_scratch6 : Memref sig .scVector .vmem S1664 .f32).view.loc (V d (cV L) (jV L)) ↦{fullShare} s)
        ∗ (∃ s, (Memref.whole cc0_scratch7 : Memref sig .scVector .vmem S1x128 .f32).view.loc (V d (cV L) (jV L)) ↦{fullShare} s)
        ∗ (∃ s, (Memref.whole cc0_scratch8 : Memref sig .scVector .vmem S128 .f32).view.loc (V d (cV L) (jV L)) ↦{fullShare} s))
            ∗ (semVal (((V d (cV L) (jV L)), SemLoc.dma cc0_scratch9.sem) : GSem nD τ sig) 0
        ∗ semVal (((V d (cV L) (jV L)), SemLoc.dma cc0_scratch10.sem) : GSem nD τ sig) 0
        ∗ semVal (((V d (cV L) (jV L)), SemLoc.dma cc0_scratch11.sem) : GSem nD τ sig) 0
        ∗ semVal (((V d (cV L) (jV L)), SemLoc.dma cc0_scratch12.sem) : GSem nD τ sig) 0
        ∗ semVal (((V d (cV L) (jV L)), SemLoc.dma cc0_scratch13.sem) : GSem nD τ sig) 0
        ∗ semVal (((V d (cV L) (jV L)), SemLoc.dma cc0_scoped0.sem) : GSem nD τ sig) 0
        ∗ semVal (((V d (cV L) (jV L)), SemLoc.dma cc0_scoped1.sem) : GSem nD τ sig) 0
        ∗ semVal (((V d (cV L) (jV L)), SemLoc.dma cc0_scoped2.sem) : GSem nD τ sig) 0
        ∗ semVal (((V d (cV L) (jV L)), SemLoc.dma cc0_scoped3.sem) : GSem nD τ sig) 0
        ∗ semVal (((V d (cV L) (jV L)), SemLoc.dma cc0_scoped4.sem) : GSem nD τ sig) 0)
            ∗ ∃ W', ⌜∀ p ∈ W', p ∈ W ∨ p.2 = none⌝ ∗ owes (V d (cV L) (jV L)) O W') : sProp (MT nD τ sig (HIx 1) (Elt Ideal) ℕ UU ℕ)) := by
  iintro ⟨#Hlv, ⟨H10, H8, H13, H16, H18, H20, H28⟩, H29, ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩⟩, ⟨Hm0, Hm1, Hm2, Hm3, Hm4, Hm5, Hm6, Hm7, Hm8, Hm9⟩, HO⟩
  ihave Hmw := ((K (F := Ideal)).mayWaits_none (thr := (V d (cV L) (jV L))) hO) $$ Hlv
  ihave Hs3' := ((pointsTo_split_subset (I := (sA : Memref sig .scVector .vmem S49984 .f32).view.set) (Finset.subset_univ _)).1) $$ Hs3
  icases Hs3' with ⟨Hs3a0, Hs3r⟩
  ihave Hs3a := (Entails.of_eq (pts_sA (F := Ideal) d L _).symm) $$ Hs3a0
  ihave Hs3r' := ((pointsTo_split_subset (I := (sB : Memref sig .scVector .vmem S49984 .f32).view.set) sB_sub).1) $$ Hs3r
  icases Hs3r' with ⟨Hs3b0, Hs3t⟩
  ihave Hs3b := (Entails.of_eq (pts_sB (F := Ideal) d L _).symm) $$ Hs3b0
  sl_exec_parts
  have hin : ∀ j, ((Memref.whole cc0_scratch0 : Memref sig .scVector .vmem S3328 .i32).view.read (Elt Ideal)
      (View.write (Elt Ideal) (Memref.whole cc0_scratch0 : Memref sig .scVector .vmem S3328 .i32).view s0 (tile_val.sl.dma0_2 d L f10) Finset.univ) j).toNat
        < S2599936.size gathers_S2599936_S3328.axis := by
    intro j
    simp only [Memref.view_whole, View.write_whole_univ, View.read_whole]
    exact hidx.1 _
  repeat (sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x)); try unfold SparseCore.vectorLoadIdx)
  -- the sequence table's three pieces joined: the whole scratch again, at the pieces' contents
  ihave Hb := (Entails.of_eq (pts_sB (F := Ideal) d L _)) $$ Hs3b
  ihave Hrt := (pointsTo_join_subset (ℓ := (Memref.whole cc0_scratch3 : Memref sig .scVector .vmem S100000 .f32).view.loc (V d (cV L) (jV L))) (I := (sB : Memref sig .scVector .vmem S49984 .f32).view.set) (S := Finset.univ \ (sA : Memref sig .scVector .vmem S49984 .f32).view.set) sB_sub) $$ [Hb Hs3t]
  · isplitl [Hb] <;> iassumption
  ihave Ha := (Entails.of_eq (pts_sA (F := Ideal) d L _)) $$ Hs3a
  ihave Hs3 := (pointsTo_join_subset (ℓ := (Memref.whole cc0_scratch3 : Memref sig .scVector .vmem S100000 .f32).view.loc (V d (cV L) (jV L))) (I := (sA : Memref sig .scVector .vmem S49984 .f32).view.set) (S := Finset.univ) (Finset.subset_univ _)) $$ [Ha Hrt]
  · isplitl [Ha] <;> iassumption
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (k : Nat) (aa : FVec Ideal S16 .f32 × FVec Ideal S16 .f32 × FVec Ideal S16 .f32 × FVec Ideal S16 .f32 × FVec Ideal S16 .f32 × FVec Ideal S16 .f32 × FVec Ideal S16 .f32 × FVec Ideal S16 .f32) =>
      (iprop(⌜AccOK f8 f10 f13 f16 f18 f20 f28 (Cert.Proof.TileVal.wOf L) (25 * 0 + k) aa⌝
        ∗ (∃ b, ⌜(∀ x, (b x).toNat < 100000) ∧ ChunkOK4 f13 (Cert.Proof.TileVal.wOf L) 0 b⌝ ∗ (Memref.whole cc0_scratch4 : Memref sig .scVector .vmem S3200 .i32).view.loc (V d (cV L) (jV L)) ↦{fullShare} b)
        ∗ (∃ g, ⌜StabOK f20 f28 g⌝ ∗ (Memref.whole cc0_scratch3 : Memref sig .scVector .vmem S100000 .f32).view.loc (V d (cV L) (jV L)) ↦{fullShare} g)) : sProp (MT nD τ sig (HIx 1) (Elt Ideal) ℕ UU ℕ))) $$ [Hs4 Hs3]
  case region =>
    intro k acc
    iintro ⟨%hacc, ⟨%b, %hb, Hib⟩, ⟨%g, %hg, Hst⟩⟩
    iterate 4 (sl_exec_parts (disch := first
      | sl_decide
      | exact IdxFacts.one_in_table (fun x => by
          first
          | (simp only [View.readAt_apply, Memref.view_whole, View.read_whole]; exact hb.1 _)
          | (sl_unfold_run_names; simp only [View.readAt_apply, Memref.view_whole, View.read_whole]; exact hb.1 _))); try unfold SparseCore.vectorLoadIdx)
    sl_step
    isplitr
    · ipureintro
      intro y
      refine ⟨?_, ?_, ?_, ?_, ?_, ?_, ?_, ?_⟩
      · exact Cert.Proof.TileVal.seq_step f8 f10 f13 f16 f18 f20 f28 (Cert.Proof.TileVal.wOf L) 0 (25 * 0 + k.val) _ _ _ (fun z => (hacc z).1)
          (fun z => (hb.2 _ _ z).trans (by rw [k0_off5_eq]; congr 1; simp <;> omega))
          (fun z => Cert.Proof.TileVal.stab_gather f20 f28 g hg _ _ z) y
      · exact Cert.Proof.TileVal.seq_step f8 f10 f13 f16 f18 f20 f28 (Cert.Proof.TileVal.wOf L) 1 (25 * 0 + k.val) _ _ _ (fun z => (hacc z).2.1)
          (fun z => (hb.2 _ _ z).trans (by rw [k0_off6_eq]; congr 1; simp <;> omega))
          (fun z => Cert.Proof.TileVal.stab_gather f20 f28 g hg _ _ z) y
      · exact Cert.Proof.TileVal.seq_step f8 f10 f13 f16 f18 f20 f28 (Cert.Proof.TileVal.wOf L) 2 (25 * 0 + k.val) _ _ _ (fun z => (hacc z).2.2.1)
          (fun z => (hb.2 _ _ z).trans (by rw [k0_off7_eq]; congr 1; simp <;> omega))
          (fun z => Cert.Proof.TileVal.stab_gather f20 f28 g hg _ _ z) y
      · exact Cert.Proof.TileVal.seq_step f8 f10 f13 f16 f18 f20 f28 (Cert.Proof.TileVal.wOf L) 3 (25 * 0 + k.val) _ _ _ (fun z => (hacc z).2.2.2.1)
          (fun z => (hb.2 _ _ z).trans (by rw [k0_off8_eq]; congr 1; simp <;> omega))
          (fun z => Cert.Proof.TileVal.stab_gather f20 f28 g hg _ _ z) y
      · exact Cert.Proof.TileVal.seq_step f8 f10 f13 f16 f18 f20 f28 (Cert.Proof.TileVal.wOf L) 4 (25 * 0 + k.val) _ _ _ (fun z => (hacc z).2.2.2.2.1)
          (fun z => (hb.2 _ _ z).trans (by rw [k0_off9_eq]; congr 1; simp <;> omega))
          (fun z => Cert.Proof.TileVal.stab_gather f20 f28 g hg _ _ z) y
      · exact Cert.Proof.TileVal.seq_step f8 f10 f13 f16 f18 f20 f28 (Cert.Proof.TileVal.wOf L) 5 (25 * 0 + k.val) _ _ _ (fun z => (hacc z).2.2.2.2.2.1)
          (fun z => (hb.2 _ _ z).trans (by rw [k0_off10_eq]; congr 1; simp <;> omega))
          (fun z => Cert.Proof.TileVal.stab_gather f20 f28 g hg _ _ z) y
      · exact Cert.Proof.TileVal.seq_step f8 f10 f13 f16 f18 f20 f28 (Cert.Proof.TileVal.wOf L) 6 (25 * 0 + k.val) _ _ _ (fun z => (hacc z).2.2.2.2.2.2.1)
          (fun z => (hb.2 _ _ z).trans (by rw [k0_off11_eq]; congr 1; simp <;> omega))
          (fun z => Cert.Proof.TileVal.stab_gather f20 f28 g hg _ _ z) y
      · exact Cert.Proof.TileVal.seq_step f8 f10 f13 f16 f18 f20 f28 (Cert.Proof.TileVal.wOf L) 7 (25 * 0 + k.val) _ _ _ (fun z => (hacc z).2.2.2.2.2.2.2)
          (fun z => (hb.2 _ _ z).trans (by rw [k0_off12_eq]; congr 1; simp <;> omega))
          (fun z => Cert.Proof.TileVal.stab_gather f20 f28 g hg _ _ z) y
    isplitl [Hib]
    · iexists b; isplitr
      · ipureintro; exact hb
      · iexact Hib
    · iexists g; isplitr
      · ipureintro; exact hg
      · iexact Hst
  · isplitr
    · ipureintro
      unfold AccOK
      intro y
      have hy : (y 0).val < 16 := (y 0).isLt
      have hL0 : (L 0).val < 2 := (L 0).isLt
      have hL1 : (L 1).val < 16 := (L 1).isLt
      refine ⟨?_, ?_, ?_, ?_, ?_, ?_, ?_, ?_⟩
      · show _ = Cert.Proof.KVal.tokAcc f8 f10 f16 f18 f28 (Cert.Proof.TileVal.wOf L) (16 * 0 + (y 0).val) 26
        sl_unfold_run_names
        refine Cert.Proof.TileVal.tok_step f8 f10 f16 f18 f28 (Cert.Proof.TileVal.wOf L) (16 * 0 + (y 0).val) 25 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 24 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 23 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 22 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 21 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 20 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 19 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 18 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 17 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 16 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 15 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 14 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 13 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 12 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 11 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 10 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 9 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 8 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 7 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 6 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 5 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 4 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 3 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 2 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 1 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 0 + (y 0).val) 0 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        rw [Cert.Proof.KVal.tokAcc_zero]
        refine Cert.Proof.TileVal.flt_step f16 f28 (Cert.Proof.TileVal.wOf L) (16 * 0 + (y 0).val) 12 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 11 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 10 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 9 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 8 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 7 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 6 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 5 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 4 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 3 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 2 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 1 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 0 + (y 0).val) 0 _ _ _ y ?_ (by rw [Cert.Proof.TileVal.aux_atV]; rfl) (by rw [Cert.Proof.TileVal.flt_atV]; congr 1; omega)
        rw [Cert.Proof.KVal.fltAcc_zero, Cert.Proof.TileVal.aux_atV]
        rfl
      · show _ = Cert.Proof.KVal.tokAcc f8 f10 f16 f18 f28 (Cert.Proof.TileVal.wOf L) (16 * 1 + (y 0).val) 26
        sl_unfold_run_names
        refine Cert.Proof.TileVal.tok_step f8 f10 f16 f18 f28 (Cert.Proof.TileVal.wOf L) (16 * 1 + (y 0).val) 25 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 24 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 23 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 22 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 21 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 20 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 19 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 18 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 17 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 16 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 15 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 14 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 13 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 12 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 11 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 10 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 9 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 8 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 7 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 6 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 5 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 4 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 3 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 2 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 1 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 1 + (y 0).val) 0 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        rw [Cert.Proof.KVal.tokAcc_zero]
        refine Cert.Proof.TileVal.flt_step f16 f28 (Cert.Proof.TileVal.wOf L) (16 * 1 + (y 0).val) 12 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 11 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 10 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 9 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 8 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 7 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 6 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 5 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 4 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 3 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 2 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 1 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 1 + (y 0).val) 0 _ _ _ y ?_ (by rw [Cert.Proof.TileVal.aux_atV]; rfl) (by rw [Cert.Proof.TileVal.flt_atV]; congr 1; omega)
        rw [Cert.Proof.KVal.fltAcc_zero, Cert.Proof.TileVal.aux_atV]
        rfl
      · show _ = Cert.Proof.KVal.tokAcc f8 f10 f16 f18 f28 (Cert.Proof.TileVal.wOf L) (16 * 2 + (y 0).val) 26
        sl_unfold_run_names
        refine Cert.Proof.TileVal.tok_step f8 f10 f16 f18 f28 (Cert.Proof.TileVal.wOf L) (16 * 2 + (y 0).val) 25 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 24 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 23 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 22 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 21 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 20 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 19 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 18 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 17 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 16 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 15 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 14 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 13 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 12 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 11 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 10 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 9 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 8 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 7 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 6 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 5 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 4 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 3 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 2 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 1 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 2 + (y 0).val) 0 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        rw [Cert.Proof.KVal.tokAcc_zero]
        refine Cert.Proof.TileVal.flt_step f16 f28 (Cert.Proof.TileVal.wOf L) (16 * 2 + (y 0).val) 12 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 11 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 10 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 9 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 8 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 7 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 6 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 5 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 4 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 3 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 2 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 1 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 2 + (y 0).val) 0 _ _ _ y ?_ (by rw [Cert.Proof.TileVal.aux_atV]; rfl) (by rw [Cert.Proof.TileVal.flt_atV]; congr 1; omega)
        rw [Cert.Proof.KVal.fltAcc_zero, Cert.Proof.TileVal.aux_atV]
        rfl
      · show _ = Cert.Proof.KVal.tokAcc f8 f10 f16 f18 f28 (Cert.Proof.TileVal.wOf L) (16 * 3 + (y 0).val) 26
        sl_unfold_run_names
        refine Cert.Proof.TileVal.tok_step f8 f10 f16 f18 f28 (Cert.Proof.TileVal.wOf L) (16 * 3 + (y 0).val) 25 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 24 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 23 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 22 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 21 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 20 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 19 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 18 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 17 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 16 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 15 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 14 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 13 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 12 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 11 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 10 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 9 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 8 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 7 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 6 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 5 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 4 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 3 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 2 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 1 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 3 + (y 0).val) 0 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        rw [Cert.Proof.KVal.tokAcc_zero]
        refine Cert.Proof.TileVal.flt_step f16 f28 (Cert.Proof.TileVal.wOf L) (16 * 3 + (y 0).val) 12 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 11 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 10 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 9 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 8 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 7 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 6 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 5 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 4 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 3 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 2 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 1 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 3 + (y 0).val) 0 _ _ _ y ?_ (by rw [Cert.Proof.TileVal.aux_atV]; rfl) (by rw [Cert.Proof.TileVal.flt_atV]; congr 1; omega)
        rw [Cert.Proof.KVal.fltAcc_zero, Cert.Proof.TileVal.aux_atV]
        rfl
      · show _ = Cert.Proof.KVal.tokAcc f8 f10 f16 f18 f28 (Cert.Proof.TileVal.wOf L) (16 * 4 + (y 0).val) 26
        sl_unfold_run_names
        refine Cert.Proof.TileVal.tok_step f8 f10 f16 f18 f28 (Cert.Proof.TileVal.wOf L) (16 * 4 + (y 0).val) 25 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 24 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 23 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 22 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 21 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 20 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 19 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 18 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 17 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 16 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 15 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 14 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 13 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 12 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 11 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 10 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 9 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 8 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 7 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 6 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 5 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 4 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 3 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 2 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 1 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 4 + (y 0).val) 0 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        rw [Cert.Proof.KVal.tokAcc_zero]
        refine Cert.Proof.TileVal.flt_step f16 f28 (Cert.Proof.TileVal.wOf L) (16 * 4 + (y 0).val) 12 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 11 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 10 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 9 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 8 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 7 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 6 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 5 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 4 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 3 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 2 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 1 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 4 + (y 0).val) 0 _ _ _ y ?_ (by rw [Cert.Proof.TileVal.aux_atV]; rfl) (by rw [Cert.Proof.TileVal.flt_atV]; congr 1; omega)
        rw [Cert.Proof.KVal.fltAcc_zero, Cert.Proof.TileVal.aux_atV]
        rfl
      · show _ = Cert.Proof.KVal.tokAcc f8 f10 f16 f18 f28 (Cert.Proof.TileVal.wOf L) (16 * 5 + (y 0).val) 26
        sl_unfold_run_names
        refine Cert.Proof.TileVal.tok_step f8 f10 f16 f18 f28 (Cert.Proof.TileVal.wOf L) (16 * 5 + (y 0).val) 25 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 24 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 23 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 22 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 21 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 20 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 19 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 18 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 17 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 16 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 15 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 14 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 13 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 12 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 11 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 10 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 9 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 8 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 7 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 6 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 5 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 4 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 3 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 2 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 1 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 5 + (y 0).val) 0 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        rw [Cert.Proof.KVal.tokAcc_zero]
        refine Cert.Proof.TileVal.flt_step f16 f28 (Cert.Proof.TileVal.wOf L) (16 * 5 + (y 0).val) 12 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 11 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 10 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 9 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 8 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 7 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 6 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 5 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 4 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 3 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 2 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 1 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 5 + (y 0).val) 0 _ _ _ y ?_ (by rw [Cert.Proof.TileVal.aux_atV]; rfl) (by rw [Cert.Proof.TileVal.flt_atV]; congr 1; omega)
        rw [Cert.Proof.KVal.fltAcc_zero, Cert.Proof.TileVal.aux_atV]
        rfl
      · show _ = Cert.Proof.KVal.tokAcc f8 f10 f16 f18 f28 (Cert.Proof.TileVal.wOf L) (16 * 6 + (y 0).val) 26
        sl_unfold_run_names
        refine Cert.Proof.TileVal.tok_step f8 f10 f16 f18 f28 (Cert.Proof.TileVal.wOf L) (16 * 6 + (y 0).val) 25 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 24 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 23 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 22 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 21 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 20 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 19 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 18 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 17 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 16 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 15 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 14 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 13 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 12 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 11 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 10 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 9 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 8 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 7 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 6 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 5 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 4 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 3 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 2 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 1 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 6 + (y 0).val) 0 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        rw [Cert.Proof.KVal.tokAcc_zero]
        refine Cert.Proof.TileVal.flt_step f16 f28 (Cert.Proof.TileVal.wOf L) (16 * 6 + (y 0).val) 12 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 11 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 10 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 9 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 8 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 7 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 6 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 5 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 4 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 3 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 2 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 1 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 6 + (y 0).val) 0 _ _ _ y ?_ (by rw [Cert.Proof.TileVal.aux_atV]; rfl) (by rw [Cert.Proof.TileVal.flt_atV]; congr 1; omega)
        rw [Cert.Proof.KVal.fltAcc_zero, Cert.Proof.TileVal.aux_atV]
        rfl
      · show _ = Cert.Proof.KVal.tokAcc f8 f10 f16 f18 f28 (Cert.Proof.TileVal.wOf L) (16 * 7 + (y 0).val) 26
        sl_unfold_run_names
        refine Cert.Proof.TileVal.tok_step f8 f10 f16 f18 f28 (Cert.Proof.TileVal.wOf L) (16 * 7 + (y 0).val) 25 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 24 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 23 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 22 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 21 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 20 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 19 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 18 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 17 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 16 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 15 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 14 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 13 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 12 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 11 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 10 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 9 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 8 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 7 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 6 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 5 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 4 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 3 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 2 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 1 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        refine Cert.Proof.TileVal.tok_step f8 f10 f16 f18 f28 (Cert.Proof.TileVal.wOf L) (16 * 7 + (y 0).val) 0 _ _ _ _ y ?_ (by rw [Cert.Proof.TileVal.ids_atV]; congr 1; omega) (by rw [Cert.Proof.TileVal.aux_atV]; rfl) (by first | (rw [Cert.Proof.TileVal.cut_at2]; repeat (first | omega | congr 1)) | (refine (Cert.Proof.TileVal.cut_at2 L f18 f10 s0 _ _ _ _ _ hin _ _ y).trans ?_; repeat (first | omega | congr 1)) | (refine (Cert.Proof.TileVal.cut_at2V L f18 f10 s0 _ _ _ hin _ _ y).trans ?_; repeat (first | omega | congr 1)))
        rw [Cert.Proof.KVal.tokAcc_zero]
        refine Cert.Proof.TileVal.flt_step f16 f28 (Cert.Proof.TileVal.wOf L) (16 * 7 + (y 0).val) 12 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 11 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 10 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 9 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 8 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 7 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 6 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 5 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 4 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 3 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 2 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 1 _ _ _ y ?_ (by rw [Cert.Proof.TileVal.aux_atV]; rfl) (by rw [Cert.Proof.TileVal.flt_atV]; congr 1; omega)
        refine Cert.Proof.TileVal.flt_step f16 f28 (Cert.Proof.TileVal.wOf L) (16 * 7 + (y 0).val) 0 _ _ _ y ?_ (by rw [Cert.Proof.TileVal.aux_atV]; rfl) (by rw [Cert.Proof.TileVal.flt_atV]; congr 1; omega)
        rw [Cert.Proof.KVal.fltAcc_zero, Cert.Proof.TileVal.aux_atV]
        rfl
    isplitl [Hs4]
    · iexists _; isplitr
      rotate_left
      · iexact Hs4
      · ipureintro
        refine ⟨fun x => ?_, fun offc inb y => ?_⟩
        · first
          | (simp only [Memref.view_whole, View.write_whole_univ]; exact hidx.2.2 _)
          | (sl_unfold_run_names; simp only [Memref.view_whole, View.write_whole_univ, ReadAs.apply_same]; exact hidx.2.2 _)
        · sl_unfold_run_names
          rw [Cert.Proof.TileVal.seq_ids_at4 (F := Ideal)]
          have e : k0_off2 L 0#32 = ![51200 * (L 1).val + 25600 * (L 0).val + 3200 * (0 : Nat)] := k0_off2_eq L ⟨0, by decide⟩
          rw [e]
          congr 1
          simp [Cert.Proof.TileVal.wOf]
          omega
    · iexists _; isplitr
      rotate_left
      · iexact Hs3
      · ipureintro
        intro x
        sl_unfold_run_names
        exact Cert.Proof.TileVal.stab_contents f20 f28 s3 _ _ _ _
          (fun y => (Cert.Proof.TileVal.landed_f20 _ _ _ f20 y).trans (by simp))
          (fun y => (Cert.Proof.TileVal.landed_f20 _ _ _ f20 y).trans (by simp))
          (fun y => Cert.Proof.TileVal.tail_at f28 s7 64#32 (by decide) _ y)
          (fun y => Cert.Proof.TileVal.tail_at f28 s7 80#32 (by decide) _ y)
          _ Cert.Proof.TileVal.iota_lane x
  iintro %accL1 HI
  icases HI with ⟨%haccL1, ⟨%bL1, %hbL1, Hs4⟩, ⟨%gL1, %hgL1, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (k : Nat) (aa : FVec Ideal S16 .f32 × FVec Ideal S16 .f32 × FVec Ideal S16 .f32 × FVec Ideal S16 .f32 × FVec Ideal S16 .f32 × FVec Ideal S16 .f32 × FVec Ideal S16 .f32 × FVec Ideal S16 .f32) =>
      (iprop(⌜AccOK f8 f10 f13 f16 f18 f20 f28 (Cert.Proof.TileVal.wOf L) (25 * 1 + k) aa⌝
        ∗ (∃ b, ⌜(∀ x, (b x).toNat < 100000) ∧ ChunkOK5 f13 (Cert.Proof.TileVal.wOf L) 1 b⌝ ∗ (Memref.whole cc0_scratch5 : Memref sig .scVector .vmem S3200 .i32).view.loc (V d (cV L) (jV L)) ↦{fullShare} b)
        ∗ (∃ g, ⌜StabOK f20 f28 g⌝ ∗ (Memref.whole cc0_scratch3 : Memref sig .scVector .vmem S100000 .f32).view.loc (V d (cV L) (jV L)) ↦{fullShare} g)) : sProp (MT nD τ sig (HIx 1) (Elt Ideal) ℕ UU ℕ))) $$ [Hs5 Hs3]
  case region =>
    intro k acc
    iintro ⟨%hacc, ⟨%b, %hb, Hib⟩, ⟨%g, %hg, Hst⟩⟩
    iterate 4 (sl_exec_parts (disch := first
      | sl_decide
      | exact IdxFacts.one_in_table (fun x => by
          first
          | (simp only [View.readAt_apply, Memref.view_whole, View.read_whole]; exact hb.1 _)
          | (sl_unfold_run_names; simp only [View.readAt_apply, Memref.view_whole, View.read_whole]; exact hb.1 _))); try unfold SparseCore.vectorLoadIdx)
    sl_step
    isplitr
    · ipureintro
      intro y
      refine ⟨?_, ?_, ?_, ?_, ?_, ?_, ?_, ?_⟩
      · exact Cert.Proof.TileVal.seq_step f8 f10 f13 f16 f18 f20 f28 (Cert.Proof.TileVal.wOf L) 0 (25 * 1 + k.val) _ _ _ (fun z => (hacc z).1)
          (fun z => (hb.2 _ _ z).trans (by rw [k0_off13_eq]; congr 1; simp <;> omega))
          (fun z => Cert.Proof.TileVal.stab_gather f20 f28 g hg _ _ z) y
      · exact Cert.Proof.TileVal.seq_step f8 f10 f13 f16 f18 f20 f28 (Cert.Proof.TileVal.wOf L) 1 (25 * 1 + k.val) _ _ _ (fun z => (hacc z).2.1)
          (fun z => (hb.2 _ _ z).trans (by rw [k0_off14_eq]; congr 1; simp <;> omega))
          (fun z => Cert.Proof.TileVal.stab_gather f20 f28 g hg _ _ z) y
      · exact Cert.Proof.TileVal.seq_step f8 f10 f13 f16 f18 f20 f28 (Cert.Proof.TileVal.wOf L) 2 (25 * 1 + k.val) _ _ _ (fun z => (hacc z).2.2.1)
          (fun z => (hb.2 _ _ z).trans (by rw [k0_off15_eq]; congr 1; simp <;> omega))
          (fun z => Cert.Proof.TileVal.stab_gather f20 f28 g hg _ _ z) y
      · exact Cert.Proof.TileVal.seq_step f8 f10 f13 f16 f18 f20 f28 (Cert.Proof.TileVal.wOf L) 3 (25 * 1 + k.val) _ _ _ (fun z => (hacc z).2.2.2.1)
          (fun z => (hb.2 _ _ z).trans (by rw [k0_off16_eq]; congr 1; simp <;> omega))
          (fun z => Cert.Proof.TileVal.stab_gather f20 f28 g hg _ _ z) y
      · exact Cert.Proof.TileVal.seq_step f8 f10 f13 f16 f18 f20 f28 (Cert.Proof.TileVal.wOf L) 4 (25 * 1 + k.val) _ _ _ (fun z => (hacc z).2.2.2.2.1)
          (fun z => (hb.2 _ _ z).trans (by rw [k0_off17_eq]; congr 1; simp <;> omega))
          (fun z => Cert.Proof.TileVal.stab_gather f20 f28 g hg _ _ z) y
      · exact Cert.Proof.TileVal.seq_step f8 f10 f13 f16 f18 f20 f28 (Cert.Proof.TileVal.wOf L) 5 (25 * 1 + k.val) _ _ _ (fun z => (hacc z).2.2.2.2.2.1)
          (fun z => (hb.2 _ _ z).trans (by rw [k0_off18_eq]; congr 1; simp <;> omega))
          (fun z => Cert.Proof.TileVal.stab_gather f20 f28 g hg _ _ z) y
      · exact Cert.Proof.TileVal.seq_step f8 f10 f13 f16 f18 f20 f28 (Cert.Proof.TileVal.wOf L) 6 (25 * 1 + k.val) _ _ _ (fun z => (hacc z).2.2.2.2.2.2.1)
          (fun z => (hb.2 _ _ z).trans (by rw [k0_off19_eq]; congr 1; simp <;> omega))
          (fun z => Cert.Proof.TileVal.stab_gather f20 f28 g hg _ _ z) y
      · exact Cert.Proof.TileVal.seq_step f8 f10 f13 f16 f18 f20 f28 (Cert.Proof.TileVal.wOf L) 7 (25 * 1 + k.val) _ _ _ (fun z => (hacc z).2.2.2.2.2.2.2)
          (fun z => (hb.2 _ _ z).trans (by rw [k0_off20_eq]; congr 1; simp <;> omega))
          (fun z => Cert.Proof.TileVal.stab_gather f20 f28 g hg _ _ z) y
    isplitl [Hib]
    · iexists b; isplitr
      · ipureintro; exact hb
      · iexact Hib
    · iexists g; isplitr
      · ipureintro; exact hg
      · iexact Hst
  · isplitr
    · ipureintro
      have h := haccL1
      rw [show Scf.trips k0_t1_loop.lb k0_t1_loop.ub k0_t1_loop.st = 25 from by decide] at h
      exact h
    isplitl [Hs5]
    · iexists _; isplitr
      rotate_left
      · iexact Hs5
      · ipureintro
        refine ⟨fun x => ?_, fun offc inb y => ?_⟩
        · first
          | (simp only [Memref.view_whole, View.write_whole_univ]; exact hidx.2.2 _)
          | (sl_unfold_run_names; simp only [Memref.view_whole, View.write_whole_univ, ReadAs.apply_same]; exact hidx.2.2 _)
        · sl_unfold_run_names
          rw [Cert.Proof.TileVal.seq_ids_at5 (F := Ideal)]
          have e : k0_off2 L 3200#32 = ![51200 * (L 1).val + 25600 * (L 0).val + 3200 * (1 : Nat)] := k0_off2_eq L ⟨1, by decide⟩
          rw [e]
          congr 1
          simp [Cert.Proof.TileVal.wOf]
          omega
    · iexists gL1; isplitr
      · ipureintro; exact hgL1
      · iexact Hs3
  iintro %accL2 HI
  icases HI with ⟨%haccL2, ⟨%bL2, %hbL2, Hs5⟩, ⟨%gL2, %hgL2, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (k : Nat) (aa : FVec Ideal S16 .f32 × FVec Ideal S16 .f32 × FVec Ideal S16 .f32 × FVec Ideal S16 .f32 × FVec Ideal S16 .f32 × FVec Ideal S16 .f32 × FVec Ideal S16 .f32 × FVec Ideal S16 .f32) =>
      (iprop(⌜AccOK f8 f10 f13 f16 f18 f20 f28 (Cert.Proof.TileVal.wOf L) (25 * 2 + k) aa⌝
        ∗ (∃ b, ⌜(∀ x, (b x).toNat < 100000) ∧ ChunkOK4 f13 (Cert.Proof.TileVal.wOf L) 2 b⌝ ∗ (Memref.whole cc0_scratch4 : Memref sig .scVector .vmem S3200 .i32).view.loc (V d (cV L) (jV L)) ↦{fullShare} b)
        ∗ (∃ g, ⌜StabOK f20 f28 g⌝ ∗ (Memref.whole cc0_scratch3 : Memref sig .scVector .vmem S100000 .f32).view.loc (V d (cV L) (jV L)) ↦{fullShare} g)) : sProp (MT nD τ sig (HIx 1) (Elt Ideal) ℕ UU ℕ))) $$ [Hs4 Hs3]
  case region =>
    intro k acc
    iintro ⟨%hacc, ⟨%b, %hb, Hib⟩, ⟨%g, %hg, Hst⟩⟩
    iterate 4 (sl_exec_parts (disch := first
      | sl_decide
      | exact IdxFacts.one_in_table (fun x => by
          first
          | (simp only [View.readAt_apply, Memref.view_whole, View.read_whole]; exact hb.1 _)
          | (sl_unfold_run_names; simp only [View.readAt_apply, Memref.view_whole, View.read_whole]; exact hb.1 _))); try unfold SparseCore.vectorLoadIdx)
    sl_step
    isplitr
    · ipureintro
      intro y
      refine ⟨?_, ?_, ?_, ?_, ?_, ?_, ?_, ?_⟩
      · exact Cert.Proof.TileVal.seq_step f8 f10 f13 f16 f18 f20 f28 (Cert.Proof.TileVal.wOf L) 0 (25 * 2 + k.val) _ _ _ (fun z => (hacc z).1)
          (fun z => (hb.2 _ _ z).trans (by rw [k0_off21_eq]; congr 1; simp <;> omega))
          (fun z => Cert.Proof.TileVal.stab_gather f20 f28 g hg _ _ z) y
      · exact Cert.Proof.TileVal.seq_step f8 f10 f13 f16 f18 f20 f28 (Cert.Proof.TileVal.wOf L) 1 (25 * 2 + k.val) _ _ _ (fun z => (hacc z).2.1)
          (fun z => (hb.2 _ _ z).trans (by rw [k0_off22_eq]; congr 1; simp <;> omega))
          (fun z => Cert.Proof.TileVal.stab_gather f20 f28 g hg _ _ z) y
      · exact Cert.Proof.TileVal.seq_step f8 f10 f13 f16 f18 f20 f28 (Cert.Proof.TileVal.wOf L) 2 (25 * 2 + k.val) _ _ _ (fun z => (hacc z).2.2.1)
          (fun z => (hb.2 _ _ z).trans (by rw [k0_off23_eq]; congr 1; simp <;> omega))
          (fun z => Cert.Proof.TileVal.stab_gather f20 f28 g hg _ _ z) y
      · exact Cert.Proof.TileVal.seq_step f8 f10 f13 f16 f18 f20 f28 (Cert.Proof.TileVal.wOf L) 3 (25 * 2 + k.val) _ _ _ (fun z => (hacc z).2.2.2.1)
          (fun z => (hb.2 _ _ z).trans (by rw [k0_off24_eq]; congr 1; simp <;> omega))
          (fun z => Cert.Proof.TileVal.stab_gather f20 f28 g hg _ _ z) y
      · exact Cert.Proof.TileVal.seq_step f8 f10 f13 f16 f18 f20 f28 (Cert.Proof.TileVal.wOf L) 4 (25 * 2 + k.val) _ _ _ (fun z => (hacc z).2.2.2.2.1)
          (fun z => (hb.2 _ _ z).trans (by rw [k0_off25_eq]; congr 1; simp <;> omega))
          (fun z => Cert.Proof.TileVal.stab_gather f20 f28 g hg _ _ z) y
      · exact Cert.Proof.TileVal.seq_step f8 f10 f13 f16 f18 f20 f28 (Cert.Proof.TileVal.wOf L) 5 (25 * 2 + k.val) _ _ _ (fun z => (hacc z).2.2.2.2.2.1)
          (fun z => (hb.2 _ _ z).trans (by rw [k0_off26_eq]; congr 1; simp <;> omega))
          (fun z => Cert.Proof.TileVal.stab_gather f20 f28 g hg _ _ z) y
      · exact Cert.Proof.TileVal.seq_step f8 f10 f13 f16 f18 f20 f28 (Cert.Proof.TileVal.wOf L) 6 (25 * 2 + k.val) _ _ _ (fun z => (hacc z).2.2.2.2.2.2.1)
          (fun z => (hb.2 _ _ z).trans (by rw [k0_off27_eq]; congr 1; simp <;> omega))
          (fun z => Cert.Proof.TileVal.stab_gather f20 f28 g hg _ _ z) y
      · exact Cert.Proof.TileVal.seq_step f8 f10 f13 f16 f18 f20 f28 (Cert.Proof.TileVal.wOf L) 7 (25 * 2 + k.val) _ _ _ (fun z => (hacc z).2.2.2.2.2.2.2)
          (fun z => (hb.2 _ _ z).trans (by rw [k0_off28_eq]; congr 1; simp <;> omega))
          (fun z => Cert.Proof.TileVal.stab_gather f20 f28 g hg _ _ z) y
    isplitl [Hib]
    · iexists b; isplitr
      · ipureintro; exact hb
      · iexact Hib
    · iexists g; isplitr
      · ipureintro; exact hg
      · iexact Hst
  · isplitr
    · ipureintro
      have h := haccL2
      rw [show Scf.trips k0_t2_loop.lb k0_t2_loop.ub k0_t2_loop.st = 25 from by decide] at h
      exact h
    isplitl [Hs4]
    · iexists _; isplitr
      rotate_left
      · iexact Hs4
      · ipureintro
        refine ⟨fun x => ?_, fun offc inb y => ?_⟩
        · first
          | (simp only [Memref.view_whole, View.write_whole_univ]; exact hidx.2.2 _)
          | (sl_unfold_run_names; simp only [Memref.view_whole, View.write_whole_univ, ReadAs.apply_same]; exact hidx.2.2 _)
        · sl_unfold_run_names
          rw [Cert.Proof.TileVal.seq_ids_at4 (F := Ideal)]
          have e : k0_off4 L 6400#32 = ![51200 * (L 1).val + 25600 * (L 0).val + 3200 * (2 : Nat)] := k0_off4_eq L ⟨2, by decide⟩
          rw [e]
          congr 1
          simp [Cert.Proof.TileVal.wOf]
          omega
    · iexists gL2; isplitr
      · ipureintro; exact hgL2
      · iexact Hs3
  iintro %accL3 HI
  icases HI with ⟨%haccL3, ⟨%bL3, %hbL3, Hs4⟩, ⟨%gL3, %hgL3, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (k : Nat) (aa : FVec Ideal S16 .f32 × FVec Ideal S16 .f32 × FVec Ideal S16 .f32 × FVec Ideal S16 .f32 × FVec Ideal S16 .f32 × FVec Ideal S16 .f32 × FVec Ideal S16 .f32 × FVec Ideal S16 .f32) =>
      (iprop(⌜AccOK f8 f10 f13 f16 f18 f20 f28 (Cert.Proof.TileVal.wOf L) (25 * 3 + k) aa⌝
        ∗ (∃ b, ⌜(∀ x, (b x).toNat < 100000) ∧ ChunkOK5 f13 (Cert.Proof.TileVal.wOf L) 3 b⌝ ∗ (Memref.whole cc0_scratch5 : Memref sig .scVector .vmem S3200 .i32).view.loc (V d (cV L) (jV L)) ↦{fullShare} b)
        ∗ (∃ g, ⌜StabOK f20 f28 g⌝ ∗ (Memref.whole cc0_scratch3 : Memref sig .scVector .vmem S100000 .f32).view.loc (V d (cV L) (jV L)) ↦{fullShare} g)) : sProp (MT nD τ sig (HIx 1) (Elt Ideal) ℕ UU ℕ))) $$ [Hs5 Hs3]
  case region =>
    intro k acc
    iintro ⟨%hacc, ⟨%b, %hb, Hib⟩, ⟨%g, %hg, Hst⟩⟩
    iterate 4 (sl_exec_parts (disch := first
      | sl_decide
      | exact IdxFacts.one_in_table (fun x => by
          first
          | (simp only [View.readAt_apply, Memref.view_whole, View.read_whole]; exact hb.1 _)
          | (sl_unfold_run_names; simp only [View.readAt_apply, Memref.view_whole, View.read_whole]; exact hb.1 _))); try unfold SparseCore.vectorLoadIdx)
    sl_step
    isplitr
    · ipureintro
      intro y
      refine ⟨?_, ?_, ?_, ?_, ?_, ?_, ?_, ?_⟩
      · exact Cert.Proof.TileVal.seq_step f8 f10 f13 f16 f18 f20 f28 (Cert.Proof.TileVal.wOf L) 0 (25 * 3 + k.val) _ _ _ (fun z => (hacc z).1)
          (fun z => (hb.2 _ _ z).trans (by rw [k0_off29_eq]; congr 1; simp <;> omega))
          (fun z => Cert.Proof.TileVal.stab_gather f20 f28 g hg _ _ z) y
      · exact Cert.Proof.TileVal.seq_step f8 f10 f13 f16 f18 f20 f28 (Cert.Proof.TileVal.wOf L) 1 (25 * 3 + k.val) _ _ _ (fun z => (hacc z).2.1)
          (fun z => (hb.2 _ _ z).trans (by rw [k0_off30_eq]; congr 1; simp <;> omega))
          (fun z => Cert.Proof.TileVal.stab_gather f20 f28 g hg _ _ z) y
      · exact Cert.Proof.TileVal.seq_step f8 f10 f13 f16 f18 f20 f28 (Cert.Proof.TileVal.wOf L) 2 (25 * 3 + k.val) _ _ _ (fun z => (hacc z).2.2.1)
          (fun z => (hb.2 _ _ z).trans (by rw [k0_off31_eq]; congr 1; simp <;> omega))
          (fun z => Cert.Proof.TileVal.stab_gather f20 f28 g hg _ _ z) y
      · exact Cert.Proof.TileVal.seq_step f8 f10 f13 f16 f18 f20 f28 (Cert.Proof.TileVal.wOf L) 3 (25 * 3 + k.val) _ _ _ (fun z => (hacc z).2.2.2.1)
          (fun z => (hb.2 _ _ z).trans (by rw [k0_off32_eq]; congr 1; simp <;> omega))
          (fun z => Cert.Proof.TileVal.stab_gather f20 f28 g hg _ _ z) y
      · exact Cert.Proof.TileVal.seq_step f8 f10 f13 f16 f18 f20 f28 (Cert.Proof.TileVal.wOf L) 4 (25 * 3 + k.val) _ _ _ (fun z => (hacc z).2.2.2.2.1)
          (fun z => (hb.2 _ _ z).trans (by rw [k0_off33_eq]; congr 1; simp <;> omega))
          (fun z => Cert.Proof.TileVal.stab_gather f20 f28 g hg _ _ z) y
      · exact Cert.Proof.TileVal.seq_step f8 f10 f13 f16 f18 f20 f28 (Cert.Proof.TileVal.wOf L) 5 (25 * 3 + k.val) _ _ _ (fun z => (hacc z).2.2.2.2.2.1)
          (fun z => (hb.2 _ _ z).trans (by rw [k0_off34_eq]; congr 1; simp <;> omega))
          (fun z => Cert.Proof.TileVal.stab_gather f20 f28 g hg _ _ z) y
      · exact Cert.Proof.TileVal.seq_step f8 f10 f13 f16 f18 f20 f28 (Cert.Proof.TileVal.wOf L) 6 (25 * 3 + k.val) _ _ _ (fun z => (hacc z).2.2.2.2.2.2.1)
          (fun z => (hb.2 _ _ z).trans (by rw [k0_off35_eq]; congr 1; simp <;> omega))
          (fun z => Cert.Proof.TileVal.stab_gather f20 f28 g hg _ _ z) y
      · exact Cert.Proof.TileVal.seq_step f8 f10 f13 f16 f18 f20 f28 (Cert.Proof.TileVal.wOf L) 7 (25 * 3 + k.val) _ _ _ (fun z => (hacc z).2.2.2.2.2.2.2)
          (fun z => (hb.2 _ _ z).trans (by rw [k0_off36_eq]; congr 1; simp <;> omega))
          (fun z => Cert.Proof.TileVal.stab_gather f20 f28 g hg _ _ z) y
    isplitl [Hib]
    · iexists b; isplitr
      · ipureintro; exact hb
      · iexact Hib
    · iexists g; isplitr
      · ipureintro; exact hg
      · iexact Hst
  · isplitr
    · ipureintro
      have h := haccL3
      rw [show Scf.trips k0_t3_loop.lb k0_t3_loop.ub k0_t3_loop.st = 25 from by decide] at h
      exact h
    isplitl [Hs5]
    · iexists _; isplitr
      rotate_left
      · iexact Hs5
      · ipureintro
        refine ⟨fun x => ?_, fun offc inb y => ?_⟩
        · first
          | (simp only [Memref.view_whole, View.write_whole_univ]; exact hidx.2.2 _)
          | (sl_unfold_run_names; simp only [Memref.view_whole, View.write_whole_univ, ReadAs.apply_same]; exact hidx.2.2 _)
        · sl_unfold_run_names
          rw [Cert.Proof.TileVal.seq_ids_at5 (F := Ideal)]
          have e : k0_off4 L 9600#32 = ![51200 * (L 1).val + 25600 * (L 0).val + 3200 * (3 : Nat)] := k0_off4_eq L ⟨3, by decide⟩
          rw [e]
          congr 1
          simp [Cert.Proof.TileVal.wOf]
          omega
    · iexists gL3; isplitr
      · ipureintro; exact hgL3
      · iexact Hs3
  iintro %accL4 HI
  icases HI with ⟨%haccL4, ⟨%bL4, %hbL4, Hs5⟩, ⟨%gL4, %hgL4, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (k : Nat) (aa : FVec Ideal S16 .f32 × FVec Ideal S16 .f32 × FVec Ideal S16 .f32 × FVec Ideal S16 .f32 × FVec Ideal S16 .f32 × FVec Ideal S16 .f32 × FVec Ideal S16 .f32 × FVec Ideal S16 .f32) =>
      (iprop(⌜AccOK f8 f10 f13 f16 f18 f20 f28 (Cert.Proof.TileVal.wOf L) (25 * 4 + k) aa⌝
        ∗ (∃ b, ⌜(∀ x, (b x).toNat < 100000) ∧ ChunkOK4 f13 (Cert.Proof.TileVal.wOf L) 4 b⌝ ∗ (Memref.whole cc0_scratch4 : Memref sig .scVector .vmem S3200 .i32).view.loc (V d (cV L) (jV L)) ↦{fullShare} b)
        ∗ (∃ g, ⌜StabOK f20 f28 g⌝ ∗ (Memref.whole cc0_scratch3 : Memref sig .scVector .vmem S100000 .f32).view.loc (V d (cV L) (jV L)) ↦{fullShare} g)) : sProp (MT nD τ sig (HIx 1) (Elt Ideal) ℕ UU ℕ))) $$ [Hs4 Hs3]
  case region =>
    intro k acc
    iintro ⟨%hacc, ⟨%b, %hb, Hib⟩, ⟨%g, %hg, Hst⟩⟩
    iterate 4 (sl_exec_parts (disch := first
      | sl_decide
      | exact IdxFacts.one_in_table (fun x => by
          first
          | (simp only [View.readAt_apply, Memref.view_whole, View.read_whole]; exact hb.1 _)
          | (sl_unfold_run_names; simp only [View.readAt_apply, Memref.view_whole, View.read_whole]; exact hb.1 _))); try unfold SparseCore.vectorLoadIdx)
    sl_step
    isplitr
    · ipureintro
      intro y
      refine ⟨?_, ?_, ?_, ?_, ?_, ?_, ?_, ?_⟩
      · exact Cert.Proof.TileVal.seq_step f8 f10 f13 f16 f18 f20 f28 (Cert.Proof.TileVal.wOf L) 0 (25 * 4 + k.val) _ _ _ (fun z => (hacc z).1)
          (fun z => (hb.2 _ _ z).trans (by rw [k0_off37_eq]; congr 1; simp <;> omega))
          (fun z => Cert.Proof.TileVal.stab_gather f20 f28 g hg _ _ z) y
      · exact Cert.Proof.TileVal.seq_step f8 f10 f13 f16 f18 f20 f28 (Cert.Proof.TileVal.wOf L) 1 (25 * 4 + k.val) _ _ _ (fun z => (hacc z).2.1)
          (fun z => (hb.2 _ _ z).trans (by rw [k0_off38_eq]; congr 1; simp <;> omega))
          (fun z => Cert.Proof.TileVal.stab_gather f20 f28 g hg _ _ z) y
      · exact Cert.Proof.TileVal.seq_step f8 f10 f13 f16 f18 f20 f28 (Cert.Proof.TileVal.wOf L) 2 (25 * 4 + k.val) _ _ _ (fun z => (hacc z).2.2.1)
          (fun z => (hb.2 _ _ z).trans (by rw [k0_off39_eq]; congr 1; simp <;> omega))
          (fun z => Cert.Proof.TileVal.stab_gather f20 f28 g hg _ _ z) y
      · exact Cert.Proof.TileVal.seq_step f8 f10 f13 f16 f18 f20 f28 (Cert.Proof.TileVal.wOf L) 3 (25 * 4 + k.val) _ _ _ (fun z => (hacc z).2.2.2.1)
          (fun z => (hb.2 _ _ z).trans (by rw [k0_off40_eq]; congr 1; simp <;> omega))
          (fun z => Cert.Proof.TileVal.stab_gather f20 f28 g hg _ _ z) y
      · exact Cert.Proof.TileVal.seq_step f8 f10 f13 f16 f18 f20 f28 (Cert.Proof.TileVal.wOf L) 4 (25 * 4 + k.val) _ _ _ (fun z => (hacc z).2.2.2.2.1)
          (fun z => (hb.2 _ _ z).trans (by rw [k0_off41_eq]; congr 1; simp <;> omega))
          (fun z => Cert.Proof.TileVal.stab_gather f20 f28 g hg _ _ z) y
      · exact Cert.Proof.TileVal.seq_step f8 f10 f13 f16 f18 f20 f28 (Cert.Proof.TileVal.wOf L) 5 (25 * 4 + k.val) _ _ _ (fun z => (hacc z).2.2.2.2.2.1)
          (fun z => (hb.2 _ _ z).trans (by rw [k0_off42_eq]; congr 1; simp <;> omega))
          (fun z => Cert.Proof.TileVal.stab_gather f20 f28 g hg _ _ z) y
      · exact Cert.Proof.TileVal.seq_step f8 f10 f13 f16 f18 f20 f28 (Cert.Proof.TileVal.wOf L) 6 (25 * 4 + k.val) _ _ _ (fun z => (hacc z).2.2.2.2.2.2.1)
          (fun z => (hb.2 _ _ z).trans (by rw [k0_off43_eq]; congr 1; simp <;> omega))
          (fun z => Cert.Proof.TileVal.stab_gather f20 f28 g hg _ _ z) y
      · exact Cert.Proof.TileVal.seq_step f8 f10 f13 f16 f18 f20 f28 (Cert.Proof.TileVal.wOf L) 7 (25 * 4 + k.val) _ _ _ (fun z => (hacc z).2.2.2.2.2.2.2)
          (fun z => (hb.2 _ _ z).trans (by rw [k0_off44_eq]; congr 1; simp <;> omega))
          (fun z => Cert.Proof.TileVal.stab_gather f20 f28 g hg _ _ z) y
    isplitl [Hib]
    · iexists b; isplitr
      · ipureintro; exact hb
      · iexact Hib
    · iexists g; isplitr
      · ipureintro; exact hg
      · iexact Hst
  · isplitr
    · ipureintro
      have h := haccL4
      rw [show Scf.trips k0_t4_loop.lb k0_t4_loop.ub k0_t4_loop.st = 25 from by decide] at h
      exact h
    isplitl [Hs4]
    · iexists _; isplitr
      rotate_left
      · iexact Hs4
      · ipureintro
        refine ⟨fun x => ?_, fun offc inb y => ?_⟩
        · first
          | (simp only [Memref.view_whole, View.write_whole_univ]; exact hidx.2.2 _)
          | (sl_unfold_run_names; simp only [Memref.view_whole, View.write_whole_univ, ReadAs.apply_same]; exact hidx.2.2 _)
        · sl_unfold_run_names
          rw [Cert.Proof.TileVal.seq_ids_at4 (F := Ideal)]
          have e : k0_off4 L 12800#32 = ![51200 * (L 1).val + 25600 * (L 0).val + 3200 * (4 : Nat)] := k0_off4_eq L ⟨4, by decide⟩
          rw [e]
          congr 1
          simp [Cert.Proof.TileVal.wOf]
          omega
    · iexists gL4; isplitr
      · ipureintro; exact hgL4
      · iexact Hs3
  iintro %accL5 HI
  icases HI with ⟨%haccL5, ⟨%bL5, %hbL5, Hs4⟩, ⟨%gL5, %hgL5, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (k : Nat) (aa : FVec Ideal S16 .f32 × FVec Ideal S16 .f32 × FVec Ideal S16 .f32 × FVec Ideal S16 .f32 × FVec Ideal S16 .f32 × FVec Ideal S16 .f32 × FVec Ideal S16 .f32 × FVec Ideal S16 .f32) =>
      (iprop(⌜AccOK f8 f10 f13 f16 f18 f20 f28 (Cert.Proof.TileVal.wOf L) (25 * 5 + k) aa⌝
        ∗ (∃ b, ⌜(∀ x, (b x).toNat < 100000) ∧ ChunkOK5 f13 (Cert.Proof.TileVal.wOf L) 5 b⌝ ∗ (Memref.whole cc0_scratch5 : Memref sig .scVector .vmem S3200 .i32).view.loc (V d (cV L) (jV L)) ↦{fullShare} b)
        ∗ (∃ g, ⌜StabOK f20 f28 g⌝ ∗ (Memref.whole cc0_scratch3 : Memref sig .scVector .vmem S100000 .f32).view.loc (V d (cV L) (jV L)) ↦{fullShare} g)) : sProp (MT nD τ sig (HIx 1) (Elt Ideal) ℕ UU ℕ))) $$ [Hs5 Hs3]
  case region =>
    intro k acc
    iintro ⟨%hacc, ⟨%b, %hb, Hib⟩, ⟨%g, %hg, Hst⟩⟩
    iterate 4 (sl_exec_parts (disch := first
      | sl_decide
      | exact IdxFacts.one_in_table (fun x => by
          first
          | (simp only [View.readAt_apply, Memref.view_whole, View.read_whole]; exact hb.1 _)
          | (sl_unfold_run_names; simp only [View.readAt_apply, Memref.view_whole, View.read_whole]; exact hb.1 _))); try unfold SparseCore.vectorLoadIdx)
    sl_step
    isplitr
    · ipureintro
      intro y
      refine ⟨?_, ?_, ?_, ?_, ?_, ?_, ?_, ?_⟩
      · exact Cert.Proof.TileVal.seq_step f8 f10 f13 f16 f18 f20 f28 (Cert.Proof.TileVal.wOf L) 0 (25 * 5 + k.val) _ _ _ (fun z => (hacc z).1)
          (fun z => (hb.2 _ _ z).trans (by rw [k0_off45_eq]; congr 1; simp <;> omega))
          (fun z => Cert.Proof.TileVal.stab_gather f20 f28 g hg _ _ z) y
      · exact Cert.Proof.TileVal.seq_step f8 f10 f13 f16 f18 f20 f28 (Cert.Proof.TileVal.wOf L) 1 (25 * 5 + k.val) _ _ _ (fun z => (hacc z).2.1)
          (fun z => (hb.2 _ _ z).trans (by rw [k0_off46_eq]; congr 1; simp <;> omega))
          (fun z => Cert.Proof.TileVal.stab_gather f20 f28 g hg _ _ z) y
      · exact Cert.Proof.TileVal.seq_step f8 f10 f13 f16 f18 f20 f28 (Cert.Proof.TileVal.wOf L) 2 (25 * 5 + k.val) _ _ _ (fun z => (hacc z).2.2.1)
          (fun z => (hb.2 _ _ z).trans (by rw [k0_off47_eq]; congr 1; simp <;> omega))
          (fun z => Cert.Proof.TileVal.stab_gather f20 f28 g hg _ _ z) y
      · exact Cert.Proof.TileVal.seq_step f8 f10 f13 f16 f18 f20 f28 (Cert.Proof.TileVal.wOf L) 3 (25 * 5 + k.val) _ _ _ (fun z => (hacc z).2.2.2.1)
          (fun z => (hb.2 _ _ z).trans (by rw [k0_off48_eq]; congr 1; simp <;> omega))
          (fun z => Cert.Proof.TileVal.stab_gather f20 f28 g hg _ _ z) y
      · exact Cert.Proof.TileVal.seq_step f8 f10 f13 f16 f18 f20 f28 (Cert.Proof.TileVal.wOf L) 4 (25 * 5 + k.val) _ _ _ (fun z => (hacc z).2.2.2.2.1)
          (fun z => (hb.2 _ _ z).trans (by rw [k0_off49_eq]; congr 1; simp <;> omega))
          (fun z => Cert.Proof.TileVal.stab_gather f20 f28 g hg _ _ z) y
      · exact Cert.Proof.TileVal.seq_step f8 f10 f13 f16 f18 f20 f28 (Cert.Proof.TileVal.wOf L) 5 (25 * 5 + k.val) _ _ _ (fun z => (hacc z).2.2.2.2.2.1)
          (fun z => (hb.2 _ _ z).trans (by rw [k0_off50_eq]; congr 1; simp <;> omega))
          (fun z => Cert.Proof.TileVal.stab_gather f20 f28 g hg _ _ z) y
      · exact Cert.Proof.TileVal.seq_step f8 f10 f13 f16 f18 f20 f28 (Cert.Proof.TileVal.wOf L) 6 (25 * 5 + k.val) _ _ _ (fun z => (hacc z).2.2.2.2.2.2.1)
          (fun z => (hb.2 _ _ z).trans (by rw [k0_off51_eq]; congr 1; simp <;> omega))
          (fun z => Cert.Proof.TileVal.stab_gather f20 f28 g hg _ _ z) y
      · exact Cert.Proof.TileVal.seq_step f8 f10 f13 f16 f18 f20 f28 (Cert.Proof.TileVal.wOf L) 7 (25 * 5 + k.val) _ _ _ (fun z => (hacc z).2.2.2.2.2.2.2)
          (fun z => (hb.2 _ _ z).trans (by rw [k0_off52_eq]; congr 1; simp <;> omega))
          (fun z => Cert.Proof.TileVal.stab_gather f20 f28 g hg _ _ z) y
    isplitl [Hib]
    · iexists b; isplitr
      · ipureintro; exact hb
      · iexact Hib
    · iexists g; isplitr
      · ipureintro; exact hg
      · iexact Hst
  · isplitr
    · ipureintro
      have h := haccL5
      rw [show Scf.trips k0_t5_loop.lb k0_t5_loop.ub k0_t5_loop.st = 25 from by decide] at h
      exact h
    isplitl [Hs5]
    · iexists _; isplitr
      rotate_left
      · iexact Hs5
      · ipureintro
        refine ⟨fun x => ?_, fun offc inb y => ?_⟩
        · first
          | (simp only [Memref.view_whole, View.write_whole_univ]; exact hidx.2.2 _)
          | (sl_unfold_run_names; simp only [Memref.view_whole, View.write_whole_univ, ReadAs.apply_same]; exact hidx.2.2 _)
        · sl_unfold_run_names
          rw [Cert.Proof.TileVal.seq_ids_at5 (F := Ideal)]
          have e : k0_off4 L 16000#32 = ![51200 * (L 1).val + 25600 * (L 0).val + 3200 * (5 : Nat)] := k0_off4_eq L ⟨5, by decide⟩
          rw [e]
          congr 1
          simp [Cert.Proof.TileVal.wOf]
          omega
    · iexists gL5; isplitr
      · ipureintro; exact hgL5
      · iexact Hs3
  iintro %accL6 HI
  icases HI with ⟨%haccL6, ⟨%bL6, %hbL6, Hs5⟩, ⟨%gL6, %hgL6, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (k : Nat) (aa : FVec Ideal S16 .f32 × FVec Ideal S16 .f32 × FVec Ideal S16 .f32 × FVec Ideal S16 .f32 × FVec Ideal S16 .f32 × FVec Ideal S16 .f32 × FVec Ideal S16 .f32 × FVec Ideal S16 .f32) =>
      (iprop(⌜AccOK f8 f10 f13 f16 f18 f20 f28 (Cert.Proof.TileVal.wOf L) (25 * 6 + k) aa⌝
        ∗ (∃ b, ⌜(∀ x, (b x).toNat < 100000) ∧ ChunkOK4 f13 (Cert.Proof.TileVal.wOf L) 6 b⌝ ∗ (Memref.whole cc0_scratch4 : Memref sig .scVector .vmem S3200 .i32).view.loc (V d (cV L) (jV L)) ↦{fullShare} b)
        ∗ (∃ g, ⌜StabOK f20 f28 g⌝ ∗ (Memref.whole cc0_scratch3 : Memref sig .scVector .vmem S100000 .f32).view.loc (V d (cV L) (jV L)) ↦{fullShare} g)) : sProp (MT nD τ sig (HIx 1) (Elt Ideal) ℕ UU ℕ))) $$ [Hs4 Hs3]
  case region =>
    intro k acc
    iintro ⟨%hacc, ⟨%b, %hb, Hib⟩, ⟨%g, %hg, Hst⟩⟩
    iterate 4 (sl_exec_parts (disch := first
      | sl_decide
      | exact IdxFacts.one_in_table (fun x => by
          first
          | (simp only [View.readAt_apply, Memref.view_whole, View.read_whole]; exact hb.1 _)
          | (sl_unfold_run_names; simp only [View.readAt_apply, Memref.view_whole, View.read_whole]; exact hb.1 _))); try unfold SparseCore.vectorLoadIdx)
    sl_step
    isplitr
    · ipureintro
      intro y
      refine ⟨?_, ?_, ?_, ?_, ?_, ?_, ?_, ?_⟩
      · exact Cert.Proof.TileVal.seq_step f8 f10 f13 f16 f18 f20 f28 (Cert.Proof.TileVal.wOf L) 0 (25 * 6 + k.val) _ _ _ (fun z => (hacc z).1)
          (fun z => (hb.2 _ _ z).trans (by rw [k0_off53_eq]; congr 1; simp <;> omega))
          (fun z => Cert.Proof.TileVal.stab_gather f20 f28 g hg _ _ z) y
      · exact Cert.Proof.TileVal.seq_step f8 f10 f13 f16 f18 f20 f28 (Cert.Proof.TileVal.wOf L) 1 (25 * 6 + k.val) _ _ _ (fun z => (hacc z).2.1)
          (fun z => (hb.2 _ _ z).trans (by rw [k0_off54_eq]; congr 1; simp <;> omega))
          (fun z => Cert.Proof.TileVal.stab_gather f20 f28 g hg _ _ z) y
      · exact Cert.Proof.TileVal.seq_step f8 f10 f13 f16 f18 f20 f28 (Cert.Proof.TileVal.wOf L) 2 (25 * 6 + k.val) _ _ _ (fun z => (hacc z).2.2.1)
          (fun z => (hb.2 _ _ z).trans (by rw [k0_off55_eq]; congr 1; simp <;> omega))
          (fun z => Cert.Proof.TileVal.stab_gather f20 f28 g hg _ _ z) y
      · exact Cert.Proof.TileVal.seq_step f8 f10 f13 f16 f18 f20 f28 (Cert.Proof.TileVal.wOf L) 3 (25 * 6 + k.val) _ _ _ (fun z => (hacc z).2.2.2.1)
          (fun z => (hb.2 _ _ z).trans (by rw [k0_off56_eq]; congr 1; simp <;> omega))
          (fun z => Cert.Proof.TileVal.stab_gather f20 f28 g hg _ _ z) y
      · exact Cert.Proof.TileVal.seq_step f8 f10 f13 f16 f18 f20 f28 (Cert.Proof.TileVal.wOf L) 4 (25 * 6 + k.val) _ _ _ (fun z => (hacc z).2.2.2.2.1)
          (fun z => (hb.2 _ _ z).trans (by rw [k0_off57_eq]; congr 1; simp <;> omega))
          (fun z => Cert.Proof.TileVal.stab_gather f20 f28 g hg _ _ z) y
      · exact Cert.Proof.TileVal.seq_step f8 f10 f13 f16 f18 f20 f28 (Cert.Proof.TileVal.wOf L) 5 (25 * 6 + k.val) _ _ _ (fun z => (hacc z).2.2.2.2.2.1)
          (fun z => (hb.2 _ _ z).trans (by rw [k0_off58_eq]; congr 1; simp <;> omega))
          (fun z => Cert.Proof.TileVal.stab_gather f20 f28 g hg _ _ z) y
      · exact Cert.Proof.TileVal.seq_step f8 f10 f13 f16 f18 f20 f28 (Cert.Proof.TileVal.wOf L) 6 (25 * 6 + k.val) _ _ _ (fun z => (hacc z).2.2.2.2.2.2.1)
          (fun z => (hb.2 _ _ z).trans (by rw [k0_off59_eq]; congr 1; simp <;> omega))
          (fun z => Cert.Proof.TileVal.stab_gather f20 f28 g hg _ _ z) y
      · exact Cert.Proof.TileVal.seq_step f8 f10 f13 f16 f18 f20 f28 (Cert.Proof.TileVal.wOf L) 7 (25 * 6 + k.val) _ _ _ (fun z => (hacc z).2.2.2.2.2.2.2)
          (fun z => (hb.2 _ _ z).trans (by rw [k0_off60_eq]; congr 1; simp <;> omega))
          (fun z => Cert.Proof.TileVal.stab_gather f20 f28 g hg _ _ z) y
    isplitl [Hib]
    · iexists b; isplitr
      · ipureintro; exact hb
      · iexact Hib
    · iexists g; isplitr
      · ipureintro; exact hg
      · iexact Hst
  · isplitr
    · ipureintro
      have h := haccL6
      rw [show Scf.trips k0_t6_loop.lb k0_t6_loop.ub k0_t6_loop.st = 25 from by decide] at h
      exact h
    isplitl [Hs4]
    · iexists _; isplitr
      rotate_left
      · iexact Hs4
      · ipureintro
        refine ⟨fun x => ?_, fun offc inb y => ?_⟩
        · first
          | (simp only [Memref.view_whole, View.write_whole_univ]; exact hidx.2.2 _)
          | (sl_unfold_run_names; simp only [Memref.view_whole, View.write_whole_univ, ReadAs.apply_same]; exact hidx.2.2 _)
        · sl_unfold_run_names
          rw [Cert.Proof.TileVal.seq_ids_at4 (F := Ideal)]
          have e : k0_off4 L 19200#32 = ![51200 * (L 1).val + 25600 * (L 0).val + 3200 * (6 : Nat)] := k0_off4_eq L ⟨6, by decide⟩
          rw [e]
          congr 1
          simp [Cert.Proof.TileVal.wOf]
          omega
    · iexists gL6; isplitr
      · ipureintro; exact hgL6
      · iexact Hs3
  iintro %accL7 HI
  icases HI with ⟨%haccL7, ⟨%bL7, %hbL7, Hs4⟩, ⟨%gL7, %hgL7, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_for (fun (k : Nat) (aa : FVec Ideal S16 .f32 × FVec Ideal S16 .f32 × FVec Ideal S16 .f32 × FVec Ideal S16 .f32 × FVec Ideal S16 .f32 × FVec Ideal S16 .f32 × FVec Ideal S16 .f32 × FVec Ideal S16 .f32) =>
      (iprop(⌜AccOK f8 f10 f13 f16 f18 f20 f28 (Cert.Proof.TileVal.wOf L) (25 * 7 + k) aa⌝
        ∗ (∃ b, ⌜(∀ x, (b x).toNat < 100000) ∧ ChunkOK5 f13 (Cert.Proof.TileVal.wOf L) 7 b⌝ ∗ (Memref.whole cc0_scratch5 : Memref sig .scVector .vmem S3200 .i32).view.loc (V d (cV L) (jV L)) ↦{fullShare} b)
        ∗ (∃ g, ⌜StabOK f20 f28 g⌝ ∗ (Memref.whole cc0_scratch3 : Memref sig .scVector .vmem S100000 .f32).view.loc (V d (cV L) (jV L)) ↦{fullShare} g)) : sProp (MT nD τ sig (HIx 1) (Elt Ideal) ℕ UU ℕ))) $$ [Hs5 Hs3]
  case region =>
    intro k acc
    iintro ⟨%hacc, ⟨%b, %hb, Hib⟩, ⟨%g, %hg, Hst⟩⟩
    iterate 4 (sl_exec_parts (disch := first
      | sl_decide
      | exact IdxFacts.one_in_table (fun x => by
          first
          | (simp only [View.readAt_apply, Memref.view_whole, View.read_whole]; exact hb.1 _)
          | (sl_unfold_run_names; simp only [View.readAt_apply, Memref.view_whole, View.read_whole]; exact hb.1 _))); try unfold SparseCore.vectorLoadIdx)
    sl_step
    isplitr
    · ipureintro
      intro y
      refine ⟨?_, ?_, ?_, ?_, ?_, ?_, ?_, ?_⟩
      · exact Cert.Proof.TileVal.seq_step f8 f10 f13 f16 f18 f20 f28 (Cert.Proof.TileVal.wOf L) 0 (25 * 7 + k.val) _ _ _ (fun z => (hacc z).1)
          (fun z => (hb.2 _ _ z).trans (by rw [k0_off61_eq]; congr 1; simp <;> omega))
          (fun z => Cert.Proof.TileVal.stab_gather f20 f28 g hg _ _ z) y
      · exact Cert.Proof.TileVal.seq_step f8 f10 f13 f16 f18 f20 f28 (Cert.Proof.TileVal.wOf L) 1 (25 * 7 + k.val) _ _ _ (fun z => (hacc z).2.1)
          (fun z => (hb.2 _ _ z).trans (by rw [k0_off62_eq]; congr 1; simp <;> omega))
          (fun z => Cert.Proof.TileVal.stab_gather f20 f28 g hg _ _ z) y
      · exact Cert.Proof.TileVal.seq_step f8 f10 f13 f16 f18 f20 f28 (Cert.Proof.TileVal.wOf L) 2 (25 * 7 + k.val) _ _ _ (fun z => (hacc z).2.2.1)
          (fun z => (hb.2 _ _ z).trans (by rw [k0_off63_eq]; congr 1; simp <;> omega))
          (fun z => Cert.Proof.TileVal.stab_gather f20 f28 g hg _ _ z) y
      · exact Cert.Proof.TileVal.seq_step f8 f10 f13 f16 f18 f20 f28 (Cert.Proof.TileVal.wOf L) 3 (25 * 7 + k.val) _ _ _ (fun z => (hacc z).2.2.2.1)
          (fun z => (hb.2 _ _ z).trans (by rw [k0_off64_eq]; congr 1; simp <;> omega))
          (fun z => Cert.Proof.TileVal.stab_gather f20 f28 g hg _ _ z) y
      · exact Cert.Proof.TileVal.seq_step f8 f10 f13 f16 f18 f20 f28 (Cert.Proof.TileVal.wOf L) 4 (25 * 7 + k.val) _ _ _ (fun z => (hacc z).2.2.2.2.1)
          (fun z => (hb.2 _ _ z).trans (by rw [k0_off65_eq]; congr 1; simp <;> omega))
          (fun z => Cert.Proof.TileVal.stab_gather f20 f28 g hg _ _ z) y
      · exact Cert.Proof.TileVal.seq_step f8 f10 f13 f16 f18 f20 f28 (Cert.Proof.TileVal.wOf L) 5 (25 * 7 + k.val) _ _ _ (fun z => (hacc z).2.2.2.2.2.1)
          (fun z => (hb.2 _ _ z).trans (by rw [k0_off66_eq]; congr 1; simp <;> omega))
          (fun z => Cert.Proof.TileVal.stab_gather f20 f28 g hg _ _ z) y
      · exact Cert.Proof.TileVal.seq_step f8 f10 f13 f16 f18 f20 f28 (Cert.Proof.TileVal.wOf L) 6 (25 * 7 + k.val) _ _ _ (fun z => (hacc z).2.2.2.2.2.2.1)
          (fun z => (hb.2 _ _ z).trans (by rw [k0_off67_eq]; congr 1; simp <;> omega))
          (fun z => Cert.Proof.TileVal.stab_gather f20 f28 g hg _ _ z) y
      · exact Cert.Proof.TileVal.seq_step f8 f10 f13 f16 f18 f20 f28 (Cert.Proof.TileVal.wOf L) 7 (25 * 7 + k.val) _ _ _ (fun z => (hacc z).2.2.2.2.2.2.2)
          (fun z => (hb.2 _ _ z).trans (by rw [k0_off68_eq]; congr 1; simp <;> omega))
          (fun z => Cert.Proof.TileVal.stab_gather f20 f28 g hg _ _ z) y
    isplitl [Hib]
    · iexists b; isplitr
      · ipureintro; exact hb
      · iexact Hib
    · iexists g; isplitr
      · ipureintro; exact hg
      · iexact Hst
  · isplitr
    · ipureintro
      have h := haccL7
      rw [show Scf.trips k0_t7_loop.lb k0_t7_loop.ub k0_t7_loop.st = 25 from by decide] at h
      exact h
    isplitl [Hs5]
    · iexists _; isplitr
      rotate_left
      · iexact Hs5
      · ipureintro
        refine ⟨fun x => ?_, fun offc inb y => ?_⟩
        · first
          | (simp only [Memref.view_whole, View.write_whole_univ]; exact hidx.2.2 _)
          | (sl_unfold_run_names; simp only [Memref.view_whole, View.write_whole_univ, ReadAs.apply_same]; exact hidx.2.2 _)
        · sl_unfold_run_names
          rw [Cert.Proof.TileVal.seq_ids_at5 (F := Ideal)]
          have e : k0_off4 L 22400#32 = ![51200 * (L 1).val + 25600 * (L 0).val + 3200 * (7 : Nat)] := k0_off4_eq L ⟨7, by decide⟩
          rw [e]
          congr 1
          simp [Cert.Proof.TileVal.wOf]
          omega
    · iexists gL7; isplitr
      · ipureintro; exact hgL7
      · iexact Hs3
  iintro %accL8 HI
  icases HI with ⟨%haccL8, ⟨%bL8, %hbL8, Hs5⟩, ⟨%gL8, %hgL8, Hs3⟩⟩
  sl_exec_parts (disch := first
      | sl_decide
      | exact IdxFacts.pair_in_row (fun _ => (by decide : (0#32 : BitVec 32).toNat < 1)) (fun x => IdxFacts.tail_vec_lt _ (fun y => by
          first
          | (simp only [View.readAt_apply, Memref.view_whole, View.write_whole_univ, View.read_whole]; exact hidx.2.1 _)
          | (sl_unfold_run_names; simp only [View.readAt_apply, Memref.view_whole, View.write_whole_univ, View.read_whole, ReadAs.apply_same]; exact hidx.2.1 _)) x))
  sl_step
  isplitl [H10 H8 H13 H16 H18 H20 H28]
  · skip
    isplitl [H10]; · iexact H10
    isplitl [H8]; · iexact H8
    isplitl [H13]; · iexact H13
    isplitl [H16]; · iexact H16
    isplitl [H18]; · iexact H18
    isplitl [H20]; · iexact H20
    iexact H28
  isplitl [H29]
  · iexists _; isplitr
    rotate_left
    · iexact H29
    · ipureintro
      intro y
      sl_unfold_run_names
      refine (Cert.Proof.TileValOut.stretch_read (F := Ideal) L _ _ accL8
        (fun r => Cert.Proof.KVal.seqAcc f8 f10 f13 f16 f18 f20 f28 (Cert.Proof.TileVal.wOf L) r.val 200) ?_ y).trans ?_
      · intro g l
        have hs : 25 * 7 + k0_t8_loop.trips = 200 := by decide
        have h := haccL8 (Idealize.ShloMosaic.ValueIdx.ix1 l)
        rw [hs] at h
        obtain ⟨h0, h1, h2, h3, h4, h5, h6, h7⟩ := h
        match g with
        | ⟨0, _⟩ => exact h0
        | ⟨1, _⟩ => exact h1
        | ⟨2, _⟩ => exact h2
        | ⟨3, _⟩ => exact h3
        | ⟨4, _⟩ => exact h4
        | ⟨5, _⟩ => exact h5
        | ⟨6, _⟩ => exact h6
        | ⟨7, _⟩ => exact h7
      · show Cert.Proof.KVal.seqAcc f8 f10 f13 f16 f18 f20 f28 (Cert.Proof.TileVal.wOf L) (y 0).val 200 = _
        unfold Cert.Proof.KVal.kernelRow
        have hy : (y 0).val < 128 := (y 0).isLt
        have e1 : (128 * Cert.Proof.TileVal.wOf L + (y 0).val) / 128 = Cert.Proof.TileVal.wOf L := by omega
        have e2 : (128 * Cert.Proof.TileVal.wOf L + (y 0).val) % 128 = (y 0).val := by omega
        show _ = Cert.Proof.KVal.seqAcc f8 f10 f13 f16 f18 f20 f28 ((128 * Cert.Proof.TileVal.wOf L + (y 0).val) / 128) ((128 * Cert.Proof.TileVal.wOf L + (y 0).val) % 128) 200
        rw [e1, e2]
  isplitl [Hs0 Hs1 Hs2 Hs3 Hs4 Hs5 Hs6 Hs7 Hs8]
  · skip
    isplitl [Hs0]; · (iexists _; iexact Hs0)
    isplitl [Hs1]; · (iexists _; iexact Hs1)
    isplitl [Hs2]; · (iexists _; iexact Hs2)
    isplitl [Hs3]; · (iexists _; iexact Hs3)
    isplitl [Hs4]; · (iexists _; iexact Hs4)
    isplitl [Hs5]; · (iexists _; iexact Hs5)
    isplitl [Hs6]; · (iexists _; iexact Hs6)
    isplitl [Hs7]; · (iexists _; iexact Hs7)
    (iexists _; iexact Hs8)
  isplitl [Hm0 Hm1 Hm2 Hm3 Hm4 Hm5 Hm6 Hm7 Hm8 Hm9]
  · skip
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    iexact Hm9
  iexists _; isplitr
  rotate_left
  · iexact HO
  · ipureintro
    repeat (first | exact fun p hp => .inl hp | apply ins_ok)

end Tile

end Cert.Proof.TileValKernelIdeal
end
-- ==== Proof.lean ====
/-
  The proof of `Cert.Claim`: the three programs run from any memory satisfying the precondition and leave their arguments
  unchanged; the idealization rewrote nothing; and, at the extended reals, the kernel and the reference both end with the
  same result, the specification's score of their common arguments (`Cert.FmSpec.score`: for each batch row the weighted
  float fields, plus the token fields' rows of the shared table, plus the masked sequence table's rows, plus the bias).
  The precondition enters through its integer content only: every token is inside its vocabulary, so every lookup is
  inside its table. The reference side is complete (`Cert.Proof.Ref.run`); the kernel's value as a pure function of the
  operands the host side builds, and its equality with the score, is `Cert.Proof.KVal.kernelRow_eq_score`. The kernel's
  run with that value is `kernel_run_value`: one vector subcore's task carries its 128 rows' values
  (`Cert.Proof.TileValKernelIdeal.tile_val`) and the launch gathers the 32 tasks' stretches into the result array
  (`Cert.Proof.LaunchKernelIdeal.kernel_run_value_of`).
-/
import proofs.«207587_g45655502356657_cont_8to1c4_548_39_alg».proof.Defs
import proofs.«207587_g45655502356657_cont_8to1c4_548_39_alg».proof.Proof.Gen.Kernel
import proofs.«207587_g45655502356657_cont_8to1c4_548_39_alg».proof.Proof.Gen.Kernel.Skeleton
import proofs.«207587_g45655502356657_cont_8to1c4_548_39_alg».proof.Proof.Gen.KernelIdeal
import proofs.«207587_g45655502356657_cont_8to1c4_548_39_alg».proof.Proof.Gen.KernelIdeal.Skeleton
import proofs.«207587_g45655502356657_cont_8to1c4_548_39_alg».proof.Proof.Gen.ReferenceIdeal
import proofs.«207587_g45655502356657_cont_8to1c4_548_39_alg».proof.Proof.Gen.Pre_input_domain
import proofs.«207587_g45655502356657_cont_8to1c4_548_39_alg».proof.Proof.Ref
import proofs.«207587_g45655502356657_cont_8to1c4_548_39_alg».proof.Proof.KVal
import proofs.«207587_g45655502356657_cont_8to1c4_548_39_alg».proof.Proof.LaunchKernel
import proofs.«207587_g45655502356657_cont_8to1c4_548_39_alg».proof.Proof.LaunchKernelIdeal
import proofs.«207587_g45655502356657_cont_8to1c4_548_39_alg».proof.Proof.KernelValue
import proofs.«207587_g45655502356657_cont_8to1c4_548_39_alg».proof.Proof.TileValKernelIdeal
import Idealize.ShloMosaic.Adequacy
import Idealize.ShloMosaic.Init

noncomputable section

namespace Cert.Proof

open Idealize.ShloMosaic Idealize.SL.Sem

/-! ## The kernel programs' runs -/

/-- The kernel as printed, at the bit-exact instance, runs and leaves its arguments unchanged. -/
theorem frame_Kernel_run : Cert.frame_Kernel :=
  fun m g hpre => (θ_run _ _ _).mono (fun _ h c => h c)
    (Cert.Proof.LaunchKernel.run_main (F := Bits) m g (fun c => Ref.inRange_of_fn _ _ _ _ _ _ _ (hpre c)))

/-- The idealized kernel runs and leaves its arguments unchanged. -/
theorem frame_KernelIdeal_run : Cert.frame_KernelIdeal :=
  fun m g hpre => (θ_run _ _ _).mono (fun _ h c => h c)
    (Cert.Proof.LaunchKernelIdeal.run_main (F := Ideal) m g (fun c => Ref.inRange_of_fn _ _ _ _ _ _ _ (hpre c)))

set_option maxRecDepth 200000 in
set_option maxHeartbeats 4000000 in
/-- THE KERNEL'S VALUE: the idealized kernel ends with its result at the specification's score of its arguments, and its
    arguments unchanged. -/
theorem kernel_run_value
    (m : (ℓ : Loc Cert.KernelIdeal.nD Cert.KernelIdeal.τ Cert.KernelIdeal.sig) → Buf (Elt Ideal) ℓ)
    (g : Dev Cert.KernelIdeal.nD → PrngReg) (hpre : Cert.Pre_KernelIdeal m) :
    θ_run (Cert.KernelIdeal.defs (F := Ideal)) (Cert.KernelIdeal.threads (F := Ideal)) ⟨m, fun _ => 0, g⟩
      (fun r => ∀ c : Dev Cert.KernelIdeal.nD,
        r.2.mem ((c.tc : Thread Cert.KernelIdeal.nD Cert.KernelIdeal.τ).loc Cert.KernelIdeal.main_v30) = Cert.FmSpec.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run _ _ _).mono (fun _ h c => h c)
    (Cert.Proof.LaunchKernelIdeal.kernel_run_value_of m g
      (fun d L O W hO q10 f10 q8 f8 q13 f13 q16 f16 q18 f18 q20 f20 q28 f28 f29 hidx =>
        Cert.Proof.TileValKernelIdeal.tile_val d L O W hO q10 f10 q8 f8 q13 f13 q16 f16 q18 f18 q20 f20 q28 f28 f29 hidx)
      (fun c => Ref.inRange_of_fn _ _ _ _ _ _ _ (hpre c)))

/-! ## The reference's run -/

/-- The reference runs and leaves its arguments unchanged: its run with the value dropped. -/
theorem frame_ReferenceIdeal_run : Cert.frame_ReferenceIdeal :=
  fun m g hpre => (θ_run _ _ _).mono (fun _ h c => (h c).2) (Ref.run m g (Ref.inRange_of_pre m hpre))

/-! ## Both sides end with the score -/

/-- From memories agreeing on the arguments, both programs end with the score of the kernel's arguments. -/
theorem algebraic_run : Cert.algebraic_KernelIdeal_ReferenceIdeal := by
  intro m g m' g' hpre hagree
  have hR : ∀ c : Dev Cert.ReferenceIdeal.nD,
      Cert.FmSpec.InRange (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) := by
    intro c
    rw [(hagree c).2.1, (hagree c).2.2.1]
    exact Ref.inRange_of_fn _ _ _ _ _ _ _ (hpre c)
  refine ⟨fun c => Cert.FmSpec.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), kernel_run_value m g hpre, ?_⟩
  refine (θ_run _ _ _).mono (fun r h c => ⟨?_, (h c).2⟩) (Ref.run m' g' hR)
  rw [(h c).1, (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_input_domain.Gen.facts,
  frame_Kernel_run, frame_KernelIdeal_run, frame_ReferenceIdeal_run, trivial, algebraic_run⟩

end Cert.Proof

end
